-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  reducesTo_S_S_d : S_.ReducesTo [] S_

variable [Facts]

def fn {F : FTy → Type} [FloatOps F] (main_arg0 : FVec F S1 .f32) (main_arg1 : FVec F S_ .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S1 : Shape := ⟨1, ![1]⟩
abbrev S_ : Shape := ⟨0, ![]⟩
abbrev S1x1 : Shape := ⟨2, ![1, 1]⟩
abbrev S47x1x16384 : Shape := ⟨3, ![47, 1, 16384]⟩
abbrev S1x1x16384 : Shape := ⟨3, ![1, 1, 16384]⟩
abbrev S32x512 : Shape := ⟨2, ![32, 512]⟩
abbrev S512 : Shape := ⟨1, ![512]⟩
abbrev S1x1x512 : Shape := ⟨3, ![1, 1, 512]⟩
abbrev S770048 : Shape := ⟨1, ![770048]⟩
abbrev S16 : Shape := ⟨1, ![16]⟩
abbrev S278528 : Shape := ⟨1, ![278528]⟩
abbrev S8704 : Shape := ⟨1, ![8704]⟩
abbrev S1048576 : Shape := ⟨1, ![1048576]⟩

abbrev nBuf : Table → Nat
  | .hbm => 20
  | .local .tc .vmem => 3
  | .local .scVector .vmem => 2
  | _ => 0

abbrev bufTy : (tb : Table) → Fin (nBuf tb) → BufTy
  | .hbm, ⟨0, _⟩ => ⟨S1, .f32⟩
  | .hbm, ⟨1, _⟩ => ⟨S_, .f32⟩
  | .hbm, ⟨2, _⟩ => ⟨S1x1, .f32⟩
  | .hbm, ⟨3, _⟩ => ⟨S47x1x16384, .i32⟩
  | .hbm, ⟨4, _⟩ => ⟨S770048, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i32⟩
  | .hbm, ⟨12, _⟩ => ⟨S_, .f32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16, .i32⟩
  | .hbm, ⟨18, _⟩ => ⟨S278528, .i32⟩
  | .hbm, ⟨19, _⟩ => ⟨S1048576, .i32⟩
  | .local .tc .vmem, ⟨0, _⟩ => ⟨S1x1, .f32⟩
  | .local .tc .vmem, ⟨1, _⟩ => ⟨S1x1x16384, .i32⟩
  | .local .tc .vmem, ⟨2, _⟩ => ⟨S1x1x16384, .i32⟩
  | .local .scVector .vmem, ⟨0, _⟩ => ⟨S16, .i32⟩
  | .local .scVector .vmem, ⟨1, _⟩ => ⟨S8704, .i32⟩
  | _, _ => ⟨S1, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => true
  | ⟨1, _⟩ => true
  | ⟨2, _⟩ => true
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v11_scv : Ref sig .scVector := ⟨.hbm, 17, rfl⟩
abbrev main_v12_scv : Ref sig .scVector := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem1_1 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![47], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_2 : BitVec 32 := 0#32
  let c136_i32 : BitVec 32 := 136#32
  let v12 : BitVec 32 := Scalar.addi c0_i32_2 c136_i32
  let c1_i32_3 : BitVec 32 := 1#32
  ⟨c0_i32_2, v12, c1_i32_3⟩
@[reducible] def k1_t2_loop : Scf.Loop 32 :=
  let c0_i32_7 : BitVec 32 := 0#32
  let c32_i32_8 : BitVec 32 := 32#32
  let v28 : BitVec 32 := Scalar.addi c0_i32_7 c32_i32_8
  let c1_i32_9 : BitVec 32 := 1#32
  ⟨c0_i32_7, v28, c1_i32_9⟩
def k1_off1 (k1_t1 : Fin k1_t1_loop.trips) (c0_i32_11 : BitVec 32) : Fin 1 → Nat :=
  let c0_i32_2 : BitVec 32 := 0#32
  let c1_i32_3 : BitVec 32 := 1#32
  let arg6 : BitVec 32 := Scf.iv c0_i32_2 c1_i32_3 k1_t1
  let c64_i32 : BitVec 32 := 64#32
  let v30 : BitVec 32 := Scalar.muli arg6 c64_i32
  let v31 : BitVec 32 := Scalar.addi v30 c0_i32_11
  let v32 : Index := Scalar.indexCast v31
  ![v32.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8704_i32_5 : BitVec 32 := 8704#32
  let v13 : BitVec 32 := Scalar.muli v1 c8704_i32_5
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  iota_S32x512_d0_w32 : S32x512.Iotas .tc 32 [0]
  iota_S32x512_d1_w32 : S32x512.Iotas .tc 32 [1]
  reduces_S32x512_S512 : S32x512.Reduces [0] S512
  inb_S1x1x16384_S1x1x512_0_0_0 : ∀ a, (![0, 0, 0] : Fin 3 → Nat) a + S1x1x512.size a ≤ S1x1x16384.size a
  h_S1x1x512 : 0 < S1x1x512.numel
  shapeCasts_S1x1x512_S512 : S1x1x512.ShapeCasts S512
  shapeCasts_S512_S1x1x512 : S512.ShapeCasts S1x1x512
  inb_S1x1x16384_S1x1x512_0_0_512 : ∀ a, (![0, 0, 512] : Fin 3 → Nat) a + S1x1x512.size a ≤ S1x1x16384.size a
  inb_S1x1x16384_S1x1x512_0_0_1024 : ∀ a, (![0, 0, 1024] : Fin 3 → Nat) a + S1x1x512.size a ≤ S1x1x16384.size a
  inb_S1x1x16384_S1x1x512_0_0_1536 : ∀ a, (![0, 0, 1536] : Fin 3 → Nat) a + S1x1x512.size a ≤ S1x1x16384.size a
  inb_S1x1x16384_S1x1x512_0_0_2048 : ∀ a, (![0, 0, 2048] : Fin 3 → Nat) a + S1x1x512.size a ≤ S1x1x16384.size a
  inb_S1x1x16384_S1x1x512_0_0_2560 : ∀ a, (![0, 0, 2560] : Fin 3 → Nat) a + S1x1x512.size a ≤ S1x1x16384.size a
  inb_S1x1x16384_S1x1x512_0_0_3072 : ∀ a, (![0, 0, 3072] : Fin 3 → Nat) a + S1x1x512.size a ≤ S1x1x16384.size a
  inb_S1x1x16384_S1x1x512_0_0_3584 : ∀ a, (![0, 0, 3584] : Fin 3 → Nat) a + S1x1x512.size a ≤ S1x1x16384.size a
  inb_S1x1x16384_S1x1x512_0_0_4096 : ∀ a, (![0, 0, 4096] : Fin 3 → Nat) a + S1x1x512.size a ≤ S1x1x16384.size a
  inb_S1x1x16384_S1x1x512_0_0_4608 : ∀ a, (![0, 0, 4608] : Fin 3 → Nat) a + S1x1x512.size a ≤ S1x1x16384.size a
  inb_S1x1x16384_S1x1x512_0_0_5120 : ∀ a, (![0, 0, 5120] : Fin 3 → Nat) a + S1x1x512.size a ≤ S1x1x16384.size a
  inb_S1x1x16384_S1x1x512_0_0_5632 : ∀ a, (![0, 0, 5632] : Fin 3 → Nat) a + S1x1x512.size a ≤ S1x1x16384.size a
  inb_S1x1x16384_S1x1x512_0_0_6144 : ∀ a, (![0, 0, 6144] : Fin 3 → Nat) a + S1x1x512.size a ≤ S1x1x16384.size a
  inb_S1x1x16384_S1x1x512_0_0_6656 : ∀ a, (![0, 0, 6656] : Fin 3 → Nat) a + S1x1x512.size a ≤ S1x1x16384.size a
  inb_S1x1x16384_S1x1x512_0_0_7168 : ∀ a, (![0, 0, 7168] : Fin 3 → Nat) a + S1x1x512.size a ≤ S1x1x16384.size a
  inb_S1x1x16384_S1x1x512_0_0_7680 : ∀ a, (![0, 0, 7680] : Fin 3 → Nat) a + S1x1x512.size a ≤ S1x1x16384.size a
  inb_S1x1x16384_S1x1x512_0_0_8192 : ∀ a, (![0, 0, 8192] : Fin 3 → Nat) a + S1x1x512.size a ≤ S1x1x16384.size a
  inb_S1x1x16384_S1x1x512_0_0_8704 : ∀ a, (![0, 0, 8704] : Fin 3 → Nat) a + S1x1x512.size a ≤ S1x1x16384.size a
  inb_S1x1x16384_S1x1x512_0_0_9216 : ∀ a, (![0, 0, 9216] : Fin 3 → Nat) a + S1x1x512.size a ≤ S1x1x16384.size a
  inb_S1x1x16384_S1x1x512_0_0_9728 : ∀ a, (![0, 0, 9728] : Fin 3 → Nat) a + S1x1x512.size a ≤ S1x1x16384.size a
  inb_S1x1x16384_S1x1x512_0_0_10240 : ∀ a, (![0, 0, 10240] : Fin 3 → Nat) a + S1x1x512.size a ≤ S1x1x16384.size a
  inb_S1x1x16384_S1x1x512_0_0_10752 : ∀ a, (![0, 0, 10752] : Fin 3 → Nat) a + S1x1x512.size a ≤ S1x1x16384.size a
  inb_S1x1x16384_S1x1x512_0_0_11264 : ∀ a, (![0, 0, 11264] : Fin 3 → Nat) a + S1x1x512.size a ≤ S1x1x16384.size a
  inb_S1x1x16384_S1x1x512_0_0_11776 : ∀ a, (![0, 0, 11776] : Fin 3 → Nat) a + S1x1x512.size a ≤ S1x1x16384.size a
  inb_S1x1x16384_S1x1x512_0_0_12288 : ∀ a, (![0, 0, 12288] : Fin 3 → Nat) a + S1x1x512.size a ≤ S1x1x16384.size a
  inb_S1x1x16384_S1x1x512_0_0_12800 : ∀ a, (![0, 0, 12800] : Fin 3 → Nat) a + S1x1x512.size a ≤ S1x1x16384.size a
  inb_S1x1x16384_S1x1x512_0_0_13312 : ∀ a, (![0, 0, 13312] : Fin 3 → Nat) a + S1x1x512.size a ≤ S1x1x16384.size a
  inb_S1x1x16384_S1x1x512_0_0_13824 : ∀ a, (![0, 0, 13824] : Fin 3 → Nat) a + S1x1x512.size a ≤ S1x1x16384.size a
  inb_S1x1x16384_S1x1x512_0_0_14336 : ∀ a, (![0, 0, 14336] : Fin 3 → Nat) a + S1x1x512.size a ≤ S1x1x16384.size a
  inb_S1x1x16384_S1x1x512_0_0_14848 : ∀ a, (![0, 0, 14848] : Fin 3 → Nat) a + S1x1x512.size a ≤ S1x1x16384.size a
  inb_S1x1x16384_S1x1x512_0_0_15360 : ∀ a, (![0, 0, 15360] : Fin 3 → Nat) a + S1x1x512.size a ≤ S1x1x16384.size a
  inb_S1x1x16384_S1x1x512_0_0_15872 : ∀ a, (![0, 0, 15872] : Fin 3 → Nat) a + S1x1x512.size a ≤ S1x1x16384.size a
  shapeCasts_S47x1x16384_S770048 : S47x1x16384.ShapeCasts S770048
  natLt_1_32 : 1 < 32
  bcast_S_S16 : S_.BroadcastsInDim S16 (![] : Fin 0 → Fin S16.rank)
  inb_S16_S16_0 : ∀ a, (![0] : Fin 1 → Nat) a + S16.size a ≤ S16.size a
  h_S16 : 0 < S16.numel
  shapeCasts_S16_S16 : S16.ShapeCasts S16
  iota_S16_d0_w32_scVector : S16.Iotas .scVector 32 [0]
  concatenates_S770048_S278528_S1048576_d0 : Shape.Concatenates [S770048, S278528] S1048576 0
  hcc1_scoped0 : 3 + S_.numel ≤ 5
  hcc1_scoped1 : 4 + S_.numel ≤ 5
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S47x1x16384.size a
  hwx0_1 : ∀ i : grid0.Coords, EltTy.bits .i32 = 32 ∨ (Rect.block (s := S47x1x16384) S1x1x16384.size (cc0_transform_1 i) (hinb0_1 i)).WholeWords (EltTy.packing .i32)
  hcore1 : grid1.bound 0 ≤ τ.nSC
  hsub1 : grid1.bound 1 ≤ τ.nSub
  k1_t1_ok : k1_t1_loop.OK
  k1_t2_ok : k1_t2_loop.OK
  k1_off1_inb : ∀ k1_t1 : Fin k1_t1_loop.trips, ∀ (r : Fin 4), ∀ a, (k1_off1 k1_t1 (BitVec.ofNat 32 (16 * r.val))) a + S16.size a ≤ S8704.size a
  k1_off2_inb : ∀ i : grid1.Coords, ∀ a, (k1_off2 i) a + S8704.size a ≤ S278528.size a

variable [Facts₀]

abbrev cc1_scoped0 : DmaSems sig S_ := SemArray.consecutive 3 S_ hcc1_scoped0
abbrev cc1_scoped1 : DmaSems sig S_ := SemArray.consecutive 4 S_ hcc1_scoped1

abbrev win0_0 : Pipeline.Window sig grid0 :=
  Pipeline.Window.ofSpec (Memref.whole main_v0) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1 : Shape := ⟨1, ![1]⟩
abbrev S_ : Shape := ⟨0, ![]⟩
abbrev S2 : Shape := ⟨1, ![2]⟩
abbrev S1x1 : Shape := ⟨2, ![1, 1]⟩
abbrev S1048576x32 : Shape := ⟨2, ![1048576, 32]⟩
abbrev S32 : Shape := ⟨1, ![32]⟩
abbrev S1x32 : Shape := ⟨2, ![1, 32]⟩
abbrev S1048576 : Shape := ⟨1, ![1048576]⟩

abbrev nBuf : Space → Nat
  | .hbm => 285
  | .vmem => 0
  | .smem => 0
  | _ => 0

abbrev hbmTy0_0 (i : Nat) : BufTy := match i % 128 with
  | 0 => ⟨S1, .f32⟩
  | 1 => ⟨S_, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S1048576x32, .i64⟩
  | 23 => ⟨S1048576x32, .i64⟩
  | 24 => ⟨S_, .i64⟩
  | 25 => ⟨S1048576x32, .i64⟩
  | 26 => ⟨S1048576x32, .i64⟩
  | 27 => ⟨S_, .i64⟩
  | 28 => ⟨S1048576x32, .i64⟩
  | 29 => ⟨S1048576x32, .i64⟩
  | 30 => ⟨S1048576x32, .i64⟩
  | 31 => ⟨S_, .i64⟩
  | 32 => ⟨S1048576x32, .i64⟩
  | 33 => ⟨S1048576x32, .i64⟩
  | 34 => ⟨S1048576x32, .i32⟩
  | 35 => ⟨S1048576x32, .i32⟩
  | 36 => ⟨S_, .i32⟩
  | 37 => ⟨S_, .i32⟩
  | 38 => ⟨S_, .i32⟩
  | 39 => ⟨S1048576x32, .i32⟩
  | 40 => ⟨S1048576x32, .i32⟩
  | 41 => ⟨S1048576x32, .i32⟩
  | 42 => ⟨S1048576x32, .i32⟩
  | 43 => ⟨S1048576x32, .i32⟩
  | 44 => ⟨S_, .i32⟩
  | 45 => ⟨S1048576x32, .i32⟩
  | 46 => ⟨S1048576x32, .i32⟩
  | 47 => ⟨S_, .i32⟩
  | 48 => ⟨S1048576x32, .i32⟩
  | 49 => ⟨S1048576x32, .i32⟩
  | 50 => ⟨S1048576x32, .i32⟩
  | 51 => ⟨S1048576x32, .i32⟩
  | 52 => ⟨S1048576x32, .i32⟩
  | 53 => ⟨S_, .i32⟩
  | 54 => ⟨S1048576x32, .i32⟩
  | 55 => ⟨S1048576x32, .i32⟩
  | 56 => ⟨S_, .i32⟩
  | 57 => ⟨S1048576x32, .i32⟩
  | 58 => ⟨S1048576x32, .i32⟩
  | 59 => ⟨S1048576x32, .i32⟩
  | 60 => ⟨S1048576x32, .i32⟩
  | 61 => ⟨S1048576x32, .i32⟩
  | 62 => ⟨S_, .i32⟩
  | 63 => ⟨S1048576x32, .i32⟩
  | 64 => ⟨S1048576x32, .i32⟩
  | 65 => ⟨S_, .i32⟩
  | 66 => ⟨S1048576x32, .i32⟩
  | 67 => ⟨S1048576x32, .i32⟩
  | 68 => ⟨S1048576x32, .i32⟩
  | 69 => ⟨S1048576x32, .i32⟩
  | 70 => ⟨S1048576x32, .i32⟩
  | 71 => ⟨S_, .i32⟩
  | 72 => ⟨S1048576x32, .i32⟩
  | 73 => ⟨S1048576x32, .i32⟩
  | 74 => ⟨S_, .i32⟩
  | 75 => ⟨S1048576x32, .i32⟩
  | 76 => ⟨S1048576x32, .i32⟩
  | 77 => ⟨S1048576x32, .i32⟩
  | 78 => ⟨S1048576x32, .i32⟩
  | 79 => ⟨S1048576x32, .i32⟩
  | 80 => ⟨S1048576x32, .i32⟩
  | 81 => ⟨S1048576x32, .i32⟩
  | 82 => ⟨S1048576x32, .i32⟩
  | 83 => ⟨S_, .i32⟩
  | 84 => ⟨S1048576x32, .i32⟩
  | 85 => ⟨S1048576x32, .i32⟩
  | 86 => ⟨S1048576x32, .i32⟩
  | 87 => ⟨S_, .i32⟩
  | 88 => ⟨S1048576x32, .i32⟩
  | 89 => ⟨S1048576x32, .i32⟩
  | 90 => ⟨S_, .i32⟩
  | 91 => ⟨S1048576x32, .i32⟩
  | 92 => ⟨S1048576x32, .i32⟩
  | 93 => ⟨S1048576x32, .i32⟩
  | 94 => ⟨S1048576x32, .i32⟩
  | 95 => ⟨S1048576x32, .i32⟩
  | 96 => ⟨S_, .i32⟩
  | 97 => ⟨S1048576x32, .i32⟩
  | 98 => ⟨S1048576x32, .i32⟩
  | 99 => ⟨S_, .i32⟩
  | 100 => ⟨S1048576x32, .i32⟩
  | 101 => ⟨S1048576x32, .i32⟩
  | 102 => ⟨S1048576x32, .i32⟩
  | 103 => ⟨S1048576x32, .i32⟩
  | 104 => ⟨S1048576x32, .i32⟩
  | 105 => ⟨S_, .i32⟩
  | 106 => ⟨S1048576x32, .i32⟩
  | 107 => ⟨S1048576x32, .i32⟩
  | 108 => ⟨S_, .i32⟩
  | 109 => ⟨S1048576x32, .i32⟩
  | 110 => ⟨S1048576x32, .i32⟩
  | 111 => ⟨S1048576x32, .i32⟩
  | 112 => ⟨S1048576x32, .i32⟩
  | 113 => ⟨S1048576x32, .i32⟩
  | 114 => ⟨S_, .i32⟩
  | 115 => ⟨S1048576x32, .i32⟩
  | 116 => ⟨S1048576x32, .i32⟩
  | 117 => ⟨S_, .i32⟩
  | 118 => ⟨S1048576x32, .i32⟩
  | 119 => ⟨S1048576x32, .i32⟩
  | 120 => ⟨S1048576x32, .i32⟩
  | 121 => ⟨S1048576x32, .i32⟩
  | 122 => ⟨S1048576x32, .i32⟩
  | 123 => ⟨S1048576x32, .i32⟩
  | 124 => ⟨S1048576x32, .i32⟩
  | 125 => ⟨S1048576x32, .i32⟩
  | 126 => ⟨S_, .i32⟩
  | 127 => ⟨S1048576x32, .i32⟩
  | _ => ⟨S1, .f32⟩

abbrev hbmTy0_1 (i : Nat) : BufTy := match i % 128 with
  | 0 => ⟨S1048576x32, .i32⟩
  | 1 => ⟨S1048576x32, .i32⟩
  | 2 => ⟨S_, .i32⟩
  | 3 => ⟨S1048576x32, .i32⟩
  | 4 => ⟨S1048576x32, .i32⟩
  | 5 => ⟨S_, .i32⟩
  | 6 => ⟨S1048576x32, .i32⟩
  | 7 => ⟨S1048576x32, .i32⟩
  | 8 => ⟨S1048576x32, .i32⟩
  | 9 => ⟨S1048576x32, .i32⟩
  | 10 => ⟨S1048576x32, .i32⟩
  | 11 => ⟨S_, .i32⟩
  | 12 => ⟨S1048576x32, .i32⟩
  | 13 => ⟨S1048576x32, .i32⟩
  | 14 => ⟨S_, .i32⟩
  | 15 => ⟨S1048576x32, .i32⟩
  | 16 => ⟨S1048576x32, .i32⟩
  | 17 => ⟨S1048576x32, .i32⟩
  | 18 => ⟨S1048576x32, .i32⟩
  | 19 => ⟨S1048576x32, .i32⟩
  | 20 => ⟨S_, .i32⟩
  | 21 => ⟨S1048576x32, .i32⟩
  | 22 => ⟨S1048576x32, .i32⟩
  | 23 => ⟨S_, .i32⟩
  | 24 => ⟨S1048576x32, .i32⟩
  | 25 => ⟨S1048576x32, .i32⟩
  | 26 => ⟨S1048576x32, .i32⟩
  | 27 => ⟨S1048576x32, .i32⟩
  | 28 => ⟨S1048576x32, .i32⟩
  | 29 => ⟨S_, .i32⟩
  | 30 => ⟨S1048576x32, .i32⟩
  | 31 => ⟨S1048576x32, .i32⟩
  | 32 => ⟨S_, .i32⟩
  | 33 => ⟨S1048576x32, .i32⟩
  | 34 => ⟨S1048576x32, .i32⟩
  | 35 => ⟨S1048576x32, .i32⟩
  | 36 => ⟨S1048576x32, .i32⟩
  | 37 => ⟨S1048576x32, .i32⟩
  | 38 => ⟨S1048576x32, .i32⟩
  | 39 => ⟨S1048576x32, .i32⟩
  | 40 => ⟨S1048576x32, .i32⟩
  | 41 => ⟨S_, .i32⟩
  | 42 => ⟨S1048576x32, .i32⟩
  | 43 => ⟨S1048576x32, .i32⟩
  | 44 => ⟨S1048576x32, .i32⟩
  | 45 => ⟨S_, .i32⟩
  | 46 => ⟨S1048576x32, .i32⟩
  | 47 => ⟨S1048576x32, .i32⟩
  | 48 => ⟨S_, .i32⟩
  | 49 => ⟨S1048576x32, .i32⟩
  | 50 => ⟨S1048576x32, .i32⟩
  | 51 => ⟨S1048576x32, .i32⟩
  | 52 => ⟨S1048576x32, .i32⟩
  | 53 => ⟨S1048576x32, .i32⟩
  | 54 => ⟨S_, .i32⟩
  | 55 => ⟨S1048576x32, .i32⟩
  | 56 => ⟨S1048576x32, .i32⟩
  | 57 => ⟨S_, .i32⟩
  | 58 => ⟨S1048576x32, .i32⟩
  | 59 => ⟨S1048576x32, .i32⟩
  | 60 => ⟨S1048576x32, .i32⟩
  | 61 => ⟨S1048576x32, .i32⟩
  | 62 => ⟨S1048576x32, .i32⟩
  | 63 => ⟨S_, .i32⟩
  | 64 => ⟨S1048576x32, .i32⟩
  | 65 => ⟨S1048576x32, .i32⟩
  | 66 => ⟨S_, .i32⟩
  | 67 => ⟨S1048576x32, .i32⟩
  | 68 => ⟨S1048576x32, .i32⟩
  | 69 => ⟨S1048576x32, .i32⟩
  | 70 => ⟨S1048576x32, .i32⟩
  | 71 => ⟨S1048576x32, .i32⟩
  | 72 => ⟨S_, .i32⟩
  | 73 => ⟨S1048576x32, .i32⟩
  | 74 => ⟨S1048576x32, .i32⟩
  | 75 => ⟨S_, .i32⟩
  | 76 => ⟨S1048576x32, .i32⟩
  | 77 => ⟨S1048576x32, .i32⟩
  | 78 => ⟨S1048576x32, .i32⟩
  | 79 => ⟨S1048576x32, .i32⟩
  | 80 => ⟨S1048576x32, .i32⟩
  | 81 => ⟨S1048576x32, .i32⟩
  | 82 => ⟨S1048576x32, .i32⟩
  | 83 => ⟨S1048576x32, .i32⟩
  | 84 => ⟨S_, .i32⟩
  | 85 => ⟨S1048576x32, .i32⟩
  | 86 => ⟨S1048576x32, .i32⟩
  | 87 => ⟨S1048576x32, .i32⟩
  | 88 => ⟨S_, .i32⟩
  | 89 => ⟨S1048576x32, .i32⟩
  | 90 => ⟨S1048576x32, .i32⟩
  | 91 => ⟨S_, .i32⟩
  | 92 => ⟨S1048576x32, .i32⟩
  | 93 => ⟨S1048576x32, .i32⟩
  | 94 => ⟨S1048576x32, .i32⟩
  | 95 => ⟨S1048576x32, .i32⟩
  | 96 => ⟨S1048576x32, .i32⟩
  | 97 => ⟨S_, .i32⟩
  | 98 => ⟨S1048576x32, .i32⟩
  | 99 => ⟨S1048576x32, .i32⟩
  | 100 => ⟨S_, .i32⟩
  | 101 => ⟨S1048576x32, .i32⟩
  | 102 => ⟨S1048576x32, .i32⟩
  | 103 => ⟨S1048576x32, .i32⟩
  | 104 => ⟨S1048576x32, .i32⟩
  | 105 => ⟨S1048576x32, .i32⟩
  | 106 => ⟨S_, .i32⟩
  | 107 => ⟨S1048576x32, .i32⟩
  | 108 => ⟨S1048576x32, .i32⟩
  | 109 => ⟨S_, .i32⟩
  | 110 => ⟨S1048576x32, .i32⟩
  | 111 => ⟨S1048576x32, .i32⟩
  | 112 => ⟨S1048576x32, .i32⟩
  | 113 => ⟨S1048576x32, .i32⟩
  | 114 => ⟨S1048576x32, .i32⟩
  | 115 => ⟨S_, .i32⟩
  | 116 => ⟨S1048576x32, .i32⟩
  | 117 => ⟨S1048576x32, .i32⟩
  | 118 => ⟨S_, .i32⟩
  | 119 => ⟨S1048576x32, .i32⟩
  | 120 => ⟨S1048576x32, .i32⟩
  | 121 => ⟨S1048576x32, .i32⟩
  | 122 => ⟨S1048576x32, .i32⟩
  | 123 => ⟨S1048576x32, .i32⟩
  | 124 => ⟨S1048576x32, .i32⟩
  | 125 => ⟨S1048576x32, .i32⟩
  | 126 => ⟨S1048576x32, .i32⟩
  | 127 => ⟨S_, .i32⟩
  | _ => ⟨S1, .f32⟩

abbrev hbmTy0_2 (i : Nat) : BufTy := match i % 128 with
  | 0 => ⟨S1048576x32, .i32⟩
  | 1 => ⟨S1048576x32, .i32⟩
  | 2 => ⟨S1048576x32, .i32⟩
  | 3 => ⟨S_, .i32⟩
  | 4 => ⟨S1048576x32, .i32⟩
  | 5 => ⟨S1048576x32, .i32⟩
  | 6 => ⟨S_, .i32⟩
  | 7 => ⟨S1048576x32, .i32⟩
  | 8 => ⟨S1048576x32, .i32⟩
  | 9 => ⟨S1048576x32, .f32⟩
  | 10 => ⟨S_, .f32⟩
  | 11 => ⟨S1048576x32, .f32⟩
  | 12 => ⟨S1048576x32, .f32⟩
  | 13 => ⟨S1x1, .f32⟩
  | 14 => ⟨S1048576x32, .f32⟩
  | 15 => ⟨S1048576x32, .f32⟩
  | 16 => ⟨S1048576x32, .f32⟩
  | 17 => ⟨S1048576x32, .f32⟩
  | 18 => ⟨S1048576x32, .f32⟩
  | 19 => ⟨S1048576x32, .f32⟩
  | 20 => ⟨S1048576x32, .f32⟩
  | 21 => ⟨S1048576x32, .i1⟩
  | 22 => ⟨S1048576x32, .i32⟩
  | 23 => ⟨S32, .i32⟩
  | 24 => ⟨S1x32, .i32⟩
  | 25 => ⟨S1048576x32, .i32⟩
  | 26 => ⟨S1048576x32, .i32⟩
  | 27 => ⟨S_, .i32⟩
  | 28 => ⟨S1048576, .i32⟩
  | _ => ⟨S1, .f32⟩

abbrev hbmTy (i : Nat) : BufTy := match i / 128 with
  | 0 => hbmTy0_0 i
  | 1 => hbmTy0_1 i
  | 2 => hbmTy0_2 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_c : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_call0_v0 : Ref sig .tc := ⟨.hbm, 36, rfl⟩
abbrev main_call0_call0_c : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_c_0 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c_1 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_2 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_c_3 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_v19 : Ref sig .tc := ⟨.hbm, 60, rfl⟩
abbrev main_call0_call0_v20 : Ref sig .tc := ⟨.hbm, 61, rfl⟩
abbrev main_call0_call0_c_4 : Ref sig .tc := ⟨.hbm, 62, rfl⟩
abbrev main_call0_call0_v21 : Ref sig .tc := ⟨.hbm, 63, rfl⟩
abbrev main_call0_call0_v22 : Ref sig .tc := ⟨.hbm, 64, rfl⟩
abbrev main_call0_call0_c_5 : Ref sig .tc := ⟨.hbm, 65, rfl⟩
abbrev main_call0_call0_v23 : Ref sig .tc := ⟨.hbm, 66, rfl⟩
abbrev main_call0_call0_v24 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_v27 : Ref sig .tc := ⟨.hbm, 70, rfl⟩
abbrev main_call0_call0_c_6 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_c_7 : Ref sig .tc := ⟨.hbm, 74, rfl⟩
abbrev main_call0_call0_v30 : Ref sig .tc := ⟨.hbm, 75, rfl⟩
abbrev main_call0_call0_v31 : Ref sig .tc := ⟨.hbm, 76, rfl⟩
abbrev main_call0_call0_v32 : Ref sig .tc := ⟨.hbm, 77, rfl⟩
abbrev main_call0_call0_v33 : Ref sig .tc := ⟨.hbm, 78, rfl⟩
abbrev main_call0_call0_v34 : Ref sig .tc := ⟨.hbm, 79, rfl⟩
abbrev main_call0_call0_v35 : Ref sig .tc := ⟨.hbm, 80, rfl⟩
abbrev main_call0_call0_v36 : Ref sig .tc := ⟨.hbm, 81, rfl⟩
abbrev main_call0_call0_v37 : Ref sig .tc := ⟨.hbm, 82, rfl⟩
abbrev main_call0_call0_c_8 : Ref sig .tc := ⟨.hbm, 83, rfl⟩
abbrev main_call0_call0_v38 : Ref sig .tc := ⟨.hbm, 84, rfl⟩
abbrev main_call0_call0_v39 : Ref sig .tc := ⟨.hbm, 85, rfl⟩
abbrev main_call0_call0_v40 : Ref sig .tc := ⟨.hbm, 86, rfl⟩
abbrev main_call0_call0_c_9 : Ref sig .tc := ⟨.hbm, 87, rfl⟩
abbrev main_call0_call0_v41 : Ref sig .tc := ⟨.hbm, 88, rfl⟩
abbrev main_call0_call0_v42 : Ref sig .tc := ⟨.hbm, 89, rfl⟩
abbrev main_call0_call0_c_10 : Ref sig .tc := ⟨.hbm, 90, rfl⟩
abbrev main_call0_call0_v43 : Ref sig .tc := ⟨.hbm, 91, rfl⟩
abbrev main_call0_call0_v44 : Ref sig .tc := ⟨.hbm, 92, rfl⟩
abbrev main_call0_call0_v45 : Ref sig .tc := ⟨.hbm, 93, rfl⟩
abbrev main_call0_call0_v46 : Ref sig .tc := ⟨.hbm, 94, rfl⟩
abbrev main_call0_call0_v47 : Ref sig .tc := ⟨.hbm, 95, rfl⟩
abbrev main_call0_call0_c_11 : Ref sig .tc := ⟨.hbm, 96, rfl⟩
abbrev main_call0_call0_v48 : Ref sig .tc := ⟨.hbm, 97, rfl⟩
abbrev main_call0_call0_v49 : Ref sig .tc := ⟨.hbm, 98, rfl⟩
abbrev main_call0_call0_c_12 : Ref sig .tc := ⟨.hbm, 99, rfl⟩
abbrev main_call0_call0_v50 : Ref sig .tc := ⟨.hbm, 100, rfl⟩
abbrev main_call0_call0_v51 : Ref sig .tc := ⟨.hbm, 101, rfl⟩
abbrev main_call0_call0_v52 : Ref sig .tc := ⟨.hbm, 102, rfl⟩
abbrev main_call0_call0_v53 : Ref sig .tc := ⟨.hbm, 103, rfl⟩
abbrev main_call0_call0_v54 : Ref sig .tc := ⟨.hbm, 104, rfl⟩
abbrev main_call0_call0_c_13 : Ref sig .tc := ⟨.hbm, 105, rfl⟩
abbrev main_call0_call0_v55 : Ref sig .tc := ⟨.hbm, 106, rfl⟩
abbrev main_call0_call0_v56 : Ref sig .tc := ⟨.hbm, 107, rfl⟩
abbrev main_call0_call0_c_14 : Ref sig .tc := ⟨.hbm, 108, rfl⟩
abbrev main_call0_call0_v57 : Ref sig .tc := ⟨.hbm, 109, rfl⟩
abbrev main_call0_call0_v58 : Ref sig .tc := ⟨.hbm, 110, rfl⟩
abbrev main_call0_call0_v59 : Ref sig .tc := ⟨.hbm, 111, rfl⟩
abbrev main_call0_call0_v60 : Ref sig .tc := ⟨.hbm, 112, rfl⟩
abbrev main_call0_call0_v61 : Ref sig .tc := ⟨.hbm, 113, rfl⟩
abbrev main_call0_call0_c_15 : Ref sig .tc := ⟨.hbm, 114, rfl⟩
abbrev main_call0_call0_v62 : Ref sig .tc := ⟨.hbm, 115, rfl⟩
abbrev main_call0_call0_v63 : Ref sig .tc := ⟨.hbm, 116, rfl⟩
abbrev main_call0_call0_c_16 : Ref sig .tc := ⟨.hbm, 117, rfl⟩
abbrev main_call0_call0_v64 : Ref sig .tc := ⟨.hbm, 118, rfl⟩
abbrev main_call0_call0_v65 : Ref sig .tc := ⟨.hbm, 119, rfl⟩
abbrev main_call0_call0_v66 : Ref sig .tc := ⟨.hbm, 120, rfl⟩
abbrev main_call0_call0_v67 : Ref sig .tc := ⟨.hbm, 121, rfl⟩
abbrev main_call0_call0_v68 : Ref sig .tc := ⟨.hbm, 122, rfl⟩
abbrev main_call0_call0_v69 : Ref sig .tc := ⟨.hbm, 123, rfl⟩
abbrev main_call0_call0_v70 : Ref sig .tc := ⟨.hbm, 124, rfl⟩
abbrev main_call0_call0_v71 : Ref sig .tc := ⟨.hbm, 125, rfl⟩
abbrev main_call0_call0_c_17 : Ref sig .tc := ⟨.hbm, 126, rfl⟩
abbrev main_call0_call0_v72 : Ref sig .tc := ⟨.hbm, 127, rfl⟩
abbrev main_call0_call0_v73 : Ref sig .tc := ⟨.hbm, 128, rfl⟩
abbrev main_call0_call0_v74 : Ref sig .tc := ⟨.hbm, 129, rfl⟩
abbrev main_call0_call0_c_18 : Ref sig .tc := ⟨.hbm, 130, rfl⟩
abbrev main_call0_call0_v75 : Ref sig .tc := ⟨.hbm, 131, rfl⟩
abbrev main_call0_call0_v76 : Ref sig .tc := ⟨.hbm, 132, rfl⟩
abbrev main_call0_call0_c_19 : Ref sig .tc := ⟨.hbm, 133, rfl⟩
abbrev main_call0_call0_v77 : Ref sig .tc := ⟨.hbm, 134, rfl⟩
abbrev main_call0_call0_v78 : Ref sig .tc := ⟨.hbm, 135, rfl⟩
abbrev main_call0_call0_v79 : Ref sig .tc := ⟨.hbm, 136, rfl⟩
abbrev main_call0_call0_v80 : Ref sig .tc := ⟨.hbm, 137, rfl⟩
abbrev main_call0_call0_v81 : Ref sig .tc := ⟨.hbm, 138, rfl⟩
abbrev main_call0_call0_c_20 : Ref sig .tc := ⟨.hbm, 139, rfl⟩
abbrev main_call0_call0_v82 : Ref sig .tc := ⟨.hbm, 140, rfl⟩
abbrev main_call0_call0_v83 : Ref sig .tc := ⟨.hbm, 141, rfl⟩
abbrev main_call0_call0_c_21 : Ref sig .tc := ⟨.hbm, 142, rfl⟩
abbrev main_call0_call0_v84 : Ref sig .tc := ⟨.hbm, 143, rfl⟩
abbrev main_call0_call0_v85 : Ref sig .tc := ⟨.hbm, 144, rfl⟩
abbrev main_call0_call0_v86 : Ref sig .tc := ⟨.hbm, 145, rfl⟩
abbrev main_call0_call0_v87 : Ref sig .tc := ⟨.hbm, 146, rfl⟩
abbrev main_call0_call0_v88 : Ref sig .tc := ⟨.hbm, 147, rfl⟩
abbrev main_call0_call0_c_22 : Ref sig .tc := ⟨.hbm, 148, rfl⟩
abbrev main_call0_call0_v89 : Ref sig .tc := ⟨.hbm, 149, rfl⟩
abbrev main_call0_call0_v90 : Ref sig .tc := ⟨.hbm, 150, rfl⟩
abbrev main_call0_call0_c_23 : Ref sig .tc := ⟨.hbm, 151, rfl⟩
abbrev main_call0_call0_v91 : Ref sig .tc := ⟨.hbm, 152, rfl⟩
abbrev main_call0_call0_v92 : Ref sig .tc := ⟨.hbm, 153, rfl⟩
abbrev main_call0_call0_v93 : Ref sig .tc := ⟨.hbm, 154, rfl⟩
abbrev main_call0_call0_v94 : Ref sig .tc := ⟨.hbm, 155, rfl⟩
abbrev main_call0_call0_v95 : Ref sig .tc := ⟨.hbm, 156, rfl⟩
abbrev main_call0_call0_c_24 : Ref sig .tc := ⟨.hbm, 157, rfl⟩
abbrev main_call0_call0_v96 : Ref sig .tc := ⟨.hbm, 158, rfl⟩
abbrev main_call0_call0_v97 : Ref sig .tc := ⟨.hbm, 159, rfl⟩
abbrev main_call0_call0_c_25 : Ref sig .tc := ⟨.hbm, 160, rfl⟩
abbrev main_call0_call0_v98 : Ref sig .tc := ⟨.hbm, 161, rfl⟩
abbrev main_call0_call0_v99 : Ref sig .tc := ⟨.hbm, 162, rfl⟩
abbrev main_call0_call0_v100 : Ref sig .tc := ⟨.hbm, 163, rfl⟩
abbrev main_call0_call0_v101 : Ref sig .tc := ⟨.hbm, 164, rfl⟩
abbrev main_call0_call0_v102 : Ref sig .tc := ⟨.hbm, 165, rfl⟩
abbrev main_call0_call0_v103 : Ref sig .tc := ⟨.hbm, 166, rfl⟩
abbrev main_call0_call0_v104 : Ref sig .tc := ⟨.hbm, 167, rfl⟩
abbrev main_call0_call0_v105 : Ref sig .tc := ⟨.hbm, 168, rfl⟩
abbrev main_call0_call0_c_26 : Ref sig .tc := ⟨.hbm, 169, rfl⟩
abbrev main_call0_call0_v106 : Ref sig .tc := ⟨.hbm, 170, rfl⟩
abbrev main_call0_call0_v107 : Ref sig .tc := ⟨.hbm, 171, rfl⟩
abbrev main_call0_call0_v108 : Ref sig .tc := ⟨.hbm, 172, rfl⟩
abbrev main_call0_call0_c_27 : Ref sig .tc := ⟨.hbm, 173, rfl⟩
abbrev main_call0_call0_v109 : Ref sig .tc := ⟨.hbm, 174, rfl⟩
abbrev main_call0_call0_v110 : Ref sig .tc := ⟨.hbm, 175, rfl⟩
abbrev main_call0_call0_c_28 : Ref sig .tc := ⟨.hbm, 176, rfl⟩
abbrev main_call0_call0_v111 : Ref sig .tc := ⟨.hbm, 177, rfl⟩
abbrev main_call0_call0_v112 : Ref sig .tc := ⟨.hbm, 178, rfl⟩
abbrev main_call0_call0_v113 : Ref sig .tc := ⟨.hbm, 179, rfl⟩
abbrev main_call0_call0_v114 : Ref sig .tc := ⟨.hbm, 180, rfl⟩
abbrev main_call0_call0_v115 : Ref sig .tc := ⟨.hbm, 181, rfl⟩
abbrev main_call0_call0_c_29 : Ref sig .tc := ⟨.hbm, 182, rfl⟩
abbrev main_call0_call0_v116 : Ref sig .tc := ⟨.hbm, 183, rfl⟩
abbrev main_call0_call0_v117 : Ref sig .tc := ⟨.hbm, 184, rfl⟩
abbrev main_call0_call0_c_30 : Ref sig .tc := ⟨.hbm, 185, rfl⟩
abbrev main_call0_call0_v118 : Ref sig .tc := ⟨.hbm, 186, rfl⟩
abbrev main_call0_call0_v119 : Ref sig .tc := ⟨.hbm, 187, rfl⟩
abbrev main_call0_call0_v120 : Ref sig .tc := ⟨.hbm, 188, rfl⟩
abbrev main_call0_call0_v121 : Ref sig .tc := ⟨.hbm, 189, rfl⟩
abbrev main_call0_call0_v122 : Ref sig .tc := ⟨.hbm, 190, rfl⟩
abbrev main_call0_call0_c_31 : Ref sig .tc := ⟨.hbm, 191, rfl⟩
abbrev main_call0_call0_v123 : Ref sig .tc := ⟨.hbm, 192, rfl⟩
abbrev main_call0_call0_v124 : Ref sig .tc := ⟨.hbm, 193, rfl⟩
abbrev main_call0_call0_c_32 : Ref sig .tc := ⟨.hbm, 194, rfl⟩
abbrev main_call0_call0_v125 : Ref sig .tc := ⟨.hbm, 195, rfl⟩
abbrev main_call0_call0_v126 : Ref sig .tc := ⟨.hbm, 196, rfl⟩
abbrev main_call0_call0_v127 : Ref sig .tc := ⟨.hbm, 197, rfl⟩
abbrev main_call0_call0_v128 : Ref sig .tc := ⟨.hbm, 198, rfl⟩
abbrev main_call0_call0_v129 : Ref sig .tc := ⟨.hbm, 199, rfl⟩
abbrev main_call0_call0_c_33 : Ref sig .tc := ⟨.hbm, 200, rfl⟩
abbrev main_call0_call0_v130 : Ref sig .tc := ⟨.hbm, 201, rfl⟩
abbrev main_call0_call0_v131 : Ref sig .tc := ⟨.hbm, 202, rfl⟩
abbrev main_call0_call0_c_34 : Ref sig .tc := ⟨.hbm, 203, rfl⟩
abbrev main_call0_call0_v132 : Ref sig .tc := ⟨.hbm, 204, rfl⟩
abbrev main_call0_call0_v133 : Ref sig .tc := ⟨.hbm, 205, rfl⟩
abbrev main_call0_call0_v134 : Ref sig .tc := ⟨.hbm, 206, rfl⟩
abbrev main_call0_call0_v135 : Ref sig .tc := ⟨.hbm, 207, rfl⟩
abbrev main_call0_call0_v136 : Ref sig .tc := ⟨.hbm, 208, rfl⟩
abbrev main_call0_call0_v137 : Ref sig .tc := ⟨.hbm, 209, rfl⟩
abbrev main_call0_call0_v138 : Ref sig .tc := ⟨.hbm, 210, rfl⟩
abbrev main_call0_call0_v139 : Ref sig .tc := ⟨.hbm, 211, rfl⟩
abbrev main_call0_call0_c_35 : Ref sig .tc := ⟨.hbm, 212, rfl⟩
abbrev main_call0_call0_v140 : Ref sig .tc := ⟨.hbm, 213, rfl⟩
abbrev main_call0_call0_v141 : Ref sig .tc := ⟨.hbm, 214, rfl⟩
abbrev main_call0_call0_v142 : Ref sig .tc := ⟨.hbm, 215, rfl⟩
abbrev main_call0_call0_c_36 : Ref sig .tc := ⟨.hbm, 216, rfl⟩
abbrev main_call0_call0_v143 : Ref sig .tc := ⟨.hbm, 217, rfl⟩
abbrev main_call0_call0_v144 : Ref sig .tc := ⟨.hbm, 218, rfl⟩
abbrev main_call0_call0_c_37 : Ref sig .tc := ⟨.hbm, 219, rfl⟩
abbrev main_call0_call0_v145 : Ref sig .tc := ⟨.hbm, 220, rfl⟩
abbrev main_call0_call0_v146 : Ref sig .tc := ⟨.hbm, 221, rfl⟩
abbrev main_call0_call0_v147 : Ref sig .tc := ⟨.hbm, 222, rfl⟩
abbrev main_call0_call0_v148 : Ref sig .tc := ⟨.hbm, 223, rfl⟩
abbrev main_call0_call0_v149 : Ref sig .tc := ⟨.hbm, 224, rfl⟩
abbrev main_call0_call0_c_38 : Ref sig .tc := ⟨.hbm, 225, rfl⟩
abbrev main_call0_call0_v150 : Ref sig .tc := ⟨.hbm, 226, rfl⟩
abbrev main_call0_call0_v151 : Ref sig .tc := ⟨.hbm, 227, rfl⟩
abbrev main_call0_call0_c_39 : Ref sig .tc := ⟨.hbm, 228, rfl⟩
abbrev main_call0_call0_v152 : Ref sig .tc := ⟨.hbm, 229, rfl⟩
abbrev main_call0_call0_v153 : Ref sig .tc := ⟨.hbm, 230, rfl⟩
abbrev main_call0_call0_v154 : Ref sig .tc := ⟨.hbm, 231, rfl⟩
abbrev main_call0_call0_v155 : Ref sig .tc := ⟨.hbm, 232, rfl⟩
abbrev main_call0_call0_v156 : Ref sig .tc := ⟨.hbm, 233, rfl⟩
abbrev main_call0_call0_c_40 : Ref sig .tc := ⟨.hbm, 234, rfl⟩
abbrev main_call0_call0_v157 : Ref sig .tc := ⟨.hbm, 235, rfl⟩
abbrev main_call0_call0_v158 : Ref sig .tc := ⟨.hbm, 236, rfl⟩
abbrev main_call0_call0_c_41 : Ref sig .tc := ⟨.hbm, 237, rfl⟩
abbrev main_call0_call0_v159 : Ref sig .tc := ⟨.hbm, 238, rfl⟩
abbrev main_call0_call0_v160 : Ref sig .tc := ⟨.hbm, 239, rfl⟩
abbrev main_call0_call0_v161 : Ref sig .tc := ⟨.hbm, 240, rfl⟩
abbrev main_call0_call0_v162 : Ref sig .tc := ⟨.hbm, 241, rfl⟩
abbrev main_call0_call0_v163 : Ref sig .tc := ⟨.hbm, 242, rfl⟩
abbrev main_call0_call0_c_42 : Ref sig .tc := ⟨.hbm, 243, rfl⟩
abbrev main_call0_call0_v164 : Ref sig .tc := ⟨.hbm, 244, rfl⟩
abbrev main_call0_call0_v165 : Ref sig .tc := ⟨.hbm, 245, rfl⟩
abbrev main_call0_call0_c_43 : Ref sig .tc := ⟨.hbm, 246, rfl⟩
abbrev main_call0_call0_v166 : Ref sig .tc := ⟨.hbm, 247, rfl⟩
abbrev main_call0_call0_v167 : Ref sig .tc := ⟨.hbm, 248, rfl⟩
abbrev main_call0_call0_v168 : Ref sig .tc := ⟨.hbm, 249, rfl⟩
abbrev main_call0_call0_v169 : Ref sig .tc := ⟨.hbm, 250, rfl⟩
abbrev main_call0_call0_v170 : Ref sig .tc := ⟨.hbm, 251, rfl⟩
abbrev main_call0_v19_0 : Ref sig .tc := ⟨.hbm, 252, rfl⟩
abbrev main_call0_call0_v172 : Ref sig .tc := ⟨.hbm, 253, rfl⟩
abbrev main_call0_call0_v173 : Ref sig .tc := ⟨.hbm, 254, rfl⟩
abbrev main_call0_call0_c_44 : Ref sig .tc := ⟨.hbm, 255, rfl⟩
abbrev main_call0_call0_v174 : Ref sig .tc := ⟨.hbm, 256, rfl⟩
abbrev main_call0_v19_1 : Ref sig .tc := ⟨.hbm, 257, rfl⟩
abbrev main_call0_v20 : Ref sig .tc := ⟨.hbm, 258, rfl⟩
abbrev main_call0_c_2 : Ref sig .tc := ⟨.hbm, 259, rfl⟩
abbrev main_call0_v21 : Ref sig .tc := ⟨.hbm, 260, rfl⟩
abbrev main_call0_v22 : Ref sig .tc := ⟨.hbm, 261, rfl⟩
abbrev main_call0_c_3 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_cst : Ref sig .tc := ⟨.hbm, 266, rfl⟩
abbrev main_call0_v26 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_v7 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_c_3 : Ref sig .tc := ⟨.hbm, 283, rfl⟩
abbrev main_v15 : Ref sig .tc := ⟨.hbm, 284, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S1048576x32 : S_.BroadcastsInDim S1048576x32 (![] : Fin 0 → Fin S1048576x32.rank)
  natLt_32_64 : 32 < 64
  bcast_S1x1_S1048576x32_0_1 : S1x1.BroadcastsInDim S1048576x32 (![0, 1] : Fin 2 → Fin S1048576x32.rank)
  natLt_1_32 : 1 < 32
  shapeCasts_S32_S1x32 : S32.ShapeCasts S1x32
  bcast_S1x32_S1048576x32_0_1 : S1x32.BroadcastsInDim S1048576x32 (![0, 1] : Fin 2 → Fin S1048576x32.rank)
  reducesTo_S1048576x32_S1048576_d1 : S1048576x32.ReducesTo [1] S1048576
  h_S_ : 0 < S_.numel

variable [Facts₀]

class Facts : Prop extends Facts₀ where

variable [Facts]
-- ==== Proof.Spec.lean ====
/-
  The function both programs compute, stated once over machine words.

  A row `r` of the result is a 32-bit word whose bit `j` is one Bernoulli sample: the counter-based
  generator Threefry-2x32 (twenty rounds: five groups of four mixing steps, a key injection after each
  group) is run with key `(0, 42)` on the counter `(0, 32 r + j)`, its two output words are xor-ed, the
  top 23 bits `m` of that word are kept (`>>> 9`), and the sample is `m < th` for a threshold word `th`.
  Bit `j` of the row is set exactly when sample `j` is drawn, so the row is the sum (equally: the
  bitwise or) over `j` of `1 <<< j` for the drawn samples.

  The threshold is `⌈clip(p · 2²³, 0, 2²³)⌉` as a word; comparing the 23-bit integer `m` with it is the
  same as comparing the uniform variate `m / 2²³` with the probability `p` (module Threshold).
-/
import Mathlib.Data.BitVec

namespace Cert.Spec

/-- Rotate a word left by `r` (for `0 < r < 32`): shift left, shift right by the complement, or. -/
def rotl (x : BitVec 32) (r : Nat) : BitVec 32 := (x <<< r) ||| (x >>> (32 - r))

/-- One mixing step of Threefry on the pair `(x0, x1)` with rotation `r`:
    `x0 ← x0 + x1`, `x1 ← rotl x1 r`, `x1 ← x1 xor x0`. -/
def mix (s : BitVec 32 × BitVec 32) (r : Nat) : BitVec 32 × BitVec 32 :=
  (s.1 + s.2, rotl s.2 r ^^^ (s.1 + s.2))

/-- A group of four mixing steps with the given rotations. -/
def group (s : BitVec 32 × BitVec 32) (r0 r1 r2 r3 : Nat) : BitVec 32 × BitVec 32 :=
  mix (mix (mix (mix s r0) r1) r2) r3

/-- A key injection: add `a` to the first word and `b` to the second. -/
def inject (s : BitVec 32 × BitVec 32) (a b : BitVec 32) : BitVec 32 × BitVec 32 := (s.1 + a, s.2 + b)

/-- Threefry-2x32 with key `(k0, k1)` on the block `(x0, x1)`: the third key word is
    `k0 xor k1 xor 0x1BD11BDA`; groups alternate the rotations `13 15 26 6` and `17 29 16 24`; after group
    `i` (counting from 1) the key words `i mod 3` and `(i+1) mod 3` are injected, the second plus `i`. -/
def threefry (k0 k1 x0 x1 : BitVec 32) : BitVec 32 × BitVec 32 :=
  let k2 : BitVec 32 := k0 ^^^ k1 ^^^ 0x1BD11BDA#32
  let s0 : BitVec 32 × BitVec 32 := (x0 + k0, x1 + k1)
  let s1 := inject (group s0 13 15 26 6) k1 (k2 + 1#32)
  let s2 := inject (group s1 17 29 16 24) k2 (k0 + 2#32)
  let s3 := inject (group s2 13 15 26 6) k0 (k1 + 3#32)
  let s4 := inject (group s3 17 29 16 24) k1 (k2 + 4#32)
  inject (group s4 13 15 26 6) k2 (k0 + 5#32)

/-- The random word of counter `lo`: Threefry with key `(0, 42)` on `(0, lo)`, the two outputs xor-ed. -/
def bits (lo : BitVec 32) : BitVec 32 := (threefry 0#32 42#32 0#32 lo).1 ^^^ (threefry 0#32 42#32 0#32 lo).2

/-- The 23-bit integer of counter `lo`: the top 23 bits of its random word. -/
def mant (lo : BitVec 32) : BitVec 32 := bits lo >>> 9

/-- Sample `j` of row `r` under the threshold word `th`: its 23-bit integer is below `th` (unsigned). -/
def drawn (th : BitVec 32) (r j : Nat) : Bool := decide (mant (BitVec.ofNat 32 (32 * r + j)) < th)

/-- The contribution of sample `j` to its row's word. -/
def bitOf (th : BitVec 32) (r j : Nat) : BitVec 32 := if drawn th r j then 1#32 <<< j else 0#32

/-- Row `r`'s packed word: the sum over the 32 samples of their contributions. -/
def word (th : BitVec 32) (r : Nat) : BitVec 32 := ((List.range 32).map (bitOf th r)).sum

end Cert.Spec
-- ==== Proof.LaunchIdeal.lean ====
/-
  The launch of the idealized kernel's program: one TensorCore pallas_call (rows 0 … 770047, 47 grid points), host
  arithmetic for the threshold word, one SparseCore vector-subcore call on 2 × 16 tiles (rows 770048 … 1048575, 8704
  rows per tile), and the concatenation of the two results. This module fixes the program as the launch theorem sees
  it and the ghost state: the handshakes' rounds, the pipeline's staging cells' rounds, and the transfers' counters.
-/
import proofs.«203736_g78743930405654_cont_9to1c4b_297_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«203736_g78743930405654_cont_9to1c4b_297_23_alg».proof.Proof.Gen.KernelIdeal
import proofs.«203736_g78743930405654_cont_9to1c4b_297_23_alg».proof.Proof.Gen.KernelIdeal.Launch
import proofs.«203736_g78743930405654_cont_9to1c4b_297_23_alg».proof.Proof.Gen.KernelIdeal.Points
import proofs.«203736_g78743930405654_cont_9to1c4b_297_23_alg».proof.Proof.Spec

noncomputable section

namespace Cert.LaunchIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes' rounds × (the pipeline's staging cells' rounds × the transfers' counters) -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP; infer_instance

/-! ## The launch memory, the arrays the SparseCore call works on, and what the handshakes carry -/

variable (m : (ℓ : Loc nD τ sig) → Buf (Elt F) ℓ) (ρ : Dev nD → PrngReg)

/-- The threshold vector (16 copies of the threshold word) and the SparseCore call's result, as locations of device `d`. -/
abbrev thLoc (d : Dev nD) : Loc nD τ sig := (SparseCore.T d).loc main_v11
abbrev oLoc (d : Dev nD) : Loc nD τ sig := (SparseCore.T d).loc main_v12

variable [FloatOps F]

theorem hdiv32 : 32 ∣ S278528.size 0 := ⟨8704, rfl⟩
/-- The 8704 rows of tile number `w` (`w = 2 · subcore + core`). -/
abbrev tileRows (w : Fin 32) : Rect S278528 := Rect.part (s := S278528) (a₀ := 0) hdiv32 w
abbrev tileSet (w : Fin 32) : Finset S278528.Idx := (tileRows w).set

/-- The tile number of subcore `i` of core `c`. -/
def wid (c : Fin ((K (F := F)).nCore 0)) (i : Fin ((K (F := F)).nSub 0)) : Fin 32 :=
  ⟨2 * i.val + c.val, by have := c.isLt; have := i.isLt; simp only [nCore_zero, nSub_zero] at *; omega⟩

/-- The SparseCore half of the result as one whole-array function of the threshold word: row `i` of it is row
    `770048 + i` of the result. -/
def outSC (th : BitVec 32) : IVec S278528 32 := fun i => Cert.Spec.word th (770048 + (i 0).val)

/-- What a tile is handed: a read share of the threshold vector (at contents `tv`) and its own rows of the result (at `f`). -/
def tilePay (d : Dev nD) (tv : Buf (Elt F) (thLoc d)) (w : Fin 32) (f : Buf (Elt F) (oLoc d)) : sProp 𝕄 :=
  iprop((thLoc d ↦{Transfers.shareTokN fullShare w.val} tv) ∗ (oLoc d ↦[tileSet w]{fullShare} f))

/-! ## @main as three straight lines of host operations around the two calls -/

section Main

variable [Cert.KernelIdeal.Facts]
open Cert.KernelIdeal.Facts₀ Cert.KernelIdeal.Facts

/-- Before the TensorCore call: the probability reshaped to a 1×1 block. -/
abbrev hostOps0 : List (HloOp τ sig (Elt F)) :=
  [StableHlo.reshape main_arg1 main_v0 rfl Facts₀.shapeCasts_S_S1x1]

/-- Between the calls: the TensorCore result flattened, and the threshold word computed on the host — the probability
    times 2²³, clipped to [0, 2²³], truncated, plus one when the truncation read back is below it — and broadcast to the
    16-word operand of the SparseCore call. -/
abbrev hostOps1 : List (HloOp τ sig (Elt F)) :=
  [StableHlo.reshape main_v1 main_v2 rfl Facts₀.shapeCasts_S47x1x16384_S770048,
   StableHlo.nullary main_cst (constant S_ .f32 0x4B000000#32),
   StableHlo.binary main_arg1 main_cst main_v3 (mulf : (⟨S_, .f32⟩ : BufTy).Contents (Elt F) → (⟨S_, .f32⟩ : BufTy).Contents (Elt F) → (⟨S_, .f32⟩ : BufTy).Contents (Elt F)),
   StableHlo.nullary main_cst_0 (constant S_ .f32 0x00000000#32),
   StableHlo.nullary main_cst_1 (constant S_ .f32 0x4B000000#32),
   StableHlo.TRef.binary (.of main_cst_0) (.of main_v3) main_call0.v0 maximumf,
   StableHlo.TRef.binary (.of main_cst_1) main_call0.v0 main_call0.v1 minimumf,
   StableHlo.unary main_v4 main_v5 (fptosi 32 : (⟨S_, .f32⟩ : BufTy).Contents (Elt F) → (⟨S_, .i32⟩ : BufTy).Contents (Elt F)),
   StableHlo.unary main_v5 main_v6 (sitofp .f32 : (⟨S_, .i32⟩ : BufTy).Contents (Elt F) → (⟨S_, .f32⟩ : BufTy).Contents (Elt F)),
   StableHlo.binary main_v6 main_v4 main_v7 (cmpf .olt : (⟨S_, .f32⟩ : BufTy).Contents (Elt F) → (⟨S_, .f32⟩ : BufTy).Contents (Elt F) → (⟨S_, .i1⟩ : BufTy).Contents (Elt F)),
   StableHlo.unary main_v7 main_v8 ((extui 32 · Facts₀.natLt_1_32) : (⟨S_, .i1⟩ : BufTy).Contents (Elt F) → (⟨S_, .i32⟩ : BufTy).Contents (Elt F)),
   StableHlo.binary main_v5 main_v8 main_v9 (addi : (⟨S_, .i32⟩ : BufTy).Contents (Elt F) → (⟨S_, .i32⟩ : BufTy).Contents (Elt F) → (⟨S_, .i32⟩ : BufTy).Contents (Elt F)),
   StableHlo.unary main_v9 main_v10 (id : (⟨S_, .i32⟩ : BufTy).Contents (Elt F) → (⟨S_, .i32⟩ : BufTy).Contents (Elt F)),
   StableHlo.unary main_v10 main_v11 (broadcastInDim S16 ![] Facts₀.bcast_S_S16 : (⟨S_, .i32⟩ : BufTy).Contents (Elt F) → (⟨S16, .i32⟩ : BufTy).Contents (Elt F))]

/-- After the SparseCore call: the two halves concatenated. -/
abbrev hostOps2 : List (HloOp τ sig (Elt F)) :=
  [StableHlo.binary main_v2 main_v12 main_v13 ((fun a b => concatenate S1048576 0 [⟨S770048, a⟩, ⟨S278528, b⟩] Facts₀.concatenates_S770048_S278528_S1048576_d0) : (⟨S770048, .i32⟩ : BufTy).Contents (Elt F) → (⟨S278528, .i32⟩ : BufTy).Contents (Elt F) → (⟨S1048576, .i32⟩ : BufTy).Contents (Elt F))]

set_option maxRecDepth 4096 in
theorem main_eq (d : Dev nD) :
    main (F := F) d = (StableHlo.seq hostOps0 >>= fun _ => Prog.lift (.customCall (SparseCore.inner (Pipeline.entry 0)) ()) >>= fun _ =>
      StableHlo.seq hostOps1 >>= fun _ => (sc (F := F)).run d 0 >>= fun _ => StableHlo.seq hostOps2) := by
  simp only [main, fn_clip.body, StableHlo.seq, bind_assoc, pure_bind]

end Main

end Cert.LaunchIdeal

end
-- ==== Proof.RegionIdeal.lean ====
/-
  The TensorCore pallas_call as a region of @main, over any description `outTC` of what the kernel body leaves in
  the output block for which the body's triple holds (`hsound`): the pipeline's proof data (the output block of grid
  point `t` is `outTC` of the point and the probability's block), the body obligation at every point, and the region
  as a segment entered from every unscoped buffer at one valuation and left at another.
-/
import proofs.«203736_g78743930405654_cont_9to1c4b_297_23_alg».proof.Proof.LaunchIdeal
import Idealize.ShloMosaic.Lib.Pipeline.FrameBody
import Idealize.ShloMosaic.Lib.Pipeline.FrameSuffix
import Idealize.ShloMosaic.Lib.Pipeline.RegionsLoop

noncomputable section

namespace Cert.LaunchIdeal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

section Region

variable (Vv : (c : Dev nD) → (b : Ref sig .tc) → Buf (Elt F) ((c : Thread nD τ).loc b))
variable (outTC : grid0.Coords → Vec F S1x1 .f32 → Vec F S1x1x16384 .i32)
variable (hsound : ∀ (c : Dev nD) (E : Set ℕ) (i : grid0.Coords) (arg1 : Memref sig .tc .vmem S1x1 .f32) (harg1 : arg1.IsWhole)
    (arg2 : Memref sig .tc .vmem S1x1x16384 .i32) (harg2 : arg2.IsWhole) (x0 : Vec F S1x1 .f32) (Kk : PUnit → sProp (MT nD τ sig (HIx 1) (Elt F) ℕ UU ℕ)),
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ Kk ⟨⟩))
      ⊢ wp frame (wpE (defs₀ (F := F)) Variants.none c none) E (cc0__tc_kernel i arg1 harg1 arg2 harg2) Kk)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The input window's current staging buffer holds its block at every point, fetched there or not. -/
theorem before0_0_of {c : Dev nD} (dat : Dat τ (Elt F) (HIx 1) ℕ UU ℕ cfg0 c) (hA : dat.A 0 = Vv c (Pipeline.arrRef spec0 0))
    (hafter : ∀ t, dat.after 0 t = iblk0 Vv c 0 t) (t : Fin cfg0.N) (d) : dat.before 0 t d = iblk0 Vv c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of the pipeline on core `c`: the arrays as the region finds them; after the body at point `t` the
    input's buffer at its block and the output's at `outTC` of the point and that block; the invariant the scoped rest and the
    generator register, untouched; the core owes, all through the region, the start signals of the SparseCore call. -/
def dat0 (c : Dev nD) : Dat τ (Elt F) (HIx 1) ℕ UU ℕ cfg0 c where
  A w := Vv c (Pipeline.arrRef spec0 w)
  after w t := match w with
    | ⟨0, _⟩ => iblk0 Vv c 0 t
    | ⟨1, _⟩ => outTC (grid0.coords t) (iblk0 Vv c 0 t)
  Φ _ := iprop(Pipeline.scopedRest spec0 c ∗ ∃ r, prngReg c r)
  q _ := fullShare
  owed _ := (K (F := F)).Otc c 0
  recorded _ := {p | (K (F := F)).lev ((c.tc : Thread nD τ), p.1) p.2 ≤ 0}

theorem A_eq0 (c : Dev nD) (w : Fin cfg0.W) : (dat0 Vv outTC c).A w = Vv c (Pipeline.arrRef spec0 w) := by
  dsimp only [dat0]
theorem after0_0 (c : Dev nD) (t : Fin cfg0.N) : (dat0 Vv outTC c).after 0 t = iblk0 Vv c 0 t := by dsimp only [dat0]
theorem after0_1 (c : Dev nD) (t : Fin cfg0.N) : (dat0 Vv outTC c).after 1 t = outTC (grid0.coords t) (iblk0 Vv c 0 t) := by dsimp only [dat0]
theorem before0_0 (c : Dev nD) (t : Fin cfg0.N) (d) : (dat0 Vv outTC c).before 0 t d = iblk0 Vv c 0 t :=
  before0_0_of Vv (dat0 Vv outTC c) (A_eq0 Vv outTC c 0) (after0_0 Vv outTC c) t d

def bodyPre0 (c : Dev nD) (t : Fin cfg0.N) : sProp 𝕄 :=
  iprop((dat0 Vv outTC c).Φ t.castSucc ∗ (dat0 Vv outTC c).owesAt none t.castSucc
    ∗ (∃ d, owns (c : Thread nD τ) (st0_0 t) fullShare ((dat0 Vv outTC c).before 0 t d))
    ∗ (∃ d, owns (c : Thread nD τ) (st0_1 t) fullShare ((dat0 Vv outTC c).before 1 t d)))

def bodyPost0 (c : Dev nD) (t : Fin cfg0.N) : sProp 𝕄 :=
  iprop((dat0 Vv outTC c).Φ t.succ ∗ (dat0 Vv outTC c).owesAt none t.succ
    ∗ owns (c : Thread nD τ) (st0_0 t) fullShare ((dat0 Vv outTC c).after 0 t)
    ∗ owns (c : Thread nD τ) (st0_1 t) fullShare ((dat0 Vv outTC c).after 1 t))

include hsound in
theorem sound_body0 (c : Dev nD) (t : Fin cfg0.N) :
    bodyPre0 Vv outTC c t ⊢ wp frame (wpE (defs₀ (F := F)) Variants.none c none) Set.univ (bodyAt0 t) (fun _ => bodyPost0 Vv outTC c t) := by
  unfold bodyPre0 bodyPost0 bodyAt0
  simp only [before0_0]
  rw [show (dat0 Vv outTC c).Φ t.succ = (dat0 Vv outTC c).Φ t.castSucc from rfl,
    show (dat0 Vv outTC c).owesAt none t.succ = (dat0 Vv outTC c).owesAt none t.castSucc from rfl,
    after0_0, after0_1]
  iintro ⟨HΦ, Ho, ⟨%d0, H0⟩, ⟨%d1, H1⟩⟩
  iapply (hsound c Set.univ (grid0.coords t) _ _ _ _ (iblk0 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

include hsound in
theorem body_obligation0 (c : Dev nD) : BodyObligation (dat0 (F := F) Vv outTC c) (defs₀ (F := F)) Variants.none none Set.univ := fun t => by
  rw [bigSep_W0, bigSep_W0]
  exact sound_body0 Vv outTC hsound c t

end Region

/-! ## The buffer contents at the region's two boundaries, and the region as a segment -/

section Run

variable [Cert.KernelIdeal.Facts]
variable (m : (ℓ : Loc nD τ sig) → Buf (Elt F) ℓ)
variable (outTC : grid0.Coords → Vec F S1x1 .f32 → Vec F S1x1x16384 .i32)
variable (hsound : ∀ (c : Dev nD) (E : Set ℕ) (i : grid0.Coords) (arg1 : Memref sig .tc .vmem S1x1 .f32) (harg1 : arg1.IsWhole)
    (arg2 : Memref sig .tc .vmem S1x1x16384 .i32) (harg2 : arg2.IsWhole) (x0 : Vec F S1x1 .f32) (Kk : PUnit → sProp (MT nD τ sig (HIx 1) (Elt F) ℕ UU ℕ)),
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ Kk ⟨⟩))
      ⊢ wp frame (wpE (defs₀ (F := F)) Variants.none c none) E (cc0__tc_kernel i arg1 harg1 arg2 harg2) Kk)

/-- Core `c`'s buffers at launch, -/
abbrev W0 : Dev nD → Valuation τ sig (Elt F) := fun c b => m (c, b)
/-- after the reshape (the region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- and at the region's exit: its arrays at what the pipeline leaves, every other buffer as entered. -/
def W2 (c : Dev nD) : Valuation τ sig (Elt F) :=
  Pipeline.withArrays spec0 c (W1 m c) fun w => (dat0 (V1 m) outTC c).arrAt w cfg0.N
theorem W2_arr (c : Dev nD) (w : Fin cfg0.W) :
    W2 m outTC c (Proc.devRef .tc (Pipeline.arrRef spec0 w)) = (dat0 (V1 m) outTC c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m outTC c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m outTC c b
theorem hF0 (c : Dev nD) (w : Fin cfg0.W) : (dat0 (V1 m) outTC c).arrAt w cfg0.N = V2 m outTC c (Pipeline.arrRef spec0 w) :=
  (W2_arr m outTC c w).symm
theorem hrest0 (c : Dev nD) : ∀ b, b ∉ Finset.univ.image (Pipeline.arrRef spec0) → V2 m outTC c b = V1 m c b :=
  fun b hb => W2_of_ne m outTC c b fun w e => hb (Finset.mem_image.mpr ⟨w, Finset.mem_univ _, e⟩)

/-- The prefetched tables' admissible contents: the pipeline has none. -/
abbrev adm : (p : Fin 1) → (pcfgs (F := F) p).Adm := fun p => (cfgs p).toPCfg_adm
/-- The pipeline's proof data at the region's entry contents (a literal match on the one pipeline). -/
def pdats : (p : Fin 1) → (c : Dev nD) → Dat τ (Elt F) (HIx 1) ℕ UU ℕ (Pipeline.pin (pcfgs (F := F)) adm p) c
  | ⟨0, _⟩ => fun c => dat0 (V1 m) outTC c

/-- What rides beside the buffers through the region: the generator register at some state and what the TensorCore
    owes — the start signals of the SparseCore call —, its recorded pairs at level zero. -/
abbrev Rr (c : Dev nD) : sProp 𝕄 :=
  iprop((∃ r, prngReg c r) ∗ ∃ W, ⌜(K (F := F)).WBelow (T c) W 0⌝ ∗ owes (T c) ((K (F := F)).Otc c 0) W)

theorem Otc_none (c : Dev nD) (n : ℕ) (g : GSem nD τ sig) : (K (F := F)).Otc c n g none = 0 := by
  by_contra h
  have := (K (F := F)).lev_of_Otc_pos (Nat.pos_of_ne_zero h); rw [SparseCore.Cfg.lev_none] at this; omega

set_option backward.isDefEq.respectTransparency.types false in
/-- The TensorCore call over the thread state: entered from every unscoped buffer at `W1`, left at `W2`. -/
def reg0 : Pipeline.RegionSeg (pcfgs (F := F)) adm (pdats m outTC) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) outTC hsound c).loose
  hwaits c := Pipeline.cellsWaits_intro (Pipeline.pin (pcfgs (F := F)) adm) (pdats m outTC) none 0 c
    fun w s t => (K (F := F)).mayWait_none _ (Otc_none c 0)
  pre c := iprop(StableHlo.held (c : Thread nD τ) (Pipeline.ucRefs τ sig) (W1 m c) ∗ Rr c)
  post c := iprop(StableHlo.held (c : Thread nD τ) (Pipeline.ucRefs τ sig) (W2 m outTC c) ∗ Rr c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m outTC) launch0.win launch0.arr_whole c
      ((pdats m outTC 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m outTC 0 c).Φ 0 = iprop(Pipeline.scopedRest spec0 c ∗ ∃ r, prngReg c r) from rfl]
    iintro ⟨Hp, -, Hr⟩
    isplitl [Hr]; · iexact Hr
    iexact Hp
  hout c := by
    rw [Pipeline.ownSems0_none, show (pdats m outTC 0 c).Φ (Fin.last _) = iprop(Pipeline.scopedRest spec0 c ∗ ∃ r, prngReg c r) from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m outTC) ((pdats m outTC 0 c).share_full fun _ => rfl)
      (V1 m c) (V2 m outTC c) ((pdats m outTC 0 c).arrAt · cfg0.N) (hF0 m outTC c) (hrest0 m outTC c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · exact le_of_eq ((K (F := F)).lev_none _)
    iexact HO

end Run

end Cert.LaunchIdeal

end
-- ==== Proof.SplitIdeal.lean ====
/-
  How the SparseCore call's two arrays split among the 32 tiles and come back: the result array is the disjoint union
  of the tiles' blocks of 8704 rows, the threshold vector is read through 32 read shares; tile `(c, i)` has number
  `2 i + c`, and every number below 32 is of exactly one tile.
-/
import proofs.«203736_g78743930405654_cont_9to1c4b_297_23_alg».proof.Proof.LaunchIdeal

noncomputable section

namespace Cert.LaunchIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem tileSet_disjoint : ∀ i ∈ (Finset.univ : Finset (Fin 32)), ∀ j ∈ (Finset.univ : Finset (Fin 32)), i ≠ j → Disjoint (tileSet i) (tileSet j) :=
  fun i _ j _ h => Rect.part_disjoint hdiv32 h
theorem tileSet_cover : (Finset.univ : Finset (Fin 32)).biUnion tileSet = Finset.univ := Rect.biUnion_part hdiv32

/-- The result array whole is its 32 blocks of rows. -/
theorem oPts_rows (d : Dev nD) (f : Buf (Elt F) (oLoc d)) :
    (oLoc d ↦{fullShare} f : sProp 𝕄) = bigSep Finset.univ fun w : Fin 32 => oLoc d ↦[tileSet w]{fullShare} f := by
  rw [← pointsTo_biUnion Finset.univ (ℓ := oLoc d) tileSet tileSet_disjoint, tileSet_cover]; try rfl

/-- The threshold vector whole is a remainder and 32 read shares. -/
theorem thPts_toks (d : Dev nD) (tv : Buf (Elt F) (thLoc d)) :
    (thLoc d ↦{fullShare} tv : sProp 𝕄) ⊣⊢ iprop((thLoc d ↦{Transfers.shareDrop fullShare 32} tv)
      ∗ bigSep Finset.univ (fun w : Fin 32 => thLoc d ↦{Transfers.shareTokN fullShare w.val} tv)) :=
  Transfers.pointsTo_toks fullShare 32

/-- Every tile number is that of exactly one (core, subcore). -/
theorem wid_image : (Finset.univ : Finset (Fin ((K (F := F)).nCore 0) × Fin ((K (F := F)).nSub 0))).image (fun p => wid (F := F) p.1 p.2) = Finset.univ := by
  refine Finset.eq_univ_iff_forall.mpr fun w => Finset.mem_image.mpr
    ⟨(⟨w.val % 2, Nat.mod_lt _ (by decide)⟩, ⟨w.val / 2, by have := w.isLt; show w.val / 2 < 16; omega⟩), Finset.mem_univ _, Fin.ext ?_⟩
  show 2 * (w.val / 2) + w.val % 2 = w.val
  omega
theorem wid_injOn : Set.InjOn (fun p : Fin ((K (F := F)).nCore 0) × Fin ((K (F := F)).nSub 0) => wid (F := F) p.1 p.2)
    ((Finset.univ : Finset (Fin ((K (F := F)).nCore 0) × Fin ((K (F := F)).nSub 0))) : Set _) := by
  intro a _ b _ e
  have h := congrArg Fin.val e
  simp only [wid] at h
  have ha : a.1.val < 2 := a.1.isLt
  have hb : b.1.val < 2 := b.1.isLt
  exact Prod.ext (Fin.ext (by omega)) (Fin.ext (by omega))

/-- A family over the 32 tile numbers is the family over the cores and their subcores. -/
theorem bigSep_tiles (Φ : Fin 32 → sProp 𝕄) :
    bigSep Finset.univ Φ = bigSep Finset.univ fun c : Fin ((K (F := F)).nCore 0) => bigSep Finset.univ fun i : Fin ((K (F := F)).nSub 0) => Φ (wid c i) := by
  rw [← wid_image (F := F), SparseCore.bigSep_image_of_injOn (wid_injOn (F := F)) Φ, ← Finset.univ_product_univ, SparseCore.bigSep_product]

/-- The two arrays of the call, whole, are the tiles' payloads and the threshold vector's remainder; and back, at any
    one contents of the result array. -/
theorem call_split (d : Dev nD) (tv : Buf (Elt F) (thLoc d)) (f : Buf (Elt F) (oLoc d)) :
    (iprop((thLoc d ↦{fullShare} tv) ∗ (oLoc d ↦{fullShare} f)) : sProp 𝕄)
      ⊣⊢ iprop((thLoc d ↦{Transfers.shareDrop fullShare 32} tv)
        ∗ bigSep Finset.univ fun c : Fin ((K (F := F)).nCore 0) => bigSep Finset.univ fun i : Fin ((K (F := F)).nSub 0) => tilePay d tv (wid c i) f) := by
  have e : (bigSep Finset.univ fun c : Fin ((K (F := F)).nCore 0) => bigSep Finset.univ fun i : Fin ((K (F := F)).nSub 0) => tilePay d tv (wid c i) f)
      = (iprop((bigSep Finset.univ fun w : Fin 32 => (thLoc d ↦{Transfers.shareTokN fullShare w.val} tv))
          ∗ bigSep Finset.univ fun w : Fin 32 => (oLoc d ↦[tileSet w]{fullShare} f)) : sProp 𝕄) := by
    rw [← bigSep_tiles (F := F) (fun w => tilePay d tv w f)]
    unfold tilePay
    rw [bigSep_sep']
  rw [e, ← oPts_rows]
  constructor
  · iintro ⟨Ht, Ho⟩
    ihave H := (thPts_toks d tv).1 $$ Ht
    icases H with ⟨Hd, Hts⟩
    isplitl [Hd]; · iexact Hd
    isplitl [Hts]; · iexact Hts
    iexact Ho
  · iintro ⟨Hd, Hts, Ho⟩
    isplitl [Hd Hts]
    · iapply (thPts_toks d tv).2; isplitl [Hd] <;> iassumption
    iexact Ho

end Cert.LaunchIdeal

end
-- ==== Proof.ValsIdeal.lean ====
/-
  What the three straight lines of host operations leave in the buffers the proof reads, as functions of the contents
  they start from: the fold of each line read at a buffer.
-/
import proofs.«203736_g78743930405654_cont_9to1c4b_297_23_alg».proof.Proof.LaunchIdeal
import Idealize.ShloMosaic.Lib.ValueIdx

noncomputable section

namespace Cert.LaunchIdeal

open Cert.KernelIdeal Cert.KernelIdeal.Gen

open Idealize.ShloMosaic Idealize.ShloMosaic.TcCoe
open Idealize.ShloMosaic.StableHlo (after after_cons after_nil)

variable {F : FTy → Type} [FloatOps F] [Cert.KernelIdeal.Facts]

/-- The clipped value `clip (p · 2²³) 0 2²³` as the host computes it. -/
def clipH (p : (⟨S_, .f32⟩ : BufTy).Contents (Elt F)) : (⟨S_, .f32⟩ : BufTy).Contents (Elt F) :=
  minimumf (constant S_ .f32 0x4B000000#32) (maximumf (constant S_ .f32 0x00000000#32) (mulf p (constant S_ .f32 0x4B000000#32)))
/-- The threshold as the host computes it: the truncation plus one when its read-back is below the clipped value. -/
def thrH (p : (⟨S_, .f32⟩ : BufTy).Contents (Elt F)) : (⟨S_, .i32⟩ : BufTy).Contents (Elt F) :=
  id (addi (fptosi 32 (clipH p)) (extui 32 (cmpf .olt (sitofp .f32 (fptosi 32 (clipH p))) (clipH p)) Facts₀.natLt_1_32))
/-- The threshold word, and the 16-word vector the SparseCore call is handed. -/
def thW (p : (⟨S_, .f32⟩ : BufTy).Contents (Elt F)) : BitVec 32 := thrH p ValueIdx.ix0
def thVec (p : (⟨S_, .f32⟩ : BufTy).Contents (Elt F)) : (⟨S16, .i32⟩ : BufTy).Contents (Elt F) :=
  broadcastInDim S16 ![] Facts₀.bcast_S_S16 (thrH p)
theorem thVec_eq (p : (⟨S_, .f32⟩ : BufTy).Contents (Elt F)) : thVec p = fun _ => thW p := by
  funext j; unfold thVec thW broadcastInDim
  exact congrArg (thrH p) (funext fun a => a.elim0)

variable (Vv : Valuation τ sig (Elt F))

/-! ### The first line: only the 1×1 block is written -/
theorem after0_arg0 : after hostOps0 Vv (main_arg0 : DevRef τ sig) = Vv (main_arg0 : DevRef τ sig) := by
  simp only [after_cons, after_nil]; rfl
theorem after0_arg1 : after hostOps0 Vv (main_arg1 : DevRef τ sig) = Vv (main_arg1 : DevRef τ sig) := by
  simp only [after_cons, after_nil]; rfl
theorem after0_v12 : after hostOps0 Vv (main_v12 : DevRef τ sig) = Vv (main_v12 : DevRef τ sig) := by
  simp only [after_cons, after_nil]; rfl

/-! ### The second line -/
theorem after1_arg0 : after hostOps1 Vv (main_arg0 : DevRef τ sig) = Vv (main_arg0 : DevRef τ sig) := by
  simp only [after_cons, after_nil]; rfl
theorem after1_arg1 : after hostOps1 Vv (main_arg1 : DevRef τ sig) = Vv (main_arg1 : DevRef τ sig) := by
  simp only [after_cons, after_nil]; rfl
theorem after1_v12 : after hostOps1 Vv (main_v12 : DevRef τ sig) = Vv (main_v12 : DevRef τ sig) := by
  simp only [after_cons, after_nil]; rfl
/-- The SparseCore call's operand is the threshold vector of the probability. -/
theorem after1_v11 : after hostOps1 Vv (main_v11 : DevRef τ sig) = thVec (Vv (main_arg1 : DevRef τ sig)) := by
  simp only [after_cons, after_nil]; rfl
/-- The TensorCore result, flattened. -/
theorem after1_v2 : after hostOps1 Vv (main_v2 : DevRef τ sig)
    = shapeCast S770048 (Vv (main_v1 : DevRef τ sig) : (⟨S47x1x16384, .i32⟩ : BufTy).Contents (Elt F)) Facts₀.shapeCasts_S47x1x16384_S770048 := by
  simp only [after_cons, after_nil]; rfl

/-! ### The third line -/
theorem after2_arg0 : after hostOps2 Vv (main_arg0 : DevRef τ sig) = Vv (main_arg0 : DevRef τ sig) := by
  simp only [after_cons, after_nil]; rfl
theorem after2_arg1 : after hostOps2 Vv (main_arg1 : DevRef τ sig) = Vv (main_arg1 : DevRef τ sig) := by
  simp only [after_cons, after_nil]; rfl
theorem after2_v13 : after hostOps2 Vv (main_v13 : DevRef τ sig)
    = concatenate S1048576 0 [⟨S770048, (Vv (main_v2 : DevRef τ sig) : (⟨S770048, .i32⟩ : BufTy).Contents (Elt F))⟩,
        ⟨S278528, (Vv (main_v12 : DevRef τ sig) : (⟨S278528, .i32⟩ : BufTy).Contents (Elt F))⟩] Facts₀.concatenates_S770048_S278528_S1048576_d0 := by
  simp only [after_cons, after_nil]; rfl

end Cert.LaunchIdeal

end
-- ==== Proof.PayIdeal.lean ====
/-
  What the SparseCore call's handshakes carry: each tile is handed a read share of the threshold vector and its own
  8704 rows of the result array, and hands them back, the rows at the result's function of the threshold word; a
  SparseCore's payload is its sixteen tiles'.
-/
import proofs.«203736_g78743930405654_cont_9to1c4b_297_23_alg».proof.Proof.SplitIdeal
import proofs.«203736_g78743930405654_cont_9to1c4b_297_23_alg».proof.Proof.ValsIdeal

noncomputable section

namespace Cert.LaunchIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat Cfg Window BodyObligation cellOf)

variable {F : FTy → Type} [FloatOps F] [Cert.KernelIdeal.Facts]

local notation "𝕄" => MT nD τ sig (HIx 1) (Elt F) ℕ UU ℕ

variable (m : (ℓ : Loc nD τ sig) → Buf (Elt F) ℓ) (ρ : Dev nD → PrngReg)

/-- The probability as launched, on device `d`. -/
abbrev pOf (d : Dev nD) : (⟨S_, .f32⟩ : BufTy).Contents (Elt F) := m ((SparseCore.T d).loc main_arg1)

/-! ## What the handshakes carry -/

/-- The one call hands tile `(c, i)` a read share of the threshold vector and its rows of the result, and takes them
    back, the rows at the result's function of the threshold word; a SparseCore's share is its sixteen tiles'. -/
def P : (K (F := F)).Pay (nD := nD) (Val := Elt F) (Name := ℕ) (U := UU) where
  st := fun q d c => match q with
    | 0 => bigSep Finset.univ fun i : Fin ((K (F := F)).nSub 0) => tilePay d (thVec (pOf m d)) (wid c i) (m (oLoc d))
  dn := fun q d c => match q with
    | 0 => bigSep Finset.univ fun i : Fin ((K (F := F)).nSub 0) => tilePay d (thVec (pOf m d)) (wid c i) (outSC (thW (pOf m d)))
  go := fun q d c i => match q with
    | 0 => tilePay d (thVec (pOf m d)) (wid c i) (m (oLoc d))
  td := fun q d c i => match q with
    | 0 => tilePay d (thVec (pOf m d)) (wid c i) (outSC (thW (pOf m d)))
  x := fun _ _ => iprop(emp)

instance P_storable : (P (F := F) m).IsStorable where
  st q d c := match q with | 0 => by unfold P tilePay; infer_instance
  dn q d c := match q with | 0 => by unfold P tilePay; infer_instance
  go q d c i := match q with | 0 => by unfold P tilePay; infer_instance
  td q d c i := match q with | 0 => by unfold P tilePay; infer_instance

theorem vecSplit : (K (F := F)).VecSplit' (P m) 0 := by
  intro d c
  show (bigSep Finset.univ fun i : Fin ((K (F := F)).nSub 0) => tilePay d (thVec (pOf m d)) (wid c i) (m (oLoc d)))
    ⊢ |={Set.univ}=> iprop((bigSep Finset.univ fun i : Fin ((K (F := F)).nSub 0) => tilePay d (thVec (pOf m d)) (wid c i) (m (oLoc d)))
      ∗ ((bigSep Finset.univ fun i : Fin ((K (F := F)).nSub 0) => tilePay d (thVec (pOf m d)) (wid c i) (outSC (thW (pOf m d))))
          -∗ (bigSep Finset.univ fun i : Fin ((K (F := F)).nSub 0) => tilePay d (thVec (pOf m d)) (wid c i) (outSC (thW (pOf m d))))))
  iintro H; imodintro
  isplitl [H]; · iexact H
  iintro H; iexact H

end Cert.LaunchIdeal

end
-- ==== Proof.RunIdeal.lean ====
/-
  The launch of the whole program: what the SparseCore call's handshakes carry, the tiles' obligation, the ghost
  state's launch element, @main on the TensorCore (the reshape, the TensorCore region, the host arithmetic for the
  threshold word, the SparseCore call, the concatenation), and the run with every array of the claim named.
-/
import proofs.«203736_g78743930405654_cont_9to1c4b_297_23_alg».proof.Proof.RegionIdeal
import proofs.«203736_g78743930405654_cont_9to1c4b_297_23_alg».proof.Proof.PayIdeal

noncomputable section

namespace Cert.LaunchIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat Cfg Window BodyObligation cellOf)

variable {F : FTy → Type} [FloatOps F] [Cert.KernelIdeal.Facts]

local notation "𝕄" => MT nD τ sig (HIx 1) (Elt F) ℕ UU ℕ

variable (m : (ℓ : Loc nD τ sig) → Buf (Elt F) ℓ) (ρ : Dev nD → PrngReg)

/-! ## The launch element: the handshakes' rounds, the pipeline's staging cells' rounds; nothing of the tiles' own -/

def u₀ : UU := (initOf (K (F := F)).hsCells (K (F := F)).hsToks, (initOf (Pipeline.cells cfgs cellOf_inj) (Pipeline.launchToks cfgs cellOf_inj), 1))

/-- What the launch deals a TensorCore beside its handshake state: its pipeline's staging cells' ghost state and the
    duty tokens of the transfers the pipeline will issue. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀ G
  unfold EP
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (nD := nD) cfgs ((Emb.inl : Emb UP (UP × Counters)).trans (embR : Emb (UP × Counters) 𝕄)) cellOf_inj) $$ HP with ⟨Hg, Ht⟩
  imodintro
  isplitl [HH]; · iexact HH
  isplitl [Hg Ht]
  · rw [bigSep_sep']
    isplitl [Hg]
    · ihave Hg' := (Entails.of_eq (bigSep_congr (s := (Finset.univ : Finset (Dev nD))) fun d _ =>
          bigSep_univ_of_subsingleton (0 : Fin 1) (Φ := fun p : Fin 1 => Pipeline.cellsGhost cfgs ((Emb.inl : Emb UP (UP × Counters)).trans (embR : Emb (UP × Counters) 𝕄)) p d))) $$ Hg
      iexact Hg'
    · ihave Ht' := (Entails.of_eq (bigSep_congr (s := (Finset.univ : Finset (Dev nD))) fun d _ =>
          bigSep_univ_of_subsingleton (0 : Fin 1) (Φ := fun p : Fin 1 => Pipeline.toksInit cfgs ((Emb.inl : Emb UP (UP × Counters)).trans (embR : Emb (UP × Counters) 𝕄)) p d))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

section Main

variable (outTC : grid0.Coords → Vec F S1x1 .f32 → Vec F S1x1x16384 .i32)
variable (hsound : ∀ (c : Dev nD) (E : Set ℕ) (i : grid0.Coords) (arg1 : Memref sig .tc .vmem S1x1 .f32) (harg1 : arg1.IsWhole)
    (arg2 : Memref sig .tc .vmem S1x1x16384 .i32) (harg2 : arg2.IsWhole) (x0 : Vec F S1x1 .f32) (Kk : PUnit → sProp (MT nD τ sig (HIx 1) (Elt F) ℕ UU ℕ)),
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ Kk ⟨⟩))
      ⊢ wp frame (wpE (defs₀ (F := F)) Variants.none c none) E (cc0__tc_kernel i arg1 harg1 arg2 harg2) Kk)

/-- The buffers after the second line, -/
abbrev W3 (d : Dev nD) : Valuation τ sig (Elt F) := StableHlo.after hostOps1 (W2 m outTC d)
/-- after the SparseCore call (its result at the tiles' function of the threshold word), -/
def W4 (d : Dev nD) : Valuation τ sig (Elt F) := Function.update (W3 m outTC d) (main_v12 : DevRef τ sig) (outSC (thW (pOf m d)))
/-- and at the end. -/
abbrev W5 (d : Dev nD) : Valuation τ sig (Elt F) := StableHlo.after hostOps2 (W4 m outTC d)

theorem ops0_sub : ∀ op ∈ (hostOps0 : List (HloOp τ sig (Elt F))), op.bufs ⊆ Pipeline.ucRefs τ sig :=
  fun op h => Pipeline.sub_ucRefs op ((List.forall_iff_forall_mem.mp
    (show (hostOps0 : List (HloOp τ sig (Elt F))).Forall fun op => op.bufs ⊆ StableHlo.tcRefs τ sig from StableHlo.reshape_bufs_sub ..)) op h)
theorem ops1_sub : ∀ op ∈ (hostOps1 : List (HloOp τ sig (Elt F))), op.bufs ⊆ Pipeline.ucRefs τ sig :=
  fun op h => Pipeline.sub_ucRefs op ((List.forall_iff_forall_mem.mp
    (show (hostOps1 : List (HloOp τ sig (Elt F))).Forall fun op => op.bufs ⊆ StableHlo.tcRefs τ sig from
      ⟨StableHlo.reshape_bufs_sub .., StableHlo.nullary_bufs_sub .., StableHlo.binary_bufs_sub .., StableHlo.nullary_bufs_sub .., StableHlo.nullary_bufs_sub ..,
        StableHlo.binary_bufs_sub .., StableHlo.binary_bufs_sub .., StableHlo.unary_bufs_sub .., StableHlo.unary_bufs_sub .., StableHlo.binary_bufs_sub ..,
        StableHlo.unary_bufs_sub .., StableHlo.binary_bufs_sub .., StableHlo.unary_bufs_sub .., StableHlo.unary_bufs_sub ..⟩)) op h)
theorem ops2_sub : ∀ op ∈ (hostOps2 : List (HloOp τ sig (Elt F))), op.bufs ⊆ Pipeline.ucRefs τ sig :=
  fun op h => Pipeline.sub_ucRefs op ((List.forall_iff_forall_mem.mp
    (show (hostOps2 : List (HloOp τ sig (Elt F))).Forall fun op => op.bufs ⊆ StableHlo.tcRefs τ sig from StableHlo.binary_bufs_sub ..)) op h)
theorem ops0_fresh : ∀ op ∈ (hostOps0 : List (HloOp τ sig (Elt F))), op.fresh = ∅ :=
  List.forall_iff_forall_mem.mp (by simp only [List.Forall]; repeat' constructor)
theorem ops1_fresh : ∀ op ∈ (hostOps1 : List (HloOp τ sig (Elt F))), op.fresh = ∅ :=
  List.forall_iff_forall_mem.mp (by simp only [List.Forall]; repeat' constructor)
theorem ops2_fresh : ∀ op ∈ (hostOps2 : List (HloOp τ sig (Elt F))), op.fresh = ∅ :=
  List.forall_iff_forall_mem.mp (by simp only [List.Forall]; repeat' constructor)

/-- The two arrays of the SparseCore call, as device buffers of the TensorCore. -/
abbrev v11' : DevRef τ sig := Proc.devRef .tc (main_v11 : Ref sig .tc)
abbrev v12' : DevRef τ sig := Proc.devRef .tc (main_v12 : Ref sig .tc)
abbrev S2 : Finset (DevRef τ sig) := {v11', v12'}
theorem S2_sub : (S2 : Finset (DevRef τ sig)) ⊆ Pipeline.ucRefs τ sig := by decide

theorem held_S2 (d : Dev nD) (W : Valuation τ sig (Elt F)) :
    (held (T d) S2 W : sProp 𝕄) = iprop((thLoc d ↦{fullShare} W v11') ∗ (oLoc d ↦{fullShare} W v12')) := by
  unfold held S2
  rw [SparseCore.bigSep_insert' (by decide), bigSep_singleton]

/-- Before the SparseCore call its operand holds the threshold vector of the probability as launched, and its result
    array what the launch memory holds. -/
theorem W3_v11 (d : Dev nD) : W3 m outTC d v11' = thVec (pOf m d) := by
  show StableHlo.after hostOps1 (W2 m outTC d) (main_v11 : DevRef τ sig) = _
  rw [after1_v11, show W2 m outTC d (main_arg1 : DevRef τ sig) = W1 m d (main_arg1 : DevRef τ sig) from W2_of_ne m outTC d main_arg1 (by decide)]
  show thVec (StableHlo.after hostOps0 (W0 m d) (main_arg1 : DevRef τ sig)) = _
  rw [after0_arg1]
theorem W3_v12 (d : Dev nD) : W3 m outTC d v12' = m (oLoc d) := by
  show StableHlo.after hostOps1 (W2 m outTC d) (main_v12 : DevRef τ sig) = _
  rw [after1_v12, show W2 m outTC d (main_v12 : DevRef τ sig) = W1 m d (main_v12 : DevRef τ sig) from W2_of_ne m outTC d main_v12 (by decide)]
  show StableHlo.after hostOps0 (W0 m d) (main_v12 : DevRef τ sig) = _
  rw [after0_v12]

theorem st0_eq (d : Dev nD) : (bigSep Finset.univ fun c : Fin ((K (F := F)).nCore 0) => (P m).st 0 d c)
    = bigSep Finset.univ fun c : Fin ((K (F := F)).nCore 0) => bigSep Finset.univ fun i : Fin ((K (F := F)).nSub 0) => tilePay d (thVec (pOf m d)) (wid c i) (m (oLoc d)) := rfl
theorem dn0_eq (d : Dev nD) : (bigSep Finset.univ fun c : Fin ((K (F := F)).nCore 0) => (P m).dn 0 d c)
    = bigSep Finset.univ fun c : Fin ((K (F := F)).nCore 0) => bigSep Finset.univ fun i : Fin ((K (F := F)).nSub 0) => tilePay d (thVec (pOf m d)) (wid c i) (outSC (thW (pOf m d))) := rfl

set_option maxHeartbeats 400000 in
set_option backward.isDefEq.respectTransparency.types false in
include hsound in
/-- The TensorCore call on device `d`, from the region boundary, the thread state the region is entered from, the level
    facts and the pipeline's ghost state, to the boundary and the thread state it leaves. -/
theorem region_step (d : Dev nD) (Q : PUnit → sProp 𝕄) :
    iprop((iprop(boundary (d.tc : Thread nD τ) ∗ (reg0 m outTC hsound).post d) -∗
          wp frame (wpE (D (F := F)) 𝒱 (SparseCore.T d) none) Set.univ (.ret ⟨⟩) Q)
        ∗ boundary (d.tc : Thread nD τ) ∗ (reg0 m outTC hsound).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ (Prog.lift (.customCall (Pipeline.entry 0) ())) Q :=
  Pipeline.RegionSeg.wp (pcfgs (F := F)) adm (pdats m outTC) none cellOf_inj EP defs₀ 𝒱₀ (K (F := F)).L (K (F := F)).lev
    (reg0 m outTC hsound) d none (fun _ h => nomatch h) (fun _ => .ret ⟨⟩) Q

set_option maxHeartbeats 400000 in
include hsound in
/-- The same step as @main spells it, under the program's whole body table. -/
theorem region_step' (d : Dev nD) (Q : PUnit → sProp 𝕄) :
    iprop((iprop(boundary (d.tc : Thread nD τ) ∗ (reg0 m outTC hsound).post d) -∗
          wp frame (wpE (D (F := F)) 𝒱 (SparseCore.T d) none) Set.univ (.ret ⟨⟩) Q)
        ∗ boundary (d.tc : Thread nD τ) ∗ (reg0 m outTC hsound).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  iintro H
  iapply ((K (F := F)).wp_liftProg (D (F := F)) 𝒱 (T d) Set.univ none (Prog.lift (.customCall (Pipeline.entry 0) ())) _)
  iapply (region_step m outTC hsound d Q)
  iexact H

set_option backward.isDefEq.respectTransparency.types false in
theorem reg0_pre (d : Dev nD) : (reg0 m outTC hsound).pre d = iprop(StableHlo.held (d.tc : Thread nD τ) (Pipeline.ucRefs τ sig) (W1 m d) ∗ Rr (F := F) d) := rfl
set_option backward.isDefEq.respectTransparency.types false in
theorem reg0_post (d : Dev nD) : (reg0 m outTC hsound).post d = iprop(StableHlo.held (d.tc : Thread nD τ) (Pipeline.ucRefs τ sig) (W2 m outTC d) ∗ Rr (F := F) d) := rfl

/-- What @main leaves the claim: every unscoped buffer at the last valuation. -/
abbrev FIN (d : Dev nD) : sProp 𝕄 := held (T d) (Pipeline.ucRefs τ sig) (W5 m outTC d)

set_option backward.isDefEq.respectTransparency.types false in
set_option maxHeartbeats 1000000 in
include hsound in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m outTC d) := by
  unfold SparseCore.Cfg.tcRes
  rw [main_eq]
  iintro ⟨#Hctx, Hst, ⟨Hb, Hh, Hsems, Hp⟩, ⟨Hcg, Htk⟩⟩
  ihave Hh0 := (Entails.of_eq (Pipeline.unscopedBufs_held (Ix := HIx 1) (Name := ℕ) (U := UU) (Lvl := ℕ) d (W0 m d))) $$ Hh
  -- the first line
  iapply (StableHlo.wp_seq 𝒱 none Set.univ d (Pipeline.ucRefs τ sig) _ hostOps0 ops0_sub ops0_fresh (W0 m d)) $$ [Hb Hh0]
  · isplitl [Hb] <;> iassumption
  iintro ⟨Hb, Hh⟩
  -- the TensorCore region
  rw [wp_bind]
  ihave Hlev := ((K (F := F)).ctx_levAts (EH := EH) (P := P m) κ) $$ Hctx
  ihave Hst2 := (Entails.of_eq (show (K (F := F)).tcSt EH d 0 = _ from by unfold SparseCore.Cfg.tcSt; rfl)) $$ Hst
  icases Hst2 with ⟨HO, Hst'⟩
  iapply (region_step' m outTC hsound d _)
  isplitl [Hsems Hst']
  swap
  · isplitl [Hb]; · iexact Hb
    isplitl [Hh HO Hp]
    · rw [reg0_pre]
      isplitl [Hh]; · iexact Hh
      isplitl [Hp]; · iexists _; iexact Hp
      iexact HO
    isplitl [Hlev]; · iexact Hlev
    isplitl [Hcg]; · iexact Hcg
    iexact Htk
  iintro ⟨Hb, Hpost⟩
  ihave Hpost' := (Entails.of_eq (reg0_post m outTC hsound d)) $$ Hpost
  icases Hpost' with ⟨Hh, Hp, HO⟩
  rw [wp_ret]; imodintro
  -- the second line
  iapply (StableHlo.wp_seq 𝒱 none Set.univ d (Pipeline.ucRefs τ sig) _ hostOps1 ops1_sub ops1_fresh (W2 m outTC d)) $$ [Hb Hh]
  · isplitl [Hb] <;> iassumption
  iintro ⟨Hb, Hh⟩
  -- the SparseCore call: its two arrays out of the buffers held, split among the tiles
  ihave Hh2 := (Entails.of_eq (show (held (T d) (Pipeline.ucRefs τ sig) (W3 m outTC d) : sProp 𝕄)
      = iprop(((thLoc d ↦{fullShare} thVec (pOf m d)) ∗ (oLoc d ↦{fullShare} m (oLoc d))) ∗ held (T d) (Pipeline.ucRefs τ sig \ S2) (W3 m outTC d)) from by
    rw [StableHlo.held_sub_split (T d) S2_sub (W3 m outTC d), held_S2, W3_v11, W3_v12])) $$ Hh
  icases Hh2 with ⟨⟨Hth, Ho⟩, Hrest⟩
  ihave Hsp := (call_split (F := F) d (thVec (pOf m d)) (m (oLoc d))).1 $$ [Hth Ho]
  · isplitl [Hth] <;> iassumption
  icases Hsp with ⟨Hdrop, Hst0⟩
  rw [wp_bind]
  iapply ((K (F := F)).wp_run (D (F := F)) 𝒱 (EH := EH) (P := P m) κ d 0) $$ [HO Hst' Hst0 Hdrop Hrest Hb]
  isplitr; · iexact Hctx
  isplitl [HO Hst']
  · unfold SparseCore.Cfg.tcSt
    isplitl [HO]; · iexact HO
    iexact Hst'
  isplitl [Hst0]
  · rw [st0_eq]; iexact Hst0
  iintro ⟨Hst, Hdn⟩
  ihave Hdn' := (Entails.of_eq (dn0_eq m d)) $$ Hdn
  ihave Hj := (call_split (F := F) d (thVec (pOf m d)) (outSC (thW (pOf m d)))).2 $$ [Hdrop Hdn']
  · isplitl [Hdrop] <;> iassumption
  icases Hj with ⟨Hth, Ho⟩
  -- the buffers held again, the result array at the tiles' function
  ihave Hh := (show iprop((thLoc d ↦{fullShare} thVec (pOf m d)) ∗ (oLoc d ↦{fullShare} (outSC (thW (pOf m d)) : Buf (Elt F) (oLoc d)))
        ∗ held (T d) (Pipeline.ucRefs τ sig \ S2) (W3 m outTC d))
      ⊢ (held (T d) (Pipeline.ucRefs τ sig) (W4 m outTC d) : sProp 𝕄) from by
    rw [StableHlo.held_sub_split (T d) S2_sub (W4 m outTC d), held_S2,
      show W4 m outTC d v11' = thVec (pOf m d) from (Function.update_of_ne (show v11' ≠ (main_v12 : DevRef τ sig) by decide) _ _).trans (W3_v11 m outTC d),
      show W4 m outTC d v12' = outSC (thW (pOf m d)) from Function.update_self _ _ _,
      StableHlo.held_congr (T d) (V := W4 m outTC d) (V' := W3 m outTC d) fun b hb =>
        Function.update_of_ne (fun e => (Finset.mem_sdiff.mp hb).2 (e ▸ Finset.mem_insert_of_mem (Finset.mem_singleton_self _))) _ _]
    iintro ⟨Hth, Ho, Hrest⟩
    isplitl [Hth Ho]
    · isplitl [Hth] <;> iassumption
    iexact Hrest) $$ [Hth Ho Hrest]
  · isplitl [Hth]; · iexact Hth
    isplitl [Ho] <;> iassumption
  -- the third line
  rw [← bind_pure (StableHlo.seq hostOps2)]
  iapply (StableHlo.wp_seq 𝒱 none Set.univ d (Pipeline.ucRefs τ sig) _ hostOps2 ops2_sub ops2_fresh (W4 m outTC d)) $$ [Hb Hh]
  · isplitl [Hb] <;> iassumption
  iintro ⟨Hb, Hh⟩
  rw [wp_pure]; imodintro
  isplitl [Hst]; · iexact Hst
  iexact Hh

/-- What the final memory holds, read off what @main leaves: every unscoped buffer at the last valuation. -/
def fq (d : Dev nD) (s' : Phys nD τ sig (Elt F)) : Prop := ∀ b ∈ Pipeline.ucRefs τ sig, s'.mem.mem (d, b) = W5 m outTC d b

theorem hfin (d : Dev nD) (s' : Phys nD τ sig (Elt F)) : iprop(FIN m outTC d ∗ SI s') ⊢ (⌜fq m outTC d s'⌝ : sProp 𝕄) := by
  refine (pointsTo_read_all (Pipeline.ucRefs τ sig) (fun b => ((d, b) : Loc nD τ sig)) (W5 m outTC d) s').trans ?_
  iintro ⟨%h, -⟩
  ipureintro; exact h

/-- The run's post: on every device every unscoped TensorCore buffer holds the last valuation's contents. -/
def QC : PUnit × MemSt nD τ sig (Elt F) → Prop := fun r => ∀ d : Dev nD, ∀ b ∈ Pipeline.ucRefs τ sig, r.2.mem (d, b) = W5 m outTC d b

variable (htile : (K (F := F)).TileObl (D (F := F)) 𝒱 (P m) v₀ 0)

include hsound htile in
/-- Every weakly fair execution of the program's threads terminates, nothing faulting, and every final memory has
    each unscoped TensorCore buffer at the fold of the program over the launch memory. -/
theorem run_main [∀ e, Nonempty (Elt F e)] :
    θ_run (Cert.KernelIdeal.defs (F := F)) (Cert.KernelIdeal.threads (F := F)) ⟨m, fun _ => 0, ρ⟩ (QC m outTC) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m outTC) (u₀ (F := F)) (sep_elim_left.trans (hu₀ m)) (hmain m ρ outTC hsound) (fq m outTC) (hfin m outTC) (QC m outTC)
    (fun s' h d b hb => h d b hb)

/-! ## The claim's arrays in the last valuation -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No line and neither call writes an argument: it ends as launched. -/
theorem W5_arg0 (d : Dev nD) : W5 m outTC d (main_arg0 : DevRef τ sig) = m ((d.tc : Thread nD τ).loc main_arg0) := by
  show StableHlo.after hostOps2 (W4 m outTC d) (main_arg0 : DevRef τ sig) = _
  rw [after2_arg0, show W4 m outTC d (main_arg0 : DevRef τ sig) = W3 m outTC d (main_arg0 : DevRef τ sig) from Function.update_of_ne (by decide) _ _]
  show StableHlo.after hostOps1 (W2 m outTC d) (main_arg0 : DevRef τ sig) = _
  rw [after1_arg0, show W2 m outTC d (main_arg0 : DevRef τ sig) = W1 m d (main_arg0 : DevRef τ sig) from W2_of_ne m outTC d main_arg0 (by decide)]
  show StableHlo.after hostOps0 (W0 m d) (main_arg0 : DevRef τ sig) = _
  rw [after0_arg0]
theorem W5_arg1 (d : Dev nD) : W5 m outTC d (main_arg1 : DevRef τ sig) = m ((d.tc : Thread nD τ).loc main_arg1) := by
  show StableHlo.after hostOps2 (W4 m outTC d) (main_arg1 : DevRef τ sig) = _
  rw [after2_arg1, show W4 m outTC d (main_arg1 : DevRef τ sig) = W3 m outTC d (main_arg1 : DevRef τ sig) from Function.update_of_ne (by decide) _ _]
  show StableHlo.after hostOps1 (W2 m outTC d) (main_arg1 : DevRef τ sig) = _
  rw [after1_arg1, show W2 m outTC d (main_arg1 : DevRef τ sig) = W1 m d (main_arg1 : DevRef τ sig) from W2_of_ne m outTC d main_arg1 (by decide)]
  show StableHlo.after hostOps0 (W0 m d) (main_arg1 : DevRef τ sig) = _
  rw [after0_arg1]

/-- The result: the TensorCore call's array (what the pipeline leaves in it), flattened, followed by the SparseCore
    call's, the tiles' function of the threshold word. -/
theorem W5_v13 (d : Dev nD) : W5 m outTC d (main_v13 : DevRef τ sig)
    = concatenate S1048576 0 [⟨S770048, shapeCast S770048 ((dat0 (V1 m) outTC d).arrAt 1 cfg0.N) Facts₀.shapeCasts_S47x1x16384_S770048⟩,
        ⟨S278528, outSC (thW (pOf m d))⟩] Facts₀.concatenates_S770048_S278528_S1048576_d0 := by
  show StableHlo.after hostOps2 (W4 m outTC d) (main_v13 : DevRef τ sig) = _
  rw [after2_v13, show W4 m outTC d (main_v12 : DevRef τ sig) = outSC (thW (pOf m d)) from Function.update_self _ _ _,
    show W4 m outTC d (main_v2 : DevRef τ sig) = W3 m outTC d (main_v2 : DevRef τ sig) from Function.update_of_ne (by decide) _ _]
  show concatenate S1048576 0 [⟨S770048, StableHlo.after hostOps1 (W2 m outTC d) (main_v2 : DevRef τ sig)⟩, _] _ = _
  rw [after1_v2, show W2 m outTC d (main_v1 : DevRef τ sig) = (dat0 (V1 m) outTC d).arrAt 1 cfg0.N from W2_arr m outTC d 1]

end Main

end Cert.LaunchIdeal

end
-- ==== Proof.LaunchBits.lean ====
/-
  The launch of the kernel's program: one TensorCore pallas_call (rows 0 … 770047, 47 grid points), host
  arithmetic for the threshold word, one SparseCore vector-subcore call on 2 × 16 tiles (rows 770048 … 1048575, 8704
  rows per tile), and the concatenation of the two results. This module fixes the program as the launch theorem sees
  it and the ghost state: the handshakes' rounds, the pipeline's staging cells' rounds, and the transfers' counters.
-/
import proofs.«203736_g78743930405654_cont_9to1c4b_297_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«203736_g78743930405654_cont_9to1c4b_297_23_alg».proof.Proof.Gen.Kernel
import proofs.«203736_g78743930405654_cont_9to1c4b_297_23_alg».proof.Proof.Gen.Kernel.Launch
import proofs.«203736_g78743930405654_cont_9to1c4b_297_23_alg».proof.Proof.Gen.Kernel.Points
import proofs.«203736_g78743930405654_cont_9to1c4b_297_23_alg».proof.Proof.Spec

noncomputable section

namespace Cert.LaunchBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes' rounds × (the pipeline's staging cells' rounds × the transfers' counters) -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP; infer_instance

/-! ## The launch memory, the arrays the SparseCore call works on, and what the handshakes carry -/

variable (m : (ℓ : Loc nD τ sig) → Buf (Elt F) ℓ) (ρ : Dev nD → PrngReg)

/-- The threshold vector (16 copies of the threshold word) and the SparseCore call's result, as locations of device `d`. -/
abbrev thLoc (d : Dev nD) : Loc nD τ sig := (SparseCore.T d).loc main_v11
abbrev oLoc (d : Dev nD) : Loc nD τ sig := (SparseCore.T d).loc main_v12

variable [FloatOps F]

theorem hdiv32 : 32 ∣ S278528.size 0 := ⟨8704, rfl⟩
/-- The 8704 rows of tile number `w` (`w = 2 · subcore + core`). -/
abbrev tileRows (w : Fin 32) : Rect S278528 := Rect.part (s := S278528) (a₀ := 0) hdiv32 w
abbrev tileSet (w : Fin 32) : Finset S278528.Idx := (tileRows w).set

/-- The tile number of subcore `i` of core `c`. -/
def wid (c : Fin ((K (F := F)).nCore 0)) (i : Fin ((K (F := F)).nSub 0)) : Fin 32 :=
  ⟨2 * i.val + c.val, by have := c.isLt; have := i.isLt; simp only [nCore_zero, nSub_zero] at *; omega⟩

/-- The SparseCore half of the result as one whole-array function of the threshold word: row `i` of it is row
    `770048 + i` of the result. -/
def outSC (th : BitVec 32) : IVec S278528 32 := fun i => Cert.Spec.word th (770048 + (i 0).val)

/-- What a tile is handed: a read share of the threshold vector (at contents `tv`) and its own rows of the result (at `f`). -/
def tilePay (d : Dev nD) (tv : Buf (Elt F) (thLoc d)) (w : Fin 32) (f : Buf (Elt F) (oLoc d)) : sProp 𝕄 :=
  iprop((thLoc d ↦{Transfers.shareTokN fullShare w.val} tv) ∗ (oLoc d ↦[tileSet w]{fullShare} f))

/-! ## @main as three straight lines of host operations around the two calls -/

section Main

variable [Cert.Kernel.Facts]
open Cert.Kernel.Facts₀ Cert.Kernel.Facts

/-- Before the TensorCore call: the probability reshaped to a 1×1 block. -/
abbrev hostOps0 : List (HloOp τ sig (Elt F)) :=
  [StableHlo.reshape main_arg1 main_v0 rfl Facts₀.shapeCasts_S_S1x1]

/-- Between the calls: the TensorCore result flattened, and the threshold word computed on the host — the probability
    times 2²³, clipped to [0, 2²³], truncated, plus one when the truncation read back is below it — and broadcast to the
    16-word operand of the SparseCore call. -/
abbrev hostOps1 : List (HloOp τ sig (Elt F)) :=
  [StableHlo.reshape main_v1 main_v2 rfl Facts₀.shapeCasts_S47x1x16384_S770048,
   StableHlo.nullary main_cst (constant S_ .f32 0x4B000000#32),
   StableHlo.binary main_arg1 main_cst main_v3 (mulf : (⟨S_, .f32⟩ : BufTy).Contents (Elt F) → (⟨S_, .f32⟩ : BufTy).Contents (Elt F) → (⟨S_, .f32⟩ : BufTy).Contents (Elt F)),
   StableHlo.nullary main_cst_0 (constant S_ .f32 0x00000000#32),
   StableHlo.nullary main_cst_1 (constant S_ .f32 0x4B000000#32),
   StableHlo.TRef.binary (.of main_cst_0) (.of main_v3) main_call0.v0 maximumf,
   StableHlo.TRef.binary (.of main_cst_1) main_call0.v0 main_call0.v1 minimumf,
   StableHlo.unary main_v4 main_v5 (fptosi 32 : (⟨S_, .f32⟩ : BufTy).Contents (Elt F) → (⟨S_, .i32⟩ : BufTy).Contents (Elt F)),
   StableHlo.unary main_v5 main_v6 (sitofp .f32 : (⟨S_, .i32⟩ : BufTy).Contents (Elt F) → (⟨S_, .f32⟩ : BufTy).Contents (Elt F)),
   StableHlo.binary main_v6 main_v4 main_v7 (cmpf .olt : (⟨S_, .f32⟩ : BufTy).Contents (Elt F) → (⟨S_, .f32⟩ : BufTy).Contents (Elt F) → (⟨S_, .i1⟩ : BufTy).Contents (Elt F)),
   StableHlo.unary main_v7 main_v8 ((extui 32 · Facts₀.natLt_1_32) : (⟨S_, .i1⟩ : BufTy).Contents (Elt F) → (⟨S_, .i32⟩ : BufTy).Contents (Elt F)),
   StableHlo.binary main_v5 main_v8 main_v9 (addi : (⟨S_, .i32⟩ : BufTy).Contents (Elt F) → (⟨S_, .i32⟩ : BufTy).Contents (Elt F) → (⟨S_, .i32⟩ : BufTy).Contents (Elt F)),
   StableHlo.unary main_v9 main_v10 (id : (⟨S_, .i32⟩ : BufTy).Contents (Elt F) → (⟨S_, .i32⟩ : BufTy).Contents (Elt F)),
   StableHlo.unary main_v10 main_v11 (broadcastInDim S16 ![] Facts₀.bcast_S_S16 : (⟨S_, .i32⟩ : BufTy).Contents (Elt F) → (⟨S16, .i32⟩ : BufTy).Contents (Elt F))]

/-- After the SparseCore call: the two halves concatenated. -/
abbrev hostOps2 : List (HloOp τ sig (Elt F)) :=
  [StableHlo.binary main_v2 main_v12 main_v13 ((fun a b => concatenate S1048576 0 [⟨S770048, a⟩, ⟨S278528, b⟩] Facts₀.concatenates_S770048_S278528_S1048576_d0) : (⟨S770048, .i32⟩ : BufTy).Contents (Elt F) → (⟨S278528, .i32⟩ : BufTy).Contents (Elt F) → (⟨S1048576, .i32⟩ : BufTy).Contents (Elt F))]

set_option maxRecDepth 4096 in
theorem main_eq (d : Dev nD) :
    main (F := F) d = (StableHlo.seq hostOps0 >>= fun _ => Prog.lift (.customCall (SparseCore.inner (Pipeline.entry 0)) ()) >>= fun _ =>
      StableHlo.seq hostOps1 >>= fun _ => (sc (F := F)).run d 0 >>= fun _ => StableHlo.seq hostOps2) := by
  simp only [main, fn_clip.body, StableHlo.seq, bind_assoc, pure_bind]

end Main

end Cert.LaunchBits

end
-- ==== Proof.RegionBits.lean ====
/-
  The TensorCore pallas_call as a region of @main, over any description `outTC` of what the kernel body leaves in
  the output block for which the body's triple holds (`hsound`): the pipeline's proof data (the output block of grid
  point `t` is `outTC` of the point and the probability's block), the body obligation at every point, and the region
  as a segment entered from every unscoped buffer at one valuation and left at another.
-/
import proofs.«203736_g78743930405654_cont_9to1c4b_297_23_alg».proof.Proof.LaunchBits
import Idealize.ShloMosaic.Lib.Pipeline.FrameBody
import Idealize.ShloMosaic.Lib.Pipeline.FrameSuffix
import Idealize.ShloMosaic.Lib.Pipeline.RegionsLoop

noncomputable section

namespace Cert.LaunchBits

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

section Region

variable (Vv : (c : Dev nD) → (b : Ref sig .tc) → Buf (Elt F) ((c : Thread nD τ).loc b))
variable (outTC : grid0.Coords → Vec F S1x1 .f32 → Vec F S1x1x16384 .i32)
variable (hsound : ∀ (c : Dev nD) (E : Set ℕ) (i : grid0.Coords) (arg1 : Memref sig .tc .vmem S1x1 .f32) (harg1 : arg1.IsWhole)
    (arg2 : Memref sig .tc .vmem S1x1x16384 .i32) (harg2 : arg2.IsWhole) (x0 : Vec F S1x1 .f32) (Kk : PUnit → sProp (MT nD τ sig (HIx 1) (Elt F) ℕ UU ℕ)),
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ Kk ⟨⟩))
      ⊢ wp frame (wpE (defs₀ (F := F)) Variants.none c none) E (cc0__tc_kernel i arg1 harg1 arg2 harg2) Kk)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The input window's current staging buffer holds its block at every point, fetched there or not. -/
theorem before0_0_of {c : Dev nD} (dat : Dat τ (Elt F) (HIx 1) ℕ UU ℕ cfg0 c) (hA : dat.A 0 = Vv c (Pipeline.arrRef spec0 0))
    (hafter : ∀ t, dat.after 0 t = iblk0 Vv c 0 t) (t : Fin cfg0.N) (d) : dat.before 0 t d = iblk0 Vv c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of the pipeline on core `c`: the arrays as the region finds them; after the body at point `t` the
    input's buffer at its block and the output's at `outTC` of the point and that block; the invariant the scoped rest and the
    generator register, untouched; the core owes, all through the region, the start signals of the SparseCore call. -/
def dat0 (c : Dev nD) : Dat τ (Elt F) (HIx 1) ℕ UU ℕ cfg0 c where
  A w := Vv c (Pipeline.arrRef spec0 w)
  after w t := match w with
    | ⟨0, _⟩ => iblk0 Vv c 0 t
    | ⟨1, _⟩ => outTC (grid0.coords t) (iblk0 Vv c 0 t)
  Φ _ := iprop(Pipeline.scopedRest spec0 c ∗ ∃ r, prngReg c r)
  q _ := fullShare
  owed _ := (K (F := F)).Otc c 0
  recorded _ := {p | (K (F := F)).lev ((c.tc : Thread nD τ), p.1) p.2 ≤ 0}

theorem A_eq0 (c : Dev nD) (w : Fin cfg0.W) : (dat0 Vv outTC c).A w = Vv c (Pipeline.arrRef spec0 w) := by
  dsimp only [dat0]
theorem after0_0 (c : Dev nD) (t : Fin cfg0.N) : (dat0 Vv outTC c).after 0 t = iblk0 Vv c 0 t := by dsimp only [dat0]
theorem after0_1 (c : Dev nD) (t : Fin cfg0.N) : (dat0 Vv outTC c).after 1 t = outTC (grid0.coords t) (iblk0 Vv c 0 t) := by dsimp only [dat0]
theorem before0_0 (c : Dev nD) (t : Fin cfg0.N) (d) : (dat0 Vv outTC c).before 0 t d = iblk0 Vv c 0 t :=
  before0_0_of Vv (dat0 Vv outTC c) (A_eq0 Vv outTC c 0) (after0_0 Vv outTC c) t d

def bodyPre0 (c : Dev nD) (t : Fin cfg0.N) : sProp 𝕄 :=
  iprop((dat0 Vv outTC c).Φ t.castSucc ∗ (dat0 Vv outTC c).owesAt none t.castSucc
    ∗ (∃ d, owns (c : Thread nD τ) (st0_0 t) fullShare ((dat0 Vv outTC c).before 0 t d))
    ∗ (∃ d, owns (c : Thread nD τ) (st0_1 t) fullShare ((dat0 Vv outTC c).before 1 t d)))

def bodyPost0 (c : Dev nD) (t : Fin cfg0.N) : sProp 𝕄 :=
  iprop((dat0 Vv outTC c).Φ t.succ ∗ (dat0 Vv outTC c).owesAt none t.succ
    ∗ owns (c : Thread nD τ) (st0_0 t) fullShare ((dat0 Vv outTC c).after 0 t)
    ∗ owns (c : Thread nD τ) (st0_1 t) fullShare ((dat0 Vv outTC c).after 1 t))

include hsound in
theorem sound_body0 (c : Dev nD) (t : Fin cfg0.N) :
    bodyPre0 Vv outTC c t ⊢ wp frame (wpE (defs₀ (F := F)) Variants.none c none) Set.univ (bodyAt0 t) (fun _ => bodyPost0 Vv outTC c t) := by
  unfold bodyPre0 bodyPost0 bodyAt0
  simp only [before0_0]
  rw [show (dat0 Vv outTC c).Φ t.succ = (dat0 Vv outTC c).Φ t.castSucc from rfl,
    show (dat0 Vv outTC c).owesAt none t.succ = (dat0 Vv outTC c).owesAt none t.castSucc from rfl,
    after0_0, after0_1]
  iintro ⟨HΦ, Ho, ⟨%d0, H0⟩, ⟨%d1, H1⟩⟩
  iapply (hsound c Set.univ (grid0.coords t) _ _ _ _ (iblk0 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

include hsound in
theorem body_obligation0 (c : Dev nD) : BodyObligation (dat0 (F := F) Vv outTC c) (defs₀ (F := F)) Variants.none none Set.univ := fun t => by
  rw [bigSep_W0, bigSep_W0]
  exact sound_body0 Vv outTC hsound c t

end Region

/-! ## The buffer contents at the region's two boundaries, and the region as a segment -/

section Run

variable [Cert.Kernel.Facts]
variable (m : (ℓ : Loc nD τ sig) → Buf (Elt F) ℓ)
variable (outTC : grid0.Coords → Vec F S1x1 .f32 → Vec F S1x1x16384 .i32)
variable (hsound : ∀ (c : Dev nD) (E : Set ℕ) (i : grid0.Coords) (arg1 : Memref sig .tc .vmem S1x1 .f32) (harg1 : arg1.IsWhole)
    (arg2 : Memref sig .tc .vmem S1x1x16384 .i32) (harg2 : arg2.IsWhole) (x0 : Vec F S1x1 .f32) (Kk : PUnit → sProp (MT nD τ sig (HIx 1) (Elt F) ℕ UU ℕ)),
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ Kk ⟨⟩))
      ⊢ wp frame (wpE (defs₀ (F := F)) Variants.none c none) E (cc0__tc_kernel i arg1 harg1 arg2 harg2) Kk)

/-- Core `c`'s buffers at launch, -/
abbrev W0 : Dev nD → Valuation τ sig (Elt F) := fun c b => m (c, b)
/-- after the reshape (the region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- and at the region's exit: its arrays at what the pipeline leaves, every other buffer as entered. -/
def W2 (c : Dev nD) : Valuation τ sig (Elt F) :=
  Pipeline.withArrays spec0 c (W1 m c) fun w => (dat0 (V1 m) outTC c).arrAt w cfg0.N
theorem W2_arr (c : Dev nD) (w : Fin cfg0.W) :
    W2 m outTC c (Proc.devRef .tc (Pipeline.arrRef spec0 w)) = (dat0 (V1 m) outTC c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m outTC c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m outTC c b
theorem hF0 (c : Dev nD) (w : Fin cfg0.W) : (dat0 (V1 m) outTC c).arrAt w cfg0.N = V2 m outTC c (Pipeline.arrRef spec0 w) :=
  (W2_arr m outTC c w).symm
theorem hrest0 (c : Dev nD) : ∀ b, b ∉ Finset.univ.image (Pipeline.arrRef spec0) → V2 m outTC c b = V1 m c b :=
  fun b hb => W2_of_ne m outTC c b fun w e => hb (Finset.mem_image.mpr ⟨w, Finset.mem_univ _, e⟩)

/-- The prefetched tables' admissible contents: the pipeline has none. -/
abbrev adm : (p : Fin 1) → (pcfgs (F := F) p).Adm := fun p => (cfgs p).toPCfg_adm
/-- The pipeline's proof data at the region's entry contents (a literal match on the one pipeline). -/
def pdats : (p : Fin 1) → (c : Dev nD) → Dat τ (Elt F) (HIx 1) ℕ UU ℕ (Pipeline.pin (pcfgs (F := F)) adm p) c
  | ⟨0, _⟩ => fun c => dat0 (V1 m) outTC c

/-- What rides beside the buffers through the region: the generator register at some state and what the TensorCore
    owes — the start signals of the SparseCore call —, its recorded pairs at level zero. -/
abbrev Rr (c : Dev nD) : sProp 𝕄 :=
  iprop((∃ r, prngReg c r) ∗ ∃ W, ⌜(K (F := F)).WBelow (T c) W 0⌝ ∗ owes (T c) ((K (F := F)).Otc c 0) W)

theorem Otc_none (c : Dev nD) (n : ℕ) (g : GSem nD τ sig) : (K (F := F)).Otc c n g none = 0 := by
  by_contra h
  have := (K (F := F)).lev_of_Otc_pos (Nat.pos_of_ne_zero h); rw [SparseCore.Cfg.lev_none] at this; omega

set_option backward.isDefEq.respectTransparency.types false in
/-- The TensorCore call over the thread state: entered from every unscoped buffer at `W1`, left at `W2`. -/
def reg0 : Pipeline.RegionSeg (pcfgs (F := F)) adm (pdats m outTC) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) outTC hsound c).loose
  hwaits c := Pipeline.cellsWaits_intro (Pipeline.pin (pcfgs (F := F)) adm) (pdats m outTC) none 0 c
    fun w s t => (K (F := F)).mayWait_none _ (Otc_none c 0)
  pre c := iprop(StableHlo.held (c : Thread nD τ) (Pipeline.ucRefs τ sig) (W1 m c) ∗ Rr c)
  post c := iprop(StableHlo.held (c : Thread nD τ) (Pipeline.ucRefs τ sig) (W2 m outTC c) ∗ Rr c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m outTC) launch0.win launch0.arr_whole c
      ((pdats m outTC 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m outTC 0 c).Φ 0 = iprop(Pipeline.scopedRest spec0 c ∗ ∃ r, prngReg c r) from rfl]
    iintro ⟨Hp, -, Hr⟩
    isplitl [Hr]; · iexact Hr
    iexact Hp
  hout c := by
    rw [Pipeline.ownSems0_none, show (pdats m outTC 0 c).Φ (Fin.last _) = iprop(Pipeline.scopedRest spec0 c ∗ ∃ r, prngReg c r) from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m outTC) ((pdats m outTC 0 c).share_full fun _ => rfl)
      (V1 m c) (V2 m outTC c) ((pdats m outTC 0 c).arrAt · cfg0.N) (hF0 m outTC c) (hrest0 m outTC c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · exact le_of_eq ((K (F := F)).lev_none _)
    iexact HO

end Run

end Cert.LaunchBits

end
-- ==== Proof.SplitBits.lean ====
/-
  How the SparseCore call's two arrays split among the 32 tiles and come back: the result array is the disjoint union
  of the tiles' blocks of 8704 rows, the threshold vector is read through 32 read shares; tile `(c, i)` has number
  `2 i + c`, and every number below 32 is of exactly one tile.
-/
import proofs.«203736_g78743930405654_cont_9to1c4b_297_23_alg».proof.Proof.LaunchBits

noncomputable section

namespace Cert.LaunchBits

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem tileSet_disjoint : ∀ i ∈ (Finset.univ : Finset (Fin 32)), ∀ j ∈ (Finset.univ : Finset (Fin 32)), i ≠ j → Disjoint (tileSet i) (tileSet j) :=
  fun i _ j _ h => Rect.part_disjoint hdiv32 h
theorem tileSet_cover : (Finset.univ : Finset (Fin 32)).biUnion tileSet = Finset.univ := Rect.biUnion_part hdiv32

/-- The result array whole is its 32 blocks of rows. -/
theorem oPts_rows (d : Dev nD) (f : Buf (Elt F) (oLoc d)) :
    (oLoc d ↦{fullShare} f : sProp 𝕄) = bigSep Finset.univ fun w : Fin 32 => oLoc d ↦[tileSet w]{fullShare} f := by
  rw [← pointsTo_biUnion Finset.univ (ℓ := oLoc d) tileSet tileSet_disjoint, tileSet_cover]; try rfl

/-- The threshold vector whole is a remainder and 32 read shares. -/
theorem thPts_toks (d : Dev nD) (tv : Buf (Elt F) (thLoc d)) :
    (thLoc d ↦{fullShare} tv : sProp 𝕄) ⊣⊢ iprop((thLoc d ↦{Transfers.shareDrop fullShare 32} tv)
      ∗ bigSep Finset.univ (fun w : Fin 32 => thLoc d ↦{Transfers.shareTokN fullShare w.val} tv)) :=
  Transfers.pointsTo_toks fullShare 32

/-- Every tile number is that of exactly one (core, subcore). -/
theorem wid_image : (Finset.univ : Finset (Fin ((K (F := F)).nCore 0) × Fin ((K (F := F)).nSub 0))).image (fun p => wid (F := F) p.1 p.2) = Finset.univ := by
  refine Finset.eq_univ_iff_forall.mpr fun w => Finset.mem_image.mpr
    ⟨(⟨w.val % 2, Nat.mod_lt _ (by decide)⟩, ⟨w.val / 2, by have := w.isLt; show w.val / 2 < 16; omega⟩), Finset.mem_univ _, Fin.ext ?_⟩
  show 2 * (w.val / 2) + w.val % 2 = w.val
  omega
theorem wid_injOn : Set.InjOn (fun p : Fin ((K (F := F)).nCore 0) × Fin ((K (F := F)).nSub 0) => wid (F := F) p.1 p.2)
    ((Finset.univ : Finset (Fin ((K (F := F)).nCore 0) × Fin ((K (F := F)).nSub 0))) : Set _) := by
  intro a _ b _ e
  have h := congrArg Fin.val e
  simp only [wid] at h
  have ha : a.1.val < 2 := a.1.isLt
  have hb : b.1.val < 2 := b.1.isLt
  exact Prod.ext (Fin.ext (by omega)) (Fin.ext (by omega))

/-- A family over the 32 tile numbers is the family over the cores and their subcores. -/
theorem bigSep_tiles (Φ : Fin 32 → sProp 𝕄) :
    bigSep Finset.univ Φ = bigSep Finset.univ fun c : Fin ((K (F := F)).nCore 0) => bigSep Finset.univ fun i : Fin ((K (F := F)).nSub 0) => Φ (wid c i) := by
  rw [← wid_image (F := F), SparseCore.bigSep_image_of_injOn (wid_injOn (F := F)) Φ, ← Finset.univ_product_univ, SparseCore.bigSep_product]

/-- The two arrays of the call, whole, are the tiles' payloads and the threshold vector's remainder; and back, at any
    one contents of the result array. -/
theorem call_split (d : Dev nD) (tv : Buf (Elt F) (thLoc d)) (f : Buf (Elt F) (oLoc d)) :
    (iprop((thLoc d ↦{fullShare} tv) ∗ (oLoc d ↦{fullShare} f)) : sProp 𝕄)
      ⊣⊢ iprop((thLoc d ↦{Transfers.shareDrop fullShare 32} tv)
        ∗ bigSep Finset.univ fun c : Fin ((K (F := F)).nCore 0) => bigSep Finset.univ fun i : Fin ((K (F := F)).nSub 0) => tilePay d tv (wid c i) f) := by
  have e : (bigSep Finset.univ fun c : Fin ((K (F := F)).nCore 0) => bigSep Finset.univ fun i : Fin ((K (F := F)).nSub 0) => tilePay d tv (wid c i) f)
      = (iprop((bigSep Finset.univ fun w : Fin 32 => (thLoc d ↦{Transfers.shareTokN fullShare w.val} tv))
          ∗ bigSep Finset.univ fun w : Fin 32 => (oLoc d ↦[tileSet w]{fullShare} f)) : sProp 𝕄) := by
    rw [← bigSep_tiles (F := F) (fun w => tilePay d tv w f)]
    unfold tilePay
    rw [bigSep_sep']
  rw [e, ← oPts_rows]
  constructor
  · iintro ⟨Ht, Ho⟩
    ihave H := (thPts_toks d tv).1 $$ Ht
    icases H with ⟨Hd, Hts⟩
    isplitl [Hd]; · iexact Hd
    isplitl [Hts]; · iexact Hts
    iexact Ho
  · iintro ⟨Hd, Hts, Ho⟩
    isplitl [Hd Hts]
    · iapply (thPts_toks d tv).2; isplitl [Hd] <;> iassumption
    iexact Ho

end Cert.LaunchBits

end
-- ==== Proof.ValsBits.lean ====
/-
  What the three straight lines of host operations leave in the buffers the proof reads, as functions of the contents
  they start from: the fold of each line read at a buffer.
-/
import proofs.«203736_g78743930405654_cont_9to1c4b_297_23_alg».proof.Proof.LaunchBits
import Idealize.ShloMosaic.Lib.ValueIdx

noncomputable section

namespace Cert.LaunchBits

open Cert.Kernel Cert.Kernel.Gen

open Idealize.ShloMosaic Idealize.ShloMosaic.TcCoe
open Idealize.ShloMosaic.StableHlo (after after_cons after_nil)

variable {F : FTy → Type} [FloatOps F] [Cert.Kernel.Facts]

/-- The clipped value `clip (p · 2²³) 0 2²³` as the host computes it. -/
def clipH (p : (⟨S_, .f32⟩ : BufTy).Contents (Elt F)) : (⟨S_, .f32⟩ : BufTy).Contents (Elt F) :=
  minimumf (constant S_ .f32 0x4B000000#32) (maximumf (constant S_ .f32 0x00000000#32) (mulf p (constant S_ .f32 0x4B000000#32)))
/-- The threshold as the host computes it: the truncation plus one when its read-back is below the clipped value. -/
def thrH (p : (⟨S_, .f32⟩ : BufTy).Contents (Elt F)) : (⟨S_, .i32⟩ : BufTy).Contents (Elt F) :=
  id (addi (fptosi 32 (clipH p)) (extui 32 (cmpf .olt (sitofp .f32 (fptosi 32 (clipH p))) (clipH p)) Facts₀.natLt_1_32))
/-- The threshold word, and the 16-word vector the SparseCore call is handed. -/
def thW (p : (⟨S_, .f32⟩ : BufTy).Contents (Elt F)) : BitVec 32 := thrH p ValueIdx.ix0
def thVec (p : (⟨S_, .f32⟩ : BufTy).Contents (Elt F)) : (⟨S16, .i32⟩ : BufTy).Contents (Elt F) :=
  broadcastInDim S16 ![] Facts₀.bcast_S_S16 (thrH p)
theorem thVec_eq (p : (⟨S_, .f32⟩ : BufTy).Contents (Elt F)) : thVec p = fun _ => thW p := by
  funext j; unfold thVec thW broadcastInDim
  exact congrArg (thrH p) (funext fun a => a.elim0)

variable (Vv : Valuation τ sig (Elt F))

/-! ### The first line: only the 1×1 block is written -/
theorem after0_arg0 : after hostOps0 Vv (main_arg0 : DevRef τ sig) = Vv (main_arg0 : DevRef τ sig) := by
  simp only [after_cons, after_nil]; rfl
theorem after0_arg1 : after hostOps0 Vv (main_arg1 : DevRef τ sig) = Vv (main_arg1 : DevRef τ sig) := by
  simp only [after_cons, after_nil]; rfl
theorem after0_v12 : after hostOps0 Vv (main_v12 : DevRef τ sig) = Vv (main_v12 : DevRef τ sig) := by
  simp only [after_cons, after_nil]; rfl

/-! ### The second line -/
theorem after1_arg0 : after hostOps1 Vv (main_arg0 : DevRef τ sig) = Vv (main_arg0 : DevRef τ sig) := by
  simp only [after_cons, after_nil]; rfl
theorem after1_arg1 : after hostOps1 Vv (main_arg1 : DevRef τ sig) = Vv (main_arg1 : DevRef τ sig) := by
  simp only [after_cons, after_nil]; rfl
theorem after1_v12 : after hostOps1 Vv (main_v12 : DevRef τ sig) = Vv (main_v12 : DevRef τ sig) := by
  simp only [after_cons, after_nil]; rfl
/-- The SparseCore call's operand is the threshold vector of the probability. -/
theorem after1_v11 : after hostOps1 Vv (main_v11 : DevRef τ sig) = thVec (Vv (main_arg1 : DevRef τ sig)) := by
  simp only [after_cons, after_nil]; rfl
/-- The TensorCore result, flattened. -/
theorem after1_v2 : after hostOps1 Vv (main_v2 : DevRef τ sig)
    = shapeCast S770048 (Vv (main_v1 : DevRef τ sig) : (⟨S47x1x16384, .i32⟩ : BufTy).Contents (Elt F)) Facts₀.shapeCasts_S47x1x16384_S770048 := by
  simp only [after_cons, after_nil]; rfl

/-! ### The third line -/
theorem after2_arg0 : after hostOps2 Vv (main_arg0 : DevRef τ sig) = Vv (main_arg0 : DevRef τ sig) := by
  simp only [after_cons, after_nil]; rfl
theorem after2_arg1 : after hostOps2 Vv (main_arg1 : DevRef τ sig) = Vv (main_arg1 : DevRef τ sig) := by
  simp only [after_cons, after_nil]; rfl
theorem after2_v13 : after hostOps2 Vv (main_v13 : DevRef τ sig)
    = concatenate S1048576 0 [⟨S770048, (Vv (main_v2 : DevRef τ sig) : (⟨S770048, .i32⟩ : BufTy).Contents (Elt F))⟩,
        ⟨S278528, (Vv (main_v12 : DevRef τ sig) : (⟨S278528, .i32⟩ : BufTy).Contents (Elt F))⟩] Facts₀.concatenates_S770048_S278528_S1048576_d0 := by
  simp only [after_cons, after_nil]; rfl

end Cert.LaunchBits

end
-- ==== Proof.PayBits.lean ====
/-
  What the SparseCore call's handshakes carry: each tile is handed a read share of the threshold vector and its own
  8704 rows of the result array, and hands them back, the rows at the result's function of the threshold word; a
  SparseCore's payload is its sixteen tiles'.
-/
import proofs.«203736_g78743930405654_cont_9to1c4b_297_23_alg».proof.Proof.SplitBits
import proofs.«203736_g78743930405654_cont_9to1c4b_297_23_alg».proof.Proof.ValsBits

noncomputable section

namespace Cert.LaunchBits

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat Cfg Window BodyObligation cellOf)

variable {F : FTy → Type} [FloatOps F] [Cert.Kernel.Facts]

local notation "𝕄" => MT nD τ sig (HIx 1) (Elt F) ℕ UU ℕ

variable (m : (ℓ : Loc nD τ sig) → Buf (Elt F) ℓ) (ρ : Dev nD → PrngReg)

/-- The probability as launched, on device `d`. -/
abbrev pOf (d : Dev nD) : (⟨S_, .f32⟩ : BufTy).Contents (Elt F) := m ((SparseCore.T d).loc main_arg1)

/-! ## What the handshakes carry -/

/-- The one call hands tile `(c, i)` a read share of the threshold vector and its rows of the result, and takes them
    back, the rows at the result's function of the threshold word; a SparseCore's share is its sixteen tiles'. -/
def P : (K (F := F)).Pay (nD := nD) (Val := Elt F) (Name := ℕ) (U := UU) where
  st := fun q d c => match q with
    | 0 => bigSep Finset.univ fun i : Fin ((K (F := F)).nSub 0) => tilePay d (thVec (pOf m d)) (wid c i) (m (oLoc d))
  dn := fun q d c => match q with
    | 0 => bigSep Finset.univ fun i : Fin ((K (F := F)).nSub 0) => tilePay d (thVec (pOf m d)) (wid c i) (outSC (thW (pOf m d)))
  go := fun q d c i => match q with
    | 0 => tilePay d (thVec (pOf m d)) (wid c i) (m (oLoc d))
  td := fun q d c i => match q with
    | 0 => tilePay d (thVec (pOf m d)) (wid c i) (outSC (thW (pOf m d)))
  x := fun _ _ => iprop(emp)

instance P_storable : (P (F := F) m).IsStorable where
  st q d c := match q with | 0 => by unfold P tilePay; infer_instance
  dn q d c := match q with | 0 => by unfold P tilePay; infer_instance
  go q d c i := match q with | 0 => by unfold P tilePay; infer_instance
  td q d c i := match q with | 0 => by unfold P tilePay; infer_instance

theorem vecSplit : (K (F := F)).VecSplit' (P m) 0 := by
  intro d c
  show (bigSep Finset.univ fun i : Fin ((K (F := F)).nSub 0) => tilePay d (thVec (pOf m d)) (wid c i) (m (oLoc d)))
    ⊢ |={Set.univ}=> iprop((bigSep Finset.univ fun i : Fin ((K (F := F)).nSub 0) => tilePay d (thVec (pOf m d)) (wid c i) (m (oLoc d)))
      ∗ ((bigSep Finset.univ fun i : Fin ((K (F := F)).nSub 0) => tilePay d (thVec (pOf m d)) (wid c i) (outSC (thW (pOf m d))))
          -∗ (bigSep Finset.univ fun i : Fin ((K (F := F)).nSub 0) => tilePay d (thVec (pOf m d)) (wid c i) (outSC (thW (pOf m d))))))
  iintro H; imodintro
  isplitl [H]; · iexact H
  iintro H; iexact H

end Cert.LaunchBits

end
-- ==== Proof.RunBits.lean ====
/-
  The launch of the whole program: what the SparseCore call's handshakes carry, the tiles' obligation, the ghost
  state's launch element, @main on the TensorCore (the reshape, the TensorCore region, the host arithmetic for the
  threshold word, the SparseCore call, the concatenation), and the run with every array of the claim named.
-/
import proofs.«203736_g78743930405654_cont_9to1c4b_297_23_alg».proof.Proof.RegionBits
import proofs.«203736_g78743930405654_cont_9to1c4b_297_23_alg».proof.Proof.PayBits

noncomputable section

namespace Cert.LaunchBits

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat Cfg Window BodyObligation cellOf)

variable {F : FTy → Type} [FloatOps F] [Cert.Kernel.Facts]

local notation "𝕄" => MT nD τ sig (HIx 1) (Elt F) ℕ UU ℕ

variable (m : (ℓ : Loc nD τ sig) → Buf (Elt F) ℓ) (ρ : Dev nD → PrngReg)

/-! ## The launch element: the handshakes' rounds, the pipeline's staging cells' rounds; nothing of the tiles' own -/

def u₀ : UU := (initOf (K (F := F)).hsCells (K (F := F)).hsToks, (initOf (Pipeline.cells cfgs cellOf_inj) (Pipeline.launchToks cfgs cellOf_inj), 1))

/-- What the launch deals a TensorCore beside its handshake state: its pipeline's staging cells' ghost state and the
    duty tokens of the transfers the pipeline will issue. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀ G
  unfold EP
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (nD := nD) cfgs ((Emb.inl : Emb UP (UP × Counters)).trans (embR : Emb (UP × Counters) 𝕄)) cellOf_inj) $$ HP with ⟨Hg, Ht⟩
  imodintro
  isplitl [HH]; · iexact HH
  isplitl [Hg Ht]
  · rw [bigSep_sep']
    isplitl [Hg]
    · ihave Hg' := (Entails.of_eq (bigSep_congr (s := (Finset.univ : Finset (Dev nD))) fun d _ =>
          bigSep_univ_of_subsingleton (0 : Fin 1) (Φ := fun p : Fin 1 => Pipeline.cellsGhost cfgs ((Emb.inl : Emb UP (UP × Counters)).trans (embR : Emb (UP × Counters) 𝕄)) p d))) $$ Hg
      iexact Hg'
    · ihave Ht' := (Entails.of_eq (bigSep_congr (s := (Finset.univ : Finset (Dev nD))) fun d _ =>
          bigSep_univ_of_subsingleton (0 : Fin 1) (Φ := fun p : Fin 1 => Pipeline.toksInit cfgs ((Emb.inl : Emb UP (UP × Counters)).trans (embR : Emb (UP × Counters) 𝕄)) p d))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

section Main

variable (outTC : grid0.Coords → Vec F S1x1 .f32 → Vec F S1x1x16384 .i32)
variable (hsound : ∀ (c : Dev nD) (E : Set ℕ) (i : grid0.Coords) (arg1 : Memref sig .tc .vmem S1x1 .f32) (harg1 : arg1.IsWhole)
    (arg2 : Memref sig .tc .vmem S1x1x16384 .i32) (harg2 : arg2.IsWhole) (x0 : Vec F S1x1 .f32) (Kk : PUnit → sProp (MT nD τ sig (HIx 1) (Elt F) ℕ UU ℕ)),
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ Kk ⟨⟩))
      ⊢ wp frame (wpE (defs₀ (F := F)) Variants.none c none) E (cc0__tc_kernel i arg1 harg1 arg2 harg2) Kk)

/-- The buffers after the second line, -/
abbrev W3 (d : Dev nD) : Valuation τ sig (Elt F) := StableHlo.after hostOps1 (W2 m outTC d)
/-- after the SparseCore call (its result at the tiles' function of the threshold word), -/
def W4 (d : Dev nD) : Valuation τ sig (Elt F) := Function.update (W3 m outTC d) (main_v12 : DevRef τ sig) (outSC (thW (pOf m d)))
/-- and at the end. -/
abbrev W5 (d : Dev nD) : Valuation τ sig (Elt F) := StableHlo.after hostOps2 (W4 m outTC d)

theorem ops0_sub : ∀ op ∈ (hostOps0 : List (HloOp τ sig (Elt F))), op.bufs ⊆ Pipeline.ucRefs τ sig :=
  fun op h => Pipeline.sub_ucRefs op ((List.forall_iff_forall_mem.mp
    (show (hostOps0 : List (HloOp τ sig (Elt F))).Forall fun op => op.bufs ⊆ StableHlo.tcRefs τ sig from StableHlo.reshape_bufs_sub ..)) op h)
theorem ops1_sub : ∀ op ∈ (hostOps1 : List (HloOp τ sig (Elt F))), op.bufs ⊆ Pipeline.ucRefs τ sig :=
  fun op h => Pipeline.sub_ucRefs op ((List.forall_iff_forall_mem.mp
    (show (hostOps1 : List (HloOp τ sig (Elt F))).Forall fun op => op.bufs ⊆ StableHlo.tcRefs τ sig from
      ⟨StableHlo.reshape_bufs_sub .., StableHlo.nullary_bufs_sub .., StableHlo.binary_bufs_sub .., StableHlo.nullary_bufs_sub .., StableHlo.nullary_bufs_sub ..,
        StableHlo.binary_bufs_sub .., StableHlo.binary_bufs_sub .., StableHlo.unary_bufs_sub .., StableHlo.unary_bufs_sub .., StableHlo.binary_bufs_sub ..,
        StableHlo.unary_bufs_sub .., StableHlo.binary_bufs_sub .., StableHlo.unary_bufs_sub .., StableHlo.unary_bufs_sub ..⟩)) op h)
theorem ops2_sub : ∀ op ∈ (hostOps2 : List (HloOp τ sig (Elt F))), op.bufs ⊆ Pipeline.ucRefs τ sig :=
  fun op h => Pipeline.sub_ucRefs op ((List.forall_iff_forall_mem.mp
    (show (hostOps2 : List (HloOp τ sig (Elt F))).Forall fun op => op.bufs ⊆ StableHlo.tcRefs τ sig from StableHlo.binary_bufs_sub ..)) op h)
theorem ops0_fresh : ∀ op ∈ (hostOps0 : List (HloOp τ sig (Elt F))), op.fresh = ∅ :=
  List.forall_iff_forall_mem.mp (by simp only [List.Forall]; repeat' constructor)
theorem ops1_fresh : ∀ op ∈ (hostOps1 : List (HloOp τ sig (Elt F))), op.fresh = ∅ :=
  List.forall_iff_forall_mem.mp (by simp only [List.Forall]; repeat' constructor)
theorem ops2_fresh : ∀ op ∈ (hostOps2 : List (HloOp τ sig (Elt F))), op.fresh = ∅ :=
  List.forall_iff_forall_mem.mp (by simp only [List.Forall]; repeat' constructor)

/-- The two arrays of the SparseCore call, as device buffers of the TensorCore. -/
abbrev v11' : DevRef τ sig := Proc.devRef .tc (main_v11 : Ref sig .tc)
abbrev v12' : DevRef τ sig := Proc.devRef .tc (main_v12 : Ref sig .tc)
abbrev S2 : Finset (DevRef τ sig) := {v11', v12'}
theorem S2_sub : (S2 : Finset (DevRef τ sig)) ⊆ Pipeline.ucRefs τ sig := by decide

theorem held_S2 (d : Dev nD) (W : Valuation τ sig (Elt F)) :
    (held (T d) S2 W : sProp 𝕄) = iprop((thLoc d ↦{fullShare} W v11') ∗ (oLoc d ↦{fullShare} W v12')) := by
  unfold held S2
  rw [SparseCore.bigSep_insert' (by decide), bigSep_singleton]

/-- Before the SparseCore call its operand holds the threshold vector of the probability as launched, and its result
    array what the launch memory holds. -/
theorem W3_v11 (d : Dev nD) : W3 m outTC d v11' = thVec (pOf m d) := by
  show StableHlo.after hostOps1 (W2 m outTC d) (main_v11 : DevRef τ sig) = _
  rw [after1_v11, show W2 m outTC d (main_arg1 : DevRef τ sig) = W1 m d (main_arg1 : DevRef τ sig) from W2_of_ne m outTC d main_arg1 (by decide)]
  show thVec (StableHlo.after hostOps0 (W0 m d) (main_arg1 : DevRef τ sig)) = _
  rw [after0_arg1]
theorem W3_v12 (d : Dev nD) : W3 m outTC d v12' = m (oLoc d) := by
  show StableHlo.after hostOps1 (W2 m outTC d) (main_v12 : DevRef τ sig) = _
  rw [after1_v12, show W2 m outTC d (main_v12 : DevRef τ sig) = W1 m d (main_v12 : DevRef τ sig) from W2_of_ne m outTC d main_v12 (by decide)]
  show StableHlo.after hostOps0 (W0 m d) (main_v12 : DevRef τ sig) = _
  rw [after0_v12]

theorem st0_eq (d : Dev nD) : (bigSep Finset.univ fun c : Fin ((K (F := F)).nCore 0) => (P m).st 0 d c)
    = bigSep Finset.univ fun c : Fin ((K (F := F)).nCore 0) => bigSep Finset.univ fun i : Fin ((K (F := F)).nSub 0) => tilePay d (thVec (pOf m d)) (wid c i) (m (oLoc d)) := rfl
theorem dn0_eq (d : Dev nD) : (bigSep Finset.univ fun c : Fin ((K (F := F)).nCore 0) => (P m).dn 0 d c)
    = bigSep Finset.univ fun c : Fin ((K (F := F)).nCore 0) => bigSep Finset.univ fun i : Fin ((K (F := F)).nSub 0) => tilePay d (thVec (pOf m d)) (wid c i) (outSC (thW (pOf m d))) := rfl

set_option maxHeartbeats 400000 in
set_option backward.isDefEq.respectTransparency.types false in
include hsound in
/-- The TensorCore call on device `d`, from the region boundary, the thread state the region is entered from, the level
    facts and the pipeline's ghost state, to the boundary and the thread state it leaves. -/
theorem region_step (d : Dev nD) (Q : PUnit → sProp 𝕄) :
    iprop((iprop(boundary (d.tc : Thread nD τ) ∗ (reg0 m outTC hsound).post d) -∗
          wp frame (wpE (D (F := F)) 𝒱 (SparseCore.T d) none) Set.univ (.ret ⟨⟩) Q)
        ∗ boundary (d.tc : Thread nD τ) ∗ (reg0 m outTC hsound).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ (Prog.lift (.customCall (Pipeline.entry 0) ())) Q :=
  Pipeline.RegionSeg.wp (pcfgs (F := F)) adm (pdats m outTC) none cellOf_inj EP defs₀ 𝒱₀ (K (F := F)).L (K (F := F)).lev
    (reg0 m outTC hsound) d none (fun _ h => nomatch h) (fun _ => .ret ⟨⟩) Q

set_option maxHeartbeats 400000 in
include hsound in
/-- The same step as @main spells it, under the program's whole body table. -/
theorem region_step' (d : Dev nD) (Q : PUnit → sProp 𝕄) :
    iprop((iprop(boundary (d.tc : Thread nD τ) ∗ (reg0 m outTC hsound).post d) -∗
          wp frame (wpE (D (F := F)) 𝒱 (SparseCore.T d) none) Set.univ (.ret ⟨⟩) Q)
        ∗ boundary (d.tc : Thread nD τ) ∗ (reg0 m outTC hsound).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  iintro H
  iapply ((K (F := F)).wp_liftProg (D (F := F)) 𝒱 (T d) Set.univ none (Prog.lift (.customCall (Pipeline.entry 0) ())) _)
  iapply (region_step m outTC hsound d Q)
  iexact H

set_option backward.isDefEq.respectTransparency.types false in
theorem reg0_pre (d : Dev nD) : (reg0 m outTC hsound).pre d = iprop(StableHlo.held (d.tc : Thread nD τ) (Pipeline.ucRefs τ sig) (W1 m d) ∗ Rr (F := F) d) := rfl
set_option backward.isDefEq.respectTransparency.types false in
theorem reg0_post (d : Dev nD) : (reg0 m outTC hsound).post d = iprop(StableHlo.held (d.tc : Thread nD τ) (Pipeline.ucRefs τ sig) (W2 m outTC d) ∗ Rr (F := F) d) := rfl

/-- What @main leaves the claim: every unscoped buffer at the last valuation. -/
abbrev FIN (d : Dev nD) : sProp 𝕄 := held (T d) (Pipeline.ucRefs τ sig) (W5 m outTC d)

set_option backward.isDefEq.respectTransparency.types false in
set_option maxHeartbeats 1000000 in
include hsound in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m outTC d) := by
  unfold SparseCore.Cfg.tcRes
  rw [main_eq]
  iintro ⟨#Hctx, Hst, ⟨Hb, Hh, Hsems, Hp⟩, ⟨Hcg, Htk⟩⟩
  ihave Hh0 := (Entails.of_eq (Pipeline.unscopedBufs_held (Ix := HIx 1) (Name := ℕ) (U := UU) (Lvl := ℕ) d (W0 m d))) $$ Hh
  -- the first line
  iapply (StableHlo.wp_seq 𝒱 none Set.univ d (Pipeline.ucRefs τ sig) _ hostOps0 ops0_sub ops0_fresh (W0 m d)) $$ [Hb Hh0]
  · isplitl [Hb] <;> iassumption
  iintro ⟨Hb, Hh⟩
  -- the TensorCore region
  rw [wp_bind]
  ihave Hlev := ((K (F := F)).ctx_levAts (EH := EH) (P := P m) κ) $$ Hctx
  ihave Hst2 := (Entails.of_eq (show (K (F := F)).tcSt EH d 0 = _ from by unfold SparseCore.Cfg.tcSt; rfl)) $$ Hst
  icases Hst2 with ⟨HO, Hst'⟩
  iapply (region_step' m outTC hsound d _)
  isplitl [Hsems Hst']
  swap
  · isplitl [Hb]; · iexact Hb
    isplitl [Hh HO Hp]
    · rw [reg0_pre]
      isplitl [Hh]; · iexact Hh
      isplitl [Hp]; · iexists _; iexact Hp
      iexact HO
    isplitl [Hlev]; · iexact Hlev
    isplitl [Hcg]; · iexact Hcg
    iexact Htk
  iintro ⟨Hb, Hpost⟩
  ihave Hpost' := (Entails.of_eq (reg0_post m outTC hsound d)) $$ Hpost
  icases Hpost' with ⟨Hh, Hp, HO⟩
  rw [wp_ret]; imodintro
  -- the second line
  iapply (StableHlo.wp_seq 𝒱 none Set.univ d (Pipeline.ucRefs τ sig) _ hostOps1 ops1_sub ops1_fresh (W2 m outTC d)) $$ [Hb Hh]
  · isplitl [Hb] <;> iassumption
  iintro ⟨Hb, Hh⟩
  -- the SparseCore call: its two arrays out of the buffers held, split among the tiles
  ihave Hh2 := (Entails.of_eq (show (held (T d) (Pipeline.ucRefs τ sig) (W3 m outTC d) : sProp 𝕄)
      = iprop(((thLoc d ↦{fullShare} thVec (pOf m d)) ∗ (oLoc d ↦{fullShare} m (oLoc d))) ∗ held (T d) (Pipeline.ucRefs τ sig \ S2) (W3 m outTC d)) from by
    rw [StableHlo.held_sub_split (T d) S2_sub (W3 m outTC d), held_S2, W3_v11, W3_v12])) $$ Hh
  icases Hh2 with ⟨⟨Hth, Ho⟩, Hrest⟩
  ihave Hsp := (call_split (F := F) d (thVec (pOf m d)) (m (oLoc d))).1 $$ [Hth Ho]
  · isplitl [Hth] <;> iassumption
  icases Hsp with ⟨Hdrop, Hst0⟩
  rw [wp_bind]
  iapply ((K (F := F)).wp_run (D (F := F)) 𝒱 (EH := EH) (P := P m) κ d 0) $$ [HO Hst' Hst0 Hdrop Hrest Hb]
  isplitr; · iexact Hctx
  isplitl [HO Hst']
  · unfold SparseCore.Cfg.tcSt
    isplitl [HO]; · iexact HO
    iexact Hst'
  isplitl [Hst0]
  · rw [st0_eq]; iexact Hst0
  iintro ⟨Hst, Hdn⟩
  ihave Hdn' := (Entails.of_eq (dn0_eq m d)) $$ Hdn
  ihave Hj := (call_split (F := F) d (thVec (pOf m d)) (outSC (thW (pOf m d)))).2 $$ [Hdrop Hdn']
  · isplitl [Hdrop] <;> iassumption
  icases Hj with ⟨Hth, Ho⟩
  -- the buffers held again, the result array at the tiles' function
  ihave Hh := (show iprop((thLoc d ↦{fullShare} thVec (pOf m d)) ∗ (oLoc d ↦{fullShare} (outSC (thW (pOf m d)) : Buf (Elt F) (oLoc d)))
        ∗ held (T d) (Pipeline.ucRefs τ sig \ S2) (W3 m outTC d))
      ⊢ (held (T d) (Pipeline.ucRefs τ sig) (W4 m outTC d) : sProp 𝕄) from by
    rw [StableHlo.held_sub_split (T d) S2_sub (W4 m outTC d), held_S2,
      show W4 m outTC d v11' = thVec (pOf m d) from (Function.update_of_ne (show v11' ≠ (main_v12 : DevRef τ sig) by decide) _ _).trans (W3_v11 m outTC d),
      show W4 m outTC d v12' = outSC (thW (pOf m d)) from Function.update_self _ _ _,
      StableHlo.held_congr (T d) (V := W4 m outTC d) (V' := W3 m outTC d) fun b hb =>
        Function.update_of_ne (fun e => (Finset.mem_sdiff.mp hb).2 (e ▸ Finset.mem_insert_of_mem (Finset.mem_singleton_self _))) _ _]
    iintro ⟨Hth, Ho, Hrest⟩
    isplitl [Hth Ho]
    · isplitl [Hth] <;> iassumption
    iexact Hrest) $$ [Hth Ho Hrest]
  · isplitl [Hth]; · iexact Hth
    isplitl [Ho] <;> iassumption
  -- the third line
  rw [← bind_pure (StableHlo.seq hostOps2)]
  iapply (StableHlo.wp_seq 𝒱 none Set.univ d (Pipeline.ucRefs τ sig) _ hostOps2 ops2_sub ops2_fresh (W4 m outTC d)) $$ [Hb Hh]
  · isplitl [Hb] <;> iassumption
  iintro ⟨Hb, Hh⟩
  rw [wp_pure]; imodintro
  isplitl [Hst]; · iexact Hst
  iexact Hh

/-- What the final memory holds, read off what @main leaves: every unscoped buffer at the last valuation. -/
def fq (d : Dev nD) (s' : Phys nD τ sig (Elt F)) : Prop := ∀ b ∈ Pipeline.ucRefs τ sig, s'.mem.mem (d, b) = W5 m outTC d b

theorem hfin (d : Dev nD) (s' : Phys nD τ sig (Elt F)) : iprop(FIN m outTC d ∗ SI s') ⊢ (⌜fq m outTC d s'⌝ : sProp 𝕄) := by
  refine (pointsTo_read_all (Pipeline.ucRefs τ sig) (fun b => ((d, b) : Loc nD τ sig)) (W5 m outTC d) s').trans ?_
  iintro ⟨%h, -⟩
  ipureintro; exact h

/-- The run's post: on every device every unscoped TensorCore buffer holds the last valuation's contents. -/
def QC : PUnit × MemSt nD τ sig (Elt F) → Prop := fun r => ∀ d : Dev nD, ∀ b ∈ Pipeline.ucRefs τ sig, r.2.mem (d, b) = W5 m outTC d b

variable (htile : (K (F := F)).TileObl (D (F := F)) 𝒱 (P m) v₀ 0)

include hsound htile in
/-- Every weakly fair execution of the program's threads terminates, nothing faulting, and every final memory has
    each unscoped TensorCore buffer at the fold of the program over the launch memory. -/
theorem run_main [∀ e, Nonempty (Elt F e)] :
    θ_run (Cert.Kernel.defs (F := F)) (Cert.Kernel.threads (F := F)) ⟨m, fun _ => 0, ρ⟩ (QC m outTC) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m outTC) (u₀ (F := F)) (sep_elim_left.trans (hu₀ m)) (hmain m ρ outTC hsound) (fq m outTC) (hfin m outTC) (QC m outTC)
    (fun s' h d b hb => h d b hb)

/-! ## The claim's arrays in the last valuation -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No line and neither call writes an argument: it ends as launched. -/
theorem W5_arg0 (d : Dev nD) : W5 m outTC d (main_arg0 : DevRef τ sig) = m ((d.tc : Thread nD τ).loc main_arg0) := by
  show StableHlo.after hostOps2 (W4 m outTC d) (main_arg0 : DevRef τ sig) = _
  rw [after2_arg0, show W4 m outTC d (main_arg0 : DevRef τ sig) = W3 m outTC d (main_arg0 : DevRef τ sig) from Function.update_of_ne (by decide) _ _]
  show StableHlo.after hostOps1 (W2 m outTC d) (main_arg0 : DevRef τ sig) = _
  rw [after1_arg0, show W2 m outTC d (main_arg0 : DevRef τ sig) = W1 m d (main_arg0 : DevRef τ sig) from W2_of_ne m outTC d main_arg0 (by decide)]
  show StableHlo.after hostOps0 (W0 m d) (main_arg0 : DevRef τ sig) = _
  rw [after0_arg0]
theorem W5_arg1 (d : Dev nD) : W5 m outTC d (main_arg1 : DevRef τ sig) = m ((d.tc : Thread nD τ).loc main_arg1) := by
  show StableHlo.after hostOps2 (W4 m outTC d) (main_arg1 : DevRef τ sig) = _
  rw [after2_arg1, show W4 m outTC d (main_arg1 : DevRef τ sig) = W3 m outTC d (main_arg1 : DevRef τ sig) from Function.update_of_ne (by decide) _ _]
  show StableHlo.after hostOps1 (W2 m outTC d) (main_arg1 : DevRef τ sig) = _
  rw [after1_arg1, show W2 m outTC d (main_arg1 : DevRef τ sig) = W1 m d (main_arg1 : DevRef τ sig) from W2_of_ne m outTC d main_arg1 (by decide)]
  show StableHlo.after hostOps0 (W0 m d) (main_arg1 : DevRef τ sig) = _
  rw [after0_arg1]

/-- The result: the TensorCore call's array (what the pipeline leaves in it), flattened, followed by the SparseCore
    call's, the tiles' function of the threshold word. -/
theorem W5_v13 (d : Dev nD) : W5 m outTC d (main_v13 : DevRef τ sig)
    = concatenate S1048576 0 [⟨S770048, shapeCast S770048 ((dat0 (V1 m) outTC d).arrAt 1 cfg0.N) Facts₀.shapeCasts_S47x1x16384_S770048⟩,
        ⟨S278528, outSC (thW (pOf m d))⟩] Facts₀.concatenates_S770048_S278528_S1048576_d0 := by
  show StableHlo.after hostOps2 (W4 m outTC d) (main_v13 : DevRef τ sig) = _
  rw [after2_v13, show W4 m outTC d (main_v12 : DevRef τ sig) = outSC (thW (pOf m d)) from Function.update_self _ _ _,
    show W4 m outTC d (main_v2 : DevRef τ sig) = W3 m outTC d (main_v2 : DevRef τ sig) from Function.update_of_ne (by decide) _ _]
  show concatenate S1048576 0 [⟨S770048, StableHlo.after hostOps1 (W2 m outTC d) (main_v2 : DevRef τ sig)⟩, _] _ = _
  rw [after1_v2, show W2 m outTC d (main_v1 : DevRef τ sig) = (dat0 (V1 m) outTC d).arrAt 1 cfg0.N from W2_arr m outTC d 1]

end Main

end Cert.LaunchBits

end
-- ==== Proof.TcBodyIdealDefs.lean ====
/-
  The TensorCore kernel body's result as a closed term.

  The body loads the one-element probability block, turns it into a threshold word, and then, for each of the
  32 chunks of 512 rows of its output block, computes a 32 x 512 table of random words, compares, selects a
  power of two or zero, sums over the 32 bit positions and stores the 512 packed words at columns
  `512 k .. 512 k + 511`.  Here each chunk's stored vector is written as the composition of the body's named
  pure steps, and the output block after the body is the 32 stores read back as one vector.
-/
import proofs.«203736_g78743930405654_cont_9to1c4b_297_23_alg».proof.Proof.Gen.KernelIdeal.Skeleton
import Idealize.ShloMosaic.Lib.Pipeline.FrameBody

set_option maxRecDepth 16384

noncomputable section

namespace Cert.TcBodyIdeal

open Cert.KernelIdeal Cert.KernelIdeal.Gen
open Idealize.ShloMosaic Idealize.SL.Sem

variable {F : FTy → Type} [FloatOps F]

/-- The rectangle through which the body loads the probability block: all of it. -/
abbrev rIn : Rect S1x1 := Rect.unit (s := S1x1) ![0, 0] S1x1.size inb_S1x1_S1x1_0_0

/-- The first row of the block's rows, as a word: `16384` times the grid coordinate. -/
def v0TC (i : grid0.Coords) : BitVec 32 := Scalar.muli (BitVec.ofNat 32 (i 0).val) 16384#32

/-- The threshold word the body computes from the probability block: the clipped, scaled probability
    truncated to an integer, plus one when the truncation fell below it (a ceiling). -/
def thrTC (x0 : Vec F S1x1 .f32) : BitVec 32 :=
  Scalar.addi (Scalar.fptosi 32 (k0_pay2 x0)) (Scalar.extui (Scalar.cmpf .olt (k0_pay3 x0) (k0_pay2 x0)))

/-! ## The vector each chunk stores, as the composition of the body's pure steps -/

/-- Chunk 0: the vector stored at columns `0 .. 511`. -/
def payTC_0 (i : grid0.Coords) (v10 : BitVec 32) : IVec S1x1x512 32 :=
  let v18 := k0_pay5
  let v19 := k0_pay6
  let v38 := k0_pay10 i
  let v39 := k0_pay11 i
  let v41 := k0_pay12 i
  let v84 := k0_pay23 v38 v39 v41
  let v86 := k0_pay24 v38 v39 v41
  let c2_i32 := 2#32
  let v128 := k0_pay36 v84 v86 c2_i32
  let v130 := k0_pay37 v84 v86 c2_i32
  let v132 := k0_pay38 v84 v86 c2_i32
  let v174 := k0_pay50 v128 v130 v132
  let v176 := k0_pay51 v128 v130 v132
  let v178 := k0_pay52 v128 v130 v132
  k0_pay53 v10 v18 v19 v174 v176 v178

/-- Chunk 1: the vector stored at columns `512 .. 1023`. -/
def payTC_1 (v0 : BitVec 32) (v10 : BitVec 32) : IVec S1x1x512 32 :=
  let v15 := k0_pay4
  let v18 := k0_pay5
  let v19 := k0_pay6
  let v215 := k0_pay58 v0 v15
  let v221 := k0_pay59 v0 v15
  let v264 := k0_pay69 v215 v221
  let v265 := k0_pay70 v215 v221
  let v266 := k0_pay71
  let v310 := k0_pay82 v264 v265 v266
  let v311 := k0_pay83 v264 v265 v266
  let v312 := k0_pay84
  let v356 := k0_pay95 v310 v311 v312
  let v358 := k0_pay96 v310 v311 v312
  k0_pay97 v10 v18 v19 v356 v358

/-- Chunk 2: the vector stored at columns `1024 .. 1535`. -/
def payTC_2 (v0 : BitVec 32) (v10 : BitVec 32) : IVec S1x1x512 32 :=
  let v15 := k0_pay4
  let v18 := k0_pay5
  let v19 := k0_pay6
  let v397 := k0_pay103 v0 v15
  let v398 := k0_pay104 v0 v15
  let v400 := k0_pay105 v0 v15
  let c26_i32_107 := 26#32
  let v441 := k0_pay115 v397 v398 v400 c26_i32_107
  let v446 := k0_pay116 v397 v398 v400 c26_i32_107
  let v487 := k0_pay128 v441 v446
  let v492 := k0_pay129 v441 v446
  let v537 := k0_pay130 v487 v492
  let c9_i32_150 := 9#32
  k0_pay131 v10 v18 v19 v537 c9_i32_150

/-- Chunk 3: the vector stored at columns `1536 .. 2047`. -/
def payTC_3 (v0 : BitVec 32) (v10 : BitVec 32) : IVec S1x1x512 32 :=
  let v15 := k0_pay4
  let v18 := k0_pay5
  let v19 := k0_pay6
  let v574 := k0_pay138 v0 v15
  let v580 := k0_pay139 v0 v15
  let c42_i32_164 := 42#32
  let v623 := k0_pay150 v574 v580 c42_i32_164
  let v624 := k0_pay151 v574 v580 c42_i32_164
  let v626 := k0_pay152 v574 v580 c42_i32_164
  let v669 := k0_pay163 v623 v624 v626
  let v670 := k0_pay164 v623 v624 v626
  let v672 := k0_pay165 v623 v624 v626
  let v718 := (k0_pay166 v10 v18 v19 v669 v670 v672)
  k0_pay167 v718

/-- Chunk 4: the vector stored at columns `2048 .. 2559`. -/
def payTC_4 (v0 : BitVec 32) (v10 : BitVec 32) : IVec S1x1x512 32 :=
  let v15 := k0_pay4
  let v18 := k0_pay5
  let v19 := k0_pay6
  let v758 := k0_pay175 v0 v15
  let v760 := k0_pay176 v0 v15
  let v800 := k0_pay187 v758 v760
  let v806 := k0_pay188 v758 v760
  let v846 := k0_pay199 v800 v806
  let v852 := k0_pay200 v800 v806
  let v896 := (k0_pay201 v10 v18 v19 v846 v852)
  k0_pay202 v896

/-- Chunk 5: the vector stored at columns `2560 .. 3071`. -/
def payTC_5 (v0 : BitVec 32) (v10 : BitVec 32) : IVec S1x1x512 32 :=
  let v15 := k0_pay4
  let v18 := k0_pay5
  let v19 := k0_pay6
  let v936 := k0_pay210 v0 v15
  let v937 := k0_pay211 v0 v15
  let v939 := k0_pay212 v0 v15
  let c15_i32_279 := 15#32
  let v982 := k0_pay223 v936 v937 v939 c15_i32_279
  let v983 := k0_pay224 v936 v937 v939 c15_i32_279
  let v985 := k0_pay225 v936 v937 v939 c15_i32_279
  let c6_i32_293 := 6#32
  let v1028 := k0_pay236 v982 v983 v985 c6_i32_293
  let v1030 := k0_pay237 v982 v983 v985 c6_i32_293
  let v1031 := k0_pay238
  k0_pay239 v10 v18 v19 v1028 v1030 v1031

/-- Chunk 6: the vector stored at columns `3072 .. 3583`. -/
def payTC_6 (v0 : BitVec 32) (v10 : BitVec 32) : IVec S1x1x512 32 :=
  let v15 := k0_pay4
  let v18 := k0_pay5
  let v19 := k0_pay6
  let v1119 := k0_pay249 v0 v15
  let v1120 := k0_pay250 v0 v15
  let v1165 := k0_pay261 v1119 v1120
  let v1166 := k0_pay262 v1119 v1120
  let v1208 := k0_pay271 v1165 v1166
  let v1209 := k0_pay272 v1165 v1166
  let v1211 := k0_pay273 v1165 v1166
  k0_pay274 v10 v18 v19 v1208 v1209 v1211

/-- Chunk 7: the vector stored at columns `3584 .. 4095`. -/
def payTC_7 (v0 : BitVec 32) (v10 : BitVec 32) : IVec S1x1x512 32 :=
  let v15 := k0_pay4
  let v18 := k0_pay5
  let v19 := k0_pay6
  let v1254 := (k0_pay275 v0)
  let v1295 := k0_pay285 v15 v1254
  let v1296 := k0_pay286 v15 v1254
  let v1298 := k0_pay287 v15 v1254
  let v1299 := k0_pay288
  let v1341 := k0_pay299 v1295 v1296 v1298 v1299
  let v1342 := k0_pay300 v1295 v1296 v1298 v1299
  let v1344 := k0_pay301 v1295 v1296 v1298 v1299
  let v1345 := k0_pay302
  let v1385 := k0_pay312 v1341 v1342 v1344 v1345
  let v1391 := k0_pay313 v1341 v1342 v1344 v1345
  k0_pay314 v10 v18 v19 v1385 v1391

/-- Chunk 8: the vector stored at columns `4096 .. 4607`. -/
def payTC_8 (v0 : BitVec 32) (v10 : BitVec 32) : IVec S1x1x512 32 :=
  let v15 := k0_pay4
  let v18 := k0_pay5
  let v19 := k0_pay6
  let v1433 := k0_pay315 v0 v15
  let c13_i32_436 := 13#32
  let v1478 := k0_pay326 v1433 c13_i32_436
  let v1479 := k0_pay327 v1433 c13_i32_436
  let c16_i32_450 := 16#32
  let v1518 := k0_pay337 v1478 v1479 c16_i32_450
  let v1524 := k0_pay338 v1478 v1479 c16_i32_450
  let v1525 := k0_pay339
  let v1567 := k0_pay350 v1518 v1524 v1525
  let v1568 := k0_pay351 v1518 v1524 v1525
  let v1570 := k0_pay352 v1518 v1524 v1525
  let c17_i32_479 := 17#32
  k0_pay353 v10 v18 v19 v1567 v1568 v1570 c17_i32_479

/-- Chunk 9: the vector stored at columns `4608 .. 5119`. -/
def payTC_9 (v0 : BitVec 32) (v10 : BitVec 32) : IVec S1x1x512 32 :=
  let v15 := k0_pay4
  let v18 := k0_pay5
  let v19 := k0_pay6
  let v1609 := k0_pay354 v0 v15
  let v1611 := k0_pay355 v0 v15
  let v1613 := k0_pay356 v0 v15
  let v1655 := k0_pay368 v1609 v1611 v1613
  let v1657 := k0_pay369 v1609 v1611 v1613
  let v1659 := k0_pay370 v1609 v1611 v1613
  let v1704 := k0_pay381 v1655 v1657 v1659
  let v1705 := k0_pay382 v1655 v1657 v1659
  let v1750 := k0_pay393 v1704 v1705
  let v1751 := k0_pay394 v1704 v1705
  k0_pay395 v10 v18 v19 v1750 v1751

/-- Chunk 10: the vector stored at columns `5120 .. 5631`. -/
def payTC_10 (v0 : BitVec 32) (v10 : BitVec 32) : IVec S1x1x512 32 :=
  let v15 := k0_pay4
  let v18 := k0_pay5
  let v19 := k0_pay6
  let v1791 := k0_pay397 v0 v15
  let v1792 := k0_pay398 v0 v15
  let v1793 := k0_pay399
  let v1837 := k0_pay410 v1791 v1792 v1793
  let v1838 := k0_pay411 v1791 v1792 v1793
  let v1839 := k0_pay412
  let v1880 := k0_pay421 v1837 v1838 v1839
  let v1881 := k0_pay422 v1837 v1838 v1839
  let v1883 := k0_pay423 v1837 v1838 v1839
  let v1884 := k0_pay424
  let v1926 := k0_pay435 v1880 v1881 v1883 v1884
  let v1927 := k0_pay436 v1880 v1881 v1883 v1884
  let v1929 := k0_pay437 v1880 v1881 v1883 v1884
  let v1930 := k0_pay438
  k0_pay439 v10 v18 v19 v1926 v1927 v1929 v1930

/-- Chunk 11: the vector stored at columns `5632 .. 6143`. -/
def payTC_11 (v0 : BitVec 32) (v10 : BitVec 32) : IVec S1x1x512 32 :=
  let v15 := k0_pay4
  let v18 := k0_pay5
  let v19 := k0_pay6
  let v1968 := k0_pay442 v0 v15
  let v1973 := k0_pay443 v0 v15
  let v2014 := k0_pay455 v1968 v1973
  let v2019 := k0_pay456 v1968 v1973
  let v2063 := k0_pay467 v2014 v2019
  let v2064 := k0_pay468 v2014 v2019
  let c29_i32_636 := 29#32
  let v2109 := k0_pay479 v2063 v2064 c29_i32_636
  let v2110 := k0_pay480 v2063 v2064 c29_i32_636
  let c6_i32_650 := 6#32
  k0_pay481 v10 v18 v19 v2109 v2110 c6_i32_650

/-- Chunk 12: the vector stored at columns `6144 .. 6655`. -/
def payTC_12 (v0 : BitVec 32) (v10 : BitVec 32) : IVec S1x1x512 32 :=
  let v15 := k0_pay4
  let v18 := k0_pay5
  let v19 := k0_pay6
  let v2150 := k0_pay485 v0 v15
  let v2151 := k0_pay486 v0 v15
  let v2153 := k0_pay487 v0 v15
  let v2196 := k0_pay498 v2150 v2151 v2153
  let v2198 := k0_pay499 v2150 v2151 v2153
  let c2_i32_679 := 2#32
  let v2240 := k0_pay511 v2196 v2198 c2_i32_679
  let v2242 := k0_pay512 v2196 v2198 c2_i32_679
  let v2244 := k0_pay513 v2196 v2198 c2_i32_679
  let v2286 := k0_pay525 v2240 v2242 v2244
  let v2288 := k0_pay526 v2240 v2242 v2244
  let v2290 := k0_pay527 v2240 v2242 v2244
  k0_pay528 v10 v18 v19 v2286 v2288 v2290

/-- Chunk 13: the vector stored at columns `6656 .. 7167`. -/
def payTC_13 (v0 : BitVec 32) (v10 : BitVec 32) : IVec S1x1x512 32 :=
  let v15 := k0_pay4
  let v18 := k0_pay5
  let v19 := k0_pay6
  let v2327 := k0_pay533 v0 v15
  let v2333 := k0_pay534 v0 v15
  let v2376 := k0_pay544 v2327 v2333
  let v2377 := k0_pay545 v2327 v2333
  let v2378 := k0_pay546
  let v2422 := k0_pay557 v2376 v2377 v2378
  let v2423 := k0_pay558 v2376 v2377 v2378
  let v2424 := k0_pay559
  let v2468 := k0_pay570 v2422 v2423 v2424
  let v2470 := k0_pay571 v2422 v2423 v2424
  k0_pay572 v10 v18 v19 v2468 v2470

/-- Chunk 14: the vector stored at columns `7168 .. 7679`. -/
def payTC_14 (v0 : BitVec 32) (v10 : BitVec 32) : IVec S1x1x512 32 :=
  let v15 := k0_pay4
  let v18 := k0_pay5
  let v19 := k0_pay6
  let v2509 := k0_pay578 v0 v15
  let v2510 := k0_pay579 v0 v15
  let v2512 := k0_pay580 v0 v15
  let c26_i32_779 := 26#32
  let v2553 := k0_pay590 v2509 v2510 v2512 c26_i32_779
  let v2558 := k0_pay591 v2509 v2510 v2512 c26_i32_779
  let v2599 := k0_pay603 v2553 v2558
  let v2604 := k0_pay604 v2553 v2558
  let v2649 := k0_pay605 v2599 v2604
  let c9_i32_822 := 9#32
  k0_pay606 v10 v18 v19 v2649 c9_i32_822

/-- Chunk 15: the vector stored at columns `7680 .. 8191`. -/
def payTC_15 (v0 : BitVec 32) (v10 : BitVec 32) : IVec S1x1x512 32 :=
  let v15 := k0_pay4
  let v18 := k0_pay5
  let v19 := k0_pay6
  let v2686 := k0_pay613 v0 v15
  let v2692 := k0_pay614 v0 v15
  let c42_i32_836 := 42#32
  let v2735 := k0_pay625 v2686 v2692 c42_i32_836
  let v2736 := k0_pay626 v2686 v2692 c42_i32_836
  let v2738 := k0_pay627 v2686 v2692 c42_i32_836
  let v2781 := k0_pay638 v2735 v2736 v2738
  let v2782 := k0_pay639 v2735 v2736 v2738
  let v2784 := k0_pay640 v2735 v2736 v2738
  let v2830 := (k0_pay641 v10 v18 v19 v2781 v2782 v2784)
  k0_pay642 v2830

/-- Chunk 16: the vector stored at columns `8192 .. 8703`. -/
def payTC_16 (v0 : BitVec 32) (v10 : BitVec 32) : IVec S1x1x512 32 :=
  let v15 := k0_pay4
  let v18 := k0_pay5
  let v19 := k0_pay6
  let v2870 := k0_pay650 v0 v15
  let v2872 := k0_pay651 v0 v15
  let v2912 := k0_pay662 v2870 v2872
  let v2918 := k0_pay663 v2870 v2872
  let v2958 := k0_pay674 v2912 v2918
  let v2964 := k0_pay675 v2912 v2918
  let v3008 := (k0_pay676 v10 v18 v19 v2958 v2964)
  k0_pay677 v3008

/-- Chunk 17: the vector stored at columns `8704 .. 9215`. -/
def payTC_17 (v0 : BitVec 32) (v10 : BitVec 32) : IVec S1x1x512 32 :=
  let v15 := k0_pay4
  let v18 := k0_pay5
  let v19 := k0_pay6
  let v3048 := k0_pay685 v0 v15
  let v3049 := k0_pay686 v0 v15
  let v3051 := k0_pay687 v0 v15
  let c15_i32_951 := 15#32
  let v3094 := k0_pay698 v3048 v3049 v3051 c15_i32_951
  let v3095 := k0_pay699 v3048 v3049 v3051 c15_i32_951
  let v3097 := k0_pay700 v3048 v3049 v3051 c15_i32_951
  let c6_i32_965 := 6#32
  let v3140 := k0_pay711 v3094 v3095 v3097 c6_i32_965
  let v3142 := k0_pay712 v3094 v3095 v3097 c6_i32_965
  let v3143 := k0_pay713
  k0_pay714 v10 v18 v19 v3140 v3142 v3143

/-- Chunk 18: the vector stored at columns `9216 .. 9727`. -/
def payTC_18 (v0 : BitVec 32) (v10 : BitVec 32) : IVec S1x1x512 32 :=
  let v15 := k0_pay4
  let v18 := k0_pay5
  let v19 := k0_pay6
  let v3231 := k0_pay724 v0 v15
  let v3232 := k0_pay725 v0 v15
  let v3277 := k0_pay736 v3231 v3232
  let v3278 := k0_pay737 v3231 v3232
  let v3320 := k0_pay746 v3277 v3278
  let v3321 := k0_pay747 v3277 v3278
  let v3323 := k0_pay748 v3277 v3278
  k0_pay749 v10 v18 v19 v3320 v3321 v3323

/-- Chunk 19: the vector stored at columns `9728 .. 10239`. -/
def payTC_19 (v0 : BitVec 32) (v10 : BitVec 32) : IVec S1x1x512 32 :=
  let v15 := k0_pay4
  let v18 := k0_pay5
  let v19 := k0_pay6
  let v3366 := (k0_pay750 v0)
  let v3407 := k0_pay760 v15 v3366
  let v3408 := k0_pay761 v15 v3366
  let v3410 := k0_pay762 v15 v3366
  let v3411 := k0_pay763
  let v3453 := k0_pay774 v3407 v3408 v3410 v3411
  let v3454 := k0_pay775 v3407 v3408 v3410 v3411
  let v3456 := k0_pay776 v3407 v3408 v3410 v3411
  let v3457 := k0_pay777
  let v3497 := k0_pay787 v3453 v3454 v3456 v3457
  let v3503 := k0_pay788 v3453 v3454 v3456 v3457
  k0_pay789 v10 v18 v19 v3497 v3503

/-- Chunk 20: the vector stored at columns `10240 .. 10751`. -/
def payTC_20 (v0 : BitVec 32) (v10 : BitVec 32) : IVec S1x1x512 32 :=
  let v15 := k0_pay4
  let v18 := k0_pay5
  let v19 := k0_pay6
  let v3545 := k0_pay790 v0 v15
  let c13_i32_1108 := 13#32
  let v3590 := k0_pay801 v3545 c13_i32_1108
  let v3591 := k0_pay802 v3545 c13_i32_1108
  let c16_i32_1122 := 16#32
  let v3630 := k0_pay812 v3590 v3591 c16_i32_1122
  let v3636 := k0_pay813 v3590 v3591 c16_i32_1122
  let v3637 := k0_pay814
  let v3679 := k0_pay825 v3630 v3636 v3637
  let v3680 := k0_pay826 v3630 v3636 v3637
  let v3682 := k0_pay827 v3630 v3636 v3637
  let c17_i32_1151 := 17#32
  k0_pay828 v10 v18 v19 v3679 v3680 v3682 c17_i32_1151

/-- Chunk 21: the vector stored at columns `10752 .. 11263`. -/
def payTC_21 (v0 : BitVec 32) (v10 : BitVec 32) : IVec S1x1x512 32 :=
  let v15 := k0_pay4
  let v18 := k0_pay5
  let v19 := k0_pay6
  let v3721 := k0_pay829 v0 v15
  let v3723 := k0_pay830 v0 v15
  let v3725 := k0_pay831 v0 v15
  let v3767 := k0_pay843 v3721 v3723 v3725
  let v3769 := k0_pay844 v3721 v3723 v3725
  let v3771 := k0_pay845 v3721 v3723 v3725
  let v3816 := k0_pay856 v3767 v3769 v3771
  let v3817 := k0_pay857 v3767 v3769 v3771
  let v3862 := k0_pay868 v3816 v3817
  let v3863 := k0_pay869 v3816 v3817
  k0_pay870 v10 v18 v19 v3862 v3863

/-- Chunk 22: the vector stored at columns `11264 .. 11775`. -/
def payTC_22 (v0 : BitVec 32) (v10 : BitVec 32) : IVec S1x1x512 32 :=
  let v15 := k0_pay4
  let v18 := k0_pay5
  let v19 := k0_pay6
  let v3903 := k0_pay872 v0 v15
  let v3904 := k0_pay873 v0 v15
  let v3905 := k0_pay874
  let v3949 := k0_pay885 v3903 v3904 v3905
  let v3950 := k0_pay886 v3903 v3904 v3905
  let v3951 := k0_pay887
  let v3992 := k0_pay896 v3949 v3950 v3951
  let v3993 := k0_pay897 v3949 v3950 v3951
  let v3995 := k0_pay898 v3949 v3950 v3951
  let v3996 := k0_pay899
  let v4038 := k0_pay910 v3992 v3993 v3995 v3996
  let v4039 := k0_pay911 v3992 v3993 v3995 v3996
  let v4041 := k0_pay912 v3992 v3993 v3995 v3996
  let v4042 := k0_pay913
  k0_pay914 v10 v18 v19 v4038 v4039 v4041 v4042

/-- Chunk 23: the vector stored at columns `11776 .. 12287`. -/
def payTC_23 (v0 : BitVec 32) (v10 : BitVec 32) : IVec S1x1x512 32 :=
  let v15 := k0_pay4
  let v18 := k0_pay5
  let v19 := k0_pay6
  let v4080 := k0_pay917 v0 v15
  let v4085 := k0_pay918 v0 v15
  let v4126 := k0_pay930 v4080 v4085
  let v4131 := k0_pay931 v4080 v4085
  let v4175 := k0_pay942 v4126 v4131
  let v4176 := k0_pay943 v4126 v4131
  let c29_i32_1308 := 29#32
  let v4221 := k0_pay954 v4175 v4176 c29_i32_1308
  let v4222 := k0_pay955 v4175 v4176 c29_i32_1308
  let c6_i32_1322 := 6#32
  k0_pay956 v10 v18 v19 v4221 v4222 c6_i32_1322

/-- Chunk 24: the vector stored at columns `12288 .. 12799`. -/
def payTC_24 (v0 : BitVec 32) (v10 : BitVec 32) : IVec S1x1x512 32 :=
  let v15 := k0_pay4
  let v18 := k0_pay5
  let v19 := k0_pay6
  let v4262 := k0_pay960 v0 v15
  let v4263 := k0_pay961 v0 v15
  let v4265 := k0_pay962 v0 v15
  let v4308 := k0_pay973 v4262 v4263 v4265
  let v4310 := k0_pay974 v4262 v4263 v4265
  let c2_i32_1351 := 2#32
  let v4352 := k0_pay986 v4308 v4310 c2_i32_1351
  let v4354 := k0_pay987 v4308 v4310 c2_i32_1351
  let v4356 := k0_pay988 v4308 v4310 c2_i32_1351
  let v4398 := k0_pay1000 v4352 v4354 v4356
  let v4400 := k0_pay1001 v4352 v4354 v4356
  let v4402 := k0_pay1002 v4352 v4354 v4356
  k0_pay1003 v10 v18 v19 v4398 v4400 v4402

/-- Chunk 25: the vector stored at columns `12800 .. 13311`. -/
def payTC_25 (v0 : BitVec 32) (v10 : BitVec 32) : IVec S1x1x512 32 :=
  let v15 := k0_pay4
  let v18 := k0_pay5
  let v19 := k0_pay6
  let v4439 := k0_pay1008 v0 v15
  let v4445 := k0_pay1009 v0 v15
  let v4488 := k0_pay1019 v4439 v4445
  let v4489 := k0_pay1020 v4439 v4445
  let v4490 := k0_pay1021
  let v4534 := k0_pay1032 v4488 v4489 v4490
  let v4535 := k0_pay1033 v4488 v4489 v4490
  let v4536 := k0_pay1034
  let v4580 := k0_pay1045 v4534 v4535 v4536
  let v4582 := k0_pay1046 v4534 v4535 v4536
  k0_pay1047 v10 v18 v19 v4580 v4582

/-- Chunk 26: the vector stored at columns `13312 .. 13823`. -/
def payTC_26 (v0 : BitVec 32) (v10 : BitVec 32) : IVec S1x1x512 32 :=
  let v15 := k0_pay4
  let v18 := k0_pay5
  let v19 := k0_pay6
  let v4621 := k0_pay1053 v0 v15
  let v4622 := k0_pay1054 v0 v15
  let v4624 := k0_pay1055 v0 v15
  let c26_i32_1451 := 26#32
  let v4665 := k0_pay1065 v4621 v4622 v4624 c26_i32_1451
  let v4670 := k0_pay1066 v4621 v4622 v4624 c26_i32_1451
  let v4711 := k0_pay1078 v4665 v4670
  let v4716 := k0_pay1079 v4665 v4670
  let v4761 := k0_pay1080 v4711 v4716
  let c9_i32_1494 := 9#32
  k0_pay1081 v10 v18 v19 v4761 c9_i32_1494

/-- Chunk 27: the vector stored at columns `13824 .. 14335`. -/
def payTC_27 (v0 : BitVec 32) (v10 : BitVec 32) : IVec S1x1x512 32 :=
  let v15 := k0_pay4
  let v18 := k0_pay5
  let v19 := k0_pay6
  let v4798 := k0_pay1088 v0 v15
  let v4804 := k0_pay1089 v0 v15
  let c42_i32_1508 := 42#32
  let v4847 := k0_pay1100 v4798 v4804 c42_i32_1508
  let v4848 := k0_pay1101 v4798 v4804 c42_i32_1508
  let v4850 := k0_pay1102 v4798 v4804 c42_i32_1508
  let v4893 := k0_pay1113 v4847 v4848 v4850
  let v4894 := k0_pay1114 v4847 v4848 v4850
  let v4896 := k0_pay1115 v4847 v4848 v4850
  let v4942 := (k0_pay1116 v10 v18 v19 v4893 v4894 v4896)
  k0_pay1117 v4942

/-- Chunk 28: the vector stored at columns `14336 .. 14847`. -/
def payTC_28 (v0 : BitVec 32) (v10 : BitVec 32) : IVec S1x1x512 32 :=
  let v15 := k0_pay4
  let v18 := k0_pay5
  let v19 := k0_pay6
  let v4982 := k0_pay1125 v0 v15
  let v4984 := k0_pay1126 v0 v15
  let v5024 := k0_pay1137 v4982 v4984
  let v5030 := k0_pay1138 v4982 v4984
  let v5070 := k0_pay1149 v5024 v5030
  let v5076 := k0_pay1150 v5024 v5030
  let v5120 := (k0_pay1151 v10 v18 v19 v5070 v5076)
  k0_pay1152 v5120

/-- Chunk 29: the vector stored at columns `14848 .. 15359`. -/
def payTC_29 (v0 : BitVec 32) (v10 : BitVec 32) : IVec S1x1x512 32 :=
  let v15 := k0_pay4
  let v18 := k0_pay5
  let v19 := k0_pay6
  let v5160 := k0_pay1160 v0 v15
  let v5161 := k0_pay1161 v0 v15
  let v5163 := k0_pay1162 v0 v15
  let c15_i32_1623 := 15#32
  let v5206 := k0_pay1173 v5160 v5161 v5163 c15_i32_1623
  let v5207 := k0_pay1174 v5160 v5161 v5163 c15_i32_1623
  let v5209 := k0_pay1175 v5160 v5161 v5163 c15_i32_1623
  let c6_i32_1637 := 6#32
  let v5252 := k0_pay1186 v5206 v5207 v5209 c6_i32_1637
  let v5254 := k0_pay1187 v5206 v5207 v5209 c6_i32_1637
  let v5255 := k0_pay1188
  k0_pay1189 v10 v18 v19 v5252 v5254 v5255

/-- Chunk 30: the vector stored at columns `15360 .. 15871`. -/
def payTC_30 (v0 : BitVec 32) (v10 : BitVec 32) : IVec S1x1x512 32 :=
  let v15 := k0_pay4
  let v18 := k0_pay5
  let v19 := k0_pay6
  let v5343 := k0_pay1199 v0 v15
  let v5344 := k0_pay1200 v0 v15
  let v5389 := k0_pay1211 v5343 v5344
  let v5390 := k0_pay1212 v5343 v5344
  let v5432 := k0_pay1221 v5389 v5390
  let v5433 := k0_pay1222 v5389 v5390
  let v5435 := k0_pay1223 v5389 v5390
  k0_pay1224 v10 v18 v19 v5432 v5433 v5435

/-- Chunk 31: the vector stored at columns `15872 .. 16383`. -/
def payTC_31 (v0 : BitVec 32) (v10 : BitVec 32) : IVec S1x1x512 32 :=
  let v15 := k0_pay4
  let v18 := k0_pay5
  let v19 := k0_pay6
  let v5478 := (k0_pay1225 v0)
  let v5519 := k0_pay1235 v15 v5478
  let v5520 := k0_pay1236 v15 v5478
  let v5522 := k0_pay1237 v15 v5478
  let v5523 := k0_pay1238
  let v5565 := k0_pay1249 v5519 v5520 v5522 v5523
  let v5566 := k0_pay1250 v5519 v5520 v5522 v5523
  let v5568 := k0_pay1251 v5519 v5520 v5522 v5523
  let v5569 := k0_pay1252
  let v5609 := k0_pay1262 v5565 v5566 v5568 v5569
  let v5615 := k0_pay1263 v5565 v5566 v5568 v5569
  k0_pay1 v10 v18 v19 v5609 v5615

/-! ## The output block after the body -/

/-- The 32 stores of the body, LAST FIRST, read back as one vector of the block's shape. -/
def outTC (i : grid0.Coords) (x0 : Vec F S1x1 .f32) : Vec F S1x1x16384 .i32 :=
  View.canon [
    ⟨Rect.unit (s := S1x1x16384) ![0, 0, 15872] S1x1x512.size inb_S1x1x16384_S1x1x512_0_0_15872, payTC_31 (v0TC i) (thrTC (View.ld x0 rIn))⟩,
    ⟨Rect.unit (s := S1x1x16384) ![0, 0, 15360] S1x1x512.size inb_S1x1x16384_S1x1x512_0_0_15360, payTC_30 (v0TC i) (thrTC (View.ld x0 rIn))⟩,
    ⟨Rect.unit (s := S1x1x16384) ![0, 0, 14848] S1x1x512.size inb_S1x1x16384_S1x1x512_0_0_14848, payTC_29 (v0TC i) (thrTC (View.ld x0 rIn))⟩,
    ⟨Rect.unit (s := S1x1x16384) ![0, 0, 14336] S1x1x512.size inb_S1x1x16384_S1x1x512_0_0_14336, payTC_28 (v0TC i) (thrTC (View.ld x0 rIn))⟩,
    ⟨Rect.unit (s := S1x1x16384) ![0, 0, 13824] S1x1x512.size inb_S1x1x16384_S1x1x512_0_0_13824, payTC_27 (v0TC i) (thrTC (View.ld x0 rIn))⟩,
    ⟨Rect.unit (s := S1x1x16384) ![0, 0, 13312] S1x1x512.size inb_S1x1x16384_S1x1x512_0_0_13312, payTC_26 (v0TC i) (thrTC (View.ld x0 rIn))⟩,
    ⟨Rect.unit (s := S1x1x16384) ![0, 0, 12800] S1x1x512.size inb_S1x1x16384_S1x1x512_0_0_12800, payTC_25 (v0TC i) (thrTC (View.ld x0 rIn))⟩,
    ⟨Rect.unit (s := S1x1x16384) ![0, 0, 12288] S1x1x512.size inb_S1x1x16384_S1x1x512_0_0_12288, payTC_24 (v0TC i) (thrTC (View.ld x0 rIn))⟩,
    ⟨Rect.unit (s := S1x1x16384) ![0, 0, 11776] S1x1x512.size inb_S1x1x16384_S1x1x512_0_0_11776, payTC_23 (v0TC i) (thrTC (View.ld x0 rIn))⟩,
    ⟨Rect.unit (s := S1x1x16384) ![0, 0, 11264] S1x1x512.size inb_S1x1x16384_S1x1x512_0_0_11264, payTC_22 (v0TC i) (thrTC (View.ld x0 rIn))⟩,
    ⟨Rect.unit (s := S1x1x16384) ![0, 0, 10752] S1x1x512.size inb_S1x1x16384_S1x1x512_0_0_10752, payTC_21 (v0TC i) (thrTC (View.ld x0 rIn))⟩,
    ⟨Rect.unit (s := S1x1x16384) ![0, 0, 10240] S1x1x512.size inb_S1x1x16384_S1x1x512_0_0_10240, payTC_20 (v0TC i) (thrTC (View.ld x0 rIn))⟩,
    ⟨Rect.unit (s := S1x1x16384) ![0, 0, 9728] S1x1x512.size inb_S1x1x16384_S1x1x512_0_0_9728, payTC_19 (v0TC i) (thrTC (View.ld x0 rIn))⟩,
    ⟨Rect.unit (s := S1x1x16384) ![0, 0, 9216] S1x1x512.size inb_S1x1x16384_S1x1x512_0_0_9216, payTC_18 (v0TC i) (thrTC (View.ld x0 rIn))⟩,
    ⟨Rect.unit (s := S1x1x16384) ![0, 0, 8704] S1x1x512.size inb_S1x1x16384_S1x1x512_0_0_8704, payTC_17 (v0TC i) (thrTC (View.ld x0 rIn))⟩,
    ⟨Rect.unit (s := S1x1x16384) ![0, 0, 8192] S1x1x512.size inb_S1x1x16384_S1x1x512_0_0_8192, payTC_16 (v0TC i) (thrTC (View.ld x0 rIn))⟩,
    ⟨Rect.unit (s := S1x1x16384) ![0, 0, 7680] S1x1x512.size inb_S1x1x16384_S1x1x512_0_0_7680, payTC_15 (v0TC i) (thrTC (View.ld x0 rIn))⟩,
    ⟨Rect.unit (s := S1x1x16384) ![0, 0, 7168] S1x1x512.size inb_S1x1x16384_S1x1x512_0_0_7168, payTC_14 (v0TC i) (thrTC (View.ld x0 rIn))⟩,
    ⟨Rect.unit (s := S1x1x16384) ![0, 0, 6656] S1x1x512.size inb_S1x1x16384_S1x1x512_0_0_6656, payTC_13 (v0TC i) (thrTC (View.ld x0 rIn))⟩,
    ⟨Rect.unit (s := S1x1x16384) ![0, 0, 6144] S1x1x512.size inb_S1x1x16384_S1x1x512_0_0_6144, payTC_12 (v0TC i) (thrTC (View.ld x0 rIn))⟩,
    ⟨Rect.unit (s := S1x1x16384) ![0, 0, 5632] S1x1x512.size inb_S1x1x16384_S1x1x512_0_0_5632, payTC_11 (v0TC i) (thrTC (View.ld x0 rIn))⟩,
    ⟨Rect.unit (s := S1x1x16384) ![0, 0, 5120] S1x1x512.size inb_S1x1x16384_S1x1x512_0_0_5120, payTC_10 (v0TC i) (thrTC (View.ld x0 rIn))⟩,
    ⟨Rect.unit (s := S1x1x16384) ![0, 0, 4608] S1x1x512.size inb_S1x1x16384_S1x1x512_0_0_4608, payTC_9 (v0TC i) (thrTC (View.ld x0 rIn))⟩,
    ⟨Rect.unit (s := S1x1x16384) ![0, 0, 4096] S1x1x512.size inb_S1x1x16384_S1x1x512_0_0_4096, payTC_8 (v0TC i) (thrTC (View.ld x0 rIn))⟩,
    ⟨Rect.unit (s := S1x1x16384) ![0, 0, 3584] S1x1x512.size inb_S1x1x16384_S1x1x512_0_0_3584, payTC_7 (v0TC i) (thrTC (View.ld x0 rIn))⟩,
    ⟨Rect.unit (s := S1x1x16384) ![0, 0, 3072] S1x1x512.size inb_S1x1x16384_S1x1x512_0_0_3072, payTC_6 (v0TC i) (thrTC (View.ld x0 rIn))⟩,
    ⟨Rect.unit (s := S1x1x16384) ![0, 0, 2560] S1x1x512.size inb_S1x1x16384_S1x1x512_0_0_2560, payTC_5 (v0TC i) (thrTC (View.ld x0 rIn))⟩,
    ⟨Rect.unit (s := S1x1x16384) ![0, 0, 2048] S1x1x512.size inb_S1x1x16384_S1x1x512_0_0_2048, payTC_4 (v0TC i) (thrTC (View.ld x0 rIn))⟩,
    ⟨Rect.unit (s := S1x1x16384) ![0, 0, 1536] S1x1x512.size inb_S1x1x16384_S1x1x512_0_0_1536, payTC_3 (v0TC i) (thrTC (View.ld x0 rIn))⟩,
    ⟨Rect.unit (s := S1x1x16384) ![0, 0, 1024] S1x1x512.size inb_S1x1x16384_S1x1x512_0_0_1024, payTC_2 (v0TC i) (thrTC (View.ld x0 rIn))⟩,
    ⟨Rect.unit (s := S1x1x16384) ![0, 0, 512] S1x1x512.size inb_S1x1x16384_S1x1x512_0_0_512, payTC_1 (v0TC i) (thrTC (View.ld x0 rIn))⟩,
    ⟨Rect.unit (s := S1x1x16384) ![0, 0, 0] S1x1x512.size inb_S1x1x16384_S1x1x512_0_0_0, payTC_0 i (thrTC (View.ld x0 rIn))⟩]

/-- The 32 rectangles tile the block, so they cover it. -/
theorem coverTC (p31 p30 p29 p28 p27 p26 p25 p24 p23 p22 p21 p20 p19 p18 p17 p16 p15 p14 p13 p12 p11 p10 p9 p8 p7 p6 p5 p4 p3 p2 p1 p0 : Vec F S1x1x512 .i32) (y : S1x1x16384.Idx) :
    ∃ pc ∈ ([
      ⟨Rect.unit (s := S1x1x16384) ![0, 0, 15872] S1x1x512.size inb_S1x1x16384_S1x1x512_0_0_15872, p31⟩,
      ⟨Rect.unit (s := S1x1x16384) ![0, 0, 15360] S1x1x512.size inb_S1x1x16384_S1x1x512_0_0_15360, p30⟩,
      ⟨Rect.unit (s := S1x1x16384) ![0, 0, 14848] S1x1x512.size inb_S1x1x16384_S1x1x512_0_0_14848, p29⟩,
      ⟨Rect.unit (s := S1x1x16384) ![0, 0, 14336] S1x1x512.size inb_S1x1x16384_S1x1x512_0_0_14336, p28⟩,
      ⟨Rect.unit (s := S1x1x16384) ![0, 0, 13824] S1x1x512.size inb_S1x1x16384_S1x1x512_0_0_13824, p27⟩,
      ⟨Rect.unit (s := S1x1x16384) ![0, 0, 13312] S1x1x512.size inb_S1x1x16384_S1x1x512_0_0_13312, p26⟩,
      ⟨Rect.unit (s := S1x1x16384) ![0, 0, 12800] S1x1x512.size inb_S1x1x16384_S1x1x512_0_0_12800, p25⟩,
      ⟨Rect.unit (s := S1x1x16384) ![0, 0, 12288] S1x1x512.size inb_S1x1x16384_S1x1x512_0_0_12288, p24⟩,
      ⟨Rect.unit (s := S1x1x16384) ![0, 0, 11776] S1x1x512.size inb_S1x1x16384_S1x1x512_0_0_11776, p23⟩,
      ⟨Rect.unit (s := S1x1x16384) ![0, 0, 11264] S1x1x512.size inb_S1x1x16384_S1x1x512_0_0_11264, p22⟩,
      ⟨Rect.unit (s := S1x1x16384) ![0, 0, 10752] S1x1x512.size inb_S1x1x16384_S1x1x512_0_0_10752, p21⟩,
      ⟨Rect.unit (s := S1x1x16384) ![0, 0, 10240] S1x1x512.size inb_S1x1x16384_S1x1x512_0_0_10240, p20⟩,
      ⟨Rect.unit (s := S1x1x16384) ![0, 0, 9728] S1x1x512.size inb_S1x1x16384_S1x1x512_0_0_9728, p19⟩,
      ⟨Rect.unit (s := S1x1x16384) ![0, 0, 9216] S1x1x512.size inb_S1x1x16384_S1x1x512_0_0_9216, p18⟩,
      ⟨Rect.unit (s := S1x1x16384) ![0, 0, 8704] S1x1x512.size inb_S1x1x16384_S1x1x512_0_0_8704, p17⟩,
      ⟨Rect.unit (s := S1x1x16384) ![0, 0, 8192] S1x1x512.size inb_S1x1x16384_S1x1x512_0_0_8192, p16⟩,
      ⟨Rect.unit (s := S1x1x16384) ![0, 0, 7680] S1x1x512.size inb_S1x1x16384_S1x1x512_0_0_7680, p15⟩,
      ⟨Rect.unit (s := S1x1x16384) ![0, 0, 7168] S1x1x512.size inb_S1x1x16384_S1x1x512_0_0_7168, p14⟩,
      ⟨Rect.unit (s := S1x1x16384) ![0, 0, 6656] S1x1x512.size inb_S1x1x16384_S1x1x512_0_0_6656, p13⟩,
      ⟨Rect.unit (s := S1x1x16384) ![0, 0, 6144] S1x1x512.size inb_S1x1x16384_S1x1x512_0_0_6144, p12⟩,
      ⟨Rect.unit (s := S1x1x16384) ![0, 0, 5632] S1x1x512.size inb_S1x1x16384_S1x1x512_0_0_5632, p11⟩,
      ⟨Rect.unit (s := S1x1x16384) ![0, 0, 5120] S1x1x512.size inb_S1x1x16384_S1x1x512_0_0_5120, p10⟩,
      ⟨Rect.unit (s := S1x1x16384) ![0, 0, 4608] S1x1x512.size inb_S1x1x16384_S1x1x512_0_0_4608, p9⟩,
      ⟨Rect.unit (s := S1x1x16384) ![0, 0, 4096] S1x1x512.size inb_S1x1x16384_S1x1x512_0_0_4096, p8⟩,
      ⟨Rect.unit (s := S1x1x16384) ![0, 0, 3584] S1x1x512.size inb_S1x1x16384_S1x1x512_0_0_3584, p7⟩,
      ⟨Rect.unit (s := S1x1x16384) ![0, 0, 3072] S1x1x512.size inb_S1x1x16384_S1x1x512_0_0_3072, p6⟩,
      ⟨Rect.unit (s := S1x1x16384) ![0, 0, 2560] S1x1x512.size inb_S1x1x16384_S1x1x512_0_0_2560, p5⟩,
      ⟨Rect.unit (s := S1x1x16384) ![0, 0, 2048] S1x1x512.size inb_S1x1x16384_S1x1x512_0_0_2048, p4⟩,
      ⟨Rect.unit (s := S1x1x16384) ![0, 0, 1536] S1x1x512.size inb_S1x1x16384_S1x1x512_0_0_1536, p3⟩,
      ⟨Rect.unit (s := S1x1x16384) ![0, 0, 1024] S1x1x512.size inb_S1x1x16384_S1x1x512_0_0_1024, p2⟩,
      ⟨Rect.unit (s := S1x1x16384) ![0, 0, 512] S1x1x512.size inb_S1x1x16384_S1x1x512_0_0_512, p1⟩,
      ⟨Rect.unit (s := S1x1x16384) ![0, 0, 0] S1x1x512.size inb_S1x1x16384_S1x1x512_0_0_0, p0⟩] : List (View.Piece (Elt F) S1x1x16384 .i32)), y ∈ pc.1.set :=
  View.cover_of_tiled (s := S1x1x16384) _ S1x1x512.size (by rfl) y

end Cert.TcBodyIdeal

end
-- ==== Proof.TcBodyIdeal.lean ====
/-
  The TensorCore kernel body, run once at a symbolic grid point.

  From the probability block held at `x0` and the output block held at anything, the body runs to its return
  with the probability block unchanged and the output block at `outTC i x0`: its 32 stores cover the block,
  so what they leave does not depend on what the block held before.
-/
import proofs.«203736_g78743930405654_cont_9to1c4b_297_23_alg».proof.Proof.TcBodyIdealDefs
import Idealize.ShloMosaic.Lib.Pipeline.FrameBody
import Idealize.ShloMosaic.Lib.Tactic

set_option maxRecDepth 16384

noncomputable section

namespace Cert.TcBodyIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- The kernel body on whole staging memrefs, the probability block's at read contents `x0` and the output
    block's at anything, runs to the continuation holding the first as it was and the second at `outTC i x0`. -/
theorem sound_kernel (c : Dev nD) (E : Set Name) (i : grid0.Coords)
    (arg1 : Memref sig .tc .vmem S1x1 .f32) (harg1 : arg1.IsWhole)
    (arg2 : Memref sig .tc .vmem S1x1x16384 .i32) (harg2 : arg2.IsWhole)
    (x0 : Vec F S1x1 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ K ⟨⟩))
      ⊢ wp frame (wpE (defs₀ (F := F)) Variants.none c none) E (cc0__tc_kernel i arg1 harg1 arg2 harg2) K := by
  unfold owns
  iintro ⟨⟨%f0, %hf0, H0⟩, ⟨%d2, %f2, -, H2⟩, Hk⟩
  subst hf0
  sl_exec_parts
  sl_step
  iapply Hk
  isplitl [H0]
  · iexists f0; isplitr; · ipureintro; rfl
    iexact H0
  iexists _; isplitr
  swap; · iexact H2
  ipureintro
  exact View.read_writes_eq_canon _ _ _ (coverTC _ _ _ _ _ _ _ _ _ _ _ _ _ _ _ _ _ _ _ _ _ _ _ _ _ _ _ _ _ _ _ _ )

end Cert.TcBodyIdeal

end
-- ==== Proof.TcBodyBitsDefs.lean ====
/-
  The TensorCore kernel body's result as a closed term.

  The body loads the one-element probability block, turns it into a threshold word, and then, for each of the
  32 chunks of 512 rows of its output block, computes a 32 x 512 table of random words, compares, selects a
  power of two or zero, sums over the 32 bit positions and stores the 512 packed words at columns
  `512 k .. 512 k + 511`.  Here each chunk's stored vector is written as the composition of the body's named
  pure steps, and the output block after the body is the 32 stores read back as one vector.
-/
import proofs.«203736_g78743930405654_cont_9to1c4b_297_23_alg».proof.Proof.Gen.Kernel.Skeleton
import Idealize.ShloMosaic.Lib.Pipeline.FrameBody

set_option maxRecDepth 16384

noncomputable section

namespace Cert.TcBodyBits

open Cert.Kernel Cert.Kernel.Gen
open Idealize.ShloMosaic Idealize.SL.Sem

variable {F : FTy → Type} [FloatOps F]

/-- The rectangle through which the body loads the probability block: all of it. -/
abbrev rIn : Rect S1x1 := Rect.unit (s := S1x1) ![0, 0] S1x1.size inb_S1x1_S1x1_0_0

/-- The first row of the block's rows, as a word: `16384` times the grid coordinate. -/
def v0TC (i : grid0.Coords) : BitVec 32 := Scalar.muli (BitVec.ofNat 32 (i 0).val) 16384#32

/-- The threshold word the body computes from the probability block: the clipped, scaled probability
    truncated to an integer, plus one when the truncation fell below it (a ceiling). -/
def thrTC (x0 : Vec F S1x1 .f32) : BitVec 32 :=
  Scalar.addi (Scalar.fptosi 32 (k0_pay2 x0)) (Scalar.extui (Scalar.cmpf .olt (k0_pay3 x0) (k0_pay2 x0)))

/-! ## The vector each chunk stores, as the composition of the body's pure steps -/

/-- Chunk 0: the vector stored at columns `0 .. 511`. -/
def payTC_0 (i : grid0.Coords) (v10 : BitVec 32) : IVec S1x1x512 32 :=
  let v18 := k0_pay5
  let v19 := k0_pay6
  let v38 := k0_pay10 i
  let v39 := k0_pay11 i
  let v41 := k0_pay12 i
  let v84 := k0_pay23 v38 v39 v41
  let v86 := k0_pay24 v38 v39 v41
  let c2_i32 := 2#32
  let v128 := k0_pay36 v84 v86 c2_i32
  let v130 := k0_pay37 v84 v86 c2_i32
  let v132 := k0_pay38 v84 v86 c2_i32
  let v174 := k0_pay50 v128 v130 v132
  let v176 := k0_pay51 v128 v130 v132
  let v178 := k0_pay52 v128 v130 v132
  k0_pay53 v10 v18 v19 v174 v176 v178

/-- Chunk 1: the vector stored at columns `512 .. 1023`. -/
def payTC_1 (v0 : BitVec 32) (v10 : BitVec 32) : IVec S1x1x512 32 :=
  let v15 := k0_pay4
  let v18 := k0_pay5
  let v19 := k0_pay6
  let v215 := k0_pay58 v0 v15
  let v221 := k0_pay59 v0 v15
  let v264 := k0_pay69 v215 v221
  let v265 := k0_pay70 v215 v221
  let v266 := k0_pay71
  let v310 := k0_pay82 v264 v265 v266
  let v311 := k0_pay83 v264 v265 v266
  let v312 := k0_pay84
  let v356 := k0_pay95 v310 v311 v312
  let v358 := k0_pay96 v310 v311 v312
  k0_pay97 v10 v18 v19 v356 v358

/-- Chunk 2: the vector stored at columns `1024 .. 1535`. -/
def payTC_2 (v0 : BitVec 32) (v10 : BitVec 32) : IVec S1x1x512 32 :=
  let v15 := k0_pay4
  let v18 := k0_pay5
  let v19 := k0_pay6
  let v397 := k0_pay103 v0 v15
  let v398 := k0_pay104 v0 v15
  let v400 := k0_pay105 v0 v15
  let c26_i32_107 := 26#32
  let v441 := k0_pay115 v397 v398 v400 c26_i32_107
  let v446 := k0_pay116 v397 v398 v400 c26_i32_107
  let v487 := k0_pay128 v441 v446
  let v492 := k0_pay129 v441 v446
  let v537 := k0_pay130 v487 v492
  let c9_i32_150 := 9#32
  k0_pay131 v10 v18 v19 v537 c9_i32_150

/-- Chunk 3: the vector stored at columns `1536 .. 2047`. -/
def payTC_3 (v0 : BitVec 32) (v10 : BitVec 32) : IVec S1x1x512 32 :=
  let v15 := k0_pay4
  let v18 := k0_pay5
  let v19 := k0_pay6
  let v574 := k0_pay138 v0 v15
  let v580 := k0_pay139 v0 v15
  let c42_i32_164 := 42#32
  let v623 := k0_pay150 v574 v580 c42_i32_164
  let v624 := k0_pay151 v574 v580 c42_i32_164
  let v626 := k0_pay152 v574 v580 c42_i32_164
  let v669 := k0_pay163 v623 v624 v626
  let v670 := k0_pay164 v623 v624 v626
  let v672 := k0_pay165 v623 v624 v626
  let v718 := (k0_pay166 v10 v18 v19 v669 v670 v672)
  k0_pay167 v718

/-- Chunk 4: the vector stored at columns `2048 .. 2559`. -/
def payTC_4 (v0 : BitVec 32) (v10 : BitVec 32) : IVec S1x1x512 32 :=
  let v15 := k0_pay4
  let v18 := k0_pay5
  let v19 := k0_pay6
  let v758 := k0_pay175 v0 v15
  let v760 := k0_pay176 v0 v15
  let v800 := k0_pay187 v758 v760
  let v806 := k0_pay188 v758 v760
  let v846 := k0_pay199 v800 v806
  let v852 := k0_pay200 v800 v806
  let v896 := (k0_pay201 v10 v18 v19 v846 v852)
  k0_pay202 v896

/-- Chunk 5: the vector stored at columns `2560 .. 3071`. -/
def payTC_5 (v0 : BitVec 32) (v10 : BitVec 32) : IVec S1x1x512 32 :=
  let v15 := k0_pay4
  let v18 := k0_pay5
  let v19 := k0_pay6
  let v936 := k0_pay210 v0 v15
  let v937 := k0_pay211 v0 v15
  let v939 := k0_pay212 v0 v15
  let c15_i32_279 := 15#32
  let v982 := k0_pay223 v936 v937 v939 c15_i32_279
  let v983 := k0_pay224 v936 v937 v939 c15_i32_279
  let v985 := k0_pay225 v936 v937 v939 c15_i32_279
  let c6_i32_293 := 6#32
  let v1028 := k0_pay236 v982 v983 v985 c6_i32_293
  let v1030 := k0_pay237 v982 v983 v985 c6_i32_293
  let v1031 := k0_pay238
  k0_pay239 v10 v18 v19 v1028 v1030 v1031

/-- Chunk 6: the vector stored at columns `3072 .. 3583`. -/
def payTC_6 (v0 : BitVec 32) (v10 : BitVec 32) : IVec S1x1x512 32 :=
  let v15 := k0_pay4
  let v18 := k0_pay5
  let v19 := k0_pay6
  let v1119 := k0_pay249 v0 v15
  let v1120 := k0_pay250 v0 v15
  let v1165 := k0_pay261 v1119 v1120
  let v1166 := k0_pay262 v1119 v1120
  let v1208 := k0_pay271 v1165 v1166
  let v1209 := k0_pay272 v1165 v1166
  let v1211 := k0_pay273 v1165 v1166
  k0_pay274 v10 v18 v19 v1208 v1209 v1211

/-- Chunk 7: the vector stored at columns `3584 .. 4095`. -/
def payTC_7 (v0 : BitVec 32) (v10 : BitVec 32) : IVec S1x1x512 32 :=
  let v15 := k0_pay4
  let v18 := k0_pay5
  let v19 := k0_pay6
  let v1254 := (k0_pay275 v0)
  let v1295 := k0_pay285 v15 v1254
  let v1296 := k0_pay286 v15 v1254
  let v1298 := k0_pay287 v15 v1254
  let v1299 := k0_pay288
  let v1341 := k0_pay299 v1295 v1296 v1298 v1299
  let v1342 := k0_pay300 v1295 v1296 v1298 v1299
  let v1344 := k0_pay301 v1295 v1296 v1298 v1299
  let v1345 := k0_pay302
  let v1385 := k0_pay312 v1341 v1342 v1344 v1345
  let v1391 := k0_pay313 v1341 v1342 v1344 v1345
  k0_pay314 v10 v18 v19 v1385 v1391

/-- Chunk 8: the vector stored at columns `4096 .. 4607`. -/
def payTC_8 (v0 : BitVec 32) (v10 : BitVec 32) : IVec S1x1x512 32 :=
  let v15 := k0_pay4
  let v18 := k0_pay5
  let v19 := k0_pay6
  let v1433 := k0_pay315 v0 v15
  let c13_i32_436 := 13#32
  let v1478 := k0_pay326 v1433 c13_i32_436
  let v1479 := k0_pay327 v1433 c13_i32_436
  let c16_i32_450 := 16#32
  let v1518 := k0_pay337 v1478 v1479 c16_i32_450
  let v1524 := k0_pay338 v1478 v1479 c16_i32_450
  let v1525 := k0_pay339
  let v1567 := k0_pay350 v1518 v1524 v1525
  let v1568 := k0_pay351 v1518 v1524 v1525
  let v1570 := k0_pay352 v1518 v1524 v1525
  let c17_i32_479 := 17#32
  k0_pay353 v10 v18 v19 v1567 v1568 v1570 c17_i32_479

/-- Chunk 9: the vector stored at columns `4608 .. 5119`. -/
def payTC_9 (v0 : BitVec 32) (v10 : BitVec 32) : IVec S1x1x512 32 :=
  let v15 := k0_pay4
  let v18 := k0_pay5
  let v19 := k0_pay6
  let v1609 := k0_pay354 v0 v15
  let v1611 := k0_pay355 v0 v15
  let v1613 := k0_pay356 v0 v15
  let v1655 := k0_pay368 v1609 v1611 v1613
  let v1657 := k0_pay369 v1609 v1611 v1613
  let v1659 := k0_pay370 v1609 v1611 v1613
  let v1704 := k0_pay381 v1655 v1657 v1659
  let v1705 := k0_pay382 v1655 v1657 v1659
  let v1750 := k0_pay393 v1704 v1705
  let v1751 := k0_pay394 v1704 v1705
  k0_pay395 v10 v18 v19 v1750 v1751

/-- Chunk 10: the vector stored at columns `5120 .. 5631`. -/
def payTC_10 (v0 : BitVec 32) (v10 : BitVec 32) : IVec S1x1x512 32 :=
  let v15 := k0_pay4
  let v18 := k0_pay5
  let v19 := k0_pay6
  let v1791 := k0_pay397 v0 v15
  let v1792 := k0_pay398 v0 v15
  let v1793 := k0_pay399
  let v1837 := k0_pay410 v1791 v1792 v1793
  let v1838 := k0_pay411 v1791 v1792 v1793
  let v1839 := k0_pay412
  let v1880 := k0_pay421 v1837 v1838 v1839
  let v1881 := k0_pay422 v1837 v1838 v1839
  let v1883 := k0_pay423 v1837 v1838 v1839
  let v1884 := k0_pay424
  let v1926 := k0_pay435 v1880 v1881 v1883 v1884
  let v1927 := k0_pay436 v1880 v1881 v1883 v1884
  let v1929 := k0_pay437 v1880 v1881 v1883 v1884
  let v1930 := k0_pay438
  k0_pay439 v10 v18 v19 v1926 v1927 v1929 v1930

/-- Chunk 11: the vector stored at columns `5632 .. 6143`. -/
def payTC_11 (v0 : BitVec 32) (v10 : BitVec 32) : IVec S1x1x512 32 :=
  let v15 := k0_pay4
  let v18 := k0_pay5
  let v19 := k0_pay6
  let v1968 := k0_pay442 v0 v15
  let v1973 := k0_pay443 v0 v15
  let v2014 := k0_pay455 v1968 v1973
  let v2019 := k0_pay456 v1968 v1973
  let v2063 := k0_pay467 v2014 v2019
  let v2064 := k0_pay468 v2014 v2019
  let c29_i32_636 := 29#32
  let v2109 := k0_pay479 v2063 v2064 c29_i32_636
  let v2110 := k0_pay480 v2063 v2064 c29_i32_636
  let c6_i32_650 := 6#32
  k0_pay481 v10 v18 v19 v2109 v2110 c6_i32_650

/-- Chunk 12: the vector stored at columns `6144 .. 6655`. -/
def payTC_12 (v0 : BitVec 32) (v10 : BitVec 32) : IVec S1x1x512 32 :=
  let v15 := k0_pay4
  let v18 := k0_pay5
  let v19 := k0_pay6
  let v2150 := k0_pay485 v0 v15
  let v2151 := k0_pay486 v0 v15
  let v2153 := k0_pay487 v0 v15
  let v2196 := k0_pay498 v2150 v2151 v2153
  let v2198 := k0_pay499 v2150 v2151 v2153
  let c2_i32_679 := 2#32
  let v2240 := k0_pay511 v2196 v2198 c2_i32_679
  let v2242 := k0_pay512 v2196 v2198 c2_i32_679
  let v2244 := k0_pay513 v2196 v2198 c2_i32_679
  let v2286 := k0_pay525 v2240 v2242 v2244
  let v2288 := k0_pay526 v2240 v2242 v2244
  let v2290 := k0_pay527 v2240 v2242 v2244
  k0_pay528 v10 v18 v19 v2286 v2288 v2290

/-- Chunk 13: the vector stored at columns `6656 .. 7167`. -/
def payTC_13 (v0 : BitVec 32) (v10 : BitVec 32) : IVec S1x1x512 32 :=
  let v15 := k0_pay4
  let v18 := k0_pay5
  let v19 := k0_pay6
  let v2327 := k0_pay533 v0 v15
  let v2333 := k0_pay534 v0 v15
  let v2376 := k0_pay544 v2327 v2333
  let v2377 := k0_pay545 v2327 v2333
  let v2378 := k0_pay546
  let v2422 := k0_pay557 v2376 v2377 v2378
  let v2423 := k0_pay558 v2376 v2377 v2378
  let v2424 := k0_pay559
  let v2468 := k0_pay570 v2422 v2423 v2424
  let v2470 := k0_pay571 v2422 v2423 v2424
  k0_pay572 v10 v18 v19 v2468 v2470

/-- Chunk 14: the vector stored at columns `7168 .. 7679`. -/
def payTC_14 (v0 : BitVec 32) (v10 : BitVec 32) : IVec S1x1x512 32 :=
  let v15 := k0_pay4
  let v18 := k0_pay5
  let v19 := k0_pay6
  let v2509 := k0_pay578 v0 v15
  let v2510 := k0_pay579 v0 v15
  let v2512 := k0_pay580 v0 v15
  let c26_i32_779 := 26#32
  let v2553 := k0_pay590 v2509 v2510 v2512 c26_i32_779
  let v2558 := k0_pay591 v2509 v2510 v2512 c26_i32_779
  let v2599 := k0_pay603 v2553 v2558
  let v2604 := k0_pay604 v2553 v2558
  let v2649 := k0_pay605 v2599 v2604
  let c9_i32_822 := 9#32
  k0_pay606 v10 v18 v19 v2649 c9_i32_822

/-- Chunk 15: the vector stored at columns `7680 .. 8191`. -/
def payTC_15 (v0 : BitVec 32) (v10 : BitVec 32) : IVec S1x1x512 32 :=
  let v15 := k0_pay4
  let v18 := k0_pay5
  let v19 := k0_pay6
  let v2686 := k0_pay613 v0 v15
  let v2692 := k0_pay614 v0 v15
  let c42_i32_836 := 42#32
  let v2735 := k0_pay625 v2686 v2692 c42_i32_836
  let v2736 := k0_pay626 v2686 v2692 c42_i32_836
  let v2738 := k0_pay627 v2686 v2692 c42_i32_836
  let v2781 := k0_pay638 v2735 v2736 v2738
  let v2782 := k0_pay639 v2735 v2736 v2738
  let v2784 := k0_pay640 v2735 v2736 v2738
  let v2830 := (k0_pay641 v10 v18 v19 v2781 v2782 v2784)
  k0_pay642 v2830

/-- Chunk 16: the vector stored at columns `8192 .. 8703`. -/
def payTC_16 (v0 : BitVec 32) (v10 : BitVec 32) : IVec S1x1x512 32 :=
  let v15 := k0_pay4
  let v18 := k0_pay5
  let v19 := k0_pay6
  let v2870 := k0_pay650 v0 v15
  let v2872 := k0_pay651 v0 v15
  let v2912 := k0_pay662 v2870 v2872
  let v2918 := k0_pay663 v2870 v2872
  let v2958 := k0_pay674 v2912 v2918
  let v2964 := k0_pay675 v2912 v2918
  let v3008 := (k0_pay676 v10 v18 v19 v2958 v2964)
  k0_pay677 v3008

/-- Chunk 17: the vector stored at columns `8704 .. 9215`. -/
def payTC_17 (v0 : BitVec 32) (v10 : BitVec 32) : IVec S1x1x512 32 :=
  let v15 := k0_pay4
  let v18 := k0_pay5
  let v19 := k0_pay6
  let v3048 := k0_pay685 v0 v15
  let v3049 := k0_pay686 v0 v15
  let v3051 := k0_pay687 v0 v15
  let c15_i32_951 := 15#32
  let v3094 := k0_pay698 v3048 v3049 v3051 c15_i32_951
  let v3095 := k0_pay699 v3048 v3049 v3051 c15_i32_951
  let v3097 := k0_pay700 v3048 v3049 v3051 c15_i32_951
  let c6_i32_965 := 6#32
  let v3140 := k0_pay711 v3094 v3095 v3097 c6_i32_965
  let v3142 := k0_pay712 v3094 v3095 v3097 c6_i32_965
  let v3143 := k0_pay713
  k0_pay714 v10 v18 v19 v3140 v3142 v3143

/-- Chunk 18: the vector stored at columns `9216 .. 9727`. -/
def payTC_18 (v0 : BitVec 32) (v10 : BitVec 32) : IVec S1x1x512 32 :=
  let v15 := k0_pay4
  let v18 := k0_pay5
  let v19 := k0_pay6
  let v3231 := k0_pay724 v0 v15
  let v3232 := k0_pay725 v0 v15
  let v3277 := k0_pay736 v3231 v3232
  let v3278 := k0_pay737 v3231 v3232
  let v3320 := k0_pay746 v3277 v3278
  let v3321 := k0_pay747 v3277 v3278
  let v3323 := k0_pay748 v3277 v3278
  k0_pay749 v10 v18 v19 v3320 v3321 v3323

/-- Chunk 19: the vector stored at columns `9728 .. 10239`. -/
def payTC_19 (v0 : BitVec 32) (v10 : BitVec 32) : IVec S1x1x512 32 :=
  let v15 := k0_pay4
  let v18 := k0_pay5
  let v19 := k0_pay6
  let v3366 := (k0_pay750 v0)
  let v3407 := k0_pay760 v15 v3366
  let v3408 := k0_pay761 v15 v3366
  let v3410 := k0_pay762 v15 v3366
  let v3411 := k0_pay763
  let v3453 := k0_pay774 v3407 v3408 v3410 v3411
  let v3454 := k0_pay775 v3407 v3408 v3410 v3411
  let v3456 := k0_pay776 v3407 v3408 v3410 v3411
  let v3457 := k0_pay777
  let v3497 := k0_pay787 v3453 v3454 v3456 v3457
  let v3503 := k0_pay788 v3453 v3454 v3456 v3457
  k0_pay789 v10 v18 v19 v3497 v3503

/-- Chunk 20: the vector stored at columns `10240 .. 10751`. -/
def payTC_20 (v0 : BitVec 32) (v10 : BitVec 32) : IVec S1x1x512 32 :=
  let v15 := k0_pay4
  let v18 := k0_pay5
  let v19 := k0_pay6
  let v3545 := k0_pay790 v0 v15
  let c13_i32_1108 := 13#32
  let v3590 := k0_pay801 v3545 c13_i32_1108
  let v3591 := k0_pay802 v3545 c13_i32_1108
  let c16_i32_1122 := 16#32
  let v3630 := k0_pay812 v3590 v3591 c16_i32_1122
  let v3636 := k0_pay813 v3590 v3591 c16_i32_1122
  let v3637 := k0_pay814
  let v3679 := k0_pay825 v3630 v3636 v3637
  let v3680 := k0_pay826 v3630 v3636 v3637
  let v3682 := k0_pay827 v3630 v3636 v3637
  let c17_i32_1151 := 17#32
  k0_pay828 v10 v18 v19 v3679 v3680 v3682 c17_i32_1151

/-- Chunk 21: the vector stored at columns `10752 .. 11263`. -/
def payTC_21 (v0 : BitVec 32) (v10 : BitVec 32) : IVec S1x1x512 32 :=
  let v15 := k0_pay4
  let v18 := k0_pay5
  let v19 := k0_pay6
  let v3721 := k0_pay829 v0 v15
  let v3723 := k0_pay830 v0 v15
  let v3725 := k0_pay831 v0 v15
  let v3767 := k0_pay843 v3721 v3723 v3725
  let v3769 := k0_pay844 v3721 v3723 v3725
  let v3771 := k0_pay845 v3721 v3723 v3725
  let v3816 := k0_pay856 v3767 v3769 v3771
  let v3817 := k0_pay857 v3767 v3769 v3771
  let v3862 := k0_pay868 v3816 v3817
  let v3863 := k0_pay869 v3816 v3817
  k0_pay870 v10 v18 v19 v3862 v3863

/-- Chunk 22: the vector stored at columns `11264 .. 11775`. -/
def payTC_22 (v0 : BitVec 32) (v10 : BitVec 32) : IVec S1x1x512 32 :=
  let v15 := k0_pay4
  let v18 := k0_pay5
  let v19 := k0_pay6
  let v3903 := k0_pay872 v0 v15
  let v3904 := k0_pay873 v0 v15
  let v3905 := k0_pay874
  let v3949 := k0_pay885 v3903 v3904 v3905
  let v3950 := k0_pay886 v3903 v3904 v3905
  let v3951 := k0_pay887
  let v3992 := k0_pay896 v3949 v3950 v3951
  let v3993 := k0_pay897 v3949 v3950 v3951
  let v3995 := k0_pay898 v3949 v3950 v3951
  let v3996 := k0_pay899
  let v4038 := k0_pay910 v3992 v3993 v3995 v3996
  let v4039 := k0_pay911 v3992 v3993 v3995 v3996
  let v4041 := k0_pay912 v3992 v3993 v3995 v3996
  let v4042 := k0_pay913
  k0_pay914 v10 v18 v19 v4038 v4039 v4041 v4042

/-- Chunk 23: the vector stored at columns `11776 .. 12287`. -/
def payTC_23 (v0 : BitVec 32) (v10 : BitVec 32) : IVec S1x1x512 32 :=
  let v15 := k0_pay4
  let v18 := k0_pay5
  let v19 := k0_pay6
  let v4080 := k0_pay917 v0 v15
  let v4085 := k0_pay918 v0 v15
  let v4126 := k0_pay930 v4080 v4085
  let v4131 := k0_pay931 v4080 v4085
  let v4175 := k0_pay942 v4126 v4131
  let v4176 := k0_pay943 v4126 v4131
  let c29_i32_1308 := 29#32
  let v4221 := k0_pay954 v4175 v4176 c29_i32_1308
  let v4222 := k0_pay955 v4175 v4176 c29_i32_1308
  let c6_i32_1322 := 6#32
  k0_pay956 v10 v18 v19 v4221 v4222 c6_i32_1322

/-- Chunk 24: the vector stored at columns `12288 .. 12799`. -/
def payTC_24 (v0 : BitVec 32) (v10 : BitVec 32) : IVec S1x1x512 32 :=
  let v15 := k0_pay4
  let v18 := k0_pay5
  let v19 := k0_pay6
  let v4262 := k0_pay960 v0 v15
  let v4263 := k0_pay961 v0 v15
  let v4265 := k0_pay962 v0 v15
  let v4308 := k0_pay973 v4262 v4263 v4265
  let v4310 := k0_pay974 v4262 v4263 v4265
  let c2_i32_1351 := 2#32
  let v4352 := k0_pay986 v4308 v4310 c2_i32_1351
  let v4354 := k0_pay987 v4308 v4310 c2_i32_1351
  let v4356 := k0_pay988 v4308 v4310 c2_i32_1351
  let v4398 := k0_pay1000 v4352 v4354 v4356
  let v4400 := k0_pay1001 v4352 v4354 v4356
  let v4402 := k0_pay1002 v4352 v4354 v4356
  k0_pay1003 v10 v18 v19 v4398 v4400 v4402

/-- Chunk 25: the vector stored at columns `12800 .. 13311`. -/
def payTC_25 (v0 : BitVec 32) (v10 : BitVec 32) : IVec S1x1x512 32 :=
  let v15 := k0_pay4
  let v18 := k0_pay5
  let v19 := k0_pay6
  let v4439 := k0_pay1008 v0 v15
  let v4445 := k0_pay1009 v0 v15
  let v4488 := k0_pay1019 v4439 v4445
  let v4489 := k0_pay1020 v4439 v4445
  let v4490 := k0_pay1021
  let v4534 := k0_pay1032 v4488 v4489 v4490
  let v4535 := k0_pay1033 v4488 v4489 v4490
  let v4536 := k0_pay1034
  let v4580 := k0_pay1045 v4534 v4535 v4536
  let v4582 := k0_pay1046 v4534 v4535 v4536
  k0_pay1047 v10 v18 v19 v4580 v4582

/-- Chunk 26: the vector stored at columns `13312 .. 13823`. -/
def payTC_26 (v0 : BitVec 32) (v10 : BitVec 32) : IVec S1x1x512 32 :=
  let v15 := k0_pay4
  let v18 := k0_pay5
  let v19 := k0_pay6
  let v4621 := k0_pay1053 v0 v15
  let v4622 := k0_pay1054 v0 v15
  let v4624 := k0_pay1055 v0 v15
  let c26_i32_1451 := 26#32
  let v4665 := k0_pay1065 v4621 v4622 v4624 c26_i32_1451
  let v4670 := k0_pay1066 v4621 v4622 v4624 c26_i32_1451
  let v4711 := k0_pay1078 v4665 v4670
  let v4716 := k0_pay1079 v4665 v4670
  let v4761 := k0_pay1080 v4711 v4716
  let c9_i32_1494 := 9#32
  k0_pay1081 v10 v18 v19 v4761 c9_i32_1494

/-- Chunk 27: the vector stored at columns `13824 .. 14335`. -/
def payTC_27 (v0 : BitVec 32) (v10 : BitVec 32) : IVec S1x1x512 32 :=
  let v15 := k0_pay4
  let v18 := k0_pay5
  let v19 := k0_pay6
  let v4798 := k0_pay1088 v0 v15
  let v4804 := k0_pay1089 v0 v15
  let c42_i32_1508 := 42#32
  let v4847 := k0_pay1100 v4798 v4804 c42_i32_1508
  let v4848 := k0_pay1101 v4798 v4804 c42_i32_1508
  let v4850 := k0_pay1102 v4798 v4804 c42_i32_1508
  let v4893 := k0_pay1113 v4847 v4848 v4850
  let v4894 := k0_pay1114 v4847 v4848 v4850
  let v4896 := k0_pay1115 v4847 v4848 v4850
  let v4942 := (k0_pay1116 v10 v18 v19 v4893 v4894 v4896)
  k0_pay1117 v4942

/-- Chunk 28: the vector stored at columns `14336 .. 14847`. -/
def payTC_28 (v0 : BitVec 32) (v10 : BitVec 32) : IVec S1x1x512 32 :=
  let v15 := k0_pay4
  let v18 := k0_pay5
  let v19 := k0_pay6
  let v4982 := k0_pay1125 v0 v15
  let v4984 := k0_pay1126 v0 v15
  let v5024 := k0_pay1137 v4982 v4984
  let v5030 := k0_pay1138 v4982 v4984
  let v5070 := k0_pay1149 v5024 v5030
  let v5076 := k0_pay1150 v5024 v5030
  let v5120 := (k0_pay1151 v10 v18 v19 v5070 v5076)
  k0_pay1152 v5120

/-- Chunk 29: the vector stored at columns `14848 .. 15359`. -/
def payTC_29 (v0 : BitVec 32) (v10 : BitVec 32) : IVec S1x1x512 32 :=
  let v15 := k0_pay4
  let v18 := k0_pay5
  let v19 := k0_pay6
  let v5160 := k0_pay1160 v0 v15
  let v5161 := k0_pay1161 v0 v15
  let v5163 := k0_pay1162 v0 v15
  let c15_i32_1623 := 15#32
  let v5206 := k0_pay1173 v5160 v5161 v5163 c15_i32_1623
  let v5207 := k0_pay1174 v5160 v5161 v5163 c15_i32_1623
  let v5209 := k0_pay1175 v5160 v5161 v5163 c15_i32_1623
  let c6_i32_1637 := 6#32
  let v5252 := k0_pay1186 v5206 v5207 v5209 c6_i32_1637
  let v5254 := k0_pay1187 v5206 v5207 v5209 c6_i32_1637
  let v5255 := k0_pay1188
  k0_pay1189 v10 v18 v19 v5252 v5254 v5255

/-- Chunk 30: the vector stored at columns `15360 .. 15871`. -/
def payTC_30 (v0 : BitVec 32) (v10 : BitVec 32) : IVec S1x1x512 32 :=
  let v15 := k0_pay4
  let v18 := k0_pay5
  let v19 := k0_pay6
  let v5343 := k0_pay1199 v0 v15
  let v5344 := k0_pay1200 v0 v15
  let v5389 := k0_pay1211 v5343 v5344
  let v5390 := k0_pay1212 v5343 v5344
  let v5432 := k0_pay1221 v5389 v5390
  let v5433 := k0_pay1222 v5389 v5390
  let v5435 := k0_pay1223 v5389 v5390
  k0_pay1224 v10 v18 v19 v5432 v5433 v5435

/-- Chunk 31: the vector stored at columns `15872 .. 16383`. -/
def payTC_31 (v0 : BitVec 32) (v10 : BitVec 32) : IVec S1x1x512 32 :=
  let v15 := k0_pay4
  let v18 := k0_pay5
  let v19 := k0_pay6
  let v5478 := (k0_pay1225 v0)
  let v5519 := k0_pay1235 v15 v5478
  let v5520 := k0_pay1236 v15 v5478
  let v5522 := k0_pay1237 v15 v5478
  let v5523 := k0_pay1238
  let v5565 := k0_pay1249 v5519 v5520 v5522 v5523
  let v5566 := k0_pay1250 v5519 v5520 v5522 v5523
  let v5568 := k0_pay1251 v5519 v5520 v5522 v5523
  let v5569 := k0_pay1252
  let v5609 := k0_pay1262 v5565 v5566 v5568 v5569
  let v5615 := k0_pay1263 v5565 v5566 v5568 v5569
  k0_pay1 v10 v18 v19 v5609 v5615

/-! ## The output block after the body -/

/-- The 32 stores of the body, LAST FIRST, read back as one vector of the block's shape. -/
def outTC (i : grid0.Coords) (x0 : Vec F S1x1 .f32) : Vec F S1x1x16384 .i32 :=
  View.canon [
    ⟨Rect.unit (s := S1x1x16384) ![0, 0, 15872] S1x1x512.size inb_S1x1x16384_S1x1x512_0_0_15872, payTC_31 (v0TC i) (thrTC (View.ld x0 rIn))⟩,
    ⟨Rect.unit (s := S1x1x16384) ![0, 0, 15360] S1x1x512.size inb_S1x1x16384_S1x1x512_0_0_15360, payTC_30 (v0TC i) (thrTC (View.ld x0 rIn))⟩,
    ⟨Rect.unit (s := S1x1x16384) ![0, 0, 14848] S1x1x512.size inb_S1x1x16384_S1x1x512_0_0_14848, payTC_29 (v0TC i) (thrTC (View.ld x0 rIn))⟩,
    ⟨Rect.unit (s := S1x1x16384) ![0, 0, 14336] S1x1x512.size inb_S1x1x16384_S1x1x512_0_0_14336, payTC_28 (v0TC i) (thrTC (View.ld x0 rIn))⟩,
    ⟨Rect.unit (s := S1x1x16384) ![0, 0, 13824] S1x1x512.size inb_S1x1x16384_S1x1x512_0_0_13824, payTC_27 (v0TC i) (thrTC (View.ld x0 rIn))⟩,
    ⟨Rect.unit (s := S1x1x16384) ![0, 0, 13312] S1x1x512.size inb_S1x1x16384_S1x1x512_0_0_13312, payTC_26 (v0TC i) (thrTC (View.ld x0 rIn))⟩,
    ⟨Rect.unit (s := S1x1x16384) ![0, 0, 12800] S1x1x512.size inb_S1x1x16384_S1x1x512_0_0_12800, payTC_25 (v0TC i) (thrTC (View.ld x0 rIn))⟩,
    ⟨Rect.unit (s := S1x1x16384) ![0, 0, 12288] S1x1x512.size inb_S1x1x16384_S1x1x512_0_0_12288, payTC_24 (v0TC i) (thrTC (View.ld x0 rIn))⟩,
    ⟨Rect.unit (s := S1x1x16384) ![0, 0, 11776] S1x1x512.size inb_S1x1x16384_S1x1x512_0_0_11776, payTC_23 (v0TC i) (thrTC (View.ld x0 rIn))⟩,
    ⟨Rect.unit (s := S1x1x16384) ![0, 0, 11264] S1x1x512.size inb_S1x1x16384_S1x1x512_0_0_11264, payTC_22 (v0TC i) (thrTC (View.ld x0 rIn))⟩,
    ⟨Rect.unit (s := S1x1x16384) ![0, 0, 10752] S1x1x512.size inb_S1x1x16384_S1x1x512_0_0_10752, payTC_21 (v0TC i) (thrTC (View.ld x0 rIn))⟩,
    ⟨Rect.unit (s := S1x1x16384) ![0, 0, 10240] S1x1x512.size inb_S1x1x16384_S1x1x512_0_0_10240, payTC_20 (v0TC i) (thrTC (View.ld x0 rIn))⟩,
    ⟨Rect.unit (s := S1x1x16384) ![0, 0, 9728] S1x1x512.size inb_S1x1x16384_S1x1x512_0_0_9728, payTC_19 (v0TC i) (thrTC (View.ld x0 rIn))⟩,
    ⟨Rect.unit (s := S1x1x16384) ![0, 0, 9216] S1x1x512.size inb_S1x1x16384_S1x1x512_0_0_9216, payTC_18 (v0TC i) (thrTC (View.ld x0 rIn))⟩,
    ⟨Rect.unit (s := S1x1x16384) ![0, 0, 8704] S1x1x512.size inb_S1x1x16384_S1x1x512_0_0_8704, payTC_17 (v0TC i) (thrTC (View.ld x0 rIn))⟩,
    ⟨Rect.unit (s := S1x1x16384) ![0, 0, 8192] S1x1x512.size inb_S1x1x16384_S1x1x512_0_0_8192, payTC_16 (v0TC i) (thrTC (View.ld x0 rIn))⟩,
    ⟨Rect.unit (s := S1x1x16384) ![0, 0, 7680] S1x1x512.size inb_S1x1x16384_S1x1x512_0_0_7680, payTC_15 (v0TC i) (thrTC (View.ld x0 rIn))⟩,
    ⟨Rect.unit (s := S1x1x16384) ![0, 0, 7168] S1x1x512.size inb_S1x1x16384_S1x1x512_0_0_7168, payTC_14 (v0TC i) (thrTC (View.ld x0 rIn))⟩,
    ⟨Rect.unit (s := S1x1x16384) ![0, 0, 6656] S1x1x512.size inb_S1x1x16384_S1x1x512_0_0_6656, payTC_13 (v0TC i) (thrTC (View.ld x0 rIn))⟩,
    ⟨Rect.unit (s := S1x1x16384) ![0, 0, 6144] S1x1x512.size inb_S1x1x16384_S1x1x512_0_0_6144, payTC_12 (v0TC i) (thrTC (View.ld x0 rIn))⟩,
    ⟨Rect.unit (s := S1x1x16384) ![0, 0, 5632] S1x1x512.size inb_S1x1x16384_S1x1x512_0_0_5632, payTC_11 (v0TC i) (thrTC (View.ld x0 rIn))⟩,
    ⟨Rect.unit (s := S1x1x16384) ![0, 0, 5120] S1x1x512.size inb_S1x1x16384_S1x1x512_0_0_5120, payTC_10 (v0TC i) (thrTC (View.ld x0 rIn))⟩,
    ⟨Rect.unit (s := S1x1x16384) ![0, 0, 4608] S1x1x512.size inb_S1x1x16384_S1x1x512_0_0_4608, payTC_9 (v0TC i) (thrTC (View.ld x0 rIn))⟩,
    ⟨Rect.unit (s := S1x1x16384) ![0, 0, 4096] S1x1x512.size inb_S1x1x16384_S1x1x512_0_0_4096, payTC_8 (v0TC i) (thrTC (View.ld x0 rIn))⟩,
    ⟨Rect.unit (s := S1x1x16384) ![0, 0, 3584] S1x1x512.size inb_S1x1x16384_S1x1x512_0_0_3584, payTC_7 (v0TC i) (thrTC (View.ld x0 rIn))⟩,
    ⟨Rect.unit (s := S1x1x16384) ![0, 0, 3072] S1x1x512.size inb_S1x1x16384_S1x1x512_0_0_3072, payTC_6 (v0TC i) (thrTC (View.ld x0 rIn))⟩,
    ⟨Rect.unit (s := S1x1x16384) ![0, 0, 2560] S1x1x512.size inb_S1x1x16384_S1x1x512_0_0_2560, payTC_5 (v0TC i) (thrTC (View.ld x0 rIn))⟩,
    ⟨Rect.unit (s := S1x1x16384) ![0, 0, 2048] S1x1x512.size inb_S1x1x16384_S1x1x512_0_0_2048, payTC_4 (v0TC i) (thrTC (View.ld x0 rIn))⟩,
    ⟨Rect.unit (s := S1x1x16384) ![0, 0, 1536] S1x1x512.size inb_S1x1x16384_S1x1x512_0_0_1536, payTC_3 (v0TC i) (thrTC (View.ld x0 rIn))⟩,
    ⟨Rect.unit (s := S1x1x16384) ![0, 0, 1024] S1x1x512.size inb_S1x1x16384_S1x1x512_0_0_1024, payTC_2 (v0TC i) (thrTC (View.ld x0 rIn))⟩,
    ⟨Rect.unit (s := S1x1x16384) ![0, 0, 512] S1x1x512.size inb_S1x1x16384_S1x1x512_0_0_512, payTC_1 (v0TC i) (thrTC (View.ld x0 rIn))⟩,
    ⟨Rect.unit (s := S1x1x16384) ![0, 0, 0] S1x1x512.size inb_S1x1x16384_S1x1x512_0_0_0, payTC_0 i (thrTC (View.ld x0 rIn))⟩]

/-- The 32 rectangles tile the block, so they cover it. -/
theorem coverTC (p31 p30 p29 p28 p27 p26 p25 p24 p23 p22 p21 p20 p19 p18 p17 p16 p15 p14 p13 p12 p11 p10 p9 p8 p7 p6 p5 p4 p3 p2 p1 p0 : Vec F S1x1x512 .i32) (y : S1x1x16384.Idx) :
    ∃ pc ∈ ([
      ⟨Rect.unit (s := S1x1x16384) ![0, 0, 15872] S1x1x512.size inb_S1x1x16384_S1x1x512_0_0_15872, p31⟩,
      ⟨Rect.unit (s := S1x1x16384) ![0, 0, 15360] S1x1x512.size inb_S1x1x16384_S1x1x512_0_0_15360, p30⟩,
      ⟨Rect.unit (s := S1x1x16384) ![0, 0, 14848] S1x1x512.size inb_S1x1x16384_S1x1x512_0_0_14848, p29⟩,
      ⟨Rect.unit (s := S1x1x16384) ![0, 0, 14336] S1x1x512.size inb_S1x1x16384_S1x1x512_0_0_14336, p28⟩,
      ⟨Rect.unit (s := S1x1x16384) ![0, 0, 13824] S1x1x512.size inb_S1x1x16384_S1x1x512_0_0_13824, p27⟩,
      ⟨Rect.unit (s := S1x1x16384) ![0, 0, 13312] S1x1x512.size inb_S1x1x16384_S1x1x512_0_0_13312, p26⟩,
      ⟨Rect.unit (s := S1x1x16384) ![0, 0, 12800] S1x1x512.size inb_S1x1x16384_S1x1x512_0_0_12800, p25⟩,
      ⟨Rect.unit (s := S1x1x16384) ![0, 0, 12288] S1x1x512.size inb_S1x1x16384_S1x1x512_0_0_12288, p24⟩,
      ⟨Rect.unit (s := S1x1x16384) ![0, 0, 11776] S1x1x512.size inb_S1x1x16384_S1x1x512_0_0_11776, p23⟩,
      ⟨Rect.unit (s := S1x1x16384) ![0, 0, 11264] S1x1x512.size inb_S1x1x16384_S1x1x512_0_0_11264, p22⟩,
      ⟨Rect.unit (s := S1x1x16384) ![0, 0, 10752] S1x1x512.size inb_S1x1x16384_S1x1x512_0_0_10752, p21⟩,
      ⟨Rect.unit (s := S1x1x16384) ![0, 0, 10240] S1x1x512.size inb_S1x1x16384_S1x1x512_0_0_10240, p20⟩,
      ⟨Rect.unit (s := S1x1x16384) ![0, 0, 9728] S1x1x512.size inb_S1x1x16384_S1x1x512_0_0_9728, p19⟩,
      ⟨Rect.unit (s := S1x1x16384) ![0, 0, 9216] S1x1x512.size inb_S1x1x16384_S1x1x512_0_0_9216, p18⟩,
      ⟨Rect.unit (s := S1x1x16384) ![0, 0, 8704] S1x1x512.size inb_S1x1x16384_S1x1x512_0_0_8704, p17⟩,
      ⟨Rect.unit (s := S1x1x16384) ![0, 0, 8192] S1x1x512.size inb_S1x1x16384_S1x1x512_0_0_8192, p16⟩,
      ⟨Rect.unit (s := S1x1x16384) ![0, 0, 7680] S1x1x512.size inb_S1x1x16384_S1x1x512_0_0_7680, p15⟩,
      ⟨Rect.unit (s := S1x1x16384) ![0, 0, 7168] S1x1x512.size inb_S1x1x16384_S1x1x512_0_0_7168, p14⟩,
      ⟨Rect.unit (s := S1x1x16384) ![0, 0, 6656] S1x1x512.size inb_S1x1x16384_S1x1x512_0_0_6656, p13⟩,
      ⟨Rect.unit (s := S1x1x16384) ![0, 0, 6144] S1x1x512.size inb_S1x1x16384_S1x1x512_0_0_6144, p12⟩,
      ⟨Rect.unit (s := S1x1x16384) ![0, 0, 5632] S1x1x512.size inb_S1x1x16384_S1x1x512_0_0_5632, p11⟩,
      ⟨Rect.unit (s := S1x1x16384) ![0, 0, 5120] S1x1x512.size inb_S1x1x16384_S1x1x512_0_0_5120, p10⟩,
      ⟨Rect.unit (s := S1x1x16384) ![0, 0, 4608] S1x1x512.size inb_S1x1x16384_S1x1x512_0_0_4608, p9⟩,
      ⟨Rect.unit (s := S1x1x16384) ![0, 0, 4096] S1x1x512.size inb_S1x1x16384_S1x1x512_0_0_4096, p8⟩,
      ⟨Rect.unit (s := S1x1x16384) ![0, 0, 3584] S1x1x512.size inb_S1x1x16384_S1x1x512_0_0_3584, p7⟩,
      ⟨Rect.unit (s := S1x1x16384) ![0, 0, 3072] S1x1x512.size inb_S1x1x16384_S1x1x512_0_0_3072, p6⟩,
      ⟨Rect.unit (s := S1x1x16384) ![0, 0, 2560] S1x1x512.size inb_S1x1x16384_S1x1x512_0_0_2560, p5⟩,
      ⟨Rect.unit (s := S1x1x16384) ![0, 0, 2048] S1x1x512.size inb_S1x1x16384_S1x1x512_0_0_2048, p4⟩,
      ⟨Rect.unit (s := S1x1x16384) ![0, 0, 1536] S1x1x512.size inb_S1x1x16384_S1x1x512_0_0_1536, p3⟩,
      ⟨Rect.unit (s := S1x1x16384) ![0, 0, 1024] S1x1x512.size inb_S1x1x16384_S1x1x512_0_0_1024, p2⟩,
      ⟨Rect.unit (s := S1x1x16384) ![0, 0, 512] S1x1x512.size inb_S1x1x16384_S1x1x512_0_0_512, p1⟩,
      ⟨Rect.unit (s := S1x1x16384) ![0, 0, 0] S1x1x512.size inb_S1x1x16384_S1x1x512_0_0_0, p0⟩] : List (View.Piece (Elt F) S1x1x16384 .i32)), y ∈ pc.1.set :=
  View.cover_of_tiled (s := S1x1x16384) _ S1x1x512.size (by rfl) y

end Cert.TcBodyBits

end
-- ==== Proof.TcBodyBits.lean ====
/-
  The TensorCore kernel body, run once at a symbolic grid point.

  From the probability block held at `x0` and the output block held at anything, the body runs to its return
  with the probability block unchanged and the output block at `outTC i x0`: its 32 stores cover the block,
  so what they leave does not depend on what the block held before.
-/
import proofs.«203736_g78743930405654_cont_9to1c4b_297_23_alg».proof.Proof.TcBodyBitsDefs
import Idealize.ShloMosaic.Lib.Pipeline.FrameBody
import Idealize.ShloMosaic.Lib.Tactic

set_option maxRecDepth 16384

noncomputable section

namespace Cert.TcBodyBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- The kernel body on whole staging memrefs, the probability block's at read contents `x0` and the output
    block's at anything, runs to the continuation holding the first as it was and the second at `outTC i x0`. -/
theorem sound_kernel (c : Dev nD) (E : Set Name) (i : grid0.Coords)
    (arg1 : Memref sig .tc .vmem S1x1 .f32) (harg1 : arg1.IsWhole)
    (arg2 : Memref sig .tc .vmem S1x1x16384 .i32) (harg2 : arg2.IsWhole)
    (x0 : Vec F S1x1 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outTC i x0)) -∗ K ⟨⟩))
      ⊢ wp frame (wpE (defs₀ (F := F)) Variants.none c none) E (cc0__tc_kernel i arg1 harg1 arg2 harg2) K := by
  unfold owns
  iintro ⟨⟨%f0, %hf0, H0⟩, ⟨%d2, %f2, -, H2⟩, Hk⟩
  subst hf0
  sl_exec_parts
  sl_step
  iapply Hk
  isplitl [H0]
  · iexists f0; isplitr; · ipureintro; rfl
    iexact H0
  iexists _; isplitr
  swap; · iexact H2
  ipureintro
  exact View.read_writes_eq_canon _ _ _ (coverTC _ _ _ _ _ _ _ _ _ _ _ _ _ _ _ _ _ _ _ _ _ _ _ _ _ _ _ _ _ _ _ _ )

end Cert.TcBodyBits

end
-- ==== Proof.LibBitPack.lean ====
/-
  Bit packing of Bernoulli samples, and the block cipher's rounds as the kernels spell them on vectors of lanes.

  A packed word is built by or-ing the contributions `1 <<< j` of the drawn samples `j = 0, 1, …` in order; as the
  contributions have pairwise distinct bits, the or is the sum. The cipher is spelt on vectors lane by lane: a
  rotation is a left shift or-ed with a right shift by the complement, both by a constant broadcast to every lane.
-/
import Mathlib.Data.BitVec
import Idealize.ShloMosaic.PureOps
import proofs.«203736_g78743930405654_cont_9to1c4b_297_23_alg».proof.Proof.Spec

namespace Cert.BitPack

open Idealize.ShloMosaic

variable {s : Shape}

/-! ## The rounds on vectors of lanes -/

/-- A lanewise rotation as the kernels spell it: left by `r`, right by `r'` (the complement), or-ed. -/
def vrotl (x : IVec s 32) (r r' : BitVec 32) : IVec s 32 := ori (shli x (broadcast s r)) (shrui x (broadcast s r'))

/-- One mixing step on a pair of vectors. -/
def vmix (p : IVec s 32 × IVec s 32) (r r' : BitVec 32) : IVec s 32 × IVec s 32 :=
  (addi p.1 p.2, xori (vrotl p.2 r r') (addi p.1 p.2))

/-- A key injection on a pair of vectors: the words `a`, `b` added to every lane. -/
def vinject (p : IVec s 32 × IVec s 32) (a b : BitVec 32) : IVec s 32 × IVec s 32 :=
  (addi p.1 (broadcast s a), addi p.2 (broadcast s b))

/-- The group of rotations 13 15 26 6. -/
def vgroupA (p : IVec s 32 × IVec s 32) : IVec s 32 × IVec s 32 :=
  vmix (vmix (vmix (vmix p 13#32 19#32) 15#32 17#32) 26#32 6#32) 6#32 26#32

/-- The group of rotations 17 29 16 24. -/
def vgroupB (p : IVec s 32 × IVec s 32) : IVec s 32 × IVec s 32 :=
  vmix (vmix (vmix (vmix p 17#32 15#32) 29#32 3#32) 16#32 16#32) 24#32 8#32

/-- The random words of a vector of counters, as the kernels compute them: the first block word and the first key
    word are zero, so the first mixing step starts from the counter plus 42 in both words; the key schedule's
    constants are folded. -/
def vbits (lin : IVec s 32) : IVec s 32 :=
  let x : IVec s 32 := addi lin (broadcast s 42#32)
  let s0 : IVec s 32 × IVec s 32 := (x, xori (vrotl x 13#32 19#32) x)
  let s1 := vinject (vmix (vmix (vmix s0 15#32 17#32) 26#32 6#32) 6#32 26#32) 42#32 466689009#32
  let s2 := vinject (vgroupB s1) 466689008#32 2#32
  let s3 := vinject (vgroupA s2) 0#32 45#32
  let s4 := vinject (vgroupB s3) 42#32 466689012#32
  let s5 := vinject (vgroupA s4) 466689008#32 5#32
  xori s5.1 s5.2

/-- One sample's contribution on every lane: `bit` where the 23-bit integer of the lane's counter is below the
    lane's threshold, `zero` elsewhere. -/
def vsel (th zero bit lin : IVec s 32) : IVec s 32 :=
  select (cmpi .ult (shrui (vbits lin) (broadcast s 9#32)) th) bit zero

/-! ## Shifts by a broadcast constant -/

/-- A vector shift by a constant below 32 broadcast to every lane is the plain shift of each lane. -/
theorem shli_broadcast_apply (x : IVec s 32) (c : BitVec 32) (hc : c.toNat < 32) (i : s.Idx) :
    shli x (broadcast s c) i = x i <<< c.toNat := by
  simp only [shli, broadcast, IntOp.shli, hc, if_true]
  rfl

theorem shrui_broadcast_apply (x : IVec s 32) (c : BitVec 32) (hc : c.toNat < 32) (i : s.Idx) :
    shrui x (broadcast s c) i = x i >>> c.toNat := by
  simp only [shrui, broadcast, IntOp.shrui, hc, if_true]
  rfl

/-! ## The rounds lane by lane -/

/-- The pair of words of a pair of vectors at one lane. -/
def lane (p : IVec s 32 × IVec s 32) (i : s.Idx) : BitVec 32 × BitVec 32 := (p.1 i, p.2 i)

/-- The kernels' rotation of a vector is the rotation of each lane. -/
theorem vrotl_apply (x : IVec s 32) (r r' : BitVec 32) (n : Nat) (hr : r.toNat = n) (hr' : r'.toNat = 32 - n)
    (hn : 0 < n ∧ n < 32) (i : s.Idx) : vrotl x r r' i = Cert.Spec.rotl (x i) n := by
  have h1 : r.toNat < 32 := by omega
  have h2 : r'.toNat < 32 := by omega
  show IntOp.ori (shli x (broadcast s r) i) (shrui x (broadcast s r') i) = _
  rw [shli_broadcast_apply x r h1, shrui_broadcast_apply x r' h2, hr, hr']
  rfl

theorem lane_vmix (p : IVec s 32 × IVec s 32) (r r' : BitVec 32) (n : Nat) (hr : r.toNat = n) (hr' : r'.toNat = 32 - n)
    (hn : 0 < n ∧ n < 32) (i : s.Idx) : lane (vmix p r r') i = Cert.Spec.mix (lane p i) n := by
  show (IntOp.addi (p.1 i) (p.2 i), IntOp.xori (vrotl p.2 r r' i) (IntOp.addi (p.1 i) (p.2 i))) = _
  rw [vrotl_apply p.2 r r' n hr hr' hn]
  rfl

theorem lane_vinject (p : IVec s 32 × IVec s 32) (a b : BitVec 32) (i : s.Idx) :
    lane (vinject p a b) i = Cert.Spec.inject (lane p i) a b := rfl

theorem lane_vgroupA (p : IVec s 32 × IVec s 32) (i : s.Idx) :
    lane (vgroupA p) i = Cert.Spec.group (lane p i) 13 15 26 6 := by
  unfold vgroupA Cert.Spec.group
  rw [lane_vmix _ _ _ 6 (by decide) (by decide) (by decide), lane_vmix _ _ _ 26 (by decide) (by decide) (by decide),
    lane_vmix _ _ _ 15 (by decide) (by decide) (by decide), lane_vmix _ _ _ 13 (by decide) (by decide) (by decide)]

theorem lane_vgroupB (p : IVec s 32 × IVec s 32) (i : s.Idx) :
    lane (vgroupB p) i = Cert.Spec.group (lane p i) 17 29 16 24 := by
  unfold vgroupB Cert.Spec.group
  rw [lane_vmix _ _ _ 24 (by decide) (by decide) (by decide), lane_vmix _ _ _ 16 (by decide) (by decide) (by decide),
    lane_vmix _ _ _ 29 (by decide) (by decide) (by decide), lane_vmix _ _ _ 17 (by decide) (by decide) (by decide)]

/-- The pair of vectors whose xor is `vbits`. -/
def vst (lin : IVec s 32) : IVec s 32 × IVec s 32 :=
  let x : IVec s 32 := addi lin (broadcast s 42#32)
  let s0 : IVec s 32 × IVec s 32 := (x, xori (vrotl x 13#32 19#32) x)
  let s1 := vinject (vmix (vmix (vmix s0 15#32 17#32) 26#32 6#32) 6#32 26#32) 42#32 466689009#32
  let s2 := vinject (vgroupB s1) 466689008#32 2#32
  let s3 := vinject (vgroupA s2) 0#32 45#32
  let s4 := vinject (vgroupB s3) 42#32 466689012#32
  vinject (vgroupA s4) 466689008#32 5#32

theorem vbits_eq (lin : IVec s 32) : vbits lin = xori (vst lin).1 (vst lin).2 := rfl

/-- The kernels' spelling of the cipher — the first mixing step simplified because the first block word and the first
    key word are zero, the key schedule's constants folded — is the cipher with key `(0, 42)` on the block
    `(0, counter)`, lane by lane. -/
theorem lane_vst (lin : IVec s 32) (i : s.Idx) :
    lane (vst lin) i = Cert.Spec.threefry 0#32 42#32 0#32 (lin i) := by
  have h0 : Cert.Spec.mix (0#32 + 0#32, lin i + 42#32) 13
      = lane ((addi lin (broadcast s 42#32), xori (vrotl (addi lin (broadcast s 42#32)) 13#32 19#32) (addi lin (broadcast s 42#32))) : IVec s 32 × IVec s 32) i := by
    show _ = (IntOp.addi (lin i) 42#32, IntOp.xori (vrotl (addi lin (broadcast s 42#32)) 13#32 19#32 i) (IntOp.addi (lin i) 42#32))
    rw [vrotl_apply _ _ _ 13 (by decide) (by decide) (by decide)]
    simp only [Cert.Spec.mix, IntOp.addi, IntOp.xori, BitVec.zero_add, addi, broadcast]
  have c1 : (0#32 ^^^ 42#32 ^^^ 0x1BD11BDA#32) + 1#32 = 466689009#32 := by decide
  have c2 : (0#32 ^^^ 42#32 ^^^ 0x1BD11BDA#32) = 466689008#32 := by decide
  have c3 : (0#32 : BitVec 32) + 2#32 = 2#32 := by decide
  have c4 : (42#32 : BitVec 32) + 3#32 = 45#32 := by decide
  have c5 : (466689008#32 : BitVec 32) + 4#32 = 466689012#32 := by decide
  have c6 : (0#32 : BitVec 32) + 5#32 = 5#32 := by decide
  unfold vst Cert.Spec.threefry
  simp only [lane_vinject, lane_vgroupA, lane_vgroupB, c1, c2, c3, c4, c5, c6]
  rw [lane_vmix _ _ _ 6 (by decide) (by decide) (by decide), lane_vmix _ _ _ 26 (by decide) (by decide) (by decide),
    lane_vmix _ _ _ 15 (by decide) (by decide) (by decide), ← h0]
  rfl

/-- The kernels' random word of a lane's counter is the specification's. -/
theorem vbits_apply (lin : IVec s 32) (i : s.Idx) : vbits lin i = Cert.Spec.bits (lin i) := by
  rw [vbits_eq]
  show IntOp.xori ((lane (vst lin) i).1) ((lane (vst lin) i).2) = _
  rw [lane_vst]
  rfl

/-- One sample's contribution on a lane. -/
theorem vsel_apply (th zero bit lin : IVec s 32) (i : s.Idx) :
    vsel th zero bit lin i = if Cert.Spec.mant (lin i) < th i then bit i else zero i := by
  show Scalar.select (IntOp.cmpi .ult (shrui (vbits lin) (broadcast s 9#32) i) (th i)) (bit i) (zero i) = _
  rw [shrui_broadcast_apply _ _ (by decide), vbits_apply]
  have h9 : (9#32 : BitVec 32).toNat = 9 := rfl
  rw [h9]
  show (if BitVec.ofBool ((Cert.Spec.bits (lin i) >>> 9).ult (th i)) = 1 then bit i else zero i) = _
  unfold Cert.Spec.mant
  cases hb : (Cert.Spec.bits (lin i) >>> 9).ult (th i)
  · have hn : ¬ (Cert.Spec.bits (lin i) >>> 9 < th i) := by
      intro h; rw [← BitVec.ult_iff_lt, hb] at h; exact Bool.false_ne_true h
    rw [if_neg hn, if_neg (by decide)]
  · have hp : Cert.Spec.bits (lin i) >>> 9 < th i := by rw [← BitVec.ult_iff_lt, hb]
    rw [if_pos hp, if_pos (by decide)]

/-! ## A fold over the trips of a counted loop, by an invariant -/

theorem foldl_inv_aux {σ : Type} {n : Nat} (g : Fin n → σ → σ) (I : Nat → σ → Prop)
    (hs : ∀ (k : Fin n) (acc : σ), I k.val acc → I (k.val + 1) (g k acc)) :
    ∀ (l : List (Fin n)) (j : Nat) (acc : σ), (∀ (idx : Nat) (h : idx < l.length), (l[idx]).val = j + idx) → I j acc →
      I (j + l.length) (l.foldl (fun acc k => g k acc) acc)
  | [], j, acc, _, h => by simpa using h
  | k :: l, j, acc, hl, h => by
    have hk : k.val = j := by
      have := hl 0 (Nat.succ_pos _)
      simp only [List.getElem_cons_zero, Nat.add_zero] at this
      exact this
    have h1 : I (j + 1) (g k acc) := hk ▸ hs k acc (hk ▸ h)
    have h2 := foldl_inv_aux g I hs l (j + 1) (g k acc) (fun idx hidx => by
      have := hl (idx + 1) (Nat.succ_lt_succ hidx)
      simp only [List.getElem_cons_succ] at this
      omega) h1
    have e : j + (k :: l).length = j + 1 + l.length := by simp only [List.length_cons]; omega
    rw [e]
    exact h2

/-- An invariant of the trips, true before the first and kept by each, holds of the fold over all `n` trips. -/
theorem foldl_finRange_inv {σ : Type} {n : Nat} (g : Fin n → σ → σ) (init : σ) (I : Nat → σ → Prop) (h0 : I 0 init)
    (hs : ∀ (k : Fin n) (acc : σ), I k.val acc → I (k.val + 1) (g k acc)) :
    I n ((List.finRange n).foldl (fun acc k => g k acc) init) := by
  have := foldl_inv_aux g I hs (List.finRange n) 0 init (fun idx h => by simp) h0
  simpa using this

end Cert.BitPack
-- ==== Proof.TileIdealTrip.lean ====
/-
  One trip of the packing loop of the SparseCore kernel, as a pure function: the four accumulators each take, by a
  lanewise or, their sub-block's contribution of sample `j` — the bit `1 <<< j` on the lanes whose counter's 23-bit
  integer is below the threshold. The printed trip is the return of that function by definitional unfolding.
-/
import Idealize.ShloMosaic.Lib.Tactic
import proofs.«203736_g78743930405654_cont_9to1c4b_297_23_alg».proof.Proof.Gen.KernelIdeal.Skeleton
import proofs.«203736_g78743930405654_cont_9to1c4b_297_23_alg».proof.Proof.LibBitPack

noncomputable section

namespace Cert.TileIdeal

open Cert.KernelIdeal Cert.KernelIdeal.Gen Cert.BitPack
open Idealize.ShloMosaic Idealize.SL.Sem Idealize.ShloMosaic.Tactic

variable {F : FTy → Type} [FloatOps F]

set_option maxRecDepth 65536 in
/-- The trip's 888 statements compute, for each of the four sub-blocks, the accumulator or-ed with the sample's
    contribution (the last accumulator's or is the loop's own yield). -/
theorem part15_eq (i : grid1.Coords) (arg2 : Memref sig .scVector .hbm S16 .i32) (harg2 : arg2.IsWhole) (arg3 : Memref sig .scVector .hbm S278528 .i32) (harg3 : arg3.IsWhole) (arg4 : Memref sig .scVector .vmem S16 .i32) (harg4 : arg4.IsWhole) (arg5 : Memref sig .scVector .vmem S8704 .i32) (harg5 : arg5.IsWhole) (v14_r0 : DmaSems sig S_) (v14_r1 : DmaSems sig S_) (v3 : IVec S16 32) (v10 : IVec S16 32) (v11 : IVec S16 32) (v18 : IVec S16 32) (v21 : IVec S16 32) (v24 : IVec S16 32) (v27 : IVec S16 32) (c0 c1 : BitVec 32) (k : Fin k1_t2_loop.trips) (arg8 : IVec S16 32) (arg9 : IVec S16 32) (arg10 : IVec S16 32) :
    k1_part15 (F := F) i arg2 harg2 arg3 harg3 arg4 harg4 arg5 harg5 v14_r0 v14_r1 v3 v10 v11 v18 v21 v24 v27 c0 c1 k arg8 arg9 arg10
      = .ret ⟨ori arg8 (vsel v3 v10 (shli v11 (broadcast S16 (Scf.iv c0 c1 k))) (addi v18 (broadcast S16 (Scf.iv c0 c1 k)))),
              ori arg9 (vsel v3 v10 (shli v11 (broadcast S16 (Scf.iv c0 c1 k))) (addi v21 (broadcast S16 (Scf.iv c0 c1 k)))),
              ori arg10 (vsel v3 v10 (shli v11 (broadcast S16 (Scf.iv c0 c1 k))) (addi v24 (broadcast S16 (Scf.iv c0 c1 k)))),
              vsel v3 v10 (shli v11 (broadcast S16 (Scf.iv c0 c1 k))) (addi v27 (broadcast S16 (Scf.iv c0 c1 k)))⟩ := by
  sl_kernel_rfl

/-- One trip of the packing loop on the four accumulators, as a function: sample `Scf.iv c0 c1 k`'s contribution
    of each sub-block or-ed into its accumulator. -/
def tripG (T Z O l0 l1 l2 l3 : IVec S16 32) (c0 c1 : BitVec 32) {n : Nat} (k : Fin n)
    (x : IVec S16 32 × IVec S16 32 × IVec S16 32 × IVec S16 32) : IVec S16 32 × IVec S16 32 × IVec S16 32 × IVec S16 32 :=
  (ori x.1 (vsel T Z (shli O (broadcast S16 (Scf.iv c0 c1 k))) (addi l0 (broadcast S16 (Scf.iv c0 c1 k)))),
   ori x.2.1 (vsel T Z (shli O (broadcast S16 (Scf.iv c0 c1 k))) (addi l1 (broadcast S16 (Scf.iv c0 c1 k)))),
   ori x.2.2.1 (vsel T Z (shli O (broadcast S16 (Scf.iv c0 c1 k))) (addi l2 (broadcast S16 (Scf.iv c0 c1 k)))),
   ori x.2.2.2 (vsel T Z (shli O (broadcast S16 (Scf.iv c0 c1 k))) (addi l3 (broadcast S16 (Scf.iv c0 c1 k)))))

/-- The loop's region is the return of `tripG`. -/
theorem t2_body_eq (i : grid1.Coords) (arg2 : Memref sig .scVector .hbm S16 .i32) (harg2 : arg2.IsWhole) (arg3 : Memref sig .scVector .hbm S278528 .i32) (harg3 : arg3.IsWhole) (arg4 : Memref sig .scVector .vmem S16 .i32) (harg4 : arg4.IsWhole) (arg5 : Memref sig .scVector .vmem S8704 .i32) (harg5 : arg5.IsWhole) (v14_r0 : DmaSems sig S_) (v14_r1 : DmaSems sig S_) (v3 : IVec S16 32) (v6 : IVec S16 32) (v9 : BitVec 32) (v10 : IVec S16 32) (v11 : IVec S16 32) (c0_i32_2 : BitVec 32) (c1_i32_3 : BitVec 32) (k1_t1 : Fin k1_t1_loop.trips) :
    k1_t2_body (F := F) i arg2 harg2 arg3 harg3 arg4 harg4 arg5 harg5 v14_r0 v14_r1 v3 v6 v9 v10 v11 c0_i32_2 c1_i32_3 k1_t1
      = fun k x => .ret (tripG v3 v10 v11 (k1_pay158 v6 v9 c0_i32_2 c1_i32_3 k1_t1) (k1_pay159 v6 v9 c0_i32_2 c1_i32_3 k1_t1)
          (k1_pay160 v6 v9 c0_i32_2 c1_i32_3 k1_t1) (k1_pay161 v6 v9 c0_i32_2 c1_i32_3 k1_t1) 0#32 1#32 k x) := by
  funext k x
  obtain ⟨a8, a9, a10, a11⟩ := x
  unfold k1_t2_body
  simp only [part15_eq]
  rfl

/-- The packing loop is the return of the fold of `tripG` over its trips. -/
theorem t2_loop_eq (i : grid1.Coords) (arg2 : Memref sig .scVector .hbm S16 .i32) (harg2 : arg2.IsWhole) (arg3 : Memref sig .scVector .hbm S278528 .i32) (harg3 : arg3.IsWhole) (arg4 : Memref sig .scVector .vmem S16 .i32) (harg4 : arg4.IsWhole) (arg5 : Memref sig .scVector .vmem S8704 .i32) (harg5 : arg5.IsWhole) (v14_r0 : DmaSems sig S_) (v14_r1 : DmaSems sig S_) (v3 : IVec S16 32) (v6 : IVec S16 32) (v9 : BitVec 32) (v10 : IVec S16 32) (v11 : IVec S16 32) (c0_i32_2 : BitVec 32) (c1_i32_3 : BitVec 32) (k1_t1 : Fin k1_t1_loop.trips)
    (init : IVec S16 32 × IVec S16 32 × IVec S16 32 × IVec S16 32) :
    Scf.Loop.for k1_t2_loop k1_t2_ok init
        (k1_t2_body (F := F) i arg2 harg2 arg3 harg3 arg4 harg4 arg5 harg5 v14_r0 v14_r1 v3 v6 v9 v10 v11 c0_i32_2 c1_i32_3 k1_t1)
      = .ret (Scf.fold (n := k1_t2_loop.trips) (tripG v3 v10 v11 (k1_pay158 v6 v9 c0_i32_2 c1_i32_3 k1_t1) (k1_pay159 v6 v9 c0_i32_2 c1_i32_3 k1_t1)
          (k1_pay160 v6 v9 c0_i32_2 c1_i32_3 k1_t1) (k1_pay161 v6 v9 c0_i32_2 c1_i32_3 k1_t1) 0#32 1#32) init) := by
  rw [t2_body_eq]
  exact Scf.for_pure _ _ _ _ _ _ _ (fun _ _ => rfl)

end Cert.TileIdeal

end
-- ==== Proof.TileIdeal.lean ====
/-
  The task of one vector subcore of the SparseCore kernel, once, at a symbolic place and generic in the float
  instance: the threshold array is copied into the subcore's own 16-word buffer and loaded; 136 groups of 64 rows are
  packed into the subcore's 8704-word buffer, sixteen rows at a time; the buffer is copied out into the subcore's
  slice of the result array.
-/
import proofs.«203736_g78743930405654_cont_9to1c4b_297_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203736_g78743930405654_cont_9to1c4b_297_23_alg».proof.Proof.Gen.KernelIdeal
import proofs.«203736_g78743930405654_cont_9to1c4b_297_23_alg».proof.Proof.Gen.KernelIdeal.Skeleton
import proofs.«203736_g78743930405654_cont_9to1c4b_297_23_alg».proof.Proof.Spec
import proofs.«203736_g78743930405654_cont_9to1c4b_297_23_alg».proof.Proof.TileIdealTrip

set_option pp.maxSteps 20000
set_option pp.deepTerms false

noncomputable section

namespace Cert.TileIdeal

open Cert.KernelIdeal Cert.KernelIdeal.Gen Cert.BitPack

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-! ## The resource algebra: any with a copy of the transfers' counters -/

variable {U : Type} [URA U] [CountersIn U]

local notation "𝕄" => MT nD τ sig (HIx 1) (Elt F) ℕ U ℕ

/-! ## The arrays and the subcore's own buffers -/

/-- The threshold array and the result array, as the TensorCore names them. -/
abbrev thLoc (d : Dev nD) : Loc nD τ sig := (SparseCore.T d).loc main_v11
abbrev oLoc (d : Dev nD) : Loc nD τ sig := (SparseCore.T d).loc main_v12

local notation "thV" => (Memref.whole Cert.KernelIdeal.main_v11_scv : Memref Cert.KernelIdeal.sig Kind.scVector Space.hbm Cert.KernelIdeal.S16 EltTy.i32)
local notation "oV" => (Memref.whole Cert.KernelIdeal.main_v12_scv : Memref Cert.KernelIdeal.sig Kind.scVector Space.hbm Cert.KernelIdeal.S278528 EltTy.i32)
local notation "sT" => (Memref.whole Cert.KernelIdeal.cc1_scratch0 : Memref Cert.KernelIdeal.sig Kind.scVector Space.vmem Cert.KernelIdeal.S16 EltTy.i32)
local notation "sB" => (Memref.whole Cert.KernelIdeal.cc1_scratch1 : Memref Cert.KernelIdeal.sig Kind.scVector Space.vmem Cert.KernelIdeal.S8704 EltTy.i32)

abbrev cV (L : grid1.Coords) : Fin τ.nSC := (L 0).castLE hcore1
abbrev jV (L : grid1.Coords) : Fin τ.nSub := (L 1).castLE hsub1

/-- The subcore's slice of the result array, as the program slices it. -/
abbrev oSlice (L : grid1.Coords) : Memref sig .scVector .hbm S8704 .i32 :=
  (oV).slice (Rect.unit (s := S278528) (k1_off2 L) S8704.size (k1_off2_inb L)) (fun _ => rfl)

/-- The elements of the result array the subcore at `L` writes: its slice's own view set. -/
abbrev rows (L : grid1.Coords) : Finset S278528.Idx := (oSlice L).view.set

variable (d : Dev nD) (L : grid1.Coords)

abbrev c0cell (d : Dev nD) (c : Fin τ.nSC) (i : Fin τ.nSub) : GSem nD τ sig := (V d c i, .dma cc1_scoped0.sem)
abbrev c1cell (d : Dev nD) (c : Fin τ.nSC) (i : Fin τ.nSub) : GSem nD τ sig := (V d c i, .dma cc1_scoped1.sem)

theorem ownSems0_V :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L))) fun g => semVal g 0) := by
  unfold SparseCore.Cfg.ownSems0
  rw [SparseCore.bigSep_erase' ((mem_ownCells (g := c0cell d (cV L) (jV L))).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc1_scoped1.sem : SemLoc sig).isScoped .scVector = true; decide⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_th (q : PosShare TreeShare) (f : Buf (Elt F) (thLoc d)) :
    ((thV).view.loc (V d (cV L) (jV L)) ↦{q} f : sProp 𝕄) = thLoc d ↦{q} f := rfl
theorem pts_o (f : Buf (Elt F) (oLoc d)) :
    ((oSlice L).view.loc (V d (cV L) (jV L)) ↦[(oSlice L).view.set]{fullShare} f : sProp 𝕄) = oLoc d ↦[rows L]{fullShare} f := rfl
theorem pts_sT (f : Buf (Elt F) ((V d (cV L) (jV L)).loc cc1_scratch0)) :
    ((sT).view.loc (V d (cV L) (jV L)) ↦{fullShare} f : sProp 𝕄) = (V d (cV L) (jV L)).loc cc1_scratch0 ↦{fullShare} f := rfl
theorem pts_sB (f : Buf (Elt F) ((V d (cV L) (jV L)).loc cc1_scratch1)) :
    ((sB).view.loc (V d (cV L) (jV L)) ↦{fullShare} f : sProp 𝕄) = (V d (cV L) (jV L)).loc cc1_scratch1 ↦{fullShare} f := rfl

variable [FloatOps F]

/-- The loop's invariant, contents forgotten: the subcore's row buffer whole. -/
def invW (_ : Nat) (_ : PUnit) : sProp 𝕄 :=
  iprop(∃ f, (sB).view.loc (V d (cV L) (jV L)) ↦{fullShare} f)

set_option maxHeartbeats 4000000 in
theorem tile_body_weak (hF : (K (F := F)).Facts) (O : CellTallies nD τ sig (HIx 1)) (W : Waits sig (HIx 1)) (hO : ∀ g, O g none = 0)
    (q : PosShare TreeShare) (fth : Buf (Elt F) (thLoc d)) (f₀ : Buf (Elt F) (oLoc d)) :
    iprop(levAts (K (F := F)).L (K (F := F)).lev ∗ (thLoc d ↦{q} fth) ∗ (oLoc d ↦[rows L]{fullShare} f₀)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_body L thV (Memref.isWhole_whole _) oV (Memref.isWhole_whole _) sT (Memref.isWhole_whole _) sB (Memref.isWhole_whole _) cc1_scoped0 cc1_scoped1)
          fun _ => iprop((thLoc d ↦{q} fth) ∗ (∃ f, oLoc d ↦[rows L]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, Hth, Ho, ⟨⟨%fs, Hs⟩, ⟨%fb, Hb⟩, Hbufs⟩, ⟨Hsem0, Hsem1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hth' := (Entails.of_eq (pts_th (F := F) d L _ _).symm) $$ Hth
  ihave Ho' := (Entails.of_eq (pts_o (F := F) d L _).symm) $$ Ho
  ihave Hs' := (Entails.of_eq (pts_sT (F := F) d L _).symm) $$ Hs
  ihave Hb' := (Entails.of_eq (pts_sB (F := F) d L _).symm) $$ Hb
  sl_exec
  sl_for (invW (F := F) (U := U) d L) $$ [Hb']
  case region =>
    intro k _
    unfold tile_body_weak.sl.prog.body_1
    unfold k1_t1_body
    rw [k1_part16_eq_skeleton]
    unfold k1_part16_skel
    rw [t2_loop_eq]
    unfold invW
    iintro ⟨%f, Hb⟩
    sl_exec
    sl_step
    iexists _; iexact Hb
  · unfold invW
    iexists _; iexact Hb'
  iintro %_ HI
  unfold invW
  icases HI with ⟨%f, Hb⟩
  sl_exec
  sl_step
  isplitl [Hth']; · iexact Hth'
  isplitl [Ho']; · iexists _; iexact Ho'
  isplitl [Hs' Hb Hbufs]
  · isplitl [Hs']; · iexists _; iexact Hs'
    isplitl [Hb]; · iexists _; iexact Hb
    iexact Hbufs
  isplitl [Hsem0 Hsem1 Hsems]
  · isplitl [Hsem0]; · iexact Hsem0
    isplitl [Hsem1]; · iexact Hsem1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.TileIdeal

end
-- ==== Proof.TileOblIdeal.lean ====
/-
  The vector subcores' obligation for the launch theorem: the task of tile (c, i), started on a read share of the
  threshold vector and on its own 8704 rows of the result array, ends with the share back and the rows at the
  result's function of the threshold word. Tile (c, i) has number 2 i + c; its slice of the result array starts at
  row 17408 i + 8704 c = 8704 (2 i + c), so the rows it writes are the block of rows of its number.
-/
import proofs.«203736_g78743930405654_cont_9to1c4b_297_23_alg».proof.Proof.PayIdeal
import proofs.«203736_g78743930405654_cont_9to1c4b_297_23_alg».proof.Proof.TileIdeal

noncomputable section

namespace Cert.LaunchIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 1) (Elt F) ℕ UU ℕ

/-! ## A tile's rows -/

/-- The grid coordinates of the tile on SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The tile's slice of the result array is the block of rows of its number. -/
theorem sliceRect_eq (a : Fin (grid1.bound 0)) (b : Fin (grid1.bound 1)) (w : Fin 32) (hw : w.val = 2 * b.val + a.val) :
    Rect.unit (s := S278528) (k1_off2 (coordsV a b)) S8704.size (k1_off2_inb (coordsV a b)) = tileRows w := by
  unfold tileRows Rect.part Rect.block
  congr 1 <;> funext x
  · rw [k1_off2_eq]
    match x with
    | 0 =>
      show 17408 * b.val + 8704 * a.val = Shape.partIx S278528 0 w.val 0 * Shape.partSize S278528 0 32 0
      simp only [Shape.partIx, Shape.partSize, ↓reduceIte]
      show 17408 * b.val + 8704 * a.val = w.val * (278528 / 32)
      omega
  · match x with
    | 0 => simp [Shape.partSize]

/-- The rows tile (c, i) writes are the block of rows of its number 2 i + c. -/
theorem rows_eq (c : Fin ((K (F := F)).nCore 0)) (i : Fin ((K (F := F)).nSub 0))
    (h0 : ((K (F := F)).core 0 c).val < grid1.bound 0) (h1 : ((K (F := F)).sub 0 i).val < grid1.bound 1) :
    Cert.TileIdeal.rows (coordsV ⟨((K (F := F)).core 0 c).val, h0⟩ ⟨((K (F := F)).sub 0 i).val, h1⟩) = tileSet (wid (F := F) c i) := by
  show ((View.whole main_v12_scv).slice (Rect.unit (s := S278528) (k1_off2 (coordsV ⟨((K (F := F)).core 0 c).val, h0⟩ ⟨((K (F := F)).sub 0 i).val, h1⟩))
    S8704.size (k1_off2_inb _))).set = _
  rw [View.set_slice_whole, sliceRect_eq ⟨((K (F := F)).core 0 c).val, h0⟩ ⟨((K (F := F)).sub 0 i).val, h1⟩ (wid (F := F) c i) rfl]

/-! ## The obligation -/

theorem defs₀_vector (c : Fin τ.nSC) (s : Fin τ.nSub) :
    defs₀ (F := F) (.scVector c s) 1 ()
      = SparseCore.onTile hcore1 hsub1 (fun c s => cc1__sc_body (coordsV c s)
          (Memref.whole main_v11_scv) (Memref.isWhole_whole _) (Memref.whole main_v12_scv) (Memref.isWhole_whole _)
          (Memref.whole cc1_scratch0) (Memref.isWhole_whole _) (Memref.whole cc1_scratch1) (Memref.isWhole_whole _) cc1_scoped0 cc1_scoped1) ⟨⟩ c s := rfl

theorem obl_post {thr : Thread nD τ} {A B C D' : sProp 𝕄} {O : CellTallies nD τ sig (HIx 1)} {W : Waits sig (HIx 1)} {q : Fin 1} :
    iprop(A ∗ B ∗ C ∗ D' ∗ ∃ W', ⌜∀ p ∈ W', p ∈ W ∨ p.2 = none⌝ ∗ owes thr O W')
      ⊢ iprop((A ∗ B) ∗ C ∗ D' ∗ ∃ W', ⌜∀ p ∈ W', p ∈ W ∨ p.2 = none ∨ p.2 = some q⌝ ∗ owes thr O W') := by
  iintro ⟨HA, HB, HC, HD, %W', %hW', HO⟩
  isplitl [HA HB]
  · isplitl [HA]; · iexact HA
    iexact HB
  isplitl [HC]; · iexact HC
  isplitl [HD]; · iexact HD
  iexists W'; isplitr
  · ipureintro; exact fun p hp => (hW' p hp).imp_right Or.inl
  · iexact HO

theorem obl_pre {L A B C D' E : sProp 𝕄} : iprop(L ∗ emp ∗ (A ∗ B) ∗ C ∗ D' ∗ E) ⊢ iprop(L ∗ A ∗ B ∗ C ∗ D' ∗ E) := by
  iintro ⟨HL, -, ⟨HA, HB⟩, HC, HD, HE⟩
  isplitl [HL]; · iexact HL
  isplitl [HA]; · iexact HA
  isplitl [HB]; · iexact HB
  isplitl [HC]; · iexact HC
  isplitl [HD]; · iexact HD
  iexact HE

variable (m : (ℓ : Loc nD τ sig) → Buf (Elt F) ℓ)

/-- From the task of one vector subcore at a symbolic place — the threshold vector at a constant word `th` read
    through any share, the subcore's rows ending at the result's function of `th` — to the launch theorem's obligation
    for the call's tiles. -/
theorem tileObl_of
    (htb : ∀ (d : Dev nD) (L : grid1.Coords) (O : CellTallies nD τ sig (HIx 1)) (W : Waits sig (HIx 1)) (hO : ∀ g, O g none = 0)
      (q : PosShare TreeShare) (th : BitVec 32) (f₀ : Buf (Elt F) (oLoc d)),
      iprop(levAts (K (F := F)).L (K (F := F)).lev ∗ (thLoc d ↦{q} (fun _ => th : Buf (Elt F) (thLoc d))) ∗ (oLoc d ↦[Cert.TileIdeal.rows L]{fullShare} f₀)
          ∗ scopedBufs (V d (Cert.TileIdeal.cV L) (Cert.TileIdeal.jV L)) ∗ scopedSems0 (V d (Cert.TileIdeal.cV L) (Cert.TileIdeal.jV L))
          ∗ owes (V d (Cert.TileIdeal.cV L) (Cert.TileIdeal.jV L)) O W)
        ⊢ (wp frame (wpE (defs₀ (F := F)) 𝒱₀ (V d (Cert.TileIdeal.cV L) (Cert.TileIdeal.jV L)) none) Set.univ
            (cc1__sc_body L (Memref.whole main_v11_scv) (Memref.isWhole_whole _) (Memref.whole main_v12_scv) (Memref.isWhole_whole _)
              (Memref.whole cc1_scratch0) (Memref.isWhole_whole _) (Memref.whole cc1_scratch1) (Memref.isWhole_whole _) cc1_scoped0 cc1_scoped1)
            fun _ => iprop((thLoc d ↦{q} (fun _ => th : Buf (Elt F) (thLoc d))) ∗ (oLoc d ↦[Cert.TileIdeal.rows L]{fullShare} (outSC th : Buf (Elt F) (oLoc d)))
              ∗ scopedBufs (V d (Cert.TileIdeal.cV L) (Cert.TileIdeal.jV L)) ∗ scopedSems0 (V d (Cert.TileIdeal.cV L) (Cert.TileIdeal.jV L))
              ∗ ∃ W', ⌜∀ p ∈ W', p ∈ W ∨ p.2 = none⌝ ∗ owes (V d (Cert.TileIdeal.cV L) (Cert.TileIdeal.jV L)) O W') : sProp 𝕄)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hrows := rows_eq (F := F) c i hc.1 hc.2
  have hth : (thVec (pOf m d) : Buf (Elt F) (thLoc d)) = fun _ => thW (pOf m d) := thVec_eq _
  show iprop(levAts (K (F := F)).L (K (F := F)).lev ∗ emp ∗ tilePay d (thVec (pOf m d)) (wid c i) (m (oLoc d)) ∗ _ ∗ _ ∗ _) ⊢ wp _ _ _ _
    fun _ => iprop(tilePay d (thVec (pOf m d)) (wid c i) (outSC (thW (pOf m d))) ∗ _ ∗ _ ∗ _)
  unfold tilePay
  rw [hth, ← hrows]
  exact obl_pre.trans ((htb d (coordsV ⟨_, hc.1⟩ ⟨_, hc.2⟩) O W hO (Transfers.shareTokN fullShare (wid (F := F) c i).val) (thW (pOf m d)) (m (oLoc d))).trans
    (wp_mono frame _ _ fun _ => obl_post))

end Cert.LaunchIdeal

end
-- ==== Proof.TileBitsTrip.lean ====
/-
  One trip of the packing loop of the SparseCore kernel, as a pure function: the four accumulators each take, by a
  lanewise or, their sub-block's contribution of sample `j` — the bit `1 <<< j` on the lanes whose counter's 23-bit
  integer is below the threshold. The printed trip is the return of that function by definitional unfolding.
-/
import Idealize.ShloMosaic.Lib.Tactic
import proofs.«203736_g78743930405654_cont_9to1c4b_297_23_alg».proof.Proof.Gen.Kernel.Skeleton
import proofs.«203736_g78743930405654_cont_9to1c4b_297_23_alg».proof.Proof.LibBitPack

noncomputable section

namespace Cert.TileBits

open Cert.Kernel Cert.Kernel.Gen Cert.BitPack
open Idealize.ShloMosaic Idealize.SL.Sem Idealize.ShloMosaic.Tactic

variable {F : FTy → Type} [FloatOps F]

set_option maxRecDepth 65536 in
/-- The trip's 888 statements compute, for each of the four sub-blocks, the accumulator or-ed with the sample's
    contribution (the last accumulator's or is the loop's own yield). -/
theorem part15_eq (i : grid1.Coords) (arg2 : Memref sig .scVector .hbm S16 .i32) (harg2 : arg2.IsWhole) (arg3 : Memref sig .scVector .hbm S278528 .i32) (harg3 : arg3.IsWhole) (arg4 : Memref sig .scVector .vmem S16 .i32) (harg4 : arg4.IsWhole) (arg5 : Memref sig .scVector .vmem S8704 .i32) (harg5 : arg5.IsWhole) (v14_r0 : DmaSems sig S_) (v14_r1 : DmaSems sig S_) (v3 : IVec S16 32) (v10 : IVec S16 32) (v11 : IVec S16 32) (v18 : IVec S16 32) (v21 : IVec S16 32) (v24 : IVec S16 32) (v27 : IVec S16 32) (c0 c1 : BitVec 32) (k : Fin k1_t2_loop.trips) (arg8 : IVec S16 32) (arg9 : IVec S16 32) (arg10 : IVec S16 32) :
    k1_part15 (F := F) i arg2 harg2 arg3 harg3 arg4 harg4 arg5 harg5 v14_r0 v14_r1 v3 v10 v11 v18 v21 v24 v27 c0 c1 k arg8 arg9 arg10
      = .ret ⟨ori arg8 (vsel v3 v10 (shli v11 (broadcast S16 (Scf.iv c0 c1 k))) (addi v18 (broadcast S16 (Scf.iv c0 c1 k)))),
              ori arg9 (vsel v3 v10 (shli v11 (broadcast S16 (Scf.iv c0 c1 k))) (addi v21 (broadcast S16 (Scf.iv c0 c1 k)))),
              ori arg10 (vsel v3 v10 (shli v11 (broadcast S16 (Scf.iv c0 c1 k))) (addi v24 (broadcast S16 (Scf.iv c0 c1 k)))),
              vsel v3 v10 (shli v11 (broadcast S16 (Scf.iv c0 c1 k))) (addi v27 (broadcast S16 (Scf.iv c0 c1 k)))⟩ := by
  sl_kernel_rfl

/-- One trip of the packing loop on the four accumulators, as a function: sample `Scf.iv c0 c1 k`'s contribution
    of each sub-block or-ed into its accumulator. -/
def tripG (T Z O l0 l1 l2 l3 : IVec S16 32) (c0 c1 : BitVec 32) {n : Nat} (k : Fin n)
    (x : IVec S16 32 × IVec S16 32 × IVec S16 32 × IVec S16 32) : IVec S16 32 × IVec S16 32 × IVec S16 32 × IVec S16 32 :=
  (ori x.1 (vsel T Z (shli O (broadcast S16 (Scf.iv c0 c1 k))) (addi l0 (broadcast S16 (Scf.iv c0 c1 k)))),
   ori x.2.1 (vsel T Z (shli O (broadcast S16 (Scf.iv c0 c1 k))) (addi l1 (broadcast S16 (Scf.iv c0 c1 k)))),
   ori x.2.2.1 (vsel T Z (shli O (broadcast S16 (Scf.iv c0 c1 k))) (addi l2 (broadcast S16 (Scf.iv c0 c1 k)))),
   ori x.2.2.2 (vsel T Z (shli O (broadcast S16 (Scf.iv c0 c1 k))) (addi l3 (broadcast S16 (Scf.iv c0 c1 k)))))

/-- The loop's region is the return of `tripG`. -/
theorem t2_body_eq (i : grid1.Coords) (arg2 : Memref sig .scVector .hbm S16 .i32) (harg2 : arg2.IsWhole) (arg3 : Memref sig .scVector .hbm S278528 .i32) (harg3 : arg3.IsWhole) (arg4 : Memref sig .scVector .vmem S16 .i32) (harg4 : arg4.IsWhole) (arg5 : Memref sig .scVector .vmem S8704 .i32) (harg5 : arg5.IsWhole) (v14_r0 : DmaSems sig S_) (v14_r1 : DmaSems sig S_) (v3 : IVec S16 32) (v6 : IVec S16 32) (v9 : BitVec 32) (v10 : IVec S16 32) (v11 : IVec S16 32) (c0_i32_2 : BitVec 32) (c1_i32_3 : BitVec 32) (k1_t1 : Fin k1_t1_loop.trips) :
    k1_t2_body (F := F) i arg2 harg2 arg3 harg3 arg4 harg4 arg5 harg5 v14_r0 v14_r1 v3 v6 v9 v10 v11 c0_i32_2 c1_i32_3 k1_t1
      = fun k x => .ret (tripG v3 v10 v11 (k1_pay158 v6 v9 c0_i32_2 c1_i32_3 k1_t1) (k1_pay159 v6 v9 c0_i32_2 c1_i32_3 k1_t1)
          (k1_pay160 v6 v9 c0_i32_2 c1_i32_3 k1_t1) (k1_pay161 v6 v9 c0_i32_2 c1_i32_3 k1_t1) 0#32 1#32 k x) := by
  funext k x
  obtain ⟨a8, a9, a10, a11⟩ := x
  unfold k1_t2_body
  simp only [part15_eq]
  rfl

/-- The packing loop is the return of the fold of `tripG` over its trips. -/
theorem t2_loop_eq (i : grid1.Coords) (arg2 : Memref sig .scVector .hbm S16 .i32) (harg2 : arg2.IsWhole) (arg3 : Memref sig .scVector .hbm S278528 .i32) (harg3 : arg3.IsWhole) (arg4 : Memref sig .scVector .vmem S16 .i32) (harg4 : arg4.IsWhole) (arg5 : Memref sig .scVector .vmem S8704 .i32) (harg5 : arg5.IsWhole) (v14_r0 : DmaSems sig S_) (v14_r1 : DmaSems sig S_) (v3 : IVec S16 32) (v6 : IVec S16 32) (v9 : BitVec 32) (v10 : IVec S16 32) (v11 : IVec S16 32) (c0_i32_2 : BitVec 32) (c1_i32_3 : BitVec 32) (k1_t1 : Fin k1_t1_loop.trips)
    (init : IVec S16 32 × IVec S16 32 × IVec S16 32 × IVec S16 32) :
    Scf.Loop.for k1_t2_loop k1_t2_ok init
        (k1_t2_body (F := F) i arg2 harg2 arg3 harg3 arg4 harg4 arg5 harg5 v14_r0 v14_r1 v3 v6 v9 v10 v11 c0_i32_2 c1_i32_3 k1_t1)
      = .ret (Scf.fold (n := k1_t2_loop.trips) (tripG v3 v10 v11 (k1_pay158 v6 v9 c0_i32_2 c1_i32_3 k1_t1) (k1_pay159 v6 v9 c0_i32_2 c1_i32_3 k1_t1)
          (k1_pay160 v6 v9 c0_i32_2 c1_i32_3 k1_t1) (k1_pay161 v6 v9 c0_i32_2 c1_i32_3 k1_t1) 0#32 1#32) init) := by
  rw [t2_body_eq]
  exact Scf.for_pure _ _ _ _ _ _ _ (fun _ _ => rfl)

end Cert.TileBits

end
-- ==== Proof.TileBits.lean ====
/-
  The task of one vector subcore of the SparseCore kernel, once, at a symbolic place and generic in the float
  instance: the threshold array is copied into the subcore's own 16-word buffer and loaded; 136 groups of 64 rows are
  packed into the subcore's 8704-word buffer, sixteen rows at a time; the buffer is copied out into the subcore's
  slice of the result array.
-/
import proofs.«203736_g78743930405654_cont_9to1c4b_297_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203736_g78743930405654_cont_9to1c4b_297_23_alg».proof.Proof.Gen.Kernel
import proofs.«203736_g78743930405654_cont_9to1c4b_297_23_alg».proof.Proof.Gen.Kernel.Skeleton
import proofs.«203736_g78743930405654_cont_9to1c4b_297_23_alg».proof.Proof.Spec
import proofs.«203736_g78743930405654_cont_9to1c4b_297_23_alg».proof.Proof.TileBitsTrip

set_option pp.maxSteps 20000
set_option pp.deepTerms false

noncomputable section

namespace Cert.TileBits

open Cert.Kernel Cert.Kernel.Gen Cert.BitPack

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-! ## The resource algebra: any with a copy of the transfers' counters -/

variable {U : Type} [URA U] [CountersIn U]

local notation "𝕄" => MT nD τ sig (HIx 1) (Elt F) ℕ U ℕ

/-! ## The arrays and the subcore's own buffers -/

/-- The threshold array and the result array, as the TensorCore names them. -/
abbrev thLoc (d : Dev nD) : Loc nD τ sig := (SparseCore.T d).loc main_v11
abbrev oLoc (d : Dev nD) : Loc nD τ sig := (SparseCore.T d).loc main_v12

local notation "thV" => (Memref.whole Cert.Kernel.main_v11_scv : Memref Cert.Kernel.sig Kind.scVector Space.hbm Cert.Kernel.S16 EltTy.i32)
local notation "oV" => (Memref.whole Cert.Kernel.main_v12_scv : Memref Cert.Kernel.sig Kind.scVector Space.hbm Cert.Kernel.S278528 EltTy.i32)
local notation "sT" => (Memref.whole Cert.Kernel.cc1_scratch0 : Memref Cert.Kernel.sig Kind.scVector Space.vmem Cert.Kernel.S16 EltTy.i32)
local notation "sB" => (Memref.whole Cert.Kernel.cc1_scratch1 : Memref Cert.Kernel.sig Kind.scVector Space.vmem Cert.Kernel.S8704 EltTy.i32)

abbrev cV (L : grid1.Coords) : Fin τ.nSC := (L 0).castLE hcore1
abbrev jV (L : grid1.Coords) : Fin τ.nSub := (L 1).castLE hsub1

/-- The subcore's slice of the result array, as the program slices it. -/
abbrev oSlice (L : grid1.Coords) : Memref sig .scVector .hbm S8704 .i32 :=
  (oV).slice (Rect.unit (s := S278528) (k1_off2 L) S8704.size (k1_off2_inb L)) (fun _ => rfl)

/-- The elements of the result array the subcore at `L` writes: its slice's own view set. -/
abbrev rows (L : grid1.Coords) : Finset S278528.Idx := (oSlice L).view.set

variable (d : Dev nD) (L : grid1.Coords)

abbrev c0cell (d : Dev nD) (c : Fin τ.nSC) (i : Fin τ.nSub) : GSem nD τ sig := (V d c i, .dma cc1_scoped0.sem)
abbrev c1cell (d : Dev nD) (c : Fin τ.nSC) (i : Fin τ.nSub) : GSem nD τ sig := (V d c i, .dma cc1_scoped1.sem)

theorem ownSems0_V :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L))) fun g => semVal g 0) := by
  unfold SparseCore.Cfg.ownSems0
  rw [SparseCore.bigSep_erase' ((mem_ownCells (g := c0cell d (cV L) (jV L))).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc1_scoped1.sem : SemLoc sig).isScoped .scVector = true; decide⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_th (q : PosShare TreeShare) (f : Buf (Elt F) (thLoc d)) :
    ((thV).view.loc (V d (cV L) (jV L)) ↦{q} f : sProp 𝕄) = thLoc d ↦{q} f := rfl
theorem pts_o (f : Buf (Elt F) (oLoc d)) :
    ((oSlice L).view.loc (V d (cV L) (jV L)) ↦[(oSlice L).view.set]{fullShare} f : sProp 𝕄) = oLoc d ↦[rows L]{fullShare} f := rfl
theorem pts_sT (f : Buf (Elt F) ((V d (cV L) (jV L)).loc cc1_scratch0)) :
    ((sT).view.loc (V d (cV L) (jV L)) ↦{fullShare} f : sProp 𝕄) = (V d (cV L) (jV L)).loc cc1_scratch0 ↦{fullShare} f := rfl
theorem pts_sB (f : Buf (Elt F) ((V d (cV L) (jV L)).loc cc1_scratch1)) :
    ((sB).view.loc (V d (cV L) (jV L)) ↦{fullShare} f : sProp 𝕄) = (V d (cV L) (jV L)).loc cc1_scratch1 ↦{fullShare} f := rfl

variable [FloatOps F]

/-- The loop's invariant, contents forgotten: the subcore's row buffer whole. -/
def invW (_ : Nat) (_ : PUnit) : sProp 𝕄 :=
  iprop(∃ f, (sB).view.loc (V d (cV L) (jV L)) ↦{fullShare} f)

set_option maxHeartbeats 4000000 in
theorem tile_body_weak (hF : (K (F := F)).Facts) (O : CellTallies nD τ sig (HIx 1)) (W : Waits sig (HIx 1)) (hO : ∀ g, O g none = 0)
    (q : PosShare TreeShare) (fth : Buf (Elt F) (thLoc d)) (f₀ : Buf (Elt F) (oLoc d)) :
    iprop(levAts (K (F := F)).L (K (F := F)).lev ∗ (thLoc d ↦{q} fth) ∗ (oLoc d ↦[rows L]{fullShare} f₀)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_body L thV (Memref.isWhole_whole _) oV (Memref.isWhole_whole _) sT (Memref.isWhole_whole _) sB (Memref.isWhole_whole _) cc1_scoped0 cc1_scoped1)
          fun _ => iprop((thLoc d ↦{q} fth) ∗ (∃ f, oLoc d ↦[rows L]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, Hth, Ho, ⟨⟨%fs, Hs⟩, ⟨%fb, Hb⟩, Hbufs⟩, ⟨Hsem0, Hsem1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hth' := (Entails.of_eq (pts_th (F := F) d L _ _).symm) $$ Hth
  ihave Ho' := (Entails.of_eq (pts_o (F := F) d L _).symm) $$ Ho
  ihave Hs' := (Entails.of_eq (pts_sT (F := F) d L _).symm) $$ Hs
  ihave Hb' := (Entails.of_eq (pts_sB (F := F) d L _).symm) $$ Hb
  sl_exec
  sl_for (invW (F := F) (U := U) d L) $$ [Hb']
  case region =>
    intro k _
    unfold tile_body_weak.sl.prog.body_1
    unfold k1_t1_body
    rw [k1_part16_eq_skeleton]
    unfold k1_part16_skel
    rw [t2_loop_eq]
    unfold invW
    iintro ⟨%f, Hb⟩
    sl_exec
    sl_step
    iexists _; iexact Hb
  · unfold invW
    iexists _; iexact Hb'
  iintro %_ HI
  unfold invW
  icases HI with ⟨%f, Hb⟩
  sl_exec
  sl_step
  isplitl [Hth']; · iexact Hth'
  isplitl [Ho']; · iexists _; iexact Ho'
  isplitl [Hs' Hb Hbufs]
  · isplitl [Hs']; · iexists _; iexact Hs'
    isplitl [Hb]; · iexists _; iexact Hb
    iexact Hbufs
  isplitl [Hsem0 Hsem1 Hsems]
  · isplitl [Hsem0]; · iexact Hsem0
    isplitl [Hsem1]; · iexact Hsem1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.TileBits

end
-- ==== Proof.TileOblBits.lean ====
/-
  The vector subcores' obligation for the launch theorem: the task of tile (c, i), started on a read share of the
  threshold vector and on its own 8704 rows of the result array, ends with the share back and the rows at the
  result's function of the threshold word. Tile (c, i) has number 2 i + c; its slice of the result array starts at
  row 17408 i + 8704 c = 8704 (2 i + c), so the rows it writes are the block of rows of its number.
-/
import proofs.«203736_g78743930405654_cont_9to1c4b_297_23_alg».proof.Proof.PayBits
import proofs.«203736_g78743930405654_cont_9to1c4b_297_23_alg».proof.Proof.TileBits

noncomputable section

namespace Cert.LaunchBits

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 1) (Elt F) ℕ UU ℕ

/-! ## A tile's rows -/

/-- The grid coordinates of the tile on SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The tile's slice of the result array is the block of rows of its number. -/
theorem sliceRect_eq (a : Fin (grid1.bound 0)) (b : Fin (grid1.bound 1)) (w : Fin 32) (hw : w.val = 2 * b.val + a.val) :
    Rect.unit (s := S278528) (k1_off2 (coordsV a b)) S8704.size (k1_off2_inb (coordsV a b)) = tileRows w := by
  unfold tileRows Rect.part Rect.block
  congr 1 <;> funext x
  · rw [k1_off2_eq]
    match x with
    | 0 =>
      show 17408 * b.val + 8704 * a.val = Shape.partIx S278528 0 w.val 0 * Shape.partSize S278528 0 32 0
      simp only [Shape.partIx, Shape.partSize, ↓reduceIte]
      show 17408 * b.val + 8704 * a.val = w.val * (278528 / 32)
      omega
  · match x with
    | 0 => simp [Shape.partSize]

/-- The rows tile (c, i) writes are the block of rows of its number 2 i + c. -/
theorem rows_eq (c : Fin ((K (F := F)).nCore 0)) (i : Fin ((K (F := F)).nSub 0))
    (h0 : ((K (F := F)).core 0 c).val < grid1.bound 0) (h1 : ((K (F := F)).sub 0 i).val < grid1.bound 1) :
    Cert.TileBits.rows (coordsV ⟨((K (F := F)).core 0 c).val, h0⟩ ⟨((K (F := F)).sub 0 i).val, h1⟩) = tileSet (wid (F := F) c i) := by
  show ((View.whole main_v12_scv).slice (Rect.unit (s := S278528) (k1_off2 (coordsV ⟨((K (F := F)).core 0 c).val, h0⟩ ⟨((K (F := F)).sub 0 i).val, h1⟩))
    S8704.size (k1_off2_inb _))).set = _
  rw [View.set_slice_whole, sliceRect_eq ⟨((K (F := F)).core 0 c).val, h0⟩ ⟨((K (F := F)).sub 0 i).val, h1⟩ (wid (F := F) c i) rfl]

/-! ## The obligation -/

theorem defs₀_vector (c : Fin τ.nSC) (s : Fin τ.nSub) :
    defs₀ (F := F) (.scVector c s) 1 ()
      = SparseCore.onTile hcore1 hsub1 (fun c s => cc1__sc_body (coordsV c s)
          (Memref.whole main_v11_scv) (Memref.isWhole_whole _) (Memref.whole main_v12_scv) (Memref.isWhole_whole _)
          (Memref.whole cc1_scratch0) (Memref.isWhole_whole _) (Memref.whole cc1_scratch1) (Memref.isWhole_whole _) cc1_scoped0 cc1_scoped1) ⟨⟩ c s := rfl

theorem obl_post {thr : Thread nD τ} {A B C D' : sProp 𝕄} {O : CellTallies nD τ sig (HIx 1)} {W : Waits sig (HIx 1)} {q : Fin 1} :
    iprop(A ∗ B ∗ C ∗ D' ∗ ∃ W', ⌜∀ p ∈ W', p ∈ W ∨ p.2 = none⌝ ∗ owes thr O W')
      ⊢ iprop((A ∗ B) ∗ C ∗ D' ∗ ∃ W', ⌜∀ p ∈ W', p ∈ W ∨ p.2 = none ∨ p.2 = some q⌝ ∗ owes thr O W') := by
  iintro ⟨HA, HB, HC, HD, %W', %hW', HO⟩
  isplitl [HA HB]
  · isplitl [HA]; · iexact HA
    iexact HB
  isplitl [HC]; · iexact HC
  isplitl [HD]; · iexact HD
  iexists W'; isplitr
  · ipureintro; exact fun p hp => (hW' p hp).imp_right Or.inl
  · iexact HO

theorem obl_pre {L A B C D' E : sProp 𝕄} : iprop(L ∗ emp ∗ (A ∗ B) ∗ C ∗ D' ∗ E) ⊢ iprop(L ∗ A ∗ B ∗ C ∗ D' ∗ E) := by
  iintro ⟨HL, -, ⟨HA, HB⟩, HC, HD, HE⟩
  isplitl [HL]; · iexact HL
  isplitl [HA]; · iexact HA
  isplitl [HB]; · iexact HB
  isplitl [HC]; · iexact HC
  isplitl [HD]; · iexact HD
  iexact HE

variable (m : (ℓ : Loc nD τ sig) → Buf (Elt F) ℓ)

/-- From the task of one vector subcore at a symbolic place — the threshold vector at a constant word `th` read
    through any share, the subcore's rows ending at the result's function of `th` — to the launch theorem's obligation
    for the call's tiles. -/
theorem tileObl_of
    (htb : ∀ (d : Dev nD) (L : grid1.Coords) (O : CellTallies nD τ sig (HIx 1)) (W : Waits sig (HIx 1)) (hO : ∀ g, O g none = 0)
      (q : PosShare TreeShare) (th : BitVec 32) (f₀ : Buf (Elt F) (oLoc d)),
      iprop(levAts (K (F := F)).L (K (F := F)).lev ∗ (thLoc d ↦{q} (fun _ => th : Buf (Elt F) (thLoc d))) ∗ (oLoc d ↦[Cert.TileBits.rows L]{fullShare} f₀)
          ∗ scopedBufs (V d (Cert.TileBits.cV L) (Cert.TileBits.jV L)) ∗ scopedSems0 (V d (Cert.TileBits.cV L) (Cert.TileBits.jV L))
          ∗ owes (V d (Cert.TileBits.cV L) (Cert.TileBits.jV L)) O W)
        ⊢ (wp frame (wpE (defs₀ (F := F)) 𝒱₀ (V d (Cert.TileBits.cV L) (Cert.TileBits.jV L)) none) Set.univ
            (cc1__sc_body L (Memref.whole main_v11_scv) (Memref.isWhole_whole _) (Memref.whole main_v12_scv) (Memref.isWhole_whole _)
              (Memref.whole cc1_scratch0) (Memref.isWhole_whole _) (Memref.whole cc1_scratch1) (Memref.isWhole_whole _) cc1_scoped0 cc1_scoped1)
            fun _ => iprop((thLoc d ↦{q} (fun _ => th : Buf (Elt F) (thLoc d))) ∗ (oLoc d ↦[Cert.TileBits.rows L]{fullShare} (outSC th : Buf (Elt F) (oLoc d)))
              ∗ scopedBufs (V d (Cert.TileBits.cV L) (Cert.TileBits.jV L)) ∗ scopedSems0 (V d (Cert.TileBits.cV L) (Cert.TileBits.jV L))
              ∗ ∃ W', ⌜∀ p ∈ W', p ∈ W ∨ p.2 = none⌝ ∗ owes (V d (Cert.TileBits.cV L) (Cert.TileBits.jV L)) O W') : sProp 𝕄)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hrows := rows_eq (F := F) c i hc.1 hc.2
  have hth : (thVec (pOf m d) : Buf (Elt F) (thLoc d)) = fun _ => thW (pOf m d) := thVec_eq _
  show iprop(levAts (K (F := F)).L (K (F := F)).lev ∗ emp ∗ tilePay d (thVec (pOf m d)) (wid c i) (m (oLoc d)) ∗ _ ∗ _ ∗ _) ⊢ wp _ _ _ _
    fun _ => iprop(tilePay d (thVec (pOf m d)) (wid c i) (outSC (thW (pOf m d))) ∗ _ ∗ _ ∗ _)
  unfold tilePay
  rw [hth, ← hrows]
  exact obl_pre.trans ((htb d (coordsV ⟨_, hc.1⟩ ⟨_, hc.2⟩) O W hO (Transfers.shareTokN fullShare (wid (F := F) c i).val) (thW (pOf m d)) (m (oLoc d))).trans
    (wp_mono frame _ _ fun _ => obl_post))

end Cert.LaunchBits

end
-- ==== Proof.LibBitPackSum.lean ====
/-
  Packing Boolean samples into one 32-bit word: a sum of distinct powers of two is their bitwise or.

  Sample `j` (for `j < 32`) contributes the word `1 <<< j` when it is drawn and `0` otherwise. Two different
  samples contribute to different bit positions, so adding a new contribution to the sum of earlier ones never
  carries: the sum of the first `k` contributions is also their bitwise or, and bit `i` of it is sample `i` when
  `i < k` and clear otherwise. In particular an accumulator that starts at zero and takes `acc ||| contribution j`
  for `j = 0, 1, …` holds the partial sum after every step, and after 32 steps it holds the packed word.
-/
import Mathlib.Data.BitVec
import Mathlib.Algebra.BigOperators.Fin
import proofs.«203736_g78743930405654_cont_9to1c4b_297_23_alg».proof.Proof.Spec

namespace Cert.BitPackSum

/-- The contribution of sample `j`: the power of two `1 <<< j` when the sample is drawn, else zero. -/
def contrib (bs : Nat → Bool) (j : Nat) : BitVec 32 := if bs j then 1#32 <<< j else 0#32

/-- The sum of the first `k` contributions, `Σ_{j < k} contrib bs j`. -/
def partialSum (bs : Nat → Bool) (k : Nat) : BitVec 32 := ((List.range k).map (contrib bs)).sum

/-- The empty sum is zero. -/
theorem partialSum_zero (bs : Nat → Bool) : partialSum bs 0 = 0#32 := by
  simp [partialSum]

/-- One more term: `Σ_{j < k+1} = Σ_{j < k} + contrib k`. -/
theorem partialSum_succ (bs : Nat → Bool) (k : Nat) :
    partialSum bs (k + 1) = partialSum bs k + contrib bs k := by
  simp [partialSum, List.range_succ, List.sum_append]

/-- Bit `i` of the contribution of sample `j` is set exactly when the sample is drawn, `i = j` and `i < 32`. -/
theorem getLsbD_contrib (bs : Nat → Bool) (j i : Nat) :
    (contrib bs j).getLsbD i = (bs j && decide (i = j) && decide (i < 32)) := by
  unfold contrib
  cases hb : bs j
  · simp
  · by_cases h1 : i < 32 <;> by_cases h2 : i = j <;> by_cases h3 : i < j <;>
      simp [BitVec.getLsbD_shiftLeft, BitVec.getLsbD_one, h1, h2, h3] <;> omega

/-- For `k ≤ 32`, bit `i` of the sum of the first `k` contributions is sample `i` when `i < k`, and clear
    otherwise: the contributions occupy distinct bit positions, so the sum never carries. -/
theorem getLsbD_partialSum (bs : Nat → Bool) (k : Nat) (hk : k ≤ 32) (i : Nat) :
    (partialSum bs k).getLsbD i = (decide (i < k) && bs i) := by
  induction k generalizing i with
  | zero => simp [partialSum_zero]
  | succ k ih =>
    have ihk := ih (by omega)
    have hdisj : partialSum bs k &&& contrib bs k = 0#32 := by
      apply BitVec.eq_of_getLsbD_eq
      intro t _
      rw [BitVec.getLsbD_and, ihk, getLsbD_contrib]
      by_cases h1 : t < k <;> by_cases h2 : t = k <;> simp [h1, h2] <;> omega
    rw [partialSum_succ, BitVec.add_eq_or_of_and_eq_zero _ _ hdisj, BitVec.getLsbD_or, ihk, getLsbD_contrib]
    by_cases h1 : i < k <;> by_cases h2 : i = k
    · omega
    · have : i < k + 1 := by omega
      simp [h1, h2, this]
    · subst h2
      have : i < 32 := by omega
      simp [this]
    · have : ¬ i < k + 1 := by omega
      simp [h1, h2, this]

/-- The sum of the first `k ≤ 32` contributions and the next contribution share no bit. -/
theorem partialSum_and_contrib (bs : Nat → Bool) (k : Nat) (hk : k ≤ 32) :
    partialSum bs k &&& contrib bs k = 0#32 := by
  apply BitVec.eq_of_getLsbD_eq
  intro t _
  rw [BitVec.getLsbD_and, getLsbD_partialSum bs k hk, getLsbD_contrib]
  by_cases h1 : t < k <;> by_cases h2 : t = k <;> simp [h1, h2] <;> omega

/-- One more term, as an or: for `k ≤ 32`, `Σ_{j < k+1} = (Σ_{j < k}) ||| contrib k`. -/
theorem partialSum_succ_or (bs : Nat → Bool) (k : Nat) (hk : k ≤ 32) :
    partialSum bs (k + 1) = partialSum bs k ||| contrib bs k := by
  rw [partialSum_succ, BitVec.add_eq_or_of_and_eq_zero _ _ (partialSum_and_contrib bs k hk)]

/-- The sum of the first `k ≤ 32` contributions is their bitwise or, folded from the left from zero. -/
theorem partialSum_eq_foldl_or (bs : Nat → Bool) (k : Nat) (hk : k ≤ 32) :
    partialSum bs k = ((List.range k).map (contrib bs)).foldl (· ||| ·) 0#32 := by
  induction k with
  | zero => simp [partialSum_zero]
  | succ k ih =>
    rw [partialSum_succ_or bs k (by omega), ih (by omega)]
    simp [List.range_succ, List.foldl_append]

/-- An accumulator that starts at zero and is updated by `acc ||| contrib j` at step `j` holds, after `k ≤ 32`
    steps, the sum of the first `k` contributions. -/
theorem acc_eq_partialSum (bs : Nat → Bool) (acc : Nat → BitVec 32) (h0 : acc 0 = 0#32)
    (hstep : ∀ k, k < 32 → acc (k + 1) = acc k ||| contrib bs k) (k : Nat) (hk : k ≤ 32) :
    acc k = partialSum bs k := by
  induction k with
  | zero => rw [h0, partialSum_zero]
  | succ k ih => rw [hstep k (by omega), ih (by omega), partialSum_succ_or bs k (by omega)]

/-- The sum of the first `k` contributions as a sum over the finite set `{0, …, k-1}`. -/
theorem partialSum_eq_finset_sum (bs : Nat → Bool) (k : Nat) :
    partialSum bs k = ∑ j ∈ Finset.range k, contrib bs j := by
  induction k with
  | zero => simp [partialSum_zero]
  | succ k ih => rw [partialSum_succ, Finset.sum_range_succ, ih]

/-- The same sum over the index type `Fin k`. -/
theorem partialSum_eq_sum_fin (bs : Nat → Bool) (k : Nat) :
    partialSum bs k = ∑ j : Fin k, contrib bs j := by
  rw [partialSum_eq_finset_sum, Finset.sum_range]

/-- The whole word (all 32 samples): bit `i` is sample `i` for `i < 32`, and there are no other bits. -/
theorem getLsbD_partialSum_32 (bs : Nat → Bool) (i : Nat) :
    (partialSum bs 32).getLsbD i = (decide (i < 32) && bs i) :=
  getLsbD_partialSum bs 32 (le_refl _) i

/-- Two families of samples that agree below `k` have the same sum of their first `k` contributions. -/
theorem partialSum_congr (bs bs' : Nat → Bool) (k : Nat) (h : ∀ j, j < k → bs j = bs' j) :
    partialSum bs k = partialSum bs' k := by
  unfold partialSum
  congr 1
  apply List.map_congr_left
  intro j hj
  have hj' : j < k := List.mem_range.mp hj
  unfold contrib
  rw [h j hj']

/-- A word whose bit `i` is sample `i` for every `i < 32` is the sum of all 32 contributions. -/
theorem eq_partialSum_of_getLsbD (bs : Nat → Bool) (w : BitVec 32) (h : ∀ i, i < 32 → w.getLsbD i = bs i) :
    w = partialSum bs 32 := by
  apply BitVec.eq_of_getLsbD_eq
  intro i hi
  rw [h i hi, getLsbD_partialSum_32]
  simp [hi]

/-- A 0/1 word shifted to position `j` is the contribution of a sample: `(if b then 1 else 0) <<< j`. -/
theorem ite_shiftLeft (b : Bool) (j : Nat) :
    (if b then 1#32 else 0#32) <<< j = if b then 1#32 <<< j else 0#32 := by
  cases b <;> simp

/-- The same with the sample given as a one-bit word widened to 32 bits. -/
theorem ofBool_setWidth_shiftLeft (b : Bool) (j : Nat) :
    ((BitVec.ofBool b).setWidth 32) <<< j = if b then 1#32 <<< j else 0#32 := by
  cases b <;> simp

/-! ### The packed word of the specification -/

open Cert.Spec

/-- The contribution of sample `j` of row `r` in the specification is `contrib` of that row's samples. -/
theorem bitOf_eq_contrib (th : BitVec 32) (r : Nat) : bitOf th r = contrib (drawn th r) := rfl

/-- Row `r`'s packed word is the sum of all 32 contributions of its samples. -/
theorem word_eq_partialSum (th : BitVec 32) (r : Nat) : word th r = partialSum (drawn th r) 32 := rfl

/-- Bit `i` of row `r`'s packed word is sample `i` of the row (`i < 32`). -/
theorem getLsbD_word (th : BitVec 32) (r i : Nat) :
    (word th r).getLsbD i = (decide (i < 32) && drawn th r i) := by
  rw [word_eq_partialSum, getLsbD_partialSum_32]

/-- A word whose bit `i` is sample `i` of row `r` for every `i < 32` is the row's packed word. -/
theorem eq_word_of_getLsbD (th : BitVec 32) (r : Nat) (w : BitVec 32)
    (h : ∀ i, i < 32 → w.getLsbD i = drawn th r i) : w = word th r := by
  rw [word_eq_partialSum]
  exact eq_partialSum_of_getLsbD (drawn th r) w h

/-- Row `r`'s packed word as a sum over the finite set `{0, …, 31}`. -/
theorem word_eq_finset_sum (th : BitVec 32) (r : Nat) :
    word th r = ∑ j ∈ Finset.range 32, bitOf th r j := by
  rw [word_eq_partialSum, partialSum_eq_finset_sum, bitOf_eq_contrib]

/-- Row `r`'s packed word as a sum over the index type `Fin 32`. -/
theorem word_eq_sum_fin (th : BitVec 32) (r : Nat) :
    word th r = ∑ j : Fin 32, bitOf th r j := by
  rw [word_eq_partialSum, partialSum_eq_sum_fin, bitOf_eq_contrib]

/-- Row `r`'s packed word is the bitwise or of its 32 contributions, folded from the left from zero. -/
theorem word_eq_foldl_or (th : BitVec 32) (r : Nat) :
    word th r = ((List.range 32).map (bitOf th r)).foldl (· ||| ·) 0#32 := by
  rw [word_eq_partialSum, partialSum_eq_foldl_or _ 32 (le_refl _), bitOf_eq_contrib]

/-- An accumulator that starts at zero and takes `acc ||| bitOf th r j` at step `j` ends, after 32 steps, at row
    `r`'s packed word. -/
theorem acc_eq_word (th : BitVec 32) (r : Nat) (acc : Nat → BitVec 32) (h0 : acc 0 = 0#32)
    (hstep : ∀ k, k < 32 → acc (k + 1) = acc k ||| bitOf th r k) : acc 32 = word th r := by
  rw [word_eq_partialSum]
  exact acc_eq_partialSum (drawn th r) acc h0 (by simpa [bitOf_eq_contrib] using hstep) 32 (le_refl _)

end Cert.BitPackSum
-- ==== Proof.TileIdealStep.lean ====
/-
  One trip of the bit packing on a vector of lanes, and the whole loop: each accumulator, started at zero and taking
  at trip `j` the lanewise or of sample `j`'s contribution, ends at the packed word of its lane's row.
-/
import proofs.«203736_g78743930405654_cont_9to1c4b_297_23_alg».proof.Proof.LibBitPack
import proofs.«203736_g78743930405654_cont_9to1c4b_297_23_alg».proof.Proof.LibBitPackSum

namespace Cert.BitPack

open Idealize.ShloMosaic Cert.Spec Cert.BitPackSum

variable {s : Shape}

/-- One trip of the packing on one accumulator: the contribution of the sample numbered by the word `c`, or-ed in. `T`
    is the vector of thresholds, `Z` of zeros, `O` of ones, `l` of the lanes' first counters. -/
def step1 (T Z O l : IVec s 32) (c : BitVec 32) (a : IVec s 32) : IVec s 32 :=
  ori a (vsel T Z (shli O (broadcast s c)) (addi l (broadcast s c)))

/-- On a lane whose first counter is `32 r`, trip `j` takes the sum of row `r`'s first `j` contributions to the sum
    of its first `j + 1`. -/
theorem step1_lane (T Z O l a : IVec s 32) (j : Nat) (hj : j < 32) (i : s.Idx) (r : Nat)
    (hZ : Z i = 0#32) (hO : O i = 1#32) (hl : l i = BitVec.ofNat 32 (32 * r))
    (ha : a i = partialSum (drawn (T i) r) j) :
    step1 T Z O l (BitVec.ofNat 32 j) a i = partialSum (drawn (T i) r) (j + 1) := by
  have hc : (BitVec.ofNat 32 j).toNat = j := by
    rw [BitVec.toNat_ofNat]; exact Nat.mod_eq_of_lt (by omega)
  have hlin : addi l (broadcast s (BitVec.ofNat 32 j)) i = BitVec.ofNat 32 (32 * r + j) := by
    show l i + BitVec.ofNat 32 j = _
    rw [hl, ← BitVec.ofNat_add]
  show a i ||| vsel T Z (shli O (broadcast s (BitVec.ofNat 32 j))) (addi l (broadcast s (BitVec.ofNat 32 j))) i = _
  rw [vsel_apply, hlin, shli_broadcast_apply _ _ (by rw [hc]; exact hj), hc, hO, hZ, ha, partialSum_succ_or _ j (by omega)]
  congr 1
  unfold contrib drawn
  by_cases h : mant (BitVec.ofNat 32 (32 * r + j)) < T i
  · simp [h]
  · simp [h]

/-- The loop on four accumulators at once: after all 32 trips each lane of each accumulator holds its row's packed
    word. -/
theorem fold4_lane {n : Nat} (hn : n = 32) (T Z O l0 l1 l2 l3 : IVec s 32)
    (g : Fin n → IVec s 32 × IVec s 32 × IVec s 32 × IVec s 32 → IVec s 32 × IVec s 32 × IVec s 32 × IVec s 32)
    (hg : ∀ k x, g k x = (step1 T Z O l0 (BitVec.ofNat 32 k.val) x.1, step1 T Z O l1 (BitVec.ofNat 32 k.val) x.2.1,
        step1 T Z O l2 (BitVec.ofNat 32 k.val) x.2.2.1, step1 T Z O l3 (BitVec.ofNat 32 k.val) x.2.2.2))
    (i : s.Idx) (r0 r1 r2 r3 : Nat) (hZ : Z i = 0#32) (hO : O i = 1#32)
    (h0 : l0 i = BitVec.ofNat 32 (32 * r0)) (h1 : l1 i = BitVec.ofNat 32 (32 * r1))
    (h2 : l2 i = BitVec.ofNat 32 (32 * r2)) (h3 : l3 i = BitVec.ofNat 32 (32 * r3)) :
    ((List.finRange n).foldl (fun acc k => g k acc) (Z, Z, Z, Z)).1 i = word (T i) r0
      ∧ ((List.finRange n).foldl (fun acc k => g k acc) (Z, Z, Z, Z)).2.1 i = word (T i) r1
      ∧ ((List.finRange n).foldl (fun acc k => g k acc) (Z, Z, Z, Z)).2.2.1 i = word (T i) r2
      ∧ ((List.finRange n).foldl (fun acc k => g k acc) (Z, Z, Z, Z)).2.2.2 i = word (T i) r3 := by
  subst hn
  have key := foldl_finRange_inv g (Z, Z, Z, Z)
    (fun j x => j ≤ 32 → (x.1 i = partialSum (drawn (T i) r0) j ∧ x.2.1 i = partialSum (drawn (T i) r1) j
      ∧ x.2.2.1 i = partialSum (drawn (T i) r2) j ∧ x.2.2.2 i = partialSum (drawn (T i) r3) j))
    (by
      intro _
      exact ⟨hZ.trans (partialSum_zero _).symm, hZ.trans (partialSum_zero _).symm, hZ.trans (partialSum_zero _).symm,
        hZ.trans (partialSum_zero _).symm⟩)
    (by
      intro k x ih _
      have hk := k.isLt
      obtain ⟨a0, a1, a2, a3⟩ := ih (by omega)
      rw [hg]
      exact ⟨step1_lane _ _ _ _ _ _ hk _ _ hZ hO h0 a0, step1_lane _ _ _ _ _ _ hk _ _ hZ hO h1 a1,
        step1_lane _ _ _ _ _ _ hk _ _ hZ hO h2 a2, step1_lane _ _ _ _ _ _ hk _ _ hZ hO h3 a3⟩)
  obtain ⟨a, b, c, d⟩ := key (le_refl _)
  simp only [word_eq_partialSum]
  exact ⟨a, b, c, d⟩

end Cert.BitPack
-- ==== Proof.TileIdealWords.lean ====
/-
  The words one vector subcore of the SparseCore kernel packs, as pure facts: the counters of a trip's lanes, the
  value the packing loop leaves in each accumulator, and what the subcore's row buffer reads after a group's four
  stores.
-/
import Mathlib.Tactic.Ring
import Idealize.ShloMosaic.Lib.WritesUnit
import Idealize.ShloMosaic.Lib.Pipeline.Value
import proofs.«203736_g78743930405654_cont_9to1c4b_297_23_alg».proof.Proof.TileIdealTrip
import proofs.«203736_g78743930405654_cont_9to1c4b_297_23_alg».proof.Proof.TileIdealStep

noncomputable section

namespace Cert.TileIdeal

open Cert.KernelIdeal Cert.KernelIdeal.Gen Cert.BitPack Cert.BitPackSum
open Idealize.ShloMosaic Idealize.SL.Sem

variable {F : FTy → Type} [FloatOps F]

/-- The subcore's number among the 32: twice its subcore index plus its core index. -/
def wid (L : grid1.Coords) : Nat := 2 * (L 1).val + (L 0).val

/-- The packed word of row `n` of the subcore's share of the result. -/
def rowWord (th : BitVec 32) (L : grid1.Coords) (n : Nat) : BitVec 32 := Cert.Spec.word th (770048 + 8704 * wid L + n)

/-- The SparseCore kernel's result array: row `770048 + i` of the packed samples at `i`. -/
def outSC (th : BitVec 32) : IVec S278528 32 := fun i => Cert.Spec.word th (770048 + (i 0).val)

/-- The first counter of the subcore's share, as the kernel computes it. -/
def v9of (L : grid1.Coords) : BitVec 32 :=
  Scalar.muli (Scalar.addi 770048#32 (Scalar.muli (Scalar.addi (Scalar.muli (BitVec.ofNat 32 (L 1).val) 2#32) (BitVec.ofNat 32 (L 0).val)) 8704#32)) 32#32

theorem t2_trips : k1_t2_loop.trips = 32 := by decide
theorem t1_trips : k1_t1_loop.trips = 136 := by decide

theorem iv01 (k : Nat) : Scf.iv 0#32 1#32 k = BitVec.ofNat 32 k := by
  simp [Scf.iv]

/-- The counters of the four sub-blocks' lanes at group `k`: 32 times the lane's row. -/
theorem lin_lane (L : grid1.Coords) (k : Fin k1_t1_loop.trips) (i : S16.Idx) :
    k1_pay158 k1_pay2 (v9of L) 0#32 1#32 k i = BitVec.ofNat 32 (32 * (770048 + 8704 * wid L + (64 * k.val + (i 0).val)))
    ∧ k1_pay159 k1_pay2 (v9of L) 0#32 1#32 k i = BitVec.ofNat 32 (32 * (770048 + 8704 * wid L + (64 * k.val + 16 + (i 0).val)))
    ∧ k1_pay160 k1_pay2 (v9of L) 0#32 1#32 k i = BitVec.ofNat 32 (32 * (770048 + 8704 * wid L + (64 * k.val + 32 + (i 0).val)))
    ∧ k1_pay161 k1_pay2 (v9of L) 0#32 1#32 k i = BitVec.ofNat 32 (32 * (770048 + 8704 * wid L + (64 * k.val + 48 + (i 0).val))) := by
  unfold k1_pay158 k1_pay159 k1_pay160 k1_pay161 k1_pay2 v9of wid
  simp only [addi, muli, broadcast, iota, IntOp.addi, IntOp.muli, Scalar.addi, Scalar.muli, Scf.iv, List.foldl_cons, List.foldl_nil,
    Nat.zero_mul, Nat.zero_add]
  simp only [← BitVec.ofNat_add, ← BitVec.ofNat_mul]
  refine ⟨?_, ?_, ?_, ?_⟩ <;> (congr 1; omega)

/-- One trip is the four accumulators' steps. -/
theorem tripG_eq (T Z O l0 l1 l2 l3 : IVec S16 32) {n : Nat} (k : Fin n)
    (x : IVec S16 32 × IVec S16 32 × IVec S16 32 × IVec S16 32) :
    tripG T Z O l0 l1 l2 l3 0#32 1#32 k x
      = (step1 T Z O l0 (BitVec.ofNat 32 k.val) x.1, step1 T Z O l1 (BitVec.ofNat 32 k.val) x.2.1,
          step1 T Z O l2 (BitVec.ofNat 32 k.val) x.2.2.1, step1 T Z O l3 (BitVec.ofNat 32 k.val) x.2.2.2) := by
  unfold tripG step1
  rw [iv01]

/-- What the packing loop leaves in the four accumulators, lane by lane: the packed words of the lanes' rows. -/
theorem fold_lane (T Z O l0 l1 l2 l3 : IVec S16 32) (i : S16.Idx) (r0 r1 r2 r3 : Nat) (hZ : Z i = 0#32) (hO : O i = 1#32)
    (h0 : l0 i = BitVec.ofNat 32 (32 * r0)) (h1 : l1 i = BitVec.ofNat 32 (32 * r1))
    (h2 : l2 i = BitVec.ofNat 32 (32 * r2)) (h3 : l3 i = BitVec.ofNat 32 (32 * r3)) :
    (Scf.fold (n := k1_t2_loop.trips) (tripG T Z O l0 l1 l2 l3 0#32 1#32) (Z, Z, Z, Z)).1 i = Cert.Spec.word (T i) r0
    ∧ (Scf.fold (n := k1_t2_loop.trips) (tripG T Z O l0 l1 l2 l3 0#32 1#32) (Z, Z, Z, Z)).2.1 i = Cert.Spec.word (T i) r1
    ∧ (Scf.fold (n := k1_t2_loop.trips) (tripG T Z O l0 l1 l2 l3 0#32 1#32) (Z, Z, Z, Z)).2.2.1 i = Cert.Spec.word (T i) r2
    ∧ (Scf.fold (n := k1_t2_loop.trips) (tripG T Z O l0 l1 l2 l3 0#32 1#32) (Z, Z, Z, Z)).2.2.2 i = Cert.Spec.word (T i) r3 := by
  rw [Scf.fold_eq]
  exact fold4_lane t2_trips T Z O l0 l1 l2 l3 (tripG T Z O l0 l1 l2 l3 0#32 1#32) (fun k x => tripG_eq T Z O l0 l1 l2 l3 k x)
    i r0 r1 r2 r3 hZ hO h0 h1 h2 h3

/-- One piece of sixteen words at offset `o` of the row buffer, newest in a list of writes: an index inside it reads
    the piece, an index outside it what the rest of the list left. -/
theorem read_piece {κ : Kind} {sp : Space} (v : View sig κ sp S8704 .i32) (f : v.ty.Contents (Elt F)) (G : ℕ → BitVec 32)
    {off : Fin 1 → ℕ} (o : ℕ) (inb : ∀ a, off a + S16.size a ≤ S8704.size a) (w : S16.Idx → BitVec 32)
    (L : List (View.Piece (Elt F) S8704 .i32)) (y : S8704.Idx) (hoff : off = ![o])
    (hw : ∀ x : S16.Idx, w x = G (o + (x 0).val)) :
    v.read (Elt F) (v.writes (Elt F) f ((⟨Rect.unit off S16.size inb, w⟩ : View.Piece (Elt F) S8704 .i32) :: L)) y
      = if o ≤ (y 0).val ∧ (y 0).val < o + 16 then G (y 0).val else v.read (Elt F) (v.writes (Elt F) f L) y := by
  rw [View.read_writes_cons_unit v f inb w L y hoff]
  by_cases h : o ≤ (y 0).val ∧ (y 0).val < o + 16
  · have h' : ∀ a : Fin 1, (![o] : Fin 1 → ℕ) a ≤ (y a).val ∧ (y a).val < (![o] : Fin 1 → ℕ) a + S16.size a :=
      Fin.forall_fin_one.mpr h
    rw [dif_pos h', if_pos h, hw]
    congr 1
    show o + ((y 0).val - o) = (y 0).val
    omega
  · have h' : ¬ ∀ a : Fin 1, (![o] : Fin 1 → ℕ) a ≤ (y a).val ∧ (y a).val < (![o] : Fin 1 → ℕ) a + S16.size a :=
      fun hall => h (Fin.forall_fin_one.mp hall)
    rw [dif_neg h', if_neg h]

/-- A group's four stores of sixteen words each at `b`, `b + 16`, `b + 32`, `b + 48` extend what the row buffer holds
    below `b` to what it holds below `b + 64`. -/
theorem read_four {κ : Kind} {sp : Space} (v : View sig κ sp S8704 .i32) (f : v.ty.Contents (Elt F)) (G : ℕ → BitVec 32) (b : ℕ)
    {o0 o1 o2 o3 : Fin 1 → ℕ} (i0 : ∀ a, o0 a + S16.size a ≤ S8704.size a) (i1 : ∀ a, o1 a + S16.size a ≤ S8704.size a)
    (i2 : ∀ a, o2 a + S16.size a ≤ S8704.size a) (i3 : ∀ a, o3 a + S16.size a ≤ S8704.size a)
    (w0 w1 w2 w3 : S16.Idx → BitVec 32)
    (e0 : o0 = ![b]) (e1 : o1 = ![b + 16]) (e2 : o2 = ![b + 32]) (e3 : o3 = ![b + 48])
    (hf : ∀ y : S8704.Idx, (y 0).val < b → v.read (Elt F) f y = G (y 0).val)
    (h0 : ∀ x : S16.Idx, w0 x = G (b + (x 0).val)) (h1 : ∀ x : S16.Idx, w1 x = G (b + 16 + (x 0).val))
    (h2 : ∀ x : S16.Idx, w2 x = G (b + 32 + (x 0).val)) (h3 : ∀ x : S16.Idx, w3 x = G (b + 48 + (x 0).val)) :
    ∀ y : S8704.Idx, (y 0).val < b + 64 →
      v.read (Elt F) (v.writes (Elt F) f
        [(⟨Rect.unit o3 S16.size i3, w3⟩ : View.Piece (Elt F) S8704 .i32), ⟨Rect.unit o2 S16.size i2, w2⟩,
          ⟨Rect.unit o1 S16.size i1, w1⟩, ⟨Rect.unit o0 S16.size i0, w0⟩]) y = G (y 0).val := by
  intro y hy
  rw [read_piece v f G (b + 48) i3 w3 _ y e3 h3]
  split
  · rfl
  rw [read_piece v f G (b + 32) i2 w2 _ y e2 h2]
  split
  · rfl
  rw [read_piece v f G (b + 16) i1 w1 _ y e1 h1]
  split
  · rfl
  rw [read_piece v f G b i0 w0 _ y e0 h0]
  split
  · rfl
  rw [View.writes_nil]
  exact hf y (by omega)

/-- The row buffer after group `k`'s four stores: the packed words of the subcore's first `64 (k + 1)` rows. -/
theorem trip_block {κ : Kind} {sp : Space} (v : View sig κ sp S8704 .i32) (f : v.ty.Contents (Elt F)) (th : BitVec 32)
    (L : grid1.Coords) (T : IVec S16 32) (hT : ∀ i, T i = th) (k : Fin k1_t1_loop.trips)
    (i0 : ∀ a, (k1_off1 k 0#32) a + S16.size a ≤ S8704.size a) (i1 : ∀ a, (k1_off1 k 16#32) a + S16.size a ≤ S8704.size a)
    (i2 : ∀ a, (k1_off1 k 32#32) a + S16.size a ≤ S8704.size a) (i3 : ∀ a, (k1_off1 k 48#32) a + S16.size a ≤ S8704.size a)
    (hf : ∀ y : S8704.Idx, (y 0).val < 64 * k.val → v.read (Elt F) f y = rowWord th L (y 0).val) :
    ∀ y : S8704.Idx, (y 0).val < 64 * (k.val + 1) →
      v.read (Elt F) (v.writes (Elt F) f
        [(⟨Rect.unit (k1_off1 k 48#32) S16.size i3, k1_pay5 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).2.2.2⟩ : View.Piece (Elt F) S8704 .i32),
          ⟨Rect.unit (k1_off1 k 32#32) S16.size i2, k1_pay165 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).2.2.1⟩,
          ⟨Rect.unit (k1_off1 k 16#32) S16.size i1, k1_pay164 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).2.1⟩,
          ⟨Rect.unit (k1_off1 k 0#32) S16.size i0, k1_pay163 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).1⟩]) y
        = rowWord th L (y 0).val := by
  have hl := lin_lane L k
  have hfold : ∀ x : S16.Idx, _ := fun x => fold_lane T k1_pay3 k1_pay4 (k1_pay158 k1_pay2 (v9of L) 0#32 1#32 k) (k1_pay159 k1_pay2 (v9of L) 0#32 1#32 k)
    (k1_pay160 k1_pay2 (v9of L) 0#32 1#32 k) (k1_pay161 k1_pay2 (v9of L) 0#32 1#32 k) x _ _ _ _ rfl rfl (hl x).1 (hl x).2.1 (hl x).2.2.1 (hl x).2.2.2
  have hb : 64 * (k.val + 1) = 64 * k.val + 64 := by omega
  rw [hb]
  refine read_four v f (rowWord th L) (64 * k.val) i0 i1 i2 i3 _ _ _ _
    (k1_off1_eq k ⟨0, by decide⟩) (k1_off1_eq k ⟨1, by decide⟩) (k1_off1_eq k ⟨2, by decide⟩) (k1_off1_eq k ⟨3, by decide⟩) hf ?_ ?_ ?_ ?_
  · intro x
    have h := (hfold x).1
    rw [hT] at h
    exact (shapeCast_apply _ shapeCasts_S16_S16 x x rfl).trans h
  · intro x
    have h := (hfold x).2.1
    rw [hT] at h
    exact (shapeCast_apply _ shapeCasts_S16_S16 x x rfl).trans h
  · intro x
    have h := (hfold x).2.2.1
    rw [hT] at h
    exact (shapeCast_apply _ shapeCasts_S16_S16 x x rfl).trans h
  · intro x
    have h := (hfold x).2.2.2
    rw [hT] at h
    exact (shapeCast_apply _ shapeCasts_S16_S16 x x rfl).trans h

end Cert.TileIdeal

end
-- ==== Proof.TileIdealValue.lean ====
/-
  The task of one vector subcore of the SparseCore kernel, with its value: the subcore's slice of the result array
  ends holding the packed words of its rows. The run is that of the frame; the loop's invariant now says what the
  row buffer holds below the rows packed so far.
-/
import proofs.«203736_g78743930405654_cont_9to1c4b_297_23_alg».proof.Proof.TileIdeal
import proofs.«203736_g78743930405654_cont_9to1c4b_297_23_alg».proof.Proof.TileIdealWords

set_option pp.maxSteps 20000
set_option pp.deepTerms false

noncomputable section

namespace Cert.TileIdeal

open Cert.KernelIdeal Cert.KernelIdeal.Gen Cert.BitPack

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "thV" => (Memref.whole Cert.KernelIdeal.main_v11_scv : Memref Cert.KernelIdeal.sig Kind.scVector Space.hbm Cert.KernelIdeal.S16 EltTy.i32)
local notation "oV" => (Memref.whole Cert.KernelIdeal.main_v12_scv : Memref Cert.KernelIdeal.sig Kind.scVector Space.hbm Cert.KernelIdeal.S278528 EltTy.i32)
local notation "sT" => (Memref.whole Cert.KernelIdeal.cc1_scratch0 : Memref Cert.KernelIdeal.sig Kind.scVector Space.vmem Cert.KernelIdeal.S16 EltTy.i32)
local notation "sB" => (Memref.whole Cert.KernelIdeal.cc1_scratch1 : Memref Cert.KernelIdeal.sig Kind.scVector Space.vmem Cert.KernelIdeal.S8704 EltTy.i32)

variable (d : Dev nD) (L : grid1.Coords) [FloatOps F]

/-- The loop's invariant: the subcore's row buffer whole, holding below `64 g` the packed words of the subcore's rows. -/
def invS (th : BitVec 32) (g : Nat) (_ : PUnit) : sProp 𝕄 :=
  iprop(∃ f, ((sB).view.loc (V d (cV L) (jV L)) ↦{fullShare} f)
    ∗ ⌜∀ y : S8704.Idx, (y 0).val < 64 * g → (sB).view.read (Elt F) f y = rowWord th L (y 0).val⌝)

/-- The subcore's slice of the result array after the row buffer, holding the subcore's packed words, is copied into
    it: at each element of the slice the result array holds `outSC th`. -/
theorem out_rows_emb (th : BitVec 32) (f₀ : Buf (Elt F) (oLoc d)) (pay : S8704.Idx → BitVec 32)
    (hpay : ∀ x : S8704.Idx, pay x = rowWord th L (x 0).val) (y : S8704.Idx) :
    ((oSlice L).view.writes (Elt F) f₀ [(⟨Rect.whole S8704, pay⟩ : View.Piece (Elt F) S8704 .i32)]) ((oSlice L).view.emb y)
      = outSC th ((oSlice L).view.emb y) := by
  have h1 := View.read_writes_apply_of_pieces (oSlice L).view f₀ (fun y : S8704.Idx => rowWord th L (y 0).val)
    [(⟨Rect.whole S8704, pay⟩ : View.Piece (Elt F) S8704 .i32)]
    (by
      intro p hp x
      rw [List.mem_singleton] at hp
      subst hp
      show pay x = rowWord th L (((Rect.whole S8704).emb x) 0).val
      rw [hpay, Rect.emb_apply]
      congr 1
      show (x 0).val = 0 + 1 * (x 0).val
      omega)
    y ⟨_, List.mem_singleton.mpr rfl, by rw [Rect.set_whole]; exact Finset.mem_univ _⟩
  have e : (((oSlice L).view.emb y) 0).val = k1_off2 L 0 + 1 * (y 0).val := rfl
  have e2 : k1_off2 L 0 = 17408 * (L 1).val + 8704 * (L 0).val := by rw [k1_off2_eq]; rfl
  have hr := (View.read_apply (v := (oSlice L).view) (Val := Elt F) ((oSlice L).view.writes (Elt F) f₀ [(⟨Rect.whole S8704, pay⟩ : View.Piece (Elt F) S8704 .i32)]) y).trans (cast_eq _ _)
  rw [← hr, h1]
  show Cert.Spec.word th (770048 + 8704 * wid L + (y 0).val) = Cert.Spec.word th (770048 + (((oSlice L).view.emb y) 0).val)
  rw [e, e2]
  unfold wid
  have hA : 770048 + 8704 * (2 * (L 1).val + (L 0).val) + (y 0).val
      = 770048 + (17408 * (L 1).val + 8704 * (L 0).val + 1 * (y 0).val) := by omega
  rw [hA]

theorem out_rows (th : BitVec 32) (f₀ : Buf (Elt F) (oLoc d)) (pay : S8704.Idx → BitVec 32)
    (hpay : ∀ x : S8704.Idx, pay x = rowWord th L (x 0).val) :
    ∀ i ∈ (oSlice L).view.set,
      ((oSlice L).view.writes (Elt F) f₀ [(⟨Rect.whole S8704, pay⟩ : View.Piece (Elt F) S8704 .i32)]) i = outSC th i :=
  Finset.forall_mem_map.mpr fun y _ => out_rows_emb (F := F) d L th f₀ pay hpay y

set_option maxHeartbeats 4000000 in
/-- The task on vector subcore `(L 0, L 1)` of device `d`, the threshold array holding the word `th` everywhere: the
    subcore's rows of the result array end at the packed words `outSC th`. -/
theorem tile_body (hF : (K (F := F)).Facts) (O : CellTallies nD τ sig (HIx 1)) (W : Waits sig (HIx 1)) (hO : ∀ g, O g none = 0)
    (q : PosShare TreeShare) (fth : Buf (Elt F) (thLoc d)) (th : BitVec 32) (hfth : ∀ i, fth i = th) (f₀ : Buf (Elt F) (oLoc d)) :
    iprop(levAts (K (F := F)).L (K (F := F)).lev ∗ (thLoc d ↦{q} fth) ∗ (oLoc d ↦[rows L]{fullShare} f₀)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_body L thV (Memref.isWhole_whole _) oV (Memref.isWhole_whole _) sT (Memref.isWhole_whole _) sB (Memref.isWhole_whole _) cc1_scoped0 cc1_scoped1)
          fun _ => iprop((thLoc d ↦{q} fth) ∗ (oLoc d ↦[rows L]{fullShare} outSC th)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, Hth, Ho, ⟨⟨%fs, Hs⟩, ⟨%fb, Hb⟩, Hbufs⟩, ⟨Hsem0, Hsem1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hth' := (Entails.of_eq (pts_th (F := F) d L _ _).symm) $$ Hth
  ihave Ho' := (Entails.of_eq (pts_o (F := F) d L _).symm) $$ Ho
  ihave Hs' := (Entails.of_eq (pts_sT (F := F) d L _).symm) $$ Hs
  ihave Hb' := (Entails.of_eq (pts_sB (F := F) d L _).symm) $$ Hb
  sl_exec
  have hT : ∀ i : S16.Idx, k1_pay1 (View.readAt (Elt F) (sT).view (Rect.unit (s := S16) ![0] S16.size inb_S16_S16_0).toLoadRect
      (View.write (Elt F) (sT).view fs (tile_body.sl.dma0 d fth) Finset.univ)) i = th := by
    intro i
    unfold k1_pay1 shapeCast
    rw [View.readAt_apply]
    simp only [Memref.view_whole, View.write_whole_univ, View.read_whole]
    unfold tile_body.sl.dma0
    simp only [Memref.view_whole, View.read_whole]
    exact hfth _
  sl_for (invS (F := F) (U := U) d L th) $$ [Hb']
  case region =>
    intro k _
    unfold tile_body.sl.prog.body_1
    unfold k1_t1_body
    rw [k1_part16_eq_skeleton]
    unfold k1_part16_skel
    rw [t2_loop_eq]
    unfold invS
    iintro ⟨%f, Hb, %hf⟩
    sl_exec
    sl_step
    iexists _; isplitl [Hb]; · iexact Hb
    ipureintro
    exact trip_block (sB).view f th L _ hT k _ _ _ _ hf
  · unfold invS
    iexists _; isplitl [Hb']; · iexact Hb'
    ipureintro
    intro y hy
    exact absurd hy (by omega)
  iintro %_ HI
  unfold invS
  icases HI with ⟨%f, Hb, %hf⟩
  sl_exec
  sl_step
  have hpay : ∀ x : S8704.Idx, tile_body.sl.dma0_1 d L f x = rowWord th L (x 0).val := by
    intro x
    have hx : (x 0).val < 64 * Scf.trips k1_t1_loop.lb k1_t1_loop.ub k1_t1_loop.st := by
      have h8 : (x 0).val < 8704 := (x 0).isLt
      have ht : Scf.trips k1_t1_loop.lb k1_t1_loop.ub k1_t1_loop.st = 136 := t1_trips
      omega
    exact hf x hx
  have hcong : ((oSlice L).view.loc (V d (cV L) (jV L)) ↦[(oSlice L).view.set]{fullShare}
        (oSlice L).view.writes (Elt F) f₀ [(⟨Rect.whole S8704, tile_body.sl.dma0_1 d L f⟩ : View.Piece (Elt F) S8704 .i32)] : sProp 𝕄)
      = ((oSlice L).view.loc (V d (cV L) (jV L)) ↦[(oSlice L).view.set]{fullShare} outSC th) :=
    pointsTo_congr (out_rows (F := F) d L th f₀ _ hpay)
  ihave Ho2 := (Entails.of_eq hcong) $$ Ho'
  isplitl [Hth']; · iexact Hth'
  isplitl [Ho2]; · iexact Ho2
  isplitl [Hs' Hb Hbufs]
  · isplitl [Hs']; · iexists _; iexact Hs'
    isplitl [Hb]; · iexists _; iexact Hb
    iexact Hbufs
  isplitl [Hsem0 Hsem1 Hsems]
  · isplitl [Hsem0]; · iexact Hsem0
    isplitl [Hsem1]; · iexact Hsem1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.TileIdeal

end
-- ==== Proof.TileBitsWords.lean ====
/-
  The words one vector subcore of the SparseCore kernel packs, as pure facts: the counters of a trip's lanes, the
  value the packing loop leaves in each accumulator, and what the subcore's row buffer reads after a group's four
  stores.
-/
import Mathlib.Tactic.Ring
import Idealize.ShloMosaic.Lib.WritesUnit
import Idealize.ShloMosaic.Lib.Pipeline.Value
import proofs.«203736_g78743930405654_cont_9to1c4b_297_23_alg».proof.Proof.TileBitsTrip
import proofs.«203736_g78743930405654_cont_9to1c4b_297_23_alg».proof.Proof.TileIdealStep

noncomputable section

namespace Cert.TileBits

open Cert.Kernel Cert.Kernel.Gen Cert.BitPack Cert.BitPackSum
open Idealize.ShloMosaic Idealize.SL.Sem

variable {F : FTy → Type} [FloatOps F]

/-- The subcore's number among the 32: twice its subcore index plus its core index. -/
def wid (L : grid1.Coords) : Nat := 2 * (L 1).val + (L 0).val

/-- The packed word of row `n` of the subcore's share of the result. -/
def rowWord (th : BitVec 32) (L : grid1.Coords) (n : Nat) : BitVec 32 := Cert.Spec.word th (770048 + 8704 * wid L + n)

/-- The SparseCore kernel's result array: row `770048 + i` of the packed samples at `i`. -/
def outSC (th : BitVec 32) : IVec S278528 32 := fun i => Cert.Spec.word th (770048 + (i 0).val)

/-- The first counter of the subcore's share, as the kernel computes it. -/
def v9of (L : grid1.Coords) : BitVec 32 :=
  Scalar.muli (Scalar.addi 770048#32 (Scalar.muli (Scalar.addi (Scalar.muli (BitVec.ofNat 32 (L 1).val) 2#32) (BitVec.ofNat 32 (L 0).val)) 8704#32)) 32#32

theorem t2_trips : k1_t2_loop.trips = 32 := by decide
theorem t1_trips : k1_t1_loop.trips = 136 := by decide

theorem iv01 (k : Nat) : Scf.iv 0#32 1#32 k = BitVec.ofNat 32 k := by
  simp [Scf.iv]

/-- The counters of the four sub-blocks' lanes at group `k`: 32 times the lane's row. -/
theorem lin_lane (L : grid1.Coords) (k : Fin k1_t1_loop.trips) (i : S16.Idx) :
    k1_pay158 k1_pay2 (v9of L) 0#32 1#32 k i = BitVec.ofNat 32 (32 * (770048 + 8704 * wid L + (64 * k.val + (i 0).val)))
    ∧ k1_pay159 k1_pay2 (v9of L) 0#32 1#32 k i = BitVec.ofNat 32 (32 * (770048 + 8704 * wid L + (64 * k.val + 16 + (i 0).val)))
    ∧ k1_pay160 k1_pay2 (v9of L) 0#32 1#32 k i = BitVec.ofNat 32 (32 * (770048 + 8704 * wid L + (64 * k.val + 32 + (i 0).val)))
    ∧ k1_pay161 k1_pay2 (v9of L) 0#32 1#32 k i = BitVec.ofNat 32 (32 * (770048 + 8704 * wid L + (64 * k.val + 48 + (i 0).val))) := by
  unfold k1_pay158 k1_pay159 k1_pay160 k1_pay161 k1_pay2 v9of wid
  simp only [addi, muli, broadcast, iota, IntOp.addi, IntOp.muli, Scalar.addi, Scalar.muli, Scf.iv, List.foldl_cons, List.foldl_nil,
    Nat.zero_mul, Nat.zero_add]
  simp only [← BitVec.ofNat_add, ← BitVec.ofNat_mul]
  refine ⟨?_, ?_, ?_, ?_⟩ <;> (congr 1; omega)

/-- One trip is the four accumulators' steps. -/
theorem tripG_eq (T Z O l0 l1 l2 l3 : IVec S16 32) {n : Nat} (k : Fin n)
    (x : IVec S16 32 × IVec S16 32 × IVec S16 32 × IVec S16 32) :
    tripG T Z O l0 l1 l2 l3 0#32 1#32 k x
      = (step1 T Z O l0 (BitVec.ofNat 32 k.val) x.1, step1 T Z O l1 (BitVec.ofNat 32 k.val) x.2.1,
          step1 T Z O l2 (BitVec.ofNat 32 k.val) x.2.2.1, step1 T Z O l3 (BitVec.ofNat 32 k.val) x.2.2.2) := by
  unfold tripG step1
  rw [iv01]

/-- What the packing loop leaves in the four accumulators, lane by lane: the packed words of the lanes' rows. -/
theorem fold_lane (T Z O l0 l1 l2 l3 : IVec S16 32) (i : S16.Idx) (r0 r1 r2 r3 : Nat) (hZ : Z i = 0#32) (hO : O i = 1#32)
    (h0 : l0 i = BitVec.ofNat 32 (32 * r0)) (h1 : l1 i = BitVec.ofNat 32 (32 * r1))
    (h2 : l2 i = BitVec.ofNat 32 (32 * r2)) (h3 : l3 i = BitVec.ofNat 32 (32 * r3)) :
    (Scf.fold (n := k1_t2_loop.trips) (tripG T Z O l0 l1 l2 l3 0#32 1#32) (Z, Z, Z, Z)).1 i = Cert.Spec.word (T i) r0
    ∧ (Scf.fold (n := k1_t2_loop.trips) (tripG T Z O l0 l1 l2 l3 0#32 1#32) (Z, Z, Z, Z)).2.1 i = Cert.Spec.word (T i) r1
    ∧ (Scf.fold (n := k1_t2_loop.trips) (tripG T Z O l0 l1 l2 l3 0#32 1#32) (Z, Z, Z, Z)).2.2.1 i = Cert.Spec.word (T i) r2
    ∧ (Scf.fold (n := k1_t2_loop.trips) (tripG T Z O l0 l1 l2 l3 0#32 1#32) (Z, Z, Z, Z)).2.2.2 i = Cert.Spec.word (T i) r3 := by
  rw [Scf.fold_eq]
  exact fold4_lane t2_trips T Z O l0 l1 l2 l3 (tripG T Z O l0 l1 l2 l3 0#32 1#32) (fun k x => tripG_eq T Z O l0 l1 l2 l3 k x)
    i r0 r1 r2 r3 hZ hO h0 h1 h2 h3

/-- One piece of sixteen words at offset `o` of the row buffer, newest in a list of writes: an index inside it reads
    the piece, an index outside it what the rest of the list left. -/
theorem read_piece {κ : Kind} {sp : Space} (v : View sig κ sp S8704 .i32) (f : v.ty.Contents (Elt F)) (G : ℕ → BitVec 32)
    {off : Fin 1 → ℕ} (o : ℕ) (inb : ∀ a, off a + S16.size a ≤ S8704.size a) (w : S16.Idx → BitVec 32)
    (L : List (View.Piece (Elt F) S8704 .i32)) (y : S8704.Idx) (hoff : off = ![o])
    (hw : ∀ x : S16.Idx, w x = G (o + (x 0).val)) :
    v.read (Elt F) (v.writes (Elt F) f ((⟨Rect.unit off S16.size inb, w⟩ : View.Piece (Elt F) S8704 .i32) :: L)) y
      = if o ≤ (y 0).val ∧ (y 0).val < o + 16 then G (y 0).val else v.read (Elt F) (v.writes (Elt F) f L) y := by
  rw [View.read_writes_cons_unit v f inb w L y hoff]
  by_cases h : o ≤ (y 0).val ∧ (y 0).val < o + 16
  · have h' : ∀ a : Fin 1, (![o] : Fin 1 → ℕ) a ≤ (y a).val ∧ (y a).val < (![o] : Fin 1 → ℕ) a + S16.size a :=
      Fin.forall_fin_one.mpr h
    rw [dif_pos h', if_pos h, hw]
    congr 1
    show o + ((y 0).val - o) = (y 0).val
    omega
  · have h' : ¬ ∀ a : Fin 1, (![o] : Fin 1 → ℕ) a ≤ (y a).val ∧ (y a).val < (![o] : Fin 1 → ℕ) a + S16.size a :=
      fun hall => h (Fin.forall_fin_one.mp hall)
    rw [dif_neg h', if_neg h]

/-- A group's four stores of sixteen words each at `b`, `b + 16`, `b + 32`, `b + 48` extend what the row buffer holds
    below `b` to what it holds below `b + 64`. -/
theorem read_four {κ : Kind} {sp : Space} (v : View sig κ sp S8704 .i32) (f : v.ty.Contents (Elt F)) (G : ℕ → BitVec 32) (b : ℕ)
    {o0 o1 o2 o3 : Fin 1 → ℕ} (i0 : ∀ a, o0 a + S16.size a ≤ S8704.size a) (i1 : ∀ a, o1 a + S16.size a ≤ S8704.size a)
    (i2 : ∀ a, o2 a + S16.size a ≤ S8704.size a) (i3 : ∀ a, o3 a + S16.size a ≤ S8704.size a)
    (w0 w1 w2 w3 : S16.Idx → BitVec 32)
    (e0 : o0 = ![b]) (e1 : o1 = ![b + 16]) (e2 : o2 = ![b + 32]) (e3 : o3 = ![b + 48])
    (hf : ∀ y : S8704.Idx, (y 0).val < b → v.read (Elt F) f y = G (y 0).val)
    (h0 : ∀ x : S16.Idx, w0 x = G (b + (x 0).val)) (h1 : ∀ x : S16.Idx, w1 x = G (b + 16 + (x 0).val))
    (h2 : ∀ x : S16.Idx, w2 x = G (b + 32 + (x 0).val)) (h3 : ∀ x : S16.Idx, w3 x = G (b + 48 + (x 0).val)) :
    ∀ y : S8704.Idx, (y 0).val < b + 64 →
      v.read (Elt F) (v.writes (Elt F) f
        [(⟨Rect.unit o3 S16.size i3, w3⟩ : View.Piece (Elt F) S8704 .i32), ⟨Rect.unit o2 S16.size i2, w2⟩,
          ⟨Rect.unit o1 S16.size i1, w1⟩, ⟨Rect.unit o0 S16.size i0, w0⟩]) y = G (y 0).val := by
  intro y hy
  rw [read_piece v f G (b + 48) i3 w3 _ y e3 h3]
  split
  · rfl
  rw [read_piece v f G (b + 32) i2 w2 _ y e2 h2]
  split
  · rfl
  rw [read_piece v f G (b + 16) i1 w1 _ y e1 h1]
  split
  · rfl
  rw [read_piece v f G b i0 w0 _ y e0 h0]
  split
  · rfl
  rw [View.writes_nil]
  exact hf y (by omega)

/-- The row buffer after group `k`'s four stores: the packed words of the subcore's first `64 (k + 1)` rows. -/
theorem trip_block {κ : Kind} {sp : Space} (v : View sig κ sp S8704 .i32) (f : v.ty.Contents (Elt F)) (th : BitVec 32)
    (L : grid1.Coords) (T : IVec S16 32) (hT : ∀ i, T i = th) (k : Fin k1_t1_loop.trips)
    (i0 : ∀ a, (k1_off1 k 0#32) a + S16.size a ≤ S8704.size a) (i1 : ∀ a, (k1_off1 k 16#32) a + S16.size a ≤ S8704.size a)
    (i2 : ∀ a, (k1_off1 k 32#32) a + S16.size a ≤ S8704.size a) (i3 : ∀ a, (k1_off1 k 48#32) a + S16.size a ≤ S8704.size a)
    (hf : ∀ y : S8704.Idx, (y 0).val < 64 * k.val → v.read (Elt F) f y = rowWord th L (y 0).val) :
    ∀ y : S8704.Idx, (y 0).val < 64 * (k.val + 1) →
      v.read (Elt F) (v.writes (Elt F) f
        [(⟨Rect.unit (k1_off1 k 48#32) S16.size i3, k1_pay5 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).2.2.2⟩ : View.Piece (Elt F) S8704 .i32),
          ⟨Rect.unit (k1_off1 k 32#32) S16.size i2, k1_pay165 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).2.2.1⟩,
          ⟨Rect.unit (k1_off1 k 16#32) S16.size i1, k1_pay164 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).2.1⟩,
          ⟨Rect.unit (k1_off1 k 0#32) S16.size i0, k1_pay163 (Scf.fold (n := k1_t2_loop.trips) (tripG T k1_pay3 k1_pay4 (k1_pay158 k1_pay2 (v9of L) 0#32 1#32 k) (k1_pay159 k1_pay2 (v9of L) 0#32 1#32 k) (k1_pay160 k1_pay2 (v9of L) 0#32 1#32 k) (k1_pay161 k1_pay2 (v9of L) 0#32 1#32 k) 0#32 1#32) (k1_pay3, k1_pay3, k1_pay3, k1_pay3)).1⟩]) y
        = rowWord th L (y 0).val := by
  have hl := lin_lane L k
  have hfold : ∀ x : S16.Idx, _ := fun x => fold_lane T k1_pay3 k1_pay4 (k1_pay158 k1_pay2 (v9of L) 0#32 1#32 k) (k1_pay159 k1_pay2 (v9of L) 0#32 1#32 k)
    (k1_pay160 k1_pay2 (v9of L) 0#32 1#32 k) (k1_pay161 k1_pay2 (v9of L) 0#32 1#32 k) x _ _ _ _ rfl rfl (hl x).1 (hl x).2.1 (hl x).2.2.1 (hl x).2.2.2
  have hb : 64 * (k.val + 1) = 64 * k.val + 64 := by omega
  rw [hb]
  refine read_four v f (rowWord th L) (64 * k.val) i0 i1 i2 i3 _ _ _ _
    (k1_off1_eq k ⟨0, by decide⟩) (k1_off1_eq k ⟨1, by decide⟩) (k1_off1_eq k ⟨2, by decide⟩) (k1_off1_eq k ⟨3, by decide⟩) hf ?_ ?_ ?_ ?_
  · intro x
    have h := (hfold x).1
    rw [hT] at h
    exact (shapeCast_apply _ shapeCasts_S16_S16 x x rfl).trans h
  · intro x
    have h := (hfold x).2.1
    rw [hT] at h
    exact (shapeCast_apply _ shapeCasts_S16_S16 x x rfl).trans h
  · intro x
    have h := (hfold x).2.2.1
    rw [hT] at h
    exact (shapeCast_apply _ shapeCasts_S16_S16 x x rfl).trans h
  · intro x
    have h := (hfold x).2.2.2
    rw [hT] at h
    exact (shapeCast_apply _ shapeCasts_S16_S16 x x rfl).trans h

end Cert.TileBits

end
-- ==== Proof.TileBitsValue.lean ====
/-
  The task of one vector subcore of the SparseCore kernel, with its value: the subcore's slice of the result array
  ends holding the packed words of its rows. The run is that of the frame; the loop's invariant now says what the
  row buffer holds below the rows packed so far.
-/
import proofs.«203736_g78743930405654_cont_9to1c4b_297_23_alg».proof.Proof.TileBits
import proofs.«203736_g78743930405654_cont_9to1c4b_297_23_alg».proof.Proof.TileBitsWords

set_option pp.maxSteps 20000
set_option pp.deepTerms false

noncomputable section

namespace Cert.TileBits

open Cert.Kernel Cert.Kernel.Gen Cert.BitPack

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "thV" => (Memref.whole Cert.Kernel.main_v11_scv : Memref Cert.Kernel.sig Kind.scVector Space.hbm Cert.Kernel.S16 EltTy.i32)
local notation "oV" => (Memref.whole Cert.Kernel.main_v12_scv : Memref Cert.Kernel.sig Kind.scVector Space.hbm Cert.Kernel.S278528 EltTy.i32)
local notation "sT" => (Memref.whole Cert.Kernel.cc1_scratch0 : Memref Cert.Kernel.sig Kind.scVector Space.vmem Cert.Kernel.S16 EltTy.i32)
local notation "sB" => (Memref.whole Cert.Kernel.cc1_scratch1 : Memref Cert.Kernel.sig Kind.scVector Space.vmem Cert.Kernel.S8704 EltTy.i32)

variable (d : Dev nD) (L : grid1.Coords) [FloatOps F]

/-- The loop's invariant: the subcore's row buffer whole, holding below `64 g` the packed words of the subcore's rows. -/
def invS (th : BitVec 32) (g : Nat) (_ : PUnit) : sProp 𝕄 :=
  iprop(∃ f, ((sB).view.loc (V d (cV L) (jV L)) ↦{fullShare} f)
    ∗ ⌜∀ y : S8704.Idx, (y 0).val < 64 * g → (sB).view.read (Elt F) f y = rowWord th L (y 0).val⌝)

/-- The subcore's slice of the result array after the row buffer, holding the subcore's packed words, is copied into
    it: at each element of the slice the result array holds `outSC th`. -/
theorem out_rows_emb (th : BitVec 32) (f₀ : Buf (Elt F) (oLoc d)) (pay : S8704.Idx → BitVec 32)
    (hpay : ∀ x : S8704.Idx, pay x = rowWord th L (x 0).val) (y : S8704.Idx) :
    ((oSlice L).view.writes (Elt F) f₀ [(⟨Rect.whole S8704, pay⟩ : View.Piece (Elt F) S8704 .i32)]) ((oSlice L).view.emb y)
      = outSC th ((oSlice L).view.emb y) := by
  have h1 := View.read_writes_apply_of_pieces (oSlice L).view f₀ (fun y : S8704.Idx => rowWord th L (y 0).val)
    [(⟨Rect.whole S8704, pay⟩ : View.Piece (Elt F) S8704 .i32)]
    (by
      intro p hp x
      rw [List.mem_singleton] at hp
      subst hp
      show pay x = rowWord th L (((Rect.whole S8704).emb x) 0).val
      rw [hpay, Rect.emb_apply]
      congr 1
      show (x 0).val = 0 + 1 * (x 0).val
      omega)
    y ⟨_, List.mem_singleton.mpr rfl, by rw [Rect.set_whole]; exact Finset.mem_univ _⟩
  have e : (((oSlice L).view.emb y) 0).val = k1_off2 L 0 + 1 * (y 0).val := rfl
  have e2 : k1_off2 L 0 = 17408 * (L 1).val + 8704 * (L 0).val := by rw [k1_off2_eq]; rfl
  have hr := (View.read_apply (v := (oSlice L).view) (Val := Elt F) ((oSlice L).view.writes (Elt F) f₀ [(⟨Rect.whole S8704, pay⟩ : View.Piece (Elt F) S8704 .i32)]) y).trans (cast_eq _ _)
  rw [← hr, h1]
  show Cert.Spec.word th (770048 + 8704 * wid L + (y 0).val) = Cert.Spec.word th (770048 + (((oSlice L).view.emb y) 0).val)
  rw [e, e2]
  unfold wid
  have hA : 770048 + 8704 * (2 * (L 1).val + (L 0).val) + (y 0).val
      = 770048 + (17408 * (L 1).val + 8704 * (L 0).val + 1 * (y 0).val) := by omega
  rw [hA]

theorem out_rows (th : BitVec 32) (f₀ : Buf (Elt F) (oLoc d)) (pay : S8704.Idx → BitVec 32)
    (hpay : ∀ x : S8704.Idx, pay x = rowWord th L (x 0).val) :
    ∀ i ∈ (oSlice L).view.set,
      ((oSlice L).view.writes (Elt F) f₀ [(⟨Rect.whole S8704, pay⟩ : View.Piece (Elt F) S8704 .i32)]) i = outSC th i :=
  Finset.forall_mem_map.mpr fun y _ => out_rows_emb (F := F) d L th f₀ pay hpay y

set_option maxHeartbeats 4000000 in
/-- The task on vector subcore `(L 0, L 1)` of device `d`, the threshold array holding the word `th` everywhere: the
    subcore's rows of the result array end at the packed words `outSC th`. -/
theorem tile_body (hF : (K (F := F)).Facts) (O : CellTallies nD τ sig (HIx 1)) (W : Waits sig (HIx 1)) (hO : ∀ g, O g none = 0)
    (q : PosShare TreeShare) (fth : Buf (Elt F) (thLoc d)) (th : BitVec 32) (hfth : ∀ i, fth i = th) (f₀ : Buf (Elt F) (oLoc d)) :
    iprop(levAts (K (F := F)).L (K (F := F)).lev ∗ (thLoc d ↦{q} fth) ∗ (oLoc d ↦[rows L]{fullShare} f₀)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_body L thV (Memref.isWhole_whole _) oV (Memref.isWhole_whole _) sT (Memref.isWhole_whole _) sB (Memref.isWhole_whole _) cc1_scoped0 cc1_scoped1)
          fun _ => iprop((thLoc d ↦{q} fth) ∗ (oLoc d ↦[rows L]{fullShare} outSC th)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, Hth, Ho, ⟨⟨%fs, Hs⟩, ⟨%fb, Hb⟩, Hbufs⟩, ⟨Hsem0, Hsem1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hth' := (Entails.of_eq (pts_th (F := F) d L _ _).symm) $$ Hth
  ihave Ho' := (Entails.of_eq (pts_o (F := F) d L _).symm) $$ Ho
  ihave Hs' := (Entails.of_eq (pts_sT (F := F) d L _).symm) $$ Hs
  ihave Hb' := (Entails.of_eq (pts_sB (F := F) d L _).symm) $$ Hb
  sl_exec
  have hT : ∀ i : S16.Idx, k1_pay1 (View.readAt (Elt F) (sT).view (Rect.unit (s := S16) ![0] S16.size inb_S16_S16_0).toLoadRect
      (View.write (Elt F) (sT).view fs (tile_body.sl.dma0 d fth) Finset.univ)) i = th := by
    intro i
    unfold k1_pay1 shapeCast
    rw [View.readAt_apply]
    simp only [Memref.view_whole, View.write_whole_univ, View.read_whole]
    unfold tile_body.sl.dma0
    simp only [Memref.view_whole, View.read_whole]
    exact hfth _
  sl_for (invS (F := F) (U := U) d L th) $$ [Hb']
  case region =>
    intro k _
    unfold tile_body.sl.prog.body_1
    unfold k1_t1_body
    rw [k1_part16_eq_skeleton]
    unfold k1_part16_skel
    rw [t2_loop_eq]
    unfold invS
    iintro ⟨%f, Hb, %hf⟩
    sl_exec
    sl_step
    iexists _; isplitl [Hb]; · iexact Hb
    ipureintro
    exact trip_block (sB).view f th L _ hT k _ _ _ _ hf
  · unfold invS
    iexists _; isplitl [Hb']; · iexact Hb'
    ipureintro
    intro y hy
    exact absurd hy (by omega)
  iintro %_ HI
  unfold invS
  icases HI with ⟨%f, Hb, %hf⟩
  sl_exec
  sl_step
  have hpay : ∀ x : S8704.Idx, tile_body.sl.dma0_1 d L f x = rowWord th L (x 0).val := by
    intro x
    have hx : (x 0).val < 64 * Scf.trips k1_t1_loop.lb k1_t1_loop.ub k1_t1_loop.st := by
      have h8 : (x 0).val < 8704 := (x 0).isLt
      have ht : Scf.trips k1_t1_loop.lb k1_t1_loop.ub k1_t1_loop.st = 136 := t1_trips
      omega
    exact hf x hx
  have hcong : ((oSlice L).view.loc (V d (cV L) (jV L)) ↦[(oSlice L).view.set]{fullShare}
        (oSlice L).view.writes (Elt F) f₀ [(⟨Rect.whole S8704, tile_body.sl.dma0_1 d L f⟩ : View.Piece (Elt F) S8704 .i32)] : sProp 𝕄)
      = ((oSlice L).view.loc (V d (cV L) (jV L)) ↦[(oSlice L).view.set]{fullShare} outSC th) :=
    pointsTo_congr (out_rows (F := F) d L th f₀ _ hpay)
  ihave Ho2 := (Entails.of_eq hcong) $$ Ho'
  isplitl [Hth']; · iexact Hth'
  isplitl [Ho2]; · iexact Ho2
  isplitl [Hs' Hb Hbufs]
  · isplitl [Hs']; · iexists _; iexact Hs'
    isplitl [Hb]; · iexists _; iexact Hb
    iexact Hbufs
  isplitl [Hsem0 Hsem1 Hsems]
  · isplitl [Hsem0]; · iexact Hsem0
    isplitl [Hsem1]; · iexact Hsem1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.TileBits

end
-- ==== Proof.RefRunOps.lean ====
/-
  The reference program's @main as a list of its 283 host operations, the operations of the two module-local
  functions it calls (the uniform sampler and, inside it, the Threefry block function) standing in the place of
  their calls, and its run: every weakly fair execution terminates and every buffer ends at the fold of the
  operations' results over its launch contents. The list is cut into consecutive windows of at most twelve
  operations; `ops` is their concatenation.
-/
import proofs.«203736_g78743930405654_cont_9to1c4b_297_23_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 1 … 12 of 283 (@main's operations before the call of the uniform sampler). -/
abbrev w01 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst (constant S_ .f32 0x00000000#32),
    nullary main_cst_2 (constant S_ .f32 0x3F800000#32) ]

/-- Operations 13 … 24 of 283 (the uniform sampler's operations before its call of the block function). -/
abbrev w02 : List (HloOp τ sig (Elt F)) :=
  [ TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) rfl shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) rfl shapeCasts_S1_S_,
    TRef.nullary (TRef.of (T := ⟨S1048576x32, .i64⟩) main_call0_v8) (iotaInDim S1048576x32 64 0),
    TRef.nullary (TRef.of (T := ⟨S1048576x32, .i64⟩) main_call0_v9) (iotaInDim S1048576x32 64 1),
    TRef.nullary (TRef.of (T := ⟨S_, .i64⟩) main_call0_c) (constantI S_ 64 32#64),
    TRef.unary (TRef.of (T := ⟨S_, .i64⟩) main_call0_c) (TRef.of (T := ⟨S1048576x32, .i64⟩) main_call0_v10) (broadcastInDim S1048576x32 ![] bcast_S_S1048576x32) ]

/-- Operations 25 … 34 of 283 (the uniform sampler's operations before its call of the block function). -/
abbrev w03 : List (HloOp τ sig (Elt F)) :=
  [ TRef.binary (TRef.of (T := ⟨S1048576x32, .i64⟩) main_call0_v10) (TRef.of (T := ⟨S1048576x32, .i64⟩) main_call0_v8) (TRef.of (T := ⟨S1048576x32, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S1048576x32, .i64⟩) main_call0_v12) (broadcastInDim S1048576x32 ![] bcast_S_S1048576x32),
    TRef.binary (TRef.of (T := ⟨S1048576x32, .i64⟩) main_call0_v12) (TRef.of (T := ⟨S1048576x32, .i64⟩) main_call0_v9) (TRef.of (T := ⟨S1048576x32, .i64⟩) main_call0_v13) muli,
    TRef.binary (TRef.of (T := ⟨S1048576x32, .i64⟩) main_call0_v11) (TRef.of (T := ⟨S1048576x32, .i64⟩) main_call0_v13) (TRef.of (T := ⟨S1048576x32, .i64⟩) main_call0_v14) addi,
    TRef.nullary (TRef.of (T := ⟨S_, .i64⟩) main_call0_c_1) (constantI S_ 64 32#64),
    TRef.unary (TRef.of (T := ⟨S_, .i64⟩) main_call0_c_1) (TRef.of (T := ⟨S1048576x32, .i64⟩) main_call0_v15) (broadcastInDim S1048576x32 ![] bcast_S_S1048576x32),
    TRef.binary (TRef.of (T := ⟨S1048576x32, .i64⟩) main_call0_v14) (TRef.of (T := ⟨S1048576x32, .i64⟩) main_call0_v15) (TRef.of (T := ⟨S1048576x32, .i64⟩) main_call0_v16) Host.shrui,
    TRef.unary (TRef.of (T := ⟨S1048576x32, .i64⟩) main_call0_v14) (TRef.of (T := ⟨S1048576x32, .i32⟩) main_call0_v17) (trunci 32 · natLt_32_64),
    TRef.unary (TRef.of (T := ⟨S1048576x32, .i64⟩) main_call0_v16) (TRef.of (T := ⟨S1048576x32, .i32⟩) main_call0_v18) (trunci 32 · natLt_32_64) ]

/-- Operations 35 … 46 of 283 (the block function's statements 1 … 60). -/
abbrev w04 : List (HloOp τ sig (Elt F)) :=
  [ TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S1048576x32, .i32⟩) main_call0_call0_v2) (broadcastInDim S1048576x32 ![] bcast_S_S1048576x32),
    TRef.binary (TRef.of (T := ⟨S1048576x32, .i32⟩) main_call0_v18) (TRef.of (T := ⟨S1048576x32, .i32⟩) main_call0_call0_v2) (TRef.of (T := ⟨S1048576x32, .i32⟩) main_call0_call0_v3) addi,
    TRef.unary (TRef.of (T := ⟨S_, .i32⟩) main_call0_v7) (TRef.of (T := ⟨S1048576x32, .i32⟩) main_call0_call0_v4) (broadcastInDim S1048576x32 ![] bcast_S_S1048576x32),
    TRef.binary (TRef.of (T := ⟨S1048576x32, .i32⟩) main_call0_v17) (TRef.of (T := ⟨S1048576x32, .i32⟩) main_call0_call0_v4) (TRef.of (T := ⟨S1048576x32, .i32⟩) main_call0_call0_v5) addi,
    TRef.binary (TRef.of (T := ⟨S1048576x32, .i32⟩) main_call0_call0_v3) (TRef.of (T := ⟨S1048576x32, .i32⟩) main_call0_call0_v5) (TRef.of (T := ⟨S1048576x32, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S1048576x32, .i32⟩) main_call0_call0_v7) (broadcastInDim S1048576x32 ![] bcast_S_S1048576x32),
    TRef.binary (TRef.of (T := ⟨S1048576x32, .i32⟩) main_call0_call0_v5) (TRef.of (T := ⟨S1048576x32, .i32⟩) main_call0_call0_v7) (TRef.of (T := ⟨S1048576x32, .i32⟩) main_call0_call0_v8) Host.shli,
    TRef.nullary (TRef.of (T := ⟨S_, .i32⟩) main_call0_call0_c_1) (constantI S_ 32 19#32) ]

/-- Operations 47 … 58 of 283 (the block function's statements 1 … 60). -/
abbrev w05 : List (HloOp τ sig (Elt F)) :=
  [ TRef.unary (TRef.of (T := ⟨S_, .i32⟩) main_call0_call0_c_1) (TRef.of (T := ⟨S1048576x32, .i32⟩) main_call0_call0_v9) (broadcastInDim S1048576x32 ![] bcast_S_S1048576x32),
    TRef.binary (TRef.of (T := ⟨S1048576x32, .i32⟩) main_call0_call0_v5) (TRef.of (T := ⟨S1048576x32, .i32⟩) main_call0_call0_v9) (TRef.of (T := ⟨S1048576x32, .i32⟩) main_call0_call0_v10) Host.shrui,
    TRef.binary (TRef.of (T := ⟨S1048576x32, .i32⟩) main_call0_call0_v8) (TRef.of (T := ⟨S1048576x32, .i32⟩) main_call0_call0_v10) (TRef.of (T := ⟨S1048576x32, .i32⟩) main_call0_call0_v11) ori,
    TRef.binary (TRef.of (T := ⟨S1048576x32, .i32⟩) main_call0_call0_v6) (TRef.of (T := ⟨S1048576x32, .i32⟩) main_call0_call0_v11) (TRef.of (T := ⟨S1048576x32, .i32⟩) main_call0_call0_v12) xori,
    TRef.binary (TRef.of (T := ⟨S1048576x32, .i32⟩) main_call0_call0_v6) (TRef.of (T := ⟨S1048576x32, .i32⟩) main_call0_call0_v12) (TRef.of (T := ⟨S1048576x32, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S1048576x32, .i32⟩) main_call0_call0_v14) (broadcastInDim S1048576x32 ![] bcast_S_S1048576x32),
    TRef.binary (TRef.of (T := ⟨S1048576x32, .i32⟩) main_call0_call0_v12) (TRef.of (T := ⟨S1048576x32, .i32⟩) main_call0_call0_v14) (TRef.of (T := ⟨S1048576x32, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S1048576x32, .i32⟩) main_call0_call0_v16) (broadcastInDim S1048576x32 ![] bcast_S_S1048576x32),
    TRef.binary (TRef.of (T := ⟨S1048576x32, .i32⟩) main_call0_call0_v12) (TRef.of (T := ⟨S1048576x32, .i32⟩) main_call0_call0_v16) (TRef.of (T := ⟨S1048576x32, .i32⟩) main_call0_call0_v17) Host.shrui,
    TRef.binary (TRef.of (T := ⟨S1048576x32, .i32⟩) main_call0_call0_v15) (TRef.of (T := ⟨S1048576x32, .i32⟩) main_call0_call0_v17) (TRef.of (T := ⟨S1048576x32, .i32⟩) main_call0_call0_v18) ori ]

/-- Operations 59 … 70 of 283 (the block function's statements 1 … 60). -/
abbrev w06 : List (HloOp τ sig (Elt F)) :=
  [ TRef.binary (TRef.of (T := ⟨S1048576x32, .i32⟩) main_call0_call0_v13) (TRef.of (T := ⟨S1048576x32, .i32⟩) main_call0_call0_v18) (TRef.of (T := ⟨S1048576x32, .i32⟩) main_call0_call0_v19) xori,
    TRef.binary (TRef.of (T := ⟨S1048576x32, .i32⟩) main_call0_call0_v13) (TRef.of (T := ⟨S1048576x32, .i32⟩) main_call0_call0_v19) (TRef.of (T := ⟨S1048576x32, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S1048576x32, .i32⟩) main_call0_call0_v21) (broadcastInDim S1048576x32 ![] bcast_S_S1048576x32),
    TRef.binary (TRef.of (T := ⟨S1048576x32, .i32⟩) main_call0_call0_v19) (TRef.of (T := ⟨S1048576x32, .i32⟩) main_call0_call0_v21) (TRef.of (T := ⟨S1048576x32, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S1048576x32, .i32⟩) main_call0_call0_v23) (broadcastInDim S1048576x32 ![] bcast_S_S1048576x32),
    TRef.binary (TRef.of (T := ⟨S1048576x32, .i32⟩) main_call0_call0_v19) (TRef.of (T := ⟨S1048576x32, .i32⟩) main_call0_call0_v23) (TRef.of (T := ⟨S1048576x32, .i32⟩) main_call0_call0_v24) Host.shrui,
    TRef.binary (TRef.of (T := ⟨S1048576x32, .i32⟩) main_call0_call0_v22) (TRef.of (T := ⟨S1048576x32, .i32⟩) main_call0_call0_v24) (TRef.of (T := ⟨S1048576x32, .i32⟩) main_call0_call0_v25) ori,
    TRef.binary (TRef.of (T := ⟨S1048576x32, .i32⟩) main_call0_call0_v20) (TRef.of (T := ⟨S1048576x32, .i32⟩) main_call0_call0_v25) (TRef.of (T := ⟨S1048576x32, .i32⟩) main_call0_call0_v26) xori,
    TRef.binary (TRef.of (T := ⟨S1048576x32, .i32⟩) main_call0_call0_v20) (TRef.of (T := ⟨S1048576x32, .i32⟩) main_call0_call0_v26) (TRef.of (T := ⟨S1048576x32, .i32⟩) main_call0_call0_v27) addi,
    TRef.nullary (TRef.of (T := ⟨S_, .i32⟩) main_call0_call0_c_6) (constantI S_ 32 6#32) ]

/-- Operations 71 … 82 of 283 (the block function's statements 1 … 60). -/
abbrev w07 : List (HloOp τ sig (Elt F)) :=
  [ TRef.unary (TRef.of (T := ⟨S_, .i32⟩) main_call0_call0_c_6) (TRef.of (T := ⟨S1048576x32, .i32⟩) main_call0_call0_v28) (broadcastInDim S1048576x32 ![] bcast_S_S1048576x32),
    TRef.binary (TRef.of (T := ⟨S1048576x32, .i32⟩) main_call0_call0_v26) (TRef.of (T := ⟨S1048576x32, .i32⟩) main_call0_call0_v28) (TRef.of (T := ⟨S1048576x32, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S1048576x32, .i32⟩) main_call0_call0_v30) (broadcastInDim S1048576x32 ![] bcast_S_S1048576x32),
    TRef.binary (TRef.of (T := ⟨S1048576x32, .i32⟩) main_call0_call0_v26) (TRef.of (T := ⟨S1048576x32, .i32⟩) main_call0_call0_v30) (TRef.of (T := ⟨S1048576x32, .i32⟩) main_call0_call0_v31) Host.shrui,
    TRef.binary (TRef.of (T := ⟨S1048576x32, .i32⟩) main_call0_call0_v29) (TRef.of (T := ⟨S1048576x32, .i32⟩) main_call0_call0_v31) (TRef.of (T := ⟨S1048576x32, .i32⟩) main_call0_call0_v32) ori,
    TRef.binary (TRef.of (T := ⟨S1048576x32, .i32⟩) main_call0_call0_v27) (TRef.of (T := ⟨S1048576x32, .i32⟩) main_call0_call0_v32) (TRef.of (T := ⟨S1048576x32, .i32⟩) main_call0_call0_v33) xori,
    TRef.unary (TRef.of (T := ⟨S_, .i32⟩) main_call0_v7) (TRef.of (T := ⟨S1048576x32, .i32⟩) main_call0_call0_v34) (broadcastInDim S1048576x32 ![] bcast_S_S1048576x32),
    TRef.binary (TRef.of (T := ⟨S1048576x32, .i32⟩) main_call0_call0_v27) (TRef.of (T := ⟨S1048576x32, .i32⟩) main_call0_call0_v34) (TRef.of (T := ⟨S1048576x32, .i32⟩) main_call0_call0_v35) addi,
    TRef.unary (TRef.of (T := ⟨S_, .i32⟩) main_call0_call0_v1) (TRef.of (T := ⟨S1048576x32, .i32⟩) main_call0_call0_v36) (broadcastInDim S1048576x32 ![] bcast_S_S1048576x32),
    TRef.binary (TRef.of (T := ⟨S1048576x32, .i32⟩) main_call0_call0_v33) (TRef.of (T := ⟨S1048576x32, .i32⟩) main_call0_call0_v36) (TRef.of (T := ⟨S1048576x32, .i32⟩) main_call0_call0_v37) addi,
    TRef.nullary (TRef.of (T := ⟨S_, .i32⟩) main_call0_call0_c_8) (constantI S_ 32 1#32) ]

/-- Operations 83 … 94 of 283 (the block function's statements 1 … 60). -/
abbrev w08 : List (HloOp τ sig (Elt F)) :=
  [ TRef.unary (TRef.of (T := ⟨S_, .i32⟩) main_call0_call0_c_8) (TRef.of (T := ⟨S1048576x32, .i32⟩) main_call0_call0_v38) (broadcastInDim S1048576x32 ![] bcast_S_S1048576x32),
    TRef.binary (TRef.of (T := ⟨S1048576x32, .i32⟩) main_call0_call0_v37) (TRef.of (T := ⟨S1048576x32, .i32⟩) main_call0_call0_v38) (TRef.of (T := ⟨S1048576x32, .i32⟩) main_call0_call0_v39) addi,
    TRef.binary (TRef.of (T := ⟨S1048576x32, .i32⟩) main_call0_call0_v35) (TRef.of (T := ⟨S1048576x32, .i32⟩) main_call0_call0_v39) (TRef.of (T := ⟨S1048576x32, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S1048576x32, .i32⟩) main_call0_call0_v41) (broadcastInDim S1048576x32 ![] bcast_S_S1048576x32),
    TRef.binary (TRef.of (T := ⟨S1048576x32, .i32⟩) main_call0_call0_v39) (TRef.of (T := ⟨S1048576x32, .i32⟩) main_call0_call0_v41) (TRef.of (T := ⟨S1048576x32, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S1048576x32, .i32⟩) main_call0_call0_v43) (broadcastInDim S1048576x32 ![] bcast_S_S1048576x32),
    TRef.binary (TRef.of (T := ⟨S1048576x32, .i32⟩) main_call0_call0_v39) (TRef.of (T := ⟨S1048576x32, .i32⟩) main_call0_call0_v43) (TRef.of (T := ⟨S1048576x32, .i32⟩) main_call0_call0_v44) Host.shrui,
    TRef.binary (TRef.of (T := ⟨S1048576x32, .i32⟩) main_call0_call0_v42) (TRef.of (T := ⟨S1048576x32, .i32⟩) main_call0_call0_v44) (TRef.of (T := ⟨S1048576x32, .i32⟩) main_call0_call0_v45) ori,
    TRef.binary (TRef.of (T := ⟨S1048576x32, .i32⟩) main_call0_call0_v40) (TRef.of (T := ⟨S1048576x32, .i32⟩) main_call0_call0_v45) (TRef.of (T := ⟨S1048576x32, .i32⟩) main_call0_call0_v46) xori,
    TRef.binary (TRef.of (T := ⟨S1048576x32, .i32⟩) main_call0_call0_v40) (TRef.of (T := ⟨S1048576x32, .i32⟩) main_call0_call0_v46) (TRef.of (T := ⟨S1048576x32, .i32⟩) main_call0_call0_v47) addi ]

/-- Operations 95 … 106 of 283 (the block function's statements 61 … 120). -/
abbrev w09 : List (HloOp τ sig (Elt F)) :=
  [ TRef.nullary (TRef.of (T := ⟨S_, .i32⟩) main_call0_call0_c_11) (constantI S_ 32 29#32),
    TRef.unary (TRef.of (T := ⟨S_, .i32⟩) main_call0_call0_c_11) (TRef.of (T := ⟨S1048576x32, .i32⟩) main_call0_call0_v48) (broadcastInDim S1048576x32 ![] bcast_S_S1048576x32),
    TRef.binary (TRef.of (T := ⟨S1048576x32, .i32⟩) main_call0_call0_v46) (TRef.of (T := ⟨S1048576x32, .i32⟩) main_call0_call0_v48) (TRef.of (T := ⟨S1048576x32, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S1048576x32, .i32⟩) main_call0_call0_v50) (broadcastInDim S1048576x32 ![] bcast_S_S1048576x32),
    TRef.binary (TRef.of (T := ⟨S1048576x32, .i32⟩) main_call0_call0_v46) (TRef.of (T := ⟨S1048576x32, .i32⟩) main_call0_call0_v50) (TRef.of (T := ⟨S1048576x32, .i32⟩) main_call0_call0_v51) Host.shrui,
    TRef.binary (TRef.of (T := ⟨S1048576x32, .i32⟩) main_call0_call0_v49) (TRef.of (T := ⟨S1048576x32, .i32⟩) main_call0_call0_v51) (TRef.of (T := ⟨S1048576x32, .i32⟩) main_call0_call0_v52) ori,
    TRef.binary (TRef.of (T := ⟨S1048576x32, .i32⟩) main_call0_call0_v47) (TRef.of (T := ⟨S1048576x32, .i32⟩) main_call0_call0_v52) (TRef.of (T := ⟨S1048576x32, .i32⟩) main_call0_call0_v53) xori,
    TRef.binary (TRef.of (T := ⟨S1048576x32, .i32⟩) main_call0_call0_v47) (TRef.of (T := ⟨S1048576x32, .i32⟩) main_call0_call0_v53) (TRef.of (T := ⟨S1048576x32, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S1048576x32, .i32⟩) main_call0_call0_v55) (broadcastInDim S1048576x32 ![] bcast_S_S1048576x32),
    TRef.binary (TRef.of (T := ⟨S1048576x32, .i32⟩) main_call0_call0_v53) (TRef.of (T := ⟨S1048576x32, .i32⟩) main_call0_call0_v55) (TRef.of (T := ⟨S1048576x32, .i32⟩) main_call0_call0_v56) Host.shli ]

/-- Operations 107 … 118 of 283 (the block function's statements 61 … 120). -/
abbrev w10 : List (HloOp τ sig (Elt F)) :=
  [ TRef.nullary (TRef.of (T := ⟨S_, .i32⟩) main_call0_call0_c_14) (constantI S_ 32 16#32),
    TRef.unary (TRef.of (T := ⟨S_, .i32⟩) main_call0_call0_c_14) (TRef.of (T := ⟨S1048576x32, .i32⟩) main_call0_call0_v57) (broadcastInDim S1048576x32 ![] bcast_S_S1048576x32),
    TRef.binary (TRef.of (T := ⟨S1048576x32, .i32⟩) main_call0_call0_v53) (TRef.of (T := ⟨S1048576x32, .i32⟩) main_call0_call0_v57) (TRef.of (T := ⟨S1048576x32, .i32⟩) main_call0_call0_v58) Host.shrui,
    TRef.binary (TRef.of (T := ⟨S1048576x32, .i32⟩) main_call0_call0_v56) (TRef.of (T := ⟨S1048576x32, .i32⟩) main_call0_call0_v58) (TRef.of (T := ⟨S1048576x32, .i32⟩) main_call0_call0_v59) ori,
    TRef.binary (TRef.of (T := ⟨S1048576x32, .i32⟩) main_call0_call0_v54) (TRef.of (T := ⟨S1048576x32, .i32⟩) main_call0_call0_v59) (TRef.of (T := ⟨S1048576x32, .i32⟩) main_call0_call0_v60) xori,
    TRef.binary (TRef.of (T := ⟨S1048576x32, .i32⟩) main_call0_call0_v54) (TRef.of (T := ⟨S1048576x32, .i32⟩) main_call0_call0_v60) (TRef.of (T := ⟨S1048576x32, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S1048576x32, .i32⟩) main_call0_call0_v62) (broadcastInDim S1048576x32 ![] bcast_S_S1048576x32),
    TRef.binary (TRef.of (T := ⟨S1048576x32, .i32⟩) main_call0_call0_v60) (TRef.of (T := ⟨S1048576x32, .i32⟩) main_call0_call0_v62) (TRef.of (T := ⟨S1048576x32, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S1048576x32, .i32⟩) main_call0_call0_v64) (broadcastInDim S1048576x32 ![] bcast_S_S1048576x32),
    TRef.binary (TRef.of (T := ⟨S1048576x32, .i32⟩) main_call0_call0_v60) (TRef.of (T := ⟨S1048576x32, .i32⟩) main_call0_call0_v64) (TRef.of (T := ⟨S1048576x32, .i32⟩) main_call0_call0_v65) Host.shrui ]

/-- Operations 119 … 130 of 283 (the block function's statements 61 … 120). -/
abbrev w11 : List (HloOp τ sig (Elt F)) :=
  [ TRef.binary (TRef.of (T := ⟨S1048576x32, .i32⟩) main_call0_call0_v63) (TRef.of (T := ⟨S1048576x32, .i32⟩) main_call0_call0_v65) (TRef.of (T := ⟨S1048576x32, .i32⟩) main_call0_call0_v66) ori,
    TRef.binary (TRef.of (T := ⟨S1048576x32, .i32⟩) main_call0_call0_v61) (TRef.of (T := ⟨S1048576x32, .i32⟩) main_call0_call0_v66) (TRef.of (T := ⟨S1048576x32, .i32⟩) main_call0_call0_v67) xori,
    TRef.unary (TRef.of (T := ⟨S_, .i32⟩) main_call0_call0_v1) (TRef.of (T := ⟨S1048576x32, .i32⟩) main_call0_call0_v68) (broadcastInDim S1048576x32 ![] bcast_S_S1048576x32),
    TRef.binary (TRef.of (T := ⟨S1048576x32, .i32⟩) main_call0_call0_v61) (TRef.of (T := ⟨S1048576x32, .i32⟩) main_call0_call0_v68) (TRef.of (T := ⟨S1048576x32, .i32⟩) main_call0_call0_v69) addi,
    TRef.unary (TRef.of (T := ⟨S_, .i32⟩) main_call0_v5) (TRef.of (T := ⟨S1048576x32, .i32⟩) main_call0_call0_v70) (broadcastInDim S1048576x32 ![] bcast_S_S1048576x32),
    TRef.binary (TRef.of (T := ⟨S1048576x32, .i32⟩) main_call0_call0_v67) (TRef.of (T := ⟨S1048576x32, .i32⟩) main_call0_call0_v70) (TRef.of (T := ⟨S1048576x32, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S1048576x32, .i32⟩) main_call0_call0_v72) (broadcastInDim S1048576x32 ![] bcast_S_S1048576x32),
    TRef.binary (TRef.of (T := ⟨S1048576x32, .i32⟩) main_call0_call0_v71) (TRef.of (T := ⟨S1048576x32, .i32⟩) main_call0_call0_v72) (TRef.of (T := ⟨S1048576x32, .i32⟩) main_call0_call0_v73) addi,
    TRef.binary (TRef.of (T := ⟨S1048576x32, .i32⟩) main_call0_call0_v69) (TRef.of (T := ⟨S1048576x32, .i32⟩) main_call0_call0_v73) (TRef.of (T := ⟨S1048576x32, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S1048576x32, .i32⟩) main_call0_call0_v75) (broadcastInDim S1048576x32 ![] bcast_S_S1048576x32) ]

/-- Operations 131 … 142 of 283 (the block function's statements 61 … 120). -/
abbrev w12 : List (HloOp τ sig (Elt F)) :=
  [ TRef.binary (TRef.of (T := ⟨S1048576x32, .i32⟩) main_call0_call0_v73) (TRef.of (T := ⟨S1048576x32, .i32⟩) main_call0_call0_v75) (TRef.of (T := ⟨S1048576x32, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S1048576x32, .i32⟩) main_call0_call0_v77) (broadcastInDim S1048576x32 ![] bcast_S_S1048576x32),
    TRef.binary (TRef.of (T := ⟨S1048576x32, .i32⟩) main_call0_call0_v73) (TRef.of (T := ⟨S1048576x32, .i32⟩) main_call0_call0_v77) (TRef.of (T := ⟨S1048576x32, .i32⟩) main_call0_call0_v78) Host.shrui,
    TRef.binary (TRef.of (T := ⟨S1048576x32, .i32⟩) main_call0_call0_v76) (TRef.of (T := ⟨S1048576x32, .i32⟩) main_call0_call0_v78) (TRef.of (T := ⟨S1048576x32, .i32⟩) main_call0_call0_v79) ori,
    TRef.binary (TRef.of (T := ⟨S1048576x32, .i32⟩) main_call0_call0_v74) (TRef.of (T := ⟨S1048576x32, .i32⟩) main_call0_call0_v79) (TRef.of (T := ⟨S1048576x32, .i32⟩) main_call0_call0_v80) xori,
    TRef.binary (TRef.of (T := ⟨S1048576x32, .i32⟩) main_call0_call0_v74) (TRef.of (T := ⟨S1048576x32, .i32⟩) main_call0_call0_v80) (TRef.of (T := ⟨S1048576x32, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S1048576x32, .i32⟩) main_call0_call0_v82) (broadcastInDim S1048576x32 ![] bcast_S_S1048576x32),
    TRef.binary (TRef.of (T := ⟨S1048576x32, .i32⟩) main_call0_call0_v80) (TRef.of (T := ⟨S1048576x32, .i32⟩) main_call0_call0_v82) (TRef.of (T := ⟨S1048576x32, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S1048576x32, .i32⟩) main_call0_call0_v84) (broadcastInDim S1048576x32 ![] bcast_S_S1048576x32) ]

/-- Operations 143 … 154 of 283 (the block function's statements 61 … 120). -/
abbrev w13 : List (HloOp τ sig (Elt F)) :=
  [ TRef.binary (TRef.of (T := ⟨S1048576x32, .i32⟩) main_call0_call0_v80) (TRef.of (T := ⟨S1048576x32, .i32⟩) main_call0_call0_v84) (TRef.of (T := ⟨S1048576x32, .i32⟩) main_call0_call0_v85) Host.shrui,
    TRef.binary (TRef.of (T := ⟨S1048576x32, .i32⟩) main_call0_call0_v83) (TRef.of (T := ⟨S1048576x32, .i32⟩) main_call0_call0_v85) (TRef.of (T := ⟨S1048576x32, .i32⟩) main_call0_call0_v86) ori,
    TRef.binary (TRef.of (T := ⟨S1048576x32, .i32⟩) main_call0_call0_v81) (TRef.of (T := ⟨S1048576x32, .i32⟩) main_call0_call0_v86) (TRef.of (T := ⟨S1048576x32, .i32⟩) main_call0_call0_v87) xori,
    TRef.binary (TRef.of (T := ⟨S1048576x32, .i32⟩) main_call0_call0_v81) (TRef.of (T := ⟨S1048576x32, .i32⟩) main_call0_call0_v87) (TRef.of (T := ⟨S1048576x32, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S1048576x32, .i32⟩) main_call0_call0_v89) (broadcastInDim S1048576x32 ![] bcast_S_S1048576x32),
    TRef.binary (TRef.of (T := ⟨S1048576x32, .i32⟩) main_call0_call0_v87) (TRef.of (T := ⟨S1048576x32, .i32⟩) main_call0_call0_v89) (TRef.of (T := ⟨S1048576x32, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S1048576x32, .i32⟩) main_call0_call0_v91) (broadcastInDim S1048576x32 ![] bcast_S_S1048576x32),
    TRef.binary (TRef.of (T := ⟨S1048576x32, .i32⟩) main_call0_call0_v87) (TRef.of (T := ⟨S1048576x32, .i32⟩) main_call0_call0_v91) (TRef.of (T := ⟨S1048576x32, .i32⟩) main_call0_call0_v92) Host.shrui,
    TRef.binary (TRef.of (T := ⟨S1048576x32, .i32⟩) main_call0_call0_v90) (TRef.of (T := ⟨S1048576x32, .i32⟩) main_call0_call0_v92) (TRef.of (T := ⟨S1048576x32, .i32⟩) main_call0_call0_v93) ori,
    TRef.binary (TRef.of (T := ⟨S1048576x32, .i32⟩) main_call0_call0_v88) (TRef.of (T := ⟨S1048576x32, .i32⟩) main_call0_call0_v93) (TRef.of (T := ⟨S1048576x32, .i32⟩) main_call0_call0_v94) xori ]

/-- Operations 155 … 166 of 283 (the block function's statements 121 … 180). -/
abbrev w14 : List (HloOp τ sig (Elt F)) :=
  [ TRef.binary (TRef.of (T := ⟨S1048576x32, .i32⟩) main_call0_call0_v88) (TRef.of (T := ⟨S1048576x32, .i32⟩) main_call0_call0_v94) (TRef.of (T := ⟨S1048576x32, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S1048576x32, .i32⟩) main_call0_call0_v96) (broadcastInDim S1048576x32 ![] bcast_S_S1048576x32),
    TRef.binary (TRef.of (T := ⟨S1048576x32, .i32⟩) main_call0_call0_v94) (TRef.of (T := ⟨S1048576x32, .i32⟩) main_call0_call0_v96) (TRef.of (T := ⟨S1048576x32, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S1048576x32, .i32⟩) main_call0_call0_v98) (broadcastInDim S1048576x32 ![] bcast_S_S1048576x32),
    TRef.binary (TRef.of (T := ⟨S1048576x32, .i32⟩) main_call0_call0_v94) (TRef.of (T := ⟨S1048576x32, .i32⟩) main_call0_call0_v98) (TRef.of (T := ⟨S1048576x32, .i32⟩) main_call0_call0_v99) Host.shrui,
    TRef.binary (TRef.of (T := ⟨S1048576x32, .i32⟩) main_call0_call0_v97) (TRef.of (T := ⟨S1048576x32, .i32⟩) main_call0_call0_v99) (TRef.of (T := ⟨S1048576x32, .i32⟩) main_call0_call0_v100) ori,
    TRef.binary (TRef.of (T := ⟨S1048576x32, .i32⟩) main_call0_call0_v95) (TRef.of (T := ⟨S1048576x32, .i32⟩) main_call0_call0_v100) (TRef.of (T := ⟨S1048576x32, .i32⟩) main_call0_call0_v101) xori,
    TRef.unary (TRef.of (T := ⟨S_, .i32⟩) main_call0_v5) (TRef.of (T := ⟨S1048576x32, .i32⟩) main_call0_call0_v102) (broadcastInDim S1048576x32 ![] bcast_S_S1048576x32),
    TRef.binary (TRef.of (T := ⟨S1048576x32, .i32⟩) main_call0_call0_v95) (TRef.of (T := ⟨S1048576x32, .i32⟩) main_call0_call0_v102) (TRef.of (T := ⟨S1048576x32, .i32⟩) main_call0_call0_v103) addi,
    TRef.unary (TRef.of (T := ⟨S_, .i32⟩) main_call0_v7) (TRef.of (T := ⟨S1048576x32, .i32⟩) main_call0_call0_v104) (broadcastInDim S1048576x32 ![] bcast_S_S1048576x32) ]

/-- Operations 167 … 178 of 283 (the block function's statements 121 … 180). -/
abbrev w15 : List (HloOp τ sig (Elt F)) :=
  [ TRef.binary (TRef.of (T := ⟨S1048576x32, .i32⟩) main_call0_call0_v101) (TRef.of (T := ⟨S1048576x32, .i32⟩) main_call0_call0_v104) (TRef.of (T := ⟨S1048576x32, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S1048576x32, .i32⟩) main_call0_call0_v106) (broadcastInDim S1048576x32 ![] bcast_S_S1048576x32),
    TRef.binary (TRef.of (T := ⟨S1048576x32, .i32⟩) main_call0_call0_v105) (TRef.of (T := ⟨S1048576x32, .i32⟩) main_call0_call0_v106) (TRef.of (T := ⟨S1048576x32, .i32⟩) main_call0_call0_v107) addi,
    TRef.binary (TRef.of (T := ⟨S1048576x32, .i32⟩) main_call0_call0_v103) (TRef.of (T := ⟨S1048576x32, .i32⟩) main_call0_call0_v107) (TRef.of (T := ⟨S1048576x32, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S1048576x32, .i32⟩) main_call0_call0_v109) (broadcastInDim S1048576x32 ![] bcast_S_S1048576x32),
    TRef.binary (TRef.of (T := ⟨S1048576x32, .i32⟩) main_call0_call0_v107) (TRef.of (T := ⟨S1048576x32, .i32⟩) main_call0_call0_v109) (TRef.of (T := ⟨S1048576x32, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S1048576x32, .i32⟩) main_call0_call0_v111) (broadcastInDim S1048576x32 ![] bcast_S_S1048576x32),
    TRef.binary (TRef.of (T := ⟨S1048576x32, .i32⟩) main_call0_call0_v107) (TRef.of (T := ⟨S1048576x32, .i32⟩) main_call0_call0_v111) (TRef.of (T := ⟨S1048576x32, .i32⟩) main_call0_call0_v112) Host.shrui,
    TRef.binary (TRef.of (T := ⟨S1048576x32, .i32⟩) main_call0_call0_v110) (TRef.of (T := ⟨S1048576x32, .i32⟩) main_call0_call0_v112) (TRef.of (T := ⟨S1048576x32, .i32⟩) main_call0_call0_v113) ori ]

/-- Operations 179 … 190 of 283 (the block function's statements 121 … 180). -/
abbrev w16 : List (HloOp τ sig (Elt F)) :=
  [ TRef.binary (TRef.of (T := ⟨S1048576x32, .i32⟩) main_call0_call0_v108) (TRef.of (T := ⟨S1048576x32, .i32⟩) main_call0_call0_v113) (TRef.of (T := ⟨S1048576x32, .i32⟩) main_call0_call0_v114) xori,
    TRef.binary (TRef.of (T := ⟨S1048576x32, .i32⟩) main_call0_call0_v108) (TRef.of (T := ⟨S1048576x32, .i32⟩) main_call0_call0_v114) (TRef.of (T := ⟨S1048576x32, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S1048576x32, .i32⟩) main_call0_call0_v116) (broadcastInDim S1048576x32 ![] bcast_S_S1048576x32),
    TRef.binary (TRef.of (T := ⟨S1048576x32, .i32⟩) main_call0_call0_v114) (TRef.of (T := ⟨S1048576x32, .i32⟩) main_call0_call0_v116) (TRef.of (T := ⟨S1048576x32, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S1048576x32, .i32⟩) main_call0_call0_v118) (broadcastInDim S1048576x32 ![] bcast_S_S1048576x32),
    TRef.binary (TRef.of (T := ⟨S1048576x32, .i32⟩) main_call0_call0_v114) (TRef.of (T := ⟨S1048576x32, .i32⟩) main_call0_call0_v118) (TRef.of (T := ⟨S1048576x32, .i32⟩) main_call0_call0_v119) Host.shrui,
    TRef.binary (TRef.of (T := ⟨S1048576x32, .i32⟩) main_call0_call0_v117) (TRef.of (T := ⟨S1048576x32, .i32⟩) main_call0_call0_v119) (TRef.of (T := ⟨S1048576x32, .i32⟩) main_call0_call0_v120) ori,
    TRef.binary (TRef.of (T := ⟨S1048576x32, .i32⟩) main_call0_call0_v115) (TRef.of (T := ⟨S1048576x32, .i32⟩) main_call0_call0_v120) (TRef.of (T := ⟨S1048576x32, .i32⟩) main_call0_call0_v121) xori,
    TRef.binary (TRef.of (T := ⟨S1048576x32, .i32⟩) main_call0_call0_v115) (TRef.of (T := ⟨S1048576x32, .i32⟩) main_call0_call0_v121) (TRef.of (T := ⟨S1048576x32, .i32⟩) main_call0_call0_v122) addi,
    TRef.nullary (TRef.of (T := ⟨S_, .i32⟩) main_call0_call0_c_31) (constantI S_ 32 16#32) ]

/-- Operations 191 … 202 of 283 (the block function's statements 121 … 180). -/
abbrev w17 : List (HloOp τ sig (Elt F)) :=
  [ TRef.unary (TRef.of (T := ⟨S_, .i32⟩) main_call0_call0_c_31) (TRef.of (T := ⟨S1048576x32, .i32⟩) main_call0_call0_v123) (broadcastInDim S1048576x32 ![] bcast_S_S1048576x32),
    TRef.binary (TRef.of (T := ⟨S1048576x32, .i32⟩) main_call0_call0_v121) (TRef.of (T := ⟨S1048576x32, .i32⟩) main_call0_call0_v123) (TRef.of (T := ⟨S1048576x32, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S1048576x32, .i32⟩) main_call0_call0_v125) (broadcastInDim S1048576x32 ![] bcast_S_S1048576x32),
    TRef.binary (TRef.of (T := ⟨S1048576x32, .i32⟩) main_call0_call0_v121) (TRef.of (T := ⟨S1048576x32, .i32⟩) main_call0_call0_v125) (TRef.of (T := ⟨S1048576x32, .i32⟩) main_call0_call0_v126) Host.shrui,
    TRef.binary (TRef.of (T := ⟨S1048576x32, .i32⟩) main_call0_call0_v124) (TRef.of (T := ⟨S1048576x32, .i32⟩) main_call0_call0_v126) (TRef.of (T := ⟨S1048576x32, .i32⟩) main_call0_call0_v127) ori,
    TRef.binary (TRef.of (T := ⟨S1048576x32, .i32⟩) main_call0_call0_v122) (TRef.of (T := ⟨S1048576x32, .i32⟩) main_call0_call0_v127) (TRef.of (T := ⟨S1048576x32, .i32⟩) main_call0_call0_v128) xori,
    TRef.binary (TRef.of (T := ⟨S1048576x32, .i32⟩) main_call0_call0_v122) (TRef.of (T := ⟨S1048576x32, .i32⟩) main_call0_call0_v128) (TRef.of (T := ⟨S1048576x32, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S1048576x32, .i32⟩) main_call0_call0_v130) (broadcastInDim S1048576x32 ![] bcast_S_S1048576x32),
    TRef.binary (TRef.of (T := ⟨S1048576x32, .i32⟩) main_call0_call0_v128) (TRef.of (T := ⟨S1048576x32, .i32⟩) main_call0_call0_v130) (TRef.of (T := ⟨S1048576x32, .i32⟩) main_call0_call0_v131) Host.shli,
    TRef.nullary (TRef.of (T := ⟨S_, .i32⟩) main_call0_call0_c_34) (constantI S_ 32 8#32) ]

/-- Operations 203 … 214 of 283 (the block function's statements 121 … 180). -/
abbrev w18 : List (HloOp τ sig (Elt F)) :=
  [ TRef.unary (TRef.of (T := ⟨S_, .i32⟩) main_call0_call0_c_34) (TRef.of (T := ⟨S1048576x32, .i32⟩) main_call0_call0_v132) (broadcastInDim S1048576x32 ![] bcast_S_S1048576x32),
    TRef.binary (TRef.of (T := ⟨S1048576x32, .i32⟩) main_call0_call0_v128) (TRef.of (T := ⟨S1048576x32, .i32⟩) main_call0_call0_v132) (TRef.of (T := ⟨S1048576x32, .i32⟩) main_call0_call0_v133) Host.shrui,
    TRef.binary (TRef.of (T := ⟨S1048576x32, .i32⟩) main_call0_call0_v131) (TRef.of (T := ⟨S1048576x32, .i32⟩) main_call0_call0_v133) (TRef.of (T := ⟨S1048576x32, .i32⟩) main_call0_call0_v134) ori,
    TRef.binary (TRef.of (T := ⟨S1048576x32, .i32⟩) main_call0_call0_v129) (TRef.of (T := ⟨S1048576x32, .i32⟩) main_call0_call0_v134) (TRef.of (T := ⟨S1048576x32, .i32⟩) main_call0_call0_v135) xori,
    TRef.unary (TRef.of (T := ⟨S_, .i32⟩) main_call0_v7) (TRef.of (T := ⟨S1048576x32, .i32⟩) main_call0_call0_v136) (broadcastInDim S1048576x32 ![] bcast_S_S1048576x32),
    TRef.binary (TRef.of (T := ⟨S1048576x32, .i32⟩) main_call0_call0_v129) (TRef.of (T := ⟨S1048576x32, .i32⟩) main_call0_call0_v136) (TRef.of (T := ⟨S1048576x32, .i32⟩) main_call0_call0_v137) addi,
    TRef.unary (TRef.of (T := ⟨S_, .i32⟩) main_call0_call0_v1) (TRef.of (T := ⟨S1048576x32, .i32⟩) main_call0_call0_v138) (broadcastInDim S1048576x32 ![] bcast_S_S1048576x32),
    TRef.binary (TRef.of (T := ⟨S1048576x32, .i32⟩) main_call0_call0_v135) (TRef.of (T := ⟨S1048576x32, .i32⟩) main_call0_call0_v138) (TRef.of (T := ⟨S1048576x32, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S1048576x32, .i32⟩) main_call0_call0_v140) (broadcastInDim S1048576x32 ![] bcast_S_S1048576x32),
    TRef.binary (TRef.of (T := ⟨S1048576x32, .i32⟩) main_call0_call0_v139) (TRef.of (T := ⟨S1048576x32, .i32⟩) main_call0_call0_v140) (TRef.of (T := ⟨S1048576x32, .i32⟩) main_call0_call0_v141) addi,
    TRef.binary (TRef.of (T := ⟨S1048576x32, .i32⟩) main_call0_call0_v137) (TRef.of (T := ⟨S1048576x32, .i32⟩) main_call0_call0_v141) (TRef.of (T := ⟨S1048576x32, .i32⟩) main_call0_call0_v142) addi ]

/-- Operations 215 … 226 of 283 (the block function's statements 181 … 222). -/
abbrev w19 : List (HloOp τ sig (Elt F)) :=
  [ TRef.nullary (TRef.of (T := ⟨S_, .i32⟩) main_call0_call0_c_36) (constantI S_ 32 13#32),
    TRef.unary (TRef.of (T := ⟨S_, .i32⟩) main_call0_call0_c_36) (TRef.of (T := ⟨S1048576x32, .i32⟩) main_call0_call0_v143) (broadcastInDim S1048576x32 ![] bcast_S_S1048576x32),
    TRef.binary (TRef.of (T := ⟨S1048576x32, .i32⟩) main_call0_call0_v141) (TRef.of (T := ⟨S1048576x32, .i32⟩) main_call0_call0_v143) (TRef.of (T := ⟨S1048576x32, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S1048576x32, .i32⟩) main_call0_call0_v145) (broadcastInDim S1048576x32 ![] bcast_S_S1048576x32),
    TRef.binary (TRef.of (T := ⟨S1048576x32, .i32⟩) main_call0_call0_v141) (TRef.of (T := ⟨S1048576x32, .i32⟩) main_call0_call0_v145) (TRef.of (T := ⟨S1048576x32, .i32⟩) main_call0_call0_v146) Host.shrui,
    TRef.binary (TRef.of (T := ⟨S1048576x32, .i32⟩) main_call0_call0_v144) (TRef.of (T := ⟨S1048576x32, .i32⟩) main_call0_call0_v146) (TRef.of (T := ⟨S1048576x32, .i32⟩) main_call0_call0_v147) ori,
    TRef.binary (TRef.of (T := ⟨S1048576x32, .i32⟩) main_call0_call0_v142) (TRef.of (T := ⟨S1048576x32, .i32⟩) main_call0_call0_v147) (TRef.of (T := ⟨S1048576x32, .i32⟩) main_call0_call0_v148) xori,
    TRef.binary (TRef.of (T := ⟨S1048576x32, .i32⟩) main_call0_call0_v142) (TRef.of (T := ⟨S1048576x32, .i32⟩) main_call0_call0_v148) (TRef.of (T := ⟨S1048576x32, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S1048576x32, .i32⟩) main_call0_call0_v150) (broadcastInDim S1048576x32 ![] bcast_S_S1048576x32),
    TRef.binary (TRef.of (T := ⟨S1048576x32, .i32⟩) main_call0_call0_v148) (TRef.of (T := ⟨S1048576x32, .i32⟩) main_call0_call0_v150) (TRef.of (T := ⟨S1048576x32, .i32⟩) main_call0_call0_v151) Host.shli ]

/-- Operations 227 … 238 of 283 (the block function's statements 181 … 222). -/
abbrev w20 : List (HloOp τ sig (Elt F)) :=
  [ TRef.nullary (TRef.of (T := ⟨S_, .i32⟩) main_call0_call0_c_39) (constantI S_ 32 17#32),
    TRef.unary (TRef.of (T := ⟨S_, .i32⟩) main_call0_call0_c_39) (TRef.of (T := ⟨S1048576x32, .i32⟩) main_call0_call0_v152) (broadcastInDim S1048576x32 ![] bcast_S_S1048576x32),
    TRef.binary (TRef.of (T := ⟨S1048576x32, .i32⟩) main_call0_call0_v148) (TRef.of (T := ⟨S1048576x32, .i32⟩) main_call0_call0_v152) (TRef.of (T := ⟨S1048576x32, .i32⟩) main_call0_call0_v153) Host.shrui,
    TRef.binary (TRef.of (T := ⟨S1048576x32, .i32⟩) main_call0_call0_v151) (TRef.of (T := ⟨S1048576x32, .i32⟩) main_call0_call0_v153) (TRef.of (T := ⟨S1048576x32, .i32⟩) main_call0_call0_v154) ori,
    TRef.binary (TRef.of (T := ⟨S1048576x32, .i32⟩) main_call0_call0_v149) (TRef.of (T := ⟨S1048576x32, .i32⟩) main_call0_call0_v154) (TRef.of (T := ⟨S1048576x32, .i32⟩) main_call0_call0_v155) xori,
    TRef.binary (TRef.of (T := ⟨S1048576x32, .i32⟩) main_call0_call0_v149) (TRef.of (T := ⟨S1048576x32, .i32⟩) main_call0_call0_v155) (TRef.of (T := ⟨S1048576x32, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S1048576x32, .i32⟩) main_call0_call0_v157) (broadcastInDim S1048576x32 ![] bcast_S_S1048576x32),
    TRef.binary (TRef.of (T := ⟨S1048576x32, .i32⟩) main_call0_call0_v155) (TRef.of (T := ⟨S1048576x32, .i32⟩) main_call0_call0_v157) (TRef.of (T := ⟨S1048576x32, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S1048576x32, .i32⟩) main_call0_call0_v159) (broadcastInDim S1048576x32 ![] bcast_S_S1048576x32),
    TRef.binary (TRef.of (T := ⟨S1048576x32, .i32⟩) main_call0_call0_v155) (TRef.of (T := ⟨S1048576x32, .i32⟩) main_call0_call0_v159) (TRef.of (T := ⟨S1048576x32, .i32⟩) main_call0_call0_v160) Host.shrui ]

/-- Operations 239 … 250 of 283 (the block function's statements 181 … 222). -/
abbrev w21 : List (HloOp τ sig (Elt F)) :=
  [ TRef.binary (TRef.of (T := ⟨S1048576x32, .i32⟩) main_call0_call0_v158) (TRef.of (T := ⟨S1048576x32, .i32⟩) main_call0_call0_v160) (TRef.of (T := ⟨S1048576x32, .i32⟩) main_call0_call0_v161) ori,
    TRef.binary (TRef.of (T := ⟨S1048576x32, .i32⟩) main_call0_call0_v156) (TRef.of (T := ⟨S1048576x32, .i32⟩) main_call0_call0_v161) (TRef.of (T := ⟨S1048576x32, .i32⟩) main_call0_call0_v162) xori,
    TRef.binary (TRef.of (T := ⟨S1048576x32, .i32⟩) main_call0_call0_v156) (TRef.of (T := ⟨S1048576x32, .i32⟩) main_call0_call0_v162) (TRef.of (T := ⟨S1048576x32, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S1048576x32, .i32⟩) main_call0_call0_v164) (broadcastInDim S1048576x32 ![] bcast_S_S1048576x32),
    TRef.binary (TRef.of (T := ⟨S1048576x32, .i32⟩) main_call0_call0_v162) (TRef.of (T := ⟨S1048576x32, .i32⟩) main_call0_call0_v164) (TRef.of (T := ⟨S1048576x32, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S1048576x32, .i32⟩) main_call0_call0_v166) (broadcastInDim S1048576x32 ![] bcast_S_S1048576x32),
    TRef.binary (TRef.of (T := ⟨S1048576x32, .i32⟩) main_call0_call0_v162) (TRef.of (T := ⟨S1048576x32, .i32⟩) main_call0_call0_v166) (TRef.of (T := ⟨S1048576x32, .i32⟩) main_call0_call0_v167) Host.shrui,
    TRef.binary (TRef.of (T := ⟨S1048576x32, .i32⟩) main_call0_call0_v165) (TRef.of (T := ⟨S1048576x32, .i32⟩) main_call0_call0_v167) (TRef.of (T := ⟨S1048576x32, .i32⟩) main_call0_call0_v168) ori,
    TRef.binary (TRef.of (T := ⟨S1048576x32, .i32⟩) main_call0_call0_v163) (TRef.of (T := ⟨S1048576x32, .i32⟩) main_call0_call0_v168) (TRef.of (T := ⟨S1048576x32, .i32⟩) main_call0_call0_v169) xori,
    TRef.unary (TRef.of (T := ⟨S_, .i32⟩) main_call0_call0_v1) (TRef.of (T := ⟨S1048576x32, .i32⟩) main_call0_call0_v170) (broadcastInDim S1048576x32 ![] bcast_S_S1048576x32) ]

/-- Operations 251 … 256 of 283 (the block function's statements 181 … 222). -/
abbrev w22 : List (HloOp τ sig (Elt F)) :=
  [ TRef.binary (TRef.of (T := ⟨S1048576x32, .i32⟩) main_call0_call0_v163) (TRef.of (T := ⟨S1048576x32, .i32⟩) main_call0_call0_v170) (TRef.of (T := ⟨S1048576x32, .i32⟩) main_call0_v19_0) addi,
    TRef.unary (TRef.of (T := ⟨S_, .i32⟩) main_call0_v5) (TRef.of (T := ⟨S1048576x32, .i32⟩) main_call0_call0_v172) (broadcastInDim S1048576x32 ![] bcast_S_S1048576x32),
    TRef.binary (TRef.of (T := ⟨S1048576x32, .i32⟩) main_call0_call0_v169) (TRef.of (T := ⟨S1048576x32, .i32⟩) main_call0_call0_v172) (TRef.of (T := ⟨S1048576x32, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S1048576x32, .i32⟩) main_call0_call0_v174) (broadcastInDim S1048576x32 ![] bcast_S_S1048576x32),
    TRef.binary (TRef.of (T := ⟨S1048576x32, .i32⟩) main_call0_call0_v173) (TRef.of (T := ⟨S1048576x32, .i32⟩) main_call0_call0_v174) (TRef.of (T := ⟨S1048576x32, .i32⟩) main_call0_v19_1) addi ]

/-- Operations 257 … 268 of 283 (the uniform sampler's operations after the block function returns). -/
abbrev w23 : List (HloOp τ sig (Elt F)) :=
  [ TRef.binary (TRef.of (T := ⟨S1048576x32, .i32⟩) main_call0_v19_0) (TRef.of (T := ⟨S1048576x32, .i32⟩) main_call0_v19_1) (TRef.of (T := ⟨S1048576x32, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S1048576x32, .i32⟩) main_call0_v21) (broadcastInDim S1048576x32 ![] bcast_S_S1048576x32),
    TRef.binary (TRef.of (T := ⟨S1048576x32, .i32⟩) main_call0_v20) (TRef.of (T := ⟨S1048576x32, .i32⟩) main_call0_v21) (TRef.of (T := ⟨S1048576x32, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S1048576x32, .i32⟩) main_call0_v23) (broadcastInDim S1048576x32 ![] bcast_S_S1048576x32),
    TRef.binary (TRef.of (T := ⟨S1048576x32, .i32⟩) main_call0_v22) (TRef.of (T := ⟨S1048576x32, .i32⟩) main_call0_v23) (TRef.of (T := ⟨S1048576x32, .i32⟩) main_call0_v24) ori,
    TRef.unary (TRef.of (T := ⟨S1048576x32, .i32⟩) main_call0_v24) (TRef.of (T := ⟨S1048576x32, .f32⟩) main_call0_v25) (bitcastToFloat .f32),
    TRef.nullary (TRef.of (T := ⟨S_, .f32⟩) main_call0_cst) (constant S_ .f32 0x3F800000#32),
    TRef.unary (TRef.of (T := ⟨S_, .f32⟩) main_call0_cst) (TRef.of (T := ⟨S1048576x32, .f32⟩) main_call0_v26) (broadcastInDim S1048576x32 ![] bcast_S_S1048576x32),
    TRef.binary (TRef.of (T := ⟨S1048576x32, .f32⟩) main_call0_v25) (TRef.of (T := ⟨S1048576x32, .f32⟩) main_call0_v26) (TRef.of (T := ⟨S1048576x32, .f32⟩) main_call0_v27) subf,
    TRef.binary (TRef.of (T := ⟨S1x1, .f32⟩) main_call0_v3) (TRef.of (T := ⟨S1x1, .f32⟩) main_call0_v2) (TRef.of (T := ⟨S1x1, .f32⟩) main_call0_v28) subf ]

/-- Operations 269 … 274 of 283 (the uniform sampler's operations after the block function returns). -/
abbrev w24 : List (HloOp τ sig (Elt F)) :=
  [ TRef.unary (TRef.of (T := ⟨S1x1, .f32⟩) main_call0_v28) (TRef.of (T := ⟨S1048576x32, .f32⟩) main_call0_v29) (broadcastInDim S1048576x32 ![0, 1] bcast_S1x1_S1048576x32_0_1),
    TRef.binary (TRef.of (T := ⟨S1048576x32, .f32⟩) main_call0_v27) (TRef.of (T := ⟨S1048576x32, .f32⟩) main_call0_v29) (TRef.of (T := ⟨S1048576x32, .f32⟩) main_call0_v30) mulf,
    TRef.unary (TRef.of (T := ⟨S1x1, .f32⟩) main_call0_v2) (TRef.of (T := ⟨S1048576x32, .f32⟩) main_call0_v31) (broadcastInDim S1048576x32 ![0, 1] bcast_S1x1_S1048576x32_0_1),
    TRef.binary (TRef.of (T := ⟨S1048576x32, .f32⟩) main_call0_v30) (TRef.of (T := ⟨S1048576x32, .f32⟩) main_call0_v31) (TRef.of (T := ⟨S1048576x32, .f32⟩) main_call0_v32) addf,
    TRef.unary (TRef.of (T := ⟨S1x1, .f32⟩) main_call0_v2) (TRef.of (T := ⟨S1048576x32, .f32⟩) main_call0_v33) (broadcastInDim S1048576x32 ![0, 1] bcast_S1x1_S1048576x32_0_1),
    TRef.binary (TRef.of (T := ⟨S1048576x32, .f32⟩) main_call0_v33) (TRef.of (T := ⟨S1048576x32, .f32⟩) main_call0_v32) (TRef.of (T := ⟨S1048576x32, .f32⟩) main_v7) maximumf ]

/-- Operations 275 … 283 of 283 (@main's operations after the uniform sampler returns). -/
abbrev w25 : List (HloOp τ sig (Elt F)) :=
  [ unary main_arg1 main_v8 (broadcastInDim S1048576x32 ![] bcast_S_S1048576x32 : (⟨S_, .f32⟩ : BufTy).Contents (Elt F) → (⟨S1048576x32, .f32⟩ : BufTy).Contents (Elt F)),
    binary main_v7 main_v8 main_v9 (cmpf .olt : (⟨S1048576x32, .f32⟩ : BufTy).Contents (Elt F) → (⟨S1048576x32, .f32⟩ : BufTy).Contents (Elt F) → (⟨S1048576x32, .i1⟩ : BufTy).Contents (Elt F)),
    unary main_v9 main_v10 ((extui 32 · natLt_1_32) : (⟨S1048576x32, .i1⟩ : BufTy).Contents (Elt F) → (⟨S1048576x32, .i32⟩ : BufTy).Contents (Elt F)),
    nullary main_v11 (iotaInDim S32 32 0),
    reshape main_v11 main_v12 rfl shapeCasts_S32_S1x32,
    unary main_v12 main_v13 (broadcastInDim S1048576x32 ![0, 1] bcast_S1x32_S1048576x32_0_1 : (⟨S1x32, .i32⟩ : BufTy).Contents (Elt F) → (⟨S1048576x32, .i32⟩ : BufTy).Contents (Elt F)),
    binary main_v10 main_v13 main_v14 (Host.shli : (⟨S1048576x32, .i32⟩ : BufTy).Contents (Elt F) → (⟨S1048576x32, .i32⟩ : BufTy).Contents (Elt F) → (⟨S1048576x32, .i32⟩ : BufTy).Contents (Elt F)),
    nullary main_c_3 (constantI S_ 32 0#32),
    binary main_v14 main_c_3 main_v15 ((fun x v => Host.reduce IntOp.addi x v reducesTo_S1048576x32_S1048576_d1 h_S_) : (⟨S1048576x32, .i32⟩ : BufTy).Contents (Elt F) → (⟨S_, .i32⟩ : BufTy).Contents (Elt F) → (⟨S1048576, .i32⟩ : BufTy).Contents (Elt F)) ]

/-- @main's 283 operations, in order. -/
abbrev ops : List (HloOp τ sig (Elt F)) :=
  w01 ++ (w02 ++ (w03 ++ (w04 ++ (w05 ++ (w06 ++ (w07 ++ (w08 ++ (w09 ++ (w10 ++ (w11 ++ (w12 ++ (w13 ++ (w14 ++ (w15 ++ (w16 ++ (w17 ++ (w18 ++ (w19 ++ (w20 ++ (w21 ++ (w22 ++ (w23 ++ (w24 ++ (w25))))))))))))))))))))))))

theorem w01_sub : (w01 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩
theorem w01_fresh : (w01 : List (HloOp τ sig (Elt F))).Forall fun op => op.fresh = ∅ :=
  ⟨rfl, rfl, rfl, rfl, rfl, rfl, rfl, rfl, rfl, rfl, rfl, rfl⟩
theorem w02_sub : (w02 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub ..⟩
theorem w02_fresh : (w02 : List (HloOp τ sig (Elt F))).Forall fun op => op.fresh = ∅ :=
  ⟨rfl, rfl, rfl, rfl, rfl, rfl, rfl, rfl, rfl, rfl, rfl, rfl⟩
theorem w03_sub : (w03 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., unary_bufs_sub .., unary_bufs_sub ..⟩
theorem w03_fresh : (w03 : List (HloOp τ sig (Elt F))).Forall fun op => op.fresh = ∅ :=
  ⟨rfl, rfl, rfl, rfl, rfl, rfl, rfl, rfl, rfl, rfl⟩
theorem w04_sub : (w04 : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub ..⟩
theorem w04_fresh : (w04 : List (HloOp τ sig (Elt F))).Forall fun op => op.fresh = ∅ :=
  ⟨rfl, rfl, rfl, rfl, rfl, rfl, rfl, rfl, rfl, rfl, rfl, rfl⟩
theorem w05_sub : (w05 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
theorem w05_fresh : (w05 : List (HloOp τ sig (Elt F))).Forall fun op => op.fresh = ∅ :=
  ⟨rfl, rfl, rfl, rfl, rfl, rfl, rfl, rfl, rfl, rfl, rfl, rfl⟩
theorem w06_sub : (w06 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
theorem w06_fresh : (w06 : List (HloOp τ sig (Elt F))).Forall fun op => op.fresh = ∅ :=
  ⟨rfl, rfl, rfl, rfl, rfl, rfl, rfl, rfl, rfl, rfl, rfl, rfl⟩
theorem w07_sub : (w07 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩
theorem w07_fresh : (w07 : List (HloOp τ sig (Elt F))).Forall fun op => op.fresh = ∅ :=
  ⟨rfl, rfl, rfl, rfl, rfl, rfl, rfl, rfl, rfl, rfl, rfl, rfl⟩
theorem w08_sub : (w08 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
theorem w08_fresh : (w08 : List (HloOp τ sig (Elt F))).Forall fun op => op.fresh = ∅ :=
  ⟨rfl, rfl, rfl, rfl, rfl, rfl, rfl, rfl, rfl, rfl, rfl, rfl⟩
theorem w09_sub : (w09 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
theorem w09_fresh : (w09 : List (HloOp τ sig (Elt F))).Forall fun op => op.fresh = ∅ :=
  ⟨rfl, rfl, rfl, rfl, rfl, rfl, rfl, rfl, rfl, rfl, rfl, rfl⟩
theorem w10_sub : (w10 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
theorem w10_fresh : (w10 : List (HloOp τ sig (Elt F))).Forall fun op => op.fresh = ∅ :=
  ⟨rfl, rfl, rfl, rfl, rfl, rfl, rfl, rfl, rfl, rfl, rfl, rfl⟩
theorem w11_sub : (w11 : List (HloOp τ sig (Elt F))).Forall fun op => op.bufs ⊆ tcRefs τ sig :=
  ⟨binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
theorem w11_fresh : (w11 : List (HloOp τ sig (Elt F))).Forall fun op => op.fresh = ∅ :=
  ⟨rfl, rfl, rfl, rfl, rfl, rfl, rfl, rfl, rfl, rfl, rfl, rfl⟩
theorem w12_sub : (w12 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
theorem w12_fresh : (w12 : List (HloOp τ sig (Elt F))).Forall fun op => op.fresh = ∅ :=
  ⟨rfl, rfl, rfl, rfl, rfl, rfl, rfl, rfl, rfl, rfl, rfl, rfl⟩
theorem w13_sub : (w13 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem w13_fresh : (w13 : List (HloOp τ sig (Elt F))).Forall fun op => op.fresh = ∅ :=
  ⟨rfl, rfl, rfl, rfl, rfl, rfl, rfl, rfl, rfl, rfl, rfl, rfl⟩
theorem w14_sub : (w14 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub ..⟩
theorem w14_fresh : (w14 : List (HloOp τ sig (Elt F))).Forall fun op => op.fresh = ∅ :=
  ⟨rfl, rfl, rfl, rfl, rfl, rfl, rfl, rfl, rfl, rfl, rfl, rfl⟩
theorem w15_sub : (w15 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
theorem w15_fresh : (w15 : List (HloOp τ sig (Elt F))).Forall fun op => op.fresh = ∅ :=
  ⟨rfl, rfl, rfl, rfl, rfl, rfl, rfl, rfl, rfl, rfl, rfl, rfl⟩
theorem w16_sub : (w16 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
theorem w16_fresh : (w16 : List (HloOp τ sig (Elt F))).Forall fun op => op.fresh = ∅ :=
  ⟨rfl, rfl, rfl, rfl, rfl, rfl, rfl, rfl, rfl, rfl, rfl, rfl⟩
theorem w17_sub : (w17 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
theorem w17_fresh : (w17 : List (HloOp τ sig (Elt F))).Forall fun op => op.fresh = ∅ :=
  ⟨rfl, rfl, rfl, rfl, rfl, rfl, rfl, rfl, rfl, rfl, rfl, rfl⟩
theorem w18_sub : (w18 : List (HloOp τ sig (Elt F))).Forall fun op => op.bufs ⊆ tcRefs τ sig :=
  ⟨unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem w18_fresh : (w18 : List (HloOp τ sig (Elt F))).Forall fun op => op.fresh = ∅ :=
  ⟨rfl, rfl, rfl, rfl, rfl, rfl, rfl, rfl, rfl, rfl, rfl, rfl⟩
theorem w19_sub : (w19 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
theorem w19_fresh : (w19 : List (HloOp τ sig (Elt F))).Forall fun op => op.fresh = ∅ :=
  ⟨rfl, rfl, rfl, rfl, rfl, rfl, rfl, rfl, rfl, rfl, rfl, rfl⟩
theorem w20_sub : (w20 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
theorem w20_fresh : (w20 : List (HloOp τ sig (Elt F))).Forall fun op => op.fresh = ∅ :=
  ⟨rfl, rfl, rfl, rfl, rfl, rfl, rfl, rfl, rfl, rfl, rfl, rfl⟩
theorem w21_sub : (w21 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
theorem w21_fresh : (w21 : List (HloOp τ sig (Elt F))).Forall fun op => op.fresh = ∅ :=
  ⟨rfl, rfl, rfl, rfl, rfl, rfl, rfl, rfl, rfl, rfl, rfl, rfl⟩
theorem w22_sub : (w22 : List (HloOp τ sig (Elt F))).Forall fun op => op.bufs ⊆ tcRefs τ sig :=
  ⟨binary_bufs_sub .., unary_bufs_sub .., binary_bufs_sub .., nullary_bufs_sub .., unary_bufs_sub .., binary_bufs_sub ..⟩
theorem w22_fresh : (w22 : List (HloOp τ sig (Elt F))).Forall fun op => op.fresh = ∅ :=
  ⟨rfl, rfl, rfl, rfl, rfl, rfl⟩
theorem w23_sub : (w23 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
theorem w23_fresh : (w23 : List (HloOp τ sig (Elt F))).Forall fun op => op.fresh = ∅ :=
  ⟨rfl, rfl, rfl, rfl, rfl, rfl, rfl, rfl, rfl, rfl, rfl, rfl⟩
theorem w24_sub : (w24 : List (HloOp τ sig (Elt F))).Forall fun op => op.bufs ⊆ tcRefs τ sig :=
  ⟨unary_bufs_sub .., binary_bufs_sub .., unary_bufs_sub .., binary_bufs_sub .., unary_bufs_sub .., binary_bufs_sub ..⟩
theorem w24_fresh : (w24 : List (HloOp τ sig (Elt F))).Forall fun op => op.fresh = ∅ :=
  ⟨rfl, rfl, rfl, rfl, rfl, rfl⟩
theorem w25_sub : (w25 : List (HloOp τ sig (Elt F))).Forall fun op => op.bufs ⊆ tcRefs τ sig :=
  ⟨unary_bufs_sub .., binary_bufs_sub .., unary_bufs_sub .., nullary_bufs_sub .., reshape_bufs_sub .., unary_bufs_sub .., binary_bufs_sub .., nullary_bufs_sub .., binary_bufs_sub ..⟩
theorem w25_fresh : (w25 : List (HloOp τ sig (Elt F))).Forall fun op => op.fresh = ∅ :=
  ⟨rfl, rfl, rfl, rfl, rfl, rfl, rfl, rfl, rfl⟩

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.2 (List.forall_mem_append.2 ⟨List.forall_iff_forall_mem.1 h₁, List.forall_iff_forall_mem.1 h₂⟩)

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A buffer among a list of references is, as a device buffer, among the list's device buffers. -/
theorem wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

theorem ops_sub : (ops : List (HloOp τ sig (Elt F))).Forall fun op => op.bufs ⊆ tcRefs τ sig :=
  forall_append w01_sub (forall_append w02_sub (forall_append w03_sub (forall_append w04_sub (forall_append w05_sub (forall_append w06_sub (forall_append w07_sub (forall_append w08_sub (forall_append w09_sub (forall_append w10_sub (forall_append w11_sub (forall_append w12_sub (forall_append w13_sub (forall_append w14_sub (forall_append w15_sub (forall_append w16_sub (forall_append w17_sub (forall_append w18_sub (forall_append w19_sub (forall_append w20_sub (forall_append w21_sub (forall_append w22_sub (forall_append w23_sub (forall_append w24_sub (w25_sub))))))))))))))))))))))))
theorem ops_fresh : ∀ op ∈ (ops : List (HloOp τ sig (Elt F))), op.fresh = ∅ :=
  List.forall_iff_forall_mem.1 (forall_append w01_fresh (forall_append w02_fresh (forall_append w03_fresh (forall_append w04_fresh (forall_append w05_fresh (forall_append w06_fresh (forall_append w07_fresh (forall_append w08_fresh (forall_append w09_fresh (forall_append w10_fresh (forall_append w11_fresh (forall_append w12_fresh (forall_append w13_fresh (forall_append w14_fresh (forall_append w15_fresh (forall_append w16_fresh (forall_append w17_fresh (forall_append w18_fresh (forall_append w19_fresh (forall_append w20_fresh (forall_append w21_fresh (forall_append w22_fresh (forall_append w23_fresh (forall_append w24_fresh (w25_fresh)))))))))))))))))))))))))

set_option maxRecDepth 65536 in
set_option maxHeartbeats 8000000 in
/-- @main is that straight line: the two functions' bodies unfold at their calls, the records at their fields. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefSide

end
-- ==== Proof.RefRunVals.lean ====
/-
  The value each buffer of the reference program holds after its run, as a pure function of the probability
  argument: one definition per operation, the operation's function applied to its operands' values. The run is
  read window by window: after each window of operations every buffer still needed holds its named value.
-/
import proofs.«203736_g78743930405654_cont_9to1c4b_297_23_alg».proof.Proof.RefRunOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The named values -/

/-- The value of `main_c`: %c = stablehlo.constant dense<42> : tensor<i32>. -/
def res_main_c (p : (⟨S_, .f32⟩ : BufTy).Contents (Elt F)) : (⟨S_, .i32⟩ : BufTy).Contents (Elt F) :=
  (constantI S_ 32 42#32)
/-- The value of `main_c_0`: %c_0 = stablehlo.constant dense<32> : tensor<i32>. -/
def res_main_c_0 (p : (⟨S_, .f32⟩ : BufTy).Contents (Elt F)) : (⟨S_, .i32⟩ : BufTy).Contents (Elt F) :=
  (constantI S_ 32 32#32)
/-- The value of `main_v0`: %0 = stablehlo.shift_right_logical %c, %c_0 : tensor<i32>. -/
def res_main_v0 (p : (⟨S_, .f32⟩ : BufTy).Contents (Elt F)) : (⟨S_, .i32⟩ : BufTy).Contents (Elt F) :=
  (Host.shrui : (⟨S_, .i32⟩ : BufTy).Contents (Elt F) → (⟨S_, .i32⟩ : BufTy).Contents (Elt F) → (⟨S_, .i32⟩ : BufTy).Contents (Elt F)) (res_main_c p) (res_main_c_0 p)
/-- The value of `main_v1`: %1 = stablehlo.convert %0 : (tensor<i32>) -> tensor<ui32>. -/
def res_main_v1 (p : (⟨S_, .f32⟩ : BufTy).Contents (Elt F)) : (⟨S_, .i32⟩ : BufTy).Contents (Elt F) :=
  (id : (⟨S_, .i32⟩ : BufTy).Contents (Elt F) → (⟨S_, .i32⟩ : BufTy).Contents (Elt F)) (res_main_v0 p)
/-- The value of `main_v2`: %2 = stablehlo.broadcast_in_dim %1, dims = [] : (tensor<ui32>) -> tensor<1xui32>. -/
def res_main_v2 (p : (⟨S_, .f32⟩ : BufTy).Contents (Elt F)) : (⟨S1, .i32⟩ : BufTy).Contents (Elt F) :=
  (broadcastInDim S1 ![] bcast_S_S1 : (⟨S_, .i32⟩ : BufTy).Contents (Elt F) → (⟨S1, .i32⟩ : BufTy).Contents (Elt F)) (res_main_v1 p)
/-- The value of `main_c_1`: %c_1 = stablehlo.constant dense<-1> : tensor<i32>. -/
def res_main_c_1 (p : (⟨S_, .f32⟩ : BufTy).Contents (Elt F)) : (⟨S_, .i32⟩ : BufTy).Contents (Elt F) :=
  (constantI S_ 32 4294967295#32)
/-- The value of `main_v3`: %3 = stablehlo.and %c, %c_1 : tensor<i32>. -/
def res_main_v3 (p : (⟨S_, .f32⟩ : BufTy).Contents (Elt F)) : (⟨S_, .i32⟩ : BufTy).Contents (Elt F) :=
  (andi : (⟨S_, .i32⟩ : BufTy).Contents (Elt F) → (⟨S_, .i32⟩ : BufTy).Contents (Elt F) → (⟨S_, .i32⟩ : BufTy).Contents (Elt F)) (res_main_c p) (res_main_c_1 p)
/-- The value of `main_v4`: %4 = stablehlo.convert %3 : (tensor<i32>) -> tensor<ui32>. -/
def res_main_v4 (p : (⟨S_, .f32⟩ : BufTy).Contents (Elt F)) : (⟨S_, .i32⟩ : BufTy).Contents (Elt F) :=
  (id : (⟨S_, .i32⟩ : BufTy).Contents (Elt F) → (⟨S_, .i32⟩ : BufTy).Contents (Elt F)) (res_main_v3 p)
/-- The value of `main_v5`: %5 = stablehlo.broadcast_in_dim %4, dims = [] : (tensor<ui32>) -> tensor<1xui32>. -/
def res_main_v5 (p : (⟨S_, .f32⟩ : BufTy).Contents (Elt F)) : (⟨S1, .i32⟩ : BufTy).Contents (Elt F) :=
  (broadcastInDim S1 ![] bcast_S_S1 : (⟨S_, .i32⟩ : BufTy).Contents (Elt F) → (⟨S1, .i32⟩ : BufTy).Contents (Elt F)) (res_main_v4 p)
/-- The value of `main_v6`: %6 = stablehlo.concatenate %2, %5, dim = 0 : (tensor<1xui32>, tensor<1xui32>) -> tensor<2xui32>. -/
def res_main_v6 (p : (⟨S_, .f32⟩ : BufTy).Contents (Elt F)) : (⟨S2, .i32⟩ : BufTy).Contents (Elt F) :=
  ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (res_main_v2 p) (res_main_v5 p)
/-- The value of `main_cst`: %cst = stablehlo.constant dense<0.000000e+00> : tensor<f32>. -/
def res_main_cst (p : (⟨S_, .f32⟩ : BufTy).Contents (Elt F)) : (⟨S_, .f32⟩ : BufTy).Contents (Elt F) :=
  (constant S_ .f32 0x00000000#32)
/-- The value of `main_cst_2`: %cst_2 = stablehlo.constant dense<1.000000e+00> : tensor<f32>. -/
def res_main_cst_2 (p : (⟨S_, .f32⟩ : BufTy).Contents (Elt F)) : (⟨S_, .f32⟩ : BufTy).Contents (Elt F) :=
  (constant S_ .f32 0x3F800000#32)
/-- The value of `main_call0_v0`: %0 = stablehlo.convert %arg1 : tensor<f32>. -/
def res_main_call0_v0 (p : (⟨S_, .f32⟩ : BufTy).Contents (Elt F)) : (⟨S_, .f32⟩ : BufTy).Contents (Elt F) :=
  id (res_main_cst p)
/-- The value of `main_call0_v1`: %1 = stablehlo.convert %arg2 : tensor<f32>. -/
def res_main_call0_v1 (p : (⟨S_, .f32⟩ : BufTy).Contents (Elt F)) : (⟨S_, .f32⟩ : BufTy).Contents (Elt F) :=
  id (res_main_cst_2 p)
/-- The value of `main_call0_v2`: %2 = stablehlo.broadcast_in_dim %0, dims = [] : (tensor<f32>) -> tensor<1x1xf32>. -/
def res_main_call0_v2 (p : (⟨S_, .f32⟩ : BufTy).Contents (Elt F)) : (⟨S1x1, .f32⟩ : BufTy).Contents (Elt F) :=
  (broadcastInDim S1x1 ![] bcast_S_S1x1) (res_main_call0_v0 p)
/-- The value of `main_call0_v3`: %3 = stablehlo.broadcast_in_dim %1, dims = [] : (tensor<f32>) -> tensor<1x1xf32>. -/
def res_main_call0_v3 (p : (⟨S_, .f32⟩ : BufTy).Contents (Elt F)) : (⟨S1x1, .f32⟩ : BufTy).Contents (Elt F) :=
  (broadcastInDim S1x1 ![] bcast_S_S1x1) (res_main_call0_v1 p)
/-- The value of `main_call0_v4`: %4 = stablehlo.slice %arg0 [0:1] : (tensor<2xui32>) -> tensor<1xui32>. -/
def res_main_call0_v4 (p : (⟨S_, .f32⟩ : BufTy).Contents (Elt F)) : (⟨S1, .i32⟩ : BufTy).Contents (Elt F) :=
  (extractStridedSlice S1 ![0] · slices_S2_S1_0) (res_main_v6 p)
/-- The value of `main_call0_v5`: %5 = stablehlo.reshape %4 : (tensor<1xui32>) -> tensor<ui32>. -/
def res_main_call0_v5 (p : (⟨S_, .f32⟩ : BufTy).Contents (Elt F)) : (⟨S_, .i32⟩ : BufTy).Contents (Elt F) :=
  (shapeCast _ · shapeCasts_S1_S_) (res_main_call0_v4 p)
/-- The value of `main_call0_v6`: %6 = stablehlo.slice %arg0 [1:2] : (tensor<2xui32>) -> tensor<1xui32>. -/
def res_main_call0_v6 (p : (⟨S_, .f32⟩ : BufTy).Contents (Elt F)) : (⟨S1, .i32⟩ : BufTy).Contents (Elt F) :=
  (extractStridedSlice S1 ![1] · slices_S2_S1_1) (res_main_v6 p)
/-- The value of `main_call0_v7`: %7 = stablehlo.reshape %6 : (tensor<1xui32>) -> tensor<ui32>. -/
def res_main_call0_v7 (p : (⟨S_, .f32⟩ : BufTy).Contents (Elt F)) : (⟨S_, .i32⟩ : BufTy).Contents (Elt F) :=
  (shapeCast _ · shapeCasts_S1_S_) (res_main_call0_v6 p)
/-- The value of `main_call0_v8`: %8 = stablehlo.iota dim = 0 : tensor<1048576x32xui64>. -/
def res_main_call0_v8 (p : (⟨S_, .f32⟩ : BufTy).Contents (Elt F)) : (⟨S1048576x32, .i64⟩ : BufTy).Contents (Elt F) :=
  (iotaInDim S1048576x32 64 0)
/-- The value of `main_call0_v9`: %9 = stablehlo.iota dim = 1 : tensor<1048576x32xui64>. -/
def res_main_call0_v9 (p : (⟨S_, .f32⟩ : BufTy).Contents (Elt F)) : (⟨S1048576x32, .i64⟩ : BufTy).Contents (Elt F) :=
  (iotaInDim S1048576x32 64 1)
/-- The value of `main_call0_c`: %c = stablehlo.constant dense<32> : tensor<ui64>. -/
def res_main_call0_c (p : (⟨S_, .f32⟩ : BufTy).Contents (Elt F)) : (⟨S_, .i64⟩ : BufTy).Contents (Elt F) :=
  (constantI S_ 64 32#64)
/-- The value of `main_call0_v10`: %10 = stablehlo.broadcast_in_dim %c, dims = [] : (tensor<ui64>) -> tensor<1048576x32xui64>. -/
def res_main_call0_v10 (p : (⟨S_, .f32⟩ : BufTy).Contents (Elt F)) : (⟨S1048576x32, .i64⟩ : BufTy).Contents (Elt F) :=
  (broadcastInDim S1048576x32 ![] bcast_S_S1048576x32) (res_main_call0_c p)
/-- The value of `main_call0_v11`: %11 = stablehlo.multiply %10, %8 : tensor<1048576x32xui64>. -/
def res_main_call0_v11 (p : (⟨S_, .f32⟩ : BufTy).Contents (Elt F)) : (⟨S1048576x32, .i64⟩ : BufTy).Contents (Elt F) :=
  muli (res_main_call0_v10 p) (res_main_call0_v8 p)
/-- The value of `main_call0_c_0`: %c_0 = stablehlo.constant dense<1> : tensor<ui64>. -/
def res_main_call0_c_0 (p : (⟨S_, .f32⟩ : BufTy).Contents (Elt F)) : (⟨S_, .i64⟩ : BufTy).Contents (Elt F) :=
  (constantI S_ 64 1#64)
/-- The value of `main_call0_v12`: %12 = stablehlo.broadcast_in_dim %c_0, dims = [] : (tensor<ui64>) -> tensor<1048576x32xui64>. -/
def res_main_call0_v12 (p : (⟨S_, .f32⟩ : BufTy).Contents (Elt F)) : (⟨S1048576x32, .i64⟩ : BufTy).Contents (Elt F) :=
  (broadcastInDim S1048576x32 ![] bcast_S_S1048576x32) (res_main_call0_c_0 p)
/-- The value of `main_call0_v13`: %13 = stablehlo.multiply %12, %9 : tensor<1048576x32xui64>. -/
def res_main_call0_v13 (p : (⟨S_, .f32⟩ : BufTy).Contents (Elt F)) : (⟨S1048576x32, .i64⟩ : BufTy).Contents (Elt F) :=
  muli (res_main_call0_v12 p) (res_main_call0_v9 p)
/-- The value of `main_call0_v14`: %14 = stablehlo.add %11, %13 : tensor<1048576x32xui64>. -/
def res_main_call0_v14 (p : (⟨S_, .f32⟩ : BufTy).Contents (Elt F)) : (⟨S1048576x32, .i64⟩ : BufTy).Contents (Elt F) :=
  addi (res_main_call0_v11 p) (res_main_call0_v13 p)
/-- The value of `main_call0_c_1`: %c_1 = stablehlo.constant dense<32> : tensor<ui64>. -/
def res_main_call0_c_1 (p : (⟨S_, .f32⟩ : BufTy).Contents (Elt F)) : (⟨S_, .i64⟩ : BufTy).Contents (Elt F) :=
  (constantI S_ 64 32#64)
/-- The value of `main_call0_v15`: %15 = stablehlo.broadcast_in_dim %c_1, dims = [] : (tensor<ui64>) -> tensor<1048576x32xui64>. -/
def res_main_call0_v15 (p : (⟨S_, .f32⟩ : BufTy).Contents (Elt F)) : (⟨S1048576x32, .i64⟩ : BufTy).Contents (Elt F) :=
  (broadcastInDim S1048576x32 ![] bcast_S_S1048576x32) (res_main_call0_c_1 p)
/-- The value of `main_call0_v16`: %16 = stablehlo.shift_right_logical %14, %15 : tensor<1048576x32xui64>. -/
def res_main_call0_v16 (p : (⟨S_, .f32⟩ : BufTy).Contents (Elt F)) : (⟨S1048576x32, .i64⟩ : BufTy).Contents (Elt F) :=
  Host.shrui (res_main_call0_v14 p) (res_main_call0_v15 p)
/-- The value of `main_call0_v17`: %17 = stablehlo.convert %14 : (tensor<1048576x32xui64>) -> tensor<1048576x32xui32>. -/
def res_main_call0_v17 (p : (⟨S_, .f32⟩ : BufTy).Contents (Elt F)) : (⟨S1048576x32, .i32⟩ : BufTy).Contents (Elt F) :=
  (trunci 32 · natLt_32_64) (res_main_call0_v14 p)
/-- The value of `main_call0_v18`: %18 = stablehlo.convert %16 : (tensor<1048576x32xui64>) -> tensor<1048576x32xui32>. -/
def res_main_call0_v18 (p : (⟨S_, .f32⟩ : BufTy).Contents (Elt F)) : (⟨S1048576x32, .i32⟩ : BufTy).Contents (Elt F) :=
  (trunci 32 · natLt_32_64) (res_main_call0_v16 p)
/-- The value of `main_call0_call0_v0`: %0 = stablehlo.xor %arg0, %arg1 : tensor<ui32>. -/
def res_main_call0_call0_v0 (p : (⟨S_, .f32⟩ : BufTy).Contents (Elt F)) : (⟨S_, .i32⟩ : BufTy).Contents (Elt F) :=
  xori (res_main_call0_v5 p) (res_main_call0_v7 p)
/-- The value of `main_call0_call0_c`: %c = stablehlo.constant dense<466688986> : tensor<ui32>. -/
def res_main_call0_call0_c (p : (⟨S_, .f32⟩ : BufTy).Contents (Elt F)) : (⟨S_, .i32⟩ : BufTy).Contents (Elt F) :=
  (constantI S_ 32 466688986#32)
/-- The value of `main_call0_call0_v1`: %1 = stablehlo.xor %0, %c : tensor<ui32>. -/
def res_main_call0_call0_v1 (p : (⟨S_, .f32⟩ : BufTy).Contents (Elt F)) : (⟨S_, .i32⟩ : BufTy).Contents (Elt F) :=
  xori (res_main_call0_call0_v0 p) (res_main_call0_call0_c p)
/-- The value of `main_call0_call0_v2`: %2 = stablehlo.broadcast_in_dim %arg0, dims = [] : (tensor<ui32>) -> tensor<1048576x32xui32>. -/
def res_main_call0_call0_v2 (p : (⟨S_, .f32⟩ : BufTy).Contents (Elt F)) : (⟨S1048576x32, .i32⟩ : BufTy).Contents (Elt F) :=
  (broadcastInDim S1048576x32 ![] bcast_S_S1048576x32) (res_main_call0_v5 p)
/-- The value of `main_call0_call0_v3`: %3 = stablehlo.add %arg2, %2 : tensor<1048576x32xui32>. -/
def res_main_call0_call0_v3 (p : (⟨S_, .f32⟩ : BufTy).Contents (Elt F)) : (⟨S1048576x32, .i32⟩ : BufTy).Contents (Elt F) :=
  addi (res_main_call0_v18 p) (res_main_call0_call0_v2 p)
/-- The value of `main_call0_call0_v4`: %4 = stablehlo.broadcast_in_dim %arg1, dims = [] : (tensor<ui32>) -> tensor<1048576x32xui32>. -/
def res_main_call0_call0_v4 (p : (⟨S_, .f32⟩ : BufTy).Contents (Elt F)) : (⟨S1048576x32, .i32⟩ : BufTy).Contents (Elt F) :=
  (broadcastInDim S1048576x32 ![] bcast_S_S1048576x32) (res_main_call0_v7 p)
/-- The value of `main_call0_call0_v5`: %5 = stablehlo.add %arg3, %4 : tensor<1048576x32xui32>. -/
def res_main_call0_call0_v5 (p : (⟨S_, .f32⟩ : BufTy).Contents (Elt F)) : (⟨S1048576x32, .i32⟩ : BufTy).Contents (Elt F) :=
  addi (res_main_call0_v17 p) (res_main_call0_call0_v4 p)
/-- The value of `main_call0_call0_v6`: %6 = stablehlo.add %3, %5 : tensor<1048576x32xui32>. -/
def res_main_call0_call0_v6 (p : (⟨S_, .f32⟩ : BufTy).Contents (Elt F)) : (⟨S1048576x32, .i32⟩ : BufTy).Contents (Elt F) :=
  addi (res_main_call0_call0_v3 p) (res_main_call0_call0_v5 p)
/-- The value of `main_call0_call0_c_0`: %c_0 = stablehlo.constant dense<13> : tensor<ui32>. -/
def res_main_call0_call0_c_0 (p : (⟨S_, .f32⟩ : BufTy).Contents (Elt F)) : (⟨S_, .i32⟩ : BufTy).Contents (Elt F) :=
  (constantI S_ 32 13#32)
/-- The value of `main_call0_call0_v7`: %7 = stablehlo.broadcast_in_dim %c_0, dims = [] : (tensor<ui32>) -> tensor<1048576x32xui32>. -/
def res_main_call0_call0_v7 (p : (⟨S_, .f32⟩ : BufTy).Contents (Elt F)) : (⟨S1048576x32, .i32⟩ : BufTy).Contents (Elt F) :=
  (broadcastInDim S1048576x32 ![] bcast_S_S1048576x32) (res_main_call0_call0_c_0 p)
/-- The value of `main_call0_call0_v8`: %8 = stablehlo.shift_left %5, %7 : tensor<1048576x32xui32>. -/
def res_main_call0_call0_v8 (p : (⟨S_, .f32⟩ : BufTy).Contents (Elt F)) : (⟨S1048576x32, .i32⟩ : BufTy).Contents (Elt F) :=
  Host.shli (res_main_call0_call0_v5 p) (res_main_call0_call0_v7 p)
/-- The value of `main_call0_call0_c_1`: %c_1 = stablehlo.constant dense<19> : tensor<ui32>. -/
def res_main_call0_call0_c_1 (p : (⟨S_, .f32⟩ : BufTy).Contents (Elt F)) : (⟨S_, .i32⟩ : BufTy).Contents (Elt F) :=
  (constantI S_ 32 19#32)
/-- The value of `main_call0_call0_v9`: %9 = stablehlo.broadcast_in_dim %c_1, dims = [] : (tensor<ui32>) -> tensor<1048576x32xui32>. -/
def res_main_call0_call0_v9 (p : (⟨S_, .f32⟩ : BufTy).Contents (Elt F)) : (⟨S1048576x32, .i32⟩ : BufTy).Contents (Elt F) :=
  (broadcastInDim S1048576x32 ![] bcast_S_S1048576x32) (res_main_call0_call0_c_1 p)
/-- The value of `main_call0_call0_v10`: %10 = stablehlo.shift_right_logical %5, %9 : tensor<1048576x32xui32>. -/
def res_main_call0_call0_v10 (p : (⟨S_, .f32⟩ : BufTy).Contents (Elt F)) : (⟨S1048576x32, .i32⟩ : BufTy).Contents (Elt F) :=
  Host.shrui (res_main_call0_call0_v5 p) (res_main_call0_call0_v9 p)
/-- The value of `main_call0_call0_v11`: %11 = stablehlo.or %8, %10 : tensor<1048576x32xui32>. -/
def res_main_call0_call0_v11 (p : (⟨S_, .f32⟩ : BufTy).Contents (Elt F)) : (⟨S1048576x32, .i32⟩ : BufTy).Contents (Elt F) :=
  ori (res_main_call0_call0_v8 p) (res_main_call0_call0_v10 p)
/-- The value of `main_call0_call0_v12`: %12 = stablehlo.xor %6, %11 : tensor<1048576x32xui32>. -/
def res_main_call0_call0_v12 (p : (⟨S_, .f32⟩ : BufTy).Contents (Elt F)) : (⟨S1048576x32, .i32⟩ : BufTy).Contents (Elt F) :=
  xori (res_main_call0_call0_v6 p) (res_main_call0_call0_v11 p)
/-- The value of `main_call0_call0_v13`: %13 = stablehlo.add %6, %12 : tensor<1048576x32xui32>. -/
def res_main_call0_call0_v13 (p : (⟨S_, .f32⟩ : BufTy).Contents (Elt F)) : (⟨S1048576x32, .i32⟩ : BufTy).Contents (Elt F) :=
  addi (res_main_call0_call0_v6 p) (res_main_call0_call0_v12 p)
/-- The value of `main_call0_call0_c_2`: %c_2 = stablehlo.constant dense<15> : tensor<ui32>. -/
def res_main_call0_call0_c_2 (p : (⟨S_, .f32⟩ : BufTy).Contents (Elt F)) : (⟨S_, .i32⟩ : BufTy).Contents (Elt F) :=
  (constantI S_ 32 15#32)
/-- The value of `main_call0_call0_v14`: %14 = stablehlo.broadcast_in_dim %c_2, dims = [] : (tensor<ui32>) -> tensor<1048576x32xui32>. -/
def res_main_call0_call0_v14 (p : (⟨S_, .f32⟩ : BufTy).Contents (Elt F)) : (⟨S1048576x32, .i32⟩ : BufTy).Contents (Elt F) :=
  (broadcastInDim S1048576x32 ![] bcast_S_S1048576x32) (res_main_call0_call0_c_2 p)
/-- The value of `main_call0_call0_v15`: %15 = stablehlo.shift_left %12, %14 : tensor<1048576x32xui32>. -/
def res_main_call0_call0_v15 (p : (⟨S_, .f32⟩ : BufTy).Contents (Elt F)) : (⟨S1048576x32, .i32⟩ : BufTy).Contents (Elt F) :=
  Host.shli (res_main_call0_call0_v12 p) (res_main_call0_call0_v14 p)
/-- The value of `main_call0_call0_c_3`: %c_3 = stablehlo.constant dense<17> : tensor<ui32>. -/
def res_main_call0_call0_c_3 (p : (⟨S_, .f32⟩ : BufTy).Contents (Elt F)) : (⟨S_, .i32⟩ : BufTy).Contents (Elt F) :=
  (constantI S_ 32 17#32)
/-- The value of `main_call0_call0_v16`: %16 = stablehlo.broadcast_in_dim %c_3, dims = [] : (tensor<ui32>) -> tensor<1048576x32xui32>. -/
def res_main_call0_call0_v16 (p : (⟨S_, .f32⟩ : BufTy).Contents (Elt F)) : (⟨S1048576x32, .i32⟩ : BufTy).Contents (Elt F) :=
  (broadcastInDim S1048576x32 ![] bcast_S_S1048576x32) (res_main_call0_call0_c_3 p)
/-- The value of `main_call0_call0_v17`: %17 = stablehlo.shift_right_logical %12, %16 : tensor<1048576x32xui32>. -/
def res_main_call0_call0_v17 (p : (⟨S_, .f32⟩ : BufTy).Contents (Elt F)) : (⟨S1048576x32, .i32⟩ : BufTy).Contents (Elt F) :=
  Host.shrui (res_main_call0_call0_v12 p) (res_main_call0_call0_v16 p)
/-- The value of `main_call0_call0_v18`: %18 = stablehlo.or %15, %17 : tensor<1048576x32xui32>. -/
def res_main_call0_call0_v18 (p : (⟨S_, .f32⟩ : BufTy).Contents (Elt F)) : (⟨S1048576x32, .i32⟩ : BufTy).Contents (Elt F) :=
  ori (res_main_call0_call0_v15 p) (res_main_call0_call0_v17 p)
/-- The value of `main_call0_call0_v19`: %19 = stablehlo.xor %13, %18 : tensor<1048576x32xui32>. -/
def res_main_call0_call0_v19 (p : (⟨S_, .f32⟩ : BufTy).Contents (Elt F)) : (⟨S1048576x32, .i32⟩ : BufTy).Contents (Elt F) :=
  xori (res_main_call0_call0_v13 p) (res_main_call0_call0_v18 p)
/-- The value of `main_call0_call0_v20`: %20 = stablehlo.add %13, %19 : tensor<1048576x32xui32>. -/
def res_main_call0_call0_v20 (p : (⟨S_, .f32⟩ : BufTy).Contents (Elt F)) : (⟨S1048576x32, .i32⟩ : BufTy).Contents (Elt F) :=
  addi (res_main_call0_call0_v13 p) (res_main_call0_call0_v19 p)
/-- The value of `main_call0_call0_c_4`: %c_4 = stablehlo.constant dense<26> : tensor<ui32>. -/
def res_main_call0_call0_c_4 (p : (⟨S_, .f32⟩ : BufTy).Contents (Elt F)) : (⟨S_, .i32⟩ : BufTy).Contents (Elt F) :=
  (constantI S_ 32 26#32)
/-- The value of `main_call0_call0_v21`: %21 = stablehlo.broadcast_in_dim %c_4, dims = [] : (tensor<ui32>) -> tensor<1048576x32xui32>. -/
def res_main_call0_call0_v21 (p : (⟨S_, .f32⟩ : BufTy).Contents (Elt F)) : (⟨S1048576x32, .i32⟩ : BufTy).Contents (Elt F) :=
  (broadcastInDim S1048576x32 ![] bcast_S_S1048576x32) (res_main_call0_call0_c_4 p)
/-- The value of `main_call0_call0_v22`: %22 = stablehlo.shift_left %19, %21 : tensor<1048576x32xui32>. -/
def res_main_call0_call0_v22 (p : (⟨S_, .f32⟩ : BufTy).Contents (Elt F)) : (⟨S1048576x32, .i32⟩ : BufTy).Contents (Elt F) :=
  Host.shli (res_main_call0_call0_v19 p) (res_main_call0_call0_v21 p)
/-- The value of `main_call0_call0_c_5`: %c_5 = stablehlo.constant dense<6> : tensor<ui32>. -/
def res_main_call0_call0_c_5 (p : (⟨S_, .f32⟩ : BufTy).Contents (Elt F)) : (⟨S_, .i32⟩ : BufTy).Contents (Elt F) :=
  (constantI S_ 32 6#32)
/-- The value of `main_call0_call0_v23`: %23 = stablehlo.broadcast_in_dim %c_5, dims = [] : (tensor<ui32>) -> tensor<1048576x32xui32>. -/
def res_main_call0_call0_v23 (p : (⟨S_, .f32⟩ : BufTy).Contents (Elt F)) : (⟨S1048576x32, .i32⟩ : BufTy).Contents (Elt F) :=
  (broadcastInDim S1048576x32 ![] bcast_S_S1048576x32) (res_main_call0_call0_c_5 p)
/-- The value of `main_call0_call0_v24`: %24 = stablehlo.shift_right_logical %19, %23 : tensor<1048576x32xui32>. -/
def res_main_call0_call0_v24 (p : (⟨S_, .f32⟩ : BufTy).Contents (Elt F)) : (⟨S1048576x32, .i32⟩ : BufTy).Contents (Elt F) :=
  Host.shrui (res_main_call0_call0_v19 p) (res_main_call0_call0_v23 p)
/-- The value of `main_call0_call0_v25`: %25 = stablehlo.or %22, %24 : tensor<1048576x32xui32>. -/
def res_main_call0_call0_v25 (p : (⟨S_, .f32⟩ : BufTy).Contents (Elt F)) : (⟨S1048576x32, .i32⟩ : BufTy).Contents (Elt F) :=
  ori (res_main_call0_call0_v22 p) (res_main_call0_call0_v24 p)
/-- The value of `main_call0_call0_v26`: %26 = stablehlo.xor %20, %25 : tensor<1048576x32xui32>. -/
def res_main_call0_call0_v26 (p : (⟨S_, .f32⟩ : BufTy).Contents (Elt F)) : (⟨S1048576x32, .i32⟩ : BufTy).Contents (Elt F) :=
  xori (res_main_call0_call0_v20 p) (res_main_call0_call0_v25 p)
/-- The value of `main_call0_call0_v27`: %27 = stablehlo.add %20, %26 : tensor<1048576x32xui32>. -/
def res_main_call0_call0_v27 (p : (⟨S_, .f32⟩ : BufTy).Contents (Elt F)) : (⟨S1048576x32, .i32⟩ : BufTy).Contents (Elt F) :=
  addi (res_main_call0_call0_v20 p) (res_main_call0_call0_v26 p)
/-- The value of `main_call0_call0_c_6`: %c_6 = stablehlo.constant dense<6> : tensor<ui32>. -/
def res_main_call0_call0_c_6 (p : (⟨S_, .f32⟩ : BufTy).Contents (Elt F)) : (⟨S_, .i32⟩ : BufTy).Contents (Elt F) :=
  (constantI S_ 32 6#32)
/-- The value of `main_call0_call0_v28`: %28 = stablehlo.broadcast_in_dim %c_6, dims = [] : (tensor<ui32>) -> tensor<1048576x32xui32>. -/
def res_main_call0_call0_v28 (p : (⟨S_, .f32⟩ : BufTy).Contents (Elt F)) : (⟨S1048576x32, .i32⟩ : BufTy).Contents (Elt F) :=
  (broadcastInDim S1048576x32 ![] bcast_S_S1048576x32) (res_main_call0_call0_c_6 p)
/-- The value of `main_call0_call0_v29`: %29 = stablehlo.shift_left %26, %28 : tensor<1048576x32xui32>. -/
def res_main_call0_call0_v29 (p : (⟨S_, .f32⟩ : BufTy).Contents (Elt F)) : (⟨S1048576x32, .i32⟩ : BufTy).Contents (Elt F) :=
  Host.shli (res_main_call0_call0_v26 p) (res_main_call0_call0_v28 p)
/-- The value of `main_call0_call0_c_7`: %c_7 = stablehlo.constant dense<26> : tensor<ui32>. -/
def res_main_call0_call0_c_7 (p : (⟨S_, .f32⟩ : BufTy).Contents (Elt F)) : (⟨S_, .i32⟩ : BufTy).Contents (Elt F) :=
  (constantI S_ 32 26#32)
/-- The value of `main_call0_call0_v30`: %30 = stablehlo.broadcast_in_dim %c_7, dims = [] : (tensor<ui32>) -> tensor<1048576x32xui32>. -/
def res_main_call0_call0_v30 (p : (⟨S_, .f32⟩ : BufTy).Contents (Elt F)) : (⟨S1048576x32, .i32⟩ : BufTy).Contents (Elt F) :=
  (broadcastInDim S1048576x32 ![] bcast_S_S1048576x32) (res_main_call0_call0_c_7 p)
/-- The value of `main_call0_call0_v31`: %31 = stablehlo.shift_right_logical %26, %30 : tensor<1048576x32xui32>. -/
def res_main_call0_call0_v31 (p : (⟨S_, .f32⟩ : BufTy).Contents (Elt F)) : (⟨S1048576x32, .i32⟩ : BufTy).Contents (Elt F) :=
  Host.shrui (res_main_call0_call0_v26 p) (res_main_call0_call0_v30 p)
/-- The value of `main_call0_call0_v32`: %32 = stablehlo.or %29, %31 : tensor<1048576x32xui32>. -/
def res_main_call0_call0_v32 (p : (⟨S_, .f32⟩ : BufTy).Contents (Elt F)) : (⟨S1048576x32, .i32⟩ : BufTy).Contents (Elt F) :=
  ori (res_main_call0_call0_v29 p) (res_main_call0_call0_v31 p)
/-- The value of `main_call0_call0_v33`: %33 = stablehlo.xor %27, %32 : tensor<1048576x32xui32>. -/
def res_main_call0_call0_v33 (p : (⟨S_, .f32⟩ : BufTy).Contents (Elt F)) : (⟨S1048576x32, .i32⟩ : BufTy).Contents (Elt F) :=
  xori (res_main_call0_call0_v27 p) (res_main_call0_call0_v32 p)
/-- The value of `main_call0_call0_v34`: %34 = stablehlo.broadcast_in_dim %arg1, dims = [] : (tensor<ui32>) -> tensor<1048576x32xui32>. -/
def res_main_call0_call0_v34 (p : (⟨S_, .f32⟩ : BufTy).Contents (Elt F)) : (⟨S1048576x32, .i32⟩ : BufTy).Contents (Elt F) :=
  (broadcastInDim S1048576x32 ![] bcast_S_S1048576x32) (res_main_call0_v7 p)
/-- The value of `main_call0_call0_v35`: %35 = stablehlo.add %27, %34 : tensor<1048576x32xui32>. -/
def res_main_call0_call0_v35 (p : (⟨S_, .f32⟩ : BufTy).Contents (Elt F)) : (⟨S1048576x32, .i32⟩ : BufTy).Contents (Elt F) :=
  addi (res_main_call0_call0_v27 p) (res_main_call0_call0_v34 p)
/-- The value of `main_call0_call0_v36`: %36 = stablehlo.broadcast_in_dim %1, dims = [] : (tensor<ui32>) -> tensor<1048576x32xui32>. -/
def res_main_call0_call0_v36 (p : (⟨S_, .f32⟩ : BufTy).Contents (Elt F)) : (⟨S1048576x32, .i32⟩ : BufTy).Contents (Elt F) :=
  (broadcastInDim S1048576x32 ![] bcast_S_S1048576x32) (res_main_call0_call0_v1 p)
/-- The value of `main_call0_call0_v37`: %37 = stablehlo.add %33, %36 : tensor<1048576x32xui32>. -/
def res_main_call0_call0_v37 (p : (⟨S_, .f32⟩ : BufTy).Contents (Elt F)) : (⟨S1048576x32, .i32⟩ : BufTy).Contents (Elt F) :=
  addi (res_main_call0_call0_v33 p) (res_main_call0_call0_v36 p)
/-- The value of `main_call0_call0_c_8`: %c_8 = stablehlo.constant dense<1> : tensor<ui32>. -/
def res_main_call0_call0_c_8 (p : (⟨S_, .f32⟩ : BufTy).Contents (Elt F)) : (⟨S_, .i32⟩ : BufTy).Contents (Elt F) :=
  (constantI S_ 32 1#32)
/-- The value of `main_call0_call0_v38`: %38 = stablehlo.broadcast_in_dim %c_8, dims = [] : (tensor<ui32>) -> tensor<1048576x32xui32>. -/
def res_main_call0_call0_v38 (p : (⟨S_, .f32⟩ : BufTy).Contents (Elt F)) : (⟨S1048576x32, .i32⟩ : BufTy).Contents (Elt F) :=
  (broadcastInDim S1048576x32 ![] bcast_S_S1048576x32) (res_main_call0_call0_c_8 p)
/-- The value of `main_call0_call0_v39`: %39 = stablehlo.add %37, %38 : tensor<1048576x32xui32>. -/
def res_main_call0_call0_v39 (p : (⟨S_, .f32⟩ : BufTy).Contents (Elt F)) : (⟨S1048576x32, .i32⟩ : BufTy).Contents (Elt F) :=
  addi (res_main_call0_call0_v37 p) (res_main_call0_call0_v38 p)
/-- The value of `main_call0_call0_v40`: %40 = stablehlo.add %35, %39 : tensor<1048576x32xui32>. -/
def res_main_call0_call0_v40 (p : (⟨S_, .f32⟩ : BufTy).Contents (Elt F)) : (⟨S1048576x32, .i32⟩ : BufTy).Contents (Elt F) :=
  addi (res_main_call0_call0_v35 p) (res_main_call0_call0_v39 p)
/-- The value of `main_call0_call0_c_9`: %c_9 = stablehlo.constant dense<17> : tensor<ui32>. -/
def res_main_call0_call0_c_9 (p : (⟨S_, .f32⟩ : BufTy).Contents (Elt F)) : (⟨S_, .i32⟩ : BufTy).Contents (Elt F) :=
  (constantI S_ 32 17#32)
/-- The value of `main_call0_call0_v41`: %41 = stablehlo.broadcast_in_dim %c_9, dims = [] : (tensor<ui32>) -> tensor<1048576x32xui32>. -/
def res_main_call0_call0_v41 (p : (⟨S_, .f32⟩ : BufTy).Contents (Elt F)) : (⟨S1048576x32, .i32⟩ : BufTy).Contents (Elt F) :=
  (broadcastInDim S1048576x32 ![] bcast_S_S1048576x32) (res_main_call0_call0_c_9 p)
/-- The value of `main_call0_call0_v42`: %42 = stablehlo.shift_left %39, %41 : tensor<1048576x32xui32>. -/
def res_main_call0_call0_v42 (p : (⟨S_, .f32⟩ : BufTy).Contents (Elt F)) : (⟨S1048576x32, .i32⟩ : BufTy).Contents (Elt F) :=
  Host.shli (res_main_call0_call0_v39 p) (res_main_call0_call0_v41 p)
/-- The value of `main_call0_call0_c_10`: %c_10 = stablehlo.constant dense<15> : tensor<ui32>. -/
def res_main_call0_call0_c_10 (p : (⟨S_, .f32⟩ : BufTy).Contents (Elt F)) : (⟨S_, .i32⟩ : BufTy).Contents (Elt F) :=
  (constantI S_ 32 15#32)
/-- The value of `main_call0_call0_v43`: %43 = stablehlo.broadcast_in_dim %c_10, dims = [] : (tensor<ui32>) -> tensor<1048576x32xui32>. -/
def res_main_call0_call0_v43 (p : (⟨S_, .f32⟩ : BufTy).Contents (Elt F)) : (⟨S1048576x32, .i32⟩ : BufTy).Contents (Elt F) :=
  (broadcastInDim S1048576x32 ![] bcast_S_S1048576x32) (res_main_call0_call0_c_10 p)
/-- The value of `main_call0_call0_v44`: %44 = stablehlo.shift_right_logical %39, %43 : tensor<1048576x32xui32>. -/
def res_main_call0_call0_v44 (p : (⟨S_, .f32⟩ : BufTy).Contents (Elt F)) : (⟨S1048576x32, .i32⟩ : BufTy).Contents (Elt F) :=
  Host.shrui (res_main_call0_call0_v39 p) (res_main_call0_call0_v43 p)
/-- The value of `main_call0_call0_v45`: %45 = stablehlo.or %42, %44 : tensor<1048576x32xui32>. -/
def res_main_call0_call0_v45 (p : (⟨S_, .f32⟩ : BufTy).Contents (Elt F)) : (⟨S1048576x32, .i32⟩ : BufTy).Contents (Elt F) :=
  ori (res_main_call0_call0_v42 p) (res_main_call0_call0_v44 p)
/-- The value of `main_call0_call0_v46`: %46 = stablehlo.xor %40, %45 : tensor<1048576x32xui32>. -/
def res_main_call0_call0_v46 (p : (⟨S_, .f32⟩ : BufTy).Contents (Elt F)) : (⟨S1048576x32, .i32⟩ : BufTy).Contents (Elt F) :=
  xori (res_main_call0_call0_v40 p) (res_main_call0_call0_v45 p)
/-- The value of `main_call0_call0_v47`: %47 = stablehlo.add %40, %46 : tensor<1048576x32xui32>. -/
def res_main_call0_call0_v47 (p : (⟨S_, .f32⟩ : BufTy).Contents (Elt F)) : (⟨S1048576x32, .i32⟩ : BufTy).Contents (Elt F) :=
  addi (res_main_call0_call0_v40 p) (res_main_call0_call0_v46 p)
/-- The value of `main_call0_call0_c_11`: %c_11 = stablehlo.constant dense<29> : tensor<ui32>. -/
def res_main_call0_call0_c_11 (p : (⟨S_, .f32⟩ : BufTy).Contents (Elt F)) : (⟨S_, .i32⟩ : BufTy).Contents (Elt F) :=
  (constantI S_ 32 29#32)
/-- The value of `main_call0_call0_v48`: %48 = stablehlo.broadcast_in_dim %c_11, dims = [] : (tensor<ui32>) -> tensor<1048576x32xui32>. -/
def res_main_call0_call0_v48 (p : (⟨S_, .f32⟩ : BufTy).Contents (Elt F)) : (⟨S1048576x32, .i32⟩ : BufTy).Contents (Elt F) :=
  (broadcastInDim S1048576x32 ![] bcast_S_S1048576x32) (res_main_call0_call0_c_11 p)
/-- The value of `main_call0_call0_v49`: %49 = stablehlo.shift_left %46, %48 : tensor<1048576x32xui32>. -/
def res_main_call0_call0_v49 (p : (⟨S_, .f32⟩ : BufTy).Contents (Elt F)) : (⟨S1048576x32, .i32⟩ : BufTy).Contents (Elt F) :=
  Host.shli (res_main_call0_call0_v46 p) (res_main_call0_call0_v48 p)
/-- The value of `main_call0_call0_c_12`: %c_12 = stablehlo.constant dense<3> : tensor<ui32>. -/
def res_main_call0_call0_c_12 (p : (⟨S_, .f32⟩ : BufTy).Contents (Elt F)) : (⟨S_, .i32⟩ : BufTy).Contents (Elt F) :=
  (constantI S_ 32 3#32)
/-- The value of `main_call0_call0_v50`: %50 = stablehlo.broadcast_in_dim %c_12, dims = [] : (tensor<ui32>) -> tensor<1048576x32xui32>. -/
def res_main_call0_call0_v50 (p : (⟨S_, .f32⟩ : BufTy).Contents (Elt F)) : (⟨S1048576x32, .i32⟩ : BufTy).Contents (Elt F) :=
  (broadcastInDim S1048576x32 ![] bcast_S_S1048576x32) (res_main_call0_call0_c_12 p)
/-- The value of `main_call0_call0_v51`: %51 = stablehlo.shift_right_logical %46, %50 : tensor<1048576x32xui32>. -/
def res_main_call0_call0_v51 (p : (⟨S_, .f32⟩ : BufTy).Contents (Elt F)) : (⟨S1048576x32, .i32⟩ : BufTy).Contents (Elt F) :=
  Host.shrui (res_main_call0_call0_v46 p) (res_main_call0_call0_v50 p)
/-- The value of `main_call0_call0_v52`: %52 = stablehlo.or %49, %51 : tensor<1048576x32xui32>. -/
def res_main_call0_call0_v52 (p : (⟨S_, .f32⟩ : BufTy).Contents (Elt F)) : (⟨S1048576x32, .i32⟩ : BufTy).Contents (Elt F) :=
  ori (res_main_call0_call0_v49 p) (res_main_call0_call0_v51 p)
/-- The value of `main_call0_call0_v53`: %53 = stablehlo.xor %47, %52 : tensor<1048576x32xui32>. -/
def res_main_call0_call0_v53 (p : (⟨S_, .f32⟩ : BufTy).Contents (Elt F)) : (⟨S1048576x32, .i32⟩ : BufTy).Contents (Elt F) :=
  xori (res_main_call0_call0_v47 p) (res_main_call0_call0_v52 p)
/-- The value of `main_call0_call0_v54`: %54 = stablehlo.add %47, %53 : tensor<1048576x32xui32>. -/
def res_main_call0_call0_v54 (p : (⟨S_, .f32⟩ : BufTy).Contents (Elt F)) : (⟨S1048576x32, .i32⟩ : BufTy).Contents (Elt F) :=
  addi (res_main_call0_call0_v47 p) (res_main_call0_call0_v53 p)
/-- The value of `main_call0_call0_c_13`: %c_13 = stablehlo.constant dense<16> : tensor<ui32>. -/
def res_main_call0_call0_c_13 (p : (⟨S_, .f32⟩ : BufTy).Contents (Elt F)) : (⟨S_, .i32⟩ : BufTy).Contents (Elt F) :=
  (constantI S_ 32 16#32)
/-- The value of `main_call0_call0_v55`: %55 = stablehlo.broadcast_in_dim %c_13, dims = [] : (tensor<ui32>) -> tensor<1048576x32xui32>. -/
def res_main_call0_call0_v55 (p : (⟨S_, .f32⟩ : BufTy).Contents (Elt F)) : (⟨S1048576x32, .i32⟩ : BufTy).Contents (Elt F) :=
  (broadcastInDim S1048576x32 ![] bcast_S_S1048576x32) (res_main_call0_call0_c_13 p)
/-- The value of `main_call0_call0_v56`: %56 = stablehlo.shift_left %53, %55 : tensor<1048576x32xui32>. -/
def res_main_call0_call0_v56 (p : (⟨S_, .f32⟩ : BufTy).Contents (Elt F)) : (⟨S1048576x32, .i32⟩ : BufTy).Contents (Elt F) :=
  Host.shli (res_main_call0_call0_v53 p) (res_main_call0_call0_v55 p)
/-- The value of `main_call0_call0_c_14`: %c_14 = stablehlo.constant dense<16> : tensor<ui32>. -/
def res_main_call0_call0_c_14 (p : (⟨S_, .f32⟩ : BufTy).Contents (Elt F)) : (⟨S_, .i32⟩ : BufTy).Contents (Elt F) :=
  (constantI S_ 32 16#32)
/-- The value of `main_call0_call0_v57`: %57 = stablehlo.broadcast_in_dim %c_14, dims = [] : (tensor<ui32>) -> tensor<1048576x32xui32>. -/
def res_main_call0_call0_v57 (p : (⟨S_, .f32⟩ : BufTy).Contents (Elt F)) : (⟨S1048576x32, .i32⟩ : BufTy).Contents (Elt F) :=
  (broadcastInDim S1048576x32 ![] bcast_S_S1048576x32) (res_main_call0_call0_c_14 p)
/-- The value of `main_call0_call0_v58`: %58 = stablehlo.shift_right_logical %53, %57 : tensor<1048576x32xui32>. -/
def res_main_call0_call0_v58 (p : (⟨S_, .f32⟩ : BufTy).Contents (Elt F)) : (⟨S1048576x32, .i32⟩ : BufTy).Contents (Elt F) :=
  Host.shrui (res_main_call0_call0_v53 p) (res_main_call0_call0_v57 p)
/-- The value of `main_call0_call0_v59`: %59 = stablehlo.or %56, %58 : tensor<1048576x32xui32>. -/
def res_main_call0_call0_v59 (p : (⟨S_, .f32⟩ : BufTy).Contents (Elt F)) : (⟨S1048576x32, .i32⟩ : BufTy).Contents (Elt F) :=
  ori (res_main_call0_call0_v56 p) (res_main_call0_call0_v58 p)
/-- The value of `main_call0_call0_v60`: %60 = stablehlo.xor %54, %59 : tensor<1048576x32xui32>. -/
def res_main_call0_call0_v60 (p : (⟨S_, .f32⟩ : BufTy).Contents (Elt F)) : (⟨S1048576x32, .i32⟩ : BufTy).Contents (Elt F) :=
  xori (res_main_call0_call0_v54 p) (res_main_call0_call0_v59 p)
/-- The value of `main_call0_call0_v61`: %61 = stablehlo.add %54, %60 : tensor<1048576x32xui32>. -/
def res_main_call0_call0_v61 (p : (⟨S_, .f32⟩ : BufTy).Contents (Elt F)) : (⟨S1048576x32, .i32⟩ : BufTy).Contents (Elt F) :=
  addi (res_main_call0_call0_v54 p) (res_main_call0_call0_v60 p)
/-- The value of `main_call0_call0_c_15`: %c_15 = stablehlo.constant dense<24> : tensor<ui32>. -/
def res_main_call0_call0_c_15 (p : (⟨S_, .f32⟩ : BufTy).Contents (Elt F)) : (⟨S_, .i32⟩ : BufTy).Contents (Elt F) :=
  (constantI S_ 32 24#32)
/-- The value of `main_call0_call0_v62`: %62 = stablehlo.broadcast_in_dim %c_15, dims = [] : (tensor<ui32>) -> tensor<1048576x32xui32>. -/
def res_main_call0_call0_v62 (p : (⟨S_, .f32⟩ : BufTy).Contents (Elt F)) : (⟨S1048576x32, .i32⟩ : BufTy).Contents (Elt F) :=
  (broadcastInDim S1048576x32 ![] bcast_S_S1048576x32) (res_main_call0_call0_c_15 p)
/-- The value of `main_call0_call0_v63`: %63 = stablehlo.shift_left %60, %62 : tensor<1048576x32xui32>. -/
def res_main_call0_call0_v63 (p : (⟨S_, .f32⟩ : BufTy).Contents (Elt F)) : (⟨S1048576x32, .i32⟩ : BufTy).Contents (Elt F) :=
  Host.shli (res_main_call0_call0_v60 p) (res_main_call0_call0_v62 p)
/-- The value of `main_call0_call0_c_16`: %c_16 = stablehlo.constant dense<8> : tensor<ui32>. -/
def res_main_call0_call0_c_16 (p : (⟨S_, .f32⟩ : BufTy).Contents (Elt F)) : (⟨S_, .i32⟩ : BufTy).Contents (Elt F) :=
  (constantI S_ 32 8#32)
/-- The value of `main_call0_call0_v64`: %64 = stablehlo.broadcast_in_dim %c_16, dims = [] : (tensor<ui32>) -> tensor<1048576x32xui32>. -/
def res_main_call0_call0_v64 (p : (⟨S_, .f32⟩ : BufTy).Contents (Elt F)) : (⟨S1048576x32, .i32⟩ : BufTy).Contents (Elt F) :=
  (broadcastInDim S1048576x32 ![] bcast_S_S1048576x32) (res_main_call0_call0_c_16 p)
/-- The value of `main_call0_call0_v65`: %65 = stablehlo.shift_right_logical %60, %64 : tensor<1048576x32xui32>. -/
def res_main_call0_call0_v65 (p : (⟨S_, .f32⟩ : BufTy).Contents (Elt F)) : (⟨S1048576x32, .i32⟩ : BufTy).Contents (Elt F) :=
  Host.shrui (res_main_call0_call0_v60 p) (res_main_call0_call0_v64 p)
/-- The value of `main_call0_call0_v66`: %66 = stablehlo.or %63, %65 : tensor<1048576x32xui32>. -/
def res_main_call0_call0_v66 (p : (⟨S_, .f32⟩ : BufTy).Contents (Elt F)) : (⟨S1048576x32, .i32⟩ : BufTy).Contents (Elt F) :=
  ori (res_main_call0_call0_v63 p) (res_main_call0_call0_v65 p)
/-- The value of `main_call0_call0_v67`: %67 = stablehlo.xor %61, %66 : tensor<1048576x32xui32>. -/
def res_main_call0_call0_v67 (p : (⟨S_, .f32⟩ : BufTy).Contents (Elt F)) : (⟨S1048576x32, .i32⟩ : BufTy).Contents (Elt F) :=
  xori (res_main_call0_call0_v61 p) (res_main_call0_call0_v66 p)
/-- The value of `main_call0_call0_v68`: %68 = stablehlo.broadcast_in_dim %1, dims = [] : (tensor<ui32>) -> tensor<1048576x32xui32>. -/
def res_main_call0_call0_v68 (p : (⟨S_, .f32⟩ : BufTy).Contents (Elt F)) : (⟨S1048576x32, .i32⟩ : BufTy).Contents (Elt F) :=
  (broadcastInDim S1048576x32 ![] bcast_S_S1048576x32) (res_main_call0_call0_v1 p)
/-- The value of `main_call0_call0_v69`: %69 = stablehlo.add %61, %68 : tensor<1048576x32xui32>. -/
def res_main_call0_call0_v69 (p : (⟨S_, .f32⟩ : BufTy).Contents (Elt F)) : (⟨S1048576x32, .i32⟩ : BufTy).Contents (Elt F) :=
  addi (res_main_call0_call0_v61 p) (res_main_call0_call0_v68 p)
/-- The value of `main_call0_call0_v70`: %70 = stablehlo.broadcast_in_dim %arg0, dims = [] : (tensor<ui32>) -> tensor<1048576x32xui32>. -/
def res_main_call0_call0_v70 (p : (⟨S_, .f32⟩ : BufTy).Contents (Elt F)) : (⟨S1048576x32, .i32⟩ : BufTy).Contents (Elt F) :=
  (broadcastInDim S1048576x32 ![] bcast_S_S1048576x32) (res_main_call0_v5 p)
/-- The value of `main_call0_call0_v71`: %71 = stablehlo.add %67, %70 : tensor<1048576x32xui32>. -/
def res_main_call0_call0_v71 (p : (⟨S_, .f32⟩ : BufTy).Contents (Elt F)) : (⟨S1048576x32, .i32⟩ : BufTy).Contents (Elt F) :=
  addi (res_main_call0_call0_v67 p) (res_main_call0_call0_v70 p)
/-- The value of `main_call0_call0_c_17`: %c_17 = stablehlo.constant dense<2> : tensor<ui32>. -/
def res_main_call0_call0_c_17 (p : (⟨S_, .f32⟩ : BufTy).Contents (Elt F)) : (⟨S_, .i32⟩ : BufTy).Contents (Elt F) :=
  (constantI S_ 32 2#32)
/-- The value of `main_call0_call0_v72`: %72 = stablehlo.broadcast_in_dim %c_17, dims = [] : (tensor<ui32>) -> tensor<1048576x32xui32>. -/
def res_main_call0_call0_v72 (p : (⟨S_, .f32⟩ : BufTy).Contents (Elt F)) : (⟨S1048576x32, .i32⟩ : BufTy).Contents (Elt F) :=
  (broadcastInDim S1048576x32 ![] bcast_S_S1048576x32) (res_main_call0_call0_c_17 p)
/-- The value of `main_call0_call0_v73`: %73 = stablehlo.add %71, %72 : tensor<1048576x32xui32>. -/
def res_main_call0_call0_v73 (p : (⟨S_, .f32⟩ : BufTy).Contents (Elt F)) : (⟨S1048576x32, .i32⟩ : BufTy).Contents (Elt F) :=
  addi (res_main_call0_call0_v71 p) (res_main_call0_call0_v72 p)
/-- The value of `main_call0_call0_v74`: %74 = stablehlo.add %69, %73 : tensor<1048576x32xui32>. -/
def res_main_call0_call0_v74 (p : (⟨S_, .f32⟩ : BufTy).Contents (Elt F)) : (⟨S1048576x32, .i32⟩ : BufTy).Contents (Elt F) :=
  addi (res_main_call0_call0_v69 p) (res_main_call0_call0_v73 p)
/-- The value of `main_call0_call0_c_18`: %c_18 = stablehlo.constant dense<13> : tensor<ui32>. -/
def res_main_call0_call0_c_18 (p : (⟨S_, .f32⟩ : BufTy).Contents (Elt F)) : (⟨S_, .i32⟩ : BufTy).Contents (Elt F) :=
  (constantI S_ 32 13#32)
/-- The value of `main_call0_call0_v75`: %75 = stablehlo.broadcast_in_dim %c_18, dims = [] : (tensor<ui32>) -> tensor<1048576x32xui32>. -/
def res_main_call0_call0_v75 (p : (⟨S_, .f32⟩ : BufTy).Contents (Elt F)) : (⟨S1048576x32, .i32⟩ : BufTy).Contents (Elt F) :=
  (broadcastInDim S1048576x32 ![] bcast_S_S1048576x32) (res_main_call0_call0_c_18 p)
/-- The value of `main_call0_call0_v76`: %76 = stablehlo.shift_left %73, %75 : tensor<1048576x32xui32>. -/
def res_main_call0_call0_v76 (p : (⟨S_, .f32⟩ : BufTy).Contents (Elt F)) : (⟨S1048576x32, .i32⟩ : BufTy).Contents (Elt F) :=
  Host.shli (res_main_call0_call0_v73 p) (res_main_call0_call0_v75 p)
/-- The value of `main_call0_call0_c_19`: %c_19 = stablehlo.constant dense<19> : tensor<ui32>. -/
def res_main_call0_call0_c_19 (p : (⟨S_, .f32⟩ : BufTy).Contents (Elt F)) : (⟨S_, .i32⟩ : BufTy).Contents (Elt F) :=
  (constantI S_ 32 19#32)
/-- The value of `main_call0_call0_v77`: %77 = stablehlo.broadcast_in_dim %c_19, dims = [] : (tensor<ui32>) -> tensor<1048576x32xui32>. -/
def res_main_call0_call0_v77 (p : (⟨S_, .f32⟩ : BufTy).Contents (Elt F)) : (⟨S1048576x32, .i32⟩ : BufTy).Contents (Elt F) :=
  (broadcastInDim S1048576x32 ![] bcast_S_S1048576x32) (res_main_call0_call0_c_19 p)
/-- The value of `main_call0_call0_v78`: %78 = stablehlo.shift_right_logical %73, %77 : tensor<1048576x32xui32>. -/
def res_main_call0_call0_v78 (p : (⟨S_, .f32⟩ : BufTy).Contents (Elt F)) : (⟨S1048576x32, .i32⟩ : BufTy).Contents (Elt F) :=
  Host.shrui (res_main_call0_call0_v73 p) (res_main_call0_call0_v77 p)
/-- The value of `main_call0_call0_v79`: %79 = stablehlo.or %76, %78 : tensor<1048576x32xui32>. -/
def res_main_call0_call0_v79 (p : (⟨S_, .f32⟩ : BufTy).Contents (Elt F)) : (⟨S1048576x32, .i32⟩ : BufTy).Contents (Elt F) :=
  ori (res_main_call0_call0_v76 p) (res_main_call0_call0_v78 p)
/-- The value of `main_call0_call0_v80`: %80 = stablehlo.xor %74, %79 : tensor<1048576x32xui32>. -/
def res_main_call0_call0_v80 (p : (⟨S_, .f32⟩ : BufTy).Contents (Elt F)) : (⟨S1048576x32, .i32⟩ : BufTy).Contents (Elt F) :=
  xori (res_main_call0_call0_v74 p) (res_main_call0_call0_v79 p)
/-- The value of `main_call0_call0_v81`: %81 = stablehlo.add %74, %80 : tensor<1048576x32xui32>. -/
def res_main_call0_call0_v81 (p : (⟨S_, .f32⟩ : BufTy).Contents (Elt F)) : (⟨S1048576x32, .i32⟩ : BufTy).Contents (Elt F) :=
  addi (res_main_call0_call0_v74 p) (res_main_call0_call0_v80 p)
/-- The value of `main_call0_call0_c_20`: %c_20 = stablehlo.constant dense<15> : tensor<ui32>. -/
def res_main_call0_call0_c_20 (p : (⟨S_, .f32⟩ : BufTy).Contents (Elt F)) : (⟨S_, .i32⟩ : BufTy).Contents (Elt F) :=
  (constantI S_ 32 15#32)
/-- The value of `main_call0_call0_v82`: %82 = stablehlo.broadcast_in_dim %c_20, dims = [] : (tensor<ui32>) -> tensor<1048576x32xui32>. -/
def res_main_call0_call0_v82 (p : (⟨S_, .f32⟩ : BufTy).Contents (Elt F)) : (⟨S1048576x32, .i32⟩ : BufTy).Contents (Elt F) :=
  (broadcastInDim S1048576x32 ![] bcast_S_S1048576x32) (res_main_call0_call0_c_20 p)
/-- The value of `main_call0_call0_v83`: %83 = stablehlo.shift_left %80, %82 : tensor<1048576x32xui32>. -/
def res_main_call0_call0_v83 (p : (⟨S_, .f32⟩ : BufTy).Contents (Elt F)) : (⟨S1048576x32, .i32⟩ : BufTy).Contents (Elt F) :=
  Host.shli (res_main_call0_call0_v80 p) (res_main_call0_call0_v82 p)
/-- The value of `main_call0_call0_c_21`: %c_21 = stablehlo.constant dense<17> : tensor<ui32>. -/
def res_main_call0_call0_c_21 (p : (⟨S_, .f32⟩ : BufTy).Contents (Elt F)) : (⟨S_, .i32⟩ : BufTy).Contents (Elt F) :=
  (constantI S_ 32 17#32)
/-- The value of `main_call0_call0_v84`: %84 = stablehlo.broadcast_in_dim %c_21, dims = [] : (tensor<ui32>) -> tensor<1048576x32xui32>. -/
def res_main_call0_call0_v84 (p : (⟨S_, .f32⟩ : BufTy).Contents (Elt F)) : (⟨S1048576x32, .i32⟩ : BufTy).Contents (Elt F) :=
  (broadcastInDim S1048576x32 ![] bcast_S_S1048576x32) (res_main_call0_call0_c_21 p)
/-- The value of `main_call0_call0_v85`: %85 = stablehlo.shift_right_logical %80, %84 : tensor<1048576x32xui32>. -/
def res_main_call0_call0_v85 (p : (⟨S_, .f32⟩ : BufTy).Contents (Elt F)) : (⟨S1048576x32, .i32⟩ : BufTy).Contents (Elt F) :=
  Host.shrui (res_main_call0_call0_v80 p) (res_main_call0_call0_v84 p)
/-- The value of `main_call0_call0_v86`: %86 = stablehlo.or %83, %85 : tensor<1048576x32xui32>. -/
def res_main_call0_call0_v86 (p : (⟨S_, .f32⟩ : BufTy).Contents (Elt F)) : (⟨S1048576x32, .i32⟩ : BufTy).Contents (Elt F) :=
  ori (res_main_call0_call0_v83 p) (res_main_call0_call0_v85 p)
/-- The value of `main_call0_call0_v87`: %87 = stablehlo.xor %81, %86 : tensor<1048576x32xui32>. -/
def res_main_call0_call0_v87 (p : (⟨S_, .f32⟩ : BufTy).Contents (Elt F)) : (⟨S1048576x32, .i32⟩ : BufTy).Contents (Elt F) :=
  xori (res_main_call0_call0_v81 p) (res_main_call0_call0_v86 p)
/-- The value of `main_call0_call0_v88`: %88 = stablehlo.add %81, %87 : tensor<1048576x32xui32>. -/
def res_main_call0_call0_v88 (p : (⟨S_, .f32⟩ : BufTy).Contents (Elt F)) : (⟨S1048576x32, .i32⟩ : BufTy).Contents (Elt F) :=
  addi (res_main_call0_call0_v81 p) (res_main_call0_call0_v87 p)
/-- The value of `main_call0_call0_c_22`: %c_22 = stablehlo.constant dense<26> : tensor<ui32>. -/
def res_main_call0_call0_c_22 (p : (⟨S_, .f32⟩ : BufTy).Contents (Elt F)) : (⟨S_, .i32⟩ : BufTy).Contents (Elt F) :=
  (constantI S_ 32 26#32)
/-- The value of `main_call0_call0_v89`: %89 = stablehlo.broadcast_in_dim %c_22, dims = [] : (tensor<ui32>) -> tensor<1048576x32xui32>. -/
def res_main_call0_call0_v89 (p : (⟨S_, .f32⟩ : BufTy).Contents (Elt F)) : (⟨S1048576x32, .i32⟩ : BufTy).Contents (Elt F) :=
  (broadcastInDim S1048576x32 ![] bcast_S_S1048576x32) (res_main_call0_call0_c_22 p)
/-- The value of `main_call0_call0_v90`: %90 = stablehlo.shift_left %87, %89 : tensor<1048576x32xui32>. -/
def res_main_call0_call0_v90 (p : (⟨S_, .f32⟩ : BufTy).Contents (Elt F)) : (⟨S1048576x32, .i32⟩ : BufTy).Contents (Elt F) :=
  Host.shli (res_main_call0_call0_v87 p) (res_main_call0_call0_v89 p)
/-- The value of `main_call0_call0_c_23`: %c_23 = stablehlo.constant dense<6> : tensor<ui32>. -/
def res_main_call0_call0_c_23 (p : (⟨S_, .f32⟩ : BufTy).Contents (Elt F)) : (⟨S_, .i32⟩ : BufTy).Contents (Elt F) :=
  (constantI S_ 32 6#32)
/-- The value of `main_call0_call0_v91`: %91 = stablehlo.broadcast_in_dim %c_23, dims = [] : (tensor<ui32>) -> tensor<1048576x32xui32>. -/
def res_main_call0_call0_v91 (p : (⟨S_, .f32⟩ : BufTy).Contents (Elt F)) : (⟨S1048576x32, .i32⟩ : BufTy).Contents (Elt F) :=
  (broadcastInDim S1048576x32 ![] bcast_S_S1048576x32) (res_main_call0_call0_c_23 p)
/-- The value of `main_call0_call0_v92`: %92 = stablehlo.shift_right_logical %87, %91 : tensor<1048576x32xui32>. -/
def res_main_call0_call0_v92 (p : (⟨S_, .f32⟩ : BufTy).Contents (Elt F)) : (⟨S1048576x32, .i32⟩ : BufTy).Contents (Elt F) :=
  Host.shrui (res_main_call0_call0_v87 p) (res_main_call0_call0_v91 p)
/-- The value of `main_call0_call0_v93`: %93 = stablehlo.or %90, %92 : tensor<1048576x32xui32>. -/
def res_main_call0_call0_v93 (p : (⟨S_, .f32⟩ : BufTy).Contents (Elt F)) : (⟨S1048576x32, .i32⟩ : BufTy).Contents (Elt F) :=
  ori (res_main_call0_call0_v90 p) (res_main_call0_call0_v92 p)
/-- The value of `main_call0_call0_v94`: %94 = stablehlo.xor %88, %93 : tensor<1048576x32xui32>. -/
def res_main_call0_call0_v94 (p : (⟨S_, .f32⟩ : BufTy).Contents (Elt F)) : (⟨S1048576x32, .i32⟩ : BufTy).Contents (Elt F) :=
  xori (res_main_call0_call0_v88 p) (res_main_call0_call0_v93 p)
/-- The value of `main_call0_call0_v95`: %95 = stablehlo.add %88, %94 : tensor<1048576x32xui32>. -/
def res_main_call0_call0_v95 (p : (⟨S_, .f32⟩ : BufTy).Contents (Elt F)) : (⟨S1048576x32, .i32⟩ : BufTy).Contents (Elt F) :=
  addi (res_main_call0_call0_v88 p) (res_main_call0_call0_v94 p)
/-- The value of `main_call0_call0_c_24`: %c_24 = stablehlo.constant dense<6> : tensor<ui32>. -/
def res_main_call0_call0_c_24 (p : (⟨S_, .f32⟩ : BufTy).Contents (Elt F)) : (⟨S_, .i32⟩ : BufTy).Contents (Elt F) :=
  (constantI S_ 32 6#32)
/-- The value of `main_call0_call0_v96`: %96 = stablehlo.broadcast_in_dim %c_24, dims = [] : (tensor<ui32>) -> tensor<1048576x32xui32>. -/
def res_main_call0_call0_v96 (p : (⟨S_, .f32⟩ : BufTy).Contents (Elt F)) : (⟨S1048576x32, .i32⟩ : BufTy).Contents (Elt F) :=
  (broadcastInDim S1048576x32 ![] bcast_S_S1048576x32) (res_main_call0_call0_c_24 p)
/-- The value of `main_call0_call0_v97`: %97 = stablehlo.shift_left %94, %96 : tensor<1048576x32xui32>. -/
def res_main_call0_call0_v97 (p : (⟨S_, .f32⟩ : BufTy).Contents (Elt F)) : (⟨S1048576x32, .i32⟩ : BufTy).Contents (Elt F) :=
  Host.shli (res_main_call0_call0_v94 p) (res_main_call0_call0_v96 p)
/-- The value of `main_call0_call0_c_25`: %c_25 = stablehlo.constant dense<26> : tensor<ui32>. -/
def res_main_call0_call0_c_25 (p : (⟨S_, .f32⟩ : BufTy).Contents (Elt F)) : (⟨S_, .i32⟩ : BufTy).Contents (Elt F) :=
  (constantI S_ 32 26#32)
/-- The value of `main_call0_call0_v98`: %98 = stablehlo.broadcast_in_dim %c_25, dims = [] : (tensor<ui32>) -> tensor<1048576x32xui32>. -/
def res_main_call0_call0_v98 (p : (⟨S_, .f32⟩ : BufTy).Contents (Elt F)) : (⟨S1048576x32, .i32⟩ : BufTy).Contents (Elt F) :=
  (broadcastInDim S1048576x32 ![] bcast_S_S1048576x32) (res_main_call0_call0_c_25 p)
/-- The value of `main_call0_call0_v99`: %99 = stablehlo.shift_right_logical %94, %98 : tensor<1048576x32xui32>. -/
def res_main_call0_call0_v99 (p : (⟨S_, .f32⟩ : BufTy).Contents (Elt F)) : (⟨S1048576x32, .i32⟩ : BufTy).Contents (Elt F) :=
  Host.shrui (res_main_call0_call0_v94 p) (res_main_call0_call0_v98 p)
/-- The value of `main_call0_call0_v100`: %100 = stablehlo.or %97, %99 : tensor<1048576x32xui32>. -/
def res_main_call0_call0_v100 (p : (⟨S_, .f32⟩ : BufTy).Contents (Elt F)) : (⟨S1048576x32, .i32⟩ : BufTy).Contents (Elt F) :=
  ori (res_main_call0_call0_v97 p) (res_main_call0_call0_v99 p)
/-- The value of `main_call0_call0_v101`: %101 = stablehlo.xor %95, %100 : tensor<1048576x32xui32>. -/
def res_main_call0_call0_v101 (p : (⟨S_, .f32⟩ : BufTy).Contents (Elt F)) : (⟨S1048576x32, .i32⟩ : BufTy).Contents (Elt F) :=
  xori (res_main_call0_call0_v95 p) (res_main_call0_call0_v100 p)
/-- The value of `main_call0_call0_v102`: %102 = stablehlo.broadcast_in_dim %arg0, dims = [] : (tensor<ui32>) -> tensor<1048576x32xui32>. -/
def res_main_call0_call0_v102 (p : (⟨S_, .f32⟩ : BufTy).Contents (Elt F)) : (⟨S1048576x32, .i32⟩ : BufTy).Contents (Elt F) :=
  (broadcastInDim S1048576x32 ![] bcast_S_S1048576x32) (res_main_call0_v5 p)
/-- The value of `main_call0_call0_v103`: %103 = stablehlo.add %95, %102 : tensor<1048576x32xui32>. -/
def res_main_call0_call0_v103 (p : (⟨S_, .f32⟩ : BufTy).Contents (Elt F)) : (⟨S1048576x32, .i32⟩ : BufTy).Contents (Elt F) :=
  addi (res_main_call0_call0_v95 p) (res_main_call0_call0_v102 p)
/-- The value of `main_call0_call0_v104`: %104 = stablehlo.broadcast_in_dim %arg1, dims = [] : (tensor<ui32>) -> tensor<1048576x32xui32>. -/
def res_main_call0_call0_v104 (p : (⟨S_, .f32⟩ : BufTy).Contents (Elt F)) : (⟨S1048576x32, .i32⟩ : BufTy).Contents (Elt F) :=
  (broadcastInDim S1048576x32 ![] bcast_S_S1048576x32) (res_main_call0_v7 p)
/-- The value of `main_call0_call0_v105`: %105 = stablehlo.add %101, %104 : tensor<1048576x32xui32>. -/
def res_main_call0_call0_v105 (p : (⟨S_, .f32⟩ : BufTy).Contents (Elt F)) : (⟨S1048576x32, .i32⟩ : BufTy).Contents (Elt F) :=
  addi (res_main_call0_call0_v101 p) (res_main_call0_call0_v104 p)
/-- The value of `main_call0_call0_c_26`: %c_26 = stablehlo.constant dense<3> : tensor<ui32>. -/
def res_main_call0_call0_c_26 (p : (⟨S_, .f32⟩ : BufTy).Contents (Elt F)) : (⟨S_, .i32⟩ : BufTy).Contents (Elt F) :=
  (constantI S_ 32 3#32)
/-- The value of `main_call0_call0_v106`: %106 = stablehlo.broadcast_in_dim %c_26, dims = [] : (tensor<ui32>) -> tensor<1048576x32xui32>. -/
def res_main_call0_call0_v106 (p : (⟨S_, .f32⟩ : BufTy).Contents (Elt F)) : (⟨S1048576x32, .i32⟩ : BufTy).Contents (Elt F) :=
  (broadcastInDim S1048576x32 ![] bcast_S_S1048576x32) (res_main_call0_call0_c_26 p)
/-- The value of `main_call0_call0_v107`: %107 = stablehlo.add %105, %106 : tensor<1048576x32xui32>. -/
def res_main_call0_call0_v107 (p : (⟨S_, .f32⟩ : BufTy).Contents (Elt F)) : (⟨S1048576x32, .i32⟩ : BufTy).Contents (Elt F) :=
  addi (res_main_call0_call0_v105 p) (res_main_call0_call0_v106 p)
/-- The value of `main_call0_call0_v108`: %108 = stablehlo.add %103, %107 : tensor<1048576x32xui32>. -/
def res_main_call0_call0_v108 (p : (⟨S_, .f32⟩ : BufTy).Contents (Elt F)) : (⟨S1048576x32, .i32⟩ : BufTy).Contents (Elt F) :=
  addi (res_main_call0_call0_v103 p) (res_main_call0_call0_v107 p)
/-- The value of `main_call0_call0_c_27`: %c_27 = stablehlo.constant dense<17> : tensor<ui32>. -/
def res_main_call0_call0_c_27 (p : (⟨S_, .f32⟩ : BufTy).Contents (Elt F)) : (⟨S_, .i32⟩ : BufTy).Contents (Elt F) :=
  (constantI S_ 32 17#32)
/-- The value of `main_call0_call0_v109`: %109 = stablehlo.broadcast_in_dim %c_27, dims = [] : (tensor<ui32>) -> tensor<1048576x32xui32>. -/
def res_main_call0_call0_v109 (p : (⟨S_, .f32⟩ : BufTy).Contents (Elt F)) : (⟨S1048576x32, .i32⟩ : BufTy).Contents (Elt F) :=
  (broadcastInDim S1048576x32 ![] bcast_S_S1048576x32) (res_main_call0_call0_c_27 p)
/-- The value of `main_call0_call0_v110`: %110 = stablehlo.shift_left %107, %109 : tensor<1048576x32xui32>. -/
def res_main_call0_call0_v110 (p : (⟨S_, .f32⟩ : BufTy).Contents (Elt F)) : (⟨S1048576x32, .i32⟩ : BufTy).Contents (Elt F) :=
  Host.shli (res_main_call0_call0_v107 p) (res_main_call0_call0_v109 p)
/-- The value of `main_call0_call0_c_28`: %c_28 = stablehlo.constant dense<15> : tensor<ui32>. -/
def res_main_call0_call0_c_28 (p : (⟨S_, .f32⟩ : BufTy).Contents (Elt F)) : (⟨S_, .i32⟩ : BufTy).Contents (Elt F) :=
  (constantI S_ 32 15#32)
/-- The value of `main_call0_call0_v111`: %111 = stablehlo.broadcast_in_dim %c_28, dims = [] : (tensor<ui32>) -> tensor<1048576x32xui32>. -/
def res_main_call0_call0_v111 (p : (⟨S_, .f32⟩ : BufTy).Contents (Elt F)) : (⟨S1048576x32, .i32⟩ : BufTy).Contents (Elt F) :=
  (broadcastInDim S1048576x32 ![] bcast_S_S1048576x32) (res_main_call0_call0_c_28 p)
/-- The value of `main_call0_call0_v112`: %112 = stablehlo.shift_right_logical %107, %111 : tensor<1048576x32xui32>. -/
def res_main_call0_call0_v112 (p : (⟨S_, .f32⟩ : BufTy).Contents (Elt F)) : (⟨S1048576x32, .i32⟩ : BufTy).Contents (Elt F) :=
  Host.shrui (res_main_call0_call0_v107 p) (res_main_call0_call0_v111 p)
/-- The value of `main_call0_call0_v113`: %113 = stablehlo.or %110, %112 : tensor<1048576x32xui32>. -/
def res_main_call0_call0_v113 (p : (⟨S_, .f32⟩ : BufTy).Contents (Elt F)) : (⟨S1048576x32, .i32⟩ : BufTy).Contents (Elt F) :=
  ori (res_main_call0_call0_v110 p) (res_main_call0_call0_v112 p)
/-- The value of `main_call0_call0_v114`: %114 = stablehlo.xor %108, %113 : tensor<1048576x32xui32>. -/
def res_main_call0_call0_v114 (p : (⟨S_, .f32⟩ : BufTy).Contents (Elt F)) : (⟨S1048576x32, .i32⟩ : BufTy).Contents (Elt F) :=
  xori (res_main_call0_call0_v108 p) (res_main_call0_call0_v113 p)
/-- The value of `main_call0_call0_v115`: %115 = stablehlo.add %108, %114 : tensor<1048576x32xui32>. -/
def res_main_call0_call0_v115 (p : (⟨S_, .f32⟩ : BufTy).Contents (Elt F)) : (⟨S1048576x32, .i32⟩ : BufTy).Contents (Elt F) :=
  addi (res_main_call0_call0_v108 p) (res_main_call0_call0_v114 p)
/-- The value of `main_call0_call0_c_29`: %c_29 = stablehlo.constant dense<29> : tensor<ui32>. -/
def res_main_call0_call0_c_29 (p : (⟨S_, .f32⟩ : BufTy).Contents (Elt F)) : (⟨S_, .i32⟩ : BufTy).Contents (Elt F) :=
  (constantI S_ 32 29#32)
/-- The value of `main_call0_call0_v116`: %116 = stablehlo.broadcast_in_dim %c_29, dims = [] : (tensor<ui32>) -> tensor<1048576x32xui32>. -/
def res_main_call0_call0_v116 (p : (⟨S_, .f32⟩ : BufTy).Contents (Elt F)) : (⟨S1048576x32, .i32⟩ : BufTy).Contents (Elt F) :=
  (broadcastInDim S1048576x32 ![] bcast_S_S1048576x32) (res_main_call0_call0_c_29 p)
/-- The value of `main_call0_call0_v117`: %117 = stablehlo.shift_left %114, %116 : tensor<1048576x32xui32>. -/
def res_main_call0_call0_v117 (p : (⟨S_, .f32⟩ : BufTy).Contents (Elt F)) : (⟨S1048576x32, .i32⟩ : BufTy).Contents (Elt F) :=
  Host.shli (res_main_call0_call0_v114 p) (res_main_call0_call0_v116 p)
/-- The value of `main_call0_call0_c_30`: %c_30 = stablehlo.constant dense<3> : tensor<ui32>. -/
def res_main_call0_call0_c_30 (p : (⟨S_, .f32⟩ : BufTy).Contents (Elt F)) : (⟨S_, .i32⟩ : BufTy).Contents (Elt F) :=
  (constantI S_ 32 3#32)
/-- The value of `main_call0_call0_v118`: %118 = stablehlo.broadcast_in_dim %c_30, dims = [] : (tensor<ui32>) -> tensor<1048576x32xui32>. -/
def res_main_call0_call0_v118 (p : (⟨S_, .f32⟩ : BufTy).Contents (Elt F)) : (⟨S1048576x32, .i32⟩ : BufTy).Contents (Elt F) :=
  (broadcastInDim S1048576x32 ![] bcast_S_S1048576x32) (res_main_call0_call0_c_30 p)
/-- The value of `main_call0_call0_v119`: %119 = stablehlo.shift_right_logical %114, %118 : tensor<1048576x32xui32>. -/
def res_main_call0_call0_v119 (p : (⟨S_, .f32⟩ : BufTy).Contents (Elt F)) : (⟨S1048576x32, .i32⟩ : BufTy).Contents (Elt F) :=
  Host.shrui (res_main_call0_call0_v114 p) (res_main_call0_call0_v118 p)
/-- The value of `main_call0_call0_v120`: %120 = stablehlo.or %117, %119 : tensor<1048576x32xui32>. -/
def res_main_call0_call0_v120 (p : (⟨S_, .f32⟩ : BufTy).Contents (Elt F)) : (⟨S1048576x32, .i32⟩ : BufTy).Contents (Elt F) :=
  ori (res_main_call0_call0_v117 p) (res_main_call0_call0_v119 p)
/-- The value of `main_call0_call0_v121`: %121 = stablehlo.xor %115, %120 : tensor<1048576x32xui32>. -/
def res_main_call0_call0_v121 (p : (⟨S_, .f32⟩ : BufTy).Contents (Elt F)) : (⟨S1048576x32, .i32⟩ : BufTy).Contents (Elt F) :=
  xori (res_main_call0_call0_v115 p) (res_main_call0_call0_v120 p)
/-- The value of `main_call0_call0_v122`: %122 = stablehlo.add %115, %121 : tensor<1048576x32xui32>. -/
def res_main_call0_call0_v122 (p : (⟨S_, .f32⟩ : BufTy).Contents (Elt F)) : (⟨S1048576x32, .i32⟩ : BufTy).Contents (Elt F) :=
  addi (res_main_call0_call0_v115 p) (res_main_call0_call0_v121 p)
/-- The value of `main_call0_call0_c_31`: %c_31 = stablehlo.constant dense<16> : tensor<ui32>. -/
def res_main_call0_call0_c_31 (p : (⟨S_, .f32⟩ : BufTy).Contents (Elt F)) : (⟨S_, .i32⟩ : BufTy).Contents (Elt F) :=
  (constantI S_ 32 16#32)
/-- The value of `main_call0_call0_v123`: %123 = stablehlo.broadcast_in_dim %c_31, dims = [] : (tensor<ui32>) -> tensor<1048576x32xui32>. -/
def res_main_call0_call0_v123 (p : (⟨S_, .f32⟩ : BufTy).Contents (Elt F)) : (⟨S1048576x32, .i32⟩ : BufTy).Contents (Elt F) :=
  (broadcastInDim S1048576x32 ![] bcast_S_S1048576x32) (res_main_call0_call0_c_31 p)
/-- The value of `main_call0_call0_v124`: %124 = stablehlo.shift_left %121, %123 : tensor<1048576x32xui32>. -/
def res_main_call0_call0_v124 (p : (⟨S_, .f32⟩ : BufTy).Contents (Elt F)) : (⟨S1048576x32, .i32⟩ : BufTy).Contents (Elt F) :=
  Host.shli (res_main_call0_call0_v121 p) (res_main_call0_call0_v123 p)
/-- The value of `main_call0_call0_c_32`: %c_32 = stablehlo.constant dense<16> : tensor<ui32>. -/
def res_main_call0_call0_c_32 (p : (⟨S_, .f32⟩ : BufTy).Contents (Elt F)) : (⟨S_, .i32⟩ : BufTy).Contents (Elt F) :=
  (constantI S_ 32 16#32)
/-- The value of `main_call0_call0_v125`: %125 = stablehlo.broadcast_in_dim %c_32, dims = [] : (tensor<ui32>) -> tensor<1048576x32xui32>. -/
def res_main_call0_call0_v125 (p : (⟨S_, .f32⟩ : BufTy).Contents (Elt F)) : (⟨S1048576x32, .i32⟩ : BufTy).Contents (Elt F) :=
  (broadcastInDim S1048576x32 ![] bcast_S_S1048576x32) (res_main_call0_call0_c_32 p)
/-- The value of `main_call0_call0_v126`: %126 = stablehlo.shift_right_logical %121, %125 : tensor<1048576x32xui32>. -/
def res_main_call0_call0_v126 (p : (⟨S_, .f32⟩ : BufTy).Contents (Elt F)) : (⟨S1048576x32, .i32⟩ : BufTy).Contents (Elt F) :=
  Host.shrui (res_main_call0_call0_v121 p) (res_main_call0_call0_v125 p)
/-- The value of `main_call0_call0_v127`: %127 = stablehlo.or %124, %126 : tensor<1048576x32xui32>. -/
def res_main_call0_call0_v127 (p : (⟨S_, .f32⟩ : BufTy).Contents (Elt F)) : (⟨S1048576x32, .i32⟩ : BufTy).Contents (Elt F) :=
  ori (res_main_call0_call0_v124 p) (res_main_call0_call0_v126 p)
/-- The value of `main_call0_call0_v128`: %128 = stablehlo.xor %122, %127 : tensor<1048576x32xui32>. -/
def res_main_call0_call0_v128 (p : (⟨S_, .f32⟩ : BufTy).Contents (Elt F)) : (⟨S1048576x32, .i32⟩ : BufTy).Contents (Elt F) :=
  xori (res_main_call0_call0_v122 p) (res_main_call0_call0_v127 p)
/-- The value of `main_call0_call0_v129`: %129 = stablehlo.add %122, %128 : tensor<1048576x32xui32>. -/
def res_main_call0_call0_v129 (p : (⟨S_, .f32⟩ : BufTy).Contents (Elt F)) : (⟨S1048576x32, .i32⟩ : BufTy).Contents (Elt F) :=
  addi (res_main_call0_call0_v122 p) (res_main_call0_call0_v128 p)
/-- The value of `main_call0_call0_c_33`: %c_33 = stablehlo.constant dense<24> : tensor<ui32>. -/
def res_main_call0_call0_c_33 (p : (⟨S_, .f32⟩ : BufTy).Contents (Elt F)) : (⟨S_, .i32⟩ : BufTy).Contents (Elt F) :=
  (constantI S_ 32 24#32)
/-- The value of `main_call0_call0_v130`: %130 = stablehlo.broadcast_in_dim %c_33, dims = [] : (tensor<ui32>) -> tensor<1048576x32xui32>. -/
def res_main_call0_call0_v130 (p : (⟨S_, .f32⟩ : BufTy).Contents (Elt F)) : (⟨S1048576x32, .i32⟩ : BufTy).Contents (Elt F) :=
  (broadcastInDim S1048576x32 ![] bcast_S_S1048576x32) (res_main_call0_call0_c_33 p)
/-- The value of `main_call0_call0_v131`: %131 = stablehlo.shift_left %128, %130 : tensor<1048576x32xui32>. -/
def res_main_call0_call0_v131 (p : (⟨S_, .f32⟩ : BufTy).Contents (Elt F)) : (⟨S1048576x32, .i32⟩ : BufTy).Contents (Elt F) :=
  Host.shli (res_main_call0_call0_v128 p) (res_main_call0_call0_v130 p)
/-- The value of `main_call0_call0_c_34`: %c_34 = stablehlo.constant dense<8> : tensor<ui32>. -/
def res_main_call0_call0_c_34 (p : (⟨S_, .f32⟩ : BufTy).Contents (Elt F)) : (⟨S_, .i32⟩ : BufTy).Contents (Elt F) :=
  (constantI S_ 32 8#32)
/-- The value of `main_call0_call0_v132`: %132 = stablehlo.broadcast_in_dim %c_34, dims = [] : (tensor<ui32>) -> tensor<1048576x32xui32>. -/
def res_main_call0_call0_v132 (p : (⟨S_, .f32⟩ : BufTy).Contents (Elt F)) : (⟨S1048576x32, .i32⟩ : BufTy).Contents (Elt F) :=
  (broadcastInDim S1048576x32 ![] bcast_S_S1048576x32) (res_main_call0_call0_c_34 p)
/-- The value of `main_call0_call0_v133`: %133 = stablehlo.shift_right_logical %128, %132 : tensor<1048576x32xui32>. -/
def res_main_call0_call0_v133 (p : (⟨S_, .f32⟩ : BufTy).Contents (Elt F)) : (⟨S1048576x32, .i32⟩ : BufTy).Contents (Elt F) :=
  Host.shrui (res_main_call0_call0_v128 p) (res_main_call0_call0_v132 p)
/-- The value of `main_call0_call0_v134`: %134 = stablehlo.or %131, %133 : tensor<1048576x32xui32>. -/
def res_main_call0_call0_v134 (p : (⟨S_, .f32⟩ : BufTy).Contents (Elt F)) : (⟨S1048576x32, .i32⟩ : BufTy).Contents (Elt F) :=
  ori (res_main_call0_call0_v131 p) (res_main_call0_call0_v133 p)
/-- The value of `main_call0_call0_v135`: %135 = stablehlo.xor %129, %134 : tensor<1048576x32xui32>. -/
def res_main_call0_call0_v135 (p : (⟨S_, .f32⟩ : BufTy).Contents (Elt F)) : (⟨S1048576x32, .i32⟩ : BufTy).Contents (Elt F) :=
  xori (res_main_call0_call0_v129 p) (res_main_call0_call0_v134 p)
/-- The value of `main_call0_call0_v136`: %136 = stablehlo.broadcast_in_dim %arg1, dims = [] : (tensor<ui32>) -> tensor<1048576x32xui32>. -/
def res_main_call0_call0_v136 (p : (⟨S_, .f32⟩ : BufTy).Contents (Elt F)) : (⟨S1048576x32, .i32⟩ : BufTy).Contents (Elt F) :=
  (broadcastInDim S1048576x32 ![] bcast_S_S1048576x32) (res_main_call0_v7 p)
/-- The value of `main_call0_call0_v137`: %137 = stablehlo.add %129, %136 : tensor<1048576x32xui32>. -/
def res_main_call0_call0_v137 (p : (⟨S_, .f32⟩ : BufTy).Contents (Elt F)) : (⟨S1048576x32, .i32⟩ : BufTy).Contents (Elt F) :=
  addi (res_main_call0_call0_v129 p) (res_main_call0_call0_v136 p)
/-- The value of `main_call0_call0_v138`: %138 = stablehlo.broadcast_in_dim %1, dims = [] : (tensor<ui32>) -> tensor<1048576x32xui32>. -/
def res_main_call0_call0_v138 (p : (⟨S_, .f32⟩ : BufTy).Contents (Elt F)) : (⟨S1048576x32, .i32⟩ : BufTy).Contents (Elt F) :=
  (broadcastInDim S1048576x32 ![] bcast_S_S1048576x32) (res_main_call0_call0_v1 p)
/-- The value of `main_call0_call0_v139`: %139 = stablehlo.add %135, %138 : tensor<1048576x32xui32>. -/
def res_main_call0_call0_v139 (p : (⟨S_, .f32⟩ : BufTy).Contents (Elt F)) : (⟨S1048576x32, .i32⟩ : BufTy).Contents (Elt F) :=
  addi (res_main_call0_call0_v135 p) (res_main_call0_call0_v138 p)
/-- The value of `main_call0_call0_c_35`: %c_35 = stablehlo.constant dense<4> : tensor<ui32>. -/
def res_main_call0_call0_c_35 (p : (⟨S_, .f32⟩ : BufTy).Contents (Elt F)) : (⟨S_, .i32⟩ : BufTy).Contents (Elt F) :=
  (constantI S_ 32 4#32)
/-- The value of `main_call0_call0_v140`: %140 = stablehlo.broadcast_in_dim %c_35, dims = [] : (tensor<ui32>) -> tensor<1048576x32xui32>. -/
def res_main_call0_call0_v140 (p : (⟨S_, .f32⟩ : BufTy).Contents (Elt F)) : (⟨S1048576x32, .i32⟩ : BufTy).Contents (Elt F) :=
  (broadcastInDim S1048576x32 ![] bcast_S_S1048576x32) (res_main_call0_call0_c_35 p)
/-- The value of `main_call0_call0_v141`: %141 = stablehlo.add %139, %140 : tensor<1048576x32xui32>. -/
def res_main_call0_call0_v141 (p : (⟨S_, .f32⟩ : BufTy).Contents (Elt F)) : (⟨S1048576x32, .i32⟩ : BufTy).Contents (Elt F) :=
  addi (res_main_call0_call0_v139 p) (res_main_call0_call0_v140 p)
/-- The value of `main_call0_call0_v142`: %142 = stablehlo.add %137, %141 : tensor<1048576x32xui32>. -/
def res_main_call0_call0_v142 (p : (⟨S_, .f32⟩ : BufTy).Contents (Elt F)) : (⟨S1048576x32, .i32⟩ : BufTy).Contents (Elt F) :=
  addi (res_main_call0_call0_v137 p) (res_main_call0_call0_v141 p)
/-- The value of `main_call0_call0_c_36`: %c_36 = stablehlo.constant dense<13> : tensor<ui32>. -/
def res_main_call0_call0_c_36 (p : (⟨S_, .f32⟩ : BufTy).Contents (Elt F)) : (⟨S_, .i32⟩ : BufTy).Contents (Elt F) :=
  (constantI S_ 32 13#32)
/-- The value of `main_call0_call0_v143`: %143 = stablehlo.broadcast_in_dim %c_36, dims = [] : (tensor<ui32>) -> tensor<1048576x32xui32>. -/
def res_main_call0_call0_v143 (p : (⟨S_, .f32⟩ : BufTy).Contents (Elt F)) : (⟨S1048576x32, .i32⟩ : BufTy).Contents (Elt F) :=
  (broadcastInDim S1048576x32 ![] bcast_S_S1048576x32) (res_main_call0_call0_c_36 p)
/-- The value of `main_call0_call0_v144`: %144 = stablehlo.shift_left %141, %143 : tensor<1048576x32xui32>. -/
def res_main_call0_call0_v144 (p : (⟨S_, .f32⟩ : BufTy).Contents (Elt F)) : (⟨S1048576x32, .i32⟩ : BufTy).Contents (Elt F) :=
  Host.shli (res_main_call0_call0_v141 p) (res_main_call0_call0_v143 p)
/-- The value of `main_call0_call0_c_37`: %c_37 = stablehlo.constant dense<19> : tensor<ui32>. -/
def res_main_call0_call0_c_37 (p : (⟨S_, .f32⟩ : BufTy).Contents (Elt F)) : (⟨S_, .i32⟩ : BufTy).Contents (Elt F) :=
  (constantI S_ 32 19#32)
/-- The value of `main_call0_call0_v145`: %145 = stablehlo.broadcast_in_dim %c_37, dims = [] : (tensor<ui32>) -> tensor<1048576x32xui32>. -/
def res_main_call0_call0_v145 (p : (⟨S_, .f32⟩ : BufTy).Contents (Elt F)) : (⟨S1048576x32, .i32⟩ : BufTy).Contents (Elt F) :=
  (broadcastInDim S1048576x32 ![] bcast_S_S1048576x32) (res_main_call0_call0_c_37 p)
/-- The value of `main_call0_call0_v146`: %146 = stablehlo.shift_right_logical %141, %145 : tensor<1048576x32xui32>. -/
def res_main_call0_call0_v146 (p : (⟨S_, .f32⟩ : BufTy).Contents (Elt F)) : (⟨S1048576x32, .i32⟩ : BufTy).Contents (Elt F) :=
  Host.shrui (res_main_call0_call0_v141 p) (res_main_call0_call0_v145 p)
/-- The value of `main_call0_call0_v147`: %147 = stablehlo.or %144, %146 : tensor<1048576x32xui32>. -/
def res_main_call0_call0_v147 (p : (⟨S_, .f32⟩ : BufTy).Contents (Elt F)) : (⟨S1048576x32, .i32⟩ : BufTy).Contents (Elt F) :=
  ori (res_main_call0_call0_v144 p) (res_main_call0_call0_v146 p)
/-- The value of `main_call0_call0_v148`: %148 = stablehlo.xor %142, %147 : tensor<1048576x32xui32>. -/
def res_main_call0_call0_v148 (p : (⟨S_, .f32⟩ : BufTy).Contents (Elt F)) : (⟨S1048576x32, .i32⟩ : BufTy).Contents (Elt F) :=
  xori (res_main_call0_call0_v142 p) (res_main_call0_call0_v147 p)
/-- The value of `main_call0_call0_v149`: %149 = stablehlo.add %142, %148 : tensor<1048576x32xui32>. -/
def res_main_call0_call0_v149 (p : (⟨S_, .f32⟩ : BufTy).Contents (Elt F)) : (⟨S1048576x32, .i32⟩ : BufTy).Contents (Elt F) :=
  addi (res_main_call0_call0_v142 p) (res_main_call0_call0_v148 p)
/-- The value of `main_call0_call0_c_38`: %c_38 = stablehlo.constant dense<15> : tensor<ui32>. -/
def res_main_call0_call0_c_38 (p : (⟨S_, .f32⟩ : BufTy).Contents (Elt F)) : (⟨S_, .i32⟩ : BufTy).Contents (Elt F) :=
  (constantI S_ 32 15#32)
/-- The value of `main_call0_call0_v150`: %150 = stablehlo.broadcast_in_dim %c_38, dims = [] : (tensor<ui32>) -> tensor<1048576x32xui32>. -/
def res_main_call0_call0_v150 (p : (⟨S_, .f32⟩ : BufTy).Contents (Elt F)) : (⟨S1048576x32, .i32⟩ : BufTy).Contents (Elt F) :=
  (broadcastInDim S1048576x32 ![] bcast_S_S1048576x32) (res_main_call0_call0_c_38 p)
/-- The value of `main_call0_call0_v151`: %151 = stablehlo.shift_left %148, %150 : tensor<1048576x32xui32>. -/
def res_main_call0_call0_v151 (p : (⟨S_, .f32⟩ : BufTy).Contents (Elt F)) : (⟨S1048576x32, .i32⟩ : BufTy).Contents (Elt F) :=
  Host.shli (res_main_call0_call0_v148 p) (res_main_call0_call0_v150 p)
/-- The value of `main_call0_call0_c_39`: %c_39 = stablehlo.constant dense<17> : tensor<ui32>. -/
def res_main_call0_call0_c_39 (p : (⟨S_, .f32⟩ : BufTy).Contents (Elt F)) : (⟨S_, .i32⟩ : BufTy).Contents (Elt F) :=
  (constantI S_ 32 17#32)
/-- The value of `main_call0_call0_v152`: %152 = stablehlo.broadcast_in_dim %c_39, dims = [] : (tensor<ui32>) -> tensor<1048576x32xui32>. -/
def res_main_call0_call0_v152 (p : (⟨S_, .f32⟩ : BufTy).Contents (Elt F)) : (⟨S1048576x32, .i32⟩ : BufTy).Contents (Elt F) :=
  (broadcastInDim S1048576x32 ![] bcast_S_S1048576x32) (res_main_call0_call0_c_39 p)
/-- The value of `main_call0_call0_v153`: %153 = stablehlo.shift_right_logical %148, %152 : tensor<1048576x32xui32>. -/
def res_main_call0_call0_v153 (p : (⟨S_, .f32⟩ : BufTy).Contents (Elt F)) : (⟨S1048576x32, .i32⟩ : BufTy).Contents (Elt F) :=
  Host.shrui (res_main_call0_call0_v148 p) (res_main_call0_call0_v152 p)
/-- The value of `main_call0_call0_v154`: %154 = stablehlo.or %151, %153 : tensor<1048576x32xui32>. -/
def res_main_call0_call0_v154 (p : (⟨S_, .f32⟩ : BufTy).Contents (Elt F)) : (⟨S1048576x32, .i32⟩ : BufTy).Contents (Elt F) :=
  ori (res_main_call0_call0_v151 p) (res_main_call0_call0_v153 p)
/-- The value of `main_call0_call0_v155`: %155 = stablehlo.xor %149, %154 : tensor<1048576x32xui32>. -/
def res_main_call0_call0_v155 (p : (⟨S_, .f32⟩ : BufTy).Contents (Elt F)) : (⟨S1048576x32, .i32⟩ : BufTy).Contents (Elt F) :=
  xori (res_main_call0_call0_v149 p) (res_main_call0_call0_v154 p)
/-- The value of `main_call0_call0_v156`: %156 = stablehlo.add %149, %155 : tensor<1048576x32xui32>. -/
def res_main_call0_call0_v156 (p : (⟨S_, .f32⟩ : BufTy).Contents (Elt F)) : (⟨S1048576x32, .i32⟩ : BufTy).Contents (Elt F) :=
  addi (res_main_call0_call0_v149 p) (res_main_call0_call0_v155 p)
/-- The value of `main_call0_call0_c_40`: %c_40 = stablehlo.constant dense<26> : tensor<ui32>. -/
def res_main_call0_call0_c_40 (p : (⟨S_, .f32⟩ : BufTy).Contents (Elt F)) : (⟨S_, .i32⟩ : BufTy).Contents (Elt F) :=
  (constantI S_ 32 26#32)
/-- The value of `main_call0_call0_v157`: %157 = stablehlo.broadcast_in_dim %c_40, dims = [] : (tensor<ui32>) -> tensor<1048576x32xui32>. -/
def res_main_call0_call0_v157 (p : (⟨S_, .f32⟩ : BufTy).Contents (Elt F)) : (⟨S1048576x32, .i32⟩ : BufTy).Contents (Elt F) :=
  (broadcastInDim S1048576x32 ![] bcast_S_S1048576x32) (res_main_call0_call0_c_40 p)
/-- The value of `main_call0_call0_v158`: %158 = stablehlo.shift_left %155, %157 : tensor<1048576x32xui32>. -/
def res_main_call0_call0_v158 (p : (⟨S_, .f32⟩ : BufTy).Contents (Elt F)) : (⟨S1048576x32, .i32⟩ : BufTy).Contents (Elt F) :=
  Host.shli (res_main_call0_call0_v155 p) (res_main_call0_call0_v157 p)
/-- The value of `main_call0_call0_c_41`: %c_41 = stablehlo.constant dense<6> : tensor<ui32>. -/
def res_main_call0_call0_c_41 (p : (⟨S_, .f32⟩ : BufTy).Contents (Elt F)) : (⟨S_, .i32⟩ : BufTy).Contents (Elt F) :=
  (constantI S_ 32 6#32)
/-- The value of `main_call0_call0_v159`: %159 = stablehlo.broadcast_in_dim %c_41, dims = [] : (tensor<ui32>) -> tensor<1048576x32xui32>. -/
def res_main_call0_call0_v159 (p : (⟨S_, .f32⟩ : BufTy).Contents (Elt F)) : (⟨S1048576x32, .i32⟩ : BufTy).Contents (Elt F) :=
  (broadcastInDim S1048576x32 ![] bcast_S_S1048576x32) (res_main_call0_call0_c_41 p)
/-- The value of `main_call0_call0_v160`: %160 = stablehlo.shift_right_logical %155, %159 : tensor<1048576x32xui32>. -/
def res_main_call0_call0_v160 (p : (⟨S_, .f32⟩ : BufTy).Contents (Elt F)) : (⟨S1048576x32, .i32⟩ : BufTy).Contents (Elt F) :=
  Host.shrui (res_main_call0_call0_v155 p) (res_main_call0_call0_v159 p)
/-- The value of `main_call0_call0_v161`: %161 = stablehlo.or %158, %160 : tensor<1048576x32xui32>. -/
def res_main_call0_call0_v161 (p : (⟨S_, .f32⟩ : BufTy).Contents (Elt F)) : (⟨S1048576x32, .i32⟩ : BufTy).Contents (Elt F) :=
  ori (res_main_call0_call0_v158 p) (res_main_call0_call0_v160 p)
/-- The value of `main_call0_call0_v162`: %162 = stablehlo.xor %156, %161 : tensor<1048576x32xui32>. -/
def res_main_call0_call0_v162 (p : (⟨S_, .f32⟩ : BufTy).Contents (Elt F)) : (⟨S1048576x32, .i32⟩ : BufTy).Contents (Elt F) :=
  xori (res_main_call0_call0_v156 p) (res_main_call0_call0_v161 p)
/-- The value of `main_call0_call0_v163`: %163 = stablehlo.add %156, %162 : tensor<1048576x32xui32>. -/
def res_main_call0_call0_v163 (p : (⟨S_, .f32⟩ : BufTy).Contents (Elt F)) : (⟨S1048576x32, .i32⟩ : BufTy).Contents (Elt F) :=
  addi (res_main_call0_call0_v156 p) (res_main_call0_call0_v162 p)
/-- The value of `main_call0_call0_c_42`: %c_42 = stablehlo.constant dense<6> : tensor<ui32>. -/
def res_main_call0_call0_c_42 (p : (⟨S_, .f32⟩ : BufTy).Contents (Elt F)) : (⟨S_, .i32⟩ : BufTy).Contents (Elt F) :=
  (constantI S_ 32 6#32)
/-- The value of `main_call0_call0_v164`: %164 = stablehlo.broadcast_in_dim %c_42, dims = [] : (tensor<ui32>) -> tensor<1048576x32xui32>. -/
def res_main_call0_call0_v164 (p : (⟨S_, .f32⟩ : BufTy).Contents (Elt F)) : (⟨S1048576x32, .i32⟩ : BufTy).Contents (Elt F) :=
  (broadcastInDim S1048576x32 ![] bcast_S_S1048576x32) (res_main_call0_call0_c_42 p)
/-- The value of `main_call0_call0_v165`: %165 = stablehlo.shift_left %162, %164 : tensor<1048576x32xui32>. -/
def res_main_call0_call0_v165 (p : (⟨S_, .f32⟩ : BufTy).Contents (Elt F)) : (⟨S1048576x32, .i32⟩ : BufTy).Contents (Elt F) :=
  Host.shli (res_main_call0_call0_v162 p) (res_main_call0_call0_v164 p)
/-- The value of `main_call0_call0_c_43`: %c_43 = stablehlo.constant dense<26> : tensor<ui32>. -/
def res_main_call0_call0_c_43 (p : (⟨S_, .f32⟩ : BufTy).Contents (Elt F)) : (⟨S_, .i32⟩ : BufTy).Contents (Elt F) :=
  (constantI S_ 32 26#32)
/-- The value of `main_call0_call0_v166`: %166 = stablehlo.broadcast_in_dim %c_43, dims = [] : (tensor<ui32>) -> tensor<1048576x32xui32>. -/
def res_main_call0_call0_v166 (p : (⟨S_, .f32⟩ : BufTy).Contents (Elt F)) : (⟨S1048576x32, .i32⟩ : BufTy).Contents (Elt F) :=
  (broadcastInDim S1048576x32 ![] bcast_S_S1048576x32) (res_main_call0_call0_c_43 p)
/-- The value of `main_call0_call0_v167`: %167 = stablehlo.shift_right_logical %162, %166 : tensor<1048576x32xui32>. -/
def res_main_call0_call0_v167 (p : (⟨S_, .f32⟩ : BufTy).Contents (Elt F)) : (⟨S1048576x32, .i32⟩ : BufTy).Contents (Elt F) :=
  Host.shrui (res_main_call0_call0_v162 p) (res_main_call0_call0_v166 p)
/-- The value of `main_call0_call0_v168`: %168 = stablehlo.or %165, %167 : tensor<1048576x32xui32>. -/
def res_main_call0_call0_v168 (p : (⟨S_, .f32⟩ : BufTy).Contents (Elt F)) : (⟨S1048576x32, .i32⟩ : BufTy).Contents (Elt F) :=
  ori (res_main_call0_call0_v165 p) (res_main_call0_call0_v167 p)
/-- The value of `main_call0_call0_v169`: %169 = stablehlo.xor %163, %168 : tensor<1048576x32xui32>. -/
def res_main_call0_call0_v169 (p : (⟨S_, .f32⟩ : BufTy).Contents (Elt F)) : (⟨S1048576x32, .i32⟩ : BufTy).Contents (Elt F) :=
  xori (res_main_call0_call0_v163 p) (res_main_call0_call0_v168 p)
/-- The value of `main_call0_call0_v170`: %170 = stablehlo.broadcast_in_dim %1, dims = [] : (tensor<ui32>) -> tensor<1048576x32xui32>. -/
def res_main_call0_call0_v170 (p : (⟨S_, .f32⟩ : BufTy).Contents (Elt F)) : (⟨S1048576x32, .i32⟩ : BufTy).Contents (Elt F) :=
  (broadcastInDim S1048576x32 ![] bcast_S_S1048576x32) (res_main_call0_call0_v1 p)
/-- The value of `main_call0_v19_0`: %171 = stablehlo.add %163, %170 : tensor<1048576x32xui32>. -/
def res_main_call0_v19_0 (p : (⟨S_, .f32⟩ : BufTy).Contents (Elt F)) : (⟨S1048576x32, .i32⟩ : BufTy).Contents (Elt F) :=
  addi (res_main_call0_call0_v163 p) (res_main_call0_call0_v170 p)
/-- The value of `main_call0_call0_v172`: %172 = stablehlo.broadcast_in_dim %arg0, dims = [] : (tensor<ui32>) -> tensor<1048576x32xui32>. -/
def res_main_call0_call0_v172 (p : (⟨S_, .f32⟩ : BufTy).Contents (Elt F)) : (⟨S1048576x32, .i32⟩ : BufTy).Contents (Elt F) :=
  (broadcastInDim S1048576x32 ![] bcast_S_S1048576x32) (res_main_call0_v5 p)
/-- The value of `main_call0_call0_v173`: %173 = stablehlo.add %169, %172 : tensor<1048576x32xui32>. -/
def res_main_call0_call0_v173 (p : (⟨S_, .f32⟩ : BufTy).Contents (Elt F)) : (⟨S1048576x32, .i32⟩ : BufTy).Contents (Elt F) :=
  addi (res_main_call0_call0_v169 p) (res_main_call0_call0_v172 p)
/-- The value of `main_call0_call0_c_44`: %c_44 = stablehlo.constant dense<5> : tensor<ui32>. -/
def res_main_call0_call0_c_44 (p : (⟨S_, .f32⟩ : BufTy).Contents (Elt F)) : (⟨S_, .i32⟩ : BufTy).Contents (Elt F) :=
  (constantI S_ 32 5#32)
/-- The value of `main_call0_call0_v174`: %174 = stablehlo.broadcast_in_dim %c_44, dims = [] : (tensor<ui32>) -> tensor<1048576x32xui32>. -/
def res_main_call0_call0_v174 (p : (⟨S_, .f32⟩ : BufTy).Contents (Elt F)) : (⟨S1048576x32, .i32⟩ : BufTy).Contents (Elt F) :=
  (broadcastInDim S1048576x32 ![] bcast_S_S1048576x32) (res_main_call0_call0_c_44 p)
/-- The value of `main_call0_v19_1`: %175 = stablehlo.add %173, %174 : tensor<1048576x32xui32>. -/
def res_main_call0_v19_1 (p : (⟨S_, .f32⟩ : BufTy).Contents (Elt F)) : (⟨S1048576x32, .i32⟩ : BufTy).Contents (Elt F) :=
  addi (res_main_call0_call0_v173 p) (res_main_call0_call0_v174 p)
/-- The value of `main_call0_v20`: %20 = stablehlo.xor %19#0, %19#1 : tensor<1048576x32xui32>. -/
def res_main_call0_v20 (p : (⟨S_, .f32⟩ : BufTy).Contents (Elt F)) : (⟨S1048576x32, .i32⟩ : BufTy).Contents (Elt F) :=
  xori (res_main_call0_v19_0 p) (res_main_call0_v19_1 p)
/-- The value of `main_call0_c_2`: %c_2 = stablehlo.constant dense<9> : tensor<ui32>. -/
def res_main_call0_c_2 (p : (⟨S_, .f32⟩ : BufTy).Contents (Elt F)) : (⟨S_, .i32⟩ : BufTy).Contents (Elt F) :=
  (constantI S_ 32 9#32)
/-- The value of `main_call0_v21`: %21 = stablehlo.broadcast_in_dim %c_2, dims = [] : (tensor<ui32>) -> tensor<1048576x32xui32>. -/
def res_main_call0_v21 (p : (⟨S_, .f32⟩ : BufTy).Contents (Elt F)) : (⟨S1048576x32, .i32⟩ : BufTy).Contents (Elt F) :=
  (broadcastInDim S1048576x32 ![] bcast_S_S1048576x32) (res_main_call0_c_2 p)
/-- The value of `main_call0_v22`: %22 = stablehlo.shift_right_logical %20, %21 : tensor<1048576x32xui32>. -/
def res_main_call0_v22 (p : (⟨S_, .f32⟩ : BufTy).Contents (Elt F)) : (⟨S1048576x32, .i32⟩ : BufTy).Contents (Elt F) :=
  Host.shrui (res_main_call0_v20 p) (res_main_call0_v21 p)
/-- The value of `main_call0_c_3`: %c_3 = stablehlo.constant dense<1065353216> : tensor<ui32>. -/
def res_main_call0_c_3 (p : (⟨S_, .f32⟩ : BufTy).Contents (Elt F)) : (⟨S_, .i32⟩ : BufTy).Contents (Elt F) :=
  (constantI S_ 32 1065353216#32)
/-- The value of `main_call0_v23`: %23 = stablehlo.broadcast_in_dim %c_3, dims = [] : (tensor<ui32>) -> tensor<1048576x32xui32>. -/
def res_main_call0_v23 (p : (⟨S_, .f32⟩ : BufTy).Contents (Elt F)) : (⟨S1048576x32, .i32⟩ : BufTy).Contents (Elt F) :=
  (broadcastInDim S1048576x32 ![] bcast_S_S1048576x32) (res_main_call0_c_3 p)
/-- The value of `main_call0_v24`: %24 = stablehlo.or %22, %23 : tensor<1048576x32xui32>. -/
def res_main_call0_v24 (p : (⟨S_, .f32⟩ : BufTy).Contents (Elt F)) : (⟨S1048576x32, .i32⟩ : BufTy).Contents (Elt F) :=
  ori (res_main_call0_v22 p) (res_main_call0_v23 p)
/-- The value of `main_call0_v25`: %25 = stablehlo.bitcast_convert %24 : (tensor<1048576x32xui32>) -> tensor<1048576x32xf32>. -/
def res_main_call0_v25 (p : (⟨S_, .f32⟩ : BufTy).Contents (Elt F)) : (⟨S1048576x32, .f32⟩ : BufTy).Contents (Elt F) :=
  (bitcastToFloat .f32) (res_main_call0_v24 p)
/-- The value of `main_call0_cst`: %cst = stablehlo.constant dense<1.000000e+00> : tensor<f32>. -/
def res_main_call0_cst (p : (⟨S_, .f32⟩ : BufTy).Contents (Elt F)) : (⟨S_, .f32⟩ : BufTy).Contents (Elt F) :=
  (constant S_ .f32 0x3F800000#32)
/-- The value of `main_call0_v26`: %26 = stablehlo.broadcast_in_dim %cst, dims = [] : (tensor<f32>) -> tensor<1048576x32xf32>. -/
def res_main_call0_v26 (p : (⟨S_, .f32⟩ : BufTy).Contents (Elt F)) : (⟨S1048576x32, .f32⟩ : BufTy).Contents (Elt F) :=
  (broadcastInDim S1048576x32 ![] bcast_S_S1048576x32) (res_main_call0_cst p)
/-- The value of `main_call0_v27`: %27 = stablehlo.subtract %25, %26 : tensor<1048576x32xf32>. -/
def res_main_call0_v27 (p : (⟨S_, .f32⟩ : BufTy).Contents (Elt F)) : (⟨S1048576x32, .f32⟩ : BufTy).Contents (Elt F) :=
  subf (res_main_call0_v25 p) (res_main_call0_v26 p)
/-- The value of `main_call0_v28`: %28 = stablehlo.subtract %3, %2 : tensor<1x1xf32>. -/
def res_main_call0_v28 (p : (⟨S_, .f32⟩ : BufTy).Contents (Elt F)) : (⟨S1x1, .f32⟩ : BufTy).Contents (Elt F) :=
  subf (res_main_call0_v3 p) (res_main_call0_v2 p)
/-- The value of `main_call0_v29`: %29 = stablehlo.broadcast_in_dim %28, dims = [0, 1] : (tensor<1x1xf32>) -> tensor<1048576x32xf32>. -/
def res_main_call0_v29 (p : (⟨S_, .f32⟩ : BufTy).Contents (Elt F)) : (⟨S1048576x32, .f32⟩ : BufTy).Contents (Elt F) :=
  (broadcastInDim S1048576x32 ![0, 1] bcast_S1x1_S1048576x32_0_1) (res_main_call0_v28 p)
/-- The value of `main_call0_v30`: %30 = stablehlo.multiply %27, %29 : tensor<1048576x32xf32>. -/
def res_main_call0_v30 (p : (⟨S_, .f32⟩ : BufTy).Contents (Elt F)) : (⟨S1048576x32, .f32⟩ : BufTy).Contents (Elt F) :=
  mulf (res_main_call0_v27 p) (res_main_call0_v29 p)
/-- The value of `main_call0_v31`: %31 = stablehlo.broadcast_in_dim %2, dims = [0, 1] : (tensor<1x1xf32>) -> tensor<1048576x32xf32>. -/
def res_main_call0_v31 (p : (⟨S_, .f32⟩ : BufTy).Contents (Elt F)) : (⟨S1048576x32, .f32⟩ : BufTy).Contents (Elt F) :=
  (broadcastInDim S1048576x32 ![0, 1] bcast_S1x1_S1048576x32_0_1) (res_main_call0_v2 p)
/-- The value of `main_call0_v32`: %32 = stablehlo.add %30, %31 : tensor<1048576x32xf32>. -/
def res_main_call0_v32 (p : (⟨S_, .f32⟩ : BufTy).Contents (Elt F)) : (⟨S1048576x32, .f32⟩ : BufTy).Contents (Elt F) :=
  addf (res_main_call0_v30 p) (res_main_call0_v31 p)
/-- The value of `main_call0_v33`: %33 = stablehlo.broadcast_in_dim %2, dims = [0, 1] : (tensor<1x1xf32>) -> tensor<1048576x32xf32>. -/
def res_main_call0_v33 (p : (⟨S_, .f32⟩ : BufTy).Contents (Elt F)) : (⟨S1048576x32, .f32⟩ : BufTy).Contents (Elt F) :=
  (broadcastInDim S1048576x32 ![0, 1] bcast_S1x1_S1048576x32_0_1) (res_main_call0_v2 p)
/-- The value of `main_v7`: %34 = stablehlo.maximum %33, %32 : tensor<1048576x32xf32>. -/
def res_main_v7 (p : (⟨S_, .f32⟩ : BufTy).Contents (Elt F)) : (⟨S1048576x32, .f32⟩ : BufTy).Contents (Elt F) :=
  maximumf (res_main_call0_v33 p) (res_main_call0_v32 p)
/-- The value of `main_v8`: %8 = stablehlo.broadcast_in_dim %arg1, dims = [] : (tensor<f32>) -> tensor<1048576x32xf32>. -/
def res_main_v8 (p : (⟨S_, .f32⟩ : BufTy).Contents (Elt F)) : (⟨S1048576x32, .f32⟩ : BufTy).Contents (Elt F) :=
  (broadcastInDim S1048576x32 ![] bcast_S_S1048576x32 : (⟨S_, .f32⟩ : BufTy).Contents (Elt F) → (⟨S1048576x32, .f32⟩ : BufTy).Contents (Elt F)) p
/-- The value of `main_v9`: %9 = stablehlo.compare LT, %7, %8, FLOAT : (tensor<1048576x32xf32>, tensor<1048576x32xf32>) -> tensor<1048576x32xi1>. -/
def res_main_v9 (p : (⟨S_, .f32⟩ : BufTy).Contents (Elt F)) : (⟨S1048576x32, .i1⟩ : BufTy).Contents (Elt F) :=
  (cmpf .olt : (⟨S1048576x32, .f32⟩ : BufTy).Contents (Elt F) → (⟨S1048576x32, .f32⟩ : BufTy).Contents (Elt F) → (⟨S1048576x32, .i1⟩ : BufTy).Contents (Elt F)) (res_main_v7 p) (res_main_v8 p)
/-- The value of `main_v10`: %10 = stablehlo.convert %9 : (tensor<1048576x32xi1>) -> tensor<1048576x32xui32>. -/
def res_main_v10 (p : (⟨S_, .f32⟩ : BufTy).Contents (Elt F)) : (⟨S1048576x32, .i32⟩ : BufTy).Contents (Elt F) :=
  ((extui 32 · natLt_1_32) : (⟨S1048576x32, .i1⟩ : BufTy).Contents (Elt F) → (⟨S1048576x32, .i32⟩ : BufTy).Contents (Elt F)) (res_main_v9 p)
/-- The value of `main_v11`: %11 = stablehlo.iota dim = 0 : tensor<32xui32>. -/
def res_main_v11 (p : (⟨S_, .f32⟩ : BufTy).Contents (Elt F)) : (⟨S32, .i32⟩ : BufTy).Contents (Elt F) :=
  (iotaInDim S32 32 0)
/-- The value of `main_v12`: %12 = stablehlo.reshape %11 : (tensor<32xui32>) -> tensor<1x32xui32>. -/
def res_main_v12 (p : (⟨S_, .f32⟩ : BufTy).Contents (Elt F)) : (⟨S1x32, .i32⟩ : BufTy).Contents (Elt F) :=
  (shapeCast _ · shapeCasts_S32_S1x32) (res_main_v11 p)
/-- The value of `main_v13`: %13 = stablehlo.broadcast_in_dim %12, dims = [0, 1] : (tensor<1x32xui32>) -> tensor<1048576x32xui32>. -/
def res_main_v13 (p : (⟨S_, .f32⟩ : BufTy).Contents (Elt F)) : (⟨S1048576x32, .i32⟩ : BufTy).Contents (Elt F) :=
  (broadcastInDim S1048576x32 ![0, 1] bcast_S1x32_S1048576x32_0_1 : (⟨S1x32, .i32⟩ : BufTy).Contents (Elt F) → (⟨S1048576x32, .i32⟩ : BufTy).Contents (Elt F)) (res_main_v12 p)
/-- The value of `main_v14`: %14 = stablehlo.shift_left %10, %13 : tensor<1048576x32xui32>. -/
def res_main_v14 (p : (⟨S_, .f32⟩ : BufTy).Contents (Elt F)) : (⟨S1048576x32, .i32⟩ : BufTy).Contents (Elt F) :=
  (Host.shli : (⟨S1048576x32, .i32⟩ : BufTy).Contents (Elt F) → (⟨S1048576x32, .i32⟩ : BufTy).Contents (Elt F) → (⟨S1048576x32, .i32⟩ : BufTy).Contents (Elt F)) (res_main_v10 p) (res_main_v13 p)
/-- The value of `main_c_3`: %c_3 = stablehlo.constant dense<0> : tensor<ui32>. -/
def res_main_c_3 (p : (⟨S_, .f32⟩ : BufTy).Contents (Elt F)) : (⟨S_, .i32⟩ : BufTy).Contents (Elt F) :=
  (constantI S_ 32 0#32)
/-- The value of `main_v15`: %15 = stablehlo.reduce(%14 init: %c_3) applies stablehlo.add across dimensions = [1] : (tensor<1048576x32xui32>, tensor<ui32>) -> tensor<1048576xui32>. -/
def res_main_v15 (p : (⟨S_, .f32⟩ : BufTy).Contents (Elt F)) : (⟨S1048576, .i32⟩ : BufTy).Contents (Elt F) :=
  ((fun x v => Host.reduce IntOp.addi x v reducesTo_S1048576x32_S1048576_d1 h_S_) : (⟨S1048576x32, .i32⟩ : BufTy).Contents (Elt F) → (⟨S_, .i32⟩ : BufTy).Contents (Elt F) → (⟨S1048576, .i32⟩ : BufTy).Contents (Elt F)) (res_main_v14 p) (res_main_c_3 p)

/-! ## The run, window by window -/

/-- The device's buffer contents before the first window. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl

/-- The device's buffer contents after the first 1 window. -/
def val1 (V0 : Valuation τ sig (Elt F)) : Valuation τ sig (Elt F) := after w01 (val0 V0)
/-- The buffers that window `w01`'s operations write. -/
abbrev w01_W : List (Ref sig .tc) := [main_c, main_c_0, main_v0, main_v1, main_v2, main_c_1, main_v3, main_v4, main_v5, main_v6, main_cst, main_cst_2]
theorem w01_writes : (w01 : List (HloOp τ sig (Elt F))).Forall fun op => op.writes ⊆ (w01_W.map (Proc.devRef (τ := τ) .tc)).toFinset :=
  ⟨wr (y := main_c) (by decide), wr (y := main_c_0) (by decide), wr (y := main_v0) (by decide), wr (y := main_v1) (by decide), wr (y := main_v2) (by decide), wr (y := main_c_1) (by decide), wr (y := main_v3) (by decide), wr (y := main_v4) (by decide), wr (y := main_v5) (by decide), wr (y := main_v6) (by decide), wr (y := main_cst) (by decide), wr (y := main_cst_2) (by decide)⟩
/-- A buffer that window `w01` does not write keeps its contents through it. -/
theorem val1_keep (V0 : Valuation τ sig (Elt F)) (r : Ref sig .tc) (h : r ∉ w01_W) :
    val1 V0 (Proc.devRef .tc r) = val0 V0 (Proc.devRef .tc r) :=
  after_of_writes_sub w01 _ w01_writes h
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_arg1 (V0 : Valuation τ sig (Elt F)) : val1 V0 (no_index (Proc.devRef .tc main_arg1)) = (V0 (Proc.devRef .tc main_arg1)) :=
  (val1_keep V0 main_arg1 (by decide)).trans (val0_main_arg1 V0)
theorem val1_main_v6 (V0 : Valuation τ sig (Elt F)) : val1 V0 (no_index (Proc.devRef .tc main_v6)) = res_main_v6 (V0 (Proc.devRef .tc main_arg1)) := by
  unfold val1
  simp only [w01]
  after_results_simp
  all_goals rfl
theorem val1_main_cst (V0 : Valuation τ sig (Elt F)) : val1 V0 (no_index (Proc.devRef .tc main_cst)) = res_main_cst (V0 (Proc.devRef .tc main_arg1)) := by
  unfold val1
  simp only [w01]
  after_results_simp
  all_goals rfl
theorem val1_main_cst_2 (V0 : Valuation τ sig (Elt F)) : val1 V0 (no_index (Proc.devRef .tc main_cst_2)) = res_main_cst_2 (V0 (Proc.devRef .tc main_arg1)) := by
  unfold val1
  simp only [w01]
  after_results_simp
  all_goals rfl

/-- The device's buffer contents after the first 2 windows. -/
def val2 (V0 : Valuation τ sig (Elt F)) : Valuation τ sig (Elt F) := after w02 (val1 V0)
/-- The buffers that window `w02`'s operations write. -/
abbrev w02_W : List (Ref sig .tc) := [main_call0_v0, main_call0_v1, main_call0_v2, main_call0_v3, main_call0_v4, main_call0_v5, main_call0_v6, main_call0_v7, main_call0_v8, main_call0_v9, main_call0_c, main_call0_v10]
theorem w02_writes : (w02 : List (HloOp τ sig (Elt F))).Forall fun op => op.writes ⊆ (w02_W.map (Proc.devRef (τ := τ) .tc)).toFinset :=
  ⟨wr (y := main_call0_v0) (by decide), wr (y := main_call0_v1) (by decide), wr (y := main_call0_v2) (by decide), wr (y := main_call0_v3) (by decide), wr (y := main_call0_v4) (by decide), wr (y := main_call0_v5) (by decide), wr (y := main_call0_v6) (by decide), wr (y := main_call0_v7) (by decide), wr (y := main_call0_v8) (by decide), wr (y := main_call0_v9) (by decide), wr (y := main_call0_c) (by decide), wr (y := main_call0_v10) (by decide)⟩
/-- A buffer that window `w02` does not write keeps its contents through it. -/
theorem val2_keep (V0 : Valuation τ sig (Elt F)) (r : Ref sig .tc) (h : r ∉ w02_W) :
    val2 V0 (Proc.devRef .tc r) = val1 V0 (Proc.devRef .tc r) :=
  after_of_writes_sub w02 _ w02_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_call0_v2 (V0 : Valuation τ sig (Elt F)) : val2 V0 (no_index (Proc.devRef .tc main_call0_v2)) = res_main_call0_v2 (V0 (Proc.devRef .tc main_arg1)) := by
  unfold val2
  simp only [w02]
  after_results_simp
  simp only [val1_main_cst] <;> rfl
theorem val2_main_call0_v3 (V0 : Valuation τ sig (Elt F)) : val2 V0 (no_index (Proc.devRef .tc main_call0_v3)) = res_main_call0_v3 (V0 (Proc.devRef .tc main_arg1)) := by
  unfold val2
  simp only [w02]
  after_results_simp
  simp only [val1_main_cst_2] <;> rfl
theorem val2_main_call0_v5 (V0 : Valuation τ sig (Elt F)) : val2 V0 (no_index (Proc.devRef .tc main_call0_v5)) = res_main_call0_v5 (V0 (Proc.devRef .tc main_arg1)) := by
  unfold val2
  simp only [w02]
  after_results_simp
  simp only [val1_main_v6] <;> rfl
theorem val2_main_call0_v7 (V0 : Valuation τ sig (Elt F)) : val2 V0 (no_index (Proc.devRef .tc main_call0_v7)) = res_main_call0_v7 (V0 (Proc.devRef .tc main_arg1)) := by
  unfold val2
  simp only [w02]
  after_results_simp
  simp only [val1_main_v6] <;> rfl
theorem val2_main_call0_v8 (V0 : Valuation τ sig (Elt F)) : val2 V0 (no_index (Proc.devRef .tc main_call0_v8)) = res_main_call0_v8 (V0 (Proc.devRef .tc main_arg1)) := by
  unfold val2
  simp only [w02]
  after_results_simp
  all_goals rfl
theorem val2_main_call0_v9 (V0 : Valuation τ sig (Elt F)) : val2 V0 (no_index (Proc.devRef .tc main_call0_v9)) = res_main_call0_v9 (V0 (Proc.devRef .tc main_arg1)) := by
  unfold val2
  simp only [w02]
  after_results_simp
  all_goals rfl
theorem val2_main_call0_v10 (V0 : Valuation τ sig (Elt F)) : val2 V0 (no_index (Proc.devRef .tc main_call0_v10)) = res_main_call0_v10 (V0 (Proc.devRef .tc main_arg1)) := by
  unfold val2
  simp only [w02]
  after_results_simp
  all_goals rfl

/-- The device's buffer contents after the first 3 windows. -/
def val3 (V0 : Valuation τ sig (Elt F)) : Valuation τ sig (Elt F) := after w03 (val2 V0)
/-- The buffers that window `w03`'s operations write. -/
abbrev w03_W : List (Ref sig .tc) := [main_call0_v11, main_call0_c_0, main_call0_v12, main_call0_v13, main_call0_v14, main_call0_c_1, main_call0_v15, main_call0_v16, main_call0_v17, main_call0_v18]
theorem w03_writes : (w03 : List (HloOp τ sig (Elt F))).Forall fun op => op.writes ⊆ (w03_W.map (Proc.devRef (τ := τ) .tc)).toFinset :=
  ⟨wr (y := main_call0_v11) (by decide), wr (y := main_call0_c_0) (by decide), wr (y := main_call0_v12) (by decide), wr (y := main_call0_v13) (by decide), wr (y := main_call0_v14) (by decide), wr (y := main_call0_c_1) (by decide), wr (y := main_call0_v15) (by decide), wr (y := main_call0_v16) (by decide), wr (y := main_call0_v17) (by decide), wr (y := main_call0_v18) (by decide)⟩
/-- A buffer that window `w03` does not write keeps its contents through it. -/
theorem val3_keep (V0 : Valuation τ sig (Elt F)) (r : Ref sig .tc) (h : r ∉ w03_W) :
    val3 V0 (Proc.devRef .tc r) = val2 V0 (Proc.devRef .tc r) :=
  after_of_writes_sub w03 _ w03_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_call0_v2 (V0 : Valuation τ sig (Elt F)) : val3 V0 (no_index (Proc.devRef .tc main_call0_v2)) = res_main_call0_v2 (V0 (Proc.devRef .tc main_arg1)) :=
  (val3_keep V0 main_call0_v2 (by decide)).trans (val2_main_call0_v2 V0)
theorem val3_main_call0_v3 (V0 : Valuation τ sig (Elt F)) : val3 V0 (no_index (Proc.devRef .tc main_call0_v3)) = res_main_call0_v3 (V0 (Proc.devRef .tc main_arg1)) :=
  (val3_keep V0 main_call0_v3 (by decide)).trans (val2_main_call0_v3 V0)
theorem val3_main_call0_v5 (V0 : Valuation τ sig (Elt F)) : val3 V0 (no_index (Proc.devRef .tc main_call0_v5)) = res_main_call0_v5 (V0 (Proc.devRef .tc main_arg1)) :=
  (val3_keep V0 main_call0_v5 (by decide)).trans (val2_main_call0_v5 V0)
theorem val3_main_call0_v7 (V0 : Valuation τ sig (Elt F)) : val3 V0 (no_index (Proc.devRef .tc main_call0_v7)) = res_main_call0_v7 (V0 (Proc.devRef .tc main_arg1)) :=
  (val3_keep V0 main_call0_v7 (by decide)).trans (val2_main_call0_v7 V0)
theorem val3_main_call0_v17 (V0 : Valuation τ sig (Elt F)) : val3 V0 (no_index (Proc.devRef .tc main_call0_v17)) = res_main_call0_v17 (V0 (Proc.devRef .tc main_arg1)) := by
  unfold val3
  simp only [w03]
  after_results_simp
  simp only [val2_main_call0_v9, val2_main_call0_v8, val2_main_call0_v10] <;> rfl
theorem val3_main_call0_v18 (V0 : Valuation τ sig (Elt F)) : val3 V0 (no_index (Proc.devRef .tc main_call0_v18)) = res_main_call0_v18 (V0 (Proc.devRef .tc main_arg1)) := by
  unfold val3
  simp only [w03]
  after_results_simp
  simp only [val2_main_call0_v9, val2_main_call0_v8, val2_main_call0_v10] <;> rfl

/-- The device's buffer contents after the first 4 windows. -/
def val4 (V0 : Valuation τ sig (Elt F)) : Valuation τ sig (Elt F) := after w04 (val3 V0)
/-- The buffers that window `w04`'s operations write. -/
abbrev w04_W : List (Ref sig .tc) := [main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1]
theorem w04_writes : (w04 : List (HloOp τ sig (Elt F))).Forall fun op => op.writes ⊆ (w04_W.map (Proc.devRef (τ := τ) .tc)).toFinset :=
  ⟨wr (y := main_call0_call0_v0) (by decide), wr (y := main_call0_call0_c) (by decide), wr (y := main_call0_call0_v1) (by decide), wr (y := main_call0_call0_v2) (by decide), wr (y := main_call0_call0_v3) (by decide), wr (y := main_call0_call0_v4) (by decide), wr (y := main_call0_call0_v5) (by decide), wr (y := main_call0_call0_v6) (by decide), wr (y := main_call0_call0_c_0) (by decide), wr (y := main_call0_call0_v7) (by decide), wr (y := main_call0_call0_v8) (by decide), wr (y := main_call0_call0_c_1) (by decide)⟩
/-- A buffer that window `w04` does not write keeps its contents through it. -/
theorem val4_keep (V0 : Valuation τ sig (Elt F)) (r : Ref sig .tc) (h : r ∉ w04_W) :
    val4 V0 (Proc.devRef .tc r) = val3 V0 (Proc.devRef .tc r) :=
  after_of_writes_sub w04 _ w04_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_call0_v2 (V0 : Valuation τ sig (Elt F)) : val4 V0 (no_index (Proc.devRef .tc main_call0_v2)) = res_main_call0_v2 (V0 (Proc.devRef .tc main_arg1)) :=
  (val4_keep V0 main_call0_v2 (by decide)).trans (val3_main_call0_v2 V0)
theorem val4_main_call0_v3 (V0 : Valuation τ sig (Elt F)) : val4 V0 (no_index (Proc.devRef .tc main_call0_v3)) = res_main_call0_v3 (V0 (Proc.devRef .tc main_arg1)) :=
  (val4_keep V0 main_call0_v3 (by decide)).trans (val3_main_call0_v3 V0)
theorem val4_main_call0_v5 (V0 : Valuation τ sig (Elt F)) : val4 V0 (no_index (Proc.devRef .tc main_call0_v5)) = res_main_call0_v5 (V0 (Proc.devRef .tc main_arg1)) :=
  (val4_keep V0 main_call0_v5 (by decide)).trans (val3_main_call0_v5 V0)
theorem val4_main_call0_v7 (V0 : Valuation τ sig (Elt F)) : val4 V0 (no_index (Proc.devRef .tc main_call0_v7)) = res_main_call0_v7 (V0 (Proc.devRef .tc main_arg1)) :=
  (val4_keep V0 main_call0_v7 (by decide)).trans (val3_main_call0_v7 V0)
theorem val4_main_call0_call0_v1 (V0 : Valuation τ sig (Elt F)) : val4 V0 (no_index (Proc.devRef .tc main_call0_call0_v1)) = res_main_call0_call0_v1 (V0 (Proc.devRef .tc main_arg1)) := by
  unfold val4
  simp only [w04]
  after_results_simp
  simp only [val3_main_call0_v7, val3_main_call0_v5] <;> rfl
theorem val4_main_call0_call0_v5 (V0 : Valuation τ sig (Elt F)) : val4 V0 (no_index (Proc.devRef .tc main_call0_call0_v5)) = res_main_call0_call0_v5 (V0 (Proc.devRef .tc main_arg1)) := by
  unfold val4
  simp only [w04]
  after_results_simp
  simp only [val3_main_call0_v7, val3_main_call0_v17] <;> rfl
theorem val4_main_call0_call0_v6 (V0 : Valuation τ sig (Elt F)) : val4 V0 (no_index (Proc.devRef .tc main_call0_call0_v6)) = res_main_call0_call0_v6 (V0 (Proc.devRef .tc main_arg1)) := by
  unfold val4
  simp only [w04]
  after_results_simp
  simp only [val3_main_call0_v7, val3_main_call0_v17, val3_main_call0_v5, val3_main_call0_v18] <;> rfl
theorem val4_main_call0_call0_v8 (V0 : Valuation τ sig (Elt F)) : val4 V0 (no_index (Proc.devRef .tc main_call0_call0_v8)) = res_main_call0_call0_v8 (V0 (Proc.devRef .tc main_arg1)) := by
  unfold val4
  simp only [w04]
  after_results_simp
  simp only [val3_main_call0_v7, val3_main_call0_v17] <;> rfl
theorem val4_main_call0_call0_c_1 (V0 : Valuation τ sig (Elt F)) : val4 V0 (no_index (Proc.devRef .tc main_call0_call0_c_1)) = res_main_call0_call0_c_1 (V0 (Proc.devRef .tc main_arg1)) := by
  unfold val4
  simp only [w04]
  after_results_simp
  all_goals rfl

/-- The device's buffer contents after the first 5 windows. -/
def val5 (V0 : Valuation τ sig (Elt F)) : Valuation τ sig (Elt F) := after w05 (val4 V0)
/-- The buffers that window `w05`'s operations write. -/
abbrev w05_W : List (Ref sig .tc) := [main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18]
theorem w05_writes : (w05 : List (HloOp τ sig (Elt F))).Forall fun op => op.writes ⊆ (w05_W.map (Proc.devRef (τ := τ) .tc)).toFinset :=
  ⟨wr (y := main_call0_call0_v9) (by decide), wr (y := main_call0_call0_v10) (by decide), wr (y := main_call0_call0_v11) (by decide), wr (y := main_call0_call0_v12) (by decide), wr (y := main_call0_call0_v13) (by decide), wr (y := main_call0_call0_c_2) (by decide), wr (y := main_call0_call0_v14) (by decide), wr (y := main_call0_call0_v15) (by decide), wr (y := main_call0_call0_c_3) (by decide), wr (y := main_call0_call0_v16) (by decide), wr (y := main_call0_call0_v17) (by decide), wr (y := main_call0_call0_v18) (by decide)⟩
/-- A buffer that window `w05` does not write keeps its contents through it. -/
theorem val5_keep (V0 : Valuation τ sig (Elt F)) (r : Ref sig .tc) (h : r ∉ w05_W) :
    val5 V0 (Proc.devRef .tc r) = val4 V0 (Proc.devRef .tc r) :=
  after_of_writes_sub w05 _ w05_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_call0_v2 (V0 : Valuation τ sig (Elt F)) : val5 V0 (no_index (Proc.devRef .tc main_call0_v2)) = res_main_call0_v2 (V0 (Proc.devRef .tc main_arg1)) :=
  (val5_keep V0 main_call0_v2 (by decide)).trans (val4_main_call0_v2 V0)
theorem val5_main_call0_v3 (V0 : Valuation τ sig (Elt F)) : val5 V0 (no_index (Proc.devRef .tc main_call0_v3)) = res_main_call0_v3 (V0 (Proc.devRef .tc main_arg1)) :=
  (val5_keep V0 main_call0_v3 (by decide)).trans (val4_main_call0_v3 V0)
theorem val5_main_call0_v5 (V0 : Valuation τ sig (Elt F)) : val5 V0 (no_index (Proc.devRef .tc main_call0_v5)) = res_main_call0_v5 (V0 (Proc.devRef .tc main_arg1)) :=
  (val5_keep V0 main_call0_v5 (by decide)).trans (val4_main_call0_v5 V0)
theorem val5_main_call0_v7 (V0 : Valuation τ sig (Elt F)) : val5 V0 (no_index (Proc.devRef .tc main_call0_v7)) = res_main_call0_v7 (V0 (Proc.devRef .tc main_arg1)) :=
  (val5_keep V0 main_call0_v7 (by decide)).trans (val4_main_call0_v7 V0)
theorem val5_main_call0_call0_v1 (V0 : Valuation τ sig (Elt F)) : val5 V0 (no_index (Proc.devRef .tc main_call0_call0_v1)) = res_main_call0_call0_v1 (V0 (Proc.devRef .tc main_arg1)) :=
  (val5_keep V0 main_call0_call0_v1 (by decide)).trans (val4_main_call0_call0_v1 V0)
theorem val5_main_call0_call0_v13 (V0 : Valuation τ sig (Elt F)) : val5 V0 (no_index (Proc.devRef .tc main_call0_call0_v13)) = res_main_call0_call0_v13 (V0 (Proc.devRef .tc main_arg1)) := by
  unfold val5
  simp only [w05]
  after_results_simp
  simp only [val4_main_call0_call0_c_1, val4_main_call0_call0_v5, val4_main_call0_call0_v8, val4_main_call0_call0_v6] <;> rfl
theorem val5_main_call0_call0_v18 (V0 : Valuation τ sig (Elt F)) : val5 V0 (no_index (Proc.devRef .tc main_call0_call0_v18)) = res_main_call0_call0_v18 (V0 (Proc.devRef .tc main_arg1)) := by
  unfold val5
  simp only [w05]
  after_results_simp
  simp only [val4_main_call0_call0_c_1, val4_main_call0_call0_v5, val4_main_call0_call0_v8, val4_main_call0_call0_v6] <;> rfl

/-- The device's buffer contents after the first 6 windows. -/
def val6 (V0 : Valuation τ sig (Elt F)) : Valuation τ sig (Elt F) := after w06 (val5 V0)
/-- The buffers that window `w06`'s operations write. -/
abbrev w06_W : List (Ref sig .tc) := [main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6]
theorem w06_writes : (w06 : List (HloOp τ sig (Elt F))).Forall fun op => op.writes ⊆ (w06_W.map (Proc.devRef (τ := τ) .tc)).toFinset :=
  ⟨wr (y := main_call0_call0_v19) (by decide), wr (y := main_call0_call0_v20) (by decide), wr (y := main_call0_call0_c_4) (by decide), wr (y := main_call0_call0_v21) (by decide), wr (y := main_call0_call0_v22) (by decide), wr (y := main_call0_call0_c_5) (by decide), wr (y := main_call0_call0_v23) (by decide), wr (y := main_call0_call0_v24) (by decide), wr (y := main_call0_call0_v25) (by decide), wr (y := main_call0_call0_v26) (by decide), wr (y := main_call0_call0_v27) (by decide), wr (y := main_call0_call0_c_6) (by decide)⟩
/-- A buffer that window `w06` does not write keeps its contents through it. -/
theorem val6_keep (V0 : Valuation τ sig (Elt F)) (r : Ref sig .tc) (h : r ∉ w06_W) :
    val6 V0 (Proc.devRef .tc r) = val5 V0 (Proc.devRef .tc r) :=
  after_of_writes_sub w06 _ w06_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_arg1 (V0 : Valuation τ sig (Elt F)) : val6 V0 (no_index (Proc.devRef .tc main_arg1)) = (V0 (Proc.devRef .tc main_arg1)) :=
  (val6_keep V0 main_arg1 (by decide)).trans (val5_main_arg1 V0)
theorem val6_main_call0_v2 (V0 : Valuation τ sig (Elt F)) : val6 V0 (no_index (Proc.devRef .tc main_call0_v2)) = res_main_call0_v2 (V0 (Proc.devRef .tc main_arg1)) :=
  (val6_keep V0 main_call0_v2 (by decide)).trans (val5_main_call0_v2 V0)
theorem val6_main_call0_v3 (V0 : Valuation τ sig (Elt F)) : val6 V0 (no_index (Proc.devRef .tc main_call0_v3)) = res_main_call0_v3 (V0 (Proc.devRef .tc main_arg1)) :=
  (val6_keep V0 main_call0_v3 (by decide)).trans (val5_main_call0_v3 V0)
theorem val6_main_call0_v5 (V0 : Valuation τ sig (Elt F)) : val6 V0 (no_index (Proc.devRef .tc main_call0_v5)) = res_main_call0_v5 (V0 (Proc.devRef .tc main_arg1)) :=
  (val6_keep V0 main_call0_v5 (by decide)).trans (val5_main_call0_v5 V0)
theorem val6_main_call0_v7 (V0 : Valuation τ sig (Elt F)) : val6 V0 (no_index (Proc.devRef .tc main_call0_v7)) = res_main_call0_v7 (V0 (Proc.devRef .tc main_arg1)) :=
  (val6_keep V0 main_call0_v7 (by decide)).trans (val5_main_call0_v7 V0)
theorem val6_main_call0_call0_v1 (V0 : Valuation τ sig (Elt F)) : val6 V0 (no_index (Proc.devRef .tc main_call0_call0_v1)) = res_main_call0_call0_v1 (V0 (Proc.devRef .tc main_arg1)) :=
  (val6_keep V0 main_call0_call0_v1 (by decide)).trans (val5_main_call0_call0_v1 V0)
theorem val6_main_call0_call0_v26 (V0 : Valuation τ sig (Elt F)) : val6 V0 (no_index (Proc.devRef .tc main_call0_call0_v26)) = res_main_call0_call0_v26 (V0 (Proc.devRef .tc main_arg1)) := by
  unfold val6
  simp only [w06]
  after_results_simp
  simp only [val5_main_call0_call0_v18, val5_main_call0_call0_v13] <;> rfl
theorem val6_main_call0_call0_v27 (V0 : Valuation τ sig (Elt F)) : val6 V0 (no_index (Proc.devRef .tc main_call0_call0_v27)) = res_main_call0_call0_v27 (V0 (Proc.devRef .tc main_arg1)) := by
  unfold val6
  simp only [w06]
  after_results_simp
  simp only [val5_main_call0_call0_v18, val5_main_call0_call0_v13] <;> rfl
theorem val6_main_call0_call0_c_6 (V0 : Valuation τ sig (Elt F)) : val6 V0 (no_index (Proc.devRef .tc main_call0_call0_c_6)) = res_main_call0_call0_c_6 (V0 (Proc.devRef .tc main_arg1)) := by
  unfold val6
  simp only [w06]
  after_results_simp
  all_goals rfl

/-- The device's buffer contents after the first 7 windows. -/
def val7 (V0 : Valuation τ sig (Elt F)) : Valuation τ sig (Elt F) := after w07 (val6 V0)
/-- The buffers that window `w07`'s operations write. -/
abbrev w07_W : List (Ref sig .tc) := [main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8]
theorem w07_writes : (w07 : List (HloOp τ sig (Elt F))).Forall fun op => op.writes ⊆ (w07_W.map (Proc.devRef (τ := τ) .tc)).toFinset :=
  ⟨wr (y := main_call0_call0_v28) (by decide), wr (y := main_call0_call0_v29) (by decide), wr (y := main_call0_call0_c_7) (by decide), wr (y := main_call0_call0_v30) (by decide), wr (y := main_call0_call0_v31) (by decide), wr (y := main_call0_call0_v32) (by decide), wr (y := main_call0_call0_v33) (by decide), wr (y := main_call0_call0_v34) (by decide), wr (y := main_call0_call0_v35) (by decide), wr (y := main_call0_call0_v36) (by decide), wr (y := main_call0_call0_v37) (by decide), wr (y := main_call0_call0_c_8) (by decide)⟩
/-- A buffer that window `w07` does not write keeps its contents through it. -/
theorem val7_keep (V0 : Valuation τ sig (Elt F)) (r : Ref sig .tc) (h : r ∉ w07_W) :
    val7 V0 (Proc.devRef .tc r) = val6 V0 (Proc.devRef .tc r) :=
  after_of_writes_sub w07 _ w07_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_arg1 (V0 : Valuation τ sig (Elt F)) : val7 V0 (no_index (Proc.devRef .tc main_arg1)) = (V0 (Proc.devRef .tc main_arg1)) :=
  (val7_keep V0 main_arg1 (by decide)).trans (val6_main_arg1 V0)
theorem val7_main_call0_v2 (V0 : Valuation τ sig (Elt F)) : val7 V0 (no_index (Proc.devRef .tc main_call0_v2)) = res_main_call0_v2 (V0 (Proc.devRef .tc main_arg1)) :=
  (val7_keep V0 main_call0_v2 (by decide)).trans (val6_main_call0_v2 V0)
theorem val7_main_call0_v3 (V0 : Valuation τ sig (Elt F)) : val7 V0 (no_index (Proc.devRef .tc main_call0_v3)) = res_main_call0_v3 (V0 (Proc.devRef .tc main_arg1)) :=
  (val7_keep V0 main_call0_v3 (by decide)).trans (val6_main_call0_v3 V0)
theorem val7_main_call0_v5 (V0 : Valuation τ sig (Elt F)) : val7 V0 (no_index (Proc.devRef .tc main_call0_v5)) = res_main_call0_v5 (V0 (Proc.devRef .tc main_arg1)) :=
  (val7_keep V0 main_call0_v5 (by decide)).trans (val6_main_call0_v5 V0)
theorem val7_main_call0_v7 (V0 : Valuation τ sig (Elt F)) : val7 V0 (no_index (Proc.devRef .tc main_call0_v7)) = res_main_call0_v7 (V0 (Proc.devRef .tc main_arg1)) :=
  (val7_keep V0 main_call0_v7 (by decide)).trans (val6_main_call0_v7 V0)
theorem val7_main_call0_call0_v1 (V0 : Valuation τ sig (Elt F)) : val7 V0 (no_index (Proc.devRef .tc main_call0_call0_v1)) = res_main_call0_call0_v1 (V0 (Proc.devRef .tc main_arg1)) :=
  (val7_keep V0 main_call0_call0_v1 (by decide)).trans (val6_main_call0_call0_v1 V0)
theorem val7_main_call0_call0_v35 (V0 : Valuation τ sig (Elt F)) : val7 V0 (no_index (Proc.devRef .tc main_call0_call0_v35)) = res_main_call0_call0_v35 (V0 (Proc.devRef .tc main_arg1)) := by
  unfold val7
  simp only [w07]
  after_results_simp
  simp only [val6_main_call0_v7, val6_main_call0_call0_v27] <;> rfl
theorem val7_main_call0_call0_v37 (V0 : Valuation τ sig (Elt F)) : val7 V0 (no_index (Proc.devRef .tc main_call0_call0_v37)) = res_main_call0_call0_v37 (V0 (Proc.devRef .tc main_arg1)) := by
  unfold val7
  simp only [w07]
  after_results_simp
  simp only [val6_main_call0_call0_v1, val6_main_call0_call0_v26, val6_main_call0_call0_c_6, val6_main_call0_call0_v27] <;> rfl
theorem val7_main_call0_call0_c_8 (V0 : Valuation τ sig (Elt F)) : val7 V0 (no_index (Proc.devRef .tc main_call0_call0_c_8)) = res_main_call0_call0_c_8 (V0 (Proc.devRef .tc main_arg1)) := by
  unfold val7
  simp only [w07]
  after_results_simp
  all_goals rfl

/-- The device's buffer contents after the first 8 windows. -/
def val8 (V0 : Valuation τ sig (Elt F)) : Valuation τ sig (Elt F) := after w08 (val7 V0)
/-- The buffers that window `w08`'s operations write. -/
abbrev w08_W : List (Ref sig .tc) := [main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47]
theorem w08_writes : (w08 : List (HloOp τ sig (Elt F))).Forall fun op => op.writes ⊆ (w08_W.map (Proc.devRef (τ := τ) .tc)).toFinset :=
  ⟨wr (y := main_call0_call0_v38) (by decide), wr (y := main_call0_call0_v39) (by decide), wr (y := main_call0_call0_v40) (by decide), wr (y := main_call0_call0_c_9) (by decide), wr (y := main_call0_call0_v41) (by decide), wr (y := main_call0_call0_v42) (by decide), wr (y := main_call0_call0_c_10) (by decide), wr (y := main_call0_call0_v43) (by decide), wr (y := main_call0_call0_v44) (by decide), wr (y := main_call0_call0_v45) (by decide), wr (y := main_call0_call0_v46) (by decide), wr (y := main_call0_call0_v47) (by decide)⟩
/-- A buffer that window `w08` does not write keeps its contents through it. -/
theorem val8_keep (V0 : Valuation τ sig (Elt F)) (r : Ref sig .tc) (h : r ∉ w08_W) :
    val8 V0 (Proc.devRef .tc r) = val7 V0 (Proc.devRef .tc r) :=
  after_of_writes_sub w08 _ w08_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_arg1 (V0 : Valuation τ sig (Elt F)) : val8 V0 (no_index (Proc.devRef .tc main_arg1)) = (V0 (Proc.devRef .tc main_arg1)) :=
  (val8_keep V0 main_arg1 (by decide)).trans (val7_main_arg1 V0)
theorem val8_main_call0_v2 (V0 : Valuation τ sig (Elt F)) : val8 V0 (no_index (Proc.devRef .tc main_call0_v2)) = res_main_call0_v2 (V0 (Proc.devRef .tc main_arg1)) :=
  (val8_keep V0 main_call0_v2 (by decide)).trans (val7_main_call0_v2 V0)
theorem val8_main_call0_v3 (V0 : Valuation τ sig (Elt F)) : val8 V0 (no_index (Proc.devRef .tc main_call0_v3)) = res_main_call0_v3 (V0 (Proc.devRef .tc main_arg1)) :=
  (val8_keep V0 main_call0_v3 (by decide)).trans (val7_main_call0_v3 V0)
theorem val8_main_call0_v5 (V0 : Valuation τ sig (Elt F)) : val8 V0 (no_index (Proc.devRef .tc main_call0_v5)) = res_main_call0_v5 (V0 (Proc.devRef .tc main_arg1)) :=
  (val8_keep V0 main_call0_v5 (by decide)).trans (val7_main_call0_v5 V0)
theorem val8_main_call0_v7 (V0 : Valuation τ sig (Elt F)) : val8 V0 (no_index (Proc.devRef .tc main_call0_v7)) = res_main_call0_v7 (V0 (Proc.devRef .tc main_arg1)) :=
  (val8_keep V0 main_call0_v7 (by decide)).trans (val7_main_call0_v7 V0)
theorem val8_main_call0_call0_v1 (V0 : Valuation τ sig (Elt F)) : val8 V0 (no_index (Proc.devRef .tc main_call0_call0_v1)) = res_main_call0_call0_v1 (V0 (Proc.devRef .tc main_arg1)) :=
  (val8_keep V0 main_call0_call0_v1 (by decide)).trans (val7_main_call0_call0_v1 V0)
theorem val8_main_call0_call0_v46 (V0 : Valuation τ sig (Elt F)) : val8 V0 (no_index (Proc.devRef .tc main_call0_call0_v46)) = res_main_call0_call0_v46 (V0 (Proc.devRef .tc main_arg1)) := by
  unfold val8
  simp only [w08]
  after_results_simp
  simp only [val7_main_call0_call0_c_8, val7_main_call0_call0_v37, val7_main_call0_call0_v35] <;> rfl
theorem val8_main_call0_call0_v47 (V0 : Valuation τ sig (Elt F)) : val8 V0 (no_index (Proc.devRef .tc main_call0_call0_v47)) = res_main_call0_call0_v47 (V0 (Proc.devRef .tc main_arg1)) := by
  unfold val8
  simp only [w08]
  after_results_simp
  simp only [val7_main_call0_call0_c_8, val7_main_call0_call0_v37, val7_main_call0_call0_v35] <;> rfl

/-- The device's buffer contents after the first 9 windows. -/
def val9 (V0 : Valuation τ sig (Elt F)) : Valuation τ sig (Elt F) := after w09 (val8 V0)
/-- The buffers that window `w09`'s operations write. -/
abbrev w09_W : List (Ref sig .tc) := [main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56]
theorem w09_writes : (w09 : List (HloOp τ sig (Elt F))).Forall fun op => op.writes ⊆ (w09_W.map (Proc.devRef (τ := τ) .tc)).toFinset :=
  ⟨wr (y := main_call0_call0_c_11) (by decide), wr (y := main_call0_call0_v48) (by decide), wr (y := main_call0_call0_v49) (by decide), wr (y := main_call0_call0_c_12) (by decide), wr (y := main_call0_call0_v50) (by decide), wr (y := main_call0_call0_v51) (by decide), wr (y := main_call0_call0_v52) (by decide), wr (y := main_call0_call0_v53) (by decide), wr (y := main_call0_call0_v54) (by decide), wr (y := main_call0_call0_c_13) (by decide), wr (y := main_call0_call0_v55) (by decide), wr (y := main_call0_call0_v56) (by decide)⟩
/-- A buffer that window `w09` does not write keeps its contents through it. -/
theorem val9_keep (V0 : Valuation τ sig (Elt F)) (r : Ref sig .tc) (h : r ∉ w09_W) :
    val9 V0 (Proc.devRef .tc r) = val8 V0 (Proc.devRef .tc r) :=
  after_of_writes_sub w09 _ w09_writes h
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_arg1 (V0 : Valuation τ sig (Elt F)) : val9 V0 (no_index (Proc.devRef .tc main_arg1)) = (V0 (Proc.devRef .tc main_arg1)) :=
  (val9_keep V0 main_arg1 (by decide)).trans (val8_main_arg1 V0)
theorem val9_main_call0_v2 (V0 : Valuation τ sig (Elt F)) : val9 V0 (no_index (Proc.devRef .tc main_call0_v2)) = res_main_call0_v2 (V0 (Proc.devRef .tc main_arg1)) :=
  (val9_keep V0 main_call0_v2 (by decide)).trans (val8_main_call0_v2 V0)
theorem val9_main_call0_v3 (V0 : Valuation τ sig (Elt F)) : val9 V0 (no_index (Proc.devRef .tc main_call0_v3)) = res_main_call0_v3 (V0 (Proc.devRef .tc main_arg1)) :=
  (val9_keep V0 main_call0_v3 (by decide)).trans (val8_main_call0_v3 V0)
theorem val9_main_call0_v5 (V0 : Valuation τ sig (Elt F)) : val9 V0 (no_index (Proc.devRef .tc main_call0_v5)) = res_main_call0_v5 (V0 (Proc.devRef .tc main_arg1)) :=
  (val9_keep V0 main_call0_v5 (by decide)).trans (val8_main_call0_v5 V0)
theorem val9_main_call0_v7 (V0 : Valuation τ sig (Elt F)) : val9 V0 (no_index (Proc.devRef .tc main_call0_v7)) = res_main_call0_v7 (V0 (Proc.devRef .tc main_arg1)) :=
  (val9_keep V0 main_call0_v7 (by decide)).trans (val8_main_call0_v7 V0)
theorem val9_main_call0_call0_v1 (V0 : Valuation τ sig (Elt F)) : val9 V0 (no_index (Proc.devRef .tc main_call0_call0_v1)) = res_main_call0_call0_v1 (V0 (Proc.devRef .tc main_arg1)) :=
  (val9_keep V0 main_call0_call0_v1 (by decide)).trans (val8_main_call0_call0_v1 V0)
theorem val9_main_call0_call0_v53 (V0 : Valuation τ sig (Elt F)) : val9 V0 (no_index (Proc.devRef .tc main_call0_call0_v53)) = res_main_call0_call0_v53 (V0 (Proc.devRef .tc main_arg1)) := by
  unfold val9
  simp only [w09]
  after_results_simp
  simp only [val8_main_call0_call0_v46, val8_main_call0_call0_v47] <;> rfl
theorem val9_main_call0_call0_v54 (V0 : Valuation τ sig (Elt F)) : val9 V0 (no_index (Proc.devRef .tc main_call0_call0_v54)) = res_main_call0_call0_v54 (V0 (Proc.devRef .tc main_arg1)) := by
  unfold val9
  simp only [w09]
  after_results_simp
  simp only [val8_main_call0_call0_v46, val8_main_call0_call0_v47] <;> rfl
theorem val9_main_call0_call0_v56 (V0 : Valuation τ sig (Elt F)) : val9 V0 (no_index (Proc.devRef .tc main_call0_call0_v56)) = res_main_call0_call0_v56 (V0 (Proc.devRef .tc main_arg1)) := by
  unfold val9
  simp only [w09]
  after_results_simp
  simp only [val8_main_call0_call0_v46, val8_main_call0_call0_v47] <;> rfl

/-- The device's buffer contents after the first 10 windows. -/
def val10 (V0 : Valuation τ sig (Elt F)) : Valuation τ sig (Elt F) := after w10 (val9 V0)
/-- The buffers that window `w10`'s operations write. -/
abbrev w10_W : List (Ref sig .tc) := [main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65]
theorem w10_writes : (w10 : List (HloOp τ sig (Elt F))).Forall fun op => op.writes ⊆ (w10_W.map (Proc.devRef (τ := τ) .tc)).toFinset :=
  ⟨wr (y := main_call0_call0_c_14) (by decide), wr (y := main_call0_call0_v57) (by decide), wr (y := main_call0_call0_v58) (by decide), wr (y := main_call0_call0_v59) (by decide), wr (y := main_call0_call0_v60) (by decide), wr (y := main_call0_call0_v61) (by decide), wr (y := main_call0_call0_c_15) (by decide), wr (y := main_call0_call0_v62) (by decide), wr (y := main_call0_call0_v63) (by decide), wr (y := main_call0_call0_c_16) (by decide), wr (y := main_call0_call0_v64) (by decide), wr (y := main_call0_call0_v65) (by decide)⟩
/-- A buffer that window `w10` does not write keeps its contents through it. -/
theorem val10_keep (V0 : Valuation τ sig (Elt F)) (r : Ref sig .tc) (h : r ∉ w10_W) :
    val10 V0 (Proc.devRef .tc r) = val9 V0 (Proc.devRef .tc r) :=
  after_of_writes_sub w10 _ w10_writes h
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
theorem val10_main_arg1 (V0 : Valuation τ sig (Elt F)) : val10 V0 (no_index (Proc.devRef .tc main_arg1)) = (V0 (Proc.devRef .tc main_arg1)) :=
  (val10_keep V0 main_arg1 (by decide)).trans (val9_main_arg1 V0)
theorem val10_main_call0_v2 (V0 : Valuation τ sig (Elt F)) : val10 V0 (no_index (Proc.devRef .tc main_call0_v2)) = res_main_call0_v2 (V0 (Proc.devRef .tc main_arg1)) :=
  (val10_keep V0 main_call0_v2 (by decide)).trans (val9_main_call0_v2 V0)
theorem val10_main_call0_v3 (V0 : Valuation τ sig (Elt F)) : val10 V0 (no_index (Proc.devRef .tc main_call0_v3)) = res_main_call0_v3 (V0 (Proc.devRef .tc main_arg1)) :=
  (val10_keep V0 main_call0_v3 (by decide)).trans (val9_main_call0_v3 V0)
theorem val10_main_call0_v5 (V0 : Valuation τ sig (Elt F)) : val10 V0 (no_index (Proc.devRef .tc main_call0_v5)) = res_main_call0_v5 (V0 (Proc.devRef .tc main_arg1)) :=
  (val10_keep V0 main_call0_v5 (by decide)).trans (val9_main_call0_v5 V0)
theorem val10_main_call0_v7 (V0 : Valuation τ sig (Elt F)) : val10 V0 (no_index (Proc.devRef .tc main_call0_v7)) = res_main_call0_v7 (V0 (Proc.devRef .tc main_arg1)) :=
  (val10_keep V0 main_call0_v7 (by decide)).trans (val9_main_call0_v7 V0)
theorem val10_main_call0_call0_v1 (V0 : Valuation τ sig (Elt F)) : val10 V0 (no_index (Proc.devRef .tc main_call0_call0_v1)) = res_main_call0_call0_v1 (V0 (Proc.devRef .tc main_arg1)) :=
  (val10_keep V0 main_call0_call0_v1 (by decide)).trans (val9_main_call0_call0_v1 V0)
theorem val10_main_call0_call0_v61 (V0 : Valuation τ sig (Elt F)) : val10 V0 (no_index (Proc.devRef .tc main_call0_call0_v61)) = res_main_call0_call0_v61 (V0 (Proc.devRef .tc main_arg1)) := by
  unfold val10
  simp only [w10]
  after_results_simp
  simp only [val9_main_call0_call0_v53, val9_main_call0_call0_v56, val9_main_call0_call0_v54] <;> rfl
theorem val10_main_call0_call0_v63 (V0 : Valuation τ sig (Elt F)) : val10 V0 (no_index (Proc.devRef .tc main_call0_call0_v63)) = res_main_call0_call0_v63 (V0 (Proc.devRef .tc main_arg1)) := by
  unfold val10
  simp only [w10]
  after_results_simp
  simp only [val9_main_call0_call0_v53, val9_main_call0_call0_v56, val9_main_call0_call0_v54] <;> rfl
theorem val10_main_call0_call0_v65 (V0 : Valuation τ sig (Elt F)) : val10 V0 (no_index (Proc.devRef .tc main_call0_call0_v65)) = res_main_call0_call0_v65 (V0 (Proc.devRef .tc main_arg1)) := by
  unfold val10
  simp only [w10]
  after_results_simp
  simp only [val9_main_call0_call0_v53, val9_main_call0_call0_v56, val9_main_call0_call0_v54] <;> rfl

/-- The device's buffer contents after the first 11 windows. -/
def val11 (V0 : Valuation τ sig (Elt F)) : Valuation τ sig (Elt F) := after w11 (val10 V0)
/-- The buffers that window `w11`'s operations write. -/
abbrev w11_W : List (Ref sig .tc) := [main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75]
theorem w11_writes : (w11 : List (HloOp τ sig (Elt F))).Forall fun op => op.writes ⊆ (w11_W.map (Proc.devRef (τ := τ) .tc)).toFinset :=
  ⟨wr (y := main_call0_call0_v66) (by decide), wr (y := main_call0_call0_v67) (by decide), wr (y := main_call0_call0_v68) (by decide), wr (y := main_call0_call0_v69) (by decide), wr (y := main_call0_call0_v70) (by decide), wr (y := main_call0_call0_v71) (by decide), wr (y := main_call0_call0_c_17) (by decide), wr (y := main_call0_call0_v72) (by decide), wr (y := main_call0_call0_v73) (by decide), wr (y := main_call0_call0_v74) (by decide), wr (y := main_call0_call0_c_18) (by decide), wr (y := main_call0_call0_v75) (by decide)⟩
/-- A buffer that window `w11` does not write keeps its contents through it. -/
theorem val11_keep (V0 : Valuation τ sig (Elt F)) (r : Ref sig .tc) (h : r ∉ w11_W) :
    val11 V0 (Proc.devRef .tc r) = val10 V0 (Proc.devRef .tc r) :=
  after_of_writes_sub w11 _ w11_writes h
theorem val11_main_arg0 (V0 : Valuation τ sig (Elt F)) : val11 V0 (no_index (Proc.devRef .tc main_arg0)) = (V0 (Proc.devRef .tc main_arg0)) :=
  (val11_keep V0 main_arg0 (by decide)).trans (val10_main_arg0 V0)
theorem val11_main_arg1 (V0 : Valuation τ sig (Elt F)) : val11 V0 (no_index (Proc.devRef .tc main_arg1)) = (V0 (Proc.devRef .tc main_arg1)) :=
  (val11_keep V0 main_arg1 (by decide)).trans (val10_main_arg1 V0)
theorem val11_main_call0_v2 (V0 : Valuation τ sig (Elt F)) : val11 V0 (no_index (Proc.devRef .tc main_call0_v2)) = res_main_call0_v2 (V0 (Proc.devRef .tc main_arg1)) :=
  (val11_keep V0 main_call0_v2 (by decide)).trans (val10_main_call0_v2 V0)
theorem val11_main_call0_v3 (V0 : Valuation τ sig (Elt F)) : val11 V0 (no_index (Proc.devRef .tc main_call0_v3)) = res_main_call0_v3 (V0 (Proc.devRef .tc main_arg1)) :=
  (val11_keep V0 main_call0_v3 (by decide)).trans (val10_main_call0_v3 V0)
theorem val11_main_call0_v5 (V0 : Valuation τ sig (Elt F)) : val11 V0 (no_index (Proc.devRef .tc main_call0_v5)) = res_main_call0_v5 (V0 (Proc.devRef .tc main_arg1)) :=
  (val11_keep V0 main_call0_v5 (by decide)).trans (val10_main_call0_v5 V0)
theorem val11_main_call0_v7 (V0 : Valuation τ sig (Elt F)) : val11 V0 (no_index (Proc.devRef .tc main_call0_v7)) = res_main_call0_v7 (V0 (Proc.devRef .tc main_arg1)) :=
  (val11_keep V0 main_call0_v7 (by decide)).trans (val10_main_call0_v7 V0)
theorem val11_main_call0_call0_v1 (V0 : Valuation τ sig (Elt F)) : val11 V0 (no_index (Proc.devRef .tc main_call0_call0_v1)) = res_main_call0_call0_v1 (V0 (Proc.devRef .tc main_arg1)) :=
  (val11_keep V0 main_call0_call0_v1 (by decide)).trans (val10_main_call0_call0_v1 V0)
theorem val11_main_call0_call0_v73 (V0 : Valuation τ sig (Elt F)) : val11 V0 (no_index (Proc.devRef .tc main_call0_call0_v73)) = res_main_call0_call0_v73 (V0 (Proc.devRef .tc main_arg1)) := by
  unfold val11
  simp only [w11]
  after_results_simp
  simp only [val10_main_call0_v5, val10_main_call0_call0_v65, val10_main_call0_call0_v63, val10_main_call0_call0_v61] <;> rfl
theorem val11_main_call0_call0_v74 (V0 : Valuation τ sig (Elt F)) : val11 V0 (no_index (Proc.devRef .tc main_call0_call0_v74)) = res_main_call0_call0_v74 (V0 (Proc.devRef .tc main_arg1)) := by
  unfold val11
  simp only [w11]
  after_results_simp
  simp only [val10_main_call0_v5, val10_main_call0_call0_v65, val10_main_call0_call0_v63, val10_main_call0_call0_v61, val10_main_call0_call0_v1] <;> rfl
theorem val11_main_call0_call0_v75 (V0 : Valuation τ sig (Elt F)) : val11 V0 (no_index (Proc.devRef .tc main_call0_call0_v75)) = res_main_call0_call0_v75 (V0 (Proc.devRef .tc main_arg1)) := by
  unfold val11
  simp only [w11]
  after_results_simp
  all_goals rfl

/-- The device's buffer contents after the first 12 windows. -/
def val12 (V0 : Valuation τ sig (Elt F)) : Valuation τ sig (Elt F) := after w12 (val11 V0)
/-- The buffers that window `w12`'s operations write. -/
abbrev w12_W : List (Ref sig .tc) := [main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84]
theorem w12_writes : (w12 : List (HloOp τ sig (Elt F))).Forall fun op => op.writes ⊆ (w12_W.map (Proc.devRef (τ := τ) .tc)).toFinset :=
  ⟨wr (y := main_call0_call0_v76) (by decide), wr (y := main_call0_call0_c_19) (by decide), wr (y := main_call0_call0_v77) (by decide), wr (y := main_call0_call0_v78) (by decide), wr (y := main_call0_call0_v79) (by decide), wr (y := main_call0_call0_v80) (by decide), wr (y := main_call0_call0_v81) (by decide), wr (y := main_call0_call0_c_20) (by decide), wr (y := main_call0_call0_v82) (by decide), wr (y := main_call0_call0_v83) (by decide), wr (y := main_call0_call0_c_21) (by decide), wr (y := main_call0_call0_v84) (by decide)⟩
/-- A buffer that window `w12` does not write keeps its contents through it. -/
theorem val12_keep (V0 : Valuation τ sig (Elt F)) (r : Ref sig .tc) (h : r ∉ w12_W) :
    val12 V0 (Proc.devRef .tc r) = val11 V0 (Proc.devRef .tc r) :=
  after_of_writes_sub w12 _ w12_writes h
theorem val12_main_arg0 (V0 : Valuation τ sig (Elt F)) : val12 V0 (no_index (Proc.devRef .tc main_arg0)) = (V0 (Proc.devRef .tc main_arg0)) :=
  (val12_keep V0 main_arg0 (by decide)).trans (val11_main_arg0 V0)
theorem val12_main_arg1 (V0 : Valuation τ sig (Elt F)) : val12 V0 (no_index (Proc.devRef .tc main_arg1)) = (V0 (Proc.devRef .tc main_arg1)) :=
  (val12_keep V0 main_arg1 (by decide)).trans (val11_main_arg1 V0)
theorem val12_main_call0_v2 (V0 : Valuation τ sig (Elt F)) : val12 V0 (no_index (Proc.devRef .tc main_call0_v2)) = res_main_call0_v2 (V0 (Proc.devRef .tc main_arg1)) :=
  (val12_keep V0 main_call0_v2 (by decide)).trans (val11_main_call0_v2 V0)
theorem val12_main_call0_v3 (V0 : Valuation τ sig (Elt F)) : val12 V0 (no_index (Proc.devRef .tc main_call0_v3)) = res_main_call0_v3 (V0 (Proc.devRef .tc main_arg1)) :=
  (val12_keep V0 main_call0_v3 (by decide)).trans (val11_main_call0_v3 V0)
theorem val12_main_call0_v5 (V0 : Valuation τ sig (Elt F)) : val12 V0 (no_index (Proc.devRef .tc main_call0_v5)) = res_main_call0_v5 (V0 (Proc.devRef .tc main_arg1)) :=
  (val12_keep V0 main_call0_v5 (by decide)).trans (val11_main_call0_v5 V0)
theorem val12_main_call0_v7 (V0 : Valuation τ sig (Elt F)) : val12 V0 (no_index (Proc.devRef .tc main_call0_v7)) = res_main_call0_v7 (V0 (Proc.devRef .tc main_arg1)) :=
  (val12_keep V0 main_call0_v7 (by decide)).trans (val11_main_call0_v7 V0)
theorem val12_main_call0_call0_v1 (V0 : Valuation τ sig (Elt F)) : val12 V0 (no_index (Proc.devRef .tc main_call0_call0_v1)) = res_main_call0_call0_v1 (V0 (Proc.devRef .tc main_arg1)) :=
  (val12_keep V0 main_call0_call0_v1 (by decide)).trans (val11_main_call0_call0_v1 V0)
theorem val12_main_call0_call0_v80 (V0 : Valuation τ sig (Elt F)) : val12 V0 (no_index (Proc.devRef .tc main_call0_call0_v80)) = res_main_call0_call0_v80 (V0 (Proc.devRef .tc main_arg1)) := by
  unfold val12
  simp only [w12]
  after_results_simp
  simp only [val11_main_call0_call0_v73, val11_main_call0_call0_v75, val11_main_call0_call0_v74] <;> rfl
theorem val12_main_call0_call0_v81 (V0 : Valuation τ sig (Elt F)) : val12 V0 (no_index (Proc.devRef .tc main_call0_call0_v81)) = res_main_call0_call0_v81 (V0 (Proc.devRef .tc main_arg1)) := by
  unfold val12
  simp only [w12]
  after_results_simp
  simp only [val11_main_call0_call0_v73, val11_main_call0_call0_v75, val11_main_call0_call0_v74] <;> rfl
theorem val12_main_call0_call0_v83 (V0 : Valuation τ sig (Elt F)) : val12 V0 (no_index (Proc.devRef .tc main_call0_call0_v83)) = res_main_call0_call0_v83 (V0 (Proc.devRef .tc main_arg1)) := by
  unfold val12
  simp only [w12]
  after_results_simp
  simp only [val11_main_call0_call0_v73, val11_main_call0_call0_v75, val11_main_call0_call0_v74] <;> rfl
theorem val12_main_call0_call0_v84 (V0 : Valuation τ sig (Elt F)) : val12 V0 (no_index (Proc.devRef .tc main_call0_call0_v84)) = res_main_call0_call0_v84 (V0 (Proc.devRef .tc main_arg1)) := by
  unfold val12
  simp only [w12]
  after_results_simp
  all_goals rfl

/-- The device's buffer contents after the first 13 windows. -/
def val13 (V0 : Valuation τ sig (Elt F)) : Valuation τ sig (Elt F) := after w13 (val12 V0)
/-- The buffers that window `w13`'s operations write. -/
abbrev w13_W : List (Ref sig .tc) := [main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94]
theorem w13_writes : (w13 : List (HloOp τ sig (Elt F))).Forall fun op => op.writes ⊆ (w13_W.map (Proc.devRef (τ := τ) .tc)).toFinset :=
  ⟨wr (y := main_call0_call0_v85) (by decide), wr (y := main_call0_call0_v86) (by decide), wr (y := main_call0_call0_v87) (by decide), wr (y := main_call0_call0_v88) (by decide), wr (y := main_call0_call0_c_22) (by decide), wr (y := main_call0_call0_v89) (by decide), wr (y := main_call0_call0_v90) (by decide), wr (y := main_call0_call0_c_23) (by decide), wr (y := main_call0_call0_v91) (by decide), wr (y := main_call0_call0_v92) (by decide), wr (y := main_call0_call0_v93) (by decide), wr (y := main_call0_call0_v94) (by decide)⟩
/-- A buffer that window `w13` does not write keeps its contents through it. -/
theorem val13_keep (V0 : Valuation τ sig (Elt F)) (r : Ref sig .tc) (h : r ∉ w13_W) :
    val13 V0 (Proc.devRef .tc r) = val12 V0 (Proc.devRef .tc r) :=
  after_of_writes_sub w13 _ w13_writes h
theorem val13_main_arg0 (V0 : Valuation τ sig (Elt F)) : val13 V0 (no_index (Proc.devRef .tc main_arg0)) = (V0 (Proc.devRef .tc main_arg0)) :=
  (val13_keep V0 main_arg0 (by decide)).trans (val12_main_arg0 V0)
theorem val13_main_arg1 (V0 : Valuation τ sig (Elt F)) : val13 V0 (no_index (Proc.devRef .tc main_arg1)) = (V0 (Proc.devRef .tc main_arg1)) :=
  (val13_keep V0 main_arg1 (by decide)).trans (val12_main_arg1 V0)
theorem val13_main_call0_v2 (V0 : Valuation τ sig (Elt F)) : val13 V0 (no_index (Proc.devRef .tc main_call0_v2)) = res_main_call0_v2 (V0 (Proc.devRef .tc main_arg1)) :=
  (val13_keep V0 main_call0_v2 (by decide)).trans (val12_main_call0_v2 V0)
theorem val13_main_call0_v3 (V0 : Valuation τ sig (Elt F)) : val13 V0 (no_index (Proc.devRef .tc main_call0_v3)) = res_main_call0_v3 (V0 (Proc.devRef .tc main_arg1)) :=
  (val13_keep V0 main_call0_v3 (by decide)).trans (val12_main_call0_v3 V0)
theorem val13_main_call0_v5 (V0 : Valuation τ sig (Elt F)) : val13 V0 (no_index (Proc.devRef .tc main_call0_v5)) = res_main_call0_v5 (V0 (Proc.devRef .tc main_arg1)) :=
  (val13_keep V0 main_call0_v5 (by decide)).trans (val12_main_call0_v5 V0)
theorem val13_main_call0_v7 (V0 : Valuation τ sig (Elt F)) : val13 V0 (no_index (Proc.devRef .tc main_call0_v7)) = res_main_call0_v7 (V0 (Proc.devRef .tc main_arg1)) :=
  (val13_keep V0 main_call0_v7 (by decide)).trans (val12_main_call0_v7 V0)
theorem val13_main_call0_call0_v1 (V0 : Valuation τ sig (Elt F)) : val13 V0 (no_index (Proc.devRef .tc main_call0_call0_v1)) = res_main_call0_call0_v1 (V0 (Proc.devRef .tc main_arg1)) :=
  (val13_keep V0 main_call0_call0_v1 (by decide)).trans (val12_main_call0_call0_v1 V0)
theorem val13_main_call0_call0_v88 (V0 : Valuation τ sig (Elt F)) : val13 V0 (no_index (Proc.devRef .tc main_call0_call0_v88)) = res_main_call0_call0_v88 (V0 (Proc.devRef .tc main_arg1)) := by
  unfold val13
  simp only [w13]
  after_results_simp
  simp only [val12_main_call0_call0_v84, val12_main_call0_call0_v80, val12_main_call0_call0_v83, val12_main_call0_call0_v81] <;> rfl
theorem val13_main_call0_call0_v94 (V0 : Valuation τ sig (Elt F)) : val13 V0 (no_index (Proc.devRef .tc main_call0_call0_v94)) = res_main_call0_call0_v94 (V0 (Proc.devRef .tc main_arg1)) := by
  unfold val13
  simp only [w13]
  after_results_simp
  simp only [val12_main_call0_call0_v84, val12_main_call0_call0_v80, val12_main_call0_call0_v83, val12_main_call0_call0_v81] <;> rfl

/-- The device's buffer contents after the first 14 windows. -/
def val14 (V0 : Valuation τ sig (Elt F)) : Valuation τ sig (Elt F) := after w14 (val13 V0)
/-- The buffers that window `w14`'s operations write. -/
abbrev w14_W : List (Ref sig .tc) := [main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104]
theorem w14_writes : (w14 : List (HloOp τ sig (Elt F))).Forall fun op => op.writes ⊆ (w14_W.map (Proc.devRef (τ := τ) .tc)).toFinset :=
  ⟨wr (y := main_call0_call0_v95) (by decide), wr (y := main_call0_call0_c_24) (by decide), wr (y := main_call0_call0_v96) (by decide), wr (y := main_call0_call0_v97) (by decide), wr (y := main_call0_call0_c_25) (by decide), wr (y := main_call0_call0_v98) (by decide), wr (y := main_call0_call0_v99) (by decide), wr (y := main_call0_call0_v100) (by decide), wr (y := main_call0_call0_v101) (by decide), wr (y := main_call0_call0_v102) (by decide), wr (y := main_call0_call0_v103) (by decide), wr (y := main_call0_call0_v104) (by decide)⟩
/-- A buffer that window `w14` does not write keeps its contents through it. -/
theorem val14_keep (V0 : Valuation τ sig (Elt F)) (r : Ref sig .tc) (h : r ∉ w14_W) :
    val14 V0 (Proc.devRef .tc r) = val13 V0 (Proc.devRef .tc r) :=
  after_of_writes_sub w14 _ w14_writes h
theorem val14_main_arg0 (V0 : Valuation τ sig (Elt F)) : val14 V0 (no_index (Proc.devRef .tc main_arg0)) = (V0 (Proc.devRef .tc main_arg0)) :=
  (val14_keep V0 main_arg0 (by decide)).trans (val13_main_arg0 V0)
theorem val14_main_arg1 (V0 : Valuation τ sig (Elt F)) : val14 V0 (no_index (Proc.devRef .tc main_arg1)) = (V0 (Proc.devRef .tc main_arg1)) :=
  (val14_keep V0 main_arg1 (by decide)).trans (val13_main_arg1 V0)
theorem val14_main_call0_v2 (V0 : Valuation τ sig (Elt F)) : val14 V0 (no_index (Proc.devRef .tc main_call0_v2)) = res_main_call0_v2 (V0 (Proc.devRef .tc main_arg1)) :=
  (val14_keep V0 main_call0_v2 (by decide)).trans (val13_main_call0_v2 V0)
theorem val14_main_call0_v3 (V0 : Valuation τ sig (Elt F)) : val14 V0 (no_index (Proc.devRef .tc main_call0_v3)) = res_main_call0_v3 (V0 (Proc.devRef .tc main_arg1)) :=
  (val14_keep V0 main_call0_v3 (by decide)).trans (val13_main_call0_v3 V0)
theorem val14_main_call0_v5 (V0 : Valuation τ sig (Elt F)) : val14 V0 (no_index (Proc.devRef .tc main_call0_v5)) = res_main_call0_v5 (V0 (Proc.devRef .tc main_arg1)) :=
  (val14_keep V0 main_call0_v5 (by decide)).trans (val13_main_call0_v5 V0)
theorem val14_main_call0_v7 (V0 : Valuation τ sig (Elt F)) : val14 V0 (no_index (Proc.devRef .tc main_call0_v7)) = res_main_call0_v7 (V0 (Proc.devRef .tc main_arg1)) :=
  (val14_keep V0 main_call0_v7 (by decide)).trans (val13_main_call0_v7 V0)
theorem val14_main_call0_call0_v1 (V0 : Valuation τ sig (Elt F)) : val14 V0 (no_index (Proc.devRef .tc main_call0_call0_v1)) = res_main_call0_call0_v1 (V0 (Proc.devRef .tc main_arg1)) :=
  (val14_keep V0 main_call0_call0_v1 (by decide)).trans (val13_main_call0_call0_v1 V0)
theorem val14_main_call0_call0_v101 (V0 : Valuation τ sig (Elt F)) : val14 V0 (no_index (Proc.devRef .tc main_call0_call0_v101)) = res_main_call0_call0_v101 (V0 (Proc.devRef .tc main_arg1)) := by
  unfold val14
  simp only [w14]
  after_results_simp
  simp only [val13_main_call0_call0_v94, val13_main_call0_call0_v88] <;> rfl
theorem val14_main_call0_call0_v103 (V0 : Valuation τ sig (Elt F)) : val14 V0 (no_index (Proc.devRef .tc main_call0_call0_v103)) = res_main_call0_call0_v103 (V0 (Proc.devRef .tc main_arg1)) := by
  unfold val14
  simp only [w14]
  after_results_simp
  simp only [val13_main_call0_v5, val13_main_call0_call0_v94, val13_main_call0_call0_v88] <;> rfl
theorem val14_main_call0_call0_v104 (V0 : Valuation τ sig (Elt F)) : val14 V0 (no_index (Proc.devRef .tc main_call0_call0_v104)) = res_main_call0_call0_v104 (V0 (Proc.devRef .tc main_arg1)) := by
  unfold val14
  simp only [w14]
  after_results_simp
  simp only [val13_main_call0_v7] <;> rfl

/-- The device's buffer contents after the first 15 windows. -/
def val15 (V0 : Valuation τ sig (Elt F)) : Valuation τ sig (Elt F) := after w15 (val14 V0)
/-- The buffers that window `w15`'s operations write. -/
abbrev w15_W : List (Ref sig .tc) := [main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113]
theorem w15_writes : (w15 : List (HloOp τ sig (Elt F))).Forall fun op => op.writes ⊆ (w15_W.map (Proc.devRef (τ := τ) .tc)).toFinset :=
  ⟨wr (y := main_call0_call0_v105) (by decide), wr (y := main_call0_call0_c_26) (by decide), wr (y := main_call0_call0_v106) (by decide), wr (y := main_call0_call0_v107) (by decide), wr (y := main_call0_call0_v108) (by decide), wr (y := main_call0_call0_c_27) (by decide), wr (y := main_call0_call0_v109) (by decide), wr (y := main_call0_call0_v110) (by decide), wr (y := main_call0_call0_c_28) (by decide), wr (y := main_call0_call0_v111) (by decide), wr (y := main_call0_call0_v112) (by decide), wr (y := main_call0_call0_v113) (by decide)⟩
/-- A buffer that window `w15` does not write keeps its contents through it. -/
theorem val15_keep (V0 : Valuation τ sig (Elt F)) (r : Ref sig .tc) (h : r ∉ w15_W) :
    val15 V0 (Proc.devRef .tc r) = val14 V0 (Proc.devRef .tc r) :=
  after_of_writes_sub w15 _ w15_writes h
theorem val15_main_arg0 (V0 : Valuation τ sig (Elt F)) : val15 V0 (no_index (Proc.devRef .tc main_arg0)) = (V0 (Proc.devRef .tc main_arg0)) :=
  (val15_keep V0 main_arg0 (by decide)).trans (val14_main_arg0 V0)
theorem val15_main_arg1 (V0 : Valuation τ sig (Elt F)) : val15 V0 (no_index (Proc.devRef .tc main_arg1)) = (V0 (Proc.devRef .tc main_arg1)) :=
  (val15_keep V0 main_arg1 (by decide)).trans (val14_main_arg1 V0)
theorem val15_main_call0_v2 (V0 : Valuation τ sig (Elt F)) : val15 V0 (no_index (Proc.devRef .tc main_call0_v2)) = res_main_call0_v2 (V0 (Proc.devRef .tc main_arg1)) :=
  (val15_keep V0 main_call0_v2 (by decide)).trans (val14_main_call0_v2 V0)
theorem val15_main_call0_v3 (V0 : Valuation τ sig (Elt F)) : val15 V0 (no_index (Proc.devRef .tc main_call0_v3)) = res_main_call0_v3 (V0 (Proc.devRef .tc main_arg1)) :=
  (val15_keep V0 main_call0_v3 (by decide)).trans (val14_main_call0_v3 V0)
theorem val15_main_call0_v5 (V0 : Valuation τ sig (Elt F)) : val15 V0 (no_index (Proc.devRef .tc main_call0_v5)) = res_main_call0_v5 (V0 (Proc.devRef .tc main_arg1)) :=
  (val15_keep V0 main_call0_v5 (by decide)).trans (val14_main_call0_v5 V0)
theorem val15_main_call0_v7 (V0 : Valuation τ sig (Elt F)) : val15 V0 (no_index (Proc.devRef .tc main_call0_v7)) = res_main_call0_v7 (V0 (Proc.devRef .tc main_arg1)) :=
  (val15_keep V0 main_call0_v7 (by decide)).trans (val14_main_call0_v7 V0)
theorem val15_main_call0_call0_v1 (V0 : Valuation τ sig (Elt F)) : val15 V0 (no_index (Proc.devRef .tc main_call0_call0_v1)) = res_main_call0_call0_v1 (V0 (Proc.devRef .tc main_arg1)) :=
  (val15_keep V0 main_call0_call0_v1 (by decide)).trans (val14_main_call0_call0_v1 V0)
theorem val15_main_call0_call0_v108 (V0 : Valuation τ sig (Elt F)) : val15 V0 (no_index (Proc.devRef .tc main_call0_call0_v108)) = res_main_call0_call0_v108 (V0 (Proc.devRef .tc main_arg1)) := by
  unfold val15
  simp only [w15]
  after_results_simp
  simp only [val14_main_call0_call0_v104, val14_main_call0_call0_v101, val14_main_call0_call0_v103] <;> rfl
theorem val15_main_call0_call0_v113 (V0 : Valuation τ sig (Elt F)) : val15 V0 (no_index (Proc.devRef .tc main_call0_call0_v113)) = res_main_call0_call0_v113 (V0 (Proc.devRef .tc main_arg1)) := by
  unfold val15
  simp only [w15]
  after_results_simp
  simp only [val14_main_call0_call0_v104, val14_main_call0_call0_v101] <;> rfl

/-- The device's buffer contents after the first 16 windows. -/
def val16 (V0 : Valuation τ sig (Elt F)) : Valuation τ sig (Elt F) := after w16 (val15 V0)
/-- The buffers that window `w16`'s operations write. -/
abbrev w16_W : List (Ref sig .tc) := [main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31]
theorem w16_writes : (w16 : List (HloOp τ sig (Elt F))).Forall fun op => op.writes ⊆ (w16_W.map (Proc.devRef (τ := τ) .tc)).toFinset :=
  ⟨wr (y := main_call0_call0_v114) (by decide), wr (y := main_call0_call0_v115) (by decide), wr (y := main_call0_call0_c_29) (by decide), wr (y := main_call0_call0_v116) (by decide), wr (y := main_call0_call0_v117) (by decide), wr (y := main_call0_call0_c_30) (by decide), wr (y := main_call0_call0_v118) (by decide), wr (y := main_call0_call0_v119) (by decide), wr (y := main_call0_call0_v120) (by decide), wr (y := main_call0_call0_v121) (by decide), wr (y := main_call0_call0_v122) (by decide), wr (y := main_call0_call0_c_31) (by decide)⟩
/-- A buffer that window `w16` does not write keeps its contents through it. -/
theorem val16_keep (V0 : Valuation τ sig (Elt F)) (r : Ref sig .tc) (h : r ∉ w16_W) :
    val16 V0 (Proc.devRef .tc r) = val15 V0 (Proc.devRef .tc r) :=
  after_of_writes_sub w16 _ w16_writes h
theorem val16_main_arg0 (V0 : Valuation τ sig (Elt F)) : val16 V0 (no_index (Proc.devRef .tc main_arg0)) = (V0 (Proc.devRef .tc main_arg0)) :=
  (val16_keep V0 main_arg0 (by decide)).trans (val15_main_arg0 V0)
theorem val16_main_arg1 (V0 : Valuation τ sig (Elt F)) : val16 V0 (no_index (Proc.devRef .tc main_arg1)) = (V0 (Proc.devRef .tc main_arg1)) :=
  (val16_keep V0 main_arg1 (by decide)).trans (val15_main_arg1 V0)
theorem val16_main_call0_v2 (V0 : Valuation τ sig (Elt F)) : val16 V0 (no_index (Proc.devRef .tc main_call0_v2)) = res_main_call0_v2 (V0 (Proc.devRef .tc main_arg1)) :=
  (val16_keep V0 main_call0_v2 (by decide)).trans (val15_main_call0_v2 V0)
theorem val16_main_call0_v3 (V0 : Valuation τ sig (Elt F)) : val16 V0 (no_index (Proc.devRef .tc main_call0_v3)) = res_main_call0_v3 (V0 (Proc.devRef .tc main_arg1)) :=
  (val16_keep V0 main_call0_v3 (by decide)).trans (val15_main_call0_v3 V0)
theorem val16_main_call0_v5 (V0 : Valuation τ sig (Elt F)) : val16 V0 (no_index (Proc.devRef .tc main_call0_v5)) = res_main_call0_v5 (V0 (Proc.devRef .tc main_arg1)) :=
  (val16_keep V0 main_call0_v5 (by decide)).trans (val15_main_call0_v5 V0)
theorem val16_main_call0_v7 (V0 : Valuation τ sig (Elt F)) : val16 V0 (no_index (Proc.devRef .tc main_call0_v7)) = res_main_call0_v7 (V0 (Proc.devRef .tc main_arg1)) :=
  (val16_keep V0 main_call0_v7 (by decide)).trans (val15_main_call0_v7 V0)
theorem val16_main_call0_call0_v1 (V0 : Valuation τ sig (Elt F)) : val16 V0 (no_index (Proc.devRef .tc main_call0_call0_v1)) = res_main_call0_call0_v1 (V0 (Proc.devRef .tc main_arg1)) :=
  (val16_keep V0 main_call0_call0_v1 (by decide)).trans (val15_main_call0_call0_v1 V0)
theorem val16_main_call0_call0_v121 (V0 : Valuation τ sig (Elt F)) : val16 V0 (no_index (Proc.devRef .tc main_call0_call0_v121)) = res_main_call0_call0_v121 (V0 (Proc.devRef .tc main_arg1)) := by
  unfold val16
  simp only [w16]
  after_results_simp
  simp only [val15_main_call0_call0_v113, val15_main_call0_call0_v108] <;> rfl
theorem val16_main_call0_call0_v122 (V0 : Valuation τ sig (Elt F)) : val16 V0 (no_index (Proc.devRef .tc main_call0_call0_v122)) = res_main_call0_call0_v122 (V0 (Proc.devRef .tc main_arg1)) := by
  unfold val16
  simp only [w16]
  after_results_simp
  simp only [val15_main_call0_call0_v113, val15_main_call0_call0_v108] <;> rfl
theorem val16_main_call0_call0_c_31 (V0 : Valuation τ sig (Elt F)) : val16 V0 (no_index (Proc.devRef .tc main_call0_call0_c_31)) = res_main_call0_call0_c_31 (V0 (Proc.devRef .tc main_arg1)) := by
  unfold val16
  simp only [w16]
  after_results_simp
  all_goals rfl

/-- The device's buffer contents after the first 17 windows. -/
def val17 (V0 : Valuation τ sig (Elt F)) : Valuation τ sig (Elt F) := after w17 (val16 V0)
/-- The buffers that window `w17`'s operations write. -/
abbrev w17_W : List (Ref sig .tc) := [main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34]
theorem w17_writes : (w17 : List (HloOp τ sig (Elt F))).Forall fun op => op.writes ⊆ (w17_W.map (Proc.devRef (τ := τ) .tc)).toFinset :=
  ⟨wr (y := main_call0_call0_v123) (by decide), wr (y := main_call0_call0_v124) (by decide), wr (y := main_call0_call0_c_32) (by decide), wr (y := main_call0_call0_v125) (by decide), wr (y := main_call0_call0_v126) (by decide), wr (y := main_call0_call0_v127) (by decide), wr (y := main_call0_call0_v128) (by decide), wr (y := main_call0_call0_v129) (by decide), wr (y := main_call0_call0_c_33) (by decide), wr (y := main_call0_call0_v130) (by decide), wr (y := main_call0_call0_v131) (by decide), wr (y := main_call0_call0_c_34) (by decide)⟩
/-- A buffer that window `w17` does not write keeps its contents through it. -/
theorem val17_keep (V0 : Valuation τ sig (Elt F)) (r : Ref sig .tc) (h : r ∉ w17_W) :
    val17 V0 (Proc.devRef .tc r) = val16 V0 (Proc.devRef .tc r) :=
  after_of_writes_sub w17 _ w17_writes h
theorem val17_main_arg0 (V0 : Valuation τ sig (Elt F)) : val17 V0 (no_index (Proc.devRef .tc main_arg0)) = (V0 (Proc.devRef .tc main_arg0)) :=
  (val17_keep V0 main_arg0 (by decide)).trans (val16_main_arg0 V0)
theorem val17_main_arg1 (V0 : Valuation τ sig (Elt F)) : val17 V0 (no_index (Proc.devRef .tc main_arg1)) = (V0 (Proc.devRef .tc main_arg1)) :=
  (val17_keep V0 main_arg1 (by decide)).trans (val16_main_arg1 V0)
theorem val17_main_call0_v2 (V0 : Valuation τ sig (Elt F)) : val17 V0 (no_index (Proc.devRef .tc main_call0_v2)) = res_main_call0_v2 (V0 (Proc.devRef .tc main_arg1)) :=
  (val17_keep V0 main_call0_v2 (by decide)).trans (val16_main_call0_v2 V0)
theorem val17_main_call0_v3 (V0 : Valuation τ sig (Elt F)) : val17 V0 (no_index (Proc.devRef .tc main_call0_v3)) = res_main_call0_v3 (V0 (Proc.devRef .tc main_arg1)) :=
  (val17_keep V0 main_call0_v3 (by decide)).trans (val16_main_call0_v3 V0)
theorem val17_main_call0_v5 (V0 : Valuation τ sig (Elt F)) : val17 V0 (no_index (Proc.devRef .tc main_call0_v5)) = res_main_call0_v5 (V0 (Proc.devRef .tc main_arg1)) :=
  (val17_keep V0 main_call0_v5 (by decide)).trans (val16_main_call0_v5 V0)
theorem val17_main_call0_v7 (V0 : Valuation τ sig (Elt F)) : val17 V0 (no_index (Proc.devRef .tc main_call0_v7)) = res_main_call0_v7 (V0 (Proc.devRef .tc main_arg1)) :=
  (val17_keep V0 main_call0_v7 (by decide)).trans (val16_main_call0_v7 V0)
theorem val17_main_call0_call0_v1 (V0 : Valuation τ sig (Elt F)) : val17 V0 (no_index (Proc.devRef .tc main_call0_call0_v1)) = res_main_call0_call0_v1 (V0 (Proc.devRef .tc main_arg1)) :=
  (val17_keep V0 main_call0_call0_v1 (by decide)).trans (val16_main_call0_call0_v1 V0)
theorem val17_main_call0_call0_v128 (V0 : Valuation τ sig (Elt F)) : val17 V0 (no_index (Proc.devRef .tc main_call0_call0_v128)) = res_main_call0_call0_v128 (V0 (Proc.devRef .tc main_arg1)) := by
  unfold val17
  simp only [w17]
  after_results_simp
  simp only [val16_main_call0_call0_v121, val16_main_call0_call0_c_31, val16_main_call0_call0_v122] <;> rfl
theorem val17_main_call0_call0_v129 (V0 : Valuation τ sig (Elt F)) : val17 V0 (no_index (Proc.devRef .tc main_call0_call0_v129)) = res_main_call0_call0_v129 (V0 (Proc.devRef .tc main_arg1)) := by
  unfold val17
  simp only [w17]
  after_results_simp
  simp only [val16_main_call0_call0_v121, val16_main_call0_call0_c_31, val16_main_call0_call0_v122] <;> rfl
theorem val17_main_call0_call0_v131 (V0 : Valuation τ sig (Elt F)) : val17 V0 (no_index (Proc.devRef .tc main_call0_call0_v131)) = res_main_call0_call0_v131 (V0 (Proc.devRef .tc main_arg1)) := by
  unfold val17
  simp only [w17]
  after_results_simp
  simp only [val16_main_call0_call0_v121, val16_main_call0_call0_c_31, val16_main_call0_call0_v122] <;> rfl
theorem val17_main_call0_call0_c_34 (V0 : Valuation τ sig (Elt F)) : val17 V0 (no_index (Proc.devRef .tc main_call0_call0_c_34)) = res_main_call0_call0_c_34 (V0 (Proc.devRef .tc main_arg1)) := by
  unfold val17
  simp only [w17]
  after_results_simp
  all_goals rfl

/-- The device's buffer contents after the first 18 windows. -/
def val18 (V0 : Valuation τ sig (Elt F)) : Valuation τ sig (Elt F) := after w18 (val17 V0)
/-- The buffers that window `w18`'s operations write. -/
abbrev w18_W : List (Ref sig .tc) := [main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142]
theorem w18_writes : (w18 : List (HloOp τ sig (Elt F))).Forall fun op => op.writes ⊆ (w18_W.map (Proc.devRef (τ := τ) .tc)).toFinset :=
  ⟨wr (y := main_call0_call0_v132) (by decide), wr (y := main_call0_call0_v133) (by decide), wr (y := main_call0_call0_v134) (by decide), wr (y := main_call0_call0_v135) (by decide), wr (y := main_call0_call0_v136) (by decide), wr (y := main_call0_call0_v137) (by decide), wr (y := main_call0_call0_v138) (by decide), wr (y := main_call0_call0_v139) (by decide), wr (y := main_call0_call0_c_35) (by decide), wr (y := main_call0_call0_v140) (by decide), wr (y := main_call0_call0_v141) (by decide), wr (y := main_call0_call0_v142) (by decide)⟩
/-- A buffer that window `w18` does not write keeps its contents through it. -/
theorem val18_keep (V0 : Valuation τ sig (Elt F)) (r : Ref sig .tc) (h : r ∉ w18_W) :
    val18 V0 (Proc.devRef .tc r) = val17 V0 (Proc.devRef .tc r) :=
  after_of_writes_sub w18 _ w18_writes h
theorem val18_main_arg0 (V0 : Valuation τ sig (Elt F)) : val18 V0 (no_index (Proc.devRef .tc main_arg0)) = (V0 (Proc.devRef .tc main_arg0)) :=
  (val18_keep V0 main_arg0 (by decide)).trans (val17_main_arg0 V0)
theorem val18_main_arg1 (V0 : Valuation τ sig (Elt F)) : val18 V0 (no_index (Proc.devRef .tc main_arg1)) = (V0 (Proc.devRef .tc main_arg1)) :=
  (val18_keep V0 main_arg1 (by decide)).trans (val17_main_arg1 V0)
theorem val18_main_call0_v2 (V0 : Valuation τ sig (Elt F)) : val18 V0 (no_index (Proc.devRef .tc main_call0_v2)) = res_main_call0_v2 (V0 (Proc.devRef .tc main_arg1)) :=
  (val18_keep V0 main_call0_v2 (by decide)).trans (val17_main_call0_v2 V0)
theorem val18_main_call0_v3 (V0 : Valuation τ sig (Elt F)) : val18 V0 (no_index (Proc.devRef .tc main_call0_v3)) = res_main_call0_v3 (V0 (Proc.devRef .tc main_arg1)) :=
  (val18_keep V0 main_call0_v3 (by decide)).trans (val17_main_call0_v3 V0)
theorem val18_main_call0_v5 (V0 : Valuation τ sig (Elt F)) : val18 V0 (no_index (Proc.devRef .tc main_call0_v5)) = res_main_call0_v5 (V0 (Proc.devRef .tc main_arg1)) :=
  (val18_keep V0 main_call0_v5 (by decide)).trans (val17_main_call0_v5 V0)
theorem val18_main_call0_call0_v1 (V0 : Valuation τ sig (Elt F)) : val18 V0 (no_index (Proc.devRef .tc main_call0_call0_v1)) = res_main_call0_call0_v1 (V0 (Proc.devRef .tc main_arg1)) :=
  (val18_keep V0 main_call0_call0_v1 (by decide)).trans (val17_main_call0_call0_v1 V0)
theorem val18_main_call0_call0_v141 (V0 : Valuation τ sig (Elt F)) : val18 V0 (no_index (Proc.devRef .tc main_call0_call0_v141)) = res_main_call0_call0_v141 (V0 (Proc.devRef .tc main_arg1)) := by
  unfold val18
  simp only [w18]
  after_results_simp
  simp only [val17_main_call0_call0_v1, val17_main_call0_call0_c_34, val17_main_call0_call0_v128, val17_main_call0_call0_v131, val17_main_call0_call0_v129] <;> rfl
theorem val18_main_call0_call0_v142 (V0 : Valuation τ sig (Elt F)) : val18 V0 (no_index (Proc.devRef .tc main_call0_call0_v142)) = res_main_call0_call0_v142 (V0 (Proc.devRef .tc main_arg1)) := by
  unfold val18
  simp only [w18]
  after_results_simp
  simp only [val17_main_call0_call0_v1, val17_main_call0_call0_c_34, val17_main_call0_call0_v128, val17_main_call0_call0_v131, val17_main_call0_call0_v129, val17_main_call0_v7] <;> rfl

/-- The device's buffer contents after the first 19 windows. -/
def val19 (V0 : Valuation τ sig (Elt F)) : Valuation τ sig (Elt F) := after w19 (val18 V0)
/-- The buffers that window `w19`'s operations write. -/
abbrev w19_W : List (Ref sig .tc) := [main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151]
theorem w19_writes : (w19 : List (HloOp τ sig (Elt F))).Forall fun op => op.writes ⊆ (w19_W.map (Proc.devRef (τ := τ) .tc)).toFinset :=
  ⟨wr (y := main_call0_call0_c_36) (by decide), wr (y := main_call0_call0_v143) (by decide), wr (y := main_call0_call0_v144) (by decide), wr (y := main_call0_call0_c_37) (by decide), wr (y := main_call0_call0_v145) (by decide), wr (y := main_call0_call0_v146) (by decide), wr (y := main_call0_call0_v147) (by decide), wr (y := main_call0_call0_v148) (by decide), wr (y := main_call0_call0_v149) (by decide), wr (y := main_call0_call0_c_38) (by decide), wr (y := main_call0_call0_v150) (by decide), wr (y := main_call0_call0_v151) (by decide)⟩
/-- A buffer that window `w19` does not write keeps its contents through it. -/
theorem val19_keep (V0 : Valuation τ sig (Elt F)) (r : Ref sig .tc) (h : r ∉ w19_W) :
    val19 V0 (Proc.devRef .tc r) = val18 V0 (Proc.devRef .tc r) :=
  after_of_writes_sub w19 _ w19_writes h
theorem val19_main_arg0 (V0 : Valuation τ sig (Elt F)) : val19 V0 (no_index (Proc.devRef .tc main_arg0)) = (V0 (Proc.devRef .tc main_arg0)) :=
  (val19_keep V0 main_arg0 (by decide)).trans (val18_main_arg0 V0)
theorem val19_main_arg1 (V0 : Valuation τ sig (Elt F)) : val19 V0 (no_index (Proc.devRef .tc main_arg1)) = (V0 (Proc.devRef .tc main_arg1)) :=
  (val19_keep V0 main_arg1 (by decide)).trans (val18_main_arg1 V0)
theorem val19_main_call0_v2 (V0 : Valuation τ sig (Elt F)) : val19 V0 (no_index (Proc.devRef .tc main_call0_v2)) = res_main_call0_v2 (V0 (Proc.devRef .tc main_arg1)) :=
  (val19_keep V0 main_call0_v2 (by decide)).trans (val18_main_call0_v2 V0)
theorem val19_main_call0_v3 (V0 : Valuation τ sig (Elt F)) : val19 V0 (no_index (Proc.devRef .tc main_call0_v3)) = res_main_call0_v3 (V0 (Proc.devRef .tc main_arg1)) :=
  (val19_keep V0 main_call0_v3 (by decide)).trans (val18_main_call0_v3 V0)
theorem val19_main_call0_v5 (V0 : Valuation τ sig (Elt F)) : val19 V0 (no_index (Proc.devRef .tc main_call0_v5)) = res_main_call0_v5 (V0 (Proc.devRef .tc main_arg1)) :=
  (val19_keep V0 main_call0_v5 (by decide)).trans (val18_main_call0_v5 V0)
theorem val19_main_call0_call0_v1 (V0 : Valuation τ sig (Elt F)) : val19 V0 (no_index (Proc.devRef .tc main_call0_call0_v1)) = res_main_call0_call0_v1 (V0 (Proc.devRef .tc main_arg1)) :=
  (val19_keep V0 main_call0_call0_v1 (by decide)).trans (val18_main_call0_call0_v1 V0)
theorem val19_main_call0_call0_v148 (V0 : Valuation τ sig (Elt F)) : val19 V0 (no_index (Proc.devRef .tc main_call0_call0_v148)) = res_main_call0_call0_v148 (V0 (Proc.devRef .tc main_arg1)) := by
  unfold val19
  simp only [w19]
  after_results_simp
  simp only [val18_main_call0_call0_v141, val18_main_call0_call0_v142] <;> rfl
theorem val19_main_call0_call0_v149 (V0 : Valuation τ sig (Elt F)) : val19 V0 (no_index (Proc.devRef .tc main_call0_call0_v149)) = res_main_call0_call0_v149 (V0 (Proc.devRef .tc main_arg1)) := by
  unfold val19
  simp only [w19]
  after_results_simp
  simp only [val18_main_call0_call0_v141, val18_main_call0_call0_v142] <;> rfl
theorem val19_main_call0_call0_v151 (V0 : Valuation τ sig (Elt F)) : val19 V0 (no_index (Proc.devRef .tc main_call0_call0_v151)) = res_main_call0_call0_v151 (V0 (Proc.devRef .tc main_arg1)) := by
  unfold val19
  simp only [w19]
  after_results_simp
  simp only [val18_main_call0_call0_v141, val18_main_call0_call0_v142] <;> rfl

/-- The device's buffer contents after the first 20 windows. -/
def val20 (V0 : Valuation τ sig (Elt F)) : Valuation τ sig (Elt F) := after w20 (val19 V0)
/-- The buffers that window `w20`'s operations write. -/
abbrev w20_W : List (Ref sig .tc) := [main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160]
theorem w20_writes : (w20 : List (HloOp τ sig (Elt F))).Forall fun op => op.writes ⊆ (w20_W.map (Proc.devRef (τ := τ) .tc)).toFinset :=
  ⟨wr (y := main_call0_call0_c_39) (by decide), wr (y := main_call0_call0_v152) (by decide), wr (y := main_call0_call0_v153) (by decide), wr (y := main_call0_call0_v154) (by decide), wr (y := main_call0_call0_v155) (by decide), wr (y := main_call0_call0_v156) (by decide), wr (y := main_call0_call0_c_40) (by decide), wr (y := main_call0_call0_v157) (by decide), wr (y := main_call0_call0_v158) (by decide), wr (y := main_call0_call0_c_41) (by decide), wr (y := main_call0_call0_v159) (by decide), wr (y := main_call0_call0_v160) (by decide)⟩
/-- A buffer that window `w20` does not write keeps its contents through it. -/
theorem val20_keep (V0 : Valuation τ sig (Elt F)) (r : Ref sig .tc) (h : r ∉ w20_W) :
    val20 V0 (Proc.devRef .tc r) = val19 V0 (Proc.devRef .tc r) :=
  after_of_writes_sub w20 _ w20_writes h
theorem val20_main_arg0 (V0 : Valuation τ sig (Elt F)) : val20 V0 (no_index (Proc.devRef .tc main_arg0)) = (V0 (Proc.devRef .tc main_arg0)) :=
  (val20_keep V0 main_arg0 (by decide)).trans (val19_main_arg0 V0)
theorem val20_main_arg1 (V0 : Valuation τ sig (Elt F)) : val20 V0 (no_index (Proc.devRef .tc main_arg1)) = (V0 (Proc.devRef .tc main_arg1)) :=
  (val20_keep V0 main_arg1 (by decide)).trans (val19_main_arg1 V0)
theorem val20_main_call0_v2 (V0 : Valuation τ sig (Elt F)) : val20 V0 (no_index (Proc.devRef .tc main_call0_v2)) = res_main_call0_v2 (V0 (Proc.devRef .tc main_arg1)) :=
  (val20_keep V0 main_call0_v2 (by decide)).trans (val19_main_call0_v2 V0)
theorem val20_main_call0_v3 (V0 : Valuation τ sig (Elt F)) : val20 V0 (no_index (Proc.devRef .tc main_call0_v3)) = res_main_call0_v3 (V0 (Proc.devRef .tc main_arg1)) :=
  (val20_keep V0 main_call0_v3 (by decide)).trans (val19_main_call0_v3 V0)
theorem val20_main_call0_v5 (V0 : Valuation τ sig (Elt F)) : val20 V0 (no_index (Proc.devRef .tc main_call0_v5)) = res_main_call0_v5 (V0 (Proc.devRef .tc main_arg1)) :=
  (val20_keep V0 main_call0_v5 (by decide)).trans (val19_main_call0_v5 V0)
theorem val20_main_call0_call0_v1 (V0 : Valuation τ sig (Elt F)) : val20 V0 (no_index (Proc.devRef .tc main_call0_call0_v1)) = res_main_call0_call0_v1 (V0 (Proc.devRef .tc main_arg1)) :=
  (val20_keep V0 main_call0_call0_v1 (by decide)).trans (val19_main_call0_call0_v1 V0)
theorem val20_main_call0_call0_v156 (V0 : Valuation τ sig (Elt F)) : val20 V0 (no_index (Proc.devRef .tc main_call0_call0_v156)) = res_main_call0_call0_v156 (V0 (Proc.devRef .tc main_arg1)) := by
  unfold val20
  simp only [w20]
  after_results_simp
  simp only [val19_main_call0_call0_v148, val19_main_call0_call0_v151, val19_main_call0_call0_v149] <;> rfl
theorem val20_main_call0_call0_v158 (V0 : Valuation τ sig (Elt F)) : val20 V0 (no_index (Proc.devRef .tc main_call0_call0_v158)) = res_main_call0_call0_v158 (V0 (Proc.devRef .tc main_arg1)) := by
  unfold val20
  simp only [w20]
  after_results_simp
  simp only [val19_main_call0_call0_v148, val19_main_call0_call0_v151, val19_main_call0_call0_v149] <;> rfl
theorem val20_main_call0_call0_v160 (V0 : Valuation τ sig (Elt F)) : val20 V0 (no_index (Proc.devRef .tc main_call0_call0_v160)) = res_main_call0_call0_v160 (V0 (Proc.devRef .tc main_arg1)) := by
  unfold val20
  simp only [w20]
  after_results_simp
  simp only [val19_main_call0_call0_v148, val19_main_call0_call0_v151, val19_main_call0_call0_v149] <;> rfl

/-- The device's buffer contents after the first 21 windows. -/
def val21 (V0 : Valuation τ sig (Elt F)) : Valuation τ sig (Elt F) := after w21 (val20 V0)
/-- The buffers that window `w21`'s operations write. -/
abbrev w21_W : List (Ref sig .tc) := [main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170]
theorem w21_writes : (w21 : List (HloOp τ sig (Elt F))).Forall fun op => op.writes ⊆ (w21_W.map (Proc.devRef (τ := τ) .tc)).toFinset :=
  ⟨wr (y := main_call0_call0_v161) (by decide), wr (y := main_call0_call0_v162) (by decide), wr (y := main_call0_call0_v163) (by decide), wr (y := main_call0_call0_c_42) (by decide), wr (y := main_call0_call0_v164) (by decide), wr (y := main_call0_call0_v165) (by decide), wr (y := main_call0_call0_c_43) (by decide), wr (y := main_call0_call0_v166) (by decide), wr (y := main_call0_call0_v167) (by decide), wr (y := main_call0_call0_v168) (by decide), wr (y := main_call0_call0_v169) (by decide), wr (y := main_call0_call0_v170) (by decide)⟩
/-- A buffer that window `w21` does not write keeps its contents through it. -/
theorem val21_keep (V0 : Valuation τ sig (Elt F)) (r : Ref sig .tc) (h : r ∉ w21_W) :
    val21 V0 (Proc.devRef .tc r) = val20 V0 (Proc.devRef .tc r) :=
  after_of_writes_sub w21 _ w21_writes h
theorem val21_main_arg0 (V0 : Valuation τ sig (Elt F)) : val21 V0 (no_index (Proc.devRef .tc main_arg0)) = (V0 (Proc.devRef .tc main_arg0)) :=
  (val21_keep V0 main_arg0 (by decide)).trans (val20_main_arg0 V0)
theorem val21_main_arg1 (V0 : Valuation τ sig (Elt F)) : val21 V0 (no_index (Proc.devRef .tc main_arg1)) = (V0 (Proc.devRef .tc main_arg1)) :=
  (val21_keep V0 main_arg1 (by decide)).trans (val20_main_arg1 V0)
theorem val21_main_call0_v2 (V0 : Valuation τ sig (Elt F)) : val21 V0 (no_index (Proc.devRef .tc main_call0_v2)) = res_main_call0_v2 (V0 (Proc.devRef .tc main_arg1)) :=
  (val21_keep V0 main_call0_v2 (by decide)).trans (val20_main_call0_v2 V0)
theorem val21_main_call0_v3 (V0 : Valuation τ sig (Elt F)) : val21 V0 (no_index (Proc.devRef .tc main_call0_v3)) = res_main_call0_v3 (V0 (Proc.devRef .tc main_arg1)) :=
  (val21_keep V0 main_call0_v3 (by decide)).trans (val20_main_call0_v3 V0)
theorem val21_main_call0_v5 (V0 : Valuation τ sig (Elt F)) : val21 V0 (no_index (Proc.devRef .tc main_call0_v5)) = res_main_call0_v5 (V0 (Proc.devRef .tc main_arg1)) :=
  (val21_keep V0 main_call0_v5 (by decide)).trans (val20_main_call0_v5 V0)
theorem val21_main_call0_call0_v163 (V0 : Valuation τ sig (Elt F)) : val21 V0 (no_index (Proc.devRef .tc main_call0_call0_v163)) = res_main_call0_call0_v163 (V0 (Proc.devRef .tc main_arg1)) := by
  unfold val21
  simp only [w21]
  after_results_simp
  simp only [val20_main_call0_call0_v160, val20_main_call0_call0_v158, val20_main_call0_call0_v156] <;> rfl
theorem val21_main_call0_call0_v169 (V0 : Valuation τ sig (Elt F)) : val21 V0 (no_index (Proc.devRef .tc main_call0_call0_v169)) = res_main_call0_call0_v169 (V0 (Proc.devRef .tc main_arg1)) := by
  unfold val21
  simp only [w21]
  after_results_simp
  simp only [val20_main_call0_call0_v160, val20_main_call0_call0_v158, val20_main_call0_call0_v156] <;> rfl
theorem val21_main_call0_call0_v170 (V0 : Valuation τ sig (Elt F)) : val21 V0 (no_index (Proc.devRef .tc main_call0_call0_v170)) = res_main_call0_call0_v170 (V0 (Proc.devRef .tc main_arg1)) := by
  unfold val21
  simp only [w21]
  after_results_simp
  simp only [val20_main_call0_call0_v1] <;> rfl

/-- The device's buffer contents after the first 22 windows. -/
def val22 (V0 : Valuation τ sig (Elt F)) : Valuation τ sig (Elt F) := after w22 (val21 V0)
/-- The buffers that window `w22`'s operations write. -/
abbrev w22_W : List (Ref sig .tc) := [main_call0_v19_0, main_call0_call0_v172, main_call0_call0_v173, main_call0_call0_c_44, main_call0_call0_v174, main_call0_v19_1]
theorem w22_writes : (w22 : List (HloOp τ sig (Elt F))).Forall fun op => op.writes ⊆ (w22_W.map (Proc.devRef (τ := τ) .tc)).toFinset :=
  ⟨wr (y := main_call0_v19_0) (by decide), wr (y := main_call0_call0_v172) (by decide), wr (y := main_call0_call0_v173) (by decide), wr (y := main_call0_call0_c_44) (by decide), wr (y := main_call0_call0_v174) (by decide), wr (y := main_call0_v19_1) (by decide)⟩
/-- A buffer that window `w22` does not write keeps its contents through it. -/
theorem val22_keep (V0 : Valuation τ sig (Elt F)) (r : Ref sig .tc) (h : r ∉ w22_W) :
    val22 V0 (Proc.devRef .tc r) = val21 V0 (Proc.devRef .tc r) :=
  after_of_writes_sub w22 _ w22_writes h
theorem val22_main_arg0 (V0 : Valuation τ sig (Elt F)) : val22 V0 (no_index (Proc.devRef .tc main_arg0)) = (V0 (Proc.devRef .tc main_arg0)) :=
  (val22_keep V0 main_arg0 (by decide)).trans (val21_main_arg0 V0)
theorem val22_main_arg1 (V0 : Valuation τ sig (Elt F)) : val22 V0 (no_index (Proc.devRef .tc main_arg1)) = (V0 (Proc.devRef .tc main_arg1)) :=
  (val22_keep V0 main_arg1 (by decide)).trans (val21_main_arg1 V0)
theorem val22_main_call0_v2 (V0 : Valuation τ sig (Elt F)) : val22 V0 (no_index (Proc.devRef .tc main_call0_v2)) = res_main_call0_v2 (V0 (Proc.devRef .tc main_arg1)) :=
  (val22_keep V0 main_call0_v2 (by decide)).trans (val21_main_call0_v2 V0)
theorem val22_main_call0_v3 (V0 : Valuation τ sig (Elt F)) : val22 V0 (no_index (Proc.devRef .tc main_call0_v3)) = res_main_call0_v3 (V0 (Proc.devRef .tc main_arg1)) :=
  (val22_keep V0 main_call0_v3 (by decide)).trans (val21_main_call0_v3 V0)
theorem val22_main_call0_v19_0 (V0 : Valuation τ sig (Elt F)) : val22 V0 (no_index (Proc.devRef .tc main_call0_v19_0)) = res_main_call0_v19_0 (V0 (Proc.devRef .tc main_arg1)) := by
  unfold val22
  simp only [w22]
  after_results_simp
  simp only [val21_main_call0_call0_v170, val21_main_call0_call0_v163] <;> rfl
theorem val22_main_call0_v19_1 (V0 : Valuation τ sig (Elt F)) : val22 V0 (no_index (Proc.devRef .tc main_call0_v19_1)) = res_main_call0_v19_1 (V0 (Proc.devRef .tc main_arg1)) := by
  unfold val22
  simp only [w22]
  after_results_simp
  simp only [val21_main_call0_v5, val21_main_call0_call0_v169] <;> rfl

/-- The device's buffer contents after the first 23 windows. -/
def val23 (V0 : Valuation τ sig (Elt F)) : Valuation τ sig (Elt F) := after w23 (val22 V0)
/-- The buffers that window `w23`'s operations write. -/
abbrev w23_W : List (Ref sig .tc) := [main_call0_v20, main_call0_c_2, main_call0_v21, main_call0_v22, main_call0_c_3, main_call0_v23, main_call0_v24, main_call0_v25, main_call0_cst, main_call0_v26, main_call0_v27, main_call0_v28]
theorem w23_writes : (w23 : List (HloOp τ sig (Elt F))).Forall fun op => op.writes ⊆ (w23_W.map (Proc.devRef (τ := τ) .tc)).toFinset :=
  ⟨wr (y := main_call0_v20) (by decide), wr (y := main_call0_c_2) (by decide), wr (y := main_call0_v21) (by decide), wr (y := main_call0_v22) (by decide), wr (y := main_call0_c_3) (by decide), wr (y := main_call0_v23) (by decide), wr (y := main_call0_v24) (by decide), wr (y := main_call0_v25) (by decide), wr (y := main_call0_cst) (by decide), wr (y := main_call0_v26) (by decide), wr (y := main_call0_v27) (by decide), wr (y := main_call0_v28) (by decide)⟩
/-- A buffer that window `w23` does not write keeps its contents through it. -/
theorem val23_keep (V0 : Valuation τ sig (Elt F)) (r : Ref sig .tc) (h : r ∉ w23_W) :
    val23 V0 (Proc.devRef .tc r) = val22 V0 (Proc.devRef .tc r) :=
  after_of_writes_sub w23 _ w23_writes h
theorem val23_main_arg0 (V0 : Valuation τ sig (Elt F)) : val23 V0 (no_index (Proc.devRef .tc main_arg0)) = (V0 (Proc.devRef .tc main_arg0)) :=
  (val23_keep V0 main_arg0 (by decide)).trans (val22_main_arg0 V0)
theorem val23_main_arg1 (V0 : Valuation τ sig (Elt F)) : val23 V0 (no_index (Proc.devRef .tc main_arg1)) = (V0 (Proc.devRef .tc main_arg1)) :=
  (val23_keep V0 main_arg1 (by decide)).trans (val22_main_arg1 V0)
theorem val23_main_call0_v2 (V0 : Valuation τ sig (Elt F)) : val23 V0 (no_index (Proc.devRef .tc main_call0_v2)) = res_main_call0_v2 (V0 (Proc.devRef .tc main_arg1)) :=
  (val23_keep V0 main_call0_v2 (by decide)).trans (val22_main_call0_v2 V0)
theorem val23_main_call0_v27 (V0 : Valuation τ sig (Elt F)) : val23 V0 (no_index (Proc.devRef .tc main_call0_v27)) = res_main_call0_v27 (V0 (Proc.devRef .tc main_arg1)) := by
  unfold val23
  simp only [w23]
  after_results_simp
  simp only [val22_main_call0_v19_1, val22_main_call0_v19_0] <;> rfl
theorem val23_main_call0_v28 (V0 : Valuation τ sig (Elt F)) : val23 V0 (no_index (Proc.devRef .tc main_call0_v28)) = res_main_call0_v28 (V0 (Proc.devRef .tc main_arg1)) := by
  unfold val23
  simp only [w23]
  after_results_simp
  simp only [val22_main_call0_v2, val22_main_call0_v3] <;> rfl

/-- The device's buffer contents after the first 24 windows. -/
def val24 (V0 : Valuation τ sig (Elt F)) : Valuation τ sig (Elt F) := after w24 (val23 V0)
/-- The buffers that window `w24`'s operations write. -/
abbrev w24_W : List (Ref sig .tc) := [main_call0_v29, main_call0_v30, main_call0_v31, main_call0_v32, main_call0_v33, main_v7]
theorem w24_writes : (w24 : List (HloOp τ sig (Elt F))).Forall fun op => op.writes ⊆ (w24_W.map (Proc.devRef (τ := τ) .tc)).toFinset :=
  ⟨wr (y := main_call0_v29) (by decide), wr (y := main_call0_v30) (by decide), wr (y := main_call0_v31) (by decide), wr (y := main_call0_v32) (by decide), wr (y := main_call0_v33) (by decide), wr (y := main_v7) (by decide)⟩
/-- A buffer that window `w24` does not write keeps its contents through it. -/
theorem val24_keep (V0 : Valuation τ sig (Elt F)) (r : Ref sig .tc) (h : r ∉ w24_W) :
    val24 V0 (Proc.devRef .tc r) = val23 V0 (Proc.devRef .tc r) :=
  after_of_writes_sub w24 _ w24_writes h
theorem val24_main_arg0 (V0 : Valuation τ sig (Elt F)) : val24 V0 (no_index (Proc.devRef .tc main_arg0)) = (V0 (Proc.devRef .tc main_arg0)) :=
  (val24_keep V0 main_arg0 (by decide)).trans (val23_main_arg0 V0)
theorem val24_main_arg1 (V0 : Valuation τ sig (Elt F)) : val24 V0 (no_index (Proc.devRef .tc main_arg1)) = (V0 (Proc.devRef .tc main_arg1)) :=
  (val24_keep V0 main_arg1 (by decide)).trans (val23_main_arg1 V0)
theorem val24_main_v7 (V0 : Valuation τ sig (Elt F)) : val24 V0 (no_index (Proc.devRef .tc main_v7)) = res_main_v7 (V0 (Proc.devRef .tc main_arg1)) := by
  unfold val24
  simp only [w24]
  after_results_simp
  simp only [val23_main_call0_v2, val23_main_call0_v28, val23_main_call0_v27] <;> rfl

/-- The device's buffer contents after the first 25 windows. -/
def val25 (V0 : Valuation τ sig (Elt F)) : Valuation τ sig (Elt F) := after w25 (val24 V0)
/-- The buffers that window `w25`'s operations write. -/
abbrev w25_W : List (Ref sig .tc) := [main_v8, main_v9, main_v10, main_v11, main_v12, main_v13, main_v14, main_c_3, main_v15]
theorem w25_writes : (w25 : List (HloOp τ sig (Elt F))).Forall fun op => op.writes ⊆ (w25_W.map (Proc.devRef (τ := τ) .tc)).toFinset :=
  ⟨wr (y := main_v8) (by decide), wr (y := main_v9) (by decide), wr (y := main_v10) (by decide), wr (y := main_v11) (by decide), wr (y := main_v12) (by decide), wr (y := main_v13) (by decide), wr (y := main_v14) (by decide), wr (y := main_c_3) (by decide), wr (y := main_v15) (by decide)⟩
/-- A buffer that window `w25` does not write keeps its contents through it. -/
theorem val25_keep (V0 : Valuation τ sig (Elt F)) (r : Ref sig .tc) (h : r ∉ w25_W) :
    val25 V0 (Proc.devRef .tc r) = val24 V0 (Proc.devRef .tc r) :=
  after_of_writes_sub w25 _ w25_writes h
theorem val25_main_arg0 (V0 : Valuation τ sig (Elt F)) : val25 V0 (no_index (Proc.devRef .tc main_arg0)) = (V0 (Proc.devRef .tc main_arg0)) :=
  (val25_keep V0 main_arg0 (by decide)).trans (val24_main_arg0 V0)
theorem val25_main_arg1 (V0 : Valuation τ sig (Elt F)) : val25 V0 (no_index (Proc.devRef .tc main_arg1)) = (V0 (Proc.devRef .tc main_arg1)) :=
  (val25_keep V0 main_arg1 (by decide)).trans (val24_main_arg1 V0)
theorem val25_main_v15 (V0 : Valuation τ sig (Elt F)) : val25 V0 (no_index (Proc.devRef .tc main_v15)) = res_main_v15 (V0 (Proc.devRef .tc main_arg1)) := by
  unfold val25
  simp only [w25]
  after_results_simp
  simp only [val24_main_arg1, val24_main_v7] <;> rfl

/-- The fold over the whole list is the fold window by window. -/
theorem after_ops (V0 : Valuation τ sig (Elt F)) : after ops V0 = val25 V0 := by
  simp only [ops, after_app]
  rfl

/-- The result word of every row, as a function of the probability argument: the operations' composed term. -/
def refTerm (p : (⟨S_, .f32⟩ : BufTy).Contents (Elt F)) : (⟨S1048576, .i32⟩ : BufTy).Contents (Elt F) := res_main_v15 p

theorem after_ops_v15 (V0 : Valuation τ sig (Elt F)) : after ops V0 (Proc.devRef .tc main_v15) = refTerm (V0 (Proc.devRef .tc main_arg1)) := by
  rw [after_ops]; exact val25_main_v15 V0
theorem after_ops_arg0 (V0 : Valuation τ sig (Elt F)) : after ops V0 (Proc.devRef .tc main_arg0) = V0 (Proc.devRef .tc main_arg0) := by
  rw [after_ops]; exact val25_main_arg0 V0
theorem after_ops_arg1 (V0 : Valuation τ sig (Elt F)) : after ops V0 (Proc.devRef .tc main_arg1) = V0 (Proc.devRef .tc main_arg1) := by
  rw [after_ops]; exact val25_main_arg1 V0

end Cert.RefSide

end
-- ==== Proof.RefRun.lean ====
/-
  The reference program's run at the ideal instance: from any memory with zero counters every weakly fair
  execution of @main terminates, the result buffer holds the operations' composed term `refTerm` of the
  probability argument, and the two arguments are unchanged.
-/
import proofs.«203736_g78743930405654_cont_9to1c4b_297_23_alg».proof.Proof.RefRunVals
import Idealize.ShloMosaic.PureOps.Ideal

noncomputable section

namespace Cert.RefSide

open Cert.ReferenceIdeal.Gen Idealize.ShloMosaic Idealize.ShloMosaic.TcCoe Idealize.SL.Sem Idealize.ShloMosaic.StableHlo

/-- Every weakly fair execution of the reference's @main terminates with the result at `refTerm` of the probability
    argument's launch contents and both arguments unchanged. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v15) = refTerm (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c =>
      ⟨(h c Cert.ReferenceIdeal.main_v15).trans (after_ops_v15 (launchContents m c)),
       (h c Cert.ReferenceIdeal.main_arg0).trans (after_ops_arg0 (launchContents m c)),
       (h c Cert.ReferenceIdeal.main_arg1).trans (after_ops_arg1 (launchContents m c))⟩)
    (run_main m g)

end Cert.RefSide

end
-- ==== Proof.RefValueTf.lean ====
/-
  The reference's random words, element by element. At the index (r, j) of the sampler's arrays the 64-bit counter
  32 r + j has high word 0 and low word 32 r + j; the key words are 0 and 42 (42 >> 32 is 0 on a 32-bit host word, 42 & -1
  is 42); every mixing step of the block function at that index is one `Spec.mix` and every key injection one
  `Spec.inject` (the program adds the key word and the round number one after the other, the specification adds their
  sum: associativity of +); so the block function's two outputs are `Spec.threefry 0 42 0 (32 r + j)`, their xor is
  `Spec.bits` and its top 23 bits `Spec.mant`.
-/
import proofs.«203736_g78743930405654_cont_9to1c4b_297_23_alg».proof.Proof.RefRunVals
import proofs.«203736_g78743930405654_cont_9to1c4b_297_23_alg».proof.Proof.Spec
import Idealize.ShloMosaic.PureOps.Ideal
import Idealize.ShloMosaic.Lib.IdealHost
import Idealize.ShloMosaic.Lib.ValueIdx

noncomputable section

namespace Cert.RefSide

open Cert.ReferenceIdeal Cert.ReferenceIdeal.Gen Idealize.ShloMosaic Idealize.ShloMosaic.ValueIdx

/-- The probability argument's contents: one extended real. -/
abbrev P := (⟨S_, .f32⟩ : BufTy).Contents (Elt Ideal)
/-- An index (row, bit) of the sampler's arrays. -/
abbrev I2 := S1048576x32.Idx

/-- A placeholder probability: the integer part of the program does not read the argument. -/
def pZero : P := fun _ => (0 : EReal)

/-! ## The key words and the counter -/

/-- A scalar broadcast over the sampler's shape reads the scalar everywhere. -/
theorem bc_key {α : Type} (x : S_.Idx → α) (i : I2) : broadcastInDim S1048576x32 ![] bcast_S_S1048576x32 x i = x ix0 :=
  broadcastInDim_scalar_apply _ _ _

/-- The first key word: 42 >> 32 on a 32-bit host word, which is 0. -/
theorem key0 (p : P) (j : S_.Idx) : (res_main_call0_v5 (F := Ideal) p j : BitVec 32) = 0#32 := by
  rw [eq_ix0 j]
  exact (show (res_main_call0_v5 (F := Ideal) p ix0 : BitVec 32) = res_main_call0_v5 (F := Ideal) pZero ix0 from rfl).trans (by decide)
/-- The second key word: 42 & 0xFFFFFFFF = 42. -/
theorem key1 (p : P) (j : S_.Idx) : (res_main_call0_v7 (F := Ideal) p j : BitVec 32) = 42#32 := by
  rw [eq_ix0 j]
  exact (show (res_main_call0_v7 (F := Ideal) p ix0 : BitVec 32) = res_main_call0_v7 (F := Ideal) pZero ix0 from rfl).trans (by decide)
/-- The third key word: the xor of the two and the constant 0x1BD11BDA. -/
theorem key2 (p : P) (j : S_.Idx) : (res_main_call0_call0_v1 (F := Ideal) p j : BitVec 32) = (0#32 ^^^ 42#32 ^^^ 0x1BD11BDA#32) := by
  show (res_main_call0_v5 (F := Ideal) p j ^^^ res_main_call0_v7 (F := Ideal) p j ^^^ 466688986#32 : BitVec 32) = _
  rw [key0, key1]

theorem ctr_lo_aux (r j : Nat) (hr : r < 1048576) (hj : j < 32) :
    (32#64 * BitVec.ofNat 64 r + 1#64 * BitVec.ofNat 64 j).setWidth 32 = BitVec.ofNat 32 (32 * r + j) := by
  apply BitVec.eq_of_toNat_eq
  simp only [BitVec.toNat_setWidth, BitVec.toNat_add, BitVec.toNat_mul, BitVec.toNat_ofNat]
  omega
theorem ctr_hi_aux (r j : Nat) (hr : r < 1048576) (hj : j < 32) :
    ((32#64 * BitVec.ofNat 64 r + 1#64 * BitVec.ofNat 64 j) >>> 32).setWidth 32 = 0#32 := by
  apply BitVec.eq_of_toNat_eq
  simp only [BitVec.toNat_setWidth, BitVec.toNat_ushiftRight, BitVec.toNat_add, BitVec.toNat_mul, BitVec.toNat_ofNat, Nat.shiftRight_eq_div_pow]
  omega
/-- The counter's low word at (r, j): 32 r + j. -/
theorem ctr_lo (p : P) (i : I2) : (res_main_call0_v17 (F := Ideal) p i : BitVec 32) = (BitVec.ofNat 32 (32 * (i 0).val + (i 1).val)) :=
  (show (res_main_call0_v17 (F := Ideal) p i : BitVec 32) = (32#64 * BitVec.ofNat 64 (i 0).val + 1#64 * BitVec.ofNat 64 (i 1).val).setWidth 32 from rfl).trans
    (ctr_lo_aux _ _ (idx2_lt0 i) (idx2_lt1 i))
/-- The counter's high word: 0, since 32 r + j is below 2³². -/
theorem ctr_hi (p : P) (i : I2) : (res_main_call0_v18 (F := Ideal) p i : BitVec 32) = 0#32 :=
  (show (res_main_call0_v18 (F := Ideal) p i : BitVec 32) = ((32#64 * BitVec.ofNat 64 (i 0).val + 1#64 * BitVec.ofNat 64 (i 1).val) >>> 32).setWidth 32 from rfl).trans
    (ctr_hi_aux _ _ (idx2_lt0 i) (idx2_lt1 i))

/-! ## The block function, step by step -/

/-- The state before the first group: the counter's words plus the first two key words. -/
theorem tf_init (p : P) (i : I2) : ((res_main_call0_call0_v3 (F := Ideal) p i, res_main_call0_call0_v5 (F := Ideal) p i) : BitVec 32 × BitVec 32) = (0#32 + 0#32, (BitVec.ofNat 32 (32 * (i 0).val + (i 1).val)) + 42#32) :=
  Prod.ext
    ((show (res_main_call0_call0_v3 (F := Ideal) p i : BitVec 32) = res_main_call0_v18 (F := Ideal) p i + broadcastInDim S1048576x32 ![] bcast_S_S1048576x32 (res_main_call0_v5 (F := Ideal) p) i from rfl).trans (by rw [bc_key, key0, ctr_hi]))
    ((show (res_main_call0_call0_v5 (F := Ideal) p i : BitVec 32) = res_main_call0_v17 (F := Ideal) p i + broadcastInDim S1048576x32 ![] bcast_S_S1048576x32 (res_main_call0_v7 (F := Ideal) p) i from rfl).trans (by rw [bc_key, key1, ctr_lo]))

/-- Mixing step 1, rotation 13. -/
theorem tfr_1 (p : P) (i : I2) : ((res_main_call0_call0_v6 (F := Ideal) p i, res_main_call0_call0_v12 (F := Ideal) p i) : BitVec 32 × BitVec 32) = Cert.Spec.mix (res_main_call0_call0_v3 (F := Ideal) p i, res_main_call0_call0_v5 (F := Ideal) p i) 13 :=
  Prod.ext (show (res_main_call0_call0_v6 (F := Ideal) p i : BitVec 32) = res_main_call0_call0_v3 (F := Ideal) p i + res_main_call0_call0_v5 (F := Ideal) p i from rfl)
    ((show (res_main_call0_call0_v12 (F := Ideal) p i : BitVec 32) = (res_main_call0_call0_v3 (F := Ideal) p i + res_main_call0_call0_v5 (F := Ideal) p i) ^^^ Cert.Spec.rotl (res_main_call0_call0_v5 (F := Ideal) p i) 13 from rfl).trans (BitVec.xor_comm _ _))
/-- Mixing step 2, rotation 15. -/
theorem tfr_2 (p : P) (i : I2) : ((res_main_call0_call0_v13 (F := Ideal) p i, res_main_call0_call0_v19 (F := Ideal) p i) : BitVec 32 × BitVec 32) = Cert.Spec.mix (res_main_call0_call0_v6 (F := Ideal) p i, res_main_call0_call0_v12 (F := Ideal) p i) 15 :=
  Prod.ext (show (res_main_call0_call0_v13 (F := Ideal) p i : BitVec 32) = res_main_call0_call0_v6 (F := Ideal) p i + res_main_call0_call0_v12 (F := Ideal) p i from rfl)
    ((show (res_main_call0_call0_v19 (F := Ideal) p i : BitVec 32) = (res_main_call0_call0_v6 (F := Ideal) p i + res_main_call0_call0_v12 (F := Ideal) p i) ^^^ Cert.Spec.rotl (res_main_call0_call0_v12 (F := Ideal) p i) 15 from rfl).trans (BitVec.xor_comm _ _))
/-- Mixing step 3, rotation 26. -/
theorem tfr_3 (p : P) (i : I2) : ((res_main_call0_call0_v20 (F := Ideal) p i, res_main_call0_call0_v26 (F := Ideal) p i) : BitVec 32 × BitVec 32) = Cert.Spec.mix (res_main_call0_call0_v13 (F := Ideal) p i, res_main_call0_call0_v19 (F := Ideal) p i) 26 :=
  Prod.ext (show (res_main_call0_call0_v20 (F := Ideal) p i : BitVec 32) = res_main_call0_call0_v13 (F := Ideal) p i + res_main_call0_call0_v19 (F := Ideal) p i from rfl)
    ((show (res_main_call0_call0_v26 (F := Ideal) p i : BitVec 32) = (res_main_call0_call0_v13 (F := Ideal) p i + res_main_call0_call0_v19 (F := Ideal) p i) ^^^ Cert.Spec.rotl (res_main_call0_call0_v19 (F := Ideal) p i) 26 from rfl).trans (BitVec.xor_comm _ _))
/-- Mixing step 4, rotation 6. -/
theorem tfr_4 (p : P) (i : I2) : ((res_main_call0_call0_v27 (F := Ideal) p i, res_main_call0_call0_v33 (F := Ideal) p i) : BitVec 32 × BitVec 32) = Cert.Spec.mix (res_main_call0_call0_v20 (F := Ideal) p i, res_main_call0_call0_v26 (F := Ideal) p i) 6 :=
  Prod.ext (show (res_main_call0_call0_v27 (F := Ideal) p i : BitVec 32) = res_main_call0_call0_v20 (F := Ideal) p i + res_main_call0_call0_v26 (F := Ideal) p i from rfl)
    ((show (res_main_call0_call0_v33 (F := Ideal) p i : BitVec 32) = (res_main_call0_call0_v20 (F := Ideal) p i + res_main_call0_call0_v26 (F := Ideal) p i) ^^^ Cert.Spec.rotl (res_main_call0_call0_v26 (F := Ideal) p i) 6 from rfl).trans (BitVec.xor_comm _ _))
/-- Key injection 1. -/
theorem tfi_1 (p : P) (i : I2) : ((res_main_call0_call0_v35 (F := Ideal) p i, res_main_call0_call0_v39 (F := Ideal) p i) : BitVec 32 × BitVec 32) = Cert.Spec.inject (res_main_call0_call0_v27 (F := Ideal) p i, res_main_call0_call0_v33 (F := Ideal) p i) 42#32 ((0#32 ^^^ 42#32 ^^^ 0x1BD11BDA#32) + 1#32) :=
  Prod.ext
    ((show (res_main_call0_call0_v35 (F := Ideal) p i : BitVec 32) = res_main_call0_call0_v27 (F := Ideal) p i + broadcastInDim S1048576x32 ![] bcast_S_S1048576x32 (res_main_call0_v7 (F := Ideal) p) i from rfl).trans (by rw [bc_key, key1]; first | done | rfl))
    ((show (res_main_call0_call0_v39 (F := Ideal) p i : BitVec 32) = res_main_call0_call0_v33 (F := Ideal) p i + broadcastInDim S1048576x32 ![] bcast_S_S1048576x32 (res_main_call0_call0_v1 (F := Ideal) p) i + 1#32 from rfl).trans (by rw [bc_key, key2, BitVec.add_assoc]; first | done | rfl))
/-- Mixing step 5, rotation 17. -/
theorem tfr_5 (p : P) (i : I2) : ((res_main_call0_call0_v40 (F := Ideal) p i, res_main_call0_call0_v46 (F := Ideal) p i) : BitVec 32 × BitVec 32) = Cert.Spec.mix (res_main_call0_call0_v35 (F := Ideal) p i, res_main_call0_call0_v39 (F := Ideal) p i) 17 :=
  Prod.ext (show (res_main_call0_call0_v40 (F := Ideal) p i : BitVec 32) = res_main_call0_call0_v35 (F := Ideal) p i + res_main_call0_call0_v39 (F := Ideal) p i from rfl)
    ((show (res_main_call0_call0_v46 (F := Ideal) p i : BitVec 32) = (res_main_call0_call0_v35 (F := Ideal) p i + res_main_call0_call0_v39 (F := Ideal) p i) ^^^ Cert.Spec.rotl (res_main_call0_call0_v39 (F := Ideal) p i) 17 from rfl).trans (BitVec.xor_comm _ _))
/-- Mixing step 6, rotation 29. -/
theorem tfr_6 (p : P) (i : I2) : ((res_main_call0_call0_v47 (F := Ideal) p i, res_main_call0_call0_v53 (F := Ideal) p i) : BitVec 32 × BitVec 32) = Cert.Spec.mix (res_main_call0_call0_v40 (F := Ideal) p i, res_main_call0_call0_v46 (F := Ideal) p i) 29 :=
  Prod.ext (show (res_main_call0_call0_v47 (F := Ideal) p i : BitVec 32) = res_main_call0_call0_v40 (F := Ideal) p i + res_main_call0_call0_v46 (F := Ideal) p i from rfl)
    ((show (res_main_call0_call0_v53 (F := Ideal) p i : BitVec 32) = (res_main_call0_call0_v40 (F := Ideal) p i + res_main_call0_call0_v46 (F := Ideal) p i) ^^^ Cert.Spec.rotl (res_main_call0_call0_v46 (F := Ideal) p i) 29 from rfl).trans (BitVec.xor_comm _ _))
/-- Mixing step 7, rotation 16. -/
theorem tfr_7 (p : P) (i : I2) : ((res_main_call0_call0_v54 (F := Ideal) p i, res_main_call0_call0_v60 (F := Ideal) p i) : BitVec 32 × BitVec 32) = Cert.Spec.mix (res_main_call0_call0_v47 (F := Ideal) p i, res_main_call0_call0_v53 (F := Ideal) p i) 16 :=
  Prod.ext (show (res_main_call0_call0_v54 (F := Ideal) p i : BitVec 32) = res_main_call0_call0_v47 (F := Ideal) p i + res_main_call0_call0_v53 (F := Ideal) p i from rfl)
    ((show (res_main_call0_call0_v60 (F := Ideal) p i : BitVec 32) = (res_main_call0_call0_v47 (F := Ideal) p i + res_main_call0_call0_v53 (F := Ideal) p i) ^^^ Cert.Spec.rotl (res_main_call0_call0_v53 (F := Ideal) p i) 16 from rfl).trans (BitVec.xor_comm _ _))
/-- Mixing step 8, rotation 24. -/
theorem tfr_8 (p : P) (i : I2) : ((res_main_call0_call0_v61 (F := Ideal) p i, res_main_call0_call0_v67 (F := Ideal) p i) : BitVec 32 × BitVec 32) = Cert.Spec.mix (res_main_call0_call0_v54 (F := Ideal) p i, res_main_call0_call0_v60 (F := Ideal) p i) 24 :=
  Prod.ext (show (res_main_call0_call0_v61 (F := Ideal) p i : BitVec 32) = res_main_call0_call0_v54 (F := Ideal) p i + res_main_call0_call0_v60 (F := Ideal) p i from rfl)
    ((show (res_main_call0_call0_v67 (F := Ideal) p i : BitVec 32) = (res_main_call0_call0_v54 (F := Ideal) p i + res_main_call0_call0_v60 (F := Ideal) p i) ^^^ Cert.Spec.rotl (res_main_call0_call0_v60 (F := Ideal) p i) 24 from rfl).trans (BitVec.xor_comm _ _))
/-- Key injection 2. -/
theorem tfi_2 (p : P) (i : I2) : ((res_main_call0_call0_v69 (F := Ideal) p i, res_main_call0_call0_v73 (F := Ideal) p i) : BitVec 32 × BitVec 32) = Cert.Spec.inject (res_main_call0_call0_v61 (F := Ideal) p i, res_main_call0_call0_v67 (F := Ideal) p i) (0#32 ^^^ 42#32 ^^^ 0x1BD11BDA#32) (0#32 + 2#32) :=
  Prod.ext
    ((show (res_main_call0_call0_v69 (F := Ideal) p i : BitVec 32) = res_main_call0_call0_v61 (F := Ideal) p i + broadcastInDim S1048576x32 ![] bcast_S_S1048576x32 (res_main_call0_call0_v1 (F := Ideal) p) i from rfl).trans (by rw [bc_key, key2]; first | done | rfl))
    ((show (res_main_call0_call0_v73 (F := Ideal) p i : BitVec 32) = res_main_call0_call0_v67 (F := Ideal) p i + broadcastInDim S1048576x32 ![] bcast_S_S1048576x32 (res_main_call0_v5 (F := Ideal) p) i + 2#32 from rfl).trans (by rw [bc_key, key0, BitVec.add_assoc]; first | done | rfl))
/-- Mixing step 9, rotation 13. -/
theorem tfr_9 (p : P) (i : I2) : ((res_main_call0_call0_v74 (F := Ideal) p i, res_main_call0_call0_v80 (F := Ideal) p i) : BitVec 32 × BitVec 32) = Cert.Spec.mix (res_main_call0_call0_v69 (F := Ideal) p i, res_main_call0_call0_v73 (F := Ideal) p i) 13 :=
  Prod.ext (show (res_main_call0_call0_v74 (F := Ideal) p i : BitVec 32) = res_main_call0_call0_v69 (F := Ideal) p i + res_main_call0_call0_v73 (F := Ideal) p i from rfl)
    ((show (res_main_call0_call0_v80 (F := Ideal) p i : BitVec 32) = (res_main_call0_call0_v69 (F := Ideal) p i + res_main_call0_call0_v73 (F := Ideal) p i) ^^^ Cert.Spec.rotl (res_main_call0_call0_v73 (F := Ideal) p i) 13 from rfl).trans (BitVec.xor_comm _ _))
/-- Mixing step 10, rotation 15. -/
theorem tfr_10 (p : P) (i : I2) : ((res_main_call0_call0_v81 (F := Ideal) p i, res_main_call0_call0_v87 (F := Ideal) p i) : BitVec 32 × BitVec 32) = Cert.Spec.mix (res_main_call0_call0_v74 (F := Ideal) p i, res_main_call0_call0_v80 (F := Ideal) p i) 15 :=
  Prod.ext (show (res_main_call0_call0_v81 (F := Ideal) p i : BitVec 32) = res_main_call0_call0_v74 (F := Ideal) p i + res_main_call0_call0_v80 (F := Ideal) p i from rfl)
    ((show (res_main_call0_call0_v87 (F := Ideal) p i : BitVec 32) = (res_main_call0_call0_v74 (F := Ideal) p i + res_main_call0_call0_v80 (F := Ideal) p i) ^^^ Cert.Spec.rotl (res_main_call0_call0_v80 (F := Ideal) p i) 15 from rfl).trans (BitVec.xor_comm _ _))
/-- Mixing step 11, rotation 26. -/
theorem tfr_11 (p : P) (i : I2) : ((res_main_call0_call0_v88 (F := Ideal) p i, res_main_call0_call0_v94 (F := Ideal) p i) : BitVec 32 × BitVec 32) = Cert.Spec.mix (res_main_call0_call0_v81 (F := Ideal) p i, res_main_call0_call0_v87 (F := Ideal) p i) 26 :=
  Prod.ext (show (res_main_call0_call0_v88 (F := Ideal) p i : BitVec 32) = res_main_call0_call0_v81 (F := Ideal) p i + res_main_call0_call0_v87 (F := Ideal) p i from rfl)
    ((show (res_main_call0_call0_v94 (F := Ideal) p i : BitVec 32) = (res_main_call0_call0_v81 (F := Ideal) p i + res_main_call0_call0_v87 (F := Ideal) p i) ^^^ Cert.Spec.rotl (res_main_call0_call0_v87 (F := Ideal) p i) 26 from rfl).trans (BitVec.xor_comm _ _))
/-- Mixing step 12, rotation 6. -/
theorem tfr_12 (p : P) (i : I2) : ((res_main_call0_call0_v95 (F := Ideal) p i, res_main_call0_call0_v101 (F := Ideal) p i) : BitVec 32 × BitVec 32) = Cert.Spec.mix (res_main_call0_call0_v88 (F := Ideal) p i, res_main_call0_call0_v94 (F := Ideal) p i) 6 :=
  Prod.ext (show (res_main_call0_call0_v95 (F := Ideal) p i : BitVec 32) = res_main_call0_call0_v88 (F := Ideal) p i + res_main_call0_call0_v94 (F := Ideal) p i from rfl)
    ((show (res_main_call0_call0_v101 (F := Ideal) p i : BitVec 32) = (res_main_call0_call0_v88 (F := Ideal) p i + res_main_call0_call0_v94 (F := Ideal) p i) ^^^ Cert.Spec.rotl (res_main_call0_call0_v94 (F := Ideal) p i) 6 from rfl).trans (BitVec.xor_comm _ _))
/-- Key injection 3. -/
theorem tfi_3 (p : P) (i : I2) : ((res_main_call0_call0_v103 (F := Ideal) p i, res_main_call0_call0_v107 (F := Ideal) p i) : BitVec 32 × BitVec 32) = Cert.Spec.inject (res_main_call0_call0_v95 (F := Ideal) p i, res_main_call0_call0_v101 (F := Ideal) p i) 0#32 (42#32 + 3#32) :=
  Prod.ext
    ((show (res_main_call0_call0_v103 (F := Ideal) p i : BitVec 32) = res_main_call0_call0_v95 (F := Ideal) p i + broadcastInDim S1048576x32 ![] bcast_S_S1048576x32 (res_main_call0_v5 (F := Ideal) p) i from rfl).trans (by rw [bc_key, key0]; first | done | rfl))
    ((show (res_main_call0_call0_v107 (F := Ideal) p i : BitVec 32) = res_main_call0_call0_v101 (F := Ideal) p i + broadcastInDim S1048576x32 ![] bcast_S_S1048576x32 (res_main_call0_v7 (F := Ideal) p) i + 3#32 from rfl).trans (by rw [bc_key, key1, BitVec.add_assoc]; first | done | rfl))
/-- Mixing step 13, rotation 17. -/
theorem tfr_13 (p : P) (i : I2) : ((res_main_call0_call0_v108 (F := Ideal) p i, res_main_call0_call0_v114 (F := Ideal) p i) : BitVec 32 × BitVec 32) = Cert.Spec.mix (res_main_call0_call0_v103 (F := Ideal) p i, res_main_call0_call0_v107 (F := Ideal) p i) 17 :=
  Prod.ext (show (res_main_call0_call0_v108 (F := Ideal) p i : BitVec 32) = res_main_call0_call0_v103 (F := Ideal) p i + res_main_call0_call0_v107 (F := Ideal) p i from rfl)
    ((show (res_main_call0_call0_v114 (F := Ideal) p i : BitVec 32) = (res_main_call0_call0_v103 (F := Ideal) p i + res_main_call0_call0_v107 (F := Ideal) p i) ^^^ Cert.Spec.rotl (res_main_call0_call0_v107 (F := Ideal) p i) 17 from rfl).trans (BitVec.xor_comm _ _))
/-- Mixing step 14, rotation 29. -/
theorem tfr_14 (p : P) (i : I2) : ((res_main_call0_call0_v115 (F := Ideal) p i, res_main_call0_call0_v121 (F := Ideal) p i) : BitVec 32 × BitVec 32) = Cert.Spec.mix (res_main_call0_call0_v108 (F := Ideal) p i, res_main_call0_call0_v114 (F := Ideal) p i) 29 :=
  Prod.ext (show (res_main_call0_call0_v115 (F := Ideal) p i : BitVec 32) = res_main_call0_call0_v108 (F := Ideal) p i + res_main_call0_call0_v114 (F := Ideal) p i from rfl)
    ((show (res_main_call0_call0_v121 (F := Ideal) p i : BitVec 32) = (res_main_call0_call0_v108 (F := Ideal) p i + res_main_call0_call0_v114 (F := Ideal) p i) ^^^ Cert.Spec.rotl (res_main_call0_call0_v114 (F := Ideal) p i) 29 from rfl).trans (BitVec.xor_comm _ _))
/-- Mixing step 15, rotation 16. -/
theorem tfr_15 (p : P) (i : I2) : ((res_main_call0_call0_v122 (F := Ideal) p i, res_main_call0_call0_v128 (F := Ideal) p i) : BitVec 32 × BitVec 32) = Cert.Spec.mix (res_main_call0_call0_v115 (F := Ideal) p i, res_main_call0_call0_v121 (F := Ideal) p i) 16 :=
  Prod.ext (show (res_main_call0_call0_v122 (F := Ideal) p i : BitVec 32) = res_main_call0_call0_v115 (F := Ideal) p i + res_main_call0_call0_v121 (F := Ideal) p i from rfl)
    ((show (res_main_call0_call0_v128 (F := Ideal) p i : BitVec 32) = (res_main_call0_call0_v115 (F := Ideal) p i + res_main_call0_call0_v121 (F := Ideal) p i) ^^^ Cert.Spec.rotl (res_main_call0_call0_v121 (F := Ideal) p i) 16 from rfl).trans (BitVec.xor_comm _ _))
/-- Mixing step 16, rotation 24. -/
theorem tfr_16 (p : P) (i : I2) : ((res_main_call0_call0_v129 (F := Ideal) p i, res_main_call0_call0_v135 (F := Ideal) p i) : BitVec 32 × BitVec 32) = Cert.Spec.mix (res_main_call0_call0_v122 (F := Ideal) p i, res_main_call0_call0_v128 (F := Ideal) p i) 24 :=
  Prod.ext (show (res_main_call0_call0_v129 (F := Ideal) p i : BitVec 32) = res_main_call0_call0_v122 (F := Ideal) p i + res_main_call0_call0_v128 (F := Ideal) p i from rfl)
    ((show (res_main_call0_call0_v135 (F := Ideal) p i : BitVec 32) = (res_main_call0_call0_v122 (F := Ideal) p i + res_main_call0_call0_v128 (F := Ideal) p i) ^^^ Cert.Spec.rotl (res_main_call0_call0_v128 (F := Ideal) p i) 24 from rfl).trans (BitVec.xor_comm _ _))
/-- Key injection 4. -/
theorem tfi_4 (p : P) (i : I2) : ((res_main_call0_call0_v137 (F := Ideal) p i, res_main_call0_call0_v141 (F := Ideal) p i) : BitVec 32 × BitVec 32) = Cert.Spec.inject (res_main_call0_call0_v129 (F := Ideal) p i, res_main_call0_call0_v135 (F := Ideal) p i) 42#32 ((0#32 ^^^ 42#32 ^^^ 0x1BD11BDA#32) + 4#32) :=
  Prod.ext
    ((show (res_main_call0_call0_v137 (F := Ideal) p i : BitVec 32) = res_main_call0_call0_v129 (F := Ideal) p i + broadcastInDim S1048576x32 ![] bcast_S_S1048576x32 (res_main_call0_v7 (F := Ideal) p) i from rfl).trans (by rw [bc_key, key1]; first | done | rfl))
    ((show (res_main_call0_call0_v141 (F := Ideal) p i : BitVec 32) = res_main_call0_call0_v135 (F := Ideal) p i + broadcastInDim S1048576x32 ![] bcast_S_S1048576x32 (res_main_call0_call0_v1 (F := Ideal) p) i + 4#32 from rfl).trans (by rw [bc_key, key2, BitVec.add_assoc]; first | done | rfl))
/-- Mixing step 17, rotation 13. -/
theorem tfr_17 (p : P) (i : I2) : ((res_main_call0_call0_v142 (F := Ideal) p i, res_main_call0_call0_v148 (F := Ideal) p i) : BitVec 32 × BitVec 32) = Cert.Spec.mix (res_main_call0_call0_v137 (F := Ideal) p i, res_main_call0_call0_v141 (F := Ideal) p i) 13 :=
  Prod.ext (show (res_main_call0_call0_v142 (F := Ideal) p i : BitVec 32) = res_main_call0_call0_v137 (F := Ideal) p i + res_main_call0_call0_v141 (F := Ideal) p i from rfl)
    ((show (res_main_call0_call0_v148 (F := Ideal) p i : BitVec 32) = (res_main_call0_call0_v137 (F := Ideal) p i + res_main_call0_call0_v141 (F := Ideal) p i) ^^^ Cert.Spec.rotl (res_main_call0_call0_v141 (F := Ideal) p i) 13 from rfl).trans (BitVec.xor_comm _ _))
/-- Mixing step 18, rotation 15. -/
theorem tfr_18 (p : P) (i : I2) : ((res_main_call0_call0_v149 (F := Ideal) p i, res_main_call0_call0_v155 (F := Ideal) p i) : BitVec 32 × BitVec 32) = Cert.Spec.mix (res_main_call0_call0_v142 (F := Ideal) p i, res_main_call0_call0_v148 (F := Ideal) p i) 15 :=
  Prod.ext (show (res_main_call0_call0_v149 (F := Ideal) p i : BitVec 32) = res_main_call0_call0_v142 (F := Ideal) p i + res_main_call0_call0_v148 (F := Ideal) p i from rfl)
    ((show (res_main_call0_call0_v155 (F := Ideal) p i : BitVec 32) = (res_main_call0_call0_v142 (F := Ideal) p i + res_main_call0_call0_v148 (F := Ideal) p i) ^^^ Cert.Spec.rotl (res_main_call0_call0_v148 (F := Ideal) p i) 15 from rfl).trans (BitVec.xor_comm _ _))
/-- Mixing step 19, rotation 26. -/
theorem tfr_19 (p : P) (i : I2) : ((res_main_call0_call0_v156 (F := Ideal) p i, res_main_call0_call0_v162 (F := Ideal) p i) : BitVec 32 × BitVec 32) = Cert.Spec.mix (res_main_call0_call0_v149 (F := Ideal) p i, res_main_call0_call0_v155 (F := Ideal) p i) 26 :=
  Prod.ext (show (res_main_call0_call0_v156 (F := Ideal) p i : BitVec 32) = res_main_call0_call0_v149 (F := Ideal) p i + res_main_call0_call0_v155 (F := Ideal) p i from rfl)
    ((show (res_main_call0_call0_v162 (F := Ideal) p i : BitVec 32) = (res_main_call0_call0_v149 (F := Ideal) p i + res_main_call0_call0_v155 (F := Ideal) p i) ^^^ Cert.Spec.rotl (res_main_call0_call0_v155 (F := Ideal) p i) 26 from rfl).trans (BitVec.xor_comm _ _))
/-- Mixing step 20, rotation 6. -/
theorem tfr_20 (p : P) (i : I2) : ((res_main_call0_call0_v163 (F := Ideal) p i, res_main_call0_call0_v169 (F := Ideal) p i) : BitVec 32 × BitVec 32) = Cert.Spec.mix (res_main_call0_call0_v156 (F := Ideal) p i, res_main_call0_call0_v162 (F := Ideal) p i) 6 :=
  Prod.ext (show (res_main_call0_call0_v163 (F := Ideal) p i : BitVec 32) = res_main_call0_call0_v156 (F := Ideal) p i + res_main_call0_call0_v162 (F := Ideal) p i from rfl)
    ((show (res_main_call0_call0_v169 (F := Ideal) p i : BitVec 32) = (res_main_call0_call0_v156 (F := Ideal) p i + res_main_call0_call0_v162 (F := Ideal) p i) ^^^ Cert.Spec.rotl (res_main_call0_call0_v162 (F := Ideal) p i) 6 from rfl).trans (BitVec.xor_comm _ _))
/-- Key injection 5. -/
theorem tfi_5 (p : P) (i : I2) : ((res_main_call0_v19_0 (F := Ideal) p i, res_main_call0_v19_1 (F := Ideal) p i) : BitVec 32 × BitVec 32) = Cert.Spec.inject (res_main_call0_call0_v163 (F := Ideal) p i, res_main_call0_call0_v169 (F := Ideal) p i) (0#32 ^^^ 42#32 ^^^ 0x1BD11BDA#32) (0#32 + 5#32) :=
  Prod.ext
    ((show (res_main_call0_v19_0 (F := Ideal) p i : BitVec 32) = res_main_call0_call0_v163 (F := Ideal) p i + broadcastInDim S1048576x32 ![] bcast_S_S1048576x32 (res_main_call0_call0_v1 (F := Ideal) p) i from rfl).trans (by rw [bc_key, key2]; first | done | rfl))
    ((show (res_main_call0_v19_1 (F := Ideal) p i : BitVec 32) = res_main_call0_call0_v169 (F := Ideal) p i + broadcastInDim S1048576x32 ![] bcast_S_S1048576x32 (res_main_call0_v5 (F := Ideal) p) i + 5#32 from rfl).trans (by rw [bc_key, key0, BitVec.add_assoc]; first | done | rfl))

/-- The block function's two output words at (r, j) are Threefry-2x32 with key (0, 42) on the counter (0, 32 r + j). -/
theorem tf_total (p : P) (i : I2) : ((res_main_call0_v19_0 (F := Ideal) p i, res_main_call0_v19_1 (F := Ideal) p i) : BitVec 32 × BitVec 32)
    = Cert.Spec.threefry 0#32 42#32 0#32 (BitVec.ofNat 32 (32 * (i 0).val + (i 1).val)) := by
  rw [tfi_5 p i, tfr_20 p i, tfr_19 p i, tfr_18 p i, tfr_17 p i, tfi_4 p i, tfr_16 p i, tfr_15 p i, tfr_14 p i, tfr_13 p i, tfi_3 p i, tfr_12 p i, tfr_11 p i, tfr_10 p i, tfr_9 p i, tfi_2 p i, tfr_8 p i, tfr_7 p i, tfr_6 p i, tfr_5 p i, tfi_1 p i, tfr_4 p i, tfr_3 p i, tfr_2 p i, tfr_1 p i, tf_init p i]
  rfl

/-- The random word at (r, j). -/
theorem bits_eq (p : P) (i : I2) : (res_main_call0_v20 (F := Ideal) p i : BitVec 32) = Cert.Spec.bits (BitVec.ofNat 32 (32 * (i 0).val + (i 1).val)) := by
  have h := tf_total p i
  have h0 : (res_main_call0_v19_0 (F := Ideal) p i : BitVec 32) = (Cert.Spec.threefry 0#32 42#32 0#32 (BitVec.ofNat 32 (32 * (i 0).val + (i 1).val))).1 := congrArg Prod.fst h
  have h1 : (res_main_call0_v19_1 (F := Ideal) p i : BitVec 32) = (Cert.Spec.threefry 0#32 42#32 0#32 (BitVec.ofNat 32 (32 * (i 0).val + (i 1).val))).2 := congrArg Prod.snd h
  show (res_main_call0_v19_0 (F := Ideal) p i ^^^ res_main_call0_v19_1 (F := Ideal) p i : BitVec 32) = _
  rw [h0, h1]
  rfl

/-- The 23-bit integer at (r, j). -/
theorem mant_eq (p : P) (i : I2) : (res_main_call0_v22 (F := Ideal) p i : BitVec 32) = Cert.Spec.mant (BitVec.ofNat 32 (32 * (i 0).val + (i 1).val)) :=
  (show (res_main_call0_v22 (F := Ideal) p i : BitVec 32) = res_main_call0_v20 (F := Ideal) p i >>> 9 from rfl).trans (by rw [bits_eq]; first | done | rfl)

/-- It is below 2²³. -/
theorem mant_lt (lo : BitVec 32) : (Cert.Spec.mant lo).toNat < 8388608 := by
  unfold Cert.Spec.mant
  rw [BitVec.toNat_ushiftRight, Nat.shiftRight_eq_div_pow]
  have := (Cert.Spec.bits lo).isLt
  omega

end Cert.RefSide

end
-- ==== Proof.LibUniformThreshold.lean ====
/-
  A uniform variate against a probability, as an integer comparison.

  jax draws a uniform variate in [0, 1) from a random word by keeping its top 23 bits `m`, writing them as the
  mantissa of a float in [1, 2) (the pattern `m ||| 0x3F800000`, whose value is `1 + m / 2²³`) and subtracting one:
  the variate is `m / 2²³`. For an extended real `p` the test `m / 2²³ < p` is the integer test
  `m < ⌈clip (p · 2²³) 0 2²³⌉`: the clip changes nothing because `0 ≤ m < 2²³`, and for an integer `m` and a real
  `x ≥ 0`, `m < x ↔ m < ⌈x⌉`. The ceiling is computed as the truncation plus one when the truncation is below `x`.
  These are statements about the extended reals and 32-bit words only; no program is mentioned.
-/
import Idealize.ShloMosaic.PureOps.Ideal

noncomputable section

namespace Cert.UniformThreshold

open Idealize.ShloMosaic

/-- The f32 word `0x4B000000` denotes 2²³. -/
theorem ofBits_two23 : Ideal.ofBits .f32 0x4B000000#32 = ((8388608 : ℝ) : EReal) := by
  simp [Ideal.ofBits, Ideal.ieee, -EReal.coe_mul]

/-- The f32 word `0x3F800000` denotes 1. -/
theorem ofBits_one : Ideal.ofBits .f32 0x3F800000#32 = ((1 : ℝ) : EReal) := by
  simp [Ideal.ofBits, Ideal.ieee, -EReal.coe_mul]; norm_num

/-- A 23-bit integer `m` written as the mantissa of a float in [1, 2) denotes `1 + m / 2²³`. -/
theorem ofBits_mantissa (m : BitVec 32) (hm : m.toNat < 8388608) :
    Ideal.ofBits .f32 (m ||| 0x3F800000#32) = (((1 : ℝ) + (m.toNat : ℝ) / 8388608 : ℝ) : EReal) := by
  have hx : (m ||| 0x3F800000#32).toNat = 1065353216 + m.toNat := by
    rw [BitVec.toNat_or, Nat.or_comm]
    have h := Nat.shiftLeft_add_eq_or_of_lt (a := 127) (i := 23) (b := m.toNat) (by simpa using hm)
    simpa using h.symm
  have hs : (m ||| 0x3F800000#32).extractLsb' 31 1 = 0#1 := by
    apply BitVec.eq_of_toNat_eq
    rw [BitVec.extractLsb'_toNat, hx, Nat.shiftRight_eq_div_pow]
    simp; omega
  have he : ((m ||| 0x3F800000#32).extractLsb' 23 8).toNat = 127 := by
    rw [BitVec.extractLsb'_toNat, hx, Nat.shiftRight_eq_div_pow]
    omega
  have hf : ((m ||| 0x3F800000#32).extractLsb' 0 23).toNat = m.toNat := by
    rw [BitVec.extractLsb'_toNat, hx, Nat.shiftRight_eq_div_pow]
    omega
  have hs' : (m ||| 0x3F800000#32).extractLsb' (8 + 23) 1 = 0#1 := hs
  simp only [Ideal.ofBits, Ideal.ieee, he, hf, hs']
  rw [if_neg (by norm_num), if_neg (by norm_num)]
  refine congrArg _ ?_
  have hz : (0#1 == 1#1) = false := by decide
  rw [hz]
  norm_num
  ring

/-- `clip (p · 2²³) 0 2²³`, spelt as the programs do: the maximum with zero first, then the minimum with 2²³. -/
def clipped (p : EReal) : EReal := min ((8388608 : ℝ) : EReal) (max 0 (p * ((8388608 : ℝ) : EReal)))

/-- The threshold word: the truncation of the clipped value, plus one when the truncation (read back as a real) is
    below the clipped value, that is `⌈clipped p⌉`. -/
def thresh (p : EReal) : BitVec 32 :=
  Ideal.fptosi 32 (clipped p)
    + (BitVec.ofBool (decide ((((Ideal.fptosi 32 (clipped p)).toInt : ℝ) : EReal) < clipped p))).setWidth 32

/-- For a real `x` with `0 ≤ x ≤ 2²³` the truncation word of `x`, plus one when the truncation read back as a real
    is below `x`, is the ceiling of `x` (as a natural number; nothing wraps because `⌈x⌉ ≤ 2²³`). -/
theorem ceilWord_toNat (x : ℝ) (h0 : 0 ≤ x) (h1 : x ≤ 8388608) :
    ((Ideal.fptosi 32 (x : EReal)
        + (BitVec.ofBool (decide ((((Ideal.fptosi 32 (x : EReal)).toInt : ℝ) : EReal) < (x : EReal)))).setWidth 32).toNat
      : ℤ) = ⌈x⌉ := by
  have hf0 : 0 ≤ ⌊x⌋ := Int.floor_nonneg.mpr h0
  have hf1 : ⌊x⌋ ≤ 8388608 := by
    have h := Int.floor_le_floor h1
    simpa using h
  have hfp : Ideal.fptosi 32 (x : EReal) = BitVec.ofInt 32 ⌊x⌋ := by
    simp only [Ideal.fptosi, Ideal.toIntClamped_coe, if_pos h0]
    congr 1
    omega
  have hti : (BitVec.ofInt 32 ⌊x⌋).toInt = ⌊x⌋ :=
    BitVec.toInt_ofInt_eq_self (by norm_num) (by norm_num; omega) (by norm_num; omega)
  rw [hfp, hti]
  obtain ⟨n, hn⟩ := Int.eq_ofNat_of_zero_le hf0
  have hn1 : n ≤ 8388608 := by omega
  by_cases hlt : ((⌊x⌋ : ℤ) : ℝ) < x
  · have hd : decide ((((⌊x⌋ : ℤ) : ℝ) : EReal) < (x : EReal)) = true := by
      simpa [EReal.coe_lt_coe_iff] using hlt
    have hc : ⌈x⌉ = ⌊x⌋ + 1 := by
      have h2 : ⌊x⌋ < ⌈x⌉ := Int.lt_ceil.mpr hlt
      have h3 : ⌈x⌉ ≤ ⌊x⌋ + 1 := Int.ceil_le.mpr (by push_cast; exact (Int.lt_floor_add_one x).le)
      omega
    rw [hd, hc, hn, BitVec.ofInt_natCast, BitVec.toNat_add, BitVec.toNat_ofNat]
    simp
    omega
  · have hd : decide ((((⌊x⌋ : ℤ) : ℝ) : EReal) < (x : EReal)) = false := by
      simpa [EReal.coe_lt_coe_iff] using hlt
    have hc : ⌈x⌉ = ⌊x⌋ := by
      have h2 : ⌈x⌉ ≤ ⌊x⌋ := Int.ceil_le.mpr (not_lt.mp hlt)
      have h3 : ⌊x⌋ ≤ ⌈x⌉ := Int.floor_le_ceil x
      omega
    rw [hd, hc, hn, BitVec.ofInt_natCast, BitVec.toNat_add, BitVec.toNat_ofNat]
    simp
    omega

/-- The clipped value is a real `x` in `[0, 2²³]`, and a natural number `n < 2²³` is below `x` exactly when
    `n / 2²³ < p`: at `⊥` the product is `⊥` and `x = 0`; at `⊤` it is `⊤` and `x = 2²³`; at a real `r`,
    `x = min 2²³ (max 0 (r · 2²³))` and the clip changes nothing for `0 ≤ n < 2²³`. -/
theorem clipped_spec (p : EReal) :
    ∃ x : ℝ, 0 ≤ x ∧ x ≤ 8388608 ∧ clipped p = (x : EReal) ∧
      ∀ n : ℕ, n < 8388608 → ((n : ℝ) < x ↔ (((n : ℝ) / 8388608 : ℝ) : EReal) < p) := by
  induction p using EReal.rec with
  | bot =>
    refine ⟨0, le_refl _, by norm_num, ?_, ?_⟩
    · rw [clipped, EReal.bot_mul_coe_of_pos (by norm_num)]
      simp
    · intro n _
      simp
  | coe r =>
    refine ⟨min 8388608 (max 0 (r * 8388608)), le_min (by norm_num) (le_max_left _ _), min_le_left _ _, ?_, ?_⟩
    · rw [clipped, EReal.coe_strictMono.monotone.map_min, EReal.coe_strictMono.monotone.map_max, EReal.coe_mul,
        EReal.coe_zero]
    · intro n hn
      have h2 : (n : ℝ) < 8388608 := by exact_mod_cast hn
      have h3 : (0 : ℝ) ≤ n := Nat.cast_nonneg n
      rw [EReal.coe_lt_coe_iff, lt_min_iff, lt_max_iff, div_lt_iff₀ (by norm_num)]
      constructor
      · rintro ⟨_, h | h⟩
        · linarith
        · exact h
      · intro h
        exact ⟨h2, Or.inr h⟩
  | top =>
    refine ⟨8388608, by norm_num, le_refl _, ?_, ?_⟩
    · rw [clipped, EReal.top_mul_coe_of_pos (by norm_num)]
      simp
    · intro n hn
      have h2 : (n : ℝ) < 8388608 := by exact_mod_cast hn
      simpa [EReal.coe_lt_top] using h2

/-- The variate `m / 2²³` of a 23-bit integer `m` is below `p` exactly when `m` is below the threshold word
    (unsigned comparison of words). No finiteness of `p` is needed. -/
theorem lt_thresh_iff (p : EReal) (m : BitVec 32) (hm : m.toNat < 8388608) :
    m < thresh p ↔ ((((m.toNat : ℝ) / 8388608 : ℝ)) : EReal) < p := by
  obtain ⟨x, h0, h1, hc, hx⟩ := clipped_spec p
  have h := ceilWord_toNat x h0 h1
  rw [BitVec.lt_def, ← hx m.toNat hm, thresh, hc, ← Int.ofNat_lt, h, Int.lt_ceil]
  simp

end Cert.UniformThreshold

end
-- ==== Proof.RefValueBit.lean ====
/-
  One bit of a row of the reference's result. At (r, j) the sampler writes the 23-bit integer m = `Spec.mant (32 r + j)` as
  the mantissa of a float in [1, 2), subtracts one, scales by (1 - 0), adds 0 and takes the maximum with 0: the uniform
  variate m / 2²³. The program compares it with the probability, widens the bit to a word and shifts it left by j (the
  iota along the bit axis): that is `Spec.bitOf` at the threshold word of the probability, since m / 2²³ < p exactly when
  m is below the threshold.
-/
import proofs.«203736_g78743930405654_cont_9to1c4b_297_23_alg».proof.Proof.RefValueTf
import proofs.«203736_g78743930405654_cont_9to1c4b_297_23_alg».proof.Proof.LibUniformThreshold
import Idealize.ShloMosaic.PureOps.Ideal.Laws
import Idealize.ShloMosaic.Lib.KernelVsHost
import Idealize.ShloMosaic.Lib.ValueLayout
import Idealize.ShloMosaic.Lib.Pipeline.Value

noncomputable section

namespace Cert.RefSide

open Cert.ReferenceIdeal Cert.ReferenceIdeal.Gen Idealize.ShloMosaic Idealize.ShloMosaic.ValueIdx Cert.UniformThreshold

-- the float constants' values and the random words are never computed here: equations between them are by their names
attribute [local irreducible] Ideal.ofBits Ideal.ieee Cert.Spec.mant Cert.Spec.bits Cert.Spec.threefry

/-! ## Reading the operations at an index -/

theorem bitcast_apply {s : Shape} (x : IVec s 32) (i : s.Idx) : (bitcastToFloat (F := Ideal) .f32 x i : EReal) = Ideal.ofBits .f32 (x i) := rfl
theorem ori_apply {s : Shape} {w : Nat} (a b : IVec s w) (i : s.Idx) : ori a b i = a i ||| b i := rfl
theorem constantI_apply {s : Shape} {w : Nat} (b : BitVec w) (i : s.Idx) : constantI s w b i = b := rfl
/-- A 1×1 array broadcast over the sampler's shape reads its one element everywhere. -/
theorem bc11_apply {α : Type} (x : S1x1.Idx → α) (i : I2) :
    broadcastInDim S1048576x32 ![0, 1] bcast_S1x1_S1048576x32_0_1 x i = x (ix2 (0 : Fin 1) (0 : Fin 1)) :=
  broadcastInDim_apply _ _ x i _ (fun a => match a with | ⟨0, _⟩ => rfl | ⟨1, _⟩ => rfl)

/-! ## The uniform variate -/

/-- The sampler's lower bound, 0.0, as a 1×1 array. -/
theorem lo11 (p : P) (k : S1x1.Idx) : (res_main_call0_v2 (F := Ideal) p k : EReal) = Ideal.ofBits .f32 0x00000000#32 :=
  (broadcastInDim_scalar_apply bcast_S_S1x1 (res_main_call0_v0 (F := Ideal) p) k).trans (constant_apply (s := S_) (φ := .f32) 0x00000000#32 ix0)
/-- The sampler's upper bound, 1.0, as a 1×1 array. -/
theorem hi11 (p : P) (k : S1x1.Idx) : (res_main_call0_v3 (F := Ideal) p k : EReal) = Ideal.ofBits .f32 0x3F800000#32 :=
  (broadcastInDim_scalar_apply bcast_S_S1x1 (res_main_call0_v1 (F := Ideal) p) k).trans (constant_apply (s := S_) (φ := .f32) 0x3F800000#32 ix0)

/-- The uniform variate at (r, j): the 23-bit integer over 2²³. -/
theorem unif_eq (p : P) (i : I2) :
    (res_main_v7 (F := Ideal) p i : EReal) = ((((Cert.Spec.mant (BitVec.ofNat 32 (32 * (i 0).val + (i 1).val))).toNat : ℝ) / 8388608 : ℝ) : EReal) := by
  have e23 : (res_main_call0_v23 (F := Ideal) p i : BitVec 32) = 1065353216#32 :=
    (broadcastInDim_scalar_apply bcast_S_S1048576x32 (res_main_call0_c_3 (F := Ideal) p) i).trans (constantI_apply (s := S_) 1065353216#32 ix0)
  have e24 : (res_main_call0_v24 (F := Ideal) p i : BitVec 32) = res_main_call0_v22 (F := Ideal) p i ||| res_main_call0_v23 (F := Ideal) p i := ori_apply _ _ i
  have e25 : (res_main_call0_v25 (F := Ideal) p i : EReal) = Ideal.ofBits .f32 (res_main_call0_v24 (F := Ideal) p i) := bitcast_apply _ i
  have e26 : (res_main_call0_v26 (F := Ideal) p i : EReal) = Ideal.ofBits .f32 0x3F800000#32 :=
    (broadcastInDim_scalar_apply bcast_S_S1048576x32 (res_main_call0_cst (F := Ideal) p) i).trans (constant_apply (s := S_) (φ := .f32) 0x3F800000#32 ix0)
  have e27 : (res_main_call0_v27 (F := Ideal) p i : EReal) = res_main_call0_v25 (F := Ideal) p i - res_main_call0_v26 (F := Ideal) p i := subf_apply _ _ i
  have e28 : ∀ k : S1x1.Idx, (res_main_call0_v28 (F := Ideal) p k : EReal) = res_main_call0_v3 (F := Ideal) p k - res_main_call0_v2 (F := Ideal) p k := fun k => subf_apply _ _ k
  have e29 : (res_main_call0_v29 (F := Ideal) p i : EReal) = res_main_call0_v28 (F := Ideal) p (ix2 (0 : Fin 1) (0 : Fin 1)) := bc11_apply _ i
  have e30 : (res_main_call0_v30 (F := Ideal) p i : EReal) = res_main_call0_v27 (F := Ideal) p i * res_main_call0_v29 (F := Ideal) p i := mulf_apply _ _ i
  have e31 : (res_main_call0_v31 (F := Ideal) p i : EReal) = res_main_call0_v2 (F := Ideal) p (ix2 (0 : Fin 1) (0 : Fin 1)) := bc11_apply _ i
  have e32 : (res_main_call0_v32 (F := Ideal) p i : EReal) = res_main_call0_v30 (F := Ideal) p i + res_main_call0_v31 (F := Ideal) p i := addf_apply _ _ i
  have e33 : (res_main_call0_v33 (F := Ideal) p i : EReal) = res_main_call0_v2 (F := Ideal) p (ix2 (0 : Fin 1) (0 : Fin 1)) := bc11_apply _ i
  have e7 : (res_main_v7 (F := Ideal) p i : EReal) = max (res_main_call0_v33 (F := Ideal) p i) (res_main_call0_v32 (F := Ideal) p i) := maximumf_apply _ _ i
  rw [e7, e33, e32, e31, e30, e29, e28, e27, e26, e25, e24, e23, lo11, hi11, mant_eq, ofBits_mantissa _ (mant_lt _), ofBits_one, Ideal.ofBits_zero_f32]
  have hx : (0 : ℝ) ≤ ((Cert.Spec.mant (BitVec.ofNat 32 (32 * (i 0).val + (i 1).val))).toNat : ℝ) / 8388608 := by positivity
  rw [sub_zero, add_zero, ← EReal.coe_sub, ← EReal.coe_mul, add_sub_cancel_left, mul_one, max_eq_right (EReal.coe_nonneg.2 hx)]

/-- The comparison at (r, j): the 23-bit integer is below the threshold word. -/
theorem cmp_eq (p : P) (i : I2) : (res_main_v9 (F := Ideal) p i : BitVec 1)
    = BitVec.ofBool (decide (Cert.Spec.mant (BitVec.ofNat 32 (32 * (i 0).val + (i 1).val)) < thresh (p ix0))) := by
  have h8 : (res_main_v8 (F := Ideal) p i : EReal) = p ix0 := broadcastInDim_scalar_apply _ _ _
  have h9 : (res_main_v9 (F := Ideal) p i : BitVec 1)
      = BitVec.ofBool (decide ((res_main_v7 (F := Ideal) p i : EReal) < res_main_v8 (F := Ideal) p i)) := rfl
  rw [h9, h8, unif_eq]
  exact congrArg BitVec.ofBool (decide_eq_decide.2 (lt_thresh_iff (p ix0) _ (mant_lt _)).symm)

/-- The shift amount at (r, j): the bit's position j. -/
theorem iota_eq (p : P) (r : Fin 1048576) (t : Fin 32) : (res_main_v13 (F := Ideal) p (ix2 r t) : BitVec 32) = BitVec.ofNat 32 t.val := by
  show (broadcastInDim S1048576x32 ![0, 1] bcast_S1x32_S1048576x32_0_1 (res_main_v12 (F := Ideal) p) (ix2 r t) : BitVec 32) = _
  rw [broadcastInDim_oneRow_apply]
  show (shapeCast S1x32 (res_main_v11 (F := Ideal) p) shapeCasts_S32_S1x32 (ix2 (0 : Fin 1) t) : BitVec 32) = _
  rw [shapeCast_a_1a_apply]
  rfl

/-- A one-bit word widened and shifted left by j < 32 is `1 <<< j` or zero. -/
theorem shl_bit (b : Bool) (t : Fin 32) :
    IntOp.shli .host ((BitVec.ofBool b).setWidth 32) (BitVec.ofNat 32 t.val) = if b then 1#32 <<< t.val else 0#32 := by
  have ht : (BitVec.ofNat 32 t.val).toNat = t.val := by
    rw [BitVec.toNat_ofNat]; exact Nat.mod_eq_of_lt (by have := t.isLt; omega)
  have hlt : (BitVec.ofNat 32 t.val).toNat < 32 := by rw [ht]; exact t.isLt
  have h1 : IntOp.shli .host ((BitVec.ofBool b).setWidth 32) (BitVec.ofNat 32 t.val)
      = (BitVec.ofBool b).setWidth 32 <<< BitVec.ofNat 32 t.val := if_pos hlt
  rw [h1, BitVec.shiftLeft_eq', ht]
  cases b
  · show (BitVec.ofBool false).setWidth 32 <<< t.val = 0#32
    have : (BitVec.ofBool false).setWidth 32 = 0#32 := by decide
    rw [this, BitVec.zero_shiftLeft]
  · show (BitVec.ofBool true).setWidth 32 <<< t.val = 1#32 <<< t.val
    have : (BitVec.ofBool true).setWidth 32 = 1#32 := by decide
    rw [this]

/-- Bit j of row r, as the program computes it, is the specification's. -/
theorem bit_eq (p : P) (r : Fin 1048576) (t : Fin 32) :
    (res_main_v14 (F := Ideal) p (ix2 r t) : BitVec 32) = Cert.Spec.bitOf (thresh (p ix0)) r.val t.val := by
  have h14 : (res_main_v14 (F := Ideal) p (ix2 r t) : BitVec 32)
      = IntOp.shli .host ((res_main_v9 (F := Ideal) p (ix2 r t) : BitVec 1).setWidth 32) (res_main_v13 (F := Ideal) p (ix2 r t)) := rfl
  rw [h14, iota_eq, cmp_eq, shl_bit]
  rfl

end Cert.RefSide

end
-- ==== Proof.RefValue.lean ====
/-
  The reference's result, row by row. The last operation adds the 32 shifted bits of a row, from zero, in some fixed
  order; addition of 32-bit words is commutative and associative, so the row's word is the sum over j of the bits'
  contributions, which is `Spec.word` at the threshold word of the probability.
-/
import proofs.«203736_g78743930405654_cont_9to1c4b_297_23_alg».proof.Proof.RefValueBit
import Idealize.ShloMosaic.PureOps.Reduce

noncomputable section

namespace Cert.RefSide

open Cert.ReferenceIdeal Cert.ReferenceIdeal.Gen Idealize.ShloMosaic Idealize.ShloMosaic.ValueIdx Cert.UniformThreshold
open scoped BigOperators

-- the random words are never computed here
attribute [local irreducible] Cert.Spec.mant Cert.Spec.bits Cert.Spec.threefry Cert.Spec.bitOf

/-- A fold of word addition over a finite set is the initial word plus the sum. -/
theorem fold_addi_eq {ι : Type} (s : Finset ι) (f : ι → BitVec 32) (b : BitVec 32) :
    s.fold IntOp.addi b f = b + ∑ i ∈ s, f i := by
  induction s using Finset.cons_induction with
  | empty => simp
  | cons a S ha ih =>
    rw [Finset.fold_cons, Finset.sum_cons, ih]
    show f a + (b + _) = b + (f a + _)
    rw [add_left_comm]

/-- A sum over the first n naturals is the sum of the list of its terms. -/
theorem sum_range_eq_list (g : ℕ → BitVec 32) (n : ℕ) : ∑ i ∈ Finset.range n, g i = ((List.range n).map g).sum := by
  induction n with
  | zero => simp
  | succ n ih => rw [Finset.sum_range_succ, List.range_succ, List.map_append, List.sum_append, ih]; simp

/-- The source index over row `j` with bit coordinate `k`. -/
theorem lift_eq (hred : S1048576x32.Reduces [1] S1048576) (j : S1048576.Idx) (k : Fin (S1048576x32.size 1)) :
    hred.lift j k = ix2 (n0 := 1048576) (n1 := 32) ⟨(j 0).val, (j 0).isLt⟩ ⟨k.val, k.isLt⟩ := by
  funext c
  match c with
  | ⟨0, _⟩ => exact Fin.ext rfl
  | ⟨1, _⟩ => exact Fin.ext rfl

/-- Row `r` of the reference's result is the specification's word of row `r` at the threshold of the probability. -/
theorem refTerm_eq (p : FVec Ideal S_ .f32) :
    refTerm (F := Ideal) p = fun i => Cert.Spec.word (thresh (p ix0)) (i 0).val := by
  funext j
  have hred : S1048576x32.Reduces [1] S1048576 := by decide
  show Host.reduce IntOp.addi (res_main_v14 (F := Ideal) p) (res_main_c_3 (F := Ideal) p) reducesTo_S1048576x32_S1048576_d1 h_S_ j = _
  rw [Host.reduce_eq_fold_single IntOp.addi _ _ _ hred, fold_addi_eq]
  have hterm : ∀ k : Fin (S1048576x32.size 1), (res_main_v14 (F := Ideal) p ∘ hred.lift j) k = Cert.Spec.bitOf (thresh (p ix0)) (j 0).val k.val := by
    intro k
    show res_main_v14 (F := Ideal) p (hred.lift j k) = _
    rw [lift_eq]
    exact bit_eq p _ _
  have hsum : ∑ k : Fin (S1048576x32.size 1), (res_main_v14 (F := Ideal) p ∘ hred.lift j) k
      = ((List.range 32).map (Cert.Spec.bitOf (thresh (p ix0)) (j 0).val)).sum := by
    rw [Finset.sum_congr rfl (fun k _ => hterm k)]
    exact (Fin.sum_univ_eq_sum_range (fun k => Cert.Spec.bitOf (thresh (p ix0)) (j 0).val k) _).trans (sum_range_eq_list _ _)
  rw [hsum]
  show (0#32 : BitVec 32) + _ = _
  rw [BitVec.zero_add]
  rfl

end Cert.RefSide

end
-- ==== Proof.KernelOutIdealConcat.lean ====
/-
  The concatenation of the flattened 47 × 1 × 16384 array with a 278528-row array, read at a row: a row below 770048 is
  the first array at (row / 16384, 0, row % 16384); a later row is the second array at the row less 770048.
-/
import proofs.«203736_g78743930405654_cont_9to1c4b_297_23_alg».proof.KernelIdeal
import Idealize.ShloMosaic.Lib.Pipeline.Value
import Idealize.ShloMosaic.Lib.ValueIdx

noncomputable section

namespace Cert.KernelOut

open Cert.KernelIdeal
open Idealize.ShloMosaic Idealize.ShloMosaic.ValueIdx

variable [Cert.KernelIdeal.Facts] {α : Type}

/-- A row of the whole result is below 1048576. -/
theorem row_lt (i : S1048576.Idx) : (i 0).val < 1048576 := (i 0).isLt

/-- The flattening of a 47 × 1 × 16384 array read at row `r`: the array at (r / 16384, 0, r % 16384). -/
theorem flat_apply (A : S47x1x16384.Idx → α) (k : S770048.Idx) (hk : (k 0).val < 770048) :
    shapeCast S770048 A Facts₀.shapeCasts_S47x1x16384_S770048 k
      = A (ix3 ⟨(k 0).val / 16384, by omega⟩ ⟨0, Nat.one_pos⟩ ⟨(k 0).val % 16384, Nat.mod_lt _ (by norm_num)⟩) := by
  refine shapeCast_apply A _ k _ ?_
  rw [Shape.rowMajor_val_three, Shape.rowMajor_val_one]
  show ((k 0).val / 16384 * 1 + 0) * 16384 + (k 0).val % 16384 = (k 0).val
  omega

/-- The two halves concatenated, read at a row. -/
theorem concat_apply (A : S47x1x16384.Idx → α) (B : S278528.Idx → α) (i : S1048576.Idx) :
    concatenate S1048576 0 [⟨S770048, shapeCast S770048 A Facts₀.shapeCasts_S47x1x16384_S770048⟩, ⟨S278528, B⟩]
        Facts₀.concatenates_S770048_S278528_S1048576_d0 i
      = if h : (i 0).val < 770048
        then A (ix3 ⟨(i 0).val / 16384, by omega⟩ ⟨0, Nat.one_pos⟩ ⟨(i 0).val % 16384, Nat.mod_lt _ (by norm_num)⟩)
        else B (ix1 ⟨(i 0).val - 770048, by have := row_lt i; omega⟩) := by
  by_cases h : (i 0).val < 770048
  · rw [dif_pos h]
    rw [concatenate_pair_apply_left (0 : Fin S1048576.rank) (shapeCast S770048 A Facts₀.shapeCasts_S47x1x16384_S770048) B
      Facts₀.concatenates_S770048_S278528_S1048576_d0 i rfl (ix1 ⟨(i 0).val, h⟩)
      (fun b => by match b with | ⟨0, _⟩ => rfl)]
    exact flat_apply A _ h
  · rw [dif_neg h]
    exact concatenate_pair_apply_right (0 : Fin S1048576.rank) (shapeCast S770048 A Facts₀.shapeCasts_S47x1x16384_S770048) B
      Facts₀.concatenates_S770048_S278528_S1048576_d0 i rfl rfl (ix1 ⟨(i 0).val - 770048, by have := row_lt i; omega⟩)
      (fun b hb => by match b, hb with | ⟨0, _⟩, hb => exact absurd rfl hb)
      (by show (i 0).val - 770048 + 770048 = (i 0).val; omega)

end Cert.KernelOut

end
-- ==== Proof.KernelOutIdealArr.lean ====
/-
  The first 770048 rows of the result as one whole-array function: when the body leaves, at grid point `i`, the packed
  words of rows 16384·i … 16384·i + 16383 in the output block, the array after the 47 write-backs holds at
  (t, 0, k) the packed word of row 16384·t + k. Each write-back writes its block of that one function, and the 47
  blocks cover the array.
-/
import proofs.«203736_g78743930405654_cont_9to1c4b_297_23_alg».proof.Proof.RegionIdeal
import Idealize.ShloMosaic.Lib.Pipeline.Value
import Idealize.ShloMosaic.Lib.ValueIdx

noncomputable section

namespace Cert.KernelOut

open Cert.KernelIdeal Cert.KernelIdeal.Gen Cert.LaunchIdeal
open Idealize.ShloMosaic Idealize.ShloMosaic.TcCoe Idealize.SL.Sem
open Idealize.ShloMosaic.Pipeline (Dat)
open Idealize.ShloMosaic.StableHlo (after after_cons after_nil)

/-- The printed index maps over the grid: the input block sits at (0, 0) at every point, the output block of point `t`
    at (t, 0, 0), and point `t`'s one coordinate is `t`. -/
theorem idx_facts : ∀ t : Fin grid0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ (grid0.coords t (0 : Fin 1)).val = t.val := by
  decide +kernel

variable {F : FTy → Type} [FloatOps F] [Cert.KernelIdeal.Facts]
variable (m : (ℓ : Loc nD τ sig) → Buf (Elt F) ℓ)

/-! ## The probability's 1 × 1 block -/

/-- The probability reshaped to 1 × 1: what every grid point finds in the input block. -/
def blk0 (c : Dev nD) : Vec F S1x1 .f32 :=
  shapeCast S1x1 (m ((c.tc : Thread nD τ).loc main_arg1) : (⟨S_, .f32⟩ : BufTy).Contents (Elt F)) Facts₀.shapeCasts_S_S1x1

/-- The region finds the input window's array at the reshaped probability. -/
theorem V1_v0 (c : Dev nD) : (V1 m c main_v0 : Vec F S1x1 .f32) = blk0 m c := by
  show after hostOps0 (W0 m c) (Proc.devRef .tc main_v0) = _
  simp only [after_cons, after_nil]; rfl

/-- The input block is the reshaped probability at every point. -/
theorem iblk0_eq (c : Dev nD) (t : Fin cfg0.N) : iblk0 (V1 m) c 0 t = blk0 m c := by
  obtain ⟨e0, e1, -, -, -, -⟩ := idx_facts t
  unfold iblk0
  show (fun y : S1x1.Idx => (V1 m c main_v0 : Vec F S1x1 .f32) (((cfg0.win 0).blk t).view.emb y)) = blk0 m c
  rw [V1_v0]
  funext y
  refine congrArg (blk0 m c) (funext fun a => Fin.ext ?_)
  match a with
  | ⟨0, _⟩ => show win0_0.index t (0 : Fin 2) * 1 + 1 * (y 0).val = (y 0).val; omega
  | ⟨1, _⟩ => show win0_0.index t (1 : Fin 2) * 1 + 1 * (y 1).val = (y 1).val; omega

/-! ## The output array after the write-backs -/

variable (outTC : grid0.Coords → Vec F S1x1 .f32 → Vec F S1x1x16384 .i32) (thr : Vec F S1x1 .f32 → BitVec 32)

/-- The first 770048 rows as one function of the probability's block: (t, 0, k) holds the packed word of row 16384·t + k. -/
def outArr (c : Dev nD) : S47x1x16384.Idx → BitVec 32 :=
  fun j => Cert.Spec.word (thr (blk0 m c)) (16384 * (j 0).val + (j 2).val)

variable (hout : ∀ (i : grid0.Coords) (x0 : Vec F S1x1 .f32) (y : S1x1x16384.Idx),
    outTC i x0 y = Cert.Spec.word (thr x0) (16384 * (i 0).val + (y 2).val))

include hout in
/-- What point `t` writes back is block `t` of that function. -/
theorem flushed_eq (c : Dev nD) (t : Fin cfg0.N) :
    (dat0 (V1 m) outTC c).flushed 1 t = ((cfg0.win 1).blk t).view.read (Elt F) (outArr m thr c) := by
  show (cfg0.win 1).cut (grid0.coords t) ((dat0 (V1 m) outTC c).after 1 t) = _
  rw [after0_1, iblk0_eq]
  obtain ⟨-, -, e2, e3, e4, e5⟩ := idx_facts t
  show (fun y : S1x1x16384.Idx => outTC (grid0.coords t) (blk0 m c) y)
    = fun y : S1x1x16384.Idx => outArr m thr c (((cfg0.win 1).blk t).view.emb y)
  funext y
  refine (hout (grid0.coords t) (blk0 m c) y).trans ?_
  show Cert.Spec.word (thr (blk0 m c)) (16384 * (grid0.coords t (0 : Fin 1)).val + (y 2).val)
    = Cert.Spec.word (thr (blk0 m c))
        (16384 * (win0_1.index t (0 : Fin 3) * 1 + 1 * (y 0).val) + (win0_1.index t (2 : Fin 3) * 16384 + 1 * (y 2).val))
  have h0 : (y 0).val < 1 := (y 0).isLt
  congr 1
  omega

/-- A row of the array is in point `t`'s block iff each coordinate is in the block's range on its axis. -/
theorem mem_blk (t : Fin cfg0.N) (i : S47x1x16384.Idx) :
    i ∈ ((cfg0.win 1).blk t).view.set ↔ ∀ a : Fin 3, win0_1.index t a * S1x1x16384.size a ≤ (i a).val
      ∧ (i a).val < win0_1.index t a * S1x1x16384.size a + S1x1x16384.size a := by
  show i ∈ ((View.whole main_v1).slice (win0_1.rect t)).set ↔ _
  rw [View.set_slice_whole, Rect.mem_set_unit]
  exact Iff.rfl

/-- Every row is in the block of the point its first coordinate names. -/
theorem cover (i : S47x1x16384.Idx) :
    ∃ t : Fin cfg0.N, (cfg0.win 1).flush t = true ∧ i ∈ ((cfg0.win 1).blk t).view.set := by
  have hi0 : (i 0).val < 47 := (i 0).isLt
  have hi1 : (i 1).val < 1 := (i 1).isLt
  have hi2 : (i 2).val < 16384 := (i 2).isLt
  have hN : (i 0).val < cfg0.N := by have := N_0; show (i 0).val < grid0.N; omega
  refine ⟨⟨(i 0).val, hN⟩, flush0_1 _, ?_⟩
  obtain ⟨-, -, e2, e3, e4, -⟩ := idx_facts ⟨(i 0).val, hN⟩
  have e2' : win0_1.index ⟨(i 0).val, hN⟩ (0 : Fin 3) = (i 0).val := e2
  rw [mem_blk]
  intro a
  match a with
  | ⟨0, _⟩ =>
    show win0_1.index ⟨(i 0).val, hN⟩ (0 : Fin 3) * 1 ≤ (i 0).val ∧ (i 0).val < win0_1.index ⟨(i 0).val, hN⟩ (0 : Fin 3) * 1 + 1
    omega
  | ⟨1, _⟩ =>
    show win0_1.index ⟨(i 0).val, hN⟩ (1 : Fin 3) * 1 ≤ (i 1).val ∧ (i 1).val < win0_1.index ⟨(i 0).val, hN⟩ (1 : Fin 3) * 1 + 1
    omega
  | ⟨2, _⟩ =>
    show win0_1.index ⟨(i 0).val, hN⟩ (2 : Fin 3) * 16384 ≤ (i 2).val ∧ (i 2).val < win0_1.index ⟨(i 0).val, hN⟩ (2 : Fin 3) * 16384 + 16384
    omega

include hout in
/-- The array after the 47 write-backs is that function. -/
theorem arrAt_out (c : Dev nD) :
    (dat0 (V1 m) outTC c).arrAt 1 cfg0.N
      = fun j : S47x1x16384.Idx => Cert.Spec.word (thr (blk0 m c)) (16384 * (j 0).val + (j 2).val) :=
  (dat0 (V1 m) outTC c).arrAt_eq_of_cover 1 (outArr m thr c) (fun t _ => flushed_eq m outTC thr hout c t) cover

end Cert.KernelOut

end
-- ==== Proof.KernelOutIdeal.lean ====
/-
  The whole result array as one function of the probability's block and the threshold word: the first 770048 rows are
  the 47 × 1 × 16384 array flattened, the last 278528 rows the second array, and a row's word is the packed word of that
  row's number (16384·(r / 16384) + r % 16384 = r; 770048 + (r − 770048) = r).
-/
import proofs.«203736_g78743930405654_cont_9to1c4b_297_23_alg».proof.Proof.KernelOutIdealConcat
import proofs.«203736_g78743930405654_cont_9to1c4b_297_23_alg».proof.Proof.KernelOutIdealArr

noncomputable section

namespace Cert.KernelOut

open Cert.KernelIdeal Cert.KernelIdeal.Gen Cert.LaunchIdeal
open Idealize.ShloMosaic Idealize.ShloMosaic.TcCoe Idealize.ShloMosaic.ValueIdx

variable {F : FTy → Type} [FloatOps F] [Cert.KernelIdeal.Facts]
variable (m : (ℓ : Loc nD τ sig) → Buf (Elt F) ℓ)
variable (outTC : grid0.Coords → Vec F S1x1 .f32 → Vec F S1x1x16384 .i32) (thr : Vec F S1x1 .f32 → BitVec 32)
variable (hout : ∀ (i : grid0.Coords) (x0 : Vec F S1x1 .f32) (y : S1x1x16384.Idx),
    outTC i x0 y = Cert.Spec.word (thr x0) (16384 * (i 0).val + (y 2).val))

/-- The two halves concatenated, as whole-array functions of the row: below 770048 the packed word at the first
    threshold, from 770048 on the packed word at the second. -/
theorem concat_words (t0 th : BitVec 32) :
    concatenate S1048576 0
        [⟨S770048, shapeCast S770048 (fun j : S47x1x16384.Idx => Cert.Spec.word t0 (16384 * (j 0).val + (j 2).val))
            Facts₀.shapeCasts_S47x1x16384_S770048⟩,
         ⟨S278528, Cert.LaunchIdeal.outSC th⟩] Facts₀.concatenates_S770048_S278528_S1048576_d0
      = fun i : S1048576.Idx => if (i 0).val < 770048 then Cert.Spec.word t0 (i 0).val else Cert.Spec.word th (i 0).val := by
  funext i
  rw [concat_apply]
  by_cases h : (i 0).val < 770048
  · rw [dif_pos h, if_pos h]
    show Cert.Spec.word t0 (16384 * ((i 0).val / 16384) + (i 0).val % 16384) = Cert.Spec.word t0 (i 0).val
    refine congrArg (Cert.Spec.word t0) ?_
    omega
  · rw [dif_neg h, if_neg h]
    show Cert.Spec.word th (770048 + ((i 0).val - 770048)) = Cert.Spec.word th (i 0).val
    refine congrArg (Cert.Spec.word th) ?_
    omega

include hout in
/-- The result array: the flattened array the 47 write-backs leave, then the second half. -/
theorem out_eq (c : Dev nD) (th : BitVec 32) :
    concatenate S1048576 0
        [⟨S770048, shapeCast S770048 ((dat0 (V1 m) outTC c).arrAt 1 cfg0.N : (⟨S47x1x16384, .i32⟩ : BufTy).Contents (Elt F))
            Facts₀.shapeCasts_S47x1x16384_S770048⟩,
         ⟨S278528, (Cert.LaunchIdeal.outSC th : (⟨S278528, .i32⟩ : BufTy).Contents (Elt F))⟩]
        Facts₀.concatenates_S770048_S278528_S1048576_d0
      = fun i : S1048576.Idx =>
          if (i 0).val < 770048 then Cert.Spec.word (thr (blk0 m c)) (i 0).val else Cert.Spec.word th (i 0).val := by
  rw [arrAt_out m outTC thr hout c]
  exact concat_words (thr (blk0 m c)) th

end Cert.KernelOut

end
-- ==== Proof.ThreshIdeal.lean ====
/-
  The two threshold words of the idealized program are the specification's threshold of the probability.

  The program computes the threshold twice: once by host operations on the scalar probability (the word handed to the
  vector subcores) and once inside the TensorCore body from the one-element probability block. Both are
  `⌈clip (p · 2²³) 0 2²³⌉` spelt with the same operations: the product with 2²³, the maximum with zero, the minimum with
  2²³, the truncation to a 32-bit integer, and one more when the truncation read back as a real is below the clipped
  value. Over the extended reals each operation is the exact one, the constant words `0x4B000000` and `0` denote 2²³
  and 0, and so each of the two words is `thresh p`.
-/
import proofs.«203736_g78743930405654_cont_9to1c4b_297_23_alg».proof.Proof.ValsIdeal
import proofs.«203736_g78743930405654_cont_9to1c4b_297_23_alg».proof.Proof.TcBodyIdealDefs
import proofs.«203736_g78743930405654_cont_9to1c4b_297_23_alg».proof.Proof.LibUniformThreshold

noncomputable section

namespace Cert.ThreshIdeal

open Idealize.ShloMosaic Cert.UniformThreshold

variable [Cert.KernelIdeal.Facts]

/-- The f32 word `0x00000000` denotes 0. -/
theorem ofBits_zero : Ideal.ofBits .f32 0x00000000#32 = 0 := by
  simp [Ideal.ofBits, Ideal.ieee]

/-- The host's clipped value, read at the scalar shape's one index, is `clipped` of the probability there. -/
theorem clipH_eq (p : (⟨Cert.KernelIdeal.S_, .f32⟩ : BufTy).Contents (Elt Ideal)) :
    Cert.LaunchIdeal.clipH (F := Ideal) p ValueIdx.ix0 = clipped (p ValueIdx.ix0) := by
  show min (Ideal.ofBits .f32 0x4B000000#32)
      (max (Ideal.ofBits .f32 0x00000000#32) (p ValueIdx.ix0 * Ideal.ofBits .f32 0x4B000000#32)) = _
  rw [ofBits_two23, ofBits_zero]
  rfl

/-- The host's threshold word is the specification's threshold of the probability. -/
theorem thW_eq (p : (⟨Cert.KernelIdeal.S_, .f32⟩ : BufTy).Contents (Elt Ideal)) :
    Cert.LaunchIdeal.thW (F := Ideal) p = thresh (p ValueIdx.ix0) := by
  show Ideal.fptosi 32 (Cert.LaunchIdeal.clipH (F := Ideal) p ValueIdx.ix0)
      + (BitVec.ofBool (decide ((((Ideal.fptosi 32 (Cert.LaunchIdeal.clipH (F := Ideal) p ValueIdx.ix0)).toInt : ℝ) : EReal)
          < Cert.LaunchIdeal.clipH (F := Ideal) p ValueIdx.ix0))).setWidth 32 = _
  rw [clipH_eq]
  rfl

/-- The position `[0, 0]` of the one-element block, as an index built from its two coordinates. -/
theorem pos00_eq :
    (fun a => ⟨(![0, 0] : Fin 2 → Nat) a, Cert.KernelIdeal.Gen.inpos_S1x1_p0_0 a⟩ : Cert.KernelIdeal.S1x1.Idx)
      = ValueIdx.ix2 0 0 := by
  funext a
  match a with
  | ⟨0, _⟩ => rfl
  | ⟨1, _⟩ => rfl

/-- The body's clipped value is `clipped` of the block's one element. -/
theorem pay2_eq (x0 : Vec Ideal Cert.KernelIdeal.S1x1 .f32) :
    Cert.KernelIdeal.Gen.k0_pay2 (F := Ideal) x0 = clipped (x0 (ValueIdx.ix2 0 0)) := by
  show min (Ideal.ofBits .f32 0x4B000000#32)
      (max (Ideal.ofBits .f32 0x00000000#32)
        (x0 (fun a => ⟨(![0, 0] : Fin 2 → Nat) a, Cert.KernelIdeal.Gen.inpos_S1x1_p0_0 a⟩) * Ideal.ofBits .f32 0x4B000000#32)) = _
  rw [ofBits_two23, ofBits_zero, pos00_eq]
  rfl

/-- The body's threshold word is the specification's threshold of the block's one element. -/
theorem thrTC_eq (x0 : Vec Ideal Cert.KernelIdeal.S1x1 .f32) :
    Cert.TcBodyIdeal.thrTC (F := Ideal) x0 = thresh (x0 (ValueIdx.ix2 0 0)) := by
  show Ideal.fptosi 32 (Cert.KernelIdeal.Gen.k0_pay2 (F := Ideal) x0)
      + (BitVec.ofBool (decide ((((Ideal.fptosi 32 (Cert.KernelIdeal.Gen.k0_pay2 (F := Ideal) x0)).toInt : ℝ) : EReal)
          < Cert.KernelIdeal.Gen.k0_pay2 (F := Ideal) x0))).setWidth 32 = _
  rw [pay2_eq]
  rfl

end Cert.ThreshIdeal

end
-- ==== Proof.KernelValueIdeal.lean ====
/-
  The kernel's result array, over the extended reals, as the specification's packed words at the specification's
  threshold of the probability: both halves are packed at the same threshold word — the body's, from the
  probability's 1 × 1 block, and the host's, from the scalar probability, are each the threshold of the one number
  both hold — so the row's word does not depend on the half the row falls in.
-/
import proofs.«203736_g78743930405654_cont_9to1c4b_297_23_alg».proof.Proof.KernelOutIdeal
import proofs.«203736_g78743930405654_cont_9to1c4b_297_23_alg».proof.Proof.ThreshIdeal
import proofs.«203736_g78743930405654_cont_9to1c4b_297_23_alg».proof.Proof.TcBodyIdealDefs

noncomputable section

namespace Cert.KernelOut

open Cert.KernelIdeal Cert.KernelIdeal.Gen Cert.LaunchIdeal
open Idealize.ShloMosaic Idealize.ShloMosaic.TcCoe Idealize.ShloMosaic.ValueIdx

variable [Cert.KernelIdeal.Facts]

/-- The reshaped probability's one element is the scalar probability's one element. -/
theorem blk0_ix {F : FTy → Type} [FloatOps F] (m : (ℓ : Loc nD τ sig) → Buf (Elt F) ℓ) (c : Dev nD) :
    blk0 m c (ix2 0 0) = (m ((c.tc : Thread nD τ).loc main_arg1) : (⟨S_, .f32⟩ : BufTy).Contents (Elt F)) ix0 := by
  unfold blk0 shapeCast
  exact congrArg _ (funext fun a => a.elim0)

/-- The kernel's result array is the specification's packed word of every row, at the specification's threshold of
    the probability. -/
theorem kernel_value (m : (ℓ : Loc nD τ sig) → Buf (Elt Ideal) ℓ)
    (hout : ∀ (i : grid0.Coords) (x0 : Vec Ideal S1x1 .f32) (y : S1x1x16384.Idx),
      Cert.TcBodyIdeal.outTC (F := Ideal) i x0 y = Cert.Spec.word (Cert.TcBodyIdeal.thrTC (F := Ideal) x0) (16384 * (i 0).val + (y 2).val))
    (c : Dev nD) :
    concatenate S1048576 0
        [⟨S770048, shapeCast S770048 ((dat0 (V1 m) (Cert.TcBodyIdeal.outTC (F := Ideal)) c).arrAt 1 cfg0.N : (⟨S47x1x16384, .i32⟩ : BufTy).Contents (Elt Ideal))
            Facts₀.shapeCasts_S47x1x16384_S770048⟩,
         ⟨S278528, (Cert.LaunchIdeal.outSC (Cert.LaunchIdeal.thW (F := Ideal) (m ((c.tc : Thread nD τ).loc main_arg1) : (⟨S_, .f32⟩ : BufTy).Contents (Elt Ideal)))
            : (⟨S278528, .i32⟩ : BufTy).Contents (Elt Ideal))⟩]
        Facts₀.concatenates_S770048_S278528_S1048576_d0
      = fun i : S1048576.Idx => Cert.Spec.word (Cert.UniformThreshold.thresh
          ((m ((c.tc : Thread nD τ).loc main_arg1) : (⟨S_, .f32⟩ : BufTy).Contents (Elt Ideal)) ix0)) (i 0).val := by
  refine (out_eq m (Cert.TcBodyIdeal.outTC (F := Ideal)) (Cert.TcBodyIdeal.thrTC (F := Ideal)) hout c _).trans ?_
  funext i
  rw [Cert.ThreshIdeal.thrTC_eq, Cert.ThreshIdeal.thW_eq, blk0_ix]
  exact ite_self _

end Cert.KernelOut

end
-- ==== Proof.TcBodyIdealRounds.lean ====
/-
  The twenty rounds of the block cipher as the TensorCore body spells them — one vector operation after
  another, every intermediate vector used where it is needed — are the rounds on PAIRS of vectors
  (mixing steps and key injections of a pair), hence, lane by lane, the specified random word.

  The two spellings differ only in bookkeeping: a mixing step on the pair `(a, b)` is `a' = a + b`,
  `b' = (b rotated) xor a'`, and a key injection adds one constant to each word.  Naming every intermediate
  vector and rewriting one step at a time turns the one into the other.
-/
import Mathlib.Data.BitVec
import Idealize.ShloMosaic.PureOps
import proofs.«203736_g78743930405654_cont_9to1c4b_297_23_alg».proof.Proof.Spec
import proofs.«203736_g78743930405654_cont_9to1c4b_297_23_alg».proof.Proof.LibBitPack

set_option maxRecDepth 65536

namespace Cert.TcRounds

open Idealize.ShloMosaic Cert.BitPack

variable {s : Shape}

/-- The twenty rounds as the body spells them, one vector operation after another, from the counter plus 42:
    the first mixing step with both words equal, then nineteen mixing steps (add, rotate by a shift pair, xor)
    with a key injection (two additions of constants) after every group. -/
def bitsSL (a0 : IVec s 32) : IVec s 32 :=
  let b0 : IVec s 32 := xori (ori (shli a0 (broadcast s 13#32)) (shrui a0 (broadcast s 19#32))) a0
  let a1 : IVec s 32 := addi a0 b0
  let b1 : IVec s 32 := xori (ori (shli b0 (broadcast s 15#32)) (shrui b0 (broadcast s 17#32))) a1
  let a2 : IVec s 32 := addi a1 b1
  let b2 : IVec s 32 := xori (ori (shli b1 (broadcast s 26#32)) (shrui b1 (broadcast s 6#32))) a2
  let a3 : IVec s 32 := addi a2 b2
  let b3 : IVec s 32 := xori (ori (shli b2 (broadcast s 6#32)) (shrui b2 (broadcast s 26#32))) a3
  let c1 : IVec s 32 := addi a3 (broadcast s 42#32)
  let d1 : IVec s 32 := addi b3 (broadcast s 466689009#32)
  let a4 : IVec s 32 := addi c1 d1
  let b4 : IVec s 32 := xori (ori (shli d1 (broadcast s 17#32)) (shrui d1 (broadcast s 15#32))) a4
  let a5 : IVec s 32 := addi a4 b4
  let b5 : IVec s 32 := xori (ori (shli b4 (broadcast s 29#32)) (shrui b4 (broadcast s 3#32))) a5
  let a6 : IVec s 32 := addi a5 b5
  let b6 : IVec s 32 := xori (ori (shli b5 (broadcast s 16#32)) (shrui b5 (broadcast s 16#32))) a6
  let a7 : IVec s 32 := addi a6 b6
  let b7 : IVec s 32 := xori (ori (shli b6 (broadcast s 24#32)) (shrui b6 (broadcast s 8#32))) a7
  let c2 : IVec s 32 := addi a7 (broadcast s 466689008#32)
  let d2 : IVec s 32 := addi b7 (broadcast s 2#32)
  let a8 : IVec s 32 := addi c2 d2
  let b8 : IVec s 32 := xori (ori (shli d2 (broadcast s 13#32)) (shrui d2 (broadcast s 19#32))) a8
  let a9 : IVec s 32 := addi a8 b8
  let b9 : IVec s 32 := xori (ori (shli b8 (broadcast s 15#32)) (shrui b8 (broadcast s 17#32))) a9
  let a10 : IVec s 32 := addi a9 b9
  let b10 : IVec s 32 := xori (ori (shli b9 (broadcast s 26#32)) (shrui b9 (broadcast s 6#32))) a10
  let a11 : IVec s 32 := addi a10 b10
  let b11 : IVec s 32 := xori (ori (shli b10 (broadcast s 6#32)) (shrui b10 (broadcast s 26#32))) a11
  let c3 : IVec s 32 := addi a11 (broadcast s 0#32)
  let d3 : IVec s 32 := addi b11 (broadcast s 45#32)
  let a12 : IVec s 32 := addi c3 d3
  let b12 : IVec s 32 := xori (ori (shli d3 (broadcast s 17#32)) (shrui d3 (broadcast s 15#32))) a12
  let a13 : IVec s 32 := addi a12 b12
  let b13 : IVec s 32 := xori (ori (shli b12 (broadcast s 29#32)) (shrui b12 (broadcast s 3#32))) a13
  let a14 : IVec s 32 := addi a13 b13
  let b14 : IVec s 32 := xori (ori (shli b13 (broadcast s 16#32)) (shrui b13 (broadcast s 16#32))) a14
  let a15 : IVec s 32 := addi a14 b14
  let b15 : IVec s 32 := xori (ori (shli b14 (broadcast s 24#32)) (shrui b14 (broadcast s 8#32))) a15
  let c4 : IVec s 32 := addi a15 (broadcast s 42#32)
  let d4 : IVec s 32 := addi b15 (broadcast s 466689012#32)
  let a16 : IVec s 32 := addi c4 d4
  let b16 : IVec s 32 := xori (ori (shli d4 (broadcast s 13#32)) (shrui d4 (broadcast s 19#32))) a16
  let a17 : IVec s 32 := addi a16 b16
  let b17 : IVec s 32 := xori (ori (shli b16 (broadcast s 15#32)) (shrui b16 (broadcast s 17#32))) a17
  let a18 : IVec s 32 := addi a17 b17
  let b18 : IVec s 32 := xori (ori (shli b17 (broadcast s 26#32)) (shrui b17 (broadcast s 6#32))) a18
  let a19 : IVec s 32 := addi a18 b18
  let b19 : IVec s 32 := xori (ori (shli b18 (broadcast s 6#32)) (shrui b18 (broadcast s 26#32))) a19
  let c5 : IVec s 32 := addi a19 (broadcast s 466689008#32)
  let d5 : IVec s 32 := addi b19 (broadcast s 5#32)
  xori c5 d5

/-- Every intermediate vector named (listed from the last step back to the first): the xor of the last two is
    the pair-form random word of the counters `lin`. -/
theorem rounds_chain (lin : IVec s 32) (a0 b0 a1 b1 a2 b2 a3 b3 c1 d1 a4 b4 a5 b5 a6 b6 a7 b7 c2 d2 a8 b8 a9 b9 a10 b10 a11 b11 c3 d3 a12 b12 a13 b13 a14 b14 a15 b15 c4 d4 a16 b16 a17 b17 a18 b18 a19 b19 c5 d5 : IVec s 32)
    (hd5 : d5 = addi b19 (broadcast s 5#32))
    (hc5 : c5 = addi a19 (broadcast s 466689008#32))
    (hb19 : b19 = xori (ori (shli b18 (broadcast s 6#32)) (shrui b18 (broadcast s 26#32))) a19)
    (ha19 : a19 = addi a18 b18)
    (hb18 : b18 = xori (ori (shli b17 (broadcast s 26#32)) (shrui b17 (broadcast s 6#32))) a18)
    (ha18 : a18 = addi a17 b17)
    (hb17 : b17 = xori (ori (shli b16 (broadcast s 15#32)) (shrui b16 (broadcast s 17#32))) a17)
    (ha17 : a17 = addi a16 b16)
    (hb16 : b16 = xori (ori (shli d4 (broadcast s 13#32)) (shrui d4 (broadcast s 19#32))) a16)
    (ha16 : a16 = addi c4 d4)
    (hd4 : d4 = addi b15 (broadcast s 466689012#32))
    (hc4 : c4 = addi a15 (broadcast s 42#32))
    (hb15 : b15 = xori (ori (shli b14 (broadcast s 24#32)) (shrui b14 (broadcast s 8#32))) a15)
    (ha15 : a15 = addi a14 b14)
    (hb14 : b14 = xori (ori (shli b13 (broadcast s 16#32)) (shrui b13 (broadcast s 16#32))) a14)
    (ha14 : a14 = addi a13 b13)
    (hb13 : b13 = xori (ori (shli b12 (broadcast s 29#32)) (shrui b12 (broadcast s 3#32))) a13)
    (ha13 : a13 = addi a12 b12)
    (hb12 : b12 = xori (ori (shli d3 (broadcast s 17#32)) (shrui d3 (broadcast s 15#32))) a12)
    (ha12 : a12 = addi c3 d3)
    (hd3 : d3 = addi b11 (broadcast s 45#32))
    (hc3 : c3 = addi a11 (broadcast s 0#32))
    (hb11 : b11 = xori (ori (shli b10 (broadcast s 6#32)) (shrui b10 (broadcast s 26#32))) a11)
    (ha11 : a11 = addi a10 b10)
    (hb10 : b10 = xori (ori (shli b9 (broadcast s 26#32)) (shrui b9 (broadcast s 6#32))) a10)
    (ha10 : a10 = addi a9 b9)
    (hb9 : b9 = xori (ori (shli b8 (broadcast s 15#32)) (shrui b8 (broadcast s 17#32))) a9)
    (ha9 : a9 = addi a8 b8)
    (hb8 : b8 = xori (ori (shli d2 (broadcast s 13#32)) (shrui d2 (broadcast s 19#32))) a8)
    (ha8 : a8 = addi c2 d2)
    (hd2 : d2 = addi b7 (broadcast s 2#32))
    (hc2 : c2 = addi a7 (broadcast s 466689008#32))
    (hb7 : b7 = xori (ori (shli b6 (broadcast s 24#32)) (shrui b6 (broadcast s 8#32))) a7)
    (ha7 : a7 = addi a6 b6)
    (hb6 : b6 = xori (ori (shli b5 (broadcast s 16#32)) (shrui b5 (broadcast s 16#32))) a6)
    (ha6 : a6 = addi a5 b5)
    (hb5 : b5 = xori (ori (shli b4 (broadcast s 29#32)) (shrui b4 (broadcast s 3#32))) a5)
    (ha5 : a5 = addi a4 b4)
    (hb4 : b4 = xori (ori (shli d1 (broadcast s 17#32)) (shrui d1 (broadcast s 15#32))) a4)
    (ha4 : a4 = addi c1 d1)
    (hd1 : d1 = addi b3 (broadcast s 466689009#32))
    (hc1 : c1 = addi a3 (broadcast s 42#32))
    (hb3 : b3 = xori (ori (shli b2 (broadcast s 6#32)) (shrui b2 (broadcast s 26#32))) a3)
    (ha3 : a3 = addi a2 b2)
    (hb2 : b2 = xori (ori (shli b1 (broadcast s 26#32)) (shrui b1 (broadcast s 6#32))) a2)
    (ha2 : a2 = addi a1 b1)
    (hb1 : b1 = xori (ori (shli b0 (broadcast s 15#32)) (shrui b0 (broadcast s 17#32))) a1)
    (ha1 : a1 = addi a0 b0)
    (hb0 : b0 = xori (ori (shli a0 (broadcast s 13#32)) (shrui a0 (broadcast s 19#32))) a0)
    (ha0 : a0 = addi lin (broadcast s 42#32)) :
    xori c5 d5 = vbits lin := by
  have p0 : (a0, b0) = ((addi lin (broadcast s 42#32), xori (vrotl (addi lin (broadcast s 42#32)) 13#32 19#32) (addi lin (broadcast s 42#32))) : IVec s 32 × IVec s 32) := by
    rw [hb0, ha0]; rfl
  have p1 : (a1, b1) = vmix (a0, b0) 15#32 17#32 := by
    rw [hb1, ha1]; rfl
  have p2 : (a2, b2) = vmix (a1, b1) 26#32 6#32 := by
    rw [hb2, ha2]; rfl
  have p3 : (a3, b3) = vmix (a2, b2) 6#32 26#32 := by
    rw [hb3, ha3]; rfl
  have q1 : (c1, d1) = vinject (a3, b3) 42#32 466689009#32 := by
    rw [hc1, hd1]; rfl
  have p4 : (a4, b4) = vmix (c1, d1) 17#32 15#32 := by
    rw [hb4, ha4]; rfl
  have p5 : (a5, b5) = vmix (a4, b4) 29#32 3#32 := by
    rw [hb5, ha5]; rfl
  have p6 : (a6, b6) = vmix (a5, b5) 16#32 16#32 := by
    rw [hb6, ha6]; rfl
  have p7 : (a7, b7) = vmix (a6, b6) 24#32 8#32 := by
    rw [hb7, ha7]; rfl
  have q2 : (c2, d2) = vinject (a7, b7) 466689008#32 2#32 := by
    rw [hc2, hd2]; rfl
  have p8 : (a8, b8) = vmix (c2, d2) 13#32 19#32 := by
    rw [hb8, ha8]; rfl
  have p9 : (a9, b9) = vmix (a8, b8) 15#32 17#32 := by
    rw [hb9, ha9]; rfl
  have p10 : (a10, b10) = vmix (a9, b9) 26#32 6#32 := by
    rw [hb10, ha10]; rfl
  have p11 : (a11, b11) = vmix (a10, b10) 6#32 26#32 := by
    rw [hb11, ha11]; rfl
  have q3 : (c3, d3) = vinject (a11, b11) 0#32 45#32 := by
    rw [hc3, hd3]; rfl
  have p12 : (a12, b12) = vmix (c3, d3) 17#32 15#32 := by
    rw [hb12, ha12]; rfl
  have p13 : (a13, b13) = vmix (a12, b12) 29#32 3#32 := by
    rw [hb13, ha13]; rfl
  have p14 : (a14, b14) = vmix (a13, b13) 16#32 16#32 := by
    rw [hb14, ha14]; rfl
  have p15 : (a15, b15) = vmix (a14, b14) 24#32 8#32 := by
    rw [hb15, ha15]; rfl
  have q4 : (c4, d4) = vinject (a15, b15) 42#32 466689012#32 := by
    rw [hc4, hd4]; rfl
  have p16 : (a16, b16) = vmix (c4, d4) 13#32 19#32 := by
    rw [hb16, ha16]; rfl
  have p17 : (a17, b17) = vmix (a16, b16) 15#32 17#32 := by
    rw [hb17, ha17]; rfl
  have p18 : (a18, b18) = vmix (a17, b17) 26#32 6#32 := by
    rw [hb18, ha18]; rfl
  have p19 : (a19, b19) = vmix (a18, b18) 6#32 26#32 := by
    rw [hb19, ha19]; rfl
  have q5 : (c5, d5) = vinject (a19, b19) 466689008#32 5#32 := by
    rw [hc5, hd5]; rfl
  rw [vbits_eq]
  unfold vst vgroupA vgroupB
  dsimp only
  rw [← p0, ← p1, ← p2, ← p3, ← q1, ← p4, ← p5, ← p6, ← p7, ← q2, ← p8, ← p9, ← p10, ← p11, ← q3, ← p12, ← p13, ← p14, ← p15, ← q4, ← p16, ← p17, ← p18, ← p19, ← q5]

/-- The body's spelling of the rounds, from the counters plus 42, is the pair-form random word. -/
theorem bitsSL_eq (lin : IVec s 32) : bitsSL (addi lin (broadcast s 42#32)) = vbits lin := by
  apply rounds_chain lin
  all_goals rfl

/-- Lane by lane, the body's rounds compute the specified random word of the lane's counter. -/
theorem bitsSL_apply (lin : IVec s 32) (i : s.Idx) : bitsSL (addi lin (broadcast s 42#32)) i = Cert.Spec.bits (lin i) := by
  rw [bitsSL_eq]
  exact vbits_apply lin i

end Cert.TcRounds
-- ==== Proof.TcBodyIdealChunk.lean ====
/-
  One chunk of the TensorCore body as ONE function of the block's first row, the threshold and the chunk's
  column offset; each of the 32 stored vectors is that function at its offset.

  The 32 chunks are the same computation unrolled: the counters `32 c + j` (row `j`, column `c` of a 32 x 512
  table) plus 32 times the chunk's first row, the twenty rounds, the top 23 bits compared with the threshold,
  `1 <<< j` or `0` selected, the sum over the 32 rows.  The stored vectors are compositions of the body's named
  steps; unfolding the names gives the same operations in the same order.
-/
import proofs.«203736_g78743930405654_cont_9to1c4b_297_23_alg».proof.Proof.TcBodyIdealDefs
import proofs.«203736_g78743930405654_cont_9to1c4b_297_23_alg».proof.Proof.TcBodyIdealRounds

set_option maxRecDepth 65536

noncomputable section

namespace Cert.TcBodyIdeal

open Cert.KernelIdeal Cert.KernelIdeal.Gen
open Idealize.ShloMosaic Idealize.SL.Sem

variable {F : FTy → Type} [FloatOps F]

/-- One chunk as the body computes it: the counters `32 c + j` plus 32 times the chunk's first row `v0 + off`,
    plus 42; the twenty rounds; the top 23 bits compared with the threshold `v10`; `1 <<< j` or `0`; the sum over
    the 32 rows; as a 1 x 1 x 512 vector. -/
def chunkTC (v0 v10 off : BitVec 32) : IVec S1x1x512 32 :=
  shapeCast S1x1x512
    (multiReductionI .add [0] S512
      (select (cmpi .ult (shrui (Cert.TcRounds.bitsSL (addi (addi k0_pay4 (broadcast S32x512 (Scalar.muli (Scalar.addi v0 off) 32#32)))
            (broadcast S32x512 42#32))) (broadcast S32x512 9#32)) (broadcast S32x512 v10)) k0_pay5 k0_pay6)
      0#32 reduces_S32x512_S512 rfl)
    shapeCasts_S512_S1x1x512

/-! ## Each stored vector is the chunk at its offset -/

set_option maxHeartbeats 1000000 in
theorem payTC_0_eq (i : grid0.Coords) (v10 : BitVec 32) :
    payTC_0 i v10 = chunkTC (v0TC i) v10 0#32 := rfl

set_option maxHeartbeats 1000000 in
theorem payTC_1_eq (v0 : BitVec 32) (v10 : BitVec 32) :
    payTC_1 v0 v10 = chunkTC v0 v10 512#32 := rfl

set_option maxHeartbeats 1000000 in
theorem payTC_2_eq (v0 : BitVec 32) (v10 : BitVec 32) :
    payTC_2 v0 v10 = chunkTC v0 v10 1024#32 := rfl

set_option maxHeartbeats 1000000 in
theorem payTC_3_eq (v0 : BitVec 32) (v10 : BitVec 32) :
    payTC_3 v0 v10 = chunkTC v0 v10 1536#32 := rfl

set_option maxHeartbeats 1000000 in
theorem payTC_4_eq (v0 : BitVec 32) (v10 : BitVec 32) :
    payTC_4 v0 v10 = chunkTC v0 v10 2048#32 := rfl

set_option maxHeartbeats 1000000 in
theorem payTC_5_eq (v0 : BitVec 32) (v10 : BitVec 32) :
    payTC_5 v0 v10 = chunkTC v0 v10 2560#32 := rfl

set_option maxHeartbeats 1000000 in
theorem payTC_6_eq (v0 : BitVec 32) (v10 : BitVec 32) :
    payTC_6 v0 v10 = chunkTC v0 v10 3072#32 := rfl

set_option maxHeartbeats 1000000 in
theorem payTC_7_eq (v0 : BitVec 32) (v10 : BitVec 32) :
    payTC_7 v0 v10 = chunkTC v0 v10 3584#32 := rfl

set_option maxHeartbeats 1000000 in
theorem payTC_8_eq (v0 : BitVec 32) (v10 : BitVec 32) :
    payTC_8 v0 v10 = chunkTC v0 v10 4096#32 := rfl

set_option maxHeartbeats 1000000 in
theorem payTC_9_eq (v0 : BitVec 32) (v10 : BitVec 32) :
    payTC_9 v0 v10 = chunkTC v0 v10 4608#32 := rfl

set_option maxHeartbeats 1000000 in
theorem payTC_10_eq (v0 : BitVec 32) (v10 : BitVec 32) :
    payTC_10 v0 v10 = chunkTC v0 v10 5120#32 := rfl

set_option maxHeartbeats 1000000 in
theorem payTC_11_eq (v0 : BitVec 32) (v10 : BitVec 32) :
    payTC_11 v0 v10 = chunkTC v0 v10 5632#32 := rfl

set_option maxHeartbeats 1000000 in
theorem payTC_12_eq (v0 : BitVec 32) (v10 : BitVec 32) :
    payTC_12 v0 v10 = chunkTC v0 v10 6144#32 := rfl

set_option maxHeartbeats 1000000 in
theorem payTC_13_eq (v0 : BitVec 32) (v10 : BitVec 32) :
    payTC_13 v0 v10 = chunkTC v0 v10 6656#32 := rfl

set_option maxHeartbeats 1000000 in
theorem payTC_14_eq (v0 : BitVec 32) (v10 : BitVec 32) :
    payTC_14 v0 v10 = chunkTC v0 v10 7168#32 := rfl

set_option maxHeartbeats 1000000 in
theorem payTC_15_eq (v0 : BitVec 32) (v10 : BitVec 32) :
    payTC_15 v0 v10 = chunkTC v0 v10 7680#32 := rfl

set_option maxHeartbeats 1000000 in
theorem payTC_16_eq (v0 : BitVec 32) (v10 : BitVec 32) :
    payTC_16 v0 v10 = chunkTC v0 v10 8192#32 := rfl

set_option maxHeartbeats 1000000 in
theorem payTC_17_eq (v0 : BitVec 32) (v10 : BitVec 32) :
    payTC_17 v0 v10 = chunkTC v0 v10 8704#32 := rfl

set_option maxHeartbeats 1000000 in
theorem payTC_18_eq (v0 : BitVec 32) (v10 : BitVec 32) :
    payTC_18 v0 v10 = chunkTC v0 v10 9216#32 := rfl

set_option maxHeartbeats 1000000 in
theorem payTC_19_eq (v0 : BitVec 32) (v10 : BitVec 32) :
    payTC_19 v0 v10 = chunkTC v0 v10 9728#32 := rfl

set_option maxHeartbeats 1000000 in
theorem payTC_20_eq (v0 : BitVec 32) (v10 : BitVec 32) :
    payTC_20 v0 v10 = chunkTC v0 v10 10240#32 := rfl

set_option maxHeartbeats 1000000 in
theorem payTC_21_eq (v0 : BitVec 32) (v10 : BitVec 32) :
    payTC_21 v0 v10 = chunkTC v0 v10 10752#32 := rfl

set_option maxHeartbeats 1000000 in
theorem payTC_22_eq (v0 : BitVec 32) (v10 : BitVec 32) :
    payTC_22 v0 v10 = chunkTC v0 v10 11264#32 := rfl

set_option maxHeartbeats 1000000 in
theorem payTC_23_eq (v0 : BitVec 32) (v10 : BitVec 32) :
    payTC_23 v0 v10 = chunkTC v0 v10 11776#32 := rfl

set_option maxHeartbeats 1000000 in
theorem payTC_24_eq (v0 : BitVec 32) (v10 : BitVec 32) :
    payTC_24 v0 v10 = chunkTC v0 v10 12288#32 := rfl

set_option maxHeartbeats 1000000 in
theorem payTC_25_eq (v0 : BitVec 32) (v10 : BitVec 32) :
    payTC_25 v0 v10 = chunkTC v0 v10 12800#32 := rfl

set_option maxHeartbeats 1000000 in
theorem payTC_26_eq (v0 : BitVec 32) (v10 : BitVec 32) :
    payTC_26 v0 v10 = chunkTC v0 v10 13312#32 := rfl

set_option maxHeartbeats 1000000 in
theorem payTC_27_eq (v0 : BitVec 32) (v10 : BitVec 32) :
    payTC_27 v0 v10 = chunkTC v0 v10 13824#32 := rfl

set_option maxHeartbeats 1000000 in
theorem payTC_28_eq (v0 : BitVec 32) (v10 : BitVec 32) :
    payTC_28 v0 v10 = chunkTC v0 v10 14336#32 := rfl

set_option maxHeartbeats 1000000 in
theorem payTC_29_eq (v0 : BitVec 32) (v10 : BitVec 32) :
    payTC_29 v0 v10 = chunkTC v0 v10 14848#32 := rfl

set_option maxHeartbeats 1000000 in
theorem payTC_30_eq (v0 : BitVec 32) (v10 : BitVec 32) :
    payTC_30 v0 v10 = chunkTC v0 v10 15360#32 := rfl

set_option maxHeartbeats 1000000 in
theorem payTC_31_eq (v0 : BitVec 32) (v10 : BitVec 32) :
    payTC_31 v0 v10 = chunkTC v0 v10 15872#32 := rfl

end Cert.TcBodyIdeal

end
-- ==== Proof.TcBodyIdealValue.lean ====
/-
  The value of the TensorCore kernel's output block: word `y` of the block of grid point `i` is the packed
  word of row `16384 i + y` under the threshold the body computes.

  One chunk stores, at column `c`, the sum over the 32 rows `j` of a 32 x 512 table whose entry `(j, c)` is
  `1 <<< j` when the 23-bit integer of counter `32 c + j + 32 (first row of the chunk)` is below the threshold and
  `0` otherwise; `32 c + j + 32 R = 32 (R + c) + j`, so the entry is sample `j` of row `R + c`'s contribution and
  the column sum is that row's packed word.
-/
import proofs.«203736_g78743930405654_cont_9to1c4b_297_23_alg».proof.Proof.TcBodyIdealChunk
import proofs.«203736_g78743930405654_cont_9to1c4b_297_23_alg».proof.Proof.LibBitPack
import proofs.«203736_g78743930405654_cont_9to1c4b_297_23_alg».proof.Proof.LibBitPackSum
import Idealize.ShloMosaic.Lib.Pipeline.Value
import Idealize.ShloMosaic.Lib.ValueIdx
import Idealize.ShloMosaic.PureOps.Reduce
import Mathlib.Tactic.Ring

set_option maxRecDepth 65536

noncomputable section

namespace Cert.TcBodyIdeal

open Cert.KernelIdeal Cert.KernelIdeal.Gen
open Idealize.ShloMosaic Idealize.SL.Sem Idealize.ShloMosaic.ValueIdx

variable {F : FTy → Type} [FloatOps F]

/-! ## Counter arithmetic on words -/

/-- Counter `32 c + j` of the chunk plus 32 times the chunk's first row `R0` is counter `j` of row `R0 + c`. -/
theorem lin_eq (R0 c r : Nat) :
    (BitVec.ofNat 32 c * 32#32 + BitVec.ofNat 32 r) + BitVec.ofNat 32 R0 * 32#32 = BitVec.ofNat 32 (32 * (R0 + c) + r) := by
  simp only [← BitVec.natCast_eq_ofNat]
  push_cast
  ring

/-- The first row of chunk offset `k` in block `i0`, as a word. -/
theorem base_eq (i0 k : Nat) :
    BitVec.ofNat 32 i0 * 16384#32 + BitVec.ofNat 32 k = BitVec.ofNat 32 (16384 * i0 + k) := by
  simp only [← BitVec.natCast_eq_ofNat]
  push_cast
  ring

/-! ## Shifts of a lane by an amount below 32 -/

/-- A left shift of a lane by an amount below 32 is the plain shift. -/
theorem shli_ofNat (x : BitVec 32) (n : Nat) (hn : n < 32) : IntOp.shli .vector x (BitVec.ofNat 32 n) = x <<< n := by
  have ht : (BitVec.ofNat 32 n).toNat = n := by
    rw [BitVec.toNat_ofNat]; exact Nat.mod_eq_of_lt (by omega)
  unfold IntOp.shli
  rw [if_pos (by rw [ht]; exact hn)]
  show x <<< (BitVec.ofNat 32 n).toNat = x <<< n
  rw [ht]

/-- A logical right shift of a lane by an amount below 32 is the plain shift. -/
theorem shrui_ofNat (x : BitVec 32) (n : Nat) (hn : n < 32) : IntOp.shrui .vector x (BitVec.ofNat 32 n) = x >>> n := by
  have ht : (BitVec.ofNat 32 n).toNat = n := by
    rw [BitVec.toNat_ofNat]; exact Nat.mod_eq_of_lt (by omega)
  unfold IntOp.shrui
  rw [if_pos (by rw [ht]; exact hn)]
  show x >>> (BitVec.ofNat 32 n).toNat = x >>> n
  rw [ht]

/-! ## The index tables at a row and a column -/

/-- The counter table: `32 c + j` at row `j`, column `c`. -/
theorem pay4_apply (r : Fin 32) (c : Fin 512) :
    (k0_pay4 : IVec S32x512 32) (Shape.pair (d := ![32, 512]) r c) = BitVec.ofNat 32 c.val * 32#32 + BitVec.ofNat 32 r.val := by
  simp [k0_pay4, iota, addi, muli, broadcast, IntOp.addi, IntOp.muli]
  rfl

/-- The bit table: `1 <<< j` at row `j`. -/
theorem pay5_apply (r : Fin 32) (c : Fin 512) :
    (k0_pay5 : IVec S32x512 32) (Shape.pair (d := ![32, 512]) r c) = 1#32 <<< r.val := by
  show IntOp.shli .vector 1#32 (BitVec.ofNat 32 _) = _
  rw [shli_ofNat _ _ (by simp; exact r.isLt)]
  simp
  rfl

/-- The zero table. -/
theorem pay6_apply (j : S32x512.Idx) : (k0_pay6 : IVec S32x512 32) j = 0#32 := rfl

/-! ## One entry of a chunk's table -/

/-- Entry `(j, c)` of the table of the chunk whose first row is `R0`: sample `j` of row `R0 + c`'s contribution. -/
theorem sel_apply (v0 v10 off : BitVec 32) (R0 : Nat) (hR : Scalar.addi v0 off = BitVec.ofNat 32 R0)
    (r : Fin ((![32, 512] : Fin 2 → Nat) 0)) (c : Fin ((![32, 512] : Fin 2 → Nat) 1)) :
    Cert.BitPack.vsel (broadcast S32x512 v10) k0_pay6 k0_pay5
        (addi k0_pay4 (broadcast S32x512 (Scalar.muli (Scalar.addi v0 off) 32#32))) (Shape.pair (d := ![32, 512]) r c)
      = Cert.Spec.bitOf v10 (R0 + c.val) r.val := by
  have hlin : (addi k0_pay4 (broadcast S32x512 (Scalar.muli (Scalar.addi v0 off) 32#32))) (Shape.pair (d := ![32, 512]) r c)
      = BitVec.ofNat 32 (32 * (R0 + c.val) + r.val) := by
    show IntOp.addi ((k0_pay4 : IVec S32x512 32) (Shape.pair (d := ![32, 512]) r c)) (IntOp.muli (Scalar.addi v0 off) 32#32) = _
    rw [pay4_apply (r : Fin 32) (c : Fin 512), hR]
    exact lin_eq R0 c.val r.val
  rw [Cert.BitPack.vsel_apply, hlin, pay5_apply (r : Fin 32) (c : Fin 512), pay6_apply]
  simp only [broadcast]
  unfold Cert.Spec.bitOf Cert.Spec.drawn
  by_cases h : Cert.Spec.mant (BitVec.ofNat 32 (32 * (R0 + c.val) + r.val)) < v10
  · simp [h]
  · simp [h]

/-! ## A chunk at a column -/

/-- The chunk through the pair-form rounds: the table whose row sums it stores is the lanewise selection. -/
theorem chunkTC_eq_vsel (v0 v10 off : BitVec 32) :
    chunkTC v0 v10 off = shapeCast S1x1x512
      (multiReductionI .add [0] S512
        (Cert.BitPack.vsel (broadcast S32x512 v10) k0_pay6 k0_pay5
          (addi k0_pay4 (broadcast S32x512 (Scalar.muli (Scalar.addi v0 off) 32#32))))
        0#32 reduces_S32x512_S512 rfl)
      shapeCasts_S512_S1x1x512 := by
  unfold chunkTC
  rw [Cert.TcRounds.bitsSL_eq]
  rfl

/-- A left fold of additions over the 32 rows is the sum over the rows. -/
theorem foldl_add_finRange (f : Fin 32 → BitVec 32) :
    (List.finRange 32).foldl (fun acc r => acc + f r) 0#32 = ∑ j : Fin 32, f j := by
  rw [Fin.sum_univ_def, List.sum_eq_foldl, List.foldl_map]
  rfl

/-- THE CHUNK: column `y` of the chunk whose first row is `R0` holds row `R0 + y`'s packed word. -/
theorem chunkTC_apply (v0 v10 off : BitVec 32) (R0 : Nat) (hR : Scalar.addi v0 off = BitVec.ofNat 32 R0) (y : S1x1x512.Idx) :
    chunkTC v0 v10 off y = Cert.Spec.word v10 (R0 + (y 2).val) := by
  have h0 : (y 0).val = 0 := by have : (y 0).val < 1 := (y 0).isLt; omega
  have h1 : (y 1).val = 0 := by have : (y 1).val < 1 := (y 1).isLt; omega
  rw [chunkTC_eq_vsel]
  rw [shapeCast_apply _ _ y (ix1 (n := 512) (y 2)) (by
    rw [Shape.rowMajor_val_one, Shape.rowMajor_val_three, h0, h1]; simp)]
  show reduceFold reduces_S32x512_S512 IntOp.addi 0#32
      (Cert.BitPack.vsel (broadcast S32x512 v10) k0_pay6 k0_pay5
        (addi k0_pay4 (broadcast S32x512 (Scalar.muli (Scalar.addi v0 off) 32#32)))) (ix1 (n := 512) (y 2)) = _
  rw [reduceFold_rows]
  simp only [sel_apply v0 v10 off R0 hR]
  show (List.finRange 32).foldl (fun acc r => acc + Cert.Spec.bitOf v10 (R0 + (y 2).val) r.val) 0#32 = _
  rw [foldl_add_finRange (fun r => Cert.Spec.bitOf v10 (R0 + (y 2).val) r.val), Cert.BitPackSum.word_eq_sum_fin]

/-! ## The output block -/

/-- One piece of the output block: the chunk stored at column offset `o` holds, at its column `x`, the packed
    word of the row the block column `o + x` stands for. -/
theorem piece_apply (i : grid0.Coords) (thr : BitVec 32) (o : Nat)
    (inb : ∀ a, (![0, 0, o] : Fin 3 → Nat) a + S1x1x512.size a ≤ S1x1x16384.size a) (x : S1x1x512.Idx) :
    chunkTC (v0TC i) thr (BitVec.ofNat 32 o) x
      = Cert.Spec.word thr (16384 * (i 0).val + ((Rect.unit (s := S1x1x16384) ![0, 0, o] S1x1x512.size inb).emb x 2).val) := by
  rw [chunkTC_apply (v0TC i) thr (BitVec.ofNat 32 o) (16384 * (i 0).val + o) (base_eq (i 0).val o) x]
  have he : ((Rect.unit (s := S1x1x16384) ![0, 0, o] S1x1x512.size inb).emb x 2).val = o + 1 * (x 2).val := rfl
  rw [he]
  congr 1
  omega

/-- THE VALUE: word `y` of the output block of grid point `i` is the packed word of row `16384 i + y` under the
    threshold the body computes from the probability block. -/
theorem outTC_apply (i : grid0.Coords) (x0 : Vec F S1x1 .f32) (y : S1x1x16384.Idx) :
    outTC i x0 y = Cert.Spec.word (thrTC x0) (16384 * (i 0).val + (y 2).val) := by
  have hld : View.ld x0 rIn = x0 := View.ld_unit_zero (by funext a; fin_cases a <;> rfl) _ x0
  unfold outTC
  rw [hld]
  refine View.canon_apply_of_pieces (fun y : S1x1x16384.Idx => Cert.Spec.word (thrTC x0) (16384 * (i 0).val + (y 2).val)) _ ?_ y
    (coverTC (F := F) _ _ _ _ _ _ _ _ _ _ _ _ _ _ _ _ _ _ _ _ _ _ _ _ _ _ _ _ _ _ _ _ y)
  refine List.forall_mem_cons.2 ⟨fun x => (congrFun (payTC_31_eq (v0TC i) (thrTC x0)) x).trans (piece_apply i (thrTC x0) 15872 inb_S1x1x16384_S1x1x512_0_0_15872 x), ?_⟩
  refine List.forall_mem_cons.2 ⟨fun x => (congrFun (payTC_30_eq (v0TC i) (thrTC x0)) x).trans (piece_apply i (thrTC x0) 15360 inb_S1x1x16384_S1x1x512_0_0_15360 x), ?_⟩
  refine List.forall_mem_cons.2 ⟨fun x => (congrFun (payTC_29_eq (v0TC i) (thrTC x0)) x).trans (piece_apply i (thrTC x0) 14848 inb_S1x1x16384_S1x1x512_0_0_14848 x), ?_⟩
  refine List.forall_mem_cons.2 ⟨fun x => (congrFun (payTC_28_eq (v0TC i) (thrTC x0)) x).trans (piece_apply i (thrTC x0) 14336 inb_S1x1x16384_S1x1x512_0_0_14336 x), ?_⟩
  refine List.forall_mem_cons.2 ⟨fun x => (congrFun (payTC_27_eq (v0TC i) (thrTC x0)) x).trans (piece_apply i (thrTC x0) 13824 inb_S1x1x16384_S1x1x512_0_0_13824 x), ?_⟩
  refine List.forall_mem_cons.2 ⟨fun x => (congrFun (payTC_26_eq (v0TC i) (thrTC x0)) x).trans (piece_apply i (thrTC x0) 13312 inb_S1x1x16384_S1x1x512_0_0_13312 x), ?_⟩
  refine List.forall_mem_cons.2 ⟨fun x => (congrFun (payTC_25_eq (v0TC i) (thrTC x0)) x).trans (piece_apply i (thrTC x0) 12800 inb_S1x1x16384_S1x1x512_0_0_12800 x), ?_⟩
  refine List.forall_mem_cons.2 ⟨fun x => (congrFun (payTC_24_eq (v0TC i) (thrTC x0)) x).trans (piece_apply i (thrTC x0) 12288 inb_S1x1x16384_S1x1x512_0_0_12288 x), ?_⟩
  refine List.forall_mem_cons.2 ⟨fun x => (congrFun (payTC_23_eq (v0TC i) (thrTC x0)) x).trans (piece_apply i (thrTC x0) 11776 inb_S1x1x16384_S1x1x512_0_0_11776 x), ?_⟩
  refine List.forall_mem_cons.2 ⟨fun x => (congrFun (payTC_22_eq (v0TC i) (thrTC x0)) x).trans (piece_apply i (thrTC x0) 11264 inb_S1x1x16384_S1x1x512_0_0_11264 x), ?_⟩
  refine List.forall_mem_cons.2 ⟨fun x => (congrFun (payTC_21_eq (v0TC i) (thrTC x0)) x).trans (piece_apply i (thrTC x0) 10752 inb_S1x1x16384_S1x1x512_0_0_10752 x), ?_⟩
  refine List.forall_mem_cons.2 ⟨fun x => (congrFun (payTC_20_eq (v0TC i) (thrTC x0)) x).trans (piece_apply i (thrTC x0) 10240 inb_S1x1x16384_S1x1x512_0_0_10240 x), ?_⟩
  refine List.forall_mem_cons.2 ⟨fun x => (congrFun (payTC_19_eq (v0TC i) (thrTC x0)) x).trans (piece_apply i (thrTC x0) 9728 inb_S1x1x16384_S1x1x512_0_0_9728 x), ?_⟩
  refine List.forall_mem_cons.2 ⟨fun x => (congrFun (payTC_18_eq (v0TC i) (thrTC x0)) x).trans (piece_apply i (thrTC x0) 9216 inb_S1x1x16384_S1x1x512_0_0_9216 x), ?_⟩
  refine List.forall_mem_cons.2 ⟨fun x => (congrFun (payTC_17_eq (v0TC i) (thrTC x0)) x).trans (piece_apply i (thrTC x0) 8704 inb_S1x1x16384_S1x1x512_0_0_8704 x), ?_⟩
  refine List.forall_mem_cons.2 ⟨fun x => (congrFun (payTC_16_eq (v0TC i) (thrTC x0)) x).trans (piece_apply i (thrTC x0) 8192 inb_S1x1x16384_S1x1x512_0_0_8192 x), ?_⟩
  refine List.forall_mem_cons.2 ⟨fun x => (congrFun (payTC_15_eq (v0TC i) (thrTC x0)) x).trans (piece_apply i (thrTC x0) 7680 inb_S1x1x16384_S1x1x512_0_0_7680 x), ?_⟩
  refine List.forall_mem_cons.2 ⟨fun x => (congrFun (payTC_14_eq (v0TC i) (thrTC x0)) x).trans (piece_apply i (thrTC x0) 7168 inb_S1x1x16384_S1x1x512_0_0_7168 x), ?_⟩
  refine List.forall_mem_cons.2 ⟨fun x => (congrFun (payTC_13_eq (v0TC i) (thrTC x0)) x).trans (piece_apply i (thrTC x0) 6656 inb_S1x1x16384_S1x1x512_0_0_6656 x), ?_⟩
  refine List.forall_mem_cons.2 ⟨fun x => (congrFun (payTC_12_eq (v0TC i) (thrTC x0)) x).trans (piece_apply i (thrTC x0) 6144 inb_S1x1x16384_S1x1x512_0_0_6144 x), ?_⟩
  refine List.forall_mem_cons.2 ⟨fun x => (congrFun (payTC_11_eq (v0TC i) (thrTC x0)) x).trans (piece_apply i (thrTC x0) 5632 inb_S1x1x16384_S1x1x512_0_0_5632 x), ?_⟩
  refine List.forall_mem_cons.2 ⟨fun x => (congrFun (payTC_10_eq (v0TC i) (thrTC x0)) x).trans (piece_apply i (thrTC x0) 5120 inb_S1x1x16384_S1x1x512_0_0_5120 x), ?_⟩
  refine List.forall_mem_cons.2 ⟨fun x => (congrFun (payTC_9_eq (v0TC i) (thrTC x0)) x).trans (piece_apply i (thrTC x0) 4608 inb_S1x1x16384_S1x1x512_0_0_4608 x), ?_⟩
  refine List.forall_mem_cons.2 ⟨fun x => (congrFun (payTC_8_eq (v0TC i) (thrTC x0)) x).trans (piece_apply i (thrTC x0) 4096 inb_S1x1x16384_S1x1x512_0_0_4096 x), ?_⟩
  refine List.forall_mem_cons.2 ⟨fun x => (congrFun (payTC_7_eq (v0TC i) (thrTC x0)) x).trans (piece_apply i (thrTC x0) 3584 inb_S1x1x16384_S1x1x512_0_0_3584 x), ?_⟩
  refine List.forall_mem_cons.2 ⟨fun x => (congrFun (payTC_6_eq (v0TC i) (thrTC x0)) x).trans (piece_apply i (thrTC x0) 3072 inb_S1x1x16384_S1x1x512_0_0_3072 x), ?_⟩
  refine List.forall_mem_cons.2 ⟨fun x => (congrFun (payTC_5_eq (v0TC i) (thrTC x0)) x).trans (piece_apply i (thrTC x0) 2560 inb_S1x1x16384_S1x1x512_0_0_2560 x), ?_⟩
  refine List.forall_mem_cons.2 ⟨fun x => (congrFun (payTC_4_eq (v0TC i) (thrTC x0)) x).trans (piece_apply i (thrTC x0) 2048 inb_S1x1x16384_S1x1x512_0_0_2048 x), ?_⟩
  refine List.forall_mem_cons.2 ⟨fun x => (congrFun (payTC_3_eq (v0TC i) (thrTC x0)) x).trans (piece_apply i (thrTC x0) 1536 inb_S1x1x16384_S1x1x512_0_0_1536 x), ?_⟩
  refine List.forall_mem_cons.2 ⟨fun x => (congrFun (payTC_2_eq (v0TC i) (thrTC x0)) x).trans (piece_apply i (thrTC x0) 1024 inb_S1x1x16384_S1x1x512_0_0_1024 x), ?_⟩
  refine List.forall_mem_cons.2 ⟨fun x => (congrFun (payTC_1_eq (v0TC i) (thrTC x0)) x).trans (piece_apply i (thrTC x0) 512 inb_S1x1x16384_S1x1x512_0_0_512 x), ?_⟩
  refine List.forall_mem_cons.2 ⟨fun x => (congrFun (payTC_0_eq i (thrTC x0)) x).trans (piece_apply i (thrTC x0) 0 inb_S1x1x16384_S1x1x512_0_0_0 x), ?_⟩
  exact fun p hp => absurd hp (List.not_mem_nil)

end Cert.TcBodyIdeal

end
-- ==== Proof.lean ====
/-
  Bernoulli bit-packing: row `r` of the result is a 32-bit word whose bit `j` says whether the uniform variate of
  counter `32 r + j` (Threefry-2x32 under the key (0, 42), the top 23 bits `m` of the xor of its two output words,
  read as `m / 2²³`) is below the probability `p`. The reference draws the variates as floats and compares them with
  `p`; the kernel compares the integer `m` with the threshold word `⌈clip (p · 2²³) 0 2²³⌉`, rows 0 … 770047 on the
  TensorCore (47 grid points of 16384 rows) and rows 770048 … 1048575 on the 32 SparseCore tiles (8704 rows each), and
  concatenates. For a 23-bit integer `m` the two tests agree for every extended real `p`, so both programs end with
  `Spec.word (thresh p) r` in row `r`.

  The three frames: each program's run is proved with every array of the claim named (the kernel's by the SparseCore
  launch theorem over the tiles' obligation, @main's host lines, the TensorCore region and the SparseCore call; the
  reference's as a straight line of host operations), and the frame drops the result. The idealization's ledger is
  empty, so the conjunct that the idealized kernel is the kernel's sanctioned idealization is `True`.
-/
import proofs.«203736_g78743930405654_cont_9to1c4b_297_23_alg».proof.Defs
import proofs.«203736_g78743930405654_cont_9to1c4b_297_23_alg».proof.Proof.Gen.Kernel
import proofs.«203736_g78743930405654_cont_9to1c4b_297_23_alg».proof.Proof.Gen.KernelIdeal
import proofs.«203736_g78743930405654_cont_9to1c4b_297_23_alg».proof.Proof.Gen.ReferenceIdeal
import proofs.«203736_g78743930405654_cont_9to1c4b_297_23_alg».proof.Proof.Gen.Pre_finite_inputs
import proofs.«203736_g78743930405654_cont_9to1c4b_297_23_alg».proof.Proof.RunIdeal
import proofs.«203736_g78743930405654_cont_9to1c4b_297_23_alg».proof.Proof.RunBits
import proofs.«203736_g78743930405654_cont_9to1c4b_297_23_alg».proof.Proof.TcBodyIdeal
import proofs.«203736_g78743930405654_cont_9to1c4b_297_23_alg».proof.Proof.TcBodyBits
import proofs.«203736_g78743930405654_cont_9to1c4b_297_23_alg».proof.Proof.TileOblIdeal
import proofs.«203736_g78743930405654_cont_9to1c4b_297_23_alg».proof.Proof.TileOblBits
import proofs.«203736_g78743930405654_cont_9to1c4b_297_23_alg».proof.Proof.TileIdealValue
import proofs.«203736_g78743930405654_cont_9to1c4b_297_23_alg».proof.Proof.TileBitsValue
import proofs.«203736_g78743930405654_cont_9to1c4b_297_23_alg».proof.Proof.RefRun
import proofs.«203736_g78743930405654_cont_9to1c4b_297_23_alg».proof.Proof.RefValue
import proofs.«203736_g78743930405654_cont_9to1c4b_297_23_alg».proof.Proof.KernelValueIdeal
import proofs.«203736_g78743930405654_cont_9to1c4b_297_23_alg».proof.Proof.TcBodyIdealValue
import Idealize.ShloMosaic.Adequacy
import Idealize.ShloMosaic.Init

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

/-! ## The tiles' obligation at each instance, from the tile's body -/

theorem tileObl_bits (m : (ℓ : Loc Cert.Kernel.nD Cert.Kernel.τ Cert.Kernel.sig) → Buf (Elt Bits) ℓ) :
    (Cert.LaunchBits.K (F := Bits)).TileObl (Cert.LaunchBits.D (F := Bits)) Cert.LaunchBits.𝒱 (Cert.LaunchBits.P m) Cert.LaunchBits.v₀ 0 :=
  Cert.LaunchBits.tileObl_of m fun d L O W hO q th f₀ =>
    Cert.TileBits.tile_body (U := Cert.LaunchBits.UU) d L Cert.LaunchBits.facts O W hO q (fun _ => th) th (fun _ => rfl) f₀

theorem tileObl_ideal (m : (ℓ : Loc Cert.KernelIdeal.nD Cert.KernelIdeal.τ Cert.KernelIdeal.sig) → Buf (Elt Ideal) ℓ) :
    (Cert.LaunchIdeal.K (F := Ideal)).TileObl (Cert.LaunchIdeal.D (F := Ideal)) Cert.LaunchIdeal.𝒱 (Cert.LaunchIdeal.P m) Cert.LaunchIdeal.v₀ 0 :=
  Cert.LaunchIdeal.tileObl_of m fun d L O W hO q th f₀ =>
    Cert.TileIdeal.tile_body (U := Cert.LaunchIdeal.UU) d L Cert.LaunchIdeal.facts O W hO q (fun _ => th) th (fun _ => rfl) f₀

/-! ## The frames -/

theorem frame_kernel : Cert.frame_Kernel := fun m ρ _ =>
  (θ_run Cert.Kernel.defs _ _).mono
    (fun r h c => ⟨(h c _ (Cert.LaunchBits.mem_uc Cert.Kernel.main_arg0 (by decide))).trans (Cert.LaunchBits.W5_arg0 m Cert.TcBodyBits.outTC c),
      (h c _ (Cert.LaunchBits.mem_uc Cert.Kernel.main_arg1 (by decide))).trans (Cert.LaunchBits.W5_arg1 m Cert.TcBodyBits.outTC c)⟩)
    (Cert.LaunchBits.run_main (F := Bits) m ρ Cert.TcBodyBits.outTC
      (fun c E i a1 h1 a2 h2 x0 Kk => Cert.TcBodyBits.sound_kernel c E i a1 h1 a2 h2 x0 Kk) (tileObl_bits m))

theorem frame_kernelIdeal : Cert.frame_KernelIdeal := fun m ρ _ =>
  (θ_run Cert.KernelIdeal.defs _ _).mono
    (fun r h c => ⟨(h c _ (Cert.LaunchIdeal.mem_uc Cert.KernelIdeal.main_arg0 (by decide))).trans (Cert.LaunchIdeal.W5_arg0 m Cert.TcBodyIdeal.outTC c),
      (h c _ (Cert.LaunchIdeal.mem_uc Cert.KernelIdeal.main_arg1 (by decide))).trans (Cert.LaunchIdeal.W5_arg1 m Cert.TcBodyIdeal.outTC c)⟩)
    (Cert.LaunchIdeal.run_main (F := Ideal) m ρ Cert.TcBodyIdeal.outTC
      (fun c E i a1 h1 a2 h2 x0 Kk => Cert.TcBodyIdeal.sound_kernel c E i a1 h1 a2 h2 x0 Kk) (tileObl_ideal m))

theorem frame_referenceIdeal : Cert.frame_ReferenceIdeal := fun m ρ _ =>
  (θ_run Cert.ReferenceIdeal.defs _ _).mono (fun _ h c => (h c).2) (Cert.RefSide.ref_run m ρ)

/-! ## The two idealized programs end with the same words -/

theorem algebraic : Cert.algebraic_KernelIdeal_ReferenceIdeal := by
  intro m ρ m' ρ' _ hagree
  refine ⟨fun c => fun i : Cert.KernelIdeal.S1048576.Idx => Cert.Spec.word (Cert.UniformThreshold.thresh
      ((m ((c.tc : Thread Cert.KernelIdeal.nD Cert.KernelIdeal.τ).loc Cert.KernelIdeal.main_arg1) : (⟨Cert.KernelIdeal.S_, .f32⟩ : BufTy).Contents (Elt Ideal)) ValueIdx.ix0)) (i 0).val, ?_, ?_⟩
  · refine (θ_run Cert.KernelIdeal.defs _ _).mono (fun r h c => ⟨?_, ?_, ?_⟩)
      (Cert.LaunchIdeal.run_main (F := Ideal) m ρ Cert.TcBodyIdeal.outTC
        (fun c E i a1 h1 a2 h2 x0 Kk => Cert.TcBodyIdeal.sound_kernel c E i a1 h1 a2 h2 x0 Kk) (tileObl_ideal m))
    · exact (h c _ (Cert.LaunchIdeal.mem_uc Cert.KernelIdeal.main_v13 (by decide))).trans
        ((Cert.LaunchIdeal.W5_v13 m Cert.TcBodyIdeal.outTC c).trans (Cert.KernelOut.kernel_value m Cert.TcBodyIdeal.outTC_apply c))
    · exact (h c _ (Cert.LaunchIdeal.mem_uc Cert.KernelIdeal.main_arg0 (by decide))).trans (Cert.LaunchIdeal.W5_arg0 m Cert.TcBodyIdeal.outTC c)
    · exact (h c _ (Cert.LaunchIdeal.mem_uc Cert.KernelIdeal.main_arg1 (by decide))).trans (Cert.LaunchIdeal.W5_arg1 m Cert.TcBodyIdeal.outTC c)
  · refine (θ_run Cert.ReferenceIdeal.defs _ _).mono (fun r h c => ⟨(h c).1.trans ?_, (h c).2.1, (h c).2.2⟩) (Cert.RefSide.ref_run m' ρ')
    rw [Cert.RefSide.refTerm_eq, (hagree c).2]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
